-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.named_const.Statement Cert.KernelIdeal.κ "inv_768" .f32 0x3AAAAAAB#32 ((1 / 768 : ℝ) : EReal)
  ∧ IdealRules.named_const.Statement Cert.KernelIdeal.κ "inv_768" .f32 0x3AAAAAAB#32 ((1 / 768 : ℝ) : EReal)
  ∧ IdealRules.named_const.Statement Cert.KernelIdeal.κ "inv_768" .f32 0x3AAAAAAB#32 ((1 / 768 : ℝ) : EReal)
  ∧ IdealRules.named_const.Statement Cert.KernelIdeal.κ "inv_768" .f32 0x3AAAAAAB#32 ((1 / 768 : ℝ) : EReal)
  ∧ IdealRules.named_const.Statement Cert.KernelIdeal.κ "inv_768" .f32 0x3AAAAAAB#32 ((1 / 768 : ℝ) : EReal)
  ∧ IdealRules.named_const.Statement Cert.KernelIdeal.κ "inv_768" .f32 0x3AAAAAAB#32 ((1 / 768 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v296) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S2048x3 : Shape := ⟨2, ![2048, 3]⟩
abbrev S3x257x128 : Shape := ⟨3, ![3, 257, 128]⟩
abbrev S3x128 : Shape := ⟨2, ![3, 128]⟩
abbrev S3x128x128 : Shape := ⟨3, ![3, 128, 128]⟩
abbrev S3x257x1 : Shape := ⟨3, ![3, 257, 1]⟩
abbrev S3x1 : Shape := ⟨2, ![3, 1]⟩
abbrev S256 : Shape := ⟨1, ![256]⟩
abbrev S256x128 : Shape := ⟨2, ![256, 128]⟩
abbrev S128 : Shape := ⟨1, ![128]⟩
abbrev S768 : Shape := ⟨1, ![768]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S2048x3 : S_.BroadcastsInDim S2048x3 (![] : Fin 0 → Fin S2048x3.rank)
  reducesTo_S2048x3_S_d0_1 : S2048x3.ReducesTo [0, 1] S_
  bcast_S_S3x257x128 : S_.BroadcastsInDim S3x257x128 (![] : Fin 0 → Fin S3x257x128.rank)
  reducesTo_S3x257x128_S_d0_1_2 : S3x257x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x257x1 : S_.BroadcastsInDim S3x257x1 (![] : Fin 0 → Fin S3x257x1.rank)
  reducesTo_S3x257x1_S_d0_1_2 : S3x257x1.ReducesTo [0, 1, 2] S_
  bcast_S_S3x1 : S_.BroadcastsInDim S3x1 (![] : Fin 0 → Fin S3x1.rank)
  reducesTo_S3x1_S_d0_1 : S3x1.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg11 : FVec F S128 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg7 : FVec F S3x1 .f32) (main_arg8 : FVec F S256 .f32) (main_arg9 : FVec F S256 .f32) (main_arg10 : FVec F S256x128 .f32) (main_arg11 : FVec F S128 .f32) (main_v33 : IVec S_ 1) : IVec S_ 1 :=
  let main_v34 : FVec F S3x1 .f32 := Host.absf main_arg7
  let main_cst_12 : FVec F S_ .f32 := constant S_ .f32 0x7F800000#32
  let main_v35 : FVec F S3x1 .f32 := broadcastInDim S3x1 ![] bcast_S_S3x1 main_cst_12
  let main_v36 : IVec S3x1 1 := cmpf .olt main_v34 main_v35
  let main_c_13 : IVec S_ 1 := constantI S_ 1 1#1
  let main_v37 : IVec S_ 1 := (fun x v => Host.reduce IntOp.andi x v reducesTo_S3x1_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x128 .f32 := Host.absf main_arg10
  let main_cst_18 : FVec F S_ .f32 := constant S_ .f32 0x7F800000#32
  let main_v50 : FVec F S256x128 .f32 := broadcastInDim S256x128 ![] bcast_S_S256x128 main_cst_18
  fn_part3 (F := F) main_arg11 main_v48 main_v49 main_v50

def fn_part1 {F : FTy → Type} [FloatOps F] (main_arg4 : FVec F S3x128x128 .f32) (main_arg5 : FVec F S3x128 .f32) (main_arg6 : FVec F S3x257x1 .f32) (main_arg7 : FVec F S3x1 .f32) (main_arg8 : FVec F S256 .f32) (main_arg9 : FVec F S256 .f32) (main_arg10 : FVec F S256x128 .f32) (main_arg11 : FVec F S128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128x128 .f32 := Host.absf main_arg4
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg5
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x257x1 .f32 := Host.absf main_arg6
  let main_cst_10 : FVec F S_ .f32 := constant S_ .f32 0x7F800000#32
  let main_v30 : FVec F S3x257x1 .f32 := broadcastInDim S3x257x1 ![] bcast_S_S3x257x1 main_cst_10
  let main_v31 : IVec S3x257x1 1 := cmpf .olt main_v29 main_v30
  let main_c_11 : IVec S_ 1 := constantI S_ 1 1#1
  let main_v32 : IVec S_ 1 := (fun x v => Host.reduce IntOp.andi x v reducesTo_S3x257x1_S_d0_1_2 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S2048x128 .f32) (main_arg1 : FVec F S2048x3 .f32) (main_arg2 : FVec F S3x257x128 .f32) (main_arg3 : FVec F S3x128 .f32) (main_arg4 : FVec F S3x128x128 .f32) (main_arg5 : FVec F S3x128 .f32) (main_arg6 : FVec F S3x257x1 .f32) (main_arg7 : FVec F S3x1 .f32) (main_arg8 : FVec F S256 .f32) (main_arg9 : FVec F S256 .f32) (main_arg10 : FVec F S256x128 .f32) (main_arg11 : FVec F S128 .f32) (main_arg12 : IVec S768 32) (main_arg13 : IVec S768 32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S2048x3 .f32 := Host.absf main_arg1
  let main_cst_0 : FVec F S_ .f32 := constant S_ .f32 0x7F800000#32
  let main_v5 : FVec F S2048x3 .f32 := broadcastInDim S2048x3 ![] bcast_S_S2048x3 main_cst_0
  let main_v6 : IVec S2048x3 1 := cmpf .olt main_v4 main_v5
  let main_c_1 : IVec S_ 1 := constantI S_ 1 1#1
  let main_v7 : IVec S_ 1 := (fun x v => Host.reduce IntOp.andi x v reducesTo_S2048x3_S_d0_1 h_S_) main_v6 main_c_1
  let main_v8 : IVec S_ 1 := andi main_v3 main_v7
  let main_v9 : FVec F S3x257x128 .f32 := Host.absf main_arg2
  let main_cst_2 : FVec F S_ .f32 := constant S_ .f32 0x7F800000#32
  let main_v10 : FVec F S3x257x128 .f32 := broadcastInDim S3x257x128 ![] bcast_S_S3x257x128 main_cst_2
  let main_v11 : IVec S3x257x128 1 := cmpf .olt main_v9 main_v10
  let main_c_3 : IVec S_ 1 := constantI S_ 1 1#1
  let main_v12 : IVec S_ 1 := (fun x v => Host.reduce IntOp.andi x v reducesTo_S3x257x128_S_d0_1_2 h_S_) main_v11 main_c_3
  let main_v13 : IVec S_ 1 := andi main_v8 main_v12
  let main_v14 : FVec F S3x128 .f32 := Host.absf main_arg3
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg4 main_arg5 main_arg6 main_arg7 main_arg8 main_arg9 main_arg10 main_arg11 main_v13 main_v16
-- ==== Kernel.lean ====
abbrev S2048x128 : Shape := ⟨2, ![2048, 128]⟩
abbrev S2048x3 : Shape := ⟨2, ![2048, 3]⟩
abbrev S3x257x128 : Shape := ⟨3, ![3, 257, 128]⟩
abbrev S3x128 : Shape := ⟨2, ![3, 128]⟩
abbrev S3x128x128 : Shape := ⟨3, ![3, 128, 128]⟩
abbrev S3x257x1 : Shape := ⟨3, ![3, 257, 1]⟩
abbrev S3x1 : Shape := ⟨2, ![3, 1]⟩
abbrev S256 : Shape := ⟨1, ![256]⟩
abbrev S256x128 : Shape := ⟨2, ![256, 128]⟩
abbrev S128 : Shape := ⟨1, ![128]⟩
abbrev S768 : Shape := ⟨1, ![768]⟩
abbrev S_ : Shape := ⟨0, ![]⟩
abbrev S768x1 : Shape := ⟨2, ![768, 1]⟩
abbrev S768x128 : Shape := ⟨2, ![768, 128]⟩
abbrev S768x3 : Shape := ⟨2, ![768, 3]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩
abbrev S1x128x1 : Shape := ⟨3, ![1, 128, 1]⟩
abbrev S128x1 : Shape := ⟨2, ![128, 1]⟩
abbrev S1x1x1 : Shape := ⟨3, ![1, 1, 1]⟩
abbrev S1x1 : Shape := ⟨2, ![1, 1]⟩
abbrev S128x3 : Shape := ⟨2, ![128, 3]⟩
abbrev S128x1x3 : Shape := ⟨3, ![128, 1, 3]⟩
abbrev S1x128x3 : Shape := ⟨3, ![1, 128, 3]⟩
abbrev S128x128x3 : Shape := ⟨3, ![128, 128, 3]⟩
abbrev S128x1x128 : Shape := ⟨3, ![128, 1, 128]⟩
abbrev S128x128x128 : Shape := ⟨3, ![128, 128, 128]⟩
abbrev S128x128x1 : Shape := ⟨3, ![128, 128, 1]⟩
abbrev S128x1x1 : Shape := ⟨3, ![128, 1, 1]⟩
abbrev S2048 : Shape := ⟨1, ![2048]⟩
abbrev S2048x1 : Shape := ⟨2, ![2048, 1]⟩
abbrev S2048x256 : Shape := ⟨2, ![2048, 256]⟩
abbrev S1x256 : Shape := ⟨2, ![1, 256]⟩

abbrev nBuf : Space → Nat
  | .hbm => 163
  | .vmem => 72
  | .smem => 0
  | _ => 0

abbrev hbmTy0_0 (i : Nat) : BufTy := match i % 128 with
  | 0 => ⟨S2048x128, .f32⟩
  | 1 => ⟨S2048x3, .f32⟩
  | 2 => ⟨S3x257x128, .f32⟩
  | 3 => ⟨S3x128, .f32⟩
  | 4 => ⟨S3x128x128, .f32⟩
  | 5 => ⟨S3x128, .f32⟩
  | 6 => ⟨S3x257x1, .f32⟩
  | 7 => ⟨S3x1, .f32⟩
  | 8 => ⟨S256, .f32⟩
  | 9 => ⟨S256, .f32⟩
  | 10 => ⟨S256x128, .f32⟩
  | 11 => ⟨S128, .f32⟩
  | 12 => ⟨S768, .i32⟩
  | 13 => ⟨S768, .i32⟩
  | 14 => ⟨S_, .i32⟩
  | 15 => ⟨S768, .i32⟩
  | 16 => ⟨S768, .i1⟩
  | 17 => ⟨S_, .i32⟩
  | 18 => ⟨S768, .i32⟩
  | 19 => ⟨S768, .i32⟩
  | 20 => ⟨S768, .i32⟩
  | 21 => ⟨S768x1, .i32⟩
  | 22 => ⟨S768x128, .f32⟩
  | 23 => ⟨S_, .i32⟩
  | 24 => ⟨S768, .i32⟩
  | 25 => ⟨S768, .i1⟩
  | 26 => ⟨S_, .i32⟩
  | 27 => ⟨S768, .i32⟩
  | 28 => ⟨S768, .i32⟩
  | 29 => ⟨S768, .i32⟩
  | 30 => ⟨S768x1, .i32⟩
  | 31 => ⟨S768x3, .f32⟩
  | 32 => ⟨S1x128x128, .f32⟩
  | 33 => ⟨S128x128, .f32⟩
  | 34 => ⟨S1x128x128, .f32⟩
  | 35 => ⟨S128x128, .f32⟩
  | 36 => ⟨S1x1x128, .f32⟩
  | 37 => ⟨S1x128, .f32⟩
  | 38 => ⟨S1x128, .f32⟩
  | 39 => ⟨S1x128x128, .f32⟩
  | 40 => ⟨S128x128, .f32⟩
  | 41 => ⟨S1x128, .f32⟩
  | 42 => ⟨S1x128x1, .f32⟩
  | 43 => ⟨S128x1, .f32⟩
  | 44 => ⟨S1x128x1, .f32⟩
  | 45 => ⟨S128x1, .f32⟩
  | 46 => ⟨S1x1x1, .f32⟩
  | 47 => ⟨S1x1, .f32⟩
  | 48 => ⟨S1x1, .f32⟩
  | 49 => ⟨S768x128, .f32⟩
  | 50 => ⟨S768x3, .f32⟩
  | 51 => ⟨S1x128x128, .f32⟩
  | 52 => ⟨S128x128, .f32⟩
  | 53 => ⟨S1x128x128, .f32⟩
  | 54 => ⟨S128x128, .f32⟩
  | 55 => ⟨S1x1x128, .f32⟩
  | 56 => ⟨S1x128, .f32⟩
  | 57 => ⟨S1x128, .f32⟩
  | 58 => ⟨S1x128x128, .f32⟩
  | 59 => ⟨S128x128, .f32⟩
  | 60 => ⟨S1x128, .f32⟩
  | 61 => ⟨S1x128x1, .f32⟩
  | 62 => ⟨S128x1, .f32⟩
  | 63 => ⟨S1x128x1, .f32⟩
  | 64 => ⟨S128x1, .f32⟩
  | 65 => ⟨S1x1x1, .f32⟩
  | 66 => ⟨S1x1, .f32⟩
  | 67 => ⟨S1x1, .f32⟩
  | 68 => ⟨S768x128, .f32⟩
  | 69 => ⟨S768x3, .f32⟩
  | 70 => ⟨S1x128x128, .f32⟩
  | 71 => ⟨S128x128, .f32⟩
  | 72 => ⟨S1x128x128, .f32⟩
  | 73 => ⟨S128x128, .f32⟩
  | 74 => ⟨S1x1x128, .f32⟩
  | 75 => ⟨S1x128, .f32⟩
  | 76 => ⟨S1x128, .f32⟩
  | 77 => ⟨S1x128x128, .f32⟩
  | 78 => ⟨S128x128, .f32⟩
  | 79 => ⟨S1x128, .f32⟩
  | 80 => ⟨S1x128x1, .f32⟩
  | 81 => ⟨S128x1, .f32⟩
  | 82 => ⟨S1x128x1, .f32⟩
  | 83 => ⟨S128x1, .f32⟩
  | 84 => ⟨S1x1x1, .f32⟩
  | 85 => ⟨S1x1, .f32⟩
  | 86 => ⟨S1x1, .f32⟩
  | 87 => ⟨S768x128, .f32⟩
  | 88 => ⟨S768x3, .f32⟩
  | 89 => ⟨S_, .f32⟩
  | 90 => ⟨S2048x128, .f32⟩
  | 91 => ⟨S768x1, .i32⟩
  | 92 => ⟨S2048x128, .f32⟩
  | 93 => ⟨S_, .f32⟩
  | 94 => ⟨S768, .f32⟩
  | 95 => ⟨S_, .f32⟩
  | 96 => ⟨S2048, .f32⟩
  | 97 => ⟨S768x1, .i32⟩
  | 98 => ⟨S2048, .f32⟩
  | 99 => ⟨S2048x1, .f32⟩
  | 100 => ⟨S_, .f32⟩
  | 101 => ⟨S2048x1, .f32⟩
  | 102 => ⟨S2048x1, .i1⟩
  | 103 => ⟨S_, .f32⟩
  | 104 => ⟨S2048, .f32⟩
  | 105 => ⟨S2048, .f32⟩
  | 106 => ⟨S2048x1, .f32⟩
  | 107 => ⟨S2048x128, .f32⟩
  | 108 => ⟨S2048x128, .f32⟩
  | 109 => ⟨S_, .f32⟩
  | 110 => ⟨S_, .f32⟩
  | 111 => ⟨S2048x128, .i1⟩
  | 112 => ⟨S2048x128, .f32⟩
  | 113 => ⟨S2048x128, .f32⟩
  | 114 => ⟨S2048x256, .f32⟩
  | 115 => ⟨S_, .f32⟩
  | 116 => ⟨S256, .f32⟩
  | 117 => ⟨S_, .f32⟩
  | 118 => ⟨S256, .f32⟩
  | 119 => ⟨S256, .f32⟩
  | 120 => ⟨S_, .i32⟩
  | 121 => ⟨S_, .f32⟩
  | 122 => ⟨S256, .f32⟩
  | 123 => ⟨S1x256, .f32⟩
  | 124 => ⟨S_, .f32⟩
  | 125 => ⟨S1x256, .f32⟩
  | 126 => ⟨S1x256, .f32⟩
  | 127 => ⟨S2048x256, .f32⟩
  | _ => ⟨S2048x128, .f32⟩

abbrev hbmTy0_1 (i : Nat) : BufTy := match i % 128 with
  | 0 => ⟨S2048x256, .f32⟩
  | 1 => ⟨S2048x256, .f32⟩
  | 2 => ⟨S_, .f32⟩
  | 3 => ⟨S_, .f32⟩
  | 4 => ⟨S_, .f32⟩
  | 5 => ⟨S_, .f32⟩
  | 6 => ⟨S256, .f32⟩
  | 7 => ⟨S256, .f32⟩
  | 8 => ⟨S256, .f32⟩
  | 9 => ⟨S_, .f32⟩
  | 10 => ⟨S_, .i1⟩
  | 11 => ⟨S_, .f32⟩
  | 12 => ⟨S_, .f32⟩
  | 13 => ⟨S256, .f32⟩
  | 14 => ⟨S256, .f32⟩
  | 15 => ⟨S1x256, .f32⟩
  | 16 => ⟨S2048x256, .f32⟩
  | 17 => ⟨S2048x256, .f32⟩
  | 18 => ⟨S_, .f32⟩
  | 19 => ⟨S256, .f32⟩
  | 20 => ⟨S256, .f32⟩
  | 21 => ⟨S256, .f32⟩
  | 22 => ⟨S1x256, .f32⟩
  | 23 => ⟨S2048x256, .f32⟩
  | 24 => ⟨S2048x256, .f32⟩
  | 25 => ⟨S1x256, .f32⟩
  | 26 => ⟨S2048x256, .f32⟩
  | 27 => ⟨S2048x256, .f32⟩
  | 28 => ⟨S1x256, .f32⟩
  | 29 => ⟨S2048x256, .f32⟩
  | 30 => ⟨S2048x256, .f32⟩
  | 31 => ⟨S2048x128, .f32⟩
  | 32 => ⟨S1x128, .f32⟩
  | 33 => ⟨S2048x128, .f32⟩
  | 34 => ⟨S2048x128, .f32⟩
  | _ => ⟨S2048x128, .f32⟩

abbrev hbmTy (i : Nat) : BufTy := match i / 128 with
  | 0 => hbmTy0_0 i
  | 1 => hbmTy0_1 i
  | _ => ⟨S2048x128, .f32⟩

abbrev bufTy : (tb : Table) → Fin (tcTables nBuf tb) → BufTy
  | .hbm, ⟨i, _⟩ => hbmTy i
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x3, .f32⟩
  | .local _ .vmem, ⟨5, _⟩ => ⟨S128x3, .f32⟩
  | .local _ .vmem, ⟨6, _⟩ => ⟨S128x3, .f32⟩
  | .local _ .vmem, ⟨7, _⟩ => ⟨S128x3, .f32⟩
  | .local _ .vmem, ⟨8, _⟩ => ⟨S128x128, .f32⟩
  | .local _ .vmem, ⟨9, _⟩ => ⟨S128x128, .f32⟩
  | .local _ .vmem, ⟨10, _⟩ => ⟨S1x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S128x1, .f32⟩
  | .local _ .vmem, ⟨15, _⟩ => ⟨S128x1, .f32⟩
  | .local _ .vmem, ⟨16, _⟩ => ⟨S1x1, .f32⟩
  | .local _ .vmem, ⟨17, _⟩ => ⟨S1x1, .f32⟩
  | .local _ .vmem, ⟨18, _⟩ => ⟨S128x128, .f32⟩
  | .local _ .vmem, ⟨19, _⟩ => ⟨S128x128, .f32⟩
  | .local _ .vmem, ⟨20, _⟩ => ⟨S128x3, .f32⟩
  | .local _ .vmem, ⟨21, _⟩ => ⟨S128x3, .f32⟩
  | .local _ .vmem, ⟨22, _⟩ => ⟨S128x128, .f32⟩
  | .local _ .vmem, ⟨23, _⟩ => ⟨S128x3, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S128x3, .f32⟩
  | .local _ .vmem, ⟨29, _⟩ => ⟨S128x3, .f32⟩
  | .local _ .vmem, ⟨30, _⟩ => ⟨S128x3, .f32⟩
  | .local _ .vmem, ⟨31, _⟩ => ⟨S128x3, .f32⟩
  | .local _ .vmem, ⟨32, _⟩ => ⟨S128x128, .f32⟩
  | .local _ .vmem, ⟨33, _⟩ => ⟨S128x128, .f32⟩
  | .local _ .vmem, ⟨34, _⟩ => ⟨S1x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S128x1, .f32⟩
  | .local _ .vmem, ⟨39, _⟩ => ⟨S128x1, .f32⟩
  | .local _ .vmem, ⟨40, _⟩ => ⟨S1x1, .f32⟩
  | .local _ .vmem, ⟨41, _⟩ => ⟨S1x1, .f32⟩
  | .local _ .vmem, ⟨42, _⟩ => ⟨S128x128, .f32⟩
  | .local _ .vmem, ⟨43, _⟩ => ⟨S128x128, .f32⟩
  | .local _ .vmem, ⟨44, _⟩ => ⟨S128x3, .f32⟩
  | .local _ .vmem, ⟨45, _⟩ => ⟨S128x3, .f32⟩
  | .local _ .vmem, ⟨46, _⟩ => ⟨S128x128, .f32⟩
  | .local _ .vmem, ⟨47, _⟩ => ⟨S128x3, .f32⟩
  | .local _ .vmem, ⟨48, _⟩ => ⟨S128x128, .f32⟩
  | .local _ .vmem, ⟨49, _⟩ => ⟨S128x128, .f32⟩
  | .local _ .vmem, ⟨50, _⟩ => ⟨S128x128, .f32⟩
  | .local _ .vmem, ⟨51, _⟩ => ⟨S128x128, .f32⟩
  | .local _ .vmem, ⟨52, _⟩ => ⟨S128x3, .f32⟩
  | .local _ .vmem, ⟨53, _⟩ => ⟨S128x3, .f32⟩
  | .local _ .vmem, ⟨54, _⟩ => ⟨S128x3, .f32⟩
  | .local _ .vmem, ⟨55, _⟩ => ⟨S128x3, .f32⟩
  | .local _ .vmem, ⟨56, _⟩ => ⟨S128x128, .f32⟩
  | .local _ .vmem, ⟨57, _⟩ => ⟨S128x128, .f32⟩
  | .local _ .vmem, ⟨58, _⟩ => ⟨S1x128, .f32⟩
  | .local _ .vmem, ⟨59, _⟩ => ⟨S1x128, .f32⟩
  | .local _ .vmem, ⟨60, _⟩ => ⟨S128x128, .f32⟩
  | .local _ .vmem, ⟨61, _⟩ => ⟨S1x128, .f32⟩
  | .local _ .vmem, ⟨62, _⟩ => ⟨S128x1, .f32⟩
  | .local _ .vmem, ⟨63, _⟩ => ⟨S128x1, .f32⟩
  | .local _ .vmem, ⟨64, _⟩ => ⟨S1x1, .f32⟩
  | .local _ .vmem, ⟨65, _⟩ => ⟨S1x1, .f32⟩
  | .local _ .vmem, ⟨66, _⟩ => ⟨S128x128, .f32⟩
  | .local _ .vmem, ⟨67, _⟩ => ⟨S128x128, .f32⟩
  | .local _ .vmem, ⟨68, _⟩ => ⟨S128x3, .f32⟩
  | .local _ .vmem, ⟨69, _⟩ => ⟨S128x3, .f32⟩
  | .local _ .vmem, ⟨70, _⟩ => ⟨S128x128, .f32⟩
  | .local _ .vmem, ⟨71, _⟩ => ⟨S128x3, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31_0 : Ref sig .tc := ⟨.hbm, 49, rfl⟩
abbrev main_v31_1 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49_0 : Ref sig .tc := ⟨.hbm, 68, rfl⟩
abbrev main_v49_1 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67_0 : Ref sig .tc := ⟨.hbm, 87, rfl⟩
abbrev main_v67_1 : Ref sig .tc := ⟨.hbm, 88, rfl⟩
abbrev main_cst : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_3 : Ref sig .tc := ⟨.hbm, 93, rfl⟩
abbrev main_v71 : Ref sig .tc := ⟨.hbm, 94, rfl⟩
abbrev main_cst_4 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_5 : Ref sig .tc := ⟨.hbm, 100, rfl⟩
abbrev main_v76 : Ref sig .tc := ⟨.hbm, 101, rfl⟩
abbrev main_v77 : Ref sig .tc := ⟨.hbm, 102, rfl⟩
abbrev main_cst_6 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_7 : Ref sig .tc := ⟨.hbm, 109, rfl⟩
abbrev main_call0_v0 : Ref sig .tc := ⟨.hbm, 110, rfl⟩
abbrev main_call0_v1 : Ref sig .tc := ⟨.hbm, 111, rfl⟩
abbrev main_call0_v2 : Ref sig .tc := ⟨.hbm, 112, rfl⟩
abbrev main_v83 : Ref sig .tc := ⟨.hbm, 113, rfl⟩
abbrev main_v84 : Ref sig .tc := ⟨.hbm, 114, rfl⟩
abbrev main_cst_8 : Ref sig .tc := ⟨.hbm, 115, rfl⟩
abbrev main_v85 : Ref sig .tc := ⟨.hbm, 116, rfl⟩
abbrev main_cst_9 : Ref sig .tc := ⟨.hbm, 117, rfl⟩
abbrev main_v86 : Ref sig .tc := ⟨.hbm, 118, rfl⟩
abbrev main_v87 : Ref sig .tc := ⟨.hbm, 119, rfl⟩
abbrev main_c_10 : Ref sig .tc := ⟨.hbm, 120, rfl⟩
abbrev main_call1_cst : Ref sig .tc := ⟨.hbm, 121, rfl⟩
abbrev main_call1_v0 : Ref sig .tc := ⟨.hbm, 122, rfl⟩
abbrev main_call1_v1 : Ref sig .tc := ⟨.hbm, 123, rfl⟩
abbrev main_call1_cst_0 : Ref sig .tc := ⟨.hbm, 124, rfl⟩
abbrev main_call1_v2 : Ref sig .tc := ⟨.hbm, 125, rfl⟩
abbrev main_call1_v3 : Ref sig .tc := ⟨.hbm, 126, rfl⟩
abbrev main_call1_v4 : Ref sig .tc := ⟨.hbm, 127, rfl⟩
abbrev main_call1_v5 : Ref sig .tc := ⟨.hbm, 128, rfl⟩
abbrev main_call1_v6 : Ref sig .tc := ⟨.hbm, 129, rfl⟩
abbrev main_call1_v7 : Ref sig .tc := ⟨.hbm, 130, rfl⟩
abbrev main_call1_cst_1 : Ref sig .tc := ⟨.hbm, 131, rfl⟩
abbrev main_call1_v8 : Ref sig .tc := ⟨.hbm, 132, rfl⟩
abbrev main_call1_cst_2 : Ref sig .tc := ⟨.hbm, 133, rfl⟩
abbrev main_call1_v9 : Ref sig .tc := ⟨.hbm, 134, rfl⟩
abbrev main_call1_v10 : Ref sig .tc := ⟨.hbm, 135, rfl⟩
abbrev main_call1_v11 : Ref sig .tc := ⟨.hbm, 136, rfl⟩
abbrev main_call1_cst_3 : Ref sig .tc := ⟨.hbm, 137, rfl⟩
abbrev main_call1_v12 : Ref sig .tc := ⟨.hbm, 138, rfl⟩
abbrev main_call1_cst_4 : Ref sig .tc := ⟨.hbm, 139, rfl⟩
abbrev main_call1_call0_v0 : Ref sig .tc := ⟨.hbm, 140, rfl⟩
abbrev main_call1_call0_v1 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_cst_11 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_scratch0 : Ref sig .tc := ⟨.vmem, 22, rfl⟩
abbrev cc0_scratch1 : Ref sig .tc := ⟨.vmem, 23, rfl⟩
abbrev cc1_stg0_0 : Ref sig .tc := ⟨.vmem, 24, rfl⟩
abbrev cc1_stg0_1 : Ref sig .tc := ⟨.vmem, 25, rfl⟩
abbrev cc1_stg1_0 : Ref sig .tc := ⟨.vmem, 26, rfl⟩
abbrev cc1_stg1_1 : Ref sig .tc := ⟨.vmem, 27, rfl⟩
abbrev cc1_stg2_0 : Ref sig .tc := ⟨.vmem, 28, rfl⟩
abbrev cc1_stg2_1 : Ref sig .tc := ⟨.vmem, 29, rfl⟩
abbrev cc1_stg3_0 : Ref sig .tc := ⟨.vmem, 30, rfl⟩
abbrev cc1_stg3_1 : Ref sig .tc := ⟨.vmem, 31, rfl⟩
abbrev cc1_stg4_0 : Ref sig .tc := ⟨.vmem, 32, rfl⟩
abbrev cc1_stg5_0 : Ref sig .tc := ⟨.vmem, 33, rfl⟩
abbrev cc1_stg6_0 : Ref sig .tc := ⟨.vmem, 34, rfl⟩
abbrev cc1_stg7_0 : Ref sig .tc := ⟨.vmem, 35, rfl⟩
abbrev cc1_stg8_0 : Ref sig .tc := ⟨.vmem, 36, rfl⟩
abbrev cc1_stg9_0 : Ref sig .tc := ⟨.vmem, 37, rfl⟩
abbrev cc1_stg10_0 : Ref sig .tc := ⟨.vmem, 38, rfl⟩
abbrev cc1_stg11_0 : Ref sig .tc := ⟨.vmem, 39, rfl⟩
abbrev cc1_stg12_0 : Ref sig .tc := ⟨.vmem, 40, rfl⟩
abbrev cc1_stg13_0 : Ref sig .tc := ⟨.vmem, 41, rfl⟩
abbrev cc1_stg14_0 : Ref sig .tc := ⟨.vmem, 42, rfl⟩
abbrev cc1_stg14_1 : Ref sig .tc := ⟨.vmem, 43, rfl⟩
abbrev cc1_stg15_0 : Ref sig .tc := ⟨.vmem, 44, rfl⟩
abbrev cc1_stg15_1 : Ref sig .tc := ⟨.vmem, 45, rfl⟩
abbrev cc1_scratch0 : Ref sig .tc := ⟨.vmem, 46, rfl⟩
abbrev cc1_scratch1 : Ref sig .tc := ⟨.vmem, 47, rfl⟩
abbrev cc2_stg0_0 : Ref sig .tc := ⟨.vmem, 48, rfl⟩
abbrev cc2_stg0_1 : Ref sig .tc := ⟨.vmem, 49, rfl⟩
abbrev cc2_stg1_0 : Ref sig .tc := ⟨.vmem, 50, rfl⟩
abbrev cc2_stg1_1 : Ref sig .tc := ⟨.vmem, 51, rfl⟩
abbrev cc2_stg2_0 : Ref sig .tc := ⟨.vmem, 52, rfl⟩
abbrev cc2_stg2_1 : Ref sig .tc := ⟨.vmem, 53, rfl⟩
abbrev cc2_stg3_0 : Ref sig .tc := ⟨.vmem, 54, rfl⟩
abbrev cc2_stg3_1 : Ref sig .tc := ⟨.vmem, 55, rfl⟩
abbrev cc2_stg4_0 : Ref sig .tc := ⟨.vmem, 56, rfl⟩
abbrev cc2_stg5_0 : Ref sig .tc := ⟨.vmem, 57, rfl⟩
abbrev cc2_stg6_0 : Ref sig .tc := ⟨.vmem, 58, rfl⟩
abbrev cc2_stg7_0 : Ref sig .tc := ⟨.vmem, 59, rfl⟩
abbrev cc2_stg8_0 : Ref sig .tc := ⟨.vmem, 60, rfl⟩
abbrev cc2_stg9_0 : Ref sig .tc := ⟨.vmem, 61, rfl⟩
abbrev cc2_stg10_0 : Ref sig .tc := ⟨.vmem, 62, rfl⟩
abbrev cc2_stg11_0 : Ref sig .tc := ⟨.vmem, 63, rfl⟩
abbrev cc2_stg12_0 : Ref sig .tc := ⟨.vmem, 64, rfl⟩
abbrev cc2_stg13_0 : Ref sig .tc := ⟨.vmem, 65, rfl⟩
abbrev cc2_stg14_0 : Ref sig .tc := ⟨.vmem, 66, rfl⟩
abbrev cc2_stg14_1 : Ref sig .tc := ⟨.vmem, 67, rfl⟩
abbrev cc2_stg15_0 : Ref sig .tc := ⟨.vmem, 68, rfl⟩
abbrev cc2_stg15_1 : Ref sig .tc := ⟨.vmem, 69, rfl⟩
abbrev cc2_scratch0 : Ref sig .tc := ⟨.vmem, 70, rfl⟩
abbrev cc2_scratch1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem5_0 : DmaSem sig := 31
abbrev cc1_sem6_0 : DmaSem sig := 32
abbrev cc1_sem7_0 : DmaSem sig := 33
abbrev cc1_sem8_0 : DmaSem sig := 34
abbrev cc1_sem9_0 : DmaSem sig := 35
abbrev cc1_sem10_0 : DmaSem sig := 36
abbrev cc1_sem11_0 : DmaSem sig := 37
abbrev cc1_sem12_0 : DmaSem sig := 38
abbrev cc1_sem13_0 : DmaSem sig := 39
abbrev cc1_sem14_0 : DmaSem sig := 40
abbrev cc1_sem14_1 : DmaSem sig := 41
abbrev cc1_sem15_0 : DmaSem sig := 42
abbrev cc1_sem15_1 : DmaSem sig := 43
abbrev cc2_sem0_0 : DmaSem sig := 44
abbrev cc2_sem0_1 : DmaSem sig := 45
abbrev cc2_sem1_0 : DmaSem sig := 46
abbrev cc2_sem1_1 : DmaSem sig := 47
abbrev cc2_sem2_0 : DmaSem sig := 48
abbrev cc2_sem2_1 : DmaSem sig := 49
abbrev cc2_sem3_0 : DmaSem sig := 50
abbrev cc2_sem3_1 : DmaSem sig := 51
abbrev cc2_sem4_0 : DmaSem sig := 52
abbrev cc2_sem5_0 : DmaSem sig := 53
abbrev cc2_sem6_0 : DmaSem sig := 54
abbrev cc2_sem7_0 : DmaSem sig := 55
abbrev cc2_sem8_0 : DmaSem sig := 56
abbrev cc2_sem9_0 : DmaSem sig := 57
abbrev cc2_sem10_0 : DmaSem sig := 58
abbrev cc2_sem11_0 : DmaSem sig := 59
abbrev cc2_sem12_0 : DmaSem sig := 60
abbrev cc2_sem13_0 : DmaSem sig := 61
abbrev cc2_sem14_0 : DmaSem sig := 62
abbrev cc2_sem14_1 : DmaSem sig := 63
abbrev cc2_sem15_0 : DmaSem sig := 64
abbrev cc2_sem15_1 : DmaSem sig := 65

abbrev nD : Nat := 1
abbrev τ : Topo := Topo.v7x

variable {F : FTy → Type} [FloatOps F]

abbrev grid0 : Pipeline.Grid := ⟨2, ![6, 6], ![false, false]⟩

def k0_cond2 (i : grid0.Coords) : BitVec 1 :=
  let arg1 : BitVec 32 := BitVec.ofNat 32 (i 1).val
  let c5_i32 : BitVec 32 := 5#32
  let v92 : BitVec 1 := Scalar.cmpi .eq arg1 c5_i32
  let v93 : BitVec 32 := Scalar.extui v92
  let c0_i32_42 : BitVec 32 := 0#32
  let v94 : BitVec 1 := Scalar.cmpi .ne v93 c0_i32_42
  v94

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S128x3 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev grid1 : Pipeline.Grid := ⟨2, ![6, 6], ![false, false]⟩

def k1_cond2 (i : grid1.Coords) : BitVec 1 :=
  let arg1 : BitVec 32 := BitVec.ofNat 32 (i 1).val
  let c5_i32 : BitVec 32 := 5#32
  let v92 : BitVec 1 := Scalar.cmpi .eq arg1 c5_i32
  let v93 : BitVec 32 := Scalar.extui v92
  let c0_i32_42 : BitVec 32 := 0#32
  let v94 : BitVec 1 := Scalar.cmpi .ne v93 c0_i32_42
  v94

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S128x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S128x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S128x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S1x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S1x1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 2 → Memref sig .tc .vmem S128x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, false]

abbrev stage1_15 : Fin 2 → Memref sig .tc .vmem S128x3 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, false]

abbrev grid2 : Pipeline.Grid := ⟨2, ![6, 6], ![false, false]⟩

def k2_cond2 (i : grid2.Coords) : BitVec 1 :=
  let arg1 : BitVec 32 := BitVec.ofNat 32 (i 1).val
  let c5_i32 : BitVec 32 := 5#32
  let v92 : BitVec 1 := Scalar.cmpi .eq arg1 c5_i32
  let v93 : BitVec 32 := Scalar.extui v92
  let c0_i32_42 : BitVec 32 := 0#32
  let v94 : BitVec 1 := Scalar.cmpi .ne v93 c0_i32_42
  v94

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_15 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S128x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S128x3 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S128x3 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S128x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S128x1 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S128x1 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 1 → Memref sig .tc .vmem S1x1 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false, false]

abbrev stage2_13 : Fin 1 → Memref sig .tc .vmem S1x1 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false, false]

abbrev stage2_14 : Fin 2 → Memref sig .tc .vmem S128x128 .f32 := fun | 0 => Memref.whole cc2_stg14_0 | 1 => Memref.whole cc2_stg14_1 | ⟨_ + 2, h⟩ => absurd h (Nat.not_lt.2 (Nat.le_add_left _ _))
abbrev sem2_14 : Fin 2 → DmaSem sig := fun | 0 => cc2_sem14_0 | 1 => cc2_sem14_1 | ⟨_ + 2, h⟩ => absurd h (Nat.not_lt.2 (Nat.le_add_left _ _))
abbrev reads2_14 : Fin grid2.rank → Bool := ![true, false]

abbrev stage2_15 : Fin 2 → Memref sig .tc .vmem S128x3 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true, false]

class Facts₀ : Prop where
  bcast_S_S768 : S_.BroadcastsInDim S768 (![] : Fin 0 → Fin S768.rank)
  bcast_S768_S768x1_0 : S768.BroadcastsInDim S768x1 (![0] : Fin 1 → Fin S768x1.rank)
  slices_S3x257x128_S1x128x128_0_0_0 : S3x257x128.Slices ![0, 0, 0] S1x128x128
  shapeCasts_S1x128x128_S128x128 : S1x128x128.ShapeCasts S128x128
  slices_S3x257x128_S1x128x128_0_128_0 : S3x257x128.Slices ![0, 128, 0] S1x128x128
  slices_S3x257x128_S1x1x128_0_256_0 : S3x257x128.Slices ![0, 256, 0] S1x1x128
  shapeCasts_S1x1x128_S1x128 : S1x1x128.ShapeCasts S1x128
  slices_S3x128_S1x128_0_0 : S3x128.Slices ![0, 0] S1x128
  slices_S3x128x128_S1x128x128_0_0_0 : S3x128x128.Slices ![0, 0, 0] S1x128x128
  slices_S3x257x1_S1x128x1_0_0_0 : S3x257x1.Slices ![0, 0, 0] S1x128x1
  shapeCasts_S1x128x1_S128x1 : S1x128x1.ShapeCasts S128x1
  slices_S3x257x1_S1x128x1_0_128_0 : S3x257x1.Slices ![0, 128, 0] S1x128x1
  slices_S3x257x1_S1x1x1_0_256_0 : S3x257x1.Slices ![0, 256, 0] S1x1x1
  shapeCasts_S1x1x1_S1x1 : S1x1x1.ShapeCasts S1x1
  slices_S3x1_S1x1_0_0 : S3x1.Slices ![0, 0] S1x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x3_S128x3_0_0 : ∀ a, (![0, 0] : Fin 2 → Nat) a + S128x3.size a ≤ S128x3.size a
  h_S128x3 : 0 < S128x3.numel
  shapeCasts_S128x3_S128x3 : S128x3.ShapeCasts S128x3
  shapeCasts_S128x3_S128x1x3 : S128x3.ShapeCasts S128x1x3
  shapeCasts_S128x3_S1x128x3 : S128x3.ShapeCasts S1x128x3
  broadcasts_S128x1x3_S128x128x3 : S128x1x3.Broadcasts S128x128x3
  broadcasts_S1x128x3_S128x128x3 : S1x128x3.Broadcasts S128x128x3
  reduces_S128x128x3_S128x128 : S128x128x3.Reduces [2] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  shapeCasts_S128x128_S128x128x1 : S128x128.ShapeCasts S128x128x1
  shapeCasts_S1x128_S1x1x128 : S1x128.ShapeCasts S1x1x128
  broadcasts_S128x128x1_S128x128x128 : S128x128x1.Broadcasts S128x128x128
  broadcasts_S1x1x128_S128x128x128 : S1x1x128.Broadcasts S128x128x128
  reduces_S128x128x128_S128x128 : S128x128x128.Reduces [1] S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S128x1_S128x1x1 : S128x1.ShapeCasts S128x1x1
  shapeCasts_S128x1_S1x128x1 : S128x1.ShapeCasts S1x128x1
  broadcasts_S128x1x1_S128x128x1 : S128x1x1.Broadcasts S128x128x1
  broadcasts_S1x128x1_S128x128x1 : S1x128x1.Broadcasts S128x128x1
  shapeCasts_S1x1_S1x1x1 : S1x1.ShapeCasts S1x1x1
  broadcasts_S1x1x1_S128x128x1 : S1x1x1.Broadcasts S128x128x1
  broadcasts_S128x128x1_S128x128x3 : S128x128x1.Broadcasts S128x128x3
  reduces_S128x128x3_S128x3 : S128x128x3.Reduces [1] S128x3
  broadcasts_S1x128_S128x128 : S1x128.Broadcasts S128x128
  slices_S3x257x128_S1x128x128_1_0_0 : S3x257x128.Slices ![1, 0, 0] S1x128x128
  slices_S3x257x128_S1x128x128_1_128_0 : S3x257x128.Slices ![1, 128, 0] S1x128x128
  slices_S3x257x128_S1x1x128_1_256_0 : S3x257x128.Slices ![1, 256, 0] S1x1x128
  slices_S3x128_S1x128_1_0 : S3x128.Slices ![1, 0] S1x128
  slices_S3x128x128_S1x128x128_1_0_0 : S3x128x128.Slices ![1, 0, 0] S1x128x128
  slices_S3x257x1_S1x128x1_1_0_0 : S3x257x1.Slices ![1, 0, 0] S1x128x1
  slices_S3x257x1_S1x128x1_1_128_0 : S3x257x1.Slices ![1, 128, 0] S1x128x1
  slices_S3x257x1_S1x1x1_1_256_0 : S3x257x1.Slices ![1, 256, 0] S1x1x1
  slices_S3x1_S1x1_1_0 : S3x1.Slices ![1, 0] S1x1
  slices_S3x257x128_S1x128x128_2_0_0 : S3x257x128.Slices ![2, 0, 0] S1x128x128
  slices_S3x257x128_S1x128x128_2_128_0 : S3x257x128.Slices ![2, 128, 0] S1x128x128
  slices_S3x257x128_S1x1x128_2_256_0 : S3x257x128.Slices ![2, 256, 0] S1x1x128
  slices_S3x128_S1x128_2_0 : S3x128.Slices ![2, 0] S1x128
  slices_S3x128x128_S1x128x128_2_0_0 : S3x128x128.Slices ![2, 0, 0] S1x128x128
  slices_S3x257x1_S1x128x1_2_0_0 : S3x257x1.Slices ![2, 0, 0] S1x128x1
  slices_S3x257x1_S1x128x1_2_128_0 : S3x257x1.Slices ![2, 128, 0] S1x128x1
  slices_S3x257x1_S1x1x1_2_256_0 : S3x257x1.Slices ![2, 256, 0] S1x1x1
  slices_S3x1_S1x1_2_0 : S3x1.Slices ![2, 0] S1x1
  bcast_S_S2048x128 : S_.BroadcastsInDim S2048x128 (![] : Fin 0 → Fin S2048x128.rank)
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x128_0_1 : S2048x1.BroadcastsInDim S2048x128 (![0, 1] : Fin 2 → Fin S2048x128.rank)
  concatenates_S2048x128_S2048x128_S2048x256_d1 : Shape.Concatenates [S2048x128, S2048x128] S2048x256 1
  reducesTo_S2048x256_S256_d0 : S2048x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S2048x256_0_1 : S1x256.BroadcastsInDim S2048x256 (![0, 1] : Fin 2 → Fin S2048x256.rank)
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  gather_S2048x128_S768x1_S768x128_1_0_n_n_0_1_1128_wf : GatherDims.WF S2048x128 S768x1 S768x128 [1] [0] [] [0] [] 1 ![1, 128]
  gather_S2048x3_S768x1_S768x3_1_0_n_n_0_1_13_wf : GatherDims.WF S2048x3 S768x1 S768x3 [1] [0] [] [0] [] 1 ![1, 3]
  dot_S128x128_S128x128_S128x128_1_0_0_1_n_n_wf : DotDims.WF S128x128 S128x128 S128x128 [1] [0] [0] [1] [] []
  dot_S128x128_S128x1_S128x1_1_0_0_1_n_n_wf : DotDims.WF S128x128 S128x1 S128x1 [1] [0] [0] [1] [] []
  scatter_S2048x128_S768x1_S768x128_1_0_0_1_wf : ScatterDims.WF S2048x128 S768x1 S768x128 [1] [0] [0] 1
  scatter_S2048_S768x1_S768_n_0_0_1_wf : ScatterDims.WF S2048 S768x1 S768 [] [0] [0] 1
  dot_S2048x256_S256x128_S2048x128_1_0_0_1_n_n_wf : DotDims.WF S2048x256 S256x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S768x128.size a
  hwx0_0 : ∀ i : grid0.Coords, EltTy.bits .f32 = 32 ∨ (Rect.block (s := S768x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S768x128.size a
  hwx0_1 : ∀ i : grid0.Coords, EltTy.bits .f32 = 32 ∨ (Rect.block (s := S768x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x3.size a ≤ S768x3.size a
  hwx0_2 : ∀ i : grid0.Coords, EltTy.bits .f32 = 32 ∨ (Rect.block (s := S768x3) S128x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x3.size a ≤ S768x3.size a
  hwx0_3 : ∀ i : grid0.Coords, EltTy.bits .f32 = 32 ∨ (Rect.block (s := S768x3) S128x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x1.size a ≤ S128x1.size a
  hwx0_10 : ∀ i : grid0.Coords, EltTy.bits .f32 = 32 ∨ (Rect.block (s := S128x1) S128x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x1.size a ≤ S128x1.size a
  hwx0_11 : ∀ i : grid0.Coords, EltTy.bits .f32 = 32 ∨ (Rect.block (s := S128x1) S128x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S128x128.size a ≤ S768x128.size a
  hwx0_14 : ∀ i : grid0.Coords, EltTy.bits .f32 = 32 ∨ (Rect.block (s := S768x128) S128x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S128x3.size a ≤ S768x3.size a
  hwx0_15 : ∀ i : grid0.Coords, EltTy.bits .f32 = 32 ∨ (Rect.block (s := S768x3) S128x3.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S768x128.size a
  hwx1_0 : ∀ i : grid1.Coords, EltTy.bits .f32 = 32 ∨ (Rect.block (s := S768x128) S128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S768x128.size a
  hwx1_1 : ∀ i : grid1.Coords, EltTy.bits .f32 = 32 ∨ (Rect.block (s := S768x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x3.size a ≤ S768x3.size a
  hwx1_2 : ∀ i : grid1.Coords, EltTy.bits .f32 = 32 ∨ (Rect.block (s := S768x3) S128x3.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x3.size a ≤ S768x3.size a
  hwx1_3 : ∀ i : grid1.Coords, EltTy.bits .f32 = 32 ∨ (Rect.block (s := S768x3) S128x3.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x1.size a ≤ S128x1.size a
  hwx1_10 : ∀ i : grid1.Coords, EltTy.bits .f32 = 32 ∨ (Rect.block (s := S128x1) S128x1.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128x1.size a ≤ S128x1.size a
  hwx1_11 : ∀ i : grid1.Coords, EltTy.bits .f32 = 32 ∨ (Rect.block (s := S128x1) S128x1.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x1.size a ≤ S1x1.size a
  hwx1_12 : ∀ i : grid1.Coords, EltTy.bits .f32 = 32 ∨ (Rect.block (s := S1x1) S1x1.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x1.size a ≤ S1x1.size a
  hwx1_13 : ∀ i : grid1.Coords, EltTy.bits .f32 = 32 ∨ (Rect.block (s := S1x1) S1x1.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S128x128.size a ≤ S768x128.size a
  hwx1_14 : ∀ i : grid1.Coords, EltTy.bits .f32 = 32 ∨ (Rect.block (s := S768x128) S128x128.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S128x3.size a ≤ S768x3.size a
  hwx1_15 : ∀ i : grid1.Coords, EltTy.bits .f32 = 32 ∨ (Rect.block (s := S768x3) S128x3.size (cc1_transform_15 i) (hinb1_15 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x128.size a ≤ S768x128.size a
  hwx2_0 : ∀ i : grid2.Coords, EltTy.bits .f32 = 32 ∨ (Rect.block (s := S768x128) S128x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S768x128.size a
  hwx2_1 : ∀ i : grid2.Coords, EltTy.bits .f32 = 32 ∨ (Rect.block (s := S768x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x3.size a ≤ S768x3.size a
  hwx2_2 : ∀ i : grid2.Coords, EltTy.bits .f32 = 32 ∨ (Rect.block (s := S768x3) S128x3.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S128x3.size a ≤ S768x3.size a
  hwx2_3 : ∀ i : grid2.Coords, EltTy.bits .f32 = 32 ∨ (Rect.block (s := S768x3) S128x3.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128x128.size a ≤ S128x128.size a
  hwx2_8 : ∀ i : grid2.Coords, EltTy.bits .f32 = 32 ∨ (Rect.block (s := S128x128) S128x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S128x1.size a ≤ S128x1.size a
  hwx2_10 : ∀ i : grid2.Coords, EltTy.bits .f32 = 32 ∨ (Rect.block (s := S128x1) S128x1.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S128x1.size a ≤ S128x1.size a
  hwx2_11 : ∀ i : grid2.Coords, EltTy.bits .f32 = 32 ∨ (Rect.block (s := S128x1) S128x1.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S1x1.size a ≤ S1x1.size a
  hwx2_12 : ∀ i : grid2.Coords, EltTy.bits .f32 = 32 ∨ (Rect.block (s := S1x1) S1x1.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x1.size a ≤ S1x1.size a
  hwx2_13 : ∀ i : grid2.Coords, EltTy.bits .f32 = 32 ∨ (Rect.block (s := S1x1) S1x1.size (cc2_transform_13 i) (hinb2_13 i)).WholeWords (EltTy.packing .f32)
  hstage2_14 : ∀ j, (stage2_14 j).IsWhole
  nbuf2_14 : grid2.bufCount reads2_14 false = 2
  hreads2_14 : ∀ i i' : grid2.Coords, (∀ a, reads2_14 a = true → i a = i' a) → cc2_transform_14 i = cc2_transform_14 i'
  hinb2_14 : ∀ (i : grid2.Coords) a, (cc2_transform_14 i a + 1) * S128x128.size a ≤ S768x128.size a
  hwx2_14 : ∀ i : grid2.Coords, EltTy.bits .f32 = 32 ∨ (Rect.block (s := S768x128) S128x128.size (cc2_transform_14 i) (hinb2_14 i)).WholeWords (EltTy.packing .f32)
  hstage2_15 : ∀ j, (stage2_15 j).IsWhole
  nbuf2_15 : grid2.bufCount reads2_15 false = 2
  hreads2_15 : ∀ i i' : grid2.Coords, (∀ a, reads2_15 a = true → i a = i' a) → cc2_transform_15 i = cc2_transform_15 i'
  hinb2_15 : ∀ (i : grid2.Coords) a, (cc2_transform_15 i a + 1) * S128x3.size a ≤ S768x3.size a
  hwx2_15 : ∀ i : grid2.Coords, EltTy.bits .f32 = 32 ∨ (Rect.block (s := S768x3) S128x3.size (cc2_transform_15 i) (hinb2_15 i)).WholeWords (EltTy.packing .f32)

variable [Facts₀]

def gather_S2048x128_S768x1_S768x128_1_0_n_n_0_1_1128 : GatherDims S2048x128 S768x1 S768x128 where
  offsetDims := [1]
  collapsedSliceDims := [0]
  operandBatchingDims := []
  startIndicesBatchingDims := []
  startIndexMap := [0]
  indexVectorDim := 1
  sliceSizes := ![1, 128]
  wf := gather_S2048x128_S768x1_S768x128_1_0_n_n_0_1_1128_wf
def gather_S2048x3_S768x1_S768x3_1_0_n_n_0_1_13 : GatherDims S2048x3 S768x1 S768x3 where
  offsetDims := [1]
  collapsedSliceDims := [0]
  operandBatchingDims := []
  startIndicesBatchingDims := []
  startIndexMap := [0]
  indexVectorDim := 1
  sliceSizes := ![1, 3]
  wf := gather_S2048x3_S768x1_S768x3_1_0_n_n_0_1_13_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf
def scatter_S2048x128_S768x1_S768x128_1_0_0_1 : ScatterDims S2048x128 S768x1 S768x128 where
  updateWindowDims := [1]
  insertedWindowDims := [0]
  scatterDimsToOperandDims := [0]
  indexVectorDim := 1
  wf := scatter_S2048x128_S768x1_S768x128_1_0_0_1_wf
def scatter_S2048_S768x1_S768_n_0_0_1 : ScatterDims S2048 S768x1 S768 where
  updateWindowDims := []
  insertedWindowDims := [0]
  scatterDimsToOperandDims := [0]
  indexVectorDim := 1
  wf := scatter_S2048_S768x1_S768_n_0_0_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_v6) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S128x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v25) S128x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v27) S128x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v29) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v30) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v31_0) S128x128.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v31_1) S128x3.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev idle0 : Fin 16 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun i => !(k0_cond2 i == 1#1) | 15 => fun i => !(k0_cond2 i == 1#1) | ⟨_ + 16, h⟩ => absurd h (Nat.not_lt.2 (Nat.le_add_left _ _))

abbrev win1_0 : Pipeline.Window sig grid1 :=
  Pipeline.Window.ofSpec (Memref.whole main_v31_0) S128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31_0) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31_1) S128x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v31_1) S128x3.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v33) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v38) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v40) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v41) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v43) S128x1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v45) S128x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v47) S1x1.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v48) S1x1.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v49_0) S128x128.size cc1_transform_14 reads1_14 true false 2 stage1_14 sem1_14
    hrank1 hreads1_14 hinb1_14 nbuf1_14 (Memref.isWhole_whole _) hwx1_14 hstage1_14

abbrev win1_15 : Pipeline.Window sig grid1 :=
  Pipeline.Window.ofSpec (Memref.whole main_v49_1) S128x3.size cc1_transform_15 reads1_15 true false 2 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

abbrev idle1 : Fin 16 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun i => !(k1_cond2 i == 1#1) | 15 => fun i => !(k1_cond2 i == 1#1) | ⟨_ + 16, h⟩ => absurd h (Nat.not_lt.2 (Nat.le_add_left _ _))

abbrev win2_0 : Pipeline.Window sig grid2 :=
  Pipeline.Window.ofSpec (Memref.whole main_v49_0) S128x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49_0) S128x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49_1) S128x3.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v49_1) S128x3.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v51) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v53) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v55) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v56) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v58) S128x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v59) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v61) S128x1.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v63) S128x1.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_v65) S1x1.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v66) S1x1.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_v67_0) S128x128.size cc2_transform_14 reads2_14 true false 2 stage2_14 sem2_14
    hrank2 hreads2_14 hinb2_14 nbuf2_14 (Memref.isWhole_whole _) hwx2_14 hstage2_14

abbrev win2_15 : Pipeline.Window sig grid2 :=
  Pipeline.Window.ofSpec (Memref.whole main_v67_1) S128x3.size cc2_transform_15 reads2_15 true false 2 stage2_15 sem2_15
    hrank2 hreads2_15 hinb2_15 nbuf2_15 (Memref.isWhole_whole _) hwx2_15 hstage2_15

abbrev win2 : Fin 16 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | ⟨_ + 16, h⟩ => absurd h (Nat.not_lt.2 (Nat.le_add_left _ _))
abbrev spec2 : Fin 16 → Pipeline.WinSpec sig grid2.rank := fun w => (win2 w).toWinSpec

abbrev idle2 : Fin 16 → grid2.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun i => !(k2_cond2 i == 1#1) | 15 => fun i => !(k2_cond2 i == 1#1) | ⟨_ + 16, h⟩ => absurd h (Nat.not_lt.2 (Nat.le_add_left _ _))

class Facts : Prop extends Facts₀ where

variable [Facts]
-- ==== ReferenceIdeal.lean ====
abbrev S2048x128 : Shape := ⟨2, ![2048, 128]⟩
abbrev S2048x3 : Shape := ⟨2, ![2048, 3]⟩
abbrev S3x257x128 : Shape := ⟨3, ![3, 257, 128]⟩
abbrev S3x128 : Shape := ⟨2, ![3, 128]⟩
abbrev S3x128x128 : Shape := ⟨3, ![3, 128, 128]⟩
abbrev S3x257x1 : Shape := ⟨3, ![3, 257, 1]⟩
abbrev S3x1 : Shape := ⟨2, ![3, 1]⟩
abbrev S256 : Shape := ⟨1, ![256]⟩
abbrev S256x128 : Shape := ⟨2, ![256, 128]⟩
abbrev S128 : Shape := ⟨1, ![128]⟩
abbrev S768 : Shape := ⟨1, ![768]⟩
abbrev S_ : Shape := ⟨0, ![]⟩
abbrev S768x1 : Shape := ⟨2, ![768, 1]⟩
abbrev S768x128 : Shape := ⟨2, ![768, 128]⟩
abbrev S768x3 : Shape := ⟨2, ![768, 3]⟩
abbrev S768x1x3 : Shape := ⟨3, ![768, 1, 3]⟩
abbrev S1x768x3 : Shape := ⟨3, ![1, 768, 3]⟩
abbrev S768x768x3 : Shape := ⟨3, ![768, 768, 3]⟩
abbrev S768x768 : Shape := ⟨2, ![768, 768]⟩
abbrev S1x257x128 : Shape := ⟨3, ![1, 257, 128]⟩
abbrev S257x128 : Shape := ⟨2, ![257, 128]⟩
abbrev S128x128 : Shape := ⟨2, ![128, 128]⟩
abbrev S768x1x128 : Shape := ⟨3, ![768, 1, 128]⟩
abbrev S1x768x128 : Shape := ⟨3, ![1, 768, 128]⟩
abbrev S768x768x128 : Shape := ⟨3, ![768, 768, 128]⟩
abbrev S768x768x1 : Shape := ⟨3, ![768, 768, 1]⟩
abbrev S1x128 : Shape := ⟨2, ![1, 128]⟩
abbrev S1x1x128 : Shape := ⟨3, ![1, 1, 128]⟩
abbrev S1x128x128 : Shape := ⟨3, ![1, 128, 128]⟩
abbrev S1x257x1 : Shape := ⟨3, ![1, 257, 1]⟩
abbrev S257x1 : Shape := ⟨2, ![257, 1]⟩
abbrev S128x1 : Shape := ⟨2, ![128, 1]⟩
abbrev S768x1x1 : Shape := ⟨3, ![768, 1, 1]⟩
abbrev S1x768x1 : Shape := ⟨3, ![1, 768, 1]⟩
abbrev S1x1 : Shape := ⟨2, ![1, 1]⟩
abbrev S1 : Shape := ⟨1, ![1]⟩
abbrev S1x1x1 : Shape := ⟨3, ![1, 1, 1]⟩
abbrev S2048 : Shape := ⟨1, ![2048]⟩
abbrev S2048x1 : Shape := ⟨2, ![2048, 1]⟩
abbrev S2048x256 : Shape := ⟨2, ![2048, 256]⟩
abbrev S1x256 : Shape := ⟨2, ![1, 256]⟩

abbrev nBuf : Space → Nat
  | .hbm => 436
  | .vmem => 0
  | .smem => 0
  | _ => 0

abbrev hbmTy0_0 (i : Nat) : BufTy := match i % 128 with
  | 0 => ⟨S2048x128, .f32⟩
  | 1 => ⟨S2048x3, .f32⟩
  | 2 => ⟨S3x257x128, .f32⟩
  | 3 => ⟨S3x128, .f32⟩
  | 4 => ⟨S3x128x128, .f32⟩
  | 5 => ⟨S3x128, .f32⟩
  | 6 => ⟨S3x257x1, .f32⟩
  | 7 => ⟨S3x1, .f32⟩
  | 8 => ⟨S256, .f32⟩
  | 9 => ⟨S256, .f32⟩
  | 10 => ⟨S256x128, .f32⟩
  | 11 => ⟨S128, .f32⟩
  | 12 => ⟨S768, .i32⟩
  | 13 => ⟨S768, .i32⟩
  | 14 => ⟨S_, .i32⟩
  | 15 => ⟨S768, .i32⟩
  | 16 => ⟨S768, .i1⟩
  | 17 => ⟨S_, .i32⟩
  | 18 => ⟨S768, .i32⟩
  | 19 => ⟨S768, .i32⟩
  | 20 => ⟨S768, .i32⟩
  | 21 => ⟨S768x1, .i32⟩
  | 22 => ⟨S768x128, .f32⟩
  | 23 => ⟨S_, .i32⟩
  | 24 => ⟨S768, .i32⟩
  | 25 => ⟨S768, .i1⟩
  | 26 => ⟨S_, .i32⟩
  | 27 => ⟨S768, .i32⟩
  | 28 => ⟨S768, .i32⟩
  | 29 => ⟨S768, .i32⟩
  | 30 => ⟨S768x1, .i32⟩
  | 31 => ⟨S768x3, .f32⟩
  | 32 => ⟨S768x1x3, .f32⟩
  | 33 => ⟨S1x768x3, .f32⟩
  | 34 => ⟨S768x768x3, .f32⟩
  | 35 => ⟨S768x768x3, .f32⟩
  | 36 => ⟨S768x768x3, .f32⟩
  | 37 => ⟨S768x768x3, .f32⟩
  | 38 => ⟨S_, .f32⟩
  | 39 => ⟨S768x768, .f32⟩
  | 40 => ⟨S_, .f32⟩
  | 41 => ⟨S768x768, .f32⟩
  | 42 => ⟨S768x768, .i1⟩
  | 43 => ⟨S_, .f32⟩
  | 44 => ⟨S_, .f32⟩
  | 45 => ⟨S768x768, .f32⟩
  | 46 => ⟨S768x768, .f32⟩
  | 47 => ⟨S768x768, .f32⟩
  | 48 => ⟨S_, .f32⟩
  | 49 => ⟨S768x768, .f32⟩
  | 50 => ⟨S768x768, .i1⟩
  | 51 => ⟨S_, .f32⟩
  | 52 => ⟨S_, .f32⟩
  | 53 => ⟨S768x768, .f32⟩
  | 54 => ⟨S768x768, .f32⟩
  | 55 => ⟨S1x257x128, .f32⟩
  | 56 => ⟨S257x128, .f32⟩
  | 57 => ⟨S128x128, .f32⟩
  | 58 => ⟨S768x128, .f32⟩
  | 59 => ⟨S768x1x128, .f32⟩
  | 60 => ⟨S128x128, .f32⟩
  | 61 => ⟨S768x128, .f32⟩
  | 62 => ⟨S1x768x128, .f32⟩
  | 63 => ⟨S768x768x128, .f32⟩
  | 64 => ⟨S768x768x128, .f32⟩
  | 65 => ⟨S768x768x128, .f32⟩
  | 66 => ⟨S768x768x1, .f32⟩
  | 67 => ⟨S1x128, .f32⟩
  | 68 => ⟨S128, .f32⟩
  | 69 => ⟨S1x1x128, .f32⟩
  | 70 => ⟨S768x768x128, .f32⟩
  | 71 => ⟨S768x768x128, .f32⟩
  | 72 => ⟨S768x768x128, .f32⟩
  | 73 => ⟨S768x768x128, .f32⟩
  | 74 => ⟨S1x128, .f32⟩
  | 75 => ⟨S128, .f32⟩
  | 76 => ⟨S1x1x128, .f32⟩
  | 77 => ⟨S768x768x128, .f32⟩
  | 78 => ⟨S768x768x128, .f32⟩
  | 79 => ⟨S768x768x128, .f32⟩
  | 80 => ⟨S768x768x128, .f32⟩
  | 81 => ⟨S_, .f32⟩
  | 82 => ⟨S768x768x128, .f32⟩
  | 83 => ⟨S768x768x128, .f32⟩
  | 84 => ⟨S_, .f32⟩
  | 85 => ⟨S768x768x128, .f32⟩
  | 86 => ⟨S768x768x128, .f32⟩
  | 87 => ⟨S768x768x128, .f32⟩
  | 88 => ⟨S_, .f32⟩
  | 89 => ⟨S768x128, .f32⟩
  | 90 => ⟨S_, .f32⟩
  | 91 => ⟨S768x128, .f32⟩
  | 92 => ⟨S768x128, .f32⟩
  | 93 => ⟨S1x128x128, .f32⟩
  | 94 => ⟨S128x128, .f32⟩
  | 95 => ⟨S768x128, .f32⟩
  | 96 => ⟨S1x128, .f32⟩
  | 97 => ⟨S128, .f32⟩
  | 98 => ⟨S1x128, .f32⟩
  | 99 => ⟨S768x128, .f32⟩
  | 100 => ⟨S768x128, .f32⟩
  | 101 => ⟨S1x257x1, .f32⟩
  | 102 => ⟨S257x1, .f32⟩
  | 103 => ⟨S128x1, .f32⟩
  | 104 => ⟨S768x1, .f32⟩
  | 105 => ⟨S768x1x1, .f32⟩
  | 106 => ⟨S128x1, .f32⟩
  | 107 => ⟨S768x1, .f32⟩
  | 108 => ⟨S1x768x1, .f32⟩
  | 109 => ⟨S768x768x1, .f32⟩
  | 110 => ⟨S768x768x1, .f32⟩
  | 111 => ⟨S768x768x1, .f32⟩
  | 112 => ⟨S768x768x1, .f32⟩
  | 113 => ⟨S1x1, .f32⟩
  | 114 => ⟨S1, .f32⟩
  | 115 => ⟨S1x1x1, .f32⟩
  | 116 => ⟨S768x768x1, .f32⟩
  | 117 => ⟨S768x768x1, .f32⟩
  | 118 => ⟨S768x768x1, .f32⟩
  | 119 => ⟨S1x1, .f32⟩
  | 120 => ⟨S1, .f32⟩
  | 121 => ⟨S1x1x1, .f32⟩
  | 122 => ⟨S768x768x1, .f32⟩
  | 123 => ⟨S768x768x1, .f32⟩
  | 124 => ⟨S768x768x1, .f32⟩
  | 125 => ⟨S768x768x1, .f32⟩
  | 126 => ⟨S_, .f32⟩
  | 127 => ⟨S768x768x1, .f32⟩
  | _ => ⟨S2048x128, .f32⟩

abbrev hbmTy0_1 (i : Nat) : BufTy := match i % 128 with
  | 0 => ⟨S768x768x1, .f32⟩
  | 1 => ⟨S_, .f32⟩
  | 2 => ⟨S768x768x1, .f32⟩
  | 3 => ⟨S768x768x1, .f32⟩
  | 4 => ⟨S768x768x1, .f32⟩
  | 5 => ⟨S768x768x3, .f32⟩
  | 6 => ⟨S768x768x3, .f32⟩
  | 7 => ⟨S_, .f32⟩
  | 8 => ⟨S768x3, .f32⟩
  | 9 => ⟨S_, .f32⟩
  | 10 => ⟨S768x3, .f32⟩
  | 11 => ⟨S768x3, .f32⟩
  | 12 => ⟨S768x3, .f32⟩
  | 13 => ⟨S768x128, .f32⟩
  | 14 => ⟨S768x1x3, .f32⟩
  | 15 => ⟨S1x768x3, .f32⟩
  | 16 => ⟨S768x768x3, .f32⟩
  | 17 => ⟨S768x768x3, .f32⟩
  | 18 => ⟨S768x768x3, .f32⟩
  | 19 => ⟨S768x768x3, .f32⟩
  | 20 => ⟨S_, .f32⟩
  | 21 => ⟨S768x768, .f32⟩
  | 22 => ⟨S_, .f32⟩
  | 23 => ⟨S768x768, .f32⟩
  | 24 => ⟨S768x768, .i1⟩
  | 25 => ⟨S_, .f32⟩
  | 26 => ⟨S_, .f32⟩
  | 27 => ⟨S768x768, .f32⟩
  | 28 => ⟨S768x768, .f32⟩
  | 29 => ⟨S768x768, .f32⟩
  | 30 => ⟨S_, .f32⟩
  | 31 => ⟨S768x768, .f32⟩
  | 32 => ⟨S768x768, .i1⟩
  | 33 => ⟨S_, .f32⟩
  | 34 => ⟨S_, .f32⟩
  | 35 => ⟨S768x768, .f32⟩
  | 36 => ⟨S768x768, .f32⟩
  | 37 => ⟨S1x257x128, .f32⟩
  | 38 => ⟨S257x128, .f32⟩
  | 39 => ⟨S128x128, .f32⟩
  | 40 => ⟨S768x128, .f32⟩
  | 41 => ⟨S768x1x128, .f32⟩
  | 42 => ⟨S128x128, .f32⟩
  | 43 => ⟨S768x128, .f32⟩
  | 44 => ⟨S1x768x128, .f32⟩
  | 45 => ⟨S768x768x128, .f32⟩
  | 46 => ⟨S768x768x128, .f32⟩
  | 47 => ⟨S768x768x128, .f32⟩
  | 48 => ⟨S768x768x1, .f32⟩
  | 49 => ⟨S1x128, .f32⟩
  | 50 => ⟨S128, .f32⟩
  | 51 => ⟨S1x1x128, .f32⟩
  | 52 => ⟨S768x768x128, .f32⟩
  | 53 => ⟨S768x768x128, .f32⟩
  | 54 => ⟨S768x768x128, .f32⟩
  | 55 => ⟨S768x768x128, .f32⟩
  | 56 => ⟨S1x128, .f32⟩
  | 57 => ⟨S128, .f32⟩
  | 58 => ⟨S1x1x128, .f32⟩
  | 59 => ⟨S768x768x128, .f32⟩
  | 60 => ⟨S768x768x128, .f32⟩
  | 61 => ⟨S768x768x128, .f32⟩
  | 62 => ⟨S768x768x128, .f32⟩
  | 63 => ⟨S_, .f32⟩
  | 64 => ⟨S768x768x128, .f32⟩
  | 65 => ⟨S768x768x128, .f32⟩
  | 66 => ⟨S_, .f32⟩
  | 67 => ⟨S768x768x128, .f32⟩
  | 68 => ⟨S768x768x128, .f32⟩
  | 69 => ⟨S768x768x128, .f32⟩
  | 70 => ⟨S_, .f32⟩
  | 71 => ⟨S768x128, .f32⟩
  | 72 => ⟨S_, .f32⟩
  | 73 => ⟨S768x128, .f32⟩
  | 74 => ⟨S768x128, .f32⟩
  | 75 => ⟨S1x128x128, .f32⟩
  | 76 => ⟨S128x128, .f32⟩
  | 77 => ⟨S768x128, .f32⟩
  | 78 => ⟨S1x128, .f32⟩
  | 79 => ⟨S128, .f32⟩
  | 80 => ⟨S1x128, .f32⟩
  | 81 => ⟨S768x128, .f32⟩
  | 82 => ⟨S768x128, .f32⟩
  | 83 => ⟨S1x257x1, .f32⟩
  | 84 => ⟨S257x1, .f32⟩
  | 85 => ⟨S128x1, .f32⟩
  | 86 => ⟨S768x1, .f32⟩
  | 87 => ⟨S768x1x1, .f32⟩
  | 88 => ⟨S128x1, .f32⟩
  | 89 => ⟨S768x1, .f32⟩
  | 90 => ⟨S1x768x1, .f32⟩
  | 91 => ⟨S768x768x1, .f32⟩
  | 92 => ⟨S768x768x1, .f32⟩
  | 93 => ⟨S768x768x1, .f32⟩
  | 94 => ⟨S768x768x1, .f32⟩
  | 95 => ⟨S1x1, .f32⟩
  | 96 => ⟨S1, .f32⟩
  | 97 => ⟨S1x1x1, .f32⟩
  | 98 => ⟨S768x768x1, .f32⟩
  | 99 => ⟨S768x768x1, .f32⟩
  | 100 => ⟨S768x768x1, .f32⟩
  | 101 => ⟨S1x1, .f32⟩
  | 102 => ⟨S1, .f32⟩
  | 103 => ⟨S1x1x1, .f32⟩
  | 104 => ⟨S768x768x1, .f32⟩
  | 105 => ⟨S768x768x1, .f32⟩
  | 106 => ⟨S768x768x1, .f32⟩
  | 107 => ⟨S768x768x1, .f32⟩
  | 108 => ⟨S_, .f32⟩
  | 109 => ⟨S768x768x1, .f32⟩
  | 110 => ⟨S768x768x1, .f32⟩
  | 111 => ⟨S_, .f32⟩
  | 112 => ⟨S768x768x1, .f32⟩
  | 113 => ⟨S768x768x1, .f32⟩
  | 114 => ⟨S768x768x1, .f32⟩
  | 115 => ⟨S768x768x3, .f32⟩
  | 116 => ⟨S768x768x3, .f32⟩
  | 117 => ⟨S_, .f32⟩
  | 118 => ⟨S768x3, .f32⟩
  | 119 => ⟨S_, .f32⟩
  | 120 => ⟨S768x3, .f32⟩
  | 121 => ⟨S768x3, .f32⟩
  | 122 => ⟨S768x3, .f32⟩
  | 123 => ⟨S768x128, .f32⟩
  | 124 => ⟨S768x1x3, .f32⟩
  | 125 => ⟨S1x768x3, .f32⟩
  | 126 => ⟨S768x768x3, .f32⟩
  | 127 => ⟨S768x768x3, .f32⟩
  | _ => ⟨S2048x128, .f32⟩

abbrev hbmTy0_2 (i : Nat) : BufTy := match i % 128 with
  | 0 => ⟨S768x768x3, .f32⟩
  | 1 => ⟨S768x768x3, .f32⟩
  | 2 => ⟨S_, .f32⟩
  | 3 => ⟨S768x768, .f32⟩
  | 4 => ⟨S_, .f32⟩
  | 5 => ⟨S768x768, .f32⟩
  | 6 => ⟨S768x768, .i1⟩
  | 7 => ⟨S_, .f32⟩
  | 8 => ⟨S_, .f32⟩
  | 9 => ⟨S768x768, .f32⟩
  | 10 => ⟨S768x768, .f32⟩
  | 11 => ⟨S768x768, .f32⟩
  | 12 => ⟨S_, .f32⟩
  | 13 => ⟨S768x768, .f32⟩
  | 14 => ⟨S768x768, .i1⟩
  | 15 => ⟨S_, .f32⟩
  | 16 => ⟨S_, .f32⟩
  | 17 => ⟨S768x768, .f32⟩
  | 18 => ⟨S768x768, .f32⟩
  | 19 => ⟨S1x257x128, .f32⟩
  | 20 => ⟨S257x128, .f32⟩
  | 21 => ⟨S128x128, .f32⟩
  | 22 => ⟨S768x128, .f32⟩
  | 23 => ⟨S768x1x128, .f32⟩
  | 24 => ⟨S128x128, .f32⟩
  | 25 => ⟨S768x128, .f32⟩
  | 26 => ⟨S1x768x128, .f32⟩
  | 27 => ⟨S768x768x128, .f32⟩
  | 28 => ⟨S768x768x128, .f32⟩
  | 29 => ⟨S768x768x128, .f32⟩
  | 30 => ⟨S768x768x1, .f32⟩
  | 31 => ⟨S1x128, .f32⟩
  | 32 => ⟨S128, .f32⟩
  | 33 => ⟨S1x1x128, .f32⟩
  | 34 => ⟨S768x768x128, .f32⟩
  | 35 => ⟨S768x768x128, .f32⟩
  | 36 => ⟨S768x768x128, .f32⟩
  | 37 => ⟨S768x768x128, .f32⟩
  | 38 => ⟨S1x128, .f32⟩
  | 39 => ⟨S128, .f32⟩
  | 40 => ⟨S1x1x128, .f32⟩
  | 41 => ⟨S768x768x128, .f32⟩
  | 42 => ⟨S768x768x128, .f32⟩
  | 43 => ⟨S768x768x128, .f32⟩
  | 44 => ⟨S768x768x128, .f32⟩
  | 45 => ⟨S_, .f32⟩
  | 46 => ⟨S768x768x128, .f32⟩
  | 47 => ⟨S768x768x128, .f32⟩
  | 48 => ⟨S_, .f32⟩
  | 49 => ⟨S768x768x128, .f32⟩
  | 50 => ⟨S768x768x128, .f32⟩
  | 51 => ⟨S768x768x128, .f32⟩
  | 52 => ⟨S_, .f32⟩
  | 53 => ⟨S768x128, .f32⟩
  | 54 => ⟨S_, .f32⟩
  | 55 => ⟨S768x128, .f32⟩
  | 56 => ⟨S768x128, .f32⟩
  | 57 => ⟨S1x128x128, .f32⟩
  | 58 => ⟨S128x128, .f32⟩
  | 59 => ⟨S768x128, .f32⟩
  | 60 => ⟨S1x128, .f32⟩
  | 61 => ⟨S128, .f32⟩
  | 62 => ⟨S1x128, .f32⟩
  | 63 => ⟨S768x128, .f32⟩
  | 64 => ⟨S768x128, .f32⟩
  | 65 => ⟨S1x257x1, .f32⟩
  | 66 => ⟨S257x1, .f32⟩
  | 67 => ⟨S128x1, .f32⟩
  | 68 => ⟨S768x1, .f32⟩
  | 69 => ⟨S768x1x1, .f32⟩
  | 70 => ⟨S128x1, .f32⟩
  | 71 => ⟨S768x1, .f32⟩
  | 72 => ⟨S1x768x1, .f32⟩
  | 73 => ⟨S768x768x1, .f32⟩
  | 74 => ⟨S768x768x1, .f32⟩
  | 75 => ⟨S768x768x1, .f32⟩
  | 76 => ⟨S768x768x1, .f32⟩
  | 77 => ⟨S1x1, .f32⟩
  | 78 => ⟨S1, .f32⟩
  | 79 => ⟨S1x1x1, .f32⟩
  | 80 => ⟨S768x768x1, .f32⟩
  | 81 => ⟨S768x768x1, .f32⟩
  | 82 => ⟨S768x768x1, .f32⟩
  | 83 => ⟨S1x1, .f32⟩
  | 84 => ⟨S1, .f32⟩
  | 85 => ⟨S1x1x1, .f32⟩
  | 86 => ⟨S768x768x1, .f32⟩
  | 87 => ⟨S768x768x1, .f32⟩
  | 88 => ⟨S768x768x1, .f32⟩
  | 89 => ⟨S768x768x1, .f32⟩
  | 90 => ⟨S_, .f32⟩
  | 91 => ⟨S768x768x1, .f32⟩
  | 92 => ⟨S768x768x1, .f32⟩
  | 93 => ⟨S_, .f32⟩
  | 94 => ⟨S768x768x1, .f32⟩
  | 95 => ⟨S768x768x1, .f32⟩
  | 96 => ⟨S768x768x1, .f32⟩
  | 97 => ⟨S768x768x3, .f32⟩
  | 98 => ⟨S768x768x3, .f32⟩
  | 99 => ⟨S_, .f32⟩
  | 100 => ⟨S768x3, .f32⟩
  | 101 => ⟨S_, .f32⟩
  | 102 => ⟨S768x3, .f32⟩
  | 103 => ⟨S768x3, .f32⟩
  | 104 => ⟨S768x3, .f32⟩
  | 105 => ⟨S768x128, .f32⟩
  | 106 => ⟨S_, .f32⟩
  | 107 => ⟨S2048x128, .f32⟩
  | 108 => ⟨S768x1, .i32⟩
  | 109 => ⟨S2048x128, .f32⟩
  | 110 => ⟨S_, .f32⟩
  | 111 => ⟨S768, .f32⟩
  | 112 => ⟨S_, .f32⟩
  | 113 => ⟨S2048, .f32⟩
  | 114 => ⟨S768x1, .i32⟩
  | 115 => ⟨S2048, .f32⟩
  | 116 => ⟨S2048x1, .f32⟩
  | 117 => ⟨S_, .f32⟩
  | 118 => ⟨S2048x1, .f32⟩
  | 119 => ⟨S2048x1, .i1⟩
  | 120 => ⟨S_, .f32⟩
  | 121 => ⟨S2048, .f32⟩
  | 122 => ⟨S2048, .f32⟩
  | 123 => ⟨S2048x1, .f32⟩
  | 124 => ⟨S2048x128, .f32⟩
  | 125 => ⟨S2048x128, .f32⟩
  | 126 => ⟨S_, .f32⟩
  | 127 => ⟨S_, .f32⟩
  | _ => ⟨S2048x128, .f32⟩

abbrev hbmTy0_3 (i : Nat) : BufTy := match i % 128 with
  | 0 => ⟨S2048x128, .i1⟩
  | 1 => ⟨S2048x128, .f32⟩
  | 2 => ⟨S2048x128, .f32⟩
  | 3 => ⟨S2048x256, .f32⟩
  | 4 => ⟨S_, .f32⟩
  | 5 => ⟨S256, .f32⟩
  | 6 => ⟨S_, .f32⟩
  | 7 => ⟨S256, .f32⟩
  | 8 => ⟨S256, .f32⟩
  | 9 => ⟨S_, .i32⟩
  | 10 => ⟨S_, .f32⟩
  | 11 => ⟨S256, .f32⟩
  | 12 => ⟨S1x256, .f32⟩
  | 13 => ⟨S_, .f32⟩
  | 14 => ⟨S1x256, .f32⟩
  | 15 => ⟨S1x256, .f32⟩
  | 16 => ⟨S2048x256, .f32⟩
  | 17 => ⟨S2048x256, .f32⟩
  | 18 => ⟨S2048x256, .f32⟩
  | 19 => ⟨S_, .f32⟩
  | 20 => ⟨S_, .f32⟩
  | 21 => ⟨S_, .f32⟩
  | 22 => ⟨S_, .f32⟩
  | 23 => ⟨S256, .f32⟩
  | 24 => ⟨S256, .f32⟩
  | 25 => ⟨S256, .f32⟩
  | 26 => ⟨S_, .f32⟩
  | 27 => ⟨S_, .i1⟩
  | 28 => ⟨S_, .f32⟩
  | 29 => ⟨S_, .f32⟩
  | 30 => ⟨S256, .f32⟩
  | 31 => ⟨S256, .f32⟩
  | 32 => ⟨S1x256, .f32⟩
  | 33 => ⟨S2048x256, .f32⟩
  | 34 => ⟨S2048x256, .f32⟩
  | 35 => ⟨S_, .f32⟩
  | 36 => ⟨S256, .f32⟩
  | 37 => ⟨S256, .f32⟩
  | 38 => ⟨S256, .f32⟩
  | 39 => ⟨S1x256, .f32⟩
  | 40 => ⟨S2048x256, .f32⟩
  | 41 => ⟨S2048x256, .f32⟩
  | 42 => ⟨S1x256, .f32⟩
  | 43 => ⟨S2048x256, .f32⟩
  | 44 => ⟨S2048x256, .f32⟩
  | 45 => ⟨S1x256, .f32⟩
  | 46 => ⟨S2048x256, .f32⟩
  | 47 => ⟨S2048x256, .f32⟩
  | 48 => ⟨S2048x128, .f32⟩
  | 49 => ⟨S1x128, .f32⟩
  | 50 => ⟨S2048x128, .f32⟩
  | 51 => ⟨S2048x128, .f32⟩
  | _ => ⟨S2048x128, .f32⟩

abbrev hbmTy (i : Nat) : BufTy := match i / 128 with
  | 0 => hbmTy0_0 i
  | 1 => hbmTy0_1 i
  | 2 => hbmTy0_2 i
  | 3 => hbmTy0_3 i
  | _ => ⟨S2048x128, .f32⟩

abbrev bufTy : (tb : Table) → Fin (tcTables nBuf tb) → BufTy
  | .hbm, ⟨i, _⟩ => hbmTy i
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_call0_v0 : Ref sig .tc := ⟨.hbm, 44, rfl⟩
abbrev main_call0_v1 : Ref sig .tc := ⟨.hbm, 45, rfl⟩
abbrev main_v23 : Ref sig .tc := ⟨.hbm, 46, rfl⟩
abbrev main_v24 : Ref sig .tc := ⟨.hbm, 47, rfl⟩
abbrev main_cst_5 : Ref sig .tc := ⟨.hbm, 48, rfl⟩
abbrev main_v25 : Ref sig .tc := ⟨.hbm, 49, rfl⟩
abbrev main_v26 : Ref sig .tc := ⟨.hbm, 50, rfl⟩
abbrev main_cst_6 : Ref sig .tc := ⟨.hbm, 51, rfl⟩
abbrev main_call1_v0 : Ref sig .tc := ⟨.hbm, 52, rfl⟩
abbrev main_call1_v1 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call2_v0 : Ref sig .tc := ⟨.hbm, 79, rfl⟩
abbrev main_call2_v1 : Ref sig .tc := ⟨.hbm, 80, rfl⟩
abbrev main_call2_cst : Ref sig .tc := ⟨.hbm, 81, rfl⟩
abbrev main_call2_v2 : Ref sig .tc := ⟨.hbm, 82, rfl⟩
abbrev main_call2_v3 : Ref sig .tc := ⟨.hbm, 83, rfl⟩
abbrev main_call2_cst_0 : Ref sig .tc := ⟨.hbm, 84, rfl⟩
abbrev main_call2_v4 : Ref sig .tc := ⟨.hbm, 85, rfl⟩
abbrev main_call2_v5 : Ref sig .tc := ⟨.hbm, 86, rfl⟩
abbrev main_v52 : Ref sig .tc := ⟨.hbm, 87, rfl⟩
abbrev main_cst_7 : Ref sig .tc := ⟨.hbm, 88, rfl⟩
abbrev main_v53 : Ref sig .tc := ⟨.hbm, 89, rfl⟩
abbrev main_cst_8 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_call3_v0 : Ref sig .tc := ⟨.hbm, 124, rfl⟩
abbrev main_call3_v1 : Ref sig .tc := ⟨.hbm, 125, rfl⟩
abbrev main_call3_cst : Ref sig .tc := ⟨.hbm, 126, rfl⟩
abbrev main_call3_v2 : Ref sig .tc := ⟨.hbm, 127, rfl⟩
abbrev main_call3_v3 : Ref sig .tc := ⟨.hbm, 128, rfl⟩
abbrev main_call3_cst_0 : Ref sig .tc := ⟨.hbm, 129, rfl⟩
abbrev main_call3_v4 : Ref sig .tc := ⟨.hbm, 130, rfl⟩
abbrev main_call3_v5 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_9 : Ref sig .tc := ⟨.hbm, 135, rfl⟩
abbrev main_v90 : Ref sig .tc := ⟨.hbm, 136, rfl⟩
abbrev main_cst_10 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_cst_11 : Ref sig .tc := ⟨.hbm, 148, rfl⟩
abbrev main_v101 : Ref sig .tc := ⟨.hbm, 149, rfl⟩
abbrev main_cst_12 : Ref sig .tc := ⟨.hbm, 150, rfl⟩
abbrev main_v102 : Ref sig .tc := ⟨.hbm, 151, rfl⟩
abbrev main_v103 : Ref sig .tc := ⟨.hbm, 152, rfl⟩
abbrev main_cst_13 : Ref sig .tc := ⟨.hbm, 153, rfl⟩
abbrev main_call4_v0 : Ref sig .tc := ⟨.hbm, 154, rfl⟩
abbrev main_call4_v1 : Ref sig .tc := ⟨.hbm, 155, rfl⟩
abbrev main_v104 : Ref sig .tc := ⟨.hbm, 156, rfl⟩
abbrev main_v105 : Ref sig .tc := ⟨.hbm, 157, rfl⟩
abbrev main_cst_14 : Ref sig .tc := ⟨.hbm, 158, rfl⟩
abbrev main_v106 : Ref sig .tc := ⟨.hbm, 159, rfl⟩
abbrev main_v107 : Ref sig .tc := ⟨.hbm, 160, rfl⟩
abbrev main_cst_15 : Ref sig .tc := ⟨.hbm, 161, rfl⟩
abbrev main_call5_v0 : Ref sig .tc := ⟨.hbm, 162, rfl⟩
abbrev main_call5_v1 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_call6_v0 : Ref sig .tc := ⟨.hbm, 189, rfl⟩
abbrev main_call6_v1 : Ref sig .tc := ⟨.hbm, 190, rfl⟩
abbrev main_call6_cst : Ref sig .tc := ⟨.hbm, 191, rfl⟩
abbrev main_call6_v2 : Ref sig .tc := ⟨.hbm, 192, rfl⟩
abbrev main_call6_v3 : Ref sig .tc := ⟨.hbm, 193, rfl⟩
abbrev main_call6_cst_0 : Ref sig .tc := ⟨.hbm, 194, rfl⟩
abbrev main_call6_v4 : Ref sig .tc := ⟨.hbm, 195, rfl⟩
abbrev main_call6_v5 : Ref sig .tc := ⟨.hbm, 196, rfl⟩
abbrev main_v133 : Ref sig .tc := ⟨.hbm, 197, rfl⟩
abbrev main_cst_16 : Ref sig .tc := ⟨.hbm, 198, rfl⟩
abbrev main_v134 : Ref sig .tc := ⟨.hbm, 199, rfl⟩
abbrev main_cst_17 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_call7_v0 : Ref sig .tc := ⟨.hbm, 234, rfl⟩
abbrev main_call7_v1 : Ref sig .tc := ⟨.hbm, 235, rfl⟩
abbrev main_call7_cst : Ref sig .tc := ⟨.hbm, 236, rfl⟩
abbrev main_call7_v2 : Ref sig .tc := ⟨.hbm, 237, rfl⟩
abbrev main_call7_v3 : Ref sig .tc := ⟨.hbm, 238, rfl⟩
abbrev main_call7_cst_0 : Ref sig .tc := ⟨.hbm, 239, rfl⟩
abbrev main_call7_v4 : Ref sig .tc := ⟨.hbm, 240, rfl⟩
abbrev main_call7_v5 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_cst_18 : Ref sig .tc := ⟨.hbm, 245, rfl⟩
abbrev main_v171 : Ref sig .tc := ⟨.hbm, 246, rfl⟩
abbrev main_cst_19 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_cst_20 : Ref sig .tc := ⟨.hbm, 258, rfl⟩
abbrev main_v182 : Ref sig .tc := ⟨.hbm, 259, rfl⟩
abbrev main_cst_21 : Ref sig .tc := ⟨.hbm, 260, rfl⟩
abbrev main_v183 : Ref sig .tc := ⟨.hbm, 261, rfl⟩
abbrev main_v184 : Ref sig .tc := ⟨.hbm, 262, rfl⟩
abbrev main_cst_22 : Ref sig .tc := ⟨.hbm, 263, rfl⟩
abbrev main_call8_v0 : Ref sig .tc := ⟨.hbm, 264, rfl⟩
abbrev main_call8_v1 : Ref sig .tc := ⟨.hbm, 265, rfl⟩
abbrev main_v185 : Ref sig .tc := ⟨.hbm, 266, rfl⟩
abbrev main_v186 : Ref sig .tc := ⟨.hbm, 267, rfl⟩
abbrev main_cst_23 : Ref sig .tc := ⟨.hbm, 268, rfl⟩
abbrev main_v187 : Ref sig .tc := ⟨.hbm, 269, rfl⟩
abbrev main_v188 : Ref sig .tc := ⟨.hbm, 270, rfl⟩
abbrev main_cst_24 : Ref sig .tc := ⟨.hbm, 271, rfl⟩
abbrev main_call9_v0 : Ref sig .tc := ⟨.hbm, 272, rfl⟩
abbrev main_call9_v1 : Ref sig .tc := ⟨.hbm, 273, rfl⟩
abbrev main_v189 : Ref sig .tc := ⟨.hbm, 274, rfl⟩
abbrev main_v190 : Ref sig .tc := ⟨.hbm, 275, rfl⟩
abbrev main_v191 : Ref sig .tc := ⟨.hbm, 276, rfl⟩
abbrev main_v192 : Ref sig .tc := ⟨.hbm, 277, rfl⟩
abbrev main_v193 : Ref sig .tc := ⟨.hbm, 278, rfl⟩
abbrev main_v194 : Ref sig .tc := ⟨.hbm, 279, rfl⟩
abbrev main_v195 : Ref sig .tc := ⟨.hbm, 280, rfl⟩
abbrev main_v196 : Ref sig .tc := ⟨.hbm, 281, rfl⟩
abbrev main_v197 : Ref sig .tc := ⟨.hbm, 282, rfl⟩
abbrev main_v198 : Ref sig .tc := ⟨.hbm, 283, rfl⟩
abbrev main_v199 : Ref sig .tc := ⟨.hbm, 284, rfl⟩
abbrev main_v200 : Ref sig .tc := ⟨.hbm, 285, rfl⟩
abbrev main_v201 : Ref sig .tc := ⟨.hbm, 286, rfl⟩
abbrev main_v202 : Ref sig .tc := ⟨.hbm, 287, rfl⟩
abbrev main_v203 : Ref sig .tc := ⟨.hbm, 288, rfl⟩
abbrev main_v204 : Ref sig .tc := ⟨.hbm, 289, rfl⟩
abbrev main_v205 : Ref sig .tc := ⟨.hbm, 290, rfl⟩
abbrev main_v206 : Ref sig .tc := ⟨.hbm, 291, rfl⟩
abbrev main_v207 : Ref sig .tc := ⟨.hbm, 292, rfl⟩
abbrev main_v208 : Ref sig .tc := ⟨.hbm, 293, rfl⟩
abbrev main_v209 : Ref sig .tc := ⟨.hbm, 294, rfl⟩
abbrev main_v210 : Ref sig .tc := ⟨.hbm, 295, rfl⟩
abbrev main_v211 : Ref sig .tc := ⟨.hbm, 296, rfl⟩
abbrev main_v212 : Ref sig .tc := ⟨.hbm, 297, rfl⟩
abbrev main_v213 : Ref sig .tc := ⟨.hbm, 298, rfl⟩
abbrev main_call10_v0 : Ref sig .tc := ⟨.hbm, 299, rfl⟩
abbrev main_call10_v1 : Ref sig .tc := ⟨.hbm, 300, rfl⟩
abbrev main_call10_cst : Ref sig .tc := ⟨.hbm, 301, rfl⟩
abbrev main_call10_v2 : Ref sig .tc := ⟨.hbm, 302, rfl⟩
abbrev main_call10_v3 : Ref sig .tc := ⟨.hbm, 303, rfl⟩
abbrev main_call10_cst_0 : Ref sig .tc := ⟨.hbm, 304, rfl⟩
abbrev main_call10_v4 : Ref sig .tc := ⟨.hbm, 305, rfl⟩
abbrev main_call10_v5 : Ref sig .tc := ⟨.hbm, 306, rfl⟩
abbrev main_v214 : Ref sig .tc := ⟨.hbm, 307, rfl⟩
abbrev main_cst_25 : Ref sig .tc := ⟨.hbm, 308, rfl⟩
abbrev main_v215 : Ref sig .tc := ⟨.hbm, 309, rfl⟩
abbrev main_cst_26 : Ref sig .tc := ⟨.hbm, 310, rfl⟩
abbrev main_v216 : Ref sig .tc := ⟨.hbm, 311, rfl⟩
abbrev main_v217 : Ref sig .tc := ⟨.hbm, 312, rfl⟩
abbrev main_v218 : Ref sig .tc := ⟨.hbm, 313, rfl⟩
abbrev main_v219 : Ref sig .tc := ⟨.hbm, 314, rfl⟩
abbrev main_v220 : Ref sig .tc := ⟨.hbm, 315, rfl⟩
abbrev main_v221 : Ref sig .tc := ⟨.hbm, 316, rfl⟩
abbrev main_v222 : Ref sig .tc := ⟨.hbm, 317, rfl⟩
abbrev main_v223 : Ref sig .tc := ⟨.hbm, 318, rfl⟩
abbrev main_v224 : Ref sig .tc := ⟨.hbm, 319, rfl⟩
abbrev main_v225 : Ref sig .tc := ⟨.hbm, 320, rfl⟩
abbrev main_v226 : Ref sig .tc := ⟨.hbm, 321, rfl⟩
abbrev main_v227 : Ref sig .tc := ⟨.hbm, 322, rfl⟩
abbrev main_v228 : Ref sig .tc := ⟨.hbm, 323, rfl⟩
abbrev main_v229 : Ref sig .tc := ⟨.hbm, 324, rfl⟩
abbrev main_v230 : Ref sig .tc := ⟨.hbm, 325, rfl⟩
abbrev main_v231 : Ref sig .tc := ⟨.hbm, 326, rfl⟩
abbrev main_v232 : Ref sig .tc := ⟨.hbm, 327, rfl⟩
abbrev main_v233 : Ref sig .tc := ⟨.hbm, 328, rfl⟩
abbrev main_v234 : Ref sig .tc := ⟨.hbm, 329, rfl⟩
abbrev main_v235 : Ref sig .tc := ⟨.hbm, 330, rfl⟩
abbrev main_v236 : Ref sig .tc := ⟨.hbm, 331, rfl⟩
abbrev main_v237 : Ref sig .tc := ⟨.hbm, 332, rfl⟩
abbrev main_v238 : Ref sig .tc := ⟨.hbm, 333, rfl⟩
abbrev main_v239 : Ref sig .tc := ⟨.hbm, 334, rfl⟩
abbrev main_v240 : Ref sig .tc := ⟨.hbm, 335, rfl⟩
abbrev main_v241 : Ref sig .tc := ⟨.hbm, 336, rfl⟩
abbrev main_v242 : Ref sig .tc := ⟨.hbm, 337, rfl⟩
abbrev main_v243 : Ref sig .tc := ⟨.hbm, 338, rfl⟩
abbrev main_v244 : Ref sig .tc := ⟨.hbm, 339, rfl⟩
abbrev main_v245 : Ref sig .tc := ⟨.hbm, 340, rfl⟩
abbrev main_v246 : Ref sig .tc := ⟨.hbm, 341, rfl⟩
abbrev main_v247 : Ref sig .tc := ⟨.hbm, 342, rfl⟩
abbrev main_v248 : Ref sig .tc := ⟨.hbm, 343, rfl⟩
abbrev main_call11_v0 : Ref sig .tc := ⟨.hbm, 344, rfl⟩
abbrev main_call11_v1 : Ref sig .tc := ⟨.hbm, 345, rfl⟩
abbrev main_call11_cst : Ref sig .tc := ⟨.hbm, 346, rfl⟩
abbrev main_call11_v2 : Ref sig .tc := ⟨.hbm, 347, rfl⟩
abbrev main_call11_v3 : Ref sig .tc := ⟨.hbm, 348, rfl⟩
abbrev main_call11_cst_0 : Ref sig .tc := ⟨.hbm, 349, rfl⟩
abbrev main_call11_v4 : Ref sig .tc := ⟨.hbm, 350, rfl⟩
abbrev main_call11_v5 : Ref sig .tc := ⟨.hbm, 351, rfl⟩
abbrev main_v249 : Ref sig .tc := ⟨.hbm, 352, rfl⟩
abbrev main_v250 : Ref sig .tc := ⟨.hbm, 353, rfl⟩
abbrev main_v251 : Ref sig .tc := ⟨.hbm, 354, rfl⟩
abbrev main_cst_27 : Ref sig .tc := ⟨.hbm, 355, rfl⟩
abbrev main_v252 : Ref sig .tc := ⟨.hbm, 356, rfl⟩
abbrev main_cst_28 : Ref sig .tc := ⟨.hbm, 357, rfl⟩
abbrev main_v253 : Ref sig .tc := ⟨.hbm, 358, rfl⟩
abbrev main_v254 : Ref sig .tc := ⟨.hbm, 359, rfl⟩
abbrev main_v255 : Ref sig .tc := ⟨.hbm, 360, rfl⟩
abbrev main_v256 : Ref sig .tc := ⟨.hbm, 361, rfl⟩
abbrev main_cst_29 : Ref sig .tc := ⟨.hbm, 362, rfl⟩
abbrev main_v257 : Ref sig .tc := ⟨.hbm, 363, rfl⟩
abbrev main_v258 : Ref sig .tc := ⟨.hbm, 364, rfl⟩
abbrev main_v259 : Ref sig .tc := ⟨.hbm, 365, rfl⟩
abbrev main_cst_30 : Ref sig .tc := ⟨.hbm, 366, rfl⟩
abbrev main_v260 : Ref sig .tc := ⟨.hbm, 367, rfl⟩
abbrev main_cst_31 : Ref sig .tc := ⟨.hbm, 368, rfl⟩
abbrev main_v261 : Ref sig .tc := ⟨.hbm, 369, rfl⟩
abbrev main_v262 : Ref sig .tc := ⟨.hbm, 370, rfl⟩
abbrev main_v263 : Ref sig .tc := ⟨.hbm, 371, rfl⟩
abbrev main_v264 : Ref sig .tc := ⟨.hbm, 372, rfl⟩
abbrev main_cst_32 : Ref sig .tc := ⟨.hbm, 373, rfl⟩
abbrev main_v265 : Ref sig .tc := ⟨.hbm, 374, rfl⟩
abbrev main_v266 : Ref sig .tc := ⟨.hbm, 375, rfl⟩
abbrev main_cst_33 : Ref sig .tc := ⟨.hbm, 376, rfl⟩
abbrev main_v267 : Ref sig .tc := ⟨.hbm, 377, rfl⟩
abbrev main_v268 : Ref sig .tc := ⟨.hbm, 378, rfl⟩
abbrev main_v269 : Ref sig .tc := ⟨.hbm, 379, rfl⟩
abbrev main_v270 : Ref sig .tc := ⟨.hbm, 380, rfl⟩
abbrev main_v271 : Ref sig .tc := ⟨.hbm, 381, rfl⟩
abbrev main_cst_34 : Ref sig .tc := ⟨.hbm, 382, rfl⟩
abbrev main_call12_v0 : Ref sig .tc := ⟨.hbm, 383, rfl⟩
abbrev main_call12_v1 : Ref sig .tc := ⟨.hbm, 384, rfl⟩
abbrev main_call12_v2 : Ref sig .tc := ⟨.hbm, 385, rfl⟩
abbrev main_v272 : Ref sig .tc := ⟨.hbm, 386, rfl⟩
abbrev main_v273 : Ref sig .tc := ⟨.hbm, 387, rfl⟩
abbrev main_cst_35 : Ref sig .tc := ⟨.hbm, 388, rfl⟩
abbrev main_v274 : Ref sig .tc := ⟨.hbm, 389, rfl⟩
abbrev main_cst_36 : Ref sig .tc := ⟨.hbm, 390, rfl⟩
abbrev main_v275 : Ref sig .tc := ⟨.hbm, 391, rfl⟩
abbrev main_v276 : Ref sig .tc := ⟨.hbm, 392, rfl⟩
abbrev main_c_37 : Ref sig .tc := ⟨.hbm, 393, rfl⟩
abbrev main_call13_cst : Ref sig .tc := ⟨.hbm, 394, rfl⟩
abbrev main_call13_v0 : Ref sig .tc := ⟨.hbm, 395, rfl⟩
abbrev main_call13_v1 : Ref sig .tc := ⟨.hbm, 396, rfl⟩
abbrev main_call13_cst_0 : Ref sig .tc := ⟨.hbm, 397, rfl⟩
abbrev main_call13_v2 : Ref sig .tc := ⟨.hbm, 398, rfl⟩
abbrev main_call13_v3 : Ref sig .tc := ⟨.hbm, 399, rfl⟩
abbrev main_call13_v4 : Ref sig .tc := ⟨.hbm, 400, rfl⟩
abbrev main_call13_v5 : Ref sig .tc := ⟨.hbm, 401, rfl⟩
abbrev main_call13_v6 : Ref sig .tc := ⟨.hbm, 402, rfl⟩
abbrev main_call13_v7 : Ref sig .tc := ⟨.hbm, 403, rfl⟩
abbrev main_call13_cst_1 : Ref sig .tc := ⟨.hbm, 404, rfl⟩
abbrev main_call13_v8 : Ref sig .tc := ⟨.hbm, 405, rfl⟩
abbrev main_call13_cst_2 : Ref sig .tc := ⟨.hbm, 406, rfl⟩
abbrev main_call13_v9 : Ref sig .tc := ⟨.hbm, 407, rfl⟩
abbrev main_call13_v10 : Ref sig .tc := ⟨.hbm, 408, rfl⟩
abbrev main_call13_v11 : Ref sig .tc := ⟨.hbm, 409, rfl⟩
abbrev main_call13_cst_3 : Ref sig .tc := ⟨.hbm, 410, rfl⟩
abbrev main_call13_v12 : Ref sig .tc := ⟨.hbm, 411, rfl⟩
abbrev main_call13_cst_4 : Ref sig .tc := ⟨.hbm, 412, rfl⟩
abbrev main_call13_call0_v0 : Ref sig .tc := ⟨.hbm, 413, rfl⟩
abbrev main_call13_call0_v1 : Ref sig .tc := ⟨.hbm, 414, rfl⟩
abbrev main_v277 : Ref sig .tc := ⟨.hbm, 415, rfl⟩
abbrev main_v278 : Ref sig .tc := ⟨.hbm, 416, rfl⟩
abbrev main_v279 : Ref sig .tc := ⟨.hbm, 417, rfl⟩
abbrev main_v280 : Ref sig .tc := ⟨.hbm, 418, rfl⟩
abbrev main_cst_38 : Ref sig .tc := ⟨.hbm, 419, rfl⟩
abbrev main_v281 : Ref sig .tc := ⟨.hbm, 420, rfl⟩
abbrev main_v282 : Ref sig .tc := ⟨.hbm, 421, rfl⟩
abbrev main_v283 : Ref sig .tc := ⟨.hbm, 422, rfl⟩
abbrev main_v284 : Ref sig .tc := ⟨.hbm, 423, rfl⟩
abbrev main_v285 : Ref sig .tc := ⟨.hbm, 424, rfl⟩
abbrev main_v286 : Ref sig .tc := ⟨.hbm, 425, rfl⟩
abbrev main_v287 : Ref sig .tc := ⟨.hbm, 426, rfl⟩
abbrev main_v288 : Ref sig .tc := ⟨.hbm, 427, rfl⟩
abbrev main_v289 : Ref sig .tc := ⟨.hbm, 428, rfl⟩
abbrev main_v290 : Ref sig .tc := ⟨.hbm, 429, rfl⟩
abbrev main_v291 : Ref sig .tc := ⟨.hbm, 430, rfl⟩
abbrev main_v292 : Ref sig .tc := ⟨.hbm, 431, rfl⟩
abbrev main_v293 : Ref sig .tc := ⟨.hbm, 432, rfl⟩
abbrev main_v294 : Ref sig .tc := ⟨.hbm, 433, rfl⟩
abbrev main_v295 : Ref sig .tc := ⟨.hbm, 434, rfl⟩
abbrev main_v296 : Ref sig .tc := ⟨.hbm, 435, rfl⟩

abbrev nD : Nat := 1
abbrev τ : Topo := Topo.v7x

variable {F : FTy → Type} [FloatOps F]

class Facts₀ : Prop where
  bcast_S_S768 : S_.BroadcastsInDim S768 (![] : Fin 0 → Fin S768.rank)
  bcast_S768_S768x1_0 : S768.BroadcastsInDim S768x1 (![0] : Fin 1 → Fin S768x1.rank)
  bcast_S768x3_S768x1x3_0_2 : S768x3.BroadcastsInDim S768x1x3 (![0, 2] : Fin 2 → Fin S768x1x3.rank)
  bcast_S768x3_S1x768x3_1_2 : S768x3.BroadcastsInDim S1x768x3 (![1, 2] : Fin 2 → Fin S1x768x3.rank)
  bcast_S768x1x3_S768x768x3_0_1_2 : S768x1x3.BroadcastsInDim S768x768x3 (![0, 1, 2] : Fin 3 → Fin S768x768x3.rank)
  bcast_S1x768x3_S768x768x3_0_1_2 : S1x768x3.BroadcastsInDim S768x768x3 (![0, 1, 2] : Fin 3 → Fin S768x768x3.rank)
  reducesTo_S768x768x3_S768x768_d2 : S768x768x3.ReducesTo [2] S768x768
  h_S_ : 0 < S_.numel
  bcast_S_S768x768 : S_.BroadcastsInDim S768x768 (![] : Fin 0 → Fin S768x768.rank)
  slices_S3x257x128_S1x257x128_0_0_0 : S3x257x128.Slices ![0, 0, 0] S1x257x128
  shapeCasts_S1x257x128_S257x128 : S1x257x128.ShapeCasts S257x128
  slices_S257x128_S128x128_0_0 : S257x128.Slices ![0, 0] S128x128
  bcast_S768x128_S768x1x128_0_2 : S768x128.BroadcastsInDim S768x1x128 (![0, 2] : Fin 2 → Fin S768x1x128.rank)
  slices_S257x128_S128x128_128_0 : S257x128.Slices ![128, 0] S128x128
  bcast_S768x128_S1x768x128_1_2 : S768x128.BroadcastsInDim S1x768x128 (![1, 2] : Fin 2 → Fin S1x768x128.rank)
  bcast_S768x1x128_S768x768x128_0_1_2 : S768x1x128.BroadcastsInDim S768x768x128 (![0, 1, 2] : Fin 3 → Fin S768x768x128.rank)
  bcast_S1x768x128_S768x768x128_0_1_2 : S1x768x128.BroadcastsInDim S768x768x128 (![0, 1, 2] : Fin 3 → Fin S768x768x128.rank)
  bcast_S768x768_S768x768x1_0_1 : S768x768.BroadcastsInDim S768x768x1 (![0, 1] : Fin 2 → Fin S768x768x1.rank)
  slices_S257x128_S1x128_256_0 : S257x128.Slices ![256, 0] S1x128
  shapeCasts_S1x128_S128 : S1x128.ShapeCasts S128
  bcast_S128_S1x1x128_2 : S128.BroadcastsInDim S1x1x128 (![2] : Fin 1 → Fin S1x1x128.rank)
  bcast_S768x768x1_S768x768x128_0_1_2 : S768x768x1.BroadcastsInDim S768x768x128 (![0, 1, 2] : Fin 3 → Fin S768x768x128.rank)
  bcast_S1x1x128_S768x768x128_0_1_2 : S1x1x128.BroadcastsInDim S768x768x128 (![0, 1, 2] : Fin 3 → Fin S768x768x128.rank)
  slices_S3x128_S1x128_0_0 : S3x128.Slices ![0, 0] S1x128
  bcast_S_S768x768x128 : S_.BroadcastsInDim S768x768x128 (![] : Fin 0 → Fin S768x768x128.rank)
  reducesTo_S768x768x128_S768x128_d1 : S768x768x128.ReducesTo [1] S768x128
  bcast_S_S768x128 : S_.BroadcastsInDim S768x128 (![] : Fin 0 → Fin S768x128.rank)
  slices_S3x128x128_S1x128x128_0_0_0 : S3x128x128.Slices ![0, 0, 0] S1x128x128
  shapeCasts_S1x128x128_S128x128 : S1x128x128.ShapeCasts S128x128
  bcast_S128_S1x128_1 : S128.BroadcastsInDim S1x128 (![1] : Fin 1 → Fin S1x128.rank)
  bcast_S1x128_S768x128_0_1 : S1x128.BroadcastsInDim S768x128 (![0, 1] : Fin 2 → Fin S768x128.rank)
  slices_S3x257x1_S1x257x1_0_0_0 : S3x257x1.Slices ![0, 0, 0] S1x257x1
  shapeCasts_S1x257x1_S257x1 : S1x257x1.ShapeCasts S257x1
  slices_S257x1_S128x1_0_0 : S257x1.Slices ![0, 0] S128x1
  bcast_S768x1_S768x1x1_0_2 : S768x1.BroadcastsInDim S768x1x1 (![0, 2] : Fin 2 → Fin S768x1x1.rank)
  slices_S257x1_S128x1_128_0 : S257x1.Slices ![128, 0] S128x1
  bcast_S768x1_S1x768x1_1_2 : S768x1.BroadcastsInDim S1x768x1 (![1, 2] : Fin 2 → Fin S1x768x1.rank)
  bcast_S768x1x1_S768x768x1_0_1_2 : S768x1x1.BroadcastsInDim S768x768x1 (![0, 1, 2] : Fin 3 → Fin S768x768x1.rank)
  bcast_S1x768x1_S768x768x1_0_1_2 : S1x768x1.BroadcastsInDim S768x768x1 (![0, 1, 2] : Fin 3 → Fin S768x768x1.rank)
  slices_S257x1_S1x1_256_0 : S257x1.Slices ![256, 0] S1x1
  shapeCasts_S1x1_S1 : S1x1.ShapeCasts S1
  bcast_S1_S1x1x1_2 : S1.BroadcastsInDim S1x1x1 (![2] : Fin 1 → Fin S1x1x1.rank)
  bcast_S1x1x1_S768x768x1_0_1_2 : S1x1x1.BroadcastsInDim S768x768x1 (![0, 1, 2] : Fin 3 → Fin S768x768x1.rank)
  slices_S3x1_S1x1_0_0 : S3x1.Slices ![0, 0] S1x1
  bcast_S_S768x768x1 : S_.BroadcastsInDim S768x768x1 (![] : Fin 0 → Fin S768x768x1.rank)
  bcast_S768x768x1_S768x768x3_0_1_2 : S768x768x1.BroadcastsInDim S768x768x3 (![0, 1, 2] : Fin 3 → Fin S768x768x3.rank)
  reducesTo_S768x768x3_S768x3_d1 : S768x768x3.ReducesTo [1] S768x3
  bcast_S_S768x3 : S_.BroadcastsInDim S768x3 (![] : Fin 0 → Fin S768x3.rank)
  slices_S3x257x128_S1x257x128_1_0_0 : S3x257x128.Slices ![1, 0, 0] S1x257x128
  slices_S3x128_S1x128_1_0 : S3x128.Slices ![1, 0] S1x128
  slices_S3x128x128_S1x128x128_1_0_0 : S3x128x128.Slices ![1, 0, 0] S1x128x128
  slices_S3x257x1_S1x257x1_1_0_0 : S3x257x1.Slices ![1, 0, 0] S1x257x1
  slices_S3x1_S1x1_1_0 : S3x1.Slices ![1, 0] S1x1
  slices_S3x257x128_S1x257x128_2_0_0 : S3x257x128.Slices ![2, 0, 0] S1x257x128
  slices_S3x128_S1x128_2_0 : S3x128.Slices ![2, 0] S1x128
  slices_S3x128x128_S1x128x128_2_0_0 : S3x128x128.Slices ![2, 0, 0] S1x128x128
  slices_S3x257x1_S1x257x1_2_0_0 : S3x257x1.Slices ![2, 0, 0] S1x257x1
  slices_S3x1_S1x1_2_0 : S3x1.Slices ![2, 0] S1x1
  bcast_S_S2048x128 : S_.BroadcastsInDim S2048x128 (![] : Fin 0 → Fin S2048x128.rank)
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x128_0_1 : S2048x1.BroadcastsInDim S2048x128 (![0, 1] : Fin 2 → Fin S2048x128.rank)
  concatenates_S2048x128_S2048x128_S2048x256_d1 : Shape.Concatenates [S2048x128, S2048x128] S2048x256 1
  reducesTo_S2048x256_S256_d0 : S2048x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S2048x256_0_1 : S1x256.BroadcastsInDim S2048x256 (![0, 1] : Fin 2 → Fin S2048x256.rank)
  bcast_S1x128_S2048x128_0_1 : S1x128.BroadcastsInDim S2048x128 (![0, 1] : Fin 2 → Fin S2048x128.rank)
  gather_S2048x128_S768x1_S768x128_1_0_n_n_0_1_1128_wf : GatherDims.WF S2048x128 S768x1 S768x128 [1] [0] [] [0] [] 1 ![1, 128]
  gather_S2048x3_S768x1_S768x3_1_0_n_n_0_1_13_wf : GatherDims.WF S2048x3 S768x1 S768x3 [1] [0] [] [0] [] 1 ![1, 3]
  dot_S768x128_S128x128_S768x128_1_0_0_1_n_n_wf : DotDims.WF S768x128 S128x128 S768x128 [1] [0] [0] [1] [] []
  dot_S768x128_S128x1_S768x1_1_0_0_1_n_n_wf : DotDims.WF S768x128 S128x1 S768x1 [1] [0] [0] [1] [] []
  scatter_S2048x128_S768x1_S768x128_1_0_0_1_wf : ScatterDims.WF S2048x128 S768x1 S768x128 [1] [0] [0] 1
  scatter_S2048_S768x1_S768_n_0_0_1_wf : ScatterDims.WF S2048 S768x1 S768 [] [0] [0] 1
  dot_S2048x256_S256x128_S2048x128_1_0_0_1_n_n_wf : DotDims.WF S2048x256 S256x128 S2048x128 [1] [0] [0] [1] [] []

variable [Facts₀]

def gather_S2048x128_S768x1_S768x128_1_0_n_n_0_1_1128 : GatherDims S2048x128 S768x1 S768x128 where
  offsetDims := [1]
  collapsedSliceDims := [0]
  operandBatchingDims := []
  startIndicesBatchingDims := []
  startIndexMap := [0]
  indexVectorDim := 1
  sliceSizes := ![1, 128]
  wf := gather_S2048x128_S768x1_S768x128_1_0_n_n_0_1_1128_wf
def gather_S2048x3_S768x1_S768x3_1_0_n_n_0_1_13 : GatherDims S2048x3 S768x1 S768x3 where
  offsetDims := [1]
  collapsedSliceDims := [0]
  operandBatchingDims := []
  startIndicesBatchingDims := []
  startIndexMap := [0]
  indexVectorDim := 1
  sliceSizes := ![1, 3]
  wf := gather_S2048x3_S768x1_S768x3_1_0_n_n_0_1_13_wf
def dot_S768x128_S128x128_S768x128_1_0_0_1_n_n : DotDims S768x128 S128x128 S768x128 where
  lhsContracting := [1]
  rhsContracting := [0]
  lhsNonContracting := [0]
  rhsNonContracting := [1]
  lhsBatch := []
  rhsBatch := []
  wf := dot_S768x128_S128x128_S768x128_1_0_0_1_n_n_wf
def dot_S768x128_S128x1_S768x1_1_0_0_1_n_n : DotDims S768x128 S128x1 S768x1 where
  lhsContracting := [1]
  rhsContracting := [0]
  lhsNonContracting := [0]
  rhsNonContracting := [1]
  lhsBatch := []
  rhsBatch := []
  wf := dot_S768x128_S128x1_S768x1_1_0_0_1_n_n_wf
def scatter_S2048x128_S768x1_S768x128_1_0_0_1 : ScatterDims S2048x128 S768x1 S768x128 where
  updateWindowDims := [1]
  insertedWindowDims := [0]
  scatterDimsToOperandDims := [0]
  indexVectorDim := 1
  wf := scatter_S2048x128_S768x1_S768x128_1_0_0_1_wf
def scatter_S2048_S768x1_S768_n_0_0_1 : ScatterDims S2048 S768x1 S768 where
  updateWindowDims := []
  insertedWindowDims := [0]
  scatterDimsToOperandDims := [0]
  indexVectorDim := 1
  wf := scatter_S2048_S768x1_S768_n_0_0_1_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

class Facts : Prop extends Facts₀ where

variable [Facts]
-- ==== Proof.BitsLayer0Base.lean ====
/-
  Message-passing layer 1 as a pipelined kernel over a 6 × 6 grid of 128-row tiles (i over the receiving nodes, j over
  the sending ones, j the reduction axis): what the three kinds of step share. The body's two branches depend on j only:
  the first (zero both accumulators) is taken exactly when j = 0, the second (scale the sums by 1/768, apply the second
  linear map, add the residual and store both outputs) exactly when j = 5. The two outputs' tiles are touched only at
  j = 5, which is also where they are written back; the accumulators live in two scratch buffers of the kernel's own.
-/
import proofs.«110946_j38972533244288_1_alg».proof.Proof.Gen.Kernel.Launch
import proofs.«110946_j38972533244288_1_alg».proof.Proof.Gen.Kernel.Skeleton
import proofs.«110946_j38972533244288_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- The first branch's condition: j = 0. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 6 = 0 :=
  (by decide +kernel : ∀ t : Fin grid0.N, isFirst (grid0.coords t) ↔ t.val % 6 = 0)
/-- The second branch's condition: j = 5. -/
abbrev isLast (i : grid0.Coords) : Prop := k0_cond2 i = 1#1
theorem isLast_iff : ∀ t : Fin cfg0.N, isLast (grid0.coords t) ↔ t.val % 6 = 5 :=
  (by decide +kernel : ∀ t : Fin grid0.N, isLast (grid0.coords t) ↔ t.val % 6 = 5)

/-! ## Where a window is idle: an input never, an output except at j = 5 (where it is also written back) -/

theorem live_0 : ∀ i, cfg0.idle 0 i = false := fun _ => rfl
theorem live_1 : ∀ i, cfg0.idle 1 i = false := fun _ => rfl
theorem live_2 : ∀ i, cfg0.idle 2 i = false := fun _ => rfl
theorem live_3 : ∀ i, cfg0.idle 3 i = false := fun _ => rfl
theorem live_4 : ∀ i, cfg0.idle 4 i = false := fun _ => rfl
theorem live_5 : ∀ i, cfg0.idle 5 i = false := fun _ => rfl
theorem live_6 : ∀ i, cfg0.idle 6 i = false := fun _ => rfl
theorem live_7 : ∀ i, cfg0.idle 7 i = false := fun _ => rfl
theorem live_8 : ∀ i, cfg0.idle 8 i = false := fun _ => rfl
theorem live_9 : ∀ i, cfg0.idle 9 i = false := fun _ => rfl
theorem live_10 : ∀ i, cfg0.idle 10 i = false := fun _ => rfl
theorem live_11 : ∀ i, cfg0.idle 11 i = false := fun _ => rfl
theorem live_12 : ∀ i, cfg0.idle 12 i = false := fun _ => rfl
theorem live_13 : ∀ i, cfg0.idle 13 i = false := fun _ => rfl
theorem idle_14 : ∀ t : Fin cfg0.N, ¬isLast (grid0.coords t) → cfg0.idle 14 (grid0.coords t) = true := by decide +kernel
theorem noFlush_14 : ∀ t : Fin cfg0.N, ¬isLast (grid0.coords t) → (cfg0.win 14).flush t = false := by decide +kernel
theorem live_14 : ∀ t : Fin cfg0.N, isLast (grid0.coords t) → cfg0.idle 14 (grid0.coords t) = false := by decide +kernel
theorem idle_15 : ∀ t : Fin cfg0.N, ¬isLast (grid0.coords t) → cfg0.idle 15 (grid0.coords t) = true := by decide +kernel
theorem noFlush_15 : ∀ t : Fin cfg0.N, ¬isLast (grid0.coords t) → (cfg0.win 15).flush t = false := by decide +kernel
theorem live_15 : ∀ t : Fin cfg0.N, isLast (grid0.coords t) → cfg0.idle 15 (grid0.coords t) = false := by decide +kernel

/-! ## The memrefs the body is called with -/

/-- One staging buffer of each output, through which its contents are stated. -/
abbrev viewH : View sig .tc .vmem S128x128 .f32 := (Memref.whole cc0_stg14_0 : Memref sig .tc .vmem S128x128 .f32).view
abbrev viewC : View sig .tc .vmem S128x3 .f32 := (Memref.whole cc0_stg15_0 : Memref sig .tc .vmem S128x3 .f32).view
abbrev ms_0 (t : Fin cfg0.N) : Memref sig .tc .vmem S128x128 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S128x128 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S128x3 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S128x3 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S128x128 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S128x128 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x128 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1x128 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S128x128 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S1x128 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S128x1 .f32 := win0_10.stage (cfg0.slots t 10)
abbrev hs_10 (t : Fin cfg0.N) : (ms_10 t).IsWhole := hstage0_10 ((cfg0.slots t 10).cast nbuf0_10)
abbrev ms_11 (t : Fin cfg0.N) : Memref sig .tc .vmem S128x1 .f32 := win0_11.stage (cfg0.slots t 11)
abbrev hs_11 (t : Fin cfg0.N) : (ms_11 t).IsWhole := hstage0_11 ((cfg0.slots t 11).cast nbuf0_11)
abbrev ms_12 (t : Fin cfg0.N) : Memref sig .tc .vmem S1x1 .f32 := win0_12.stage (cfg0.slots t 12)
abbrev hs_12 (t : Fin cfg0.N) : (ms_12 t).IsWhole := hstage0_12 ((cfg0.slots t 12).cast nbuf0_12)
abbrev ms_13 (t : Fin cfg0.N) : Memref sig .tc .vmem S1x1 .f32 := win0_13.stage (cfg0.slots t 13)
abbrev hs_13 (t : Fin cfg0.N) : (ms_13 t).IsWhole := hstage0_13 ((cfg0.slots t 13).cast nbuf0_13)
abbrev ms_14 (t : Fin cfg0.N) : Memref sig .tc .vmem S128x128 .f32 := win0_14.stage (cfg0.slots t 14)
abbrev hs_14 (t : Fin cfg0.N) : (ms_14 t).IsWhole := hstage0_14 ((cfg0.slots t 14).cast nbuf0_14)
abbrev ms_15 (t : Fin cfg0.N) : Memref sig .tc .vmem S128x3 .f32 := win0_15.stage (cfg0.slots t 15)
abbrev hs_15 (t : Fin cfg0.N) : (ms_15 t).IsWhole := hstage0_15 ((cfg0.slots t 15).cast nbuf0_15)
/-- The two accumulators: the sum over j of the messages, and of the weighted coordinate differences. -/
abbrev accH : Memref sig .tc .vmem S128x128 .f32 := Memref.whole cc0_scratch0
abbrev accC : Memref sig .tc .vmem S128x3 .f32 := Memref.whole cc0_scratch1
abbrev viewAccH : View sig .tc .vmem S128x128 .f32 := accH.view
abbrev viewAccC : View sig .tc .vmem S128x3 .f32 := accC.view

/-- The scoped buffers of the core that are neither this kernel's staging buffers nor its accumulators. -/
abbrev others (c : Dev nD) : sProp 𝕄 :=
  Pipeline.scopedRestBut (Ix := Unit) (Name := ℕ) (U := UR sig nD τ) (Lvl := ℕ) (Val := Elt F) spec0 c [cc0_scratch0, cc0_scratch1]

/-- The region's invariant before the first step: both accumulators at anything, the other scoped buffers, the
    generator register. -/
theorem phiA_eq (c : Dev nD) :
    (Pipeline.ΦA spec0 c : sProp 𝕄)
      = iprop(iprop(iprop((∃ d, owns (c : Thread nD τ) accH fullShare d) ∗ (∃ d, owns (c : Thread nD τ) accC fullShare d)) ∗ others c) ∗ (∃ r, prngReg c r)) := by
  unfold Pipeline.ΦA; rw [scopedRest0_split]; simp only [accH, accC, owns_whole]; try rfl

/-! ## The windows' blocks, read off the arrays as the region finds them -/

section Blocks
variable (V : (c : Dev nD) → (b : Ref sig .tc) → Buf (Elt F) ((c : Thread nD τ).loc b))

/-- Window `w`'s tile at grid point `t`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input 0's current staging buffer holds its tile at every grid point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1's current staging buffer holds its tile at every grid point, fetched there or not. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input 2's current staging buffer holds its tile at every grid point, fetched there or not. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input 3's current staging buffer holds its tile at every grid point, fetched there or not. -/
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input 4's current staging buffer holds its tile at every grid point, fetched there or not. -/
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input 5's current staging buffer holds its tile at every grid point, fetched there or not. -/
theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input 6's current staging buffer holds its tile at every grid point, fetched there or not. -/
theorem before_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input 7's current staging buffer holds its tile at every grid point, fetched there or not. -/
theorem before_7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input 8's current staging buffer holds its tile at every grid point, fetched there or not. -/
theorem before_8_of {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input 9's current staging buffer holds its tile at every grid point, fetched there or not. -/
theorem before_9_of {c : Dev nD} (dat : Dat τ (Elt F) Unit ℕ (UR sig nD τ) ℕ cfg0 c) (hA : dat.A 9 = V c (Pipeline.arrRef spec0 9))
    (hafter : ∀ t, dat.after 9 t = iblk V c 9 t) (t : Fin cfg0.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input 10's current staging buffer holds its tile at every grid point, fetched there or not. -/
theorem before_10_of {c : Dev nD} (dat : Dat τ (Elt F) Unit ℕ (UR sig nD τ) ℕ cfg0 c) (hA : dat.A 10 = V c (Pipeline.arrRef spec0 10))
    (hafter : ∀ t, dat.after 10 t = iblk V c 10 t) (t : Fin cfg0.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input 11's current staging buffer holds its tile at every grid point, fetched there or not. -/
theorem before_11_of {c : Dev nD} (dat : Dat τ (Elt F) Unit ℕ (UR sig nD τ) ℕ cfg0 c) (hA : dat.A 11 = V c (Pipeline.arrRef spec0 11))
    (hafter : ∀ t, dat.after 11 t = iblk V c 11 t) (t : Fin cfg0.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input 12's current staging buffer holds its tile at every grid point, fetched there or not. -/
theorem before_12_of {c : Dev nD} (dat : Dat τ (Elt F) Unit ℕ (UR sig nD τ) ℕ cfg0 c) (hA : dat.A 12 = V c (Pipeline.arrRef spec0 12))
    (hafter : ∀ t, dat.after 12 t = iblk V c 12 t) (t : Fin cfg0.N) (d) : dat.before 12 t d = iblk V c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input 13's current staging buffer holds its tile at every grid point, fetched there or not. -/
theorem before_13_of {c : Dev nD} (dat : Dat τ (Elt F) Unit ℕ (UR sig nD τ) ℕ cfg0 c) (hA : dat.A 13 = V c (Pipeline.arrRef spec0 13))
    (hafter : ∀ t, dat.after 13 t = iblk V c 13 t) (t : Fin cfg0.N) (d) : dat.before 13 t d = iblk V c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
end Blocks

end Cert.Kernel.Gen.Layer0

end
-- ==== Proof.BitsLayer0First.lean ====
/-
  Layer 1's kernel body at one kind of grid point, run on whole staging memrefs.
  THE FIRST STEP (j = 0): both accumulators, found at anything, are zeroed and then take this tile's sums; the outputs'
  buffers are not touched.
  The lists of stored pieces each buffer ends with are found by running the body.
-/
import proofs.«110946_j38972533244288_1_alg».proof.Proof.BitsLayer0Base

set_option maxRecDepth 16384

noncomputable section

namespace Cert.Kernel.Gen.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at such a point, from the inputs' tiles (and what it finds in the accumulators), to the continuation holding the inputs
    as they were and every buffer it stored into with its pieces written. -/
noncomputable def stepFirst (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) :
    Σ' (LS0 : List (View.Piece (Elt F) S128x128 .f32)), { LS1 : List (View.Piece (Elt F) S128x3 .f32) //
      ∀ (xi14 : Vec F S128x128 .f32) (xi15 : Vec F S128x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ owns (c : Thread nD τ) arg17 fullShare xi15 ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ owns (c : Thread nD τ) arg17 fullShare xi15 ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc0__layer_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun xi14 xi15 E K => ?run⟩
  case run =>
    simp only [cc0__layer_kernel_eq_skeleton]; unfold cc0__layer_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [HS0]; · iexists _; iexact HS0
    iexists _; iexact HS1

end Cert.Kernel.Gen.Layer0

end
-- ==== Proof.BitsLayer0Mid.lean ====
/-
  Layer 1's kernel body at one kind of grid point, run on whole staging memrefs.
  A MIDDLE STEP (0 < j < 5): both accumulators take this tile's sums on top of what the step before left; the outputs'
  buffers are not touched.
  The lists of stored pieces each buffer ends with are found by running the body.
-/
import proofs.«110946_j38972533244288_1_alg».proof.Proof.BitsLayer0First

set_option maxRecDepth 16384

noncomputable section

namespace Cert.Kernel.Gen.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at such a point, from the inputs' tiles (and what it finds in the accumulators), to the continuation holding the inputs
    as they were and every buffer it stored into with its pieces written. -/
noncomputable def stepMid (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) :
    Σ' (LS0 : List (View.Piece (Elt F) S128x128 .f32)), { LS1 : List (View.Piece (Elt F) S128x3 .f32) //
      ∀ (xi14 : Vec F S128x128 .f32) (xi15 : Vec F S128x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ owns (c : Thread nD τ) arg17 fullShare xi15 ∗ owns (c : Thread nD τ) arg18 fullShare xs0 ∗ owns (c : Thread nD τ) arg19 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ owns (c : Thread nD τ) arg17 fullShare xi15 ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc0__layer_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun xi14 xi15 E K => ?run⟩
  case run =>
    simp only [cc0__layer_kernel_eq_skeleton]; unfold cc0__layer_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hfs0; obtain rfl := harg19.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [HS0]; · iexists _; iexact HS0
    iexists _; iexact HS1

end Cert.Kernel.Gen.Layer0

end
-- ==== Proof.BitsLayer0Last.lean ====
/-
  Layer 1's kernel body at one kind of grid point, run on whole staging memrefs.
  THE LAST STEP (j = 5): both accumulators take this tile's sums; then the message sum is scaled by 1/768, multiplied by
  the second weight matrix, biased and added to the receiving nodes' features, and the coordinate sum is scaled by
  1/768 and added to their coordinates: each output's buffer is stored whole.
  The lists of stored pieces each buffer ends with are found by running the body.
-/
import proofs.«110946_j38972533244288_1_alg».proof.Proof.BitsLayer0Mid

set_option maxRecDepth 16384

noncomputable section

namespace Cert.Kernel.Gen.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at such a point, from the inputs' tiles (and what it finds in the accumulators), to the continuation holding the inputs
    as they were and every buffer it stored into with its pieces written. -/
noncomputable def stepLast (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) :
    Σ' (L14 : List (View.Piece (Elt F) S128x128 .f32)) (L15 : List (View.Piece (Elt F) S128x3 .f32)) (LS0 : List (View.Piece (Elt F) S128x128 .f32)), { LS1 : List (View.Piece (Elt F) S128x3 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ owns (c : Thread nD τ) arg18 fullShare xs0 ∗ owns (c : Thread nD τ) arg19 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc0__layer_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun E K => ?run⟩
  case run =>
    simp only [cc0__layer_kernel_eq_skeleton]; unfold cc0__layer_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg18.eq_unread hfs0; obtain rfl := harg19.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [H15]; · iexists _; iexact H15
    isplitl [HS0]; · iexists _; iexact HS0
    iexists _; iexact HS1

end Cert.Kernel.Gen.Layer0

end
-- ==== Proof.BitsLayer0Data.lean ====
/-
  Layer 1's kernel over its 36 grid points: what the two accumulators and the two outputs' buffers hold after each point
  (a recursion over the points: zeroed and refilled at j = 0, added to at 0 < j < 5, added to and read out at j = 5), the
  region's invariant carrying the accumulators from one point to the next, the pipeline's proof data at any contents `V`
  of the arrays at the region's entry, and the body's obligation at every point.
-/
import proofs.«110946_j38972533244288_1_alg».proof.Proof.BitsLayer0Last

set_option maxRecDepth 16384

noncomputable section

namespace Cert.Kernel.Gen.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each kind of step leaves: its stored pieces cover each buffer it stores into -/
theorem cover_accH_First (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (y : S128x128.Idx) :
    ∃ pc ∈ (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).1, y ∈ pc.1.set :=
  View.cover_of_tiledL (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).1 S128x128.size (by sl_kernel_rfl) y
/-- Its contents then: the pieces read back. -/
def accH_First (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) : Vec F S128x128 .f32 :=
  viewAccH.read (Elt F) (viewAccH.writes (Elt F) viewAccH.junk (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).1)
theorem cover_accC_First (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (y : S128x3.Idx) :
    ∃ pc ∈ (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).2.1, y ∈ pc.1.set :=
  View.cover_of_tiledL (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).2.1 S128x3.size (by sl_kernel_rfl) y
/-- Its contents then: the pieces read back. -/
def accC_First (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) : Vec F S128x3 .f32 :=
  viewAccC.read (Elt F) (viewAccC.writes (Elt F) viewAccC.junk (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).2.1)
theorem cover_accH_Mid (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x128.Idx) :
    ∃ pc ∈ (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1, y ∈ pc.1.set :=
  View.cover_of_tiledL (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1 S128x128.size (by sl_kernel_rfl) y
/-- Its contents then: the pieces read back. -/
def accH_Mid (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x128 .f32 :=
  viewAccH.read (Elt F) (viewAccH.writes (Elt F) viewAccH.junk (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1)
theorem cover_accC_Mid (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x3.Idx) :
    ∃ pc ∈ (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1, y ∈ pc.1.set :=
  View.cover_of_tiledL (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1 S128x3.size (by sl_kernel_rfl) y
/-- Its contents then: the pieces read back. -/
def accC_Mid (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x3 .f32 :=
  viewAccC.read (Elt F) (viewAccC.writes (Elt F) viewAccC.junk (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1)
theorem cover_outH_Last (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x128.Idx) :
    ∃ pc ∈ (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1, y ∈ pc.1.set :=
  View.cover_of_tiledL (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1 S128x128.size (by sl_kernel_rfl) y
/-- Its contents then: the pieces read back. -/
def outH_Last (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x128 .f32 :=
  viewH.read (Elt F) (viewH.writes (Elt F) viewH.junk (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1)
theorem cover_outC_Last (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x3.Idx) :
    ∃ pc ∈ (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1, y ∈ pc.1.set :=
  View.cover_of_tiledL (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1 S128x3.size (by sl_kernel_rfl) y
/-- Its contents then: the pieces read back. -/
def outC_Last (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x3 .f32 :=
  viewC.read (Elt F) (viewC.writes (Elt F) viewC.junk (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1)
theorem cover_accH_Last (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x128.Idx) :
    ∃ pc ∈ (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.1, y ∈ pc.1.set :=
  View.cover_of_tiledL (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.1 S128x128.size (by sl_kernel_rfl) y
/-- Its contents then: the pieces read back. -/
def accH_Last (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x128 .f32 :=
  viewAccH.read (Elt F) (viewAccH.writes (Elt F) viewAccH.junk (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.1)
theorem cover_accC_Last (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x3.Idx) :
    ∃ pc ∈ (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.2.1, y ∈ pc.1.set :=
  View.cover_of_tiledL (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.2.1 S128x3.size (by sl_kernel_rfl) y
/-- Its contents then: the pieces read back. -/
def accC_Last (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x3 .f32 :=
  viewAccC.read (Elt F) (viewAccC.writes (Elt F) viewAccC.junk (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.2.1)

section Data
variable (V : (c : Dev nD) → (b : Ref sig .tc) → Buf (Elt F) ((c : Thread nD τ).loc b))

/-! ## The state after each grid point -/

/-- Placeholders for the outputs' buffers at the points that do not touch them (nothing reads them: at those points the
    buffers are neither written back nor stated). -/
abbrev idleH : Vec F S128x128 .f32 := viewH.read (Elt F) viewH.junk
abbrev idleC : Vec F S128x3 .f32 := viewC.read (Elt F) viewC.junk

/-- THE ACCUMULATION: after the body at position `n`, the two outputs' buffers and the two accumulators. -/
def stateAt (c : Dev nD) : (n : ℕ) → n < cfg0.N → Vec F S128x128 .f32 × Vec F S128x3 .f32 × Vec F S128x128 .f32 × Vec F S128x3 .f32
  | 0, hn => (idleH, idleC,
      accH_First c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) (ms_10 ⟨0, hn⟩) (hs_10 ⟨0, hn⟩) (ms_11 ⟨0, hn⟩) (hs_11 ⟨0, hn⟩) (ms_12 ⟨0, hn⟩) (hs_12 ⟨0, hn⟩) (ms_13 ⟨0, hn⟩) (hs_13 ⟨0, hn⟩) (ms_14 ⟨0, hn⟩) (hs_14 ⟨0, hn⟩) (ms_15 ⟨0, hn⟩) (hs_15 ⟨0, hn⟩) accH (Memref.isWhole_whole _) accC (Memref.isWhole_whole _) ((isFirst_iff ⟨0, hn⟩).mpr (Nat.zero_mod _)) (fun h => (fun h' => by (try dsimp only at h'); omega) ((isLast_iff ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩) (iblk V c 10 ⟨0, hn⟩) (iblk V c 11 ⟨0, hn⟩) (iblk V c 12 ⟨0, hn⟩) (iblk V c 13 ⟨0, hn⟩),
      accC_First c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) (ms_10 ⟨0, hn⟩) (hs_10 ⟨0, hn⟩) (ms_11 ⟨0, hn⟩) (hs_11 ⟨0, hn⟩) (ms_12 ⟨0, hn⟩) (hs_12 ⟨0, hn⟩) (ms_13 ⟨0, hn⟩) (hs_13 ⟨0, hn⟩) (ms_14 ⟨0, hn⟩) (hs_14 ⟨0, hn⟩) (ms_15 ⟨0, hn⟩) (hs_15 ⟨0, hn⟩) accH (Memref.isWhole_whole _) accC (Memref.isWhole_whole _) ((isFirst_iff ⟨0, hn⟩).mpr (Nat.zero_mod _)) (fun h => (fun h' => by (try dsimp only at h'); omega) ((isLast_iff ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩) (iblk V c 10 ⟨0, hn⟩) (iblk V c 11 ⟨0, hn⟩) (iblk V c 12 ⟨0, hn⟩) (iblk V c 13 ⟨0, hn⟩))
  | n + 1, hn =>
    if h0 : (n + 1) % 6 = 0 then
      (idleH, idleC,
        accH_First c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) ((isFirst_iff ⟨n + 1, hn⟩).mpr h0) (fun h => (fun h' => by (try dsimp only at h'); omega) ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩),
        accC_First c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) ((isFirst_iff ⟨n + 1, hn⟩).mpr h0) (fun h => (fun h' => by (try dsimp only at h'); omega) ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩))
    else if h1 : (n + 1) % 6 = 5 then
      (outH_Last c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2,
        outC_Last c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2,
        accH_Last c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2,
        accC_Last c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2)
    else
      (idleH, idleC,
        accH_Mid c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2,
        accC_Mid c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2)

/-- The point before `t`, when `t` is not the first. -/
abbrev prevLt (t : Fin cfg0.N) : t.val - 1 < cfg0.N := Nat.lt_of_le_of_lt (Nat.sub_le _ _) t.isLt

theorem stateAt_first (c : Dev nD) (t : Fin cfg0.N) (h0 : t.val % 6 = 0) :
    stateAt V c t.val t.isLt = (idleH, idleC,
      accH_First c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) ((isFirst_iff t).mpr h0) (fun h => (fun h' => by omega) ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t),
      accC_First c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) ((isFirst_iff t).mpr h0) (fun h => (fun h' => by omega) ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t)) := by
  obtain ⟨n, hn⟩ := t
  cases n with
  | zero => exact rfl
  | succ n => exact (dif_pos h0).trans rfl

theorem stateAt_mid (c : Dev nD) (t : Fin cfg0.N) (h0 : ¬t.val % 6 = 0) (h1 : ¬t.val % 6 = 5) :
    stateAt V c t.val t.isLt = (idleH, idleC,
      accH_Mid c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) (fun h => h1 ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2,
      accC_Mid c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) (fun h => h1 ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2) := by
  obtain ⟨n, hn⟩ := t
  cases n with
  | zero => exact absurd (Nat.zero_mod _) h0
  | succ n => exact (dif_neg h0).trans ((dif_neg h1).trans rfl)

theorem stateAt_last (c : Dev nD) (t : Fin cfg0.N) (h0 : ¬t.val % 6 = 0) (h1 : t.val % 6 = 5) :
    stateAt V c t.val t.isLt = (
      outH_Last c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2,
      outC_Last c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2,
      accH_Last c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2,
      accC_Last c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2) := by
  obtain ⟨n, hn⟩ := t
  cases n with
  | zero => exact absurd (Nat.zero_mod _) h0
  | succ n => exact (dif_neg h0).trans ((dif_pos h1).trans rfl)

/-! ## The region's invariant: the accumulators carried from point to point -/

def PhiS (c : Dev nD) : (n : ℕ) → n ≤ cfg0.N → sProp 𝕄
  | 0, _ => Pipeline.ΦA spec0 c
  | n + 1, hn => iprop(iprop(iprop(owns (c : Thread nD τ) accH fullShare ((stateAt V c n hn).2.2.1) ∗ owns (c : Thread nD τ) accC fullShare ((stateAt V c n hn).2.2.2)) ∗ others c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(iprop(owns (c : Thread nD τ) accH fullShare ((stateAt V c n hn).2.2.1) ∗ owns (c : Thread nD τ) accC fullShare ((stateAt V c n hn).2.2.2)) ∗ others c) ∗ (∃ r, prngReg c r)) := rfl
theorem PhiS_pos (c : Dev nD) (n : ℕ) (h : n ≤ cfg0.N) (hz : n ≠ 0) :
    PhiS V c n h = iprop(iprop(iprop(owns (c : Thread nD τ) accH fullShare ((stateAt V c (n - 1) (by omega)).2.2.1) ∗ owns (c : Thread nD τ) accC fullShare ((stateAt V c (n - 1) (by omega)).2.2.2)) ∗ others c) ∗ (∃ r, prngReg c r)) := by
  cases n with
  | zero => exact absurd rfl hz
  | succ n => rfl

/-! ## The pipeline's proof data -/

/-- The arrays as the region finds them; after the body at a point each input's buffer at its tile, each output's at the state's
    component; the invariant above; the two node-feature windows and the two coordinate windows each hold half of their one
    array, every other input its array whole; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => (stateAt V c t.val t.isLt).1
    | ⟨15, _⟩ => (stateAt V c t.val t.isLt).2.1
    | ⟨_ + 16, h⟩ => absurd h (Nat.not_lt.2 (Nat.le_add_left _ _))
  Φ t := PhiS V c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨_ + 16, h⟩ => absurd h (Nat.not_lt.2 (Nat.le_add_left _ _))
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = iblk V c 8 t := by dsimp only [dat]
theorem after_9 (c : Dev nD) (t : Fin cfg0.N) : (dat V c).after 9 t = iblk V c 9 t := by dsimp only [dat]
theorem after_10 (c : Dev nD) (t : Fin cfg0.N) : (dat V c).after 10 t = iblk V c 10 t := by dsimp only [dat]
theorem after_11 (c : Dev nD) (t : Fin cfg0.N) : (dat V c).after 11 t = iblk V c 11 t := by dsimp only [dat]
theorem after_12 (c : Dev nD) (t : Fin cfg0.N) : (dat V c).after 12 t = iblk V c 12 t := by dsimp only [dat]
theorem after_13 (c : Dev nD) (t : Fin cfg0.N) : (dat V c).after 13 t = iblk V c 13 t := by dsimp only [dat]
theorem after_14 (c : Dev nD) (t : Fin cfg0.N) : (dat V c).after 14 t = (stateAt V c t.val t.isLt).1 := by dsimp only [dat]
theorem after_15 (c : Dev nD) (t : Fin cfg0.N) : (dat V c).after 15 t = (stateAt V c t.val t.isLt).2.1 := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d
theorem before_5 (c : Dev nD) (t : Fin cfg0.N) (d) : (dat V c).before 5 t d = iblk V c 5 t :=
  before_5_of V (dat V c) (A_eq V c 5) (after_5 V c) t d
theorem before_6 (c : Dev nD) (t : Fin cfg0.N) (d) : (dat V c).before 6 t d = iblk V c 6 t :=
  before_6_of V (dat V c) (A_eq V c 6) (after_6 V c) t d
theorem before_7 (c : Dev nD) (t : Fin cfg0.N) (d) : (dat V c).before 7 t d = iblk V c 7 t :=
  before_7_of V (dat V c) (A_eq V c 7) (after_7 V c) t d
theorem before_8 (c : Dev nD) (t : Fin cfg0.N) (d) : (dat V c).before 8 t d = iblk V c 8 t :=
  before_8_of V (dat V c) (A_eq V c 8) (after_8 V c) t d
theorem before_9 (c : Dev nD) (t : Fin cfg0.N) (d) : (dat V c).before 9 t d = iblk V c 9 t :=
  before_9_of V (dat V c) (A_eq V c 9) (after_9 V c) t d
theorem before_10 (c : Dev nD) (t : Fin cfg0.N) (d) : (dat V c).before 10 t d = iblk V c 10 t :=
  before_10_of V (dat V c) (A_eq V c 10) (after_10 V c) t d
theorem before_11 (c : Dev nD) (t : Fin cfg0.N) (d) : (dat V c).before 11 t d = iblk V c 11 t :=
  before_11_of V (dat V c) (A_eq V c 11) (after_11 V c) t d
theorem before_12 (c : Dev nD) (t : Fin cfg0.N) (d) : (dat V c).before 12 t d = iblk V c 12 t :=
  before_12_of V (dat V c) (A_eq V c 12) (after_12 V c) t d
theorem before_13 (c : Dev nD) (t : Fin cfg0.N) (d) : (dat V c).before 13 t d = iblk V c 13 t :=
  before_13_of V (dat V c) (A_eq V c 13) (after_13 V c) t d

/-! ## The body's obligation at a grid point -/

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d))
    ∗ (∃ d, owns (c : Thread nD τ) (ms_8 t) fullShare ((dat V c).before 8 t d))
    ∗ (∃ d, owns (c : Thread nD τ) (ms_9 t) fullShare ((dat V c).before 9 t d))
    ∗ (∃ d, owns (c : Thread nD τ) (ms_10 t) fullShare ((dat V c).before 10 t d))
    ∗ (∃ d, owns (c : Thread nD τ) (ms_11 t) fullShare ((dat V c).before 11 t d))
    ∗ (∃ d, owns (c : Thread nD τ) (ms_12 t) fullShare ((dat V c).before 12 t d))
    ∗ (∃ d, owns (c : Thread nD τ) (ms_13 t) fullShare ((dat V c).before 13 t d))
    ∗ (∃ d, owns (c : Thread nD τ) (ms_14 t) fullShare ((dat V c).before 14 t d))
    ∗ (∃ d, owns (c : Thread nD τ) (ms_15 t) fullShare ((dat V c).before 15 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t
    ∗ (dat V c).leavesExact 12 t
    ∗ (dat V c).leavesExact 13 t
    ∗ (dat V c).leavesExact 14 t
    ∗ (dat V c).leavesExact 15 t)

set_option maxHeartbeats 8000000 in
/-- The body at any point: the inputs' buffers hold their tiles; the point's position along the reduction axis says which kind of
    step it is; the invariant hands the step the accumulators at what the point before left (at anything before the first
    point) and takes them back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8, before_9, before_10, before_11, before_12, before_13]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [live_0], after_0]
  rw [show (dat V c).leavesExact 1 t = owns (c : Thread nD τ) (ms_1 t) fullShare ((dat V c).after 1 t) from by
    unfold Dat.leavesExact; rw [live_1], after_1]
  rw [show (dat V c).leavesExact 2 t = owns (c : Thread nD τ) (ms_2 t) fullShare ((dat V c).after 2 t) from by
    unfold Dat.leavesExact; rw [live_2], after_2]
  rw [show (dat V c).leavesExact 3 t = owns (c : Thread nD τ) (ms_3 t) fullShare ((dat V c).after 3 t) from by
    unfold Dat.leavesExact; rw [live_3], after_3]
  rw [show (dat V c).leavesExact 4 t = owns (c : Thread nD τ) (ms_4 t) fullShare ((dat V c).after 4 t) from by
    unfold Dat.leavesExact; rw [live_4], after_4]
  rw [show (dat V c).leavesExact 5 t = owns (c : Thread nD τ) (ms_5 t) fullShare ((dat V c).after 5 t) from by
    unfold Dat.leavesExact; rw [live_5], after_5]
  rw [show (dat V c).leavesExact 6 t = owns (c : Thread nD τ) (ms_6 t) fullShare ((dat V c).after 6 t) from by
    unfold Dat.leavesExact; rw [live_6], after_6]
  rw [show (dat V c).leavesExact 7 t = owns (c : Thread nD τ) (ms_7 t) fullShare ((dat V c).after 7 t) from by
    unfold Dat.leavesExact; rw [live_7], after_7]
  rw [show (dat V c).leavesExact 8 t = owns (c : Thread nD τ) (ms_8 t) fullShare ((dat V c).after 8 t) from by
    unfold Dat.leavesExact; rw [live_8], after_8]
  rw [show (dat V c).leavesExact 9 t = owns (c : Thread nD τ) (ms_9 t) fullShare ((dat V c).after 9 t) from by
    unfold Dat.leavesExact; rw [live_9], after_9]
  rw [show (dat V c).leavesExact 10 t = owns (c : Thread nD τ) (ms_10 t) fullShare ((dat V c).after 10 t) from by
    unfold Dat.leavesExact; rw [live_10], after_10]
  rw [show (dat V c).leavesExact 11 t = owns (c : Thread nD τ) (ms_11 t) fullShare ((dat V c).after 11 t) from by
    unfold Dat.leavesExact; rw [live_11], after_11]
  rw [show (dat V c).leavesExact 12 t = owns (c : Thread nD τ) (ms_12 t) fullShare ((dat V c).after 12 t) from by
    unfold Dat.leavesExact; rw [live_12], after_12]
  rw [show (dat V c).leavesExact 13 t = owns (c : Thread nD τ) (ms_13 t) fullShare ((dat V c).after 13 t) from by
    unfold Dat.leavesExact; rw [live_13], after_13]
  have hN : t.val < 36 := lt_of_lt_of_eq t.isLt (show cfg0.N = 36 from N_0)
  by_cases h0 : t.val % 6 = 0
  · have hnl : ¬isLast (grid0.coords t) := fun h => (fun h' => by omega) ((isLast_iff t).mp h)
    rw [Dat.leavesExact_idle (dat V c) 14 t (idle_14 t hnl) (noFlush_14 t hnl)]
    rw [Dat.leavesExact_idle (dat V c) 15 t (idle_15 t hnl) (noFlush_15 t hnl)]
    rw [stateAt_first V c t h0]
    unfold accH_First accC_First; (try dsimp only)
    by_cases hz : t.val = 0
    · rw [PhiS_castSucc V c t, PhiS_zero V c _ _ hz, phiA_eq]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((stepFirst c (grid0.coords t) _ _ _ _ _ _ _ _ _ _ _ _ _ _ _ _ _ _ _ _ _ _ _ _ _ _ _ _ _ _ _ _ _ _ _ _ ((isFirst_iff t).mpr h0) (fun h => (fun h' => by omega) ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexact HS0
      isplitl [HS1]; · iexact HS1
      iintro ⟨H0, H1, H2, H3, H4, H5, H6, H7, H8, H9, H10, H11, H12, H13, H14, H15, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (cover_accH_First c _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover_accC_First c _ _ _ _ _ _ _ _ _ _ _ _ _ _ _ _ _ _ _ _ _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      iexists _; iexact H15
    · rw [PhiS_castSucc V c t, PhiS_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((stepFirst c (grid0.coords t) _ _ _ _ _ _ _ _ _ _ _ _ _ _ _ _ _ _ _ _ _ _ _ _ _ _ _ _ _ _ _ _ _ _ _ _ ((isFirst_iff t).mpr h0) (fun h => (fun h' => by omega) ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexists _; iexact HS0
      isplitl [HS1]; · iexists _; iexact HS1
      iintro ⟨H0, H1, H2, H3, H4, H5, H6, H7, H8, H9, H10, H11, H12, H13, H14, H15, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (cover_accH_First c _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover_accC_First c _ _ _ _ _ _ _ _ _ _ _ _ _ _ _ _ _ _ _ _ _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      iexists _; iexact H15
  · have hz : t.val ≠ 0 := fun h => h0 (by rw [h])
    by_cases h1 : t.val % 6 = 5
    · rw [show (dat V c).leavesExact 14 t = owns (c : Thread nD τ) (ms_14 t) fullShare ((dat V c).after 14 t) from by
        unfold Dat.leavesExact; rw [live_14 t ((isLast_iff t).mpr h1)], after_14]
      rw [show (dat V c).leavesExact 15 t = owns (c : Thread nD τ) (ms_15 t) fullShare ((dat V c).after 15 t) from by
        unfold Dat.leavesExact; rw [live_15 t ((isLast_iff t).mpr h1)], after_15]
      rw [stateAt_last V c t h0 h1]
      unfold outH_Last outC_Last accH_Last accC_Last; (try dsimp only)
      rw [PhiS_castSucc V c t, PhiS_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((stepLast c (grid0.coords t) _ _ _ _ _ _ _ _ _ _ _ _ _ _ _ _ _ _ _ _ _ _ _ _ _ _ _ _ _ _ _ _ _ _ _ _ (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [HS0]; · iexact HS0
      isplitl [HS1]; · iexact HS1
      iintro ⟨H0, H1, H2, H3, H4, H5, H6, H7, H8, H9, H10, H11, H12, H13, ⟨%e14, H14⟩, ⟨%e15, H15⟩, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (cover_accH_Last c _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover_accC_Last c _ _ _ _ _ _ _ _ _ _ _ _ _ _ _ _ _ _ _ _ _ _ _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; exact View.read_writes_of_cover _ _ _ _ _ (cover_outH_Last c _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H15
      ipureintro; exact View.read_writes_of_cover _ _ _ _ _ (cover_outC_Last c _ _ _ _ _ _ _ _ _ _ _ _ _ _ _ _ _ _ _ _ _ _ _ _ _ _ _ _ _ _ _ _ _ _ _ _ _ _ _ _ _ _ _ _ _ _ _ _ _ _ _ _ _ _ _)
    · have hnl : ¬isLast (grid0.coords t) := fun h => h1 ((isLast_iff t).mp h)
      rw [Dat.leavesExact_idle (dat V c) 14 t (idle_14 t hnl) (noFlush_14 t hnl)]
      rw [Dat.leavesExact_idle (dat V c) 15 t (idle_15 t hnl) (noFlush_15 t hnl)]
      rw [stateAt_mid V c t h0 h1]
      unfold accH_Mid accC_Mid; (try dsimp only)
      rw [PhiS_castSucc V c t, PhiS_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((stepMid c (grid0.coords t) _ _ _ _ _ _ _ _ _ _ _ _ _ _ _ _ _ _ _ _ _ _ _ _ _ _ _ _ _ _ _ _ _ _ _ _ (fun h => h0 ((isFirst_iff t).mp h)) (fun h => h1 ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexact HS0
      isplitl [HS1]; · iexact HS1
      iintro ⟨H0, H1, H2, H3, H4, H5, H6, H7, H8, H9, H10, H11, H12, H13, H14, H15, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (cover_accH_Mid c _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover_accC_Mid c _ _ _ _ _ _ _ _ _ _ _ _ _ _ _ _ _ _ _ _ _ _ _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      iexists _; iexact H15

/-- The library's body obligation, at every point. -/
theorem body_obligation (c : Dev nD) : BodyObligation (dat (F := F) V c) (defs₀ (F := F)) Variants.none () Set.univ := fun t => by
  rw [bigSep_W0, bigSep_W0]
  exact sound_body V c t

/-- Before the first point the invariant is the class's. -/
theorem phi_in (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point it gives the class's back: the accumulators' named contents are forgotten. -/
theorem phi_out (c : Dev nD) : (dat V c).Φ (Fin.last cfg0.N) ⊢ Pipeline.ΦA spec0 c := by
  have ht : (Fin.last cfg0.N).val ≠ 0 := by rw [Fin.val_last]; have : cfg0.N = 36 := N_0; omega
  rw [show (dat V c).Φ (Fin.last cfg0.N) = PhiS V c (Fin.last cfg0.N).val (Nat.le_of_lt_succ (Fin.last cfg0.N).isLt) from rfl, PhiS_pos V c _ _ ht, phiA_eq]
  iintro ⟨⟨⟨HS0, HS1⟩, Hoth⟩, Hg⟩
  isplitl [HS0 HS1 Hoth]
  · isplitl [HS0 HS1]
    · isplitl [HS0]
      · iexists _; iexact HS0
      iexists _; iexact HS1
    iexact Hoth
  iexact Hg

end Data

end Cert.Kernel.Gen.Layer0

end
-- ==== Proof.BitsLayer0Deal.lean ====
/-
  Layer 1's region and the arrays it works on. The node features are staged through two windows (one by the receiving
  tile, one by the sending tile) and so are the coordinates: each such pair of windows holds its one array together, half
  a share each. Entering the region the fourteen distinct arrays, held whole, are dealt to the sixteen windows; leaving it
  the halves are joined again, the ten weight arrays are as they were and the two output arrays hold what the pipeline's
  write-backs left.
-/
import proofs.«110946_j38972533244288_1_alg».proof.Proof.BitsLayer0Data

set_option maxRecDepth 16384

noncomputable section

namespace Cert.Kernel.Gen.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Deal
variable (V : (c : Dev nD) → (b : Ref sig .tc) → Buf (Elt F) ((c : Thread nD τ).loc b))

/-- The distinct arrays behind the sixteen windows. -/
theorem arrRefs_eq : Finset.univ.image (Pipeline.arrRef spec0) = ([main_v6, main_v13, main_v15, main_v17, main_v19, main_v20, main_v22, main_v23, main_v25, main_v27, main_v29, main_v30, main_v31_0, main_v31_1] : List (Ref sig .tc)).toFinset := by decide

/-- The windows' arrays, each a whole buffer, held buffer by buffer at the window's share. -/
theorem arrays_shares (c : Dev nD) (G : (w : Fin cfg0.W) → Buf (Elt F) ((cfg0.spec w).arr.view.loc (c.tc : Thread nD τ))) :
    ((dat V c).arrays G : sProp 𝕄)
      = bigSep Finset.univ fun w => (((c.tc : Thread nD τ).loc (Pipeline.arrRef cfg0.spec w)) ↦{(dat V c).share w} G w : sProp 𝕄) := by
  unfold Dat.arrays
  exact Idealize.SL.BI.bigSep_congr fun w _ => by rw [(arr_whole0 w).set_eq_univ]

/-- A buffer held at the full share is held twice over at its two halves, and back. -/
theorem halves (ℓ : Loc nD τ sig) (f : Buf (Elt F) ℓ) :
    (ℓ ↦{fullShare} f : sProp 𝕄) ⊢ iprop((ℓ ↦{fullShare.left} f) ∗ (ℓ ↦{fullShare.right} f)) :=
  (pointsTo_share (PosShare.mem_left_op_right fullShare)).1
theorem whole (ℓ : Loc nD τ sig) (f : Buf (Elt F) ℓ) :
    iprop((ℓ ↦{fullShare.left} f) ∗ (ℓ ↦{fullShare.right} f)) ⊢ (ℓ ↦{fullShare} f : sProp 𝕄) :=
  (pointsTo_share (PosShare.mem_left_op_right fullShare)).2

/-- The fourteen arrays one by one. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c.tc : Thread nD τ).loc main_v6) ↦{fullShare} W main_v6) ∗ (((c.tc : Thread nD τ).loc main_v13) ↦{fullShare} W main_v13) ∗ (((c.tc : Thread nD τ).loc main_v15) ↦{fullShare} W main_v15) ∗ (((c.tc : Thread nD τ).loc main_v17) ↦{fullShare} W main_v17) ∗ (((c.tc : Thread nD τ).loc main_v19) ↦{fullShare} W main_v19) ∗ (((c.tc : Thread nD τ).loc main_v20) ↦{fullShare} W main_v20) ∗ (((c.tc : Thread nD τ).loc main_v22) ↦{fullShare} W main_v22) ∗ (((c.tc : Thread nD τ).loc main_v23) ↦{fullShare} W main_v23) ∗ (((c.tc : Thread nD τ).loc main_v25) ↦{fullShare} W main_v25) ∗ (((c.tc : Thread nD τ).loc main_v27) ↦{fullShare} W main_v27) ∗ (((c.tc : Thread nD τ).loc main_v29) ↦{fullShare} W main_v29) ∗ (((c.tc : Thread nD τ).loc main_v30) ↦{fullShare} W main_v30) ∗ (((c.tc : Thread nD τ).loc main_v31_0) ↦{fullShare} W main_v31_0) ∗ (((c.tc : Thread nD τ).loc main_v31_1) ↦{fullShare} W main_v31_1)) := by
  unfold Pipeline.arrBufs
  exact Idealize.SL.BI.bigSep_eq_bigSepL_of_eq _ arrRefs_eq (by decide) _

set_option maxHeartbeats 4000000 in
/-- ENTRY: the fourteen arrays at the entry contents, dealt to the sixteen windows. -/
theorem deal (c : Dev nD) :
    (Pipeline.arrBufs (Ix := Unit) (Name := ℕ) (U := UR sig nD τ) (Lvl := ℕ) spec0 c (V c) : sProp 𝕄)
      ⊢ (dat V c).arrays ((dat V c).arrAt · 0) := by
  rw [arrays_shares, bigSep_W0, arrBufs_chain]
  iintro ⟨H_main_v6, H_main_v13, H_main_v15, H_main_v17, H_main_v19, H_main_v20, H_main_v22, H_main_v23, H_main_v25, H_main_v27, H_main_v29, H_main_v30, H_main_v31_0, H_main_v31_1⟩
  ihave Hh := halves _ _ $$ H_main_v6
  icases Hh with ⟨Hhl, Hhr⟩
  ihave Hc := halves _ _ $$ H_main_v13
  icases Hc with ⟨Hcl, Hcr⟩
  isplitl [Hhl]; · iexact Hhl
  isplitl [Hhr]; · iexact Hhr
  isplitl [Hcl]; · iexact Hcl
  isplitl [Hcr]; · iexact Hcr
  isplitl [H_main_v15]; · iexact H_main_v15
  isplitl [H_main_v17]; · iexact H_main_v17
  isplitl [H_main_v19]; · iexact H_main_v19
  isplitl [H_main_v20]; · iexact H_main_v20
  isplitl [H_main_v22]; · iexact H_main_v22
  isplitl [H_main_v23]; · iexact H_main_v23
  isplitl [H_main_v25]; · iexact H_main_v25
  isplitl [H_main_v27]; · iexact H_main_v27
  isplitl [H_main_v29]; · iexact H_main_v29
  isplitl [H_main_v30]; · iexact H_main_v30
  isplitl [H_main_v31_0]; · iexact H_main_v31_0
  iexact H_main_v31_1

/-- An input's array is never written: after the last grid point it is as the region found it. -/
theorem input_kept (c : Dev nD) (w : Fin cfg0.W) (hw : (cfg0.win w).isOut = false) (q : PosShare TreeShare) :
    ((((c.tc : Thread nD τ).loc (Pipeline.arrRef cfg0.spec w)) ↦{q} (dat V c).arrAt w cfg0.N : sProp 𝕄))
      ⊢ (((c.tc : Thread nD τ).loc (Pipeline.arrRef cfg0.spec w)) ↦{q} (dat V c).A w) :=
  Entails.of_eq (by rw [(dat V c).arrAt_in w hw])

set_option maxHeartbeats 8000000 in
/-- EXIT: the windows' arrays after the last grid point make the fourteen arrays at the exit contents `V'`: as at
    entry but for the two outputs, which hold what the write-backs left. -/
theorem join (c : Dev nD) (V' : (b : Ref sig .tc) → Buf (Elt F) ((c : Thread nD τ).loc b))
    (hin : ∀ b, b ≠ main_v31_0 → b ≠ main_v31_1 → V' b = V c b)
    (hH : V' main_v31_0 = (dat V c).arrAt 14 cfg0.N) (hC : V' main_v31_1 = (dat V c).arrAt 15 cfg0.N) :
    ((dat V c).arrays ((dat V c).arrAt · cfg0.N) : sProp 𝕄)
      ⊢ Pipeline.arrBufs (Ix := Unit) (Name := ℕ) (U := UR sig nD τ) (Lvl := ℕ) spec0 c V' := by
  rw [arrays_shares, bigSep_W0, arrBufs_chain]
  rw [hin main_v6 (by decide) (by decide), hin main_v13 (by decide) (by decide), hin main_v15 (by decide) (by decide), hin main_v17 (by decide) (by decide), hin main_v19 (by decide) (by decide), hin main_v20 (by decide) (by decide), hin main_v22 (by decide) (by decide), hin main_v23 (by decide) (by decide), hin main_v25 (by decide) (by decide), hin main_v27 (by decide) (by decide), hin main_v29 (by decide) (by decide), hin main_v30 (by decide) (by decide), hH, hC]
  iintro ⟨W0, W1, W2, W3, W4, W5, W6, W7, W8, W9, W10, W11, W12, W13, W14, W15⟩
  ihave K0 := input_kept V c 0 rfl _ $$ W0
  ihave K1 := input_kept V c 1 rfl _ $$ W1
  ihave K2 := input_kept V c 2 rfl _ $$ W2
  ihave K3 := input_kept V c 3 rfl _ $$ W3
  ihave K4 := input_kept V c 4 rfl _ $$ W4
  ihave K5 := input_kept V c 5 rfl _ $$ W5
  ihave K6 := input_kept V c 6 rfl _ $$ W6
  ihave K7 := input_kept V c 7 rfl _ $$ W7
  ihave K8 := input_kept V c 8 rfl _ $$ W8
  ihave K9 := input_kept V c 9 rfl _ $$ W9
  ihave K10 := input_kept V c 10 rfl _ $$ W10
  ihave K11 := input_kept V c 11 rfl _ $$ W11
  ihave K12 := input_kept V c 12 rfl _ $$ W12
  ihave K13 := input_kept V c 13 rfl _ $$ W13
  isplitl [K0 K1]
  · iapply whole; isplitl [K0]; · iexact K0
    iexact K1
  isplitl [K2 K3]
  · iapply whole; isplitl [K2]; · iexact K2
    iexact K3
  isplitl [K4]; · iexact K4
  isplitl [K5]; · iexact K5
  isplitl [K6]; · iexact K6
  isplitl [K7]; · iexact K7
  isplitl [K8]; · iexact K8
  isplitl [K9]; · iexact K9
  isplitl [K10]; · iexact K10
  isplitl [K11]; · iexact K11
  isplitl [K12]; · iexact K12
  isplitl [K13]; · iexact K13
  isplitl [W14]; · iexact W14
  iexact W15

/-- A core's unscoped buffers are the buffers behind the windows' arrays and the rest. -/
theorem unscoped_split (c : Dev nD) (W : (b : Ref sig .tc) → Buf (Elt F) ((c : Thread nD τ).loc b)) :
    (unscopedBufs (Ix := Unit) (Name := ℕ) (U := UR sig nD τ) (Lvl := ℕ) c W : sProp 𝕄)
      = iprop((Pipeline.arrBufs spec0 c W : sProp 𝕄) ∗ Pipeline.unscopedRest spec0 c W) := by
  classical
  have hA : Finset.univ.image (Pipeline.arrRef spec0) ⊆ Finset.univ.filter fun b : Ref sig .tc => ¬ b.isScoped := by decide
  unfold unscopedBufs Pipeline.unscopedRest Pipeline.arrBufs
  rw [bigSep_sdiff_split hA]
  rfl

/-- The rest does not see a change of the two outputs' arrays. -/
theorem rest_congr (c : Dev nD) (W W' : (b : Ref sig .tc) → Buf (Elt F) ((c : Thread nD τ).loc b))
    (h : ∀ b, b ≠ main_v31_0 → b ≠ main_v31_1 → W' b = W b) :
    (Pipeline.unscopedRest (Ix := Unit) (Name := ℕ) (U := UR sig nD τ) (Lvl := ℕ) spec0 c W : sProp 𝕄) = Pipeline.unscopedRest spec0 c W' := by
  unfold Pipeline.unscopedRest
  refine Idealize.SL.BI.bigSep_congr fun b hb => ?_
  have hb' : b ∉ Finset.univ.image (Pipeline.arrRef spec0) := (Finset.mem_sdiff.mp hb).2
  rw [h b (fun e => hb' (by rw [e]; decide)) (fun e => hb' (by rw [e]; decide))]

end Deal

end Cert.Kernel.Gen.Layer0

end
-- ==== Proof.BitsLayer1Base.lean ====
/-
  Message-passing layer 2 as a pipelined kernel over a 6 × 6 grid of 128-row tiles (i over the receiving nodes, j over
  the sending ones, j the reduction axis): what the three kinds of step share. The body's two branches depend on j only:
  the first (zero both accumulators) is taken exactly when j = 0, the second (scale the sums by 1/768, apply the second
  linear map, add the residual and store both outputs) exactly when j = 5. The two outputs' tiles are touched only at
  j = 5, which is also where they are written back; the accumulators live in two scratch buffers of the kernel's own.
-/
import proofs.«110946_j38972533244288_1_alg».proof.Proof.Gen.Kernel.Launch
import proofs.«110946_j38972533244288_1_alg».proof.Proof.Gen.Kernel.Skeleton
import proofs.«110946_j38972533244288_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- The first branch's condition: j = 0. -/
abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 6 = 0 :=
  (by decide +kernel : ∀ t : Fin grid1.N, isFirst (grid1.coords t) ↔ t.val % 6 = 0)
/-- The second branch's condition: j = 5. -/
abbrev isLast (i : grid1.Coords) : Prop := k1_cond2 i = 1#1
theorem isLast_iff : ∀ t : Fin cfg1.N, isLast (grid1.coords t) ↔ t.val % 6 = 5 :=
  (by decide +kernel : ∀ t : Fin grid1.N, isLast (grid1.coords t) ↔ t.val % 6 = 5)

/-! ## Where a window is idle: an input never, an output except at j = 5 (where it is also written back) -/

theorem live_0 : ∀ i, cfg1.idle 0 i = false := fun _ => rfl
theorem live_1 : ∀ i, cfg1.idle 1 i = false := fun _ => rfl
theorem live_2 : ∀ i, cfg1.idle 2 i = false := fun _ => rfl
theorem live_3 : ∀ i, cfg1.idle 3 i = false := fun _ => rfl
theorem live_4 : ∀ i, cfg1.idle 4 i = false := fun _ => rfl
theorem live_5 : ∀ i, cfg1.idle 5 i = false := fun _ => rfl
theorem live_6 : ∀ i, cfg1.idle 6 i = false := fun _ => rfl
theorem live_7 : ∀ i, cfg1.idle 7 i = false := fun _ => rfl
theorem live_8 : ∀ i, cfg1.idle 8 i = false := fun _ => rfl
theorem live_9 : ∀ i, cfg1.idle 9 i = false := fun _ => rfl
theorem live_10 : ∀ i, cfg1.idle 10 i = false := fun _ => rfl
theorem live_11 : ∀ i, cfg1.idle 11 i = false := fun _ => rfl
theorem live_12 : ∀ i, cfg1.idle 12 i = false := fun _ => rfl
theorem live_13 : ∀ i, cfg1.idle 13 i = false := fun _ => rfl
theorem idle_14 : ∀ t : Fin cfg1.N, ¬isLast (grid1.coords t) → cfg1.idle 14 (grid1.coords t) = true := by decide +kernel
theorem noFlush_14 : ∀ t : Fin cfg1.N, ¬isLast (grid1.coords t) → (cfg1.win 14).flush t = false := by decide +kernel
theorem live_14 : ∀ t : Fin cfg1.N, isLast (grid1.coords t) → cfg1.idle 14 (grid1.coords t) = false := by decide +kernel
theorem idle_15 : ∀ t : Fin cfg1.N, ¬isLast (grid1.coords t) → cfg1.idle 15 (grid1.coords t) = true := by decide +kernel
theorem noFlush_15 : ∀ t : Fin cfg1.N, ¬isLast (grid1.coords t) → (cfg1.win 15).flush t = false := by decide +kernel
theorem live_15 : ∀ t : Fin cfg1.N, isLast (grid1.coords t) → cfg1.idle 15 (grid1.coords t) = false := by decide +kernel

/-! ## The memrefs the body is called with -/

/-- One staging buffer of each output, through which its contents are stated. -/
abbrev viewH : View sig .tc .vmem S128x128 .f32 := (Memref.whole cc1_stg14_0 : Memref sig .tc .vmem S128x128 .f32).view
abbrev viewC : View sig .tc .vmem S128x3 .f32 := (Memref.whole cc1_stg15_0 : Memref sig .tc .vmem S128x3 .f32).view
abbrev ms_0 (t : Fin cfg1.N) : Memref sig .tc .vmem S128x128 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S128x128 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S128x3 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S128x3 .f32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S128x128 .f32 := win1_4.stage (cfg1.slots t 4)
abbrev hs_4 (t : Fin cfg1.N) : (ms_4 t).IsWhole := hstage1_4 ((cfg1.slots t 4).cast nbuf1_4)
abbrev ms_5 (t : Fin cfg1.N) : Memref sig .tc .vmem S128x128 .f32 := win1_5.stage (cfg1.slots t 5)
abbrev hs_5 (t : Fin cfg1.N) : (ms_5 t).IsWhole := hstage1_5 ((cfg1.slots t 5).cast nbuf1_5)
abbrev ms_6 (t : Fin cfg1.N) : Memref sig .tc .vmem S1x128 .f32 := win1_6.stage (cfg1.slots t 6)
abbrev hs_6 (t : Fin cfg1.N) : (ms_6 t).IsWhole := hstage1_6 ((cfg1.slots t 6).cast nbuf1_6)
abbrev ms_7 (t : Fin cfg1.N) : Memref sig .tc .vmem S1x128 .f32 := win1_7.stage (cfg1.slots t 7)
abbrev hs_7 (t : Fin cfg1.N) : (ms_7 t).IsWhole := hstage1_7 ((cfg1.slots t 7).cast nbuf1_7)
abbrev ms_8 (t : Fin cfg1.N) : Memref sig .tc .vmem S128x128 .f32 := win1_8.stage (cfg1.slots t 8)
abbrev hs_8 (t : Fin cfg1.N) : (ms_8 t).IsWhole := hstage1_8 ((cfg1.slots t 8).cast nbuf1_8)
abbrev ms_9 (t : Fin cfg1.N) : Memref sig .tc .vmem S1x128 .f32 := win1_9.stage (cfg1.slots t 9)
abbrev hs_9 (t : Fin cfg1.N) : (ms_9 t).IsWhole := hstage1_9 ((cfg1.slots t 9).cast nbuf1_9)
abbrev ms_10 (t : Fin cfg1.N) : Memref sig .tc .vmem S128x1 .f32 := win1_10.stage (cfg1.slots t 10)
abbrev hs_10 (t : Fin cfg1.N) : (ms_10 t).IsWhole := hstage1_10 ((cfg1.slots t 10).cast nbuf1_10)
abbrev ms_11 (t : Fin cfg1.N) : Memref sig .tc .vmem S128x1 .f32 := win1_11.stage (cfg1.slots t 11)
abbrev hs_11 (t : Fin cfg1.N) : (ms_11 t).IsWhole := hstage1_11 ((cfg1.slots t 11).cast nbuf1_11)
abbrev ms_12 (t : Fin cfg1.N) : Memref sig .tc .vmem S1x1 .f32 := win1_12.stage (cfg1.slots t 12)
abbrev hs_12 (t : Fin cfg1.N) : (ms_12 t).IsWhole := hstage1_12 ((cfg1.slots t 12).cast nbuf1_12)
abbrev ms_13 (t : Fin cfg1.N) : Memref sig .tc .vmem S1x1 .f32 := win1_13.stage (cfg1.slots t 13)
abbrev hs_13 (t : Fin cfg1.N) : (ms_13 t).IsWhole := hstage1_13 ((cfg1.slots t 13).cast nbuf1_13)
abbrev ms_14 (t : Fin cfg1.N) : Memref sig .tc .vmem S128x128 .f32 := win1_14.stage (cfg1.slots t 14)
abbrev hs_14 (t : Fin cfg1.N) : (ms_14 t).IsWhole := hstage1_14 ((cfg1.slots t 14).cast nbuf1_14)
abbrev ms_15 (t : Fin cfg1.N) : Memref sig .tc .vmem S128x3 .f32 := win1_15.stage (cfg1.slots t 15)
abbrev hs_15 (t : Fin cfg1.N) : (ms_15 t).IsWhole := hstage1_15 ((cfg1.slots t 15).cast nbuf1_15)
/-- The two accumulators: the sum over j of the messages, and of the weighted coordinate differences. -/
abbrev accH : Memref sig .tc .vmem S128x128 .f32 := Memref.whole cc1_scratch0
abbrev accC : Memref sig .tc .vmem S128x3 .f32 := Memref.whole cc1_scratch1
abbrev viewAccH : View sig .tc .vmem S128x128 .f32 := accH.view
abbrev viewAccC : View sig .tc .vmem S128x3 .f32 := accC.view

/-- The scoped buffers of the core that are neither this kernel's staging buffers nor its accumulators. -/
abbrev others (c : Dev nD) : sProp 𝕄 :=
  Pipeline.scopedRestBut (Ix := Unit) (Name := ℕ) (U := UR sig nD τ) (Lvl := ℕ) (Val := Elt F) spec1 c [cc1_scratch0, cc1_scratch1]

/-- The region's invariant before the first step: both accumulators at anything, the other scoped buffers, the
    generator register. -/
theorem phiA_eq (c : Dev nD) :
    (Pipeline.ΦA spec1 c : sProp 𝕄)
      = iprop(iprop(iprop((∃ d, owns (c : Thread nD τ) accH fullShare d) ∗ (∃ d, owns (c : Thread nD τ) accC fullShare d)) ∗ others c) ∗ (∃ r, prngReg c r)) := by
  unfold Pipeline.ΦA; rw [scopedRest1_split]; simp only [accH, accC, owns_whole]; try rfl

/-! ## The windows' blocks, read off the arrays as the region finds them -/

section Blocks
variable (V : (c : Dev nD) → (b : Ref sig .tc) → Buf (Elt F) ((c : Thread nD τ).loc b))

/-- Window `w`'s tile at grid point `t`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input 0's current staging buffer holds its tile at every grid point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1's current staging buffer holds its tile at every grid point, fetched there or not. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input 2's current staging buffer holds its tile at every grid point, fetched there or not. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input 3's current staging buffer holds its tile at every grid point, fetched there or not. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input 4's current staging buffer holds its tile at every grid point, fetched there or not. -/
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input 5's current staging buffer holds its tile at every grid point, fetched there or not. -/
theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input 6's current staging buffer holds its tile at every grid point, fetched there or not. -/
theorem before_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input 7's current staging buffer holds its tile at every grid point, fetched there or not. -/
theorem before_7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input 8's current staging buffer holds its tile at every grid point, fetched there or not. -/
theorem before_8_of {c : Dev nD} (dat : Dat τ (Elt F) Unit ℕ (UR sig nD τ) ℕ cfg1 c) (hA : dat.A 8 = V c (Pipeline.arrRef spec1 8))
    (hafter : ∀ t, dat.after 8 t = iblk V c 8 t) (t : Fin cfg1.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input 9's current staging buffer holds its tile at every grid point, fetched there or not. -/
theorem before_9_of {c : Dev nD} (dat : Dat τ (Elt F) Unit ℕ (UR sig nD τ) ℕ cfg1 c) (hA : dat.A 9 = V c (Pipeline.arrRef spec1 9))
    (hafter : ∀ t, dat.after 9 t = iblk V c 9 t) (t : Fin cfg1.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input 10's current staging buffer holds its tile at every grid point, fetched there or not. -/
theorem before_10_of {c : Dev nD} (dat : Dat τ (Elt F) Unit ℕ (UR sig nD τ) ℕ cfg1 c) (hA : dat.A 10 = V c (Pipeline.arrRef spec1 10))
    (hafter : ∀ t, dat.after 10 t = iblk V c 10 t) (t : Fin cfg1.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input 11's current staging buffer holds its tile at every grid point, fetched there or not. -/
theorem before_11_of {c : Dev nD} (dat : Dat τ (Elt F) Unit ℕ (UR sig nD τ) ℕ cfg1 c) (hA : dat.A 11 = V c (Pipeline.arrRef spec1 11))
    (hafter : ∀ t, dat.after 11 t = iblk V c 11 t) (t : Fin cfg1.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input 12's current staging buffer holds its tile at every grid point, fetched there or not. -/
theorem before_12_of {c : Dev nD} (dat : Dat τ (Elt F) Unit ℕ (UR sig nD τ) ℕ cfg1 c) (hA : dat.A 12 = V c (Pipeline.arrRef spec1 12))
    (hafter : ∀ t, dat.after 12 t = iblk V c 12 t) (t : Fin cfg1.N) (d) : dat.before 12 t d = iblk V c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input 13's current staging buffer holds its tile at every grid point, fetched there or not. -/
theorem before_13_of {c : Dev nD} (dat : Dat τ (Elt F) Unit ℕ (UR sig nD τ) ℕ cfg1 c) (hA : dat.A 13 = V c (Pipeline.arrRef spec1 13))
    (hafter : ∀ t, dat.after 13 t = iblk V c 13 t) (t : Fin cfg1.N) (d) : dat.before 13 t d = iblk V c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
end Blocks

end Cert.Kernel.Gen.Layer1

end
-- ==== Proof.BitsLayer1First.lean ====
/-
  Layer 2's kernel body at one kind of grid point, run on whole staging memrefs.
  THE FIRST STEP (j = 0): both accumulators, found at anything, are zeroed and then take this tile's sums; the outputs'
  buffers are not touched.
  The lists of stored pieces each buffer ends with are found by running the body.
-/
import proofs.«110946_j38972533244288_1_alg».proof.Proof.BitsLayer1Base

set_option maxRecDepth 16384

noncomputable section

namespace Cert.Kernel.Gen.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at such a point, from the inputs' tiles (and what it finds in the accumulators), to the continuation holding the inputs
    as they were and every buffer it stored into with its pieces written. -/
noncomputable def stepFirst (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) :
    Σ' (LS0 : List (View.Piece (Elt F) S128x128 .f32)), { LS1 : List (View.Piece (Elt F) S128x3 .f32) //
      ∀ (xi14 : Vec F S128x128 .f32) (xi15 : Vec F S128x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ owns (c : Thread nD τ) arg17 fullShare xi15 ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ owns (c : Thread nD τ) arg17 fullShare xi15 ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc1__layer_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun xi14 xi15 E K => ?run⟩
  case run =>
    simp only [cc1__layer_kernel_eq_skeleton]; unfold cc1__layer_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [HS0]; · iexists _; iexact HS0
    iexists _; iexact HS1

end Cert.Kernel.Gen.Layer1

end
-- ==== Proof.BitsLayer1Mid.lean ====
/-
  Layer 2's kernel body at one kind of grid point, run on whole staging memrefs.
  A MIDDLE STEP (0 < j < 5): both accumulators take this tile's sums on top of what the step before left; the outputs'
  buffers are not touched.
  The lists of stored pieces each buffer ends with are found by running the body.
-/
import proofs.«110946_j38972533244288_1_alg».proof.Proof.BitsLayer1First

set_option maxRecDepth 16384

noncomputable section

namespace Cert.Kernel.Gen.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at such a point, from the inputs' tiles (and what it finds in the accumulators), to the continuation holding the inputs
    as they were and every buffer it stored into with its pieces written. -/
noncomputable def stepMid (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) :
    Σ' (LS0 : List (View.Piece (Elt F) S128x128 .f32)), { LS1 : List (View.Piece (Elt F) S128x3 .f32) //
      ∀ (xi14 : Vec F S128x128 .f32) (xi15 : Vec F S128x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ owns (c : Thread nD τ) arg17 fullShare xi15 ∗ owns (c : Thread nD τ) arg18 fullShare xs0 ∗ owns (c : Thread nD τ) arg19 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ owns (c : Thread nD τ) arg17 fullShare xi15 ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc1__layer_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun xi14 xi15 E K => ?run⟩
  case run =>
    simp only [cc1__layer_kernel_eq_skeleton]; unfold cc1__layer_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hfs0; obtain rfl := harg19.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [HS0]; · iexists _; iexact HS0
    iexists _; iexact HS1

end Cert.Kernel.Gen.Layer1

end
-- ==== Proof.BitsLayer1Last.lean ====
/-
  Layer 2's kernel body at one kind of grid point, run on whole staging memrefs.
  THE LAST STEP (j = 5): both accumulators take this tile's sums; then the message sum is scaled by 1/768, multiplied by
  the second weight matrix, biased and added to the receiving nodes' features, and the coordinate sum is scaled by
  1/768 and added to their coordinates: each output's buffer is stored whole.
  The lists of stored pieces each buffer ends with are found by running the body.
-/
import proofs.«110946_j38972533244288_1_alg».proof.Proof.BitsLayer1Mid

set_option maxRecDepth 16384

noncomputable section

namespace Cert.Kernel.Gen.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at such a point, from the inputs' tiles (and what it finds in the accumulators), to the continuation holding the inputs
    as they were and every buffer it stored into with its pieces written. -/
noncomputable def stepLast (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) :
    Σ' (L14 : List (View.Piece (Elt F) S128x128 .f32)) (L15 : List (View.Piece (Elt F) S128x3 .f32)) (LS0 : List (View.Piece (Elt F) S128x128 .f32)), { LS1 : List (View.Piece (Elt F) S128x3 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ owns (c : Thread nD τ) arg18 fullShare xs0 ∗ owns (c : Thread nD τ) arg19 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc1__layer_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun E K => ?run⟩
  case run =>
    simp only [cc1__layer_kernel_eq_skeleton]; unfold cc1__layer_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg18.eq_unread hfs0; obtain rfl := harg19.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [H15]; · iexists _; iexact H15
    isplitl [HS0]; · iexists _; iexact HS0
    iexists _; iexact HS1

end Cert.Kernel.Gen.Layer1

end
-- ==== Proof.BitsLayer1Data.lean ====
/-
  Layer 2's kernel over its 36 grid points: what the two accumulators and the two outputs' buffers hold after each point
  (a recursion over the points: zeroed and refilled at j = 0, added to at 0 < j < 5, added to and read out at j = 5), the
  region's invariant carrying the accumulators from one point to the next, the pipeline's proof data at any contents `V`
  of the arrays at the region's entry, and the body's obligation at every point.
-/
import proofs.«110946_j38972533244288_1_alg».proof.Proof.BitsLayer1Last

set_option maxRecDepth 16384

noncomputable section

namespace Cert.Kernel.Gen.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each kind of step leaves: its stored pieces cover each buffer it stores into -/
theorem cover_accH_First (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (y : S128x128.Idx) :
    ∃ pc ∈ (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).1, y ∈ pc.1.set :=
  View.cover_of_tiledL (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).1 S128x128.size (by sl_kernel_rfl) y
/-- Its contents then: the pieces read back. -/
def accH_First (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) : Vec F S128x128 .f32 :=
  viewAccH.read (Elt F) (viewAccH.writes (Elt F) viewAccH.junk (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).1)
theorem cover_accC_First (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (y : S128x3.Idx) :
    ∃ pc ∈ (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).2.1, y ∈ pc.1.set :=
  View.cover_of_tiledL (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).2.1 S128x3.size (by sl_kernel_rfl) y
/-- Its contents then: the pieces read back. -/
def accC_First (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) : Vec F S128x3 .f32 :=
  viewAccC.read (Elt F) (viewAccC.writes (Elt F) viewAccC.junk (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).2.1)
theorem cover_accH_Mid (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x128.Idx) :
    ∃ pc ∈ (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1, y ∈ pc.1.set :=
  View.cover_of_tiledL (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1 S128x128.size (by sl_kernel_rfl) y
/-- Its contents then: the pieces read back. -/
def accH_Mid (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x128 .f32 :=
  viewAccH.read (Elt F) (viewAccH.writes (Elt F) viewAccH.junk (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1)
theorem cover_accC_Mid (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x3.Idx) :
    ∃ pc ∈ (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1, y ∈ pc.1.set :=
  View.cover_of_tiledL (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1 S128x3.size (by sl_kernel_rfl) y
/-- Its contents then: the pieces read back. -/
def accC_Mid (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x3 .f32 :=
  viewAccC.read (Elt F) (viewAccC.writes (Elt F) viewAccC.junk (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1)
theorem cover_outH_Last (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x128.Idx) :
    ∃ pc ∈ (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1, y ∈ pc.1.set :=
  View.cover_of_tiledL (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1 S128x128.size (by sl_kernel_rfl) y
/-- Its contents then: the pieces read back. -/
def outH_Last (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x128 .f32 :=
  viewH.read (Elt F) (viewH.writes (Elt F) viewH.junk (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1)
theorem cover_outC_Last (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x3.Idx) :
    ∃ pc ∈ (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1, y ∈ pc.1.set :=
  View.cover_of_tiledL (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1 S128x3.size (by sl_kernel_rfl) y
/-- Its contents then: the pieces read back. -/
def outC_Last (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x3 .f32 :=
  viewC.read (Elt F) (viewC.writes (Elt F) viewC.junk (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1)
theorem cover_accH_Last (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x128.Idx) :
    ∃ pc ∈ (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.1, y ∈ pc.1.set :=
  View.cover_of_tiledL (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.1 S128x128.size (by sl_kernel_rfl) y
/-- Its contents then: the pieces read back. -/
def accH_Last (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x128 .f32 :=
  viewAccH.read (Elt F) (viewAccH.writes (Elt F) viewAccH.junk (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.1)
theorem cover_accC_Last (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x3.Idx) :
    ∃ pc ∈ (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.2.1, y ∈ pc.1.set :=
  View.cover_of_tiledL (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.2.1 S128x3.size (by sl_kernel_rfl) y
/-- Its contents then: the pieces read back. -/
def accC_Last (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x3 .f32 :=
  viewAccC.read (Elt F) (viewAccC.writes (Elt F) viewAccC.junk (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.2.1)

section Data
variable (V : (c : Dev nD) → (b : Ref sig .tc) → Buf (Elt F) ((c : Thread nD τ).loc b))

/-! ## The state after each grid point -/

/-- Placeholders for the outputs' buffers at the points that do not touch them (nothing reads them: at those points the
    buffers are neither written back nor stated). -/
abbrev idleH : Vec F S128x128 .f32 := viewH.read (Elt F) viewH.junk
abbrev idleC : Vec F S128x3 .f32 := viewC.read (Elt F) viewC.junk

/-- THE ACCUMULATION: after the body at position `n`, the two outputs' buffers and the two accumulators. -/
def stateAt (c : Dev nD) : (n : ℕ) → n < cfg1.N → Vec F S128x128 .f32 × Vec F S128x3 .f32 × Vec F S128x128 .f32 × Vec F S128x3 .f32
  | 0, hn => (idleH, idleC,
      accH_First c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) (ms_10 ⟨0, hn⟩) (hs_10 ⟨0, hn⟩) (ms_11 ⟨0, hn⟩) (hs_11 ⟨0, hn⟩) (ms_12 ⟨0, hn⟩) (hs_12 ⟨0, hn⟩) (ms_13 ⟨0, hn⟩) (hs_13 ⟨0, hn⟩) (ms_14 ⟨0, hn⟩) (hs_14 ⟨0, hn⟩) (ms_15 ⟨0, hn⟩) (hs_15 ⟨0, hn⟩) accH (Memref.isWhole_whole _) accC (Memref.isWhole_whole _) ((isFirst_iff ⟨0, hn⟩).mpr (Nat.zero_mod _)) (fun h => (fun h' => by (try dsimp only at h'); omega) ((isLast_iff ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩) (iblk V c 10 ⟨0, hn⟩) (iblk V c 11 ⟨0, hn⟩) (iblk V c 12 ⟨0, hn⟩) (iblk V c 13 ⟨0, hn⟩),
      accC_First c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) (ms_10 ⟨0, hn⟩) (hs_10 ⟨0, hn⟩) (ms_11 ⟨0, hn⟩) (hs_11 ⟨0, hn⟩) (ms_12 ⟨0, hn⟩) (hs_12 ⟨0, hn⟩) (ms_13 ⟨0, hn⟩) (hs_13 ⟨0, hn⟩) (ms_14 ⟨0, hn⟩) (hs_14 ⟨0, hn⟩) (ms_15 ⟨0, hn⟩) (hs_15 ⟨0, hn⟩) accH (Memref.isWhole_whole _) accC (Memref.isWhole_whole _) ((isFirst_iff ⟨0, hn⟩).mpr (Nat.zero_mod _)) (fun h => (fun h' => by (try dsimp only at h'); omega) ((isLast_iff ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩) (iblk V c 10 ⟨0, hn⟩) (iblk V c 11 ⟨0, hn⟩) (iblk V c 12 ⟨0, hn⟩) (iblk V c 13 ⟨0, hn⟩))
  | n + 1, hn =>
    if h0 : (n + 1) % 6 = 0 then
      (idleH, idleC,
        accH_First c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) ((isFirst_iff ⟨n + 1, hn⟩).mpr h0) (fun h => (fun h' => by (try dsimp only at h'); omega) ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩),
        accC_First c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) ((isFirst_iff ⟨n + 1, hn⟩).mpr h0) (fun h => (fun h' => by (try dsimp only at h'); omega) ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩))
    else if h1 : (n + 1) % 6 = 5 then
      (outH_Last c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2,
        outC_Last c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2,
        accH_Last c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2,
        accC_Last c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2)
    else
      (idleH, idleC,
        accH_Mid c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2,
        accC_Mid c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2)

/-- The point before `t`, when `t` is not the first. -/
abbrev prevLt (t : Fin cfg1.N) : t.val - 1 < cfg1.N := Nat.lt_of_le_of_lt (Nat.sub_le _ _) t.isLt

theorem stateAt_first (c : Dev nD) (t : Fin cfg1.N) (h0 : t.val % 6 = 0) :
    stateAt V c t.val t.isLt = (idleH, idleC,
      accH_First c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) ((isFirst_iff t).mpr h0) (fun h => (fun h' => by omega) ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t),
      accC_First c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) ((isFirst_iff t).mpr h0) (fun h => (fun h' => by omega) ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t)) := by
  obtain ⟨n, hn⟩ := t
  cases n with
  | zero => exact rfl
  | succ n => exact (dif_pos h0).trans rfl

theorem stateAt_mid (c : Dev nD) (t : Fin cfg1.N) (h0 : ¬t.val % 6 = 0) (h1 : ¬t.val % 6 = 5) :
    stateAt V c t.val t.isLt = (idleH, idleC,
      accH_Mid c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) (fun h => h1 ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2,
      accC_Mid c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) (fun h => h1 ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2) := by
  obtain ⟨n, hn⟩ := t
  cases n with
  | zero => exact absurd (Nat.zero_mod _) h0
  | succ n => exact (dif_neg h0).trans ((dif_neg h1).trans rfl)

theorem stateAt_last (c : Dev nD) (t : Fin cfg1.N) (h0 : ¬t.val % 6 = 0) (h1 : t.val % 6 = 5) :
    stateAt V c t.val t.isLt = (
      outH_Last c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2,
      outC_Last c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2,
      accH_Last c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2,
      accC_Last c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2) := by
  obtain ⟨n, hn⟩ := t
  cases n with
  | zero => exact absurd (Nat.zero_mod _) h0
  | succ n => exact (dif_neg h0).trans ((dif_pos h1).trans rfl)

/-! ## The region's invariant: the accumulators carried from point to point -/

def PhiS (c : Dev nD) : (n : ℕ) → n ≤ cfg1.N → sProp 𝕄
  | 0, _ => Pipeline.ΦA spec1 c
  | n + 1, hn => iprop(iprop(iprop(owns (c : Thread nD τ) accH fullShare ((stateAt V c n hn).2.2.1) ∗ owns (c : Thread nD τ) accC fullShare ((stateAt V c n hn).2.2.2)) ∗ others c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(iprop(owns (c : Thread nD τ) accH fullShare ((stateAt V c n hn).2.2.1) ∗ owns (c : Thread nD τ) accC fullShare ((stateAt V c n hn).2.2.2)) ∗ others c) ∗ (∃ r, prngReg c r)) := rfl
theorem PhiS_pos (c : Dev nD) (n : ℕ) (h : n ≤ cfg1.N) (hz : n ≠ 0) :
    PhiS V c n h = iprop(iprop(iprop(owns (c : Thread nD τ) accH fullShare ((stateAt V c (n - 1) (by omega)).2.2.1) ∗ owns (c : Thread nD τ) accC fullShare ((stateAt V c (n - 1) (by omega)).2.2.2)) ∗ others c) ∗ (∃ r, prngReg c r)) := by
  cases n with
  | zero => exact absurd rfl hz
  | succ n => rfl

/-! ## The pipeline's proof data -/

/-- The arrays as the region finds them; after the body at a point each input's buffer at its tile, each output's at the state's
    component; the invariant above; the two node-feature windows and the two coordinate windows each hold half of their one
    array, every other input its array whole; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => (stateAt V c t.val t.isLt).1
    | ⟨15, _⟩ => (stateAt V c t.val t.isLt).2.1
    | ⟨_ + 16, h⟩ => absurd h (Nat.not_lt.2 (Nat.le_add_left _ _))
  Φ t := PhiS V c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨_ + 16, h⟩ => absurd h (Nat.not_lt.2 (Nat.le_add_left _ _))
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = iblk V c 8 t := by dsimp only [dat]
theorem after_9 (c : Dev nD) (t : Fin cfg1.N) : (dat V c).after 9 t = iblk V c 9 t := by dsimp only [dat]
theorem after_10 (c : Dev nD) (t : Fin cfg1.N) : (dat V c).after 10 t = iblk V c 10 t := by dsimp only [dat]
theorem after_11 (c : Dev nD) (t : Fin cfg1.N) : (dat V c).after 11 t = iblk V c 11 t := by dsimp only [dat]
theorem after_12 (c : Dev nD) (t : Fin cfg1.N) : (dat V c).after 12 t = iblk V c 12 t := by dsimp only [dat]
theorem after_13 (c : Dev nD) (t : Fin cfg1.N) : (dat V c).after 13 t = iblk V c 13 t := by dsimp only [dat]
theorem after_14 (c : Dev nD) (t : Fin cfg1.N) : (dat V c).after 14 t = (stateAt V c t.val t.isLt).1 := by dsimp only [dat]
theorem after_15 (c : Dev nD) (t : Fin cfg1.N) : (dat V c).after 15 t = (stateAt V c t.val t.isLt).2.1 := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d
theorem before_5 (c : Dev nD) (t : Fin cfg1.N) (d) : (dat V c).before 5 t d = iblk V c 5 t :=
  before_5_of V (dat V c) (A_eq V c 5) (after_5 V c) t d
theorem before_6 (c : Dev nD) (t : Fin cfg1.N) (d) : (dat V c).before 6 t d = iblk V c 6 t :=
  before_6_of V (dat V c) (A_eq V c 6) (after_6 V c) t d
theorem before_7 (c : Dev nD) (t : Fin cfg1.N) (d) : (dat V c).before 7 t d = iblk V c 7 t :=
  before_7_of V (dat V c) (A_eq V c 7) (after_7 V c) t d
theorem before_8 (c : Dev nD) (t : Fin cfg1.N) (d) : (dat V c).before 8 t d = iblk V c 8 t :=
  before_8_of V (dat V c) (A_eq V c 8) (after_8 V c) t d
theorem before_9 (c : Dev nD) (t : Fin cfg1.N) (d) : (dat V c).before 9 t d = iblk V c 9 t :=
  before_9_of V (dat V c) (A_eq V c 9) (after_9 V c) t d
theorem before_10 (c : Dev nD) (t : Fin cfg1.N) (d) : (dat V c).before 10 t d = iblk V c 10 t :=
  before_10_of V (dat V c) (A_eq V c 10) (after_10 V c) t d
theorem before_11 (c : Dev nD) (t : Fin cfg1.N) (d) : (dat V c).before 11 t d = iblk V c 11 t :=
  before_11_of V (dat V c) (A_eq V c 11) (after_11 V c) t d
theorem before_12 (c : Dev nD) (t : Fin cfg1.N) (d) : (dat V c).before 12 t d = iblk V c 12 t :=
  before_12_of V (dat V c) (A_eq V c 12) (after_12 V c) t d
theorem before_13 (c : Dev nD) (t : Fin cfg1.N) (d) : (dat V c).before 13 t d = iblk V c 13 t :=
  before_13_of V (dat V c) (A_eq V c 13) (after_13 V c) t d

/-! ## The body's obligation at a grid point -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d))
    ∗ (∃ d, owns (c : Thread nD τ) (ms_8 t) fullShare ((dat V c).before 8 t d))
    ∗ (∃ d, owns (c : Thread nD τ) (ms_9 t) fullShare ((dat V c).before 9 t d))
    ∗ (∃ d, owns (c : Thread nD τ) (ms_10 t) fullShare ((dat V c).before 10 t d))
    ∗ (∃ d, owns (c : Thread nD τ) (ms_11 t) fullShare ((dat V c).before 11 t d))
    ∗ (∃ d, owns (c : Thread nD τ) (ms_12 t) fullShare ((dat V c).before 12 t d))
    ∗ (∃ d, owns (c : Thread nD τ) (ms_13 t) fullShare ((dat V c).before 13 t d))
    ∗ (∃ d, owns (c : Thread nD τ) (ms_14 t) fullShare ((dat V c).before 14 t d))
    ∗ (∃ d, owns (c : Thread nD τ) (ms_15 t) fullShare ((dat V c).before 15 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t
    ∗ (dat V c).leavesExact 12 t
    ∗ (dat V c).leavesExact 13 t
    ∗ (dat V c).leavesExact 14 t
    ∗ (dat V c).leavesExact 15 t)

set_option maxHeartbeats 8000000 in
/-- The body at any point: the inputs' buffers hold their tiles; the point's position along the reduction axis says which kind of
    step it is; the invariant hands the step the accumulators at what the point before left (at anything before the first
    point) and takes them back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7, before_8, before_9, before_10, before_11, before_12, before_13]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [live_0], after_0]
  rw [show (dat V c).leavesExact 1 t = owns (c : Thread nD τ) (ms_1 t) fullShare ((dat V c).after 1 t) from by
    unfold Dat.leavesExact; rw [live_1], after_1]
  rw [show (dat V c).leavesExact 2 t = owns (c : Thread nD τ) (ms_2 t) fullShare ((dat V c).after 2 t) from by
    unfold Dat.leavesExact; rw [live_2], after_2]
  rw [show (dat V c).leavesExact 3 t = owns (c : Thread nD τ) (ms_3 t) fullShare ((dat V c).after 3 t) from by
    unfold Dat.leavesExact; rw [live_3], after_3]
  rw [show (dat V c).leavesExact 4 t = owns (c : Thread nD τ) (ms_4 t) fullShare ((dat V c).after 4 t) from by
    unfold Dat.leavesExact; rw [live_4], after_4]
  rw [show (dat V c).leavesExact 5 t = owns (c : Thread nD τ) (ms_5 t) fullShare ((dat V c).after 5 t) from by
    unfold Dat.leavesExact; rw [live_5], after_5]
  rw [show (dat V c).leavesExact 6 t = owns (c : Thread nD τ) (ms_6 t) fullShare ((dat V c).after 6 t) from by
    unfold Dat.leavesExact; rw [live_6], after_6]
  rw [show (dat V c).leavesExact 7 t = owns (c : Thread nD τ) (ms_7 t) fullShare ((dat V c).after 7 t) from by
    unfold Dat.leavesExact; rw [live_7], after_7]
  rw [show (dat V c).leavesExact 8 t = owns (c : Thread nD τ) (ms_8 t) fullShare ((dat V c).after 8 t) from by
    unfold Dat.leavesExact; rw [live_8], after_8]
  rw [show (dat V c).leavesExact 9 t = owns (c : Thread nD τ) (ms_9 t) fullShare ((dat V c).after 9 t) from by
    unfold Dat.leavesExact; rw [live_9], after_9]
  rw [show (dat V c).leavesExact 10 t = owns (c : Thread nD τ) (ms_10 t) fullShare ((dat V c).after 10 t) from by
    unfold Dat.leavesExact; rw [live_10], after_10]
  rw [show (dat V c).leavesExact 11 t = owns (c : Thread nD τ) (ms_11 t) fullShare ((dat V c).after 11 t) from by
    unfold Dat.leavesExact; rw [live_11], after_11]
  rw [show (dat V c).leavesExact 12 t = owns (c : Thread nD τ) (ms_12 t) fullShare ((dat V c).after 12 t) from by
    unfold Dat.leavesExact; rw [live_12], after_12]
  rw [show (dat V c).leavesExact 13 t = owns (c : Thread nD τ) (ms_13 t) fullShare ((dat V c).after 13 t) from by
    unfold Dat.leavesExact; rw [live_13], after_13]
  have hN : t.val < 36 := lt_of_lt_of_eq t.isLt (show cfg1.N = 36 from N_1)
  by_cases h0 : t.val % 6 = 0
  · have hnl : ¬isLast (grid1.coords t) := fun h => (fun h' => by omega) ((isLast_iff t).mp h)
    rw [Dat.leavesExact_idle (dat V c) 14 t (idle_14 t hnl) (noFlush_14 t hnl)]
    rw [Dat.leavesExact_idle (dat V c) 15 t (idle_15 t hnl) (noFlush_15 t hnl)]
    rw [stateAt_first V c t h0]
    unfold accH_First accC_First; (try dsimp only)
    by_cases hz : t.val = 0
    · rw [PhiS_castSucc V c t, PhiS_zero V c _ _ hz, phiA_eq]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((stepFirst c (grid1.coords t) _ _ _ _ _ _ _ _ _ _ _ _ _ _ _ _ _ _ _ _ _ _ _ _ _ _ _ _ _ _ _ _ _ _ _ _ ((isFirst_iff t).mpr h0) (fun h => (fun h' => by omega) ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexact HS0
      isplitl [HS1]; · iexact HS1
      iintro ⟨H0, H1, H2, H3, H4, H5, H6, H7, H8, H9, H10, H11, H12, H13, H14, H15, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (cover_accH_First c _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover_accC_First c _ _ _ _ _ _ _ _ _ _ _ _ _ _ _ _ _ _ _ _ _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      iexists _; iexact H15
    · rw [PhiS_castSucc V c t, PhiS_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((stepFirst c (grid1.coords t) _ _ _ _ _ _ _ _ _ _ _ _ _ _ _ _ _ _ _ _ _ _ _ _ _ _ _ _ _ _ _ _ _ _ _ _ ((isFirst_iff t).mpr h0) (fun h => (fun h' => by omega) ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexists _; iexact HS0
      isplitl [HS1]; · iexists _; iexact HS1
      iintro ⟨H0, H1, H2, H3, H4, H5, H6, H7, H8, H9, H10, H11, H12, H13, H14, H15, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (cover_accH_First c _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover_accC_First c _ _ _ _ _ _ _ _ _ _ _ _ _ _ _ _ _ _ _ _ _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      iexists _; iexact H15
  · have hz : t.val ≠ 0 := fun h => h0 (by rw [h])
    by_cases h1 : t.val % 6 = 5
    · rw [show (dat V c).leavesExact 14 t = owns (c : Thread nD τ) (ms_14 t) fullShare ((dat V c).after 14 t) from by
        unfold Dat.leavesExact; rw [live_14 t ((isLast_iff t).mpr h1)], after_14]
      rw [show (dat V c).leavesExact 15 t = owns (c : Thread nD τ) (ms_15 t) fullShare ((dat V c).after 15 t) from by
        unfold Dat.leavesExact; rw [live_15 t ((isLast_iff t).mpr h1)], after_15]
      rw [stateAt_last V c t h0 h1]
      unfold outH_Last outC_Last accH_Last accC_Last; (try dsimp only)
      rw [PhiS_castSucc V c t, PhiS_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((stepLast c (grid1.coords t) _ _ _ _ _ _ _ _ _ _ _ _ _ _ _ _ _ _ _ _ _ _ _ _ _ _ _ _ _ _ _ _ _ _ _ _ (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [HS0]; · iexact HS0
      isplitl [HS1]; · iexact HS1
      iintro ⟨H0, H1, H2, H3, H4, H5, H6, H7, H8, H9, H10, H11, H12, H13, ⟨%e14, H14⟩, ⟨%e15, H15⟩, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (cover_accH_Last c _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover_accC_Last c _ _ _ _ _ _ _ _ _ _ _ _ _ _ _ _ _ _ _ _ _ _ _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; exact View.read_writes_of_cover _ _ _ _ _ (cover_outH_Last c _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H15
      ipureintro; exact View.read_writes_of_cover _ _ _ _ _ (cover_outC_Last c _ _ _ _ _ _ _ _ _ _ _ _ _ _ _ _ _ _ _ _ _ _ _ _ _ _ _ _ _ _ _ _ _ _ _ _ _ _ _ _ _ _ _ _ _ _ _ _ _ _ _ _ _ _ _)
    · have hnl : ¬isLast (grid1.coords t) := fun h => h1 ((isLast_iff t).mp h)
      rw [Dat.leavesExact_idle (dat V c) 14 t (idle_14 t hnl) (noFlush_14 t hnl)]
      rw [Dat.leavesExact_idle (dat V c) 15 t (idle_15 t hnl) (noFlush_15 t hnl)]
      rw [stateAt_mid V c t h0 h1]
      unfold accH_Mid accC_Mid; (try dsimp only)
      rw [PhiS_castSucc V c t, PhiS_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((stepMid c (grid1.coords t) _ _ _ _ _ _ _ _ _ _ _ _ _ _ _ _ _ _ _ _ _ _ _ _ _ _ _ _ _ _ _ _ _ _ _ _ (fun h => h0 ((isFirst_iff t).mp h)) (fun h => h1 ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexact HS0
      isplitl [HS1]; · iexact HS1
      iintro ⟨H0, H1, H2, H3, H4, H5, H6, H7, H8, H9, H10, H11, H12, H13, H14, H15, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (cover_accH_Mid c _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover_accC_Mid c _ _ _ _ _ _ _ _ _ _ _ _ _ _ _ _ _ _ _ _ _ _ _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      iexists _; iexact H15

/-- The library's body obligation, at every point. -/
theorem body_obligation (c : Dev nD) : BodyObligation (dat (F := F) V c) (defs₀ (F := F)) Variants.none () Set.univ := fun t => by
  rw [bigSep_W1, bigSep_W1]
  exact sound_body V c t

/-- Before the first point the invariant is the class's. -/
theorem phi_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point it gives the class's back: the accumulators' named contents are forgotten. -/
theorem phi_out (c : Dev nD) : (dat V c).Φ (Fin.last cfg1.N) ⊢ Pipeline.ΦA spec1 c := by
  have ht : (Fin.last cfg1.N).val ≠ 0 := by rw [Fin.val_last]; have : cfg1.N = 36 := N_1; omega
  rw [show (dat V c).Φ (Fin.last cfg1.N) = PhiS V c (Fin.last cfg1.N).val (Nat.le_of_lt_succ (Fin.last cfg1.N).isLt) from rfl, PhiS_pos V c _ _ ht, phiA_eq]
  iintro ⟨⟨⟨HS0, HS1⟩, Hoth⟩, Hg⟩
  isplitl [HS0 HS1 Hoth]
  · isplitl [HS0 HS1]
    · isplitl [HS0]
      · iexists _; iexact HS0
      iexists _; iexact HS1
    iexact Hoth
  iexact Hg

end Data

end Cert.Kernel.Gen.Layer1

end
-- ==== Proof.BitsLayer1Deal.lean ====
/-
  Layer 2's region and the arrays it works on. The node features are staged through two windows (one by the receiving
  tile, one by the sending tile) and so are the coordinates: each such pair of windows holds its one array together, half
  a share each. Entering the region the fourteen distinct arrays, held whole, are dealt to the sixteen windows; leaving it
  the halves are joined again, the ten weight arrays are as they were and the two output arrays hold what the pipeline's
  write-backs left.
-/
import proofs.«110946_j38972533244288_1_alg».proof.Proof.BitsLayer1Data

set_option maxRecDepth 16384

noncomputable section

namespace Cert.Kernel.Gen.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Deal
variable (V : (c : Dev nD) → (b : Ref sig .tc) → Buf (Elt F) ((c : Thread nD τ).loc b))

/-- The distinct arrays behind the sixteen windows. -/
theorem arrRefs_eq : Finset.univ.image (Pipeline.arrRef spec1) = ([main_v31_0, main_v31_1, main_v33, main_v35, main_v37, main_v38, main_v40, main_v41, main_v43, main_v45, main_v47, main_v48, main_v49_0, main_v49_1] : List (Ref sig .tc)).toFinset := by decide

/-- The windows' arrays, each a whole buffer, held buffer by buffer at the window's share. -/
theorem arrays_shares (c : Dev nD) (G : (w : Fin cfg1.W) → Buf (Elt F) ((cfg1.spec w).arr.view.loc (c.tc : Thread nD τ))) :
    ((dat V c).arrays G : sProp 𝕄)
      = bigSep Finset.univ fun w => (((c.tc : Thread nD τ).loc (Pipeline.arrRef cfg1.spec w)) ↦{(dat V c).share w} G w : sProp 𝕄) := by
  unfold Dat.arrays
  exact Idealize.SL.BI.bigSep_congr fun w _ => by rw [(arr_whole1 w).set_eq_univ]

/-- A buffer held at the full share is held twice over at its two halves, and back. -/
theorem halves (ℓ : Loc nD τ sig) (f : Buf (Elt F) ℓ) :
    (ℓ ↦{fullShare} f : sProp 𝕄) ⊢ iprop((ℓ ↦{fullShare.left} f) ∗ (ℓ ↦{fullShare.right} f)) :=
  (pointsTo_share (PosShare.mem_left_op_right fullShare)).1
theorem whole (ℓ : Loc nD τ sig) (f : Buf (Elt F) ℓ) :
    iprop((ℓ ↦{fullShare.left} f) ∗ (ℓ ↦{fullShare.right} f)) ⊢ (ℓ ↦{fullShare} f : sProp 𝕄) :=
  (pointsTo_share (PosShare.mem_left_op_right fullShare)).2

/-- The fourteen arrays one by one. -/
theorem arrBufs_chain (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c.tc : Thread nD τ).loc main_v31_0) ↦{fullShare} W main_v31_0) ∗ (((c.tc : Thread nD τ).loc main_v31_1) ↦{fullShare} W main_v31_1) ∗ (((c.tc : Thread nD τ).loc main_v33) ↦{fullShare} W main_v33) ∗ (((c.tc : Thread nD τ).loc main_v35) ↦{fullShare} W main_v35) ∗ (((c.tc : Thread nD τ).loc main_v37) ↦{fullShare} W main_v37) ∗ (((c.tc : Thread nD τ).loc main_v38) ↦{fullShare} W main_v38) ∗ (((c.tc : Thread nD τ).loc main_v40) ↦{fullShare} W main_v40) ∗ (((c.tc : Thread nD τ).loc main_v41) ↦{fullShare} W main_v41) ∗ (((c.tc : Thread nD τ).loc main_v43) ↦{fullShare} W main_v43) ∗ (((c.tc : Thread nD τ).loc main_v45) ↦{fullShare} W main_v45) ∗ (((c.tc : Thread nD τ).loc main_v47) ↦{fullShare} W main_v47) ∗ (((c.tc : Thread nD τ).loc main_v48) ↦{fullShare} W main_v48) ∗ (((c.tc : Thread nD τ).loc main_v49_0) ↦{fullShare} W main_v49_0) ∗ (((c.tc : Thread nD τ).loc main_v49_1) ↦{fullShare} W main_v49_1)) := by
  unfold Pipeline.arrBufs
  exact Idealize.SL.BI.bigSep_eq_bigSepL_of_eq _ arrRefs_eq (by decide) _

set_option maxHeartbeats 4000000 in
/-- ENTRY: the fourteen arrays at the entry contents, dealt to the sixteen windows. -/
theorem deal (c : Dev nD) :
    (Pipeline.arrBufs (Ix := Unit) (Name := ℕ) (U := UR sig nD τ) (Lvl := ℕ) spec1 c (V c) : sProp 𝕄)
      ⊢ (dat V c).arrays ((dat V c).arrAt · 0) := by
  rw [arrays_shares, bigSep_W1, arrBufs_chain]
  iintro ⟨H_main_v31_0, H_main_v31_1, H_main_v33, H_main_v35, H_main_v37, H_main_v38, H_main_v40, H_main_v41, H_main_v43, H_main_v45, H_main_v47, H_main_v48, H_main_v49_0, H_main_v49_1⟩
  ihave Hh := halves _ _ $$ H_main_v31_0
  icases Hh with ⟨Hhl, Hhr⟩
  ihave Hc := halves _ _ $$ H_main_v31_1
  icases Hc with ⟨Hcl, Hcr⟩
  isplitl [Hhl]; · iexact Hhl
  isplitl [Hhr]; · iexact Hhr
  isplitl [Hcl]; · iexact Hcl
  isplitl [Hcr]; · iexact Hcr
  isplitl [H_main_v33]; · iexact H_main_v33
  isplitl [H_main_v35]; · iexact H_main_v35
  isplitl [H_main_v37]; · iexact H_main_v37
  isplitl [H_main_v38]; · iexact H_main_v38
  isplitl [H_main_v40]; · iexact H_main_v40
  isplitl [H_main_v41]; · iexact H_main_v41
  isplitl [H_main_v43]; · iexact H_main_v43
  isplitl [H_main_v45]; · iexact H_main_v45
  isplitl [H_main_v47]; · iexact H_main_v47
  isplitl [H_main_v48]; · iexact H_main_v48
  isplitl [H_main_v49_0]; · iexact H_main_v49_0
  iexact H_main_v49_1

/-- An input's array is never written: after the last grid point it is as the region found it. -/
theorem input_kept (c : Dev nD) (w : Fin cfg1.W) (hw : (cfg1.win w).isOut = false) (q : PosShare TreeShare) :
    ((((c.tc : Thread nD τ).loc (Pipeline.arrRef cfg1.spec w)) ↦{q} (dat V c).arrAt w cfg1.N : sProp 𝕄))
      ⊢ (((c.tc : Thread nD τ).loc (Pipeline.arrRef cfg1.spec w)) ↦{q} (dat V c).A w) :=
  Entails.of_eq (by rw [(dat V c).arrAt_in w hw])

set_option maxHeartbeats 8000000 in
/-- EXIT: the windows' arrays after the last grid point make the fourteen arrays at the exit contents `V'`: as at
    entry but for the two outputs, which hold what the write-backs left. -/
theorem join (c : Dev nD) (V' : (b : Ref sig .tc) → Buf (Elt F) ((c : Thread nD τ).loc b))
    (hin : ∀ b, b ≠ main_v49_0 → b ≠ main_v49_1 → V' b = V c b)
    (hH : V' main_v49_0 = (dat V c).arrAt 14 cfg1.N) (hC : V' main_v49_1 = (dat V c).arrAt 15 cfg1.N) :
    ((dat V c).arrays ((dat V c).arrAt · cfg1.N) : sProp 𝕄)
      ⊢ Pipeline.arrBufs (Ix := Unit) (Name := ℕ) (U := UR sig nD τ) (Lvl := ℕ) spec1 c V' := by
  rw [arrays_shares, bigSep_W1, arrBufs_chain]
  rw [hin main_v31_0 (by decide) (by decide), hin main_v31_1 (by decide) (by decide), hin main_v33 (by decide) (by decide), hin main_v35 (by decide) (by decide), hin main_v37 (by decide) (by decide), hin main_v38 (by decide) (by decide), hin main_v40 (by decide) (by decide), hin main_v41 (by decide) (by decide), hin main_v43 (by decide) (by decide), hin main_v45 (by decide) (by decide), hin main_v47 (by decide) (by decide), hin main_v48 (by decide) (by decide), hH, hC]
  iintro ⟨W0, W1, W2, W3, W4, W5, W6, W7, W8, W9, W10, W11, W12, W13, W14, W15⟩
  ihave K0 := input_kept V c 0 rfl _ $$ W0
  ihave K1 := input_kept V c 1 rfl _ $$ W1
  ihave K2 := input_kept V c 2 rfl _ $$ W2
  ihave K3 := input_kept V c 3 rfl _ $$ W3
  ihave K4 := input_kept V c 4 rfl _ $$ W4
  ihave K5 := input_kept V c 5 rfl _ $$ W5
  ihave K6 := input_kept V c 6 rfl _ $$ W6
  ihave K7 := input_kept V c 7 rfl _ $$ W7
  ihave K8 := input_kept V c 8 rfl _ $$ W8
  ihave K9 := input_kept V c 9 rfl _ $$ W9
  ihave K10 := input_kept V c 10 rfl _ $$ W10
  ihave K11 := input_kept V c 11 rfl _ $$ W11
  ihave K12 := input_kept V c 12 rfl _ $$ W12
  ihave K13 := input_kept V c 13 rfl _ $$ W13
  isplitl [K0 K1]
  · iapply whole; isplitl [K0]; · iexact K0
    iexact K1
  isplitl [K2 K3]
  · iapply whole; isplitl [K2]; · iexact K2
    iexact K3
  isplitl [K4]; · iexact K4
  isplitl [K5]; · iexact K5
  isplitl [K6]; · iexact K6
  isplitl [K7]; · iexact K7
  isplitl [K8]; · iexact K8
  isplitl [K9]; · iexact K9
  isplitl [K10]; · iexact K10
  isplitl [K11]; · iexact K11
  isplitl [K12]; · iexact K12
  isplitl [K13]; · iexact K13
  isplitl [W14]; · iexact W14
  iexact W15

/-- A core's unscoped buffers are the buffers behind the windows' arrays and the rest. -/
theorem unscoped_split (c : Dev nD) (W : (b : Ref sig .tc) → Buf (Elt F) ((c : Thread nD τ).loc b)) :
    (unscopedBufs (Ix := Unit) (Name := ℕ) (U := UR sig nD τ) (Lvl := ℕ) c W : sProp 𝕄)
      = iprop((Pipeline.arrBufs spec1 c W : sProp 𝕄) ∗ Pipeline.unscopedRest spec1 c W) := by
  classical
  have hA : Finset.univ.image (Pipeline.arrRef spec1) ⊆ Finset.univ.filter fun b : Ref sig .tc => ¬ b.isScoped := by decide
  unfold unscopedBufs Pipeline.unscopedRest Pipeline.arrBufs
  rw [bigSep_sdiff_split hA]
  rfl

/-- The rest does not see a change of the two outputs' arrays. -/
theorem rest_congr (c : Dev nD) (W W' : (b : Ref sig .tc) → Buf (Elt F) ((c : Thread nD τ).loc b))
    (h : ∀ b, b ≠ main_v49_0 → b ≠ main_v49_1 → W' b = W b) :
    (Pipeline.unscopedRest (Ix := Unit) (Name := ℕ) (U := UR sig nD τ) (Lvl := ℕ) spec1 c W : sProp 𝕄) = Pipeline.unscopedRest spec1 c W' := by
  unfold Pipeline.unscopedRest
  refine Idealize.SL.BI.bigSep_congr fun b hb => ?_
  have hb' : b ∉ Finset.univ.image (Pipeline.arrRef spec1) := (Finset.mem_sdiff.mp hb).2
  rw [h b (fun e => hb' (by rw [e]; decide)) (fun e => hb' (by rw [e]; decide))]

end Deal

end Cert.Kernel.Gen.Layer1

end
-- ==== Proof.BitsLayer2Base.lean ====
/-
  Message-passing layer 3 as a pipelined kernel over a 6 × 6 grid of 128-row tiles (i over the receiving nodes, j over
  the sending ones, j the reduction axis): what the three kinds of step share. The body's two branches depend on j only:
  the first (zero both accumulators) is taken exactly when j = 0, the second (scale the sums by 1/768, apply the second
  linear map, add the residual and store both outputs) exactly when j = 5. The two outputs' tiles are touched only at
  j = 5, which is also where they are written back; the accumulators live in two scratch buffers of the kernel's own.
-/
import proofs.«110946_j38972533244288_1_alg».proof.Proof.Gen.Kernel.Launch
import proofs.«110946_j38972533244288_1_alg».proof.Proof.Gen.Kernel.Skeleton
import proofs.«110946_j38972533244288_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- The first branch's condition: j = 0. -/
abbrev isFirst (i : grid2.Coords) : Prop := (Scalar.cmpi .ne (Scalar.extui (Scalar.cmpi .eq (BitVec.ofNat 32 (i 1).val) 0#32)) 0#32) = 1#1
theorem isFirst_iff : ∀ t : Fin cfg2.N, isFirst (grid2.coords t) ↔ t.val % 6 = 0 :=
  (by decide +kernel : ∀ t : Fin grid2.N, isFirst (grid2.coords t) ↔ t.val % 6 = 0)
/-- The second branch's condition: j = 5. -/
abbrev isLast (i : grid2.Coords) : Prop := k2_cond2 i = 1#1
theorem isLast_iff : ∀ t : Fin cfg2.N, isLast (grid2.coords t) ↔ t.val % 6 = 5 :=
  (by decide +kernel : ∀ t : Fin grid2.N, isLast (grid2.coords t) ↔ t.val % 6 = 5)

/-! ## Where a window is idle: an input never, an output except at j = 5 (where it is also written back) -/

theorem live_0 : ∀ i, cfg2.idle 0 i = false := fun _ => rfl
theorem live_1 : ∀ i, cfg2.idle 1 i = false := fun _ => rfl
theorem live_2 : ∀ i, cfg2.idle 2 i = false := fun _ => rfl
theorem live_3 : ∀ i, cfg2.idle 3 i = false := fun _ => rfl
theorem live_4 : ∀ i, cfg2.idle 4 i = false := fun _ => rfl
theorem live_5 : ∀ i, cfg2.idle 5 i = false := fun _ => rfl
theorem live_6 : ∀ i, cfg2.idle 6 i = false := fun _ => rfl
theorem live_7 : ∀ i, cfg2.idle 7 i = false := fun _ => rfl
theorem live_8 : ∀ i, cfg2.idle 8 i = false := fun _ => rfl
theorem live_9 : ∀ i, cfg2.idle 9 i = false := fun _ => rfl
theorem live_10 : ∀ i, cfg2.idle 10 i = false := fun _ => rfl
theorem live_11 : ∀ i, cfg2.idle 11 i = false := fun _ => rfl
theorem live_12 : ∀ i, cfg2.idle 12 i = false := fun _ => rfl
theorem live_13 : ∀ i, cfg2.idle 13 i = false := fun _ => rfl
theorem idle_14 : ∀ t : Fin cfg2.N, ¬isLast (grid2.coords t) → cfg2.idle 14 (grid2.coords t) = true := by decide +kernel
theorem noFlush_14 : ∀ t : Fin cfg2.N, ¬isLast (grid2.coords t) → (cfg2.win 14).flush t = false := by decide +kernel
theorem live_14 : ∀ t : Fin cfg2.N, isLast (grid2.coords t) → cfg2.idle 14 (grid2.coords t) = false := by decide +kernel
theorem idle_15 : ∀ t : Fin cfg2.N, ¬isLast (grid2.coords t) → cfg2.idle 15 (grid2.coords t) = true := by decide +kernel
theorem noFlush_15 : ∀ t : Fin cfg2.N, ¬isLast (grid2.coords t) → (cfg2.win 15).flush t = false := by decide +kernel
theorem live_15 : ∀ t : Fin cfg2.N, isLast (grid2.coords t) → cfg2.idle 15 (grid2.coords t) = false := by decide +kernel

/-! ## The memrefs the body is called with -/

/-- One staging buffer of each output, through which its contents are stated. -/
abbrev viewH : View sig .tc .vmem S128x128 .f32 := (Memref.whole cc2_stg14_0 : Memref sig .tc .vmem S128x128 .f32).view
abbrev viewC : View sig .tc .vmem S128x3 .f32 := (Memref.whole cc2_stg15_0 : Memref sig .tc .vmem S128x3 .f32).view
abbrev ms_0 (t : Fin cfg2.N) : Memref sig .tc .vmem S128x128 .f32 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S128x128 .f32 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S128x3 .f32 := win2_2.stage (cfg2.slots t 2)
abbrev hs_2 (t : Fin cfg2.N) : (ms_2 t).IsWhole := hstage2_2 ((cfg2.slots t 2).cast nbuf2_2)
abbrev ms_3 (t : Fin cfg2.N) : Memref sig .tc .vmem S128x3 .f32 := win2_3.stage (cfg2.slots t 3)
abbrev hs_3 (t : Fin cfg2.N) : (ms_3 t).IsWhole := hstage2_3 ((cfg2.slots t 3).cast nbuf2_3)
abbrev ms_4 (t : Fin cfg2.N) : Memref sig .tc .vmem S128x128 .f32 := win2_4.stage (cfg2.slots t 4)
abbrev hs_4 (t : Fin cfg2.N) : (ms_4 t).IsWhole := hstage2_4 ((cfg2.slots t 4).cast nbuf2_4)
abbrev ms_5 (t : Fin cfg2.N) : Memref sig .tc .vmem S128x128 .f32 := win2_5.stage (cfg2.slots t 5)
abbrev hs_5 (t : Fin cfg2.N) : (ms_5 t).IsWhole := hstage2_5 ((cfg2.slots t 5).cast nbuf2_5)
abbrev ms_6 (t : Fin cfg2.N) : Memref sig .tc .vmem S1x128 .f32 := win2_6.stage (cfg2.slots t 6)
abbrev hs_6 (t : Fin cfg2.N) : (ms_6 t).IsWhole := hstage2_6 ((cfg2.slots t 6).cast nbuf2_6)
abbrev ms_7 (t : Fin cfg2.N) : Memref sig .tc .vmem S1x128 .f32 := win2_7.stage (cfg2.slots t 7)
abbrev hs_7 (t : Fin cfg2.N) : (ms_7 t).IsWhole := hstage2_7 ((cfg2.slots t 7).cast nbuf2_7)
abbrev ms_8 (t : Fin cfg2.N) : Memref sig .tc .vmem S128x128 .f32 := win2_8.stage (cfg2.slots t 8)
abbrev hs_8 (t : Fin cfg2.N) : (ms_8 t).IsWhole := hstage2_8 ((cfg2.slots t 8).cast nbuf2_8)
abbrev ms_9 (t : Fin cfg2.N) : Memref sig .tc .vmem S1x128 .f32 := win2_9.stage (cfg2.slots t 9)
abbrev hs_9 (t : Fin cfg2.N) : (ms_9 t).IsWhole := hstage2_9 ((cfg2.slots t 9).cast nbuf2_9)
abbrev ms_10 (t : Fin cfg2.N) : Memref sig .tc .vmem S128x1 .f32 := win2_10.stage (cfg2.slots t 10)
abbrev hs_10 (t : Fin cfg2.N) : (ms_10 t).IsWhole := hstage2_10 ((cfg2.slots t 10).cast nbuf2_10)
abbrev ms_11 (t : Fin cfg2.N) : Memref sig .tc .vmem S128x1 .f32 := win2_11.stage (cfg2.slots t 11)
abbrev hs_11 (t : Fin cfg2.N) : (ms_11 t).IsWhole := hstage2_11 ((cfg2.slots t 11).cast nbuf2_11)
abbrev ms_12 (t : Fin cfg2.N) : Memref sig .tc .vmem S1x1 .f32 := win2_12.stage (cfg2.slots t 12)
abbrev hs_12 (t : Fin cfg2.N) : (ms_12 t).IsWhole := hstage2_12 ((cfg2.slots t 12).cast nbuf2_12)
abbrev ms_13 (t : Fin cfg2.N) : Memref sig .tc .vmem S1x1 .f32 := win2_13.stage (cfg2.slots t 13)
abbrev hs_13 (t : Fin cfg2.N) : (ms_13 t).IsWhole := hstage2_13 ((cfg2.slots t 13).cast nbuf2_13)
abbrev ms_14 (t : Fin cfg2.N) : Memref sig .tc .vmem S128x128 .f32 := win2_14.stage (cfg2.slots t 14)
abbrev hs_14 (t : Fin cfg2.N) : (ms_14 t).IsWhole := hstage2_14 ((cfg2.slots t 14).cast nbuf2_14)
abbrev ms_15 (t : Fin cfg2.N) : Memref sig .tc .vmem S128x3 .f32 := win2_15.stage (cfg2.slots t 15)
abbrev hs_15 (t : Fin cfg2.N) : (ms_15 t).IsWhole := hstage2_15 ((cfg2.slots t 15).cast nbuf2_15)
/-- The two accumulators: the sum over j of the messages, and of the weighted coordinate differences. -/
abbrev accH : Memref sig .tc .vmem S128x128 .f32 := Memref.whole cc2_scratch0
abbrev accC : Memref sig .tc .vmem S128x3 .f32 := Memref.whole cc2_scratch1
abbrev viewAccH : View sig .tc .vmem S128x128 .f32 := accH.view
abbrev viewAccC : View sig .tc .vmem S128x3 .f32 := accC.view

/-- The scoped buffers of the core that are neither this kernel's staging buffers nor its accumulators. -/
abbrev others (c : Dev nD) : sProp 𝕄 :=
  Pipeline.scopedRestBut (Ix := Unit) (Name := ℕ) (U := UR sig nD τ) (Lvl := ℕ) (Val := Elt F) spec2 c [cc2_scratch0, cc2_scratch1]

/-- The region's invariant before the first step: both accumulators at anything, the other scoped buffers, the
    generator register. -/
theorem phiA_eq (c : Dev nD) :
    (Pipeline.ΦA spec2 c : sProp 𝕄)
      = iprop(iprop(iprop((∃ d, owns (c : Thread nD τ) accH fullShare d) ∗ (∃ d, owns (c : Thread nD τ) accC fullShare d)) ∗ others c) ∗ (∃ r, prngReg c r)) := by
  unfold Pipeline.ΦA; rw [scopedRest2_split]; simp only [accH, accC, owns_whole]; try rfl

/-! ## The windows' blocks, read off the arrays as the region finds them -/

section Blocks
variable (V : (c : Dev nD) → (b : Ref sig .tc) → Buf (Elt F) ((c : Thread nD τ).loc b))

/-- Window `w`'s tile at grid point `t`. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input 0's current staging buffer holds its tile at every grid point, fetched there or not. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1's current staging buffer holds its tile at every grid point, fetched there or not. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input 2's current staging buffer holds its tile at every grid point, fetched there or not. -/
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input 3's current staging buffer holds its tile at every grid point, fetched there or not. -/
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input 4's current staging buffer holds its tile at every grid point, fetched there or not. -/
theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input 5's current staging buffer holds its tile at every grid point, fetched there or not. -/
theorem before_5_of {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input 6's current staging buffer holds its tile at every grid point, fetched there or not. -/
theorem before_6_of {c : Dev nD} (dat : Dat τ (Elt F) Unit ℕ (UR sig nD τ) ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input 7's current staging buffer holds its tile at every grid point, fetched there or not. -/
theorem before_7_of {c : Dev nD} (dat : Dat τ (Elt F) Unit ℕ (UR sig nD τ) ℕ cfg2 c) (hA : dat.A 7 = V c (Pipeline.arrRef spec2 7))
    (hafter : ∀ t, dat.after 7 t = iblk V c 7 t) (t : Fin cfg2.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input 8's current staging buffer holds its tile at every grid point, fetched there or not. -/
theorem before_8_of {c : Dev nD} (dat : Dat τ (Elt F) Unit ℕ (UR sig nD τ) ℕ cfg2 c) (hA : dat.A 8 = V c (Pipeline.arrRef spec2 8))
    (hafter : ∀ t, dat.after 8 t = iblk V c 8 t) (t : Fin cfg2.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input 9's current staging buffer holds its tile at every grid point, fetched there or not. -/
theorem before_9_of {c : Dev nD} (dat : Dat τ (Elt F) Unit ℕ (UR sig nD τ) ℕ cfg2 c) (hA : dat.A 9 = V c (Pipeline.arrRef spec2 9))
    (hafter : ∀ t, dat.after 9 t = iblk V c 9 t) (t : Fin cfg2.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input 10's current staging buffer holds its tile at every grid point, fetched there or not. -/
theorem before_10_of {c : Dev nD} (dat : Dat τ (Elt F) Unit ℕ (UR sig nD τ) ℕ cfg2 c) (hA : dat.A 10 = V c (Pipeline.arrRef spec2 10))
    (hafter : ∀ t, dat.after 10 t = iblk V c 10 t) (t : Fin cfg2.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input 11's current staging buffer holds its tile at every grid point, fetched there or not. -/
theorem before_11_of {c : Dev nD} (dat : Dat τ (Elt F) Unit ℕ (UR sig nD τ) ℕ cfg2 c) (hA : dat.A 11 = V c (Pipeline.arrRef spec2 11))
    (hafter : ∀ t, dat.after 11 t = iblk V c 11 t) (t : Fin cfg2.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input 12's current staging buffer holds its tile at every grid point, fetched there or not. -/
theorem before_12_of {c : Dev nD} (dat : Dat τ (Elt F) Unit ℕ (UR sig nD τ) ℕ cfg2 c) (hA : dat.A 12 = V c (Pipeline.arrRef spec2 12))
    (hafter : ∀ t, dat.after 12 t = iblk V c 12 t) (t : Fin cfg2.N) (d) : dat.before 12 t d = iblk V c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input 13's current staging buffer holds its tile at every grid point, fetched there or not. -/
theorem before_13_of {c : Dev nD} (dat : Dat τ (Elt F) Unit ℕ (UR sig nD τ) ℕ cfg2 c) (hA : dat.A 13 = V c (Pipeline.arrRef spec2 13))
    (hafter : ∀ t, dat.after 13 t = iblk V c 13 t) (t : Fin cfg2.N) (d) : dat.before 13 t d = iblk V c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
end Blocks

end Cert.Kernel.Gen.Layer2

end
-- ==== Proof.BitsLayer2First.lean ====
/-
  Layer 3's kernel body at one kind of grid point, run on whole staging memrefs.
  THE FIRST STEP (j = 0): both accumulators, found at anything, are zeroed and then take this tile's sums; the outputs'
  buffers are not touched.
  The lists of stored pieces each buffer ends with are found by running the body.
-/
import proofs.«110946_j38972533244288_1_alg».proof.Proof.BitsLayer2Base

set_option maxRecDepth 16384

noncomputable section

namespace Cert.Kernel.Gen.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at such a point, from the inputs' tiles (and what it finds in the accumulators), to the continuation holding the inputs
    as they were and every buffer it stored into with its pieces written. -/
noncomputable def stepFirst (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) :
    Σ' (LS0 : List (View.Piece (Elt F) S128x128 .f32)), { LS1 : List (View.Piece (Elt F) S128x3 .f32) //
      ∀ (xi14 : Vec F S128x128 .f32) (xi15 : Vec F S128x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ owns (c : Thread nD τ) arg17 fullShare xi15 ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ owns (c : Thread nD τ) arg17 fullShare xi15 ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc2__layer_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun xi14 xi15 E K => ?run⟩
  case run =>
    simp only [cc2__layer_kernel_eq_skeleton]; unfold cc2__layer_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [HS0]; · iexists _; iexact HS0
    iexists _; iexact HS1

end Cert.Kernel.Gen.Layer2

end
-- ==== Proof.BitsLayer2Mid.lean ====
/-
  Layer 3's kernel body at one kind of grid point, run on whole staging memrefs.
  A MIDDLE STEP (0 < j < 5): both accumulators take this tile's sums on top of what the step before left; the outputs'
  buffers are not touched.
  The lists of stored pieces each buffer ends with are found by running the body.
-/
import proofs.«110946_j38972533244288_1_alg».proof.Proof.BitsLayer2First

set_option maxRecDepth 16384

noncomputable section

namespace Cert.Kernel.Gen.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at such a point, from the inputs' tiles (and what it finds in the accumulators), to the continuation holding the inputs
    as they were and every buffer it stored into with its pieces written. -/
noncomputable def stepMid (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) :
    Σ' (LS0 : List (View.Piece (Elt F) S128x128 .f32)), { LS1 : List (View.Piece (Elt F) S128x3 .f32) //
      ∀ (xi14 : Vec F S128x128 .f32) (xi15 : Vec F S128x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ owns (c : Thread nD τ) arg17 fullShare xi15 ∗ owns (c : Thread nD τ) arg18 fullShare xs0 ∗ owns (c : Thread nD τ) arg19 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ owns (c : Thread nD τ) arg17 fullShare xi15 ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc2__layer_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun xi14 xi15 E K => ?run⟩
  case run =>
    simp only [cc2__layer_kernel_eq_skeleton]; unfold cc2__layer_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hfs0; obtain rfl := harg19.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [HS0]; · iexists _; iexact HS0
    iexists _; iexact HS1

end Cert.Kernel.Gen.Layer2

end
-- ==== Proof.BitsLayer2Last.lean ====
/-
  Layer 3's kernel body at one kind of grid point, run on whole staging memrefs.
  THE LAST STEP (j = 5): both accumulators take this tile's sums; then the message sum is scaled by 1/768, multiplied by
  the second weight matrix, biased and added to the receiving nodes' features, and the coordinate sum is scaled by
  1/768 and added to their coordinates: each output's buffer is stored whole.
  The lists of stored pieces each buffer ends with are found by running the body.
-/
import proofs.«110946_j38972533244288_1_alg».proof.Proof.BitsLayer2Mid

set_option maxRecDepth 16384

noncomputable section

namespace Cert.Kernel.Gen.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at such a point, from the inputs' tiles (and what it finds in the accumulators), to the continuation holding the inputs
    as they were and every buffer it stored into with its pieces written. -/
noncomputable def stepLast (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) :
    Σ' (L14 : List (View.Piece (Elt F) S128x128 .f32)) (L15 : List (View.Piece (Elt F) S128x3 .f32)) (LS0 : List (View.Piece (Elt F) S128x128 .f32)), { LS1 : List (View.Piece (Elt F) S128x3 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ owns (c : Thread nD τ) arg18 fullShare xs0 ∗ owns (c : Thread nD τ) arg19 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc2__layer_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun E K => ?run⟩
  case run =>
    simp only [cc2__layer_kernel_eq_skeleton]; unfold cc2__layer_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg18.eq_unread hfs0; obtain rfl := harg19.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [H15]; · iexists _; iexact H15
    isplitl [HS0]; · iexists _; iexact HS0
    iexists _; iexact HS1

end Cert.Kernel.Gen.Layer2

end
-- ==== Proof.BitsLayer2Data.lean ====
/-
  Layer 3's kernel over its 36 grid points: what the two accumulators and the two outputs' buffers hold after each point
  (a recursion over the points: zeroed and refilled at j = 0, added to at 0 < j < 5, added to and read out at j = 5), the
  region's invariant carrying the accumulators from one point to the next, the pipeline's proof data at any contents `V`
  of the arrays at the region's entry, and the body's obligation at every point.
-/
import proofs.«110946_j38972533244288_1_alg».proof.Proof.BitsLayer2Last

set_option maxRecDepth 16384

noncomputable section

namespace Cert.Kernel.Gen.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each kind of step leaves: its stored pieces cover each buffer it stores into -/
theorem cover_accH_First (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (y : S128x128.Idx) :
    ∃ pc ∈ (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).1, y ∈ pc.1.set :=
  View.cover_of_tiledL (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).1 S128x128.size (by sl_kernel_rfl) y
/-- Its contents then: the pieces read back. -/
def accH_First (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) : Vec F S128x128 .f32 :=
  viewAccH.read (Elt F) (viewAccH.writes (Elt F) viewAccH.junk (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).1)
theorem cover_accC_First (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (y : S128x3.Idx) :
    ∃ pc ∈ (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).2.1, y ∈ pc.1.set :=
  View.cover_of_tiledL (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).2.1 S128x3.size (by sl_kernel_rfl) y
/-- Its contents then: the pieces read back. -/
def accC_First (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) : Vec F S128x3 .f32 :=
  viewAccC.read (Elt F) (viewAccC.writes (Elt F) viewAccC.junk (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).2.1)
theorem cover_accH_Mid (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x128.Idx) :
    ∃ pc ∈ (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1, y ∈ pc.1.set :=
  View.cover_of_tiledL (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1 S128x128.size (by sl_kernel_rfl) y
/-- Its contents then: the pieces read back. -/
def accH_Mid (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x128 .f32 :=
  viewAccH.read (Elt F) (viewAccH.writes (Elt F) viewAccH.junk (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1)
theorem cover_accC_Mid (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x3.Idx) :
    ∃ pc ∈ (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1, y ∈ pc.1.set :=
  View.cover_of_tiledL (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1 S128x3.size (by sl_kernel_rfl) y
/-- Its contents then: the pieces read back. -/
def accC_Mid (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x3 .f32 :=
  viewAccC.read (Elt F) (viewAccC.writes (Elt F) viewAccC.junk (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1)
theorem cover_outH_Last (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x128.Idx) :
    ∃ pc ∈ (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1, y ∈ pc.1.set :=
  View.cover_of_tiledL (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1 S128x128.size (by sl_kernel_rfl) y
/-- Its contents then: the pieces read back. -/
def outH_Last (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x128 .f32 :=
  viewH.read (Elt F) (viewH.writes (Elt F) viewH.junk (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1)
theorem cover_outC_Last (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x3.Idx) :
    ∃ pc ∈ (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1, y ∈ pc.1.set :=
  View.cover_of_tiledL (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1 S128x3.size (by sl_kernel_rfl) y
/-- Its contents then: the pieces read back. -/
def outC_Last (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x3 .f32 :=
  viewC.read (Elt F) (viewC.writes (Elt F) viewC.junk (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1)
theorem cover_accH_Last (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x128.Idx) :
    ∃ pc ∈ (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.1, y ∈ pc.1.set :=
  View.cover_of_tiledL (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.1 S128x128.size (by sl_kernel_rfl) y
/-- Its contents then: the pieces read back. -/
def accH_Last (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x128 .f32 :=
  viewAccH.read (Elt F) (viewAccH.writes (Elt F) viewAccH.junk (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.1)
theorem cover_accC_Last (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x3.Idx) :
    ∃ pc ∈ (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.2.1, y ∈ pc.1.set :=
  View.cover_of_tiledL (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.2.1 S128x3.size (by sl_kernel_rfl) y
/-- Its contents then: the pieces read back. -/
def accC_Last (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x3 .f32 :=
  viewAccC.read (Elt F) (viewAccC.writes (Elt F) viewAccC.junk (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.2.1)

section Data
variable (V : (c : Dev nD) → (b : Ref sig .tc) → Buf (Elt F) ((c : Thread nD τ).loc b))

/-! ## The state after each grid point -/

/-- Placeholders for the outputs' buffers at the points that do not touch them (nothing reads them: at those points the
    buffers are neither written back nor stated). -/
abbrev idleH : Vec F S128x128 .f32 := viewH.read (Elt F) viewH.junk
abbrev idleC : Vec F S128x3 .f32 := viewC.read (Elt F) viewC.junk

/-- THE ACCUMULATION: after the body at position `n`, the two outputs' buffers and the two accumulators. -/
def stateAt (c : Dev nD) : (n : ℕ) → n < cfg2.N → Vec F S128x128 .f32 × Vec F S128x3 .f32 × Vec F S128x128 .f32 × Vec F S128x3 .f32
  | 0, hn => (idleH, idleC,
      accH_First c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) (ms_10 ⟨0, hn⟩) (hs_10 ⟨0, hn⟩) (ms_11 ⟨0, hn⟩) (hs_11 ⟨0, hn⟩) (ms_12 ⟨0, hn⟩) (hs_12 ⟨0, hn⟩) (ms_13 ⟨0, hn⟩) (hs_13 ⟨0, hn⟩) (ms_14 ⟨0, hn⟩) (hs_14 ⟨0, hn⟩) (ms_15 ⟨0, hn⟩) (hs_15 ⟨0, hn⟩) accH (Memref.isWhole_whole _) accC (Memref.isWhole_whole _) ((isFirst_iff ⟨0, hn⟩).mpr (Nat.zero_mod _)) (fun h => (fun h' => by (try dsimp only at h'); omega) ((isLast_iff ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩) (iblk V c 10 ⟨0, hn⟩) (iblk V c 11 ⟨0, hn⟩) (iblk V c 12 ⟨0, hn⟩) (iblk V c 13 ⟨0, hn⟩),
      accC_First c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) (ms_10 ⟨0, hn⟩) (hs_10 ⟨0, hn⟩) (ms_11 ⟨0, hn⟩) (hs_11 ⟨0, hn⟩) (ms_12 ⟨0, hn⟩) (hs_12 ⟨0, hn⟩) (ms_13 ⟨0, hn⟩) (hs_13 ⟨0, hn⟩) (ms_14 ⟨0, hn⟩) (hs_14 ⟨0, hn⟩) (ms_15 ⟨0, hn⟩) (hs_15 ⟨0, hn⟩) accH (Memref.isWhole_whole _) accC (Memref.isWhole_whole _) ((isFirst_iff ⟨0, hn⟩).mpr (Nat.zero_mod _)) (fun h => (fun h' => by (try dsimp only at h'); omega) ((isLast_iff ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩) (iblk V c 10 ⟨0, hn⟩) (iblk V c 11 ⟨0, hn⟩) (iblk V c 12 ⟨0, hn⟩) (iblk V c 13 ⟨0, hn⟩))
  | n + 1, hn =>
    if h0 : (n + 1) % 6 = 0 then
      (idleH, idleC,
        accH_First c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) ((isFirst_iff ⟨n + 1, hn⟩).mpr h0) (fun h => (fun h' => by (try dsimp only at h'); omega) ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩),
        accC_First c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) ((isFirst_iff ⟨n + 1, hn⟩).mpr h0) (fun h => (fun h' => by (try dsimp only at h'); omega) ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩))
    else if h1 : (n + 1) % 6 = 5 then
      (outH_Last c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2,
        outC_Last c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2,
        accH_Last c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2,
        accC_Last c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2)
    else
      (idleH, idleC,
        accH_Mid c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2,
        accC_Mid c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2)

/-- The point before `t`, when `t` is not the first. -/
abbrev prevLt (t : Fin cfg2.N) : t.val - 1 < cfg2.N := Nat.lt_of_le_of_lt (Nat.sub_le _ _) t.isLt

theorem stateAt_first (c : Dev nD) (t : Fin cfg2.N) (h0 : t.val % 6 = 0) :
    stateAt V c t.val t.isLt = (idleH, idleC,
      accH_First c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) ((isFirst_iff t).mpr h0) (fun h => (fun h' => by omega) ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t),
      accC_First c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) ((isFirst_iff t).mpr h0) (fun h => (fun h' => by omega) ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t)) := by
  obtain ⟨n, hn⟩ := t
  cases n with
  | zero => exact rfl
  | succ n => exact (dif_pos h0).trans rfl

theorem stateAt_mid (c : Dev nD) (t : Fin cfg2.N) (h0 : ¬t.val % 6 = 0) (h1 : ¬t.val % 6 = 5) :
    stateAt V c t.val t.isLt = (idleH, idleC,
      accH_Mid c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) (fun h => h1 ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2,
      accC_Mid c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) (fun h => h1 ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2) := by
  obtain ⟨n, hn⟩ := t
  cases n with
  | zero => exact absurd (Nat.zero_mod _) h0
  | succ n => exact (dif_neg h0).trans ((dif_neg h1).trans rfl)

theorem stateAt_last (c : Dev nD) (t : Fin cfg2.N) (h0 : ¬t.val % 6 = 0) (h1 : t.val % 6 = 5) :
    stateAt V c t.val t.isLt = (
      outH_Last c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2,
      outC_Last c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2,
      accH_Last c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2,
      accC_Last c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2) := by
  obtain ⟨n, hn⟩ := t
  cases n with
  | zero => exact absurd (Nat.zero_mod _) h0
  | succ n => exact (dif_neg h0).trans ((dif_pos h1).trans rfl)

/-! ## The region's invariant: the accumulators carried from point to point -/

def PhiS (c : Dev nD) : (n : ℕ) → n ≤ cfg2.N → sProp 𝕄
  | 0, _ => Pipeline.ΦA spec2 c
  | n + 1, hn => iprop(iprop(iprop(owns (c : Thread nD τ) accH fullShare ((stateAt V c n hn).2.2.1) ∗ owns (c : Thread nD τ) accC fullShare ((stateAt V c n hn).2.2.2)) ∗ others c) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(iprop(owns (c : Thread nD τ) accH fullShare ((stateAt V c n hn).2.2.1) ∗ owns (c : Thread nD τ) accC fullShare ((stateAt V c n hn).2.2.2)) ∗ others c) ∗ (∃ r, prngReg c r)) := rfl
theorem PhiS_pos (c : Dev nD) (n : ℕ) (h : n ≤ cfg2.N) (hz : n ≠ 0) :
    PhiS V c n h = iprop(iprop(iprop(owns (c : Thread nD τ) accH fullShare ((stateAt V c (n - 1) (by omega)).2.2.1) ∗ owns (c : Thread nD τ) accC fullShare ((stateAt V c (n - 1) (by omega)).2.2.2)) ∗ others c) ∗ (∃ r, prngReg c r)) := by
  cases n with
  | zero => exact absurd rfl hz
  | succ n => rfl

/-! ## The pipeline's proof data -/

/-- The arrays as the region finds them; after the body at a point each input's buffer at its tile, each output's at the state's
    component; the invariant above; the two node-feature windows and the two coordinate windows each hold half of their one
    array, every other input its array whole; nothing owed. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => (stateAt V c t.val t.isLt).1
    | ⟨15, _⟩ => (stateAt V c t.val t.isLt).2.1
    | ⟨_ + 16, h⟩ => absurd h (Nat.not_lt.2 (Nat.le_add_left _ _))
  Φ t := PhiS V c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨_ + 16, h⟩ => absurd h (Nat.not_lt.2 (Nat.le_add_left _ _))
  owed _ := 0

theorem A_eq (c : Dev nD) (w : Fin cfg2.W) : (dat V c).A w = V c (Pipeline.arrRef spec2 w) := by
  dsimp only [dat]
theorem PhiS_castSucc (c : Dev nD) (t : Fin cfg2.N) :
    (dat V c).Φ t.castSucc = PhiS V c t.val (Nat.le_of_lt t.isLt) := by
  dsimp only [dat]; simp only [Fin.coe_castSucc]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = iblk V c 6 t := by dsimp only [dat]
theorem after_7 (c : Dev nD) (t : Fin cfg2.N) : (dat V c).after 7 t = iblk V c 7 t := by dsimp only [dat]
theorem after_8 (c : Dev nD) (t : Fin cfg2.N) : (dat V c).after 8 t = iblk V c 8 t := by dsimp only [dat]
theorem after_9 (c : Dev nD) (t : Fin cfg2.N) : (dat V c).after 9 t = iblk V c 9 t := by dsimp only [dat]
theorem after_10 (c : Dev nD) (t : Fin cfg2.N) : (dat V c).after 10 t = iblk V c 10 t := by dsimp only [dat]
theorem after_11 (c : Dev nD) (t : Fin cfg2.N) : (dat V c).after 11 t = iblk V c 11 t := by dsimp only [dat]
theorem after_12 (c : Dev nD) (t : Fin cfg2.N) : (dat V c).after 12 t = iblk V c 12 t := by dsimp only [dat]
theorem after_13 (c : Dev nD) (t : Fin cfg2.N) : (dat V c).after 13 t = iblk V c 13 t := by dsimp only [dat]
theorem after_14 (c : Dev nD) (t : Fin cfg2.N) : (dat V c).after 14 t = (stateAt V c t.val t.isLt).1 := by dsimp only [dat]
theorem after_15 (c : Dev nD) (t : Fin cfg2.N) : (dat V c).after 15 t = (stateAt V c t.val t.isLt).2.1 := by dsimp only [dat]
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d
theorem before_5 (c : Dev nD) (t : Fin cfg2.N) (d) : (dat V c).before 5 t d = iblk V c 5 t :=
  before_5_of V (dat V c) (A_eq V c 5) (after_5 V c) t d
theorem before_6 (c : Dev nD) (t : Fin cfg2.N) (d) : (dat V c).before 6 t d = iblk V c 6 t :=
  before_6_of V (dat V c) (A_eq V c 6) (after_6 V c) t d
theorem before_7 (c : Dev nD) (t : Fin cfg2.N) (d) : (dat V c).before 7 t d = iblk V c 7 t :=
  before_7_of V (dat V c) (A_eq V c 7) (after_7 V c) t d
theorem before_8 (c : Dev nD) (t : Fin cfg2.N) (d) : (dat V c).before 8 t d = iblk V c 8 t :=
  before_8_of V (dat V c) (A_eq V c 8) (after_8 V c) t d
theorem before_9 (c : Dev nD) (t : Fin cfg2.N) (d) : (dat V c).before 9 t d = iblk V c 9 t :=
  before_9_of V (dat V c) (A_eq V c 9) (after_9 V c) t d
theorem before_10 (c : Dev nD) (t : Fin cfg2.N) (d) : (dat V c).before 10 t d = iblk V c 10 t :=
  before_10_of V (dat V c) (A_eq V c 10) (after_10 V c) t d
theorem before_11 (c : Dev nD) (t : Fin cfg2.N) (d) : (dat V c).before 11 t d = iblk V c 11 t :=
  before_11_of V (dat V c) (A_eq V c 11) (after_11 V c) t d
theorem before_12 (c : Dev nD) (t : Fin cfg2.N) (d) : (dat V c).before 12 t d = iblk V c 12 t :=
  before_12_of V (dat V c) (A_eq V c 12) (after_12 V c) t d
theorem before_13 (c : Dev nD) (t : Fin cfg2.N) (d) : (dat V c).before 13 t d = iblk V c 13 t :=
  before_13_of V (dat V c) (A_eq V c 13) (after_13 V c) t d

/-! ## The body's obligation at a grid point -/

def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d))
    ∗ (∃ d, owns (c : Thread nD τ) (ms_8 t) fullShare ((dat V c).before 8 t d))
    ∗ (∃ d, owns (c : Thread nD τ) (ms_9 t) fullShare ((dat V c).before 9 t d))
    ∗ (∃ d, owns (c : Thread nD τ) (ms_10 t) fullShare ((dat V c).before 10 t d))
    ∗ (∃ d, owns (c : Thread nD τ) (ms_11 t) fullShare ((dat V c).before 11 t d))
    ∗ (∃ d, owns (c : Thread nD τ) (ms_12 t) fullShare ((dat V c).before 12 t d))
    ∗ (∃ d, owns (c : Thread nD τ) (ms_13 t) fullShare ((dat V c).before 13 t d))
    ∗ (∃ d, owns (c : Thread nD τ) (ms_14 t) fullShare ((dat V c).before 14 t d))
    ∗ (∃ d, owns (c : Thread nD τ) (ms_15 t) fullShare ((dat V c).before 15 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t
    ∗ (dat V c).leavesExact 12 t
    ∗ (dat V c).leavesExact 13 t
    ∗ (dat V c).leavesExact 14 t
    ∗ (dat V c).leavesExact 15 t)

set_option maxHeartbeats 8000000 in
/-- The body at any point: the inputs' buffers hold their tiles; the point's position along the reduction axis says which kind of
    step it is; the invariant hands the step the accumulators at what the point before left (at anything before the first
    point) and takes them back at this point's contents. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6, before_7, before_8, before_9, before_10, before_11, before_12, before_13]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [live_0], after_0]
  rw [show (dat V c).leavesExact 1 t = owns (c : Thread nD τ) (ms_1 t) fullShare ((dat V c).after 1 t) from by
    unfold Dat.leavesExact; rw [live_1], after_1]
  rw [show (dat V c).leavesExact 2 t = owns (c : Thread nD τ) (ms_2 t) fullShare ((dat V c).after 2 t) from by
    unfold Dat.leavesExact; rw [live_2], after_2]
  rw [show (dat V c).leavesExact 3 t = owns (c : Thread nD τ) (ms_3 t) fullShare ((dat V c).after 3 t) from by
    unfold Dat.leavesExact; rw [live_3], after_3]
  rw [show (dat V c).leavesExact 4 t = owns (c : Thread nD τ) (ms_4 t) fullShare ((dat V c).after 4 t) from by
    unfold Dat.leavesExact; rw [live_4], after_4]
  rw [show (dat V c).leavesExact 5 t = owns (c : Thread nD τ) (ms_5 t) fullShare ((dat V c).after 5 t) from by
    unfold Dat.leavesExact; rw [live_5], after_5]
  rw [show (dat V c).leavesExact 6 t = owns (c : Thread nD τ) (ms_6 t) fullShare ((dat V c).after 6 t) from by
    unfold Dat.leavesExact; rw [live_6], after_6]
  rw [show (dat V c).leavesExact 7 t = owns (c : Thread nD τ) (ms_7 t) fullShare ((dat V c).after 7 t) from by
    unfold Dat.leavesExact; rw [live_7], after_7]
  rw [show (dat V c).leavesExact 8 t = owns (c : Thread nD τ) (ms_8 t) fullShare ((dat V c).after 8 t) from by
    unfold Dat.leavesExact; rw [live_8], after_8]
  rw [show (dat V c).leavesExact 9 t = owns (c : Thread nD τ) (ms_9 t) fullShare ((dat V c).after 9 t) from by
    unfold Dat.leavesExact; rw [live_9], after_9]
  rw [show (dat V c).leavesExact 10 t = owns (c : Thread nD τ) (ms_10 t) fullShare ((dat V c).after 10 t) from by
    unfold Dat.leavesExact; rw [live_10], after_10]
  rw [show (dat V c).leavesExact 11 t = owns (c : Thread nD τ) (ms_11 t) fullShare ((dat V c).after 11 t) from by
    unfold Dat.leavesExact; rw [live_11], after_11]
  rw [show (dat V c).leavesExact 12 t = owns (c : Thread nD τ) (ms_12 t) fullShare ((dat V c).after 12 t) from by
    unfold Dat.leavesExact; rw [live_12], after_12]
  rw [show (dat V c).leavesExact 13 t = owns (c : Thread nD τ) (ms_13 t) fullShare ((dat V c).after 13 t) from by
    unfold Dat.leavesExact; rw [live_13], after_13]
  have hN : t.val < 36 := lt_of_lt_of_eq t.isLt (show cfg2.N = 36 from N_2)
  by_cases h0 : t.val % 6 = 0
  · have hnl : ¬isLast (grid2.coords t) := fun h => (fun h' => by omega) ((isLast_iff t).mp h)
    rw [Dat.leavesExact_idle (dat V c) 14 t (idle_14 t hnl) (noFlush_14 t hnl)]
    rw [Dat.leavesExact_idle (dat V c) 15 t (idle_15 t hnl) (noFlush_15 t hnl)]
    rw [stateAt_first V c t h0]
    unfold accH_First accC_First; (try dsimp only)
    by_cases hz : t.val = 0
    · rw [PhiS_castSucc V c t, PhiS_zero V c _ _ hz, phiA_eq]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((stepFirst c (grid2.coords t) _ _ _ _ _ _ _ _ _ _ _ _ _ _ _ _ _ _ _ _ _ _ _ _ _ _ _ _ _ _ _ _ _ _ _ _ ((isFirst_iff t).mpr h0) (fun h => (fun h' => by omega) ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexact HS0
      isplitl [HS1]; · iexact HS1
      iintro ⟨H0, H1, H2, H3, H4, H5, H6, H7, H8, H9, H10, H11, H12, H13, H14, H15, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (cover_accH_First c _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover_accC_First c _ _ _ _ _ _ _ _ _ _ _ _ _ _ _ _ _ _ _ _ _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      iexists _; iexact H15
    · rw [PhiS_castSucc V c t, PhiS_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((stepFirst c (grid2.coords t) _ _ _ _ _ _ _ _ _ _ _ _ _ _ _ _ _ _ _ _ _ _ _ _ _ _ _ _ _ _ _ _ _ _ _ _ ((isFirst_iff t).mpr h0) (fun h => (fun h' => by omega) ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexists _; iexact HS0
      isplitl [HS1]; · iexists _; iexact HS1
      iintro ⟨H0, H1, H2, H3, H4, H5, H6, H7, H8, H9, H10, H11, H12, H13, H14, H15, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (cover_accH_First c _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover_accC_First c _ _ _ _ _ _ _ _ _ _ _ _ _ _ _ _ _ _ _ _ _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      iexists _; iexact H15
  · have hz : t.val ≠ 0 := fun h => h0 (by rw [h])
    by_cases h1 : t.val % 6 = 5
    · rw [show (dat V c).leavesExact 14 t = owns (c : Thread nD τ) (ms_14 t) fullShare ((dat V c).after 14 t) from by
        unfold Dat.leavesExact; rw [live_14 t ((isLast_iff t).mpr h1)], after_14]
      rw [show (dat V c).leavesExact 15 t = owns (c : Thread nD τ) (ms_15 t) fullShare ((dat V c).after 15 t) from by
        unfold Dat.leavesExact; rw [live_15 t ((isLast_iff t).mpr h1)], after_15]
      rw [stateAt_last V c t h0 h1]
      unfold outH_Last outC_Last accH_Last accC_Last; (try dsimp only)
      rw [PhiS_castSucc V c t, PhiS_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((stepLast c (grid2.coords t) _ _ _ _ _ _ _ _ _ _ _ _ _ _ _ _ _ _ _ _ _ _ _ _ _ _ _ _ _ _ _ _ _ _ _ _ (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [HS0]; · iexact HS0
      isplitl [HS1]; · iexact HS1
      iintro ⟨H0, H1, H2, H3, H4, H5, H6, H7, H8, H9, H10, H11, H12, H13, ⟨%e14, H14⟩, ⟨%e15, H15⟩, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (cover_accH_Last c _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover_accC_Last c _ _ _ _ _ _ _ _ _ _ _ _ _ _ _ _ _ _ _ _ _ _ _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; exact View.read_writes_of_cover _ _ _ _ _ (cover_outH_Last c _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H15
      ipureintro; exact View.read_writes_of_cover _ _ _ _ _ (cover_outC_Last c _ _ _ _ _ _ _ _ _ _ _ _ _ _ _ _ _ _ _ _ _ _ _ _ _ _ _ _ _ _ _ _ _ _ _ _ _ _ _ _ _ _ _ _ _ _ _ _ _ _ _ _ _ _ _)
    · have hnl : ¬isLast (grid2.coords t) := fun h => h1 ((isLast_iff t).mp h)
      rw [Dat.leavesExact_idle (dat V c) 14 t (idle_14 t hnl) (noFlush_14 t hnl)]
      rw [Dat.leavesExact_idle (dat V c) 15 t (idle_15 t hnl) (noFlush_15 t hnl)]
      rw [stateAt_mid V c t h0 h1]
      unfold accH_Mid accC_Mid; (try dsimp only)
      rw [PhiS_castSucc V c t, PhiS_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((stepMid c (grid2.coords t) _ _ _ _ _ _ _ _ _ _ _ _ _ _ _ _ _ _ _ _ _ _ _ _ _ _ _ _ _ _ _ _ _ _ _ _ (fun h => h0 ((isFirst_iff t).mp h)) (fun h => h1 ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexact HS0
      isplitl [HS1]; · iexact HS1
      iintro ⟨H0, H1, H2, H3, H4, H5, H6, H7, H8, H9, H10, H11, H12, H13, H14, H15, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (cover_accH_Mid c _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover_accC_Mid c _ _ _ _ _ _ _ _ _ _ _ _ _ _ _ _ _ _ _ _ _ _ _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      iexists _; iexact H15

/-- The library's body obligation, at every point. -/
theorem body_obligation (c : Dev nD) : BodyObligation (dat (F := F) V c) (defs₀ (F := F)) Variants.none () Set.univ := fun t => by
  rw [bigSep_W2, bigSep_W2]
  exact sound_body V c t

/-- Before the first point the invariant is the class's. -/
theorem phi_in (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After the last point it gives the class's back: the accumulators' named contents are forgotten. -/
theorem phi_out (c : Dev nD) : (dat V c).Φ (Fin.last cfg2.N) ⊢ Pipeline.ΦA spec2 c := by
  have ht : (Fin.last cfg2.N).val ≠ 0 := by rw [Fin.val_last]; have : cfg2.N = 36 := N_2; omega
  rw [show (dat V c).Φ (Fin.last cfg2.N) = PhiS V c (Fin.last cfg2.N).val (Nat.le_of_lt_succ (Fin.last cfg2.N).isLt) from rfl, PhiS_pos V c _ _ ht, phiA_eq]
  iintro ⟨⟨⟨HS0, HS1⟩, Hoth⟩, Hg⟩
  isplitl [HS0 HS1 Hoth]
  · isplitl [HS0 HS1]
    · isplitl [HS0]
      · iexists _; iexact HS0
      iexists _; iexact HS1
    iexact Hoth
  iexact Hg

end Data

end Cert.Kernel.Gen.Layer2

end
-- ==== Proof.BitsLayer2Deal.lean ====
/-
  Layer 3's region and the arrays it works on. The node features are staged through two windows (one by the receiving
  tile, one by the sending tile) and so are the coordinates: each such pair of windows holds its one array together, half
  a share each. Entering the region the fourteen distinct arrays, held whole, are dealt to the sixteen windows; leaving it
  the halves are joined again, the ten weight arrays are as they were and the two output arrays hold what the pipeline's
  write-backs left.
-/
import proofs.«110946_j38972533244288_1_alg».proof.Proof.BitsLayer2Data

set_option maxRecDepth 16384

noncomputable section

namespace Cert.Kernel.Gen.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Deal
variable (V : (c : Dev nD) → (b : Ref sig .tc) → Buf (Elt F) ((c : Thread nD τ).loc b))

/-- The distinct arrays behind the sixteen windows. -/
theorem arrRefs_eq : Finset.univ.image (Pipeline.arrRef spec2) = ([main_v49_0, main_v49_1, main_v51, main_v53, main_v55, main_v56, main_v58, main_v59, main_v61, main_v63, main_v65, main_v66, main_v67_0, main_v67_1] : List (Ref sig .tc)).toFinset := by decide

/-- The windows' arrays, each a whole buffer, held buffer by buffer at the window's share. -/
theorem arrays_shares (c : Dev nD) (G : (w : Fin cfg2.W) → Buf (Elt F) ((cfg2.spec w).arr.view.loc (c.tc : Thread nD τ))) :
    ((dat V c).arrays G : sProp 𝕄)
      = bigSep Finset.univ fun w => (((c.tc : Thread nD τ).loc (Pipeline.arrRef cfg2.spec w)) ↦{(dat V c).share w} G w : sProp 𝕄) := by
  unfold Dat.arrays
  exact Idealize.SL.BI.bigSep_congr fun w _ => by rw [(arr_whole2 w).set_eq_univ]

/-- A buffer held at the full share is held twice over at its two halves, and back. -/
theorem halves (ℓ : Loc nD τ sig) (f : Buf (Elt F) ℓ) :
    (ℓ ↦{fullShare} f : sProp 𝕄) ⊢ iprop((ℓ ↦{fullShare.left} f) ∗ (ℓ ↦{fullShare.right} f)) :=
  (pointsTo_share (PosShare.mem_left_op_right fullShare)).1
theorem whole (ℓ : Loc nD τ sig) (f : Buf (Elt F) ℓ) :
    iprop((ℓ ↦{fullShare.left} f) ∗ (ℓ ↦{fullShare.right} f)) ⊢ (ℓ ↦{fullShare} f : sProp 𝕄) :=
  (pointsTo_share (PosShare.mem_left_op_right fullShare)).2

/-- The fourteen arrays one by one. -/
theorem arrBufs_chain (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      = iprop((((c.tc : Thread nD τ).loc main_v49_0) ↦{fullShare} W main_v49_0) ∗ (((c.tc : Thread nD τ).loc main_v49_1) ↦{fullShare} W main_v49_1) ∗ (((c.tc : Thread nD τ).loc main_v51) ↦{fullShare} W main_v51) ∗ (((c.tc : Thread nD τ).loc main_v53) ↦{fullShare} W main_v53) ∗ (((c.tc : Thread nD τ).loc main_v55) ↦{fullShare} W main_v55) ∗ (((c.tc : Thread nD τ).loc main_v56) ↦{fullShare} W main_v56) ∗ (((c.tc : Thread nD τ).loc main_v58) ↦{fullShare} W main_v58) ∗ (((c.tc : Thread nD τ).loc main_v59) ↦{fullShare} W main_v59) ∗ (((c.tc : Thread nD τ).loc main_v61) ↦{fullShare} W main_v61) ∗ (((c.tc : Thread nD τ).loc main_v63) ↦{fullShare} W main_v63) ∗ (((c.tc : Thread nD τ).loc main_v65) ↦{fullShare} W main_v65) ∗ (((c.tc : Thread nD τ).loc main_v66) ↦{fullShare} W main_v66) ∗ (((c.tc : Thread nD τ).loc main_v67_0) ↦{fullShare} W main_v67_0) ∗ (((c.tc : Thread nD τ).loc main_v67_1) ↦{fullShare} W main_v67_1)) := by
  unfold Pipeline.arrBufs
  exact Idealize.SL.BI.bigSep_eq_bigSepL_of_eq _ arrRefs_eq (by decide) _

set_option maxHeartbeats 4000000 in
/-- ENTRY: the fourteen arrays at the entry contents, dealt to the sixteen windows. -/
theorem deal (c : Dev nD) :
    (Pipeline.arrBufs (Ix := Unit) (Name := ℕ) (U := UR sig nD τ) (Lvl := ℕ) spec2 c (V c) : sProp 𝕄)
      ⊢ (dat V c).arrays ((dat V c).arrAt · 0) := by
  rw [arrays_shares, bigSep_W2, arrBufs_chain]
  iintro ⟨H_main_v49_0, H_main_v49_1, H_main_v51, H_main_v53, H_main_v55, H_main_v56, H_main_v58, H_main_v59, H_main_v61, H_main_v63, H_main_v65, H_main_v66, H_main_v67_0, H_main_v67_1⟩
  ihave Hh := halves _ _ $$ H_main_v49_0
  icases Hh with ⟨Hhl, Hhr⟩
  ihave Hc := halves _ _ $$ H_main_v49_1
  icases Hc with ⟨Hcl, Hcr⟩
  isplitl [Hhl]; · iexact Hhl
  isplitl [Hhr]; · iexact Hhr
  isplitl [Hcl]; · iexact Hcl
  isplitl [Hcr]; · iexact Hcr
  isplitl [H_main_v51]; · iexact H_main_v51
  isplitl [H_main_v53]; · iexact H_main_v53
  isplitl [H_main_v55]; · iexact H_main_v55
  isplitl [H_main_v56]; · iexact H_main_v56
  isplitl [H_main_v58]; · iexact H_main_v58
  isplitl [H_main_v59]; · iexact H_main_v59
  isplitl [H_main_v61]; · iexact H_main_v61
  isplitl [H_main_v63]; · iexact H_main_v63
  isplitl [H_main_v65]; · iexact H_main_v65
  isplitl [H_main_v66]; · iexact H_main_v66
  isplitl [H_main_v67_0]; · iexact H_main_v67_0
  iexact H_main_v67_1

/-- An input's array is never written: after the last grid point it is as the region found it. -/
theorem input_kept (c : Dev nD) (w : Fin cfg2.W) (hw : (cfg2.win w).isOut = false) (q : PosShare TreeShare) :
    ((((c.tc : Thread nD τ).loc (Pipeline.arrRef cfg2.spec w)) ↦{q} (dat V c).arrAt w cfg2.N : sProp 𝕄))
      ⊢ (((c.tc : Thread nD τ).loc (Pipeline.arrRef cfg2.spec w)) ↦{q} (dat V c).A w) :=
  Entails.of_eq (by rw [(dat V c).arrAt_in w hw])

set_option maxHeartbeats 8000000 in
/-- EXIT: the windows' arrays after the last grid point make the fourteen arrays at the exit contents `V'`: as at
    entry but for the two outputs, which hold what the write-backs left. -/
theorem join (c : Dev nD) (V' : (b : Ref sig .tc) → Buf (Elt F) ((c : Thread nD τ).loc b))
    (hin : ∀ b, b ≠ main_v67_0 → b ≠ main_v67_1 → V' b = V c b)
    (hH : V' main_v67_0 = (dat V c).arrAt 14 cfg2.N) (hC : V' main_v67_1 = (dat V c).arrAt 15 cfg2.N) :
    ((dat V c).arrays ((dat V c).arrAt · cfg2.N) : sProp 𝕄)
      ⊢ Pipeline.arrBufs (Ix := Unit) (Name := ℕ) (U := UR sig nD τ) (Lvl := ℕ) spec2 c V' := by
  rw [arrays_shares, bigSep_W2, arrBufs_chain]
  rw [hin main_v49_0 (by decide) (by decide), hin main_v49_1 (by decide) (by decide), hin main_v51 (by decide) (by decide), hin main_v53 (by decide) (by decide), hin main_v55 (by decide) (by decide), hin main_v56 (by decide) (by decide), hin main_v58 (by decide) (by decide), hin main_v59 (by decide) (by decide), hin main_v61 (by decide) (by decide), hin main_v63 (by decide) (by decide), hin main_v65 (by decide) (by decide), hin main_v66 (by decide) (by decide), hH, hC]
  iintro ⟨W0, W1, W2, W3, W4, W5, W6, W7, W8, W9, W10, W11, W12, W13, W14, W15⟩
  ihave K0 := input_kept V c 0 rfl _ $$ W0
  ihave K1 := input_kept V c 1 rfl _ $$ W1
  ihave K2 := input_kept V c 2 rfl _ $$ W2
  ihave K3 := input_kept V c 3 rfl _ $$ W3
  ihave K4 := input_kept V c 4 rfl _ $$ W4
  ihave K5 := input_kept V c 5 rfl _ $$ W5
  ihave K6 := input_kept V c 6 rfl _ $$ W6
  ihave K7 := input_kept V c 7 rfl _ $$ W7
  ihave K8 := input_kept V c 8 rfl _ $$ W8
  ihave K9 := input_kept V c 9 rfl _ $$ W9
  ihave K10 := input_kept V c 10 rfl _ $$ W10
  ihave K11 := input_kept V c 11 rfl _ $$ W11
  ihave K12 := input_kept V c 12 rfl _ $$ W12
  ihave K13 := input_kept V c 13 rfl _ $$ W13
  isplitl [K0 K1]
  · iapply whole; isplitl [K0]; · iexact K0
    iexact K1
  isplitl [K2 K3]
  · iapply whole; isplitl [K2]; · iexact K2
    iexact K3
  isplitl [K4]; · iexact K4
  isplitl [K5]; · iexact K5
  isplitl [K6]; · iexact K6
  isplitl [K7]; · iexact K7
  isplitl [K8]; · iexact K8
  isplitl [K9]; · iexact K9
  isplitl [K10]; · iexact K10
  isplitl [K11]; · iexact K11
  isplitl [K12]; · iexact K12
  isplitl [K13]; · iexact K13
  isplitl [W14]; · iexact W14
  iexact W15

/-- A core's unscoped buffers are the buffers behind the windows' arrays and the rest. -/
theorem unscoped_split (c : Dev nD) (W : (b : Ref sig .tc) → Buf (Elt F) ((c : Thread nD τ).loc b)) :
    (unscopedBufs (Ix := Unit) (Name := ℕ) (U := UR sig nD τ) (Lvl := ℕ) c W : sProp 𝕄)
      = iprop((Pipeline.arrBufs spec2 c W : sProp 𝕄) ∗ Pipeline.unscopedRest spec2 c W) := by
  classical
  have hA : Finset.univ.image (Pipeline.arrRef spec2) ⊆ Finset.univ.filter fun b : Ref sig .tc => ¬ b.isScoped := by decide
  unfold unscopedBufs Pipeline.unscopedRest Pipeline.arrBufs
  rw [bigSep_sdiff_split hA]
  rfl

/-- The rest does not see a change of the two outputs' arrays. -/
theorem rest_congr (c : Dev nD) (W W' : (b : Ref sig .tc) → Buf (Elt F) ((c : Thread nD τ).loc b))
    (h : ∀ b, b ≠ main_v67_0 → b ≠ main_v67_1 → W' b = W b) :
    (Pipeline.unscopedRest (Ix := Unit) (Name := ℕ) (U := UR sig nD τ) (Lvl := ℕ) spec2 c W : sProp 𝕄) = Pipeline.unscopedRest spec2 c W' := by
  unfold Pipeline.unscopedRest
  refine Idealize.SL.BI.bigSep_congr fun b hb => ?_
  have hb' : b ∉ Finset.univ.image (Pipeline.arrRef spec2) := (Finset.mem_sdiff.mp hb).2
  rw [h b (fun e => hb' (by rw [e]; decide)) (fun e => hb' (by rw [e]; decide))]

end Deal

end Cert.Kernel.Gen.Layer2

end
-- ==== Proof.BitsFrame.lean ====
/-
  The whole program's frame: every weakly fair execution of @main terminates, faults nowhere and leaves the fourteen
  argument arrays as launched. @main is host operations, then the three layers' kernel regions with host operations
  between them, then the pooling and normalisation tail. Between two segments a core holds every unscoped buffer at
  contents named here: after a host stretch the stretch's fold of what came before, after a layer's region the same
  but for the layer's two output arrays, which hold what the pipeline's write-backs left. Each region is entered by
  dealing its fourteen arrays to its sixteen windows and left by joining them again; the rest is the generated
  conditional frame of the program.
-/
import proofs.«110946_j38972533244288_1_alg».proof.Proof.Gen.Kernel.Regions
import proofs.«110946_j38972533244288_1_alg».proof.Proof.BitsLayer0Deal
import proofs.«110946_j38972533244288_1_alg».proof.Proof.BitsLayer1Deal
import proofs.«110946_j38972533244288_1_alg».proof.Proof.BitsLayer2Deal
import Idealize.ShloMosaic.Lib.Pipeline.Frame

set_option maxRecDepth 16384

noncomputable section

namespace Cert.Kernel.Gen.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between segments -/

/-- A core's contents read at the TensorCore's references. -/
abbrev atTc (W : Dev nD → Valuation τ sig (Elt F)) : (c : Dev nD) → (b : Ref sig .tc) → Buf (Elt F) ((c : Thread nD τ).loc b) := fun c b => W c b

/-- Entering layer 1: the launch contents after the first host stretch. -/
abbrev U1 : Dev nD → Valuation τ sig (Elt F) := fun c => V1 m c
/-- Leaving layer 1: as entered, but for its two outputs. -/
def U2 : Dev nD → Valuation τ sig (Elt F) := fun c =>
  Function.update (Function.update (U1 m c) main_v31_0 ((Layer0.dat (atTc (U1 m)) c).arrAt 14 cfg0.N : Buf (Elt F) ((c : Thread nD τ).loc main_v31_0)))
    main_v31_1 ((Layer0.dat (atTc (U1 m)) c).arrAt 15 cfg0.N : Buf (Elt F) ((c : Thread nD τ).loc main_v31_1))
theorem U2_of (c : Dev nD) (r : Ref sig .tc) (h : r ∉ ([main_v31_0, main_v31_1] : List (Ref sig .tc))) : U2 m c r = U1 m c r := by
  simp only [U2, Function.update_of_ne (StableHlo.devRef_ne_of_ne (List.ne_of_not_mem_cons h) : (Proc.devRef .tc r : DevRef τ sig) ≠ Proc.devRef .tc main_v31_0), Function.update_of_ne (StableHlo.devRef_ne_of_ne (List.ne_of_not_mem_cons (List.not_mem_of_not_mem_cons h)) : (Proc.devRef .tc r : DevRef τ sig) ≠ Proc.devRef .tc main_v31_1)]
theorem U2_h (c : Dev nD) : U2 m c main_v31_0 = (Layer0.dat (atTc (U1 m)) c).arrAt 14 cfg0.N := by
  simp only [U2, Function.update_of_ne (StableHlo.devRef_ne_of_ne (by decide) : (Proc.devRef .tc main_v31_0 : DevRef τ sig) ≠ Proc.devRef .tc main_v31_1), Function.update_self]
theorem U2_c (c : Dev nD) : U2 m c main_v31_1 = (Layer0.dat (atTc (U1 m)) c).arrAt 15 cfg0.N := by
  simp only [U2, Function.update_self]
/-- Entering layer 2: after the host stretch between the two regions. -/
abbrev U3 : Dev nD → Valuation τ sig (Elt F) := fun c => StableHlo.after hostOps1 (U2 m c)
/-- Leaving layer 2: as entered, but for its two outputs. -/
def U4 : Dev nD → Valuation τ sig (Elt F) := fun c =>
  Function.update (Function.update (U3 m c) main_v49_0 ((Layer1.dat (atTc (U3 m)) c).arrAt 14 cfg1.N : Buf (Elt F) ((c : Thread nD τ).loc main_v49_0)))
    main_v49_1 ((Layer1.dat (atTc (U3 m)) c).arrAt 15 cfg1.N : Buf (Elt F) ((c : Thread nD τ).loc main_v49_1))
theorem U4_of (c : Dev nD) (r : Ref sig .tc) (h : r ∉ ([main_v49_0, main_v49_1] : List (Ref sig .tc))) : U4 m c r = U3 m c r := by
  simp only [U4, Function.update_of_ne (StableHlo.devRef_ne_of_ne (List.ne_of_not_mem_cons h) : (Proc.devRef .tc r : DevRef τ sig) ≠ Proc.devRef .tc main_v49_0), Function.update_of_ne (StableHlo.devRef_ne_of_ne (List.ne_of_not_mem_cons (List.not_mem_of_not_mem_cons h)) : (Proc.devRef .tc r : DevRef τ sig) ≠ Proc.devRef .tc main_v49_1)]
theorem U4_h (c : Dev nD) : U4 m c main_v49_0 = (Layer1.dat (atTc (U3 m)) c).arrAt 14 cfg1.N := by
  simp only [U4, Function.update_of_ne (StableHlo.devRef_ne_of_ne (by decide) : (Proc.devRef .tc main_v49_0 : DevRef τ sig) ≠ Proc.devRef .tc main_v49_1), Function.update_self]
theorem U4_c (c : Dev nD) : U4 m c main_v49_1 = (Layer1.dat (atTc (U3 m)) c).arrAt 15 cfg1.N := by
  simp only [U4, Function.update_self]
/-- Entering layer 3: after the host stretch between the two regions. -/
abbrev U5 : Dev nD → Valuation τ sig (Elt F) := fun c => StableHlo.after hostOps2 (U4 m c)
/-- Leaving layer 3: as entered, but for its two outputs. -/
def U6 : Dev nD → Valuation τ sig (Elt F) := fun c =>
  Function.update (Function.update (U5 m c) main_v67_0 ((Layer2.dat (atTc (U5 m)) c).arrAt 14 cfg2.N : Buf (Elt F) ((c : Thread nD τ).loc main_v67_0)))
    main_v67_1 ((Layer2.dat (atTc (U5 m)) c).arrAt 15 cfg2.N : Buf (Elt F) ((c : Thread nD τ).loc main_v67_1))
theorem U6_of (c : Dev nD) (r : Ref sig .tc) (h : r ∉ ([main_v67_0, main_v67_1] : List (Ref sig .tc))) : U6 m c r = U5 m c r := by
  simp only [U6, Function.update_of_ne (StableHlo.devRef_ne_of_ne (List.ne_of_not_mem_cons h) : (Proc.devRef .tc r : DevRef τ sig) ≠ Proc.devRef .tc main_v67_0), Function.update_of_ne (StableHlo.devRef_ne_of_ne (List.ne_of_not_mem_cons (List.not_mem_of_not_mem_cons h)) : (Proc.devRef .tc r : DevRef τ sig) ≠ Proc.devRef .tc main_v67_1)]
theorem U6_h (c : Dev nD) : U6 m c main_v67_0 = (Layer2.dat (atTc (U5 m)) c).arrAt 14 cfg2.N := by
  simp only [U6, Function.update_of_ne (StableHlo.devRef_ne_of_ne (by decide) : (Proc.devRef .tc main_v67_0 : DevRef τ sig) ≠ Proc.devRef .tc main_v67_1), Function.update_self]
theorem U6_c (c : Dev nD) : U6 m c main_v67_1 = (Layer2.dat (atTc (U5 m)) c).arrAt 15 cfg2.N := by
  simp only [U6, Function.update_self]

/-- What the regions leave, as the generated valuations read it. -/
def outs : Outs (F := F) := fun J r c =>
  match J with
  | 2 => U2 m c r
  | 4 => U4 m c r
  | 6 => U6 m c r
  | _ => U1 m c r

theorem hV2 (c : Dev nD) : V2 m (outs m) c = U2 m c := by
  show Function.update (Function.update (V1 m c) main_v31_0 (U2 m c main_v31_0)) main_v31_1 (U2 m c main_v31_1) = U2 m c
  rw [U2_h, U2_c]; rfl
theorem hV3 (c : Dev nD) : V3 m (outs m) c = U3 m c := by
  show StableHlo.after hostOps1 (V2 m (outs m) c) = _; rw [hV2]
theorem hV4 (c : Dev nD) : V4 m (outs m) c = U4 m c := by
  show Function.update (Function.update (V3 m (outs m) c) main_v49_0 (U4 m c main_v49_0)) main_v49_1 (U4 m c main_v49_1) = U4 m c
  rw [U4_h, U4_c, hV3]; rfl
theorem hV5 (c : Dev nD) : V5 m (outs m) c = U5 m c := by
  show StableHlo.after hostOps2 (V4 m (outs m) c) = _; rw [hV4]
theorem hV6 (c : Dev nD) : V6 m (outs m) c = U6 m c := by
  show Function.update (Function.update (V5 m (outs m) c) main_v67_0 (U6 m c main_v67_0)) main_v67_1 (U6 m c main_v67_1) = U6 m c
  rw [U6_h, U6_c, hV5]; rfl

/-! ## The proof data family and what rides beside the buffers -/

def pdats : (p : Fin 3) → (c : Dev nD) → Dat τ (Elt F) Unit ℕ (UR sig nD τ) ℕ (cfgs p) c
  | ⟨0, _⟩ => fun c => Layer0.dat (atTc (U1 m)) c
  | ⟨1, _⟩ => fun c => Layer1.dat (atTc (U3 m)) c
  | ⟨2, _⟩ => fun c => Layer2.dat (atTc (U5 m)) c

abbrev L : GSem nD τ sig → Finset Unit := fun _ => ∅
abbrev lv : GSem nD τ sig → Unit → ℕ := fun _ _ => 0
/-- The core's generator register at some state and its dues, at nothing. -/
abbrev R (c : Dev nD) : sProp 𝕄 := iprop((∃ r, prngReg c r) ∗ ∃ W, owes (c : Thread nD τ) (0 : CellTallies nD τ sig Unit) W)

/-! ## The three regions -/

set_option backward.isDefEq.respectTransparency.types false in
/-- Layer 1's region: entered from every unscoped buffer at `U1`, left at `U2`. -/
def reg0 : Pipeline.RegionSeg (pcfgs (F := F)) adm (pdats m) () defs₀ Variants.none L lv 0 where
  win := winFacts₀0
  block_pos := block_pos0
  stage_whole := stage_whole0
  K := PEmpty
  osem k := k.elim
  ho := Pipeline.OwnSemFacts.none _
  hbody c := (Layer0.body_obligation (atTc (U1 m)) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (atTc (U1 m) c)
  hentry c := by
    rw [Pipeline.ownSems0_none]
    have hs : (StableHlo.held (c : Thread nD τ) (Pipeline.ucRefs τ sig) (U1 m c) : sProp 𝕄)
        ⊢ iprop((Layer0.dat (atTc (U1 m)) c).arrays ((Layer0.dat (atTc (U1 m)) c).arrAt · 0) ∗ Pipeline.unscopedRest spec0 c (atTc (U1 m) c)) := by
      rw [← Pipeline.unscopedBufs_held (Ix := Unit) (Name := ℕ) (U := UR sig nD τ) (Lvl := ℕ) c (U1 m c), Layer0.unscoped_split]
      exact sep_mono (Layer0.deal (atTc (U1 m)) c) .rfl
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Layer0.phi_in (atTc (U1 m)) c)
    unfold Pipeline.ΦA
    iintro ⟨Hp, -, Hr⟩
    isplitl [Hr]; · iexact Hr
    iexact Hp
  hout c := by
    rw [Pipeline.ownSems0_none]
    refine BIBase.Entails.trans (Layer0.phi_out (atTc (U1 m)) c) ?_
    unfold Pipeline.ΦA
    iintro ⟨Hr, Hp⟩
    isplitl [Hp]; · iexact Hp
    isplitr; · iempintro
    iexact Hr
  hexit c := by
    have hof : ∀ b, b ≠ main_v31_0 → b ≠ main_v31_1 → atTc (U2 m) c b = atTc (U1 m) c b := fun b h1 h2 =>
      U2_of m c b (by intro hmem; simp only [List.mem_cons, List.not_mem_nil, _root_.or_false] at hmem; exact hmem.elim h1 h2)
    have hj : iprop((Layer0.dat (atTc (U1 m)) c).arrays ((Layer0.dat (atTc (U1 m)) c).arrAt · cfg0.N) ∗ Pipeline.unscopedRest spec0 c (atTc (U1 m) c))
        ⊢ (StableHlo.held (c : Thread nD τ) (Pipeline.ucRefs τ sig) (U2 m c) : sProp 𝕄) := by
      rw [← Pipeline.unscopedBufs_held (Ix := Unit) (Name := ℕ) (U := UR sig nD τ) (Lvl := ℕ) c (U2 m c), Layer0.unscoped_split,
        Layer0.rest_congr c (atTc (U1 m) c) (atTc (U2 m) c) hof]
      exact sep_mono (Layer0.join (atTc (U1 m)) c (atTc (U2 m) c) hof (U2_h m c) (U2_c m c)) .rfl
    iintro ⟨Ha, HO, HY, Hrest⟩
    imodintro
    isplitl [Ha Hrest]
    · iapply hj; isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Layer 2's region: entered from every unscoped buffer at `U3`, left at `U4`. -/
def reg1 : Pipeline.RegionSeg (pcfgs (F := F)) adm (pdats m) () defs₀ Variants.none L lv 1 where
  win := winFacts₀1
  block_pos := block_pos1
  stage_whole := stage_whole1
  K := PEmpty
  osem k := k.elim
  ho := Pipeline.OwnSemFacts.none _
  hbody c := (Layer1.body_obligation (atTc (U3 m)) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec1 c (atTc (U3 m) c)
  hentry c := by
    rw [Pipeline.ownSems0_none]
    have hs : (StableHlo.held (c : Thread nD τ) (Pipeline.ucRefs τ sig) (U3 m c) : sProp 𝕄)
        ⊢ iprop((Layer1.dat (atTc (U3 m)) c).arrays ((Layer1.dat (atTc (U3 m)) c).arrAt · 0) ∗ Pipeline.unscopedRest spec1 c (atTc (U3 m) c)) := by
      rw [← Pipeline.unscopedBufs_held (Ix := Unit) (Name := ℕ) (U := UR sig nD τ) (Lvl := ℕ) c (U3 m c), Layer1.unscoped_split]
      exact sep_mono (Layer1.deal (atTc (U3 m)) c) .rfl
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Layer1.phi_in (atTc (U3 m)) c)
    unfold Pipeline.ΦA
    iintro ⟨Hp, -, Hr⟩
    isplitl [Hr]; · iexact Hr
    iexact Hp
  hout c := by
    rw [Pipeline.ownSems0_none]
    refine BIBase.Entails.trans (Layer1.phi_out (atTc (U3 m)) c) ?_
    unfold Pipeline.ΦA
    iintro ⟨Hr, Hp⟩
    isplitl [Hp]; · iexact Hp
    isplitr; · iempintro
    iexact Hr
  hexit c := by
    have hof : ∀ b, b ≠ main_v49_0 → b ≠ main_v49_1 → atTc (U4 m) c b = atTc (U3 m) c b := fun b h1 h2 =>
      U4_of m c b (by intro hmem; simp only [List.mem_cons, List.not_mem_nil, _root_.or_false] at hmem; exact hmem.elim h1 h2)
    have hj : iprop((Layer1.dat (atTc (U3 m)) c).arrays ((Layer1.dat (atTc (U3 m)) c).arrAt · cfg1.N) ∗ Pipeline.unscopedRest spec1 c (atTc (U3 m) c))
        ⊢ (StableHlo.held (c : Thread nD τ) (Pipeline.ucRefs τ sig) (U4 m c) : sProp 𝕄) := by
      rw [← Pipeline.unscopedBufs_held (Ix := Unit) (Name := ℕ) (U := UR sig nD τ) (Lvl := ℕ) c (U4 m c), Layer1.unscoped_split,
        Layer1.rest_congr c (atTc (U3 m) c) (atTc (U4 m) c) hof]
      exact sep_mono (Layer1.join (atTc (U3 m)) c (atTc (U4 m) c) hof (U4_h m c) (U4_c m c)) .rfl
    iintro ⟨Ha, HO, HY, Hrest⟩
    imodintro
    isplitl [Ha Hrest]
    · iapply hj; isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Layer 3's region: entered from every unscoped buffer at `U5`, left at `U6`. -/
def reg2 : Pipeline.RegionSeg (pcfgs (F := F)) adm (pdats m) () defs₀ Variants.none L lv 2 where
  win := winFacts₀2
  block_pos := block_pos2
  stage_whole := stage_whole2
  K := PEmpty
  osem k := k.elim
  ho := Pipeline.OwnSemFacts.none _
  hbody c := (Layer2.body_obligation (atTc (U5 m)) c).loose
  hwaits := Pipeline.hwaits_of_owed_zero _ _ _ _ L lv 2 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec2 c (atTc (U5 m) c)
  hentry c := by
    rw [Pipeline.ownSems0_none]
    have hs : (StableHlo.held (c : Thread nD τ) (Pipeline.ucRefs τ sig) (U5 m c) : sProp 𝕄)
        ⊢ iprop((Layer2.dat (atTc (U5 m)) c).arrays ((Layer2.dat (atTc (U5 m)) c).arrAt · 0) ∗ Pipeline.unscopedRest spec2 c (atTc (U5 m) c)) := by
      rw [← Pipeline.unscopedBufs_held (Ix := Unit) (Name := ℕ) (U := UR sig nD τ) (Lvl := ℕ) c (U5 m c), Layer2.unscoped_split]
      exact sep_mono (Layer2.deal (atTc (U5 m)) c) .rfl
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Layer2.phi_in (atTc (U5 m)) c)
    unfold Pipeline.ΦA
    iintro ⟨Hp, -, Hr⟩
    isplitl [Hr]; · iexact Hr
    iexact Hp
  hout c := by
    rw [Pipeline.ownSems0_none]
    refine BIBase.Entails.trans (Layer2.phi_out (atTc (U5 m)) c) ?_
    unfold Pipeline.ΦA
    iintro ⟨Hr, Hp⟩
    isplitl [Hp]; · iexact Hp
    isplitr; · iempintro
    iexact Hr
  hexit c := by
    have hof : ∀ b, b ≠ main_v67_0 → b ≠ main_v67_1 → atTc (U6 m) c b = atTc (U5 m) c b := fun b h1 h2 =>
      U6_of m c b (by intro hmem; simp only [List.mem_cons, List.not_mem_nil, _root_.or_false] at hmem; exact hmem.elim h1 h2)
    have hj : iprop((Layer2.dat (atTc (U5 m)) c).arrays ((Layer2.dat (atTc (U5 m)) c).arrAt · cfg2.N) ∗ Pipeline.unscopedRest spec2 c (atTc (U5 m) c))
        ⊢ (StableHlo.held (c : Thread nD τ) (Pipeline.ucRefs τ sig) (U6 m c) : sProp 𝕄) := by
      rw [← Pipeline.unscopedBufs_held (Ix := Unit) (Name := ℕ) (U := UR sig nD τ) (Lvl := ℕ) c (U6 m c), Layer2.unscoped_split,
        Layer2.rest_congr c (atTc (U5 m) c) (atTc (U6 m) c) hof]
      exact sep_mono (Layer2.join (atTc (U5 m)) c (atTc (U6 m) c) hof (U6_h m c) (U6_c m c)) .rfl
    iintro ⟨Ha, HO, HY, Hrest⟩
    imodintro
    isplitl [Ha Hrest]
    · iapply hj; isplitl [Ha]; · iexact Ha
      iexact Hrest
    isplitl [HY]; · iexact HY
    unfold Pipeline.Dat.owesAt Pipeline.owesWithin
    icases HO with ⟨%W, -, HO⟩; iexists W; iexact HO

/-! ## The frame -/

set_option backward.isDefEq.respectTransparency.types false in
/-- Every weakly fair execution of @main from memory `m` with zero counters terminates, and every final memory holds each
    argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_cond m emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE3 := fun c => by iintro ⟨-, H⟩; iexact H)
    (reg0 m) (fun c => .rfl) (fun c => by rw [hV2]; exact .rfl)
    (reg1 m) (fun c => by rw [hV3]; exact .rfl) (fun c => by rw [hV4]; exact .rfl)
    (reg2 m) (fun c => by rw [hV5]; exact .rfl) (fun c => by rw [hV6]; exact .rfl)

end Cert.Kernel.Gen.Whole

end
-- ==== Proof.IdealLayer0Base.lean ====
/-
  Message-passing layer 1 as a pipelined kernel over a 6 × 6 grid of 128-row tiles (i over the receiving nodes, j over
  the sending ones, j the reduction axis): what the three kinds of step share. The body's two branches depend on j only:
  the first (zero both accumulators) is taken exactly when j = 0, the second (scale the sums by 1/768, apply the second
  linear map, add the residual and store both outputs) exactly when j = 5. The two outputs' tiles are touched only at
  j = 5, which is also where they are written back; the accumulators live in two scratch buffers of the kernel's own.
-/
import proofs.«110946_j38972533244288_1_alg».proof.Proof.Gen.KernelIdeal.Launch
import proofs.«110946_j38972533244288_1_alg».proof.Proof.Gen.KernelIdeal.Skeleton
import proofs.«110946_j38972533244288_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The two branch conditions, decided over the grid -/

/-- The first branch's condition: j = 0. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 6 = 0 :=
  (by decide +kernel : ∀ t : Fin grid0.N, isFirst (grid0.coords t) ↔ t.val % 6 = 0)
/-- The second branch's condition: j = 5. -/
abbrev isLast (i : grid0.Coords) : Prop := k0_cond2 i = 1#1
theorem isLast_iff : ∀ t : Fin cfg0.N, isLast (grid0.coords t) ↔ t.val % 6 = 5 :=
  (by decide +kernel : ∀ t : Fin grid0.N, isLast (grid0.coords t) ↔ t.val % 6 = 5)

/-! ## Where a window is idle: an input never, an output except at j = 5 (where it is also written back) -/

theorem live_0 : ∀ i, cfg0.idle 0 i = false := fun _ => rfl
theorem live_1 : ∀ i, cfg0.idle 1 i = false := fun _ => rfl
theorem live_2 : ∀ i, cfg0.idle 2 i = false := fun _ => rfl
theorem live_3 : ∀ i, cfg0.idle 3 i = false := fun _ => rfl
theorem live_4 : ∀ i, cfg0.idle 4 i = false := fun _ => rfl
theorem live_5 : ∀ i, cfg0.idle 5 i = false := fun _ => rfl
theorem live_6 : ∀ i, cfg0.idle 6 i = false := fun _ => rfl
theorem live_7 : ∀ i, cfg0.idle 7 i = false := fun _ => rfl
theorem live_8 : ∀ i, cfg0.idle 8 i = false := fun _ => rfl
theorem live_9 : ∀ i, cfg0.idle 9 i = false := fun _ => rfl
theorem live_10 : ∀ i, cfg0.idle 10 i = false := fun _ => rfl
theorem live_11 : ∀ i, cfg0.idle 11 i = false := fun _ => rfl
theorem live_12 : ∀ i, cfg0.idle 12 i = false := fun _ => rfl
theorem live_13 : ∀ i, cfg0.idle 13 i = false := fun _ => rfl
theorem idle_14 : ∀ t : Fin cfg0.N, ¬isLast (grid0.coords t) → cfg0.idle 14 (grid0.coords t) = true := by decide +kernel
theorem noFlush_14 : ∀ t : Fin cfg0.N, ¬isLast (grid0.coords t) → (cfg0.win 14).flush t = false := by decide +kernel
theorem live_14 : ∀ t : Fin cfg0.N, isLast (grid0.coords t) → cfg0.idle 14 (grid0.coords t) = false := by decide +kernel
theorem idle_15 : ∀ t : Fin cfg0.N, ¬isLast (grid0.coords t) → cfg0.idle 15 (grid0.coords t) = true := by decide +kernel
theorem noFlush_15 : ∀ t : Fin cfg0.N, ¬isLast (grid0.coords t) → (cfg0.win 15).flush t = false := by decide +kernel
theorem live_15 : ∀ t : Fin cfg0.N, isLast (grid0.coords t) → cfg0.idle 15 (grid0.coords t) = false := by decide +kernel

/-! ## The memrefs the body is called with -/

/-- One staging buffer of each output, through which its contents are stated. -/
abbrev viewH : View sig .tc .vmem S128x128 .f32 := (Memref.whole cc0_stg14_0 : Memref sig .tc .vmem S128x128 .f32).view
abbrev viewC : View sig .tc .vmem S128x3 .f32 := (Memref.whole cc0_stg15_0 : Memref sig .tc .vmem S128x3 .f32).view
abbrev ms_0 (t : Fin cfg0.N) : Memref sig .tc .vmem S128x128 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S128x128 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S128x3 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S128x3 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S128x128 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S128x128 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x128 .f32 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S1x128 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S128x128 .f32 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S1x128 .f32 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S128x1 .f32 := win0_10.stage (cfg0.slots t 10)
abbrev hs_10 (t : Fin cfg0.N) : (ms_10 t).IsWhole := hstage0_10 ((cfg0.slots t 10).cast nbuf0_10)
abbrev ms_11 (t : Fin cfg0.N) : Memref sig .tc .vmem S128x1 .f32 := win0_11.stage (cfg0.slots t 11)
abbrev hs_11 (t : Fin cfg0.N) : (ms_11 t).IsWhole := hstage0_11 ((cfg0.slots t 11).cast nbuf0_11)
abbrev ms_12 (t : Fin cfg0.N) : Memref sig .tc .vmem S1x1 .f32 := win0_12.stage (cfg0.slots t 12)
abbrev hs_12 (t : Fin cfg0.N) : (ms_12 t).IsWhole := hstage0_12 ((cfg0.slots t 12).cast nbuf0_12)
abbrev ms_13 (t : Fin cfg0.N) : Memref sig .tc .vmem S1x1 .f32 := win0_13.stage (cfg0.slots t 13)
abbrev hs_13 (t : Fin cfg0.N) : (ms_13 t).IsWhole := hstage0_13 ((cfg0.slots t 13).cast nbuf0_13)
abbrev ms_14 (t : Fin cfg0.N) : Memref sig .tc .vmem S128x128 .f32 := win0_14.stage (cfg0.slots t 14)
abbrev hs_14 (t : Fin cfg0.N) : (ms_14 t).IsWhole := hstage0_14 ((cfg0.slots t 14).cast nbuf0_14)
abbrev ms_15 (t : Fin cfg0.N) : Memref sig .tc .vmem S128x3 .f32 := win0_15.stage (cfg0.slots t 15)
abbrev hs_15 (t : Fin cfg0.N) : (ms_15 t).IsWhole := hstage0_15 ((cfg0.slots t 15).cast nbuf0_15)
/-- The two accumulators: the sum over j of the messages, and of the weighted coordinate differences. -/
abbrev accH : Memref sig .tc .vmem S128x128 .f32 := Memref.whole cc0_scratch0
abbrev accC : Memref sig .tc .vmem S128x3 .f32 := Memref.whole cc0_scratch1
abbrev viewAccH : View sig .tc .vmem S128x128 .f32 := accH.view
abbrev viewAccC : View sig .tc .vmem S128x3 .f32 := accC.view

/-- The scoped buffers of the core that are neither this kernel's staging buffers nor its accumulators. -/
abbrev others (c : Dev nD) : sProp 𝕄 :=
  Pipeline.scopedRestBut (Ix := Unit) (Name := ℕ) (U := UR sig nD τ) (Lvl := ℕ) (Val := Elt F) spec0 c [cc0_scratch0, cc0_scratch1]

/-- The region's invariant before the first step: both accumulators at anything, the other scoped buffers, the
    generator register. -/
theorem phiA_eq (c : Dev nD) :
    (Pipeline.ΦA spec0 c : sProp 𝕄)
      = iprop(iprop(iprop((∃ d, owns (c : Thread nD τ) accH fullShare d) ∗ (∃ d, owns (c : Thread nD τ) accC fullShare d)) ∗ others c) ∗ (∃ r, prngReg c r)) := by
  unfold Pipeline.ΦA; rw [scopedRest0_split]; simp only [accH, accC, owns_whole]; try rfl

/-! ## The windows' blocks, read off the arrays as the region finds them -/

section Blocks
variable (V : (c : Dev nD) → (b : Ref sig .tc) → Buf (Elt F) ((c : Thread nD τ).loc b))

/-- Window `w`'s tile at grid point `t`. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input 0's current staging buffer holds its tile at every grid point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1's current staging buffer holds its tile at every grid point, fetched there or not. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input 2's current staging buffer holds its tile at every grid point, fetched there or not. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input 3's current staging buffer holds its tile at every grid point, fetched there or not. -/
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input 4's current staging buffer holds its tile at every grid point, fetched there or not. -/
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input 5's current staging buffer holds its tile at every grid point, fetched there or not. -/
theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input 6's current staging buffer holds its tile at every grid point, fetched there or not. -/
theorem before_6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input 7's current staging buffer holds its tile at every grid point, fetched there or not. -/
theorem before_7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input 8's current staging buffer holds its tile at every grid point, fetched there or not. -/
theorem before_8_of {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input 9's current staging buffer holds its tile at every grid point, fetched there or not. -/
theorem before_9_of {c : Dev nD} (dat : Dat τ (Elt F) Unit ℕ (UR sig nD τ) ℕ cfg0 c) (hA : dat.A 9 = V c (Pipeline.arrRef spec0 9))
    (hafter : ∀ t, dat.after 9 t = iblk V c 9 t) (t : Fin cfg0.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input 10's current staging buffer holds its tile at every grid point, fetched there or not. -/
theorem before_10_of {c : Dev nD} (dat : Dat τ (Elt F) Unit ℕ (UR sig nD τ) ℕ cfg0 c) (hA : dat.A 10 = V c (Pipeline.arrRef spec0 10))
    (hafter : ∀ t, dat.after 10 t = iblk V c 10 t) (t : Fin cfg0.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input 11's current staging buffer holds its tile at every grid point, fetched there or not. -/
theorem before_11_of {c : Dev nD} (dat : Dat τ (Elt F) Unit ℕ (UR sig nD τ) ℕ cfg0 c) (hA : dat.A 11 = V c (Pipeline.arrRef spec0 11))
    (hafter : ∀ t, dat.after 11 t = iblk V c 11 t) (t : Fin cfg0.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input 12's current staging buffer holds its tile at every grid point, fetched there or not. -/
theorem before_12_of {c : Dev nD} (dat : Dat τ (Elt F) Unit ℕ (UR sig nD τ) ℕ cfg0 c) (hA : dat.A 12 = V c (Pipeline.arrRef spec0 12))
    (hafter : ∀ t, dat.after 12 t = iblk V c 12 t) (t : Fin cfg0.N) (d) : dat.before 12 t d = iblk V c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input 13's current staging buffer holds its tile at every grid point, fetched there or not. -/
theorem before_13_of {c : Dev nD} (dat : Dat τ (Elt F) Unit ℕ (UR sig nD τ) ℕ cfg0 c) (hA : dat.A 13 = V c (Pipeline.arrRef spec0 13))
    (hafter : ∀ t, dat.after 13 t = iblk V c 13 t) (t : Fin cfg0.N) (d) : dat.before 13 t d = iblk V c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
end Blocks

end Cert.KernelIdeal.Gen.Layer0

end
-- ==== Proof.IdealLayer0First.lean ====
/-
  Layer 1's kernel body at one kind of grid point, run on whole staging memrefs.
  THE FIRST STEP (j = 0): both accumulators, found at anything, are zeroed and then take this tile's sums; the outputs'
  buffers are not touched.
  The lists of stored pieces each buffer ends with are found by running the body.
-/
import proofs.«110946_j38972533244288_1_alg».proof.Proof.IdealLayer0Base

set_option maxRecDepth 16384

noncomputable section

namespace Cert.KernelIdeal.Gen.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at such a point, from the inputs' tiles (and what it finds in the accumulators), to the continuation holding the inputs
    as they were and every buffer it stored into with its pieces written. -/
noncomputable def stepFirst (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) :
    Σ' (LS0 : List (View.Piece (Elt F) S128x128 .f32)), { LS1 : List (View.Piece (Elt F) S128x3 .f32) //
      ∀ (xi14 : Vec F S128x128 .f32) (xi15 : Vec F S128x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ owns (c : Thread nD τ) arg17 fullShare xi15 ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ owns (c : Thread nD τ) arg17 fullShare xi15 ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc0__layer_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun xi14 xi15 E K => ?run⟩
  case run =>
    simp only [cc0__layer_kernel_eq_skeleton]; unfold cc0__layer_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [HS0]; · iexists _; iexact HS0
    iexists _; iexact HS1

end Cert.KernelIdeal.Gen.Layer0

end
-- ==== Proof.IdealLayer0Mid.lean ====
/-
  Layer 1's kernel body at one kind of grid point, run on whole staging memrefs.
  A MIDDLE STEP (0 < j < 5): both accumulators take this tile's sums on top of what the step before left; the outputs'
  buffers are not touched.
  The lists of stored pieces each buffer ends with are found by running the body.
-/
import proofs.«110946_j38972533244288_1_alg».proof.Proof.IdealLayer0First

set_option maxRecDepth 16384

noncomputable section

namespace Cert.KernelIdeal.Gen.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at such a point, from the inputs' tiles (and what it finds in the accumulators), to the continuation holding the inputs
    as they were and every buffer it stored into with its pieces written. -/
noncomputable def stepMid (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) :
    Σ' (LS0 : List (View.Piece (Elt F) S128x128 .f32)), { LS1 : List (View.Piece (Elt F) S128x3 .f32) //
      ∀ (xi14 : Vec F S128x128 .f32) (xi15 : Vec F S128x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ owns (c : Thread nD τ) arg17 fullShare xi15 ∗ owns (c : Thread nD τ) arg18 fullShare xs0 ∗ owns (c : Thread nD τ) arg19 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ owns (c : Thread nD τ) arg17 fullShare xi15 ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc0__layer_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun xi14 xi15 E K => ?run⟩
  case run =>
    simp only [cc0__layer_kernel_eq_skeleton]; unfold cc0__layer_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hfs0; obtain rfl := harg19.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [HS0]; · iexists _; iexact HS0
    iexists _; iexact HS1

end Cert.KernelIdeal.Gen.Layer0

end
-- ==== Proof.IdealLayer0Last.lean ====
/-
  Layer 1's kernel body at one kind of grid point, run on whole staging memrefs.
  THE LAST STEP (j = 5): both accumulators take this tile's sums; then the message sum is scaled by 1/768, multiplied by
  the second weight matrix, biased and added to the receiving nodes' features, and the coordinate sum is scaled by
  1/768 and added to their coordinates: each output's buffer is stored whole.
  The lists of stored pieces each buffer ends with are found by running the body.
-/
import proofs.«110946_j38972533244288_1_alg».proof.Proof.IdealLayer0Mid

set_option maxRecDepth 16384

noncomputable section

namespace Cert.KernelIdeal.Gen.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at such a point, from the inputs' tiles (and what it finds in the accumulators), to the continuation holding the inputs
    as they were and every buffer it stored into with its pieces written. -/
noncomputable def stepLast (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) :
    Σ' (L14 : List (View.Piece (Elt F) S128x128 .f32)) (L15 : List (View.Piece (Elt F) S128x3 .f32)) (LS0 : List (View.Piece (Elt F) S128x128 .f32)), { LS1 : List (View.Piece (Elt F) S128x3 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ owns (c : Thread nD τ) arg18 fullShare xs0 ∗ owns (c : Thread nD τ) arg19 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc0__layer_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun E K => ?run⟩
  case run =>
    simp only [cc0__layer_kernel_eq_skeleton]; unfold cc0__layer_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg18.eq_unread hfs0; obtain rfl := harg19.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [H15]; · iexists _; iexact H15
    isplitl [HS0]; · iexists _; iexact HS0
    iexists _; iexact HS1

end Cert.KernelIdeal.Gen.Layer0

end
-- ==== Proof.IdealLayer0Data.lean ====
/-
  Layer 1's kernel over its 36 grid points: what the two accumulators and the two outputs' buffers hold after each point
  (a recursion over the points: zeroed and refilled at j = 0, added to at 0 < j < 5, added to and read out at j = 5), the
  region's invariant carrying the accumulators from one point to the next, the pipeline's proof data at any contents `V`
  of the arrays at the region's entry, and the body's obligation at every point.
-/
import proofs.«110946_j38972533244288_1_alg».proof.Proof.IdealLayer0Last

set_option maxRecDepth 16384

noncomputable section

namespace Cert.KernelIdeal.Gen.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What each kind of step leaves: its stored pieces cover each buffer it stores into -/
theorem cover_accH_First (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (y : S128x128.Idx) :
    ∃ pc ∈ (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).1, y ∈ pc.1.set :=
  View.cover_of_tiledL (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).1 S128x128.size (by sl_kernel_rfl) y
/-- Its contents then: the pieces read back. -/
def accH_First (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) : Vec F S128x128 .f32 :=
  viewAccH.read (Elt F) (viewAccH.writes (Elt F) viewAccH.junk (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).1)
theorem cover_accC_First (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (y : S128x3.Idx) :
    ∃ pc ∈ (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).2.1, y ∈ pc.1.set :=
  View.cover_of_tiledL (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).2.1 S128x3.size (by sl_kernel_rfl) y
/-- Its contents then: the pieces read back. -/
def accC_First (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) : Vec F S128x3 .f32 :=
  viewAccC.read (Elt F) (viewAccC.writes (Elt F) viewAccC.junk (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).2.1)
theorem cover_accH_Mid (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x128.Idx) :
    ∃ pc ∈ (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1, y ∈ pc.1.set :=
  View.cover_of_tiledL (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1 S128x128.size (by sl_kernel_rfl) y
/-- Its contents then: the pieces read back. -/
def accH_Mid (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x128 .f32 :=
  viewAccH.read (Elt F) (viewAccH.writes (Elt F) viewAccH.junk (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1)
theorem cover_accC_Mid (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x3.Idx) :
    ∃ pc ∈ (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1, y ∈ pc.1.set :=
  View.cover_of_tiledL (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1 S128x3.size (by sl_kernel_rfl) y
/-- Its contents then: the pieces read back. -/
def accC_Mid (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x3 .f32 :=
  viewAccC.read (Elt F) (viewAccC.writes (Elt F) viewAccC.junk (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1)
theorem cover_outH_Last (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x128.Idx) :
    ∃ pc ∈ (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1, y ∈ pc.1.set :=
  View.cover_of_tiledL (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1 S128x128.size (by sl_kernel_rfl) y
/-- Its contents then: the pieces read back. -/
def outH_Last (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x128 .f32 :=
  viewH.read (Elt F) (viewH.writes (Elt F) viewH.junk (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1)
theorem cover_outC_Last (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x3.Idx) :
    ∃ pc ∈ (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1, y ∈ pc.1.set :=
  View.cover_of_tiledL (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1 S128x3.size (by sl_kernel_rfl) y
/-- Its contents then: the pieces read back. -/
def outC_Last (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x3 .f32 :=
  viewC.read (Elt F) (viewC.writes (Elt F) viewC.junk (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1)
theorem cover_accH_Last (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x128.Idx) :
    ∃ pc ∈ (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.1, y ∈ pc.1.set :=
  View.cover_of_tiledL (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.1 S128x128.size (by sl_kernel_rfl) y
/-- Its contents then: the pieces read back. -/
def accH_Last (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x128 .f32 :=
  viewAccH.read (Elt F) (viewAccH.writes (Elt F) viewAccH.junk (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.1)
theorem cover_accC_Last (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x3.Idx) :
    ∃ pc ∈ (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.2.1, y ∈ pc.1.set :=
  View.cover_of_tiledL (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.2.1 S128x3.size (by sl_kernel_rfl) y
/-- Its contents then: the pieces read back. -/
def accC_Last (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x3 .f32 :=
  viewAccC.read (Elt F) (viewAccC.writes (Elt F) viewAccC.junk (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.2.1)

section Data
variable (V : (c : Dev nD) → (b : Ref sig .tc) → Buf (Elt F) ((c : Thread nD τ).loc b))

/-! ## The state after each grid point -/

/-- Placeholders for the outputs' buffers at the points that do not touch them (nothing reads them: at those points the
    buffers are neither written back nor stated). -/
abbrev idleH : Vec F S128x128 .f32 := viewH.read (Elt F) viewH.junk
abbrev idleC : Vec F S128x3 .f32 := viewC.read (Elt F) viewC.junk

/-- THE ACCUMULATION: after the body at position `n`, the two outputs' buffers and the two accumulators. -/
def stateAt (c : Dev nD) : (n : ℕ) → n < cfg0.N → Vec F S128x128 .f32 × Vec F S128x3 .f32 × Vec F S128x128 .f32 × Vec F S128x3 .f32
  | 0, hn => (idleH, idleC,
      accH_First c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) (ms_10 ⟨0, hn⟩) (hs_10 ⟨0, hn⟩) (ms_11 ⟨0, hn⟩) (hs_11 ⟨0, hn⟩) (ms_12 ⟨0, hn⟩) (hs_12 ⟨0, hn⟩) (ms_13 ⟨0, hn⟩) (hs_13 ⟨0, hn⟩) (ms_14 ⟨0, hn⟩) (hs_14 ⟨0, hn⟩) (ms_15 ⟨0, hn⟩) (hs_15 ⟨0, hn⟩) accH (Memref.isWhole_whole _) accC (Memref.isWhole_whole _) ((isFirst_iff ⟨0, hn⟩).mpr (Nat.zero_mod _)) (fun h => (fun h' => by (try dsimp only at h'); omega) ((isLast_iff ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩) (iblk V c 10 ⟨0, hn⟩) (iblk V c 11 ⟨0, hn⟩) (iblk V c 12 ⟨0, hn⟩) (iblk V c 13 ⟨0, hn⟩),
      accC_First c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) (ms_10 ⟨0, hn⟩) (hs_10 ⟨0, hn⟩) (ms_11 ⟨0, hn⟩) (hs_11 ⟨0, hn⟩) (ms_12 ⟨0, hn⟩) (hs_12 ⟨0, hn⟩) (ms_13 ⟨0, hn⟩) (hs_13 ⟨0, hn⟩) (ms_14 ⟨0, hn⟩) (hs_14 ⟨0, hn⟩) (ms_15 ⟨0, hn⟩) (hs_15 ⟨0, hn⟩) accH (Memref.isWhole_whole _) accC (Memref.isWhole_whole _) ((isFirst_iff ⟨0, hn⟩).mpr (Nat.zero_mod _)) (fun h => (fun h' => by (try dsimp only at h'); omega) ((isLast_iff ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩) (iblk V c 10 ⟨0, hn⟩) (iblk V c 11 ⟨0, hn⟩) (iblk V c 12 ⟨0, hn⟩) (iblk V c 13 ⟨0, hn⟩))
  | n + 1, hn =>
    if h0 : (n + 1) % 6 = 0 then
      (idleH, idleC,
        accH_First c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) ((isFirst_iff ⟨n + 1, hn⟩).mpr h0) (fun h => (fun h' => by (try dsimp only at h'); omega) ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩),
        accC_First c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) ((isFirst_iff ⟨n + 1, hn⟩).mpr h0) (fun h => (fun h' => by (try dsimp only at h'); omega) ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩))
    else if h1 : (n + 1) % 6 = 5 then
      (outH_Last c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2,
        outC_Last c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2,
        accH_Last c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2,
        accC_Last c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2)
    else
      (idleH, idleC,
        accH_Mid c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2,
        accC_Mid c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2)

/-- The point before `t`, when `t` is not the first. -/
abbrev prevLt (t : Fin cfg0.N) : t.val - 1 < cfg0.N := Nat.lt_of_le_of_lt (Nat.sub_le _ _) t.isLt

theorem stateAt_first (c : Dev nD) (t : Fin cfg0.N) (h0 : t.val % 6 = 0) :
    stateAt V c t.val t.isLt = (idleH, idleC,
      accH_First c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) ((isFirst_iff t).mpr h0) (fun h => (fun h' => by omega) ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t),
      accC_First c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) ((isFirst_iff t).mpr h0) (fun h => (fun h' => by omega) ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t)) := by
  obtain ⟨n, hn⟩ := t
  cases n with
  | zero => exact rfl
  | succ n => exact (dif_pos h0).trans rfl

theorem stateAt_mid (c : Dev nD) (t : Fin cfg0.N) (h0 : ¬t.val % 6 = 0) (h1 : ¬t.val % 6 = 5) :
    stateAt V c t.val t.isLt = (idleH, idleC,
      accH_Mid c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) (fun h => h1 ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2,
      accC_Mid c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) (fun h => h1 ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2) := by
  obtain ⟨n, hn⟩ := t
  cases n with
  | zero => exact absurd (Nat.zero_mod _) h0
  | succ n => exact (dif_neg h0).trans ((dif_neg h1).trans rfl)

theorem stateAt_last (c : Dev nD) (t : Fin cfg0.N) (h0 : ¬t.val % 6 = 0) (h1 : t.val % 6 = 5) :
    stateAt V c t.val t.isLt = (
      outH_Last c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2,
      outC_Last c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2,
      accH_Last c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2,
      accC_Last c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2) := by
  obtain ⟨n, hn⟩ := t
  cases n with
  | zero => exact absurd (Nat.zero_mod _) h0
  | succ n => exact (dif_neg h0).trans ((dif_pos h1).trans rfl)

/-! ## The region's invariant: the accumulators carried from point to point -/

def PhiS (c : Dev nD) : (n : ℕ) → n ≤ cfg0.N → sProp 𝕄
  | 0, _ => Pipeline.ΦA spec0 c
  | n + 1, hn => iprop(iprop(iprop(owns (c : Thread nD τ) accH fullShare ((stateAt V c n hn).2.2.1) ∗ owns (c : Thread nD τ) accC fullShare ((stateAt V c n hn).2.2.2)) ∗ others c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(iprop(owns (c : Thread nD τ) accH fullShare ((stateAt V c n hn).2.2.1) ∗ owns (c : Thread nD τ) accC fullShare ((stateAt V c n hn).2.2.2)) ∗ others c) ∗ (∃ r, prngReg c r)) := rfl
theorem PhiS_pos (c : Dev nD) (n : ℕ) (h : n ≤ cfg0.N) (hz : n ≠ 0) :
    PhiS V c n h = iprop(iprop(iprop(owns (c : Thread nD τ) accH fullShare ((stateAt V c (n - 1) (by omega)).2.2.1) ∗ owns (c : Thread nD τ) accC fullShare ((stateAt V c (n - 1) (by omega)).2.2.2)) ∗ others c) ∗ (∃ r, prngReg c r)) := by
  cases n with
  | zero => exact absurd rfl hz
  | succ n => rfl

/-! ## The pipeline's proof data -/

/-- The arrays as the region finds them; after the body at a point each input's buffer at its tile, each output's at the state's
    component; the invariant above; the two node-feature windows and the two coordinate windows each hold half of their one
    array, every other input its array whole; nothing owed. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => (stateAt V c t.val t.isLt).1
    | ⟨15, _⟩ => (stateAt V c t.val t.isLt).2.1
    | ⟨_ + 16, h⟩ => absurd h (Nat.not_lt.2 (Nat.le_add_left _ _))
  Φ t := PhiS V c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨_ + 16, h⟩ => absurd h (Nat.not_lt.2 (Nat.le_add_left _ _))
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t = iblk V c 6 t := by dsimp only [dat]
theorem after_7 (c : Dev nD) (t : Fin cfg0.N) : (dat V c).after 7 t = iblk V c 7 t := by dsimp only [dat]
theorem after_8 (c : Dev nD) (t : Fin cfg0.N) : (dat V c).after 8 t = iblk V c 8 t := by dsimp only [dat]
theorem after_9 (c : Dev nD) (t : Fin cfg0.N) : (dat V c).after 9 t = iblk V c 9 t := by dsimp only [dat]
theorem after_10 (c : Dev nD) (t : Fin cfg0.N) : (dat V c).after 10 t = iblk V c 10 t := by dsimp only [dat]
theorem after_11 (c : Dev nD) (t : Fin cfg0.N) : (dat V c).after 11 t = iblk V c 11 t := by dsimp only [dat]
theorem after_12 (c : Dev nD) (t : Fin cfg0.N) : (dat V c).after 12 t = iblk V c 12 t := by dsimp only [dat]
theorem after_13 (c : Dev nD) (t : Fin cfg0.N) : (dat V c).after 13 t = iblk V c 13 t := by dsimp only [dat]
theorem after_14 (c : Dev nD) (t : Fin cfg0.N) : (dat V c).after 14 t = (stateAt V c t.val t.isLt).1 := by dsimp only [dat]
theorem after_15 (c : Dev nD) (t : Fin cfg0.N) : (dat V c).after 15 t = (stateAt V c t.val t.isLt).2.1 := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d
theorem before_5 (c : Dev nD) (t : Fin cfg0.N) (d) : (dat V c).before 5 t d = iblk V c 5 t :=
  before_5_of V (dat V c) (A_eq V c 5) (after_5 V c) t d
theorem before_6 (c : Dev nD) (t : Fin cfg0.N) (d) : (dat V c).before 6 t d = iblk V c 6 t :=
  before_6_of V (dat V c) (A_eq V c 6) (after_6 V c) t d
theorem before_7 (c : Dev nD) (t : Fin cfg0.N) (d) : (dat V c).before 7 t d = iblk V c 7 t :=
  before_7_of V (dat V c) (A_eq V c 7) (after_7 V c) t d
theorem before_8 (c : Dev nD) (t : Fin cfg0.N) (d) : (dat V c).before 8 t d = iblk V c 8 t :=
  before_8_of V (dat V c) (A_eq V c 8) (after_8 V c) t d
theorem before_9 (c : Dev nD) (t : Fin cfg0.N) (d) : (dat V c).before 9 t d = iblk V c 9 t :=
  before_9_of V (dat V c) (A_eq V c 9) (after_9 V c) t d
theorem before_10 (c : Dev nD) (t : Fin cfg0.N) (d) : (dat V c).before 10 t d = iblk V c 10 t :=
  before_10_of V (dat V c) (A_eq V c 10) (after_10 V c) t d
theorem before_11 (c : Dev nD) (t : Fin cfg0.N) (d) : (dat V c).before 11 t d = iblk V c 11 t :=
  before_11_of V (dat V c) (A_eq V c 11) (after_11 V c) t d
theorem before_12 (c : Dev nD) (t : Fin cfg0.N) (d) : (dat V c).before 12 t d = iblk V c 12 t :=
  before_12_of V (dat V c) (A_eq V c 12) (after_12 V c) t d
theorem before_13 (c : Dev nD) (t : Fin cfg0.N) (d) : (dat V c).before 13 t d = iblk V c 13 t :=
  before_13_of V (dat V c) (A_eq V c 13) (after_13 V c) t d

/-! ## The body's obligation at a grid point -/

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d))
    ∗ (∃ d, owns (c : Thread nD τ) (ms_8 t) fullShare ((dat V c).before 8 t d))
    ∗ (∃ d, owns (c : Thread nD τ) (ms_9 t) fullShare ((dat V c).before 9 t d))
    ∗ (∃ d, owns (c : Thread nD τ) (ms_10 t) fullShare ((dat V c).before 10 t d))
    ∗ (∃ d, owns (c : Thread nD τ) (ms_11 t) fullShare ((dat V c).before 11 t d))
    ∗ (∃ d, owns (c : Thread nD τ) (ms_12 t) fullShare ((dat V c).before 12 t d))
    ∗ (∃ d, owns (c : Thread nD τ) (ms_13 t) fullShare ((dat V c).before 13 t d))
    ∗ (∃ d, owns (c : Thread nD τ) (ms_14 t) fullShare ((dat V c).before 14 t d))
    ∗ (∃ d, owns (c : Thread nD τ) (ms_15 t) fullShare ((dat V c).before 15 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t
    ∗ (dat V c).leavesExact 12 t
    ∗ (dat V c).leavesExact 13 t
    ∗ (dat V c).leavesExact 14 t
    ∗ (dat V c).leavesExact 15 t)

set_option maxHeartbeats 8000000 in
/-- The body at any point: the inputs' buffers hold their tiles; the point's position along the reduction axis says which kind of
    step it is; the invariant hands the step the accumulators at what the point before left (at anything before the first
    point) and takes them back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6, before_7, before_8, before_9, before_10, before_11, before_12, before_13]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [live_0], after_0]
  rw [show (dat V c).leavesExact 1 t = owns (c : Thread nD τ) (ms_1 t) fullShare ((dat V c).after 1 t) from by
    unfold Dat.leavesExact; rw [live_1], after_1]
  rw [show (dat V c).leavesExact 2 t = owns (c : Thread nD τ) (ms_2 t) fullShare ((dat V c).after 2 t) from by
    unfold Dat.leavesExact; rw [live_2], after_2]
  rw [show (dat V c).leavesExact 3 t = owns (c : Thread nD τ) (ms_3 t) fullShare ((dat V c).after 3 t) from by
    unfold Dat.leavesExact; rw [live_3], after_3]
  rw [show (dat V c).leavesExact 4 t = owns (c : Thread nD τ) (ms_4 t) fullShare ((dat V c).after 4 t) from by
    unfold Dat.leavesExact; rw [live_4], after_4]
  rw [show (dat V c).leavesExact 5 t = owns (c : Thread nD τ) (ms_5 t) fullShare ((dat V c).after 5 t) from by
    unfold Dat.leavesExact; rw [live_5], after_5]
  rw [show (dat V c).leavesExact 6 t = owns (c : Thread nD τ) (ms_6 t) fullShare ((dat V c).after 6 t) from by
    unfold Dat.leavesExact; rw [live_6], after_6]
  rw [show (dat V c).leavesExact 7 t = owns (c : Thread nD τ) (ms_7 t) fullShare ((dat V c).after 7 t) from by
    unfold Dat.leavesExact; rw [live_7], after_7]
  rw [show (dat V c).leavesExact 8 t = owns (c : Thread nD τ) (ms_8 t) fullShare ((dat V c).after 8 t) from by
    unfold Dat.leavesExact; rw [live_8], after_8]
  rw [show (dat V c).leavesExact 9 t = owns (c : Thread nD τ) (ms_9 t) fullShare ((dat V c).after 9 t) from by
    unfold Dat.leavesExact; rw [live_9], after_9]
  rw [show (dat V c).leavesExact 10 t = owns (c : Thread nD τ) (ms_10 t) fullShare ((dat V c).after 10 t) from by
    unfold Dat.leavesExact; rw [live_10], after_10]
  rw [show (dat V c).leavesExact 11 t = owns (c : Thread nD τ) (ms_11 t) fullShare ((dat V c).after 11 t) from by
    unfold Dat.leavesExact; rw [live_11], after_11]
  rw [show (dat V c).leavesExact 12 t = owns (c : Thread nD τ) (ms_12 t) fullShare ((dat V c).after 12 t) from by
    unfold Dat.leavesExact; rw [live_12], after_12]
  rw [show (dat V c).leavesExact 13 t = owns (c : Thread nD τ) (ms_13 t) fullShare ((dat V c).after 13 t) from by
    unfold Dat.leavesExact; rw [live_13], after_13]
  have hN : t.val < 36 := lt_of_lt_of_eq t.isLt (show cfg0.N = 36 from N_0)
  by_cases h0 : t.val % 6 = 0
  · have hnl : ¬isLast (grid0.coords t) := fun h => (fun h' => by omega) ((isLast_iff t).mp h)
    rw [Dat.leavesExact_idle (dat V c) 14 t (idle_14 t hnl) (noFlush_14 t hnl)]
    rw [Dat.leavesExact_idle (dat V c) 15 t (idle_15 t hnl) (noFlush_15 t hnl)]
    rw [stateAt_first V c t h0]
    unfold accH_First accC_First; (try dsimp only)
    by_cases hz : t.val = 0
    · rw [PhiS_castSucc V c t, PhiS_zero V c _ _ hz, phiA_eq]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((stepFirst c (grid0.coords t) _ _ _ _ _ _ _ _ _ _ _ _ _ _ _ _ _ _ _ _ _ _ _ _ _ _ _ _ _ _ _ _ _ _ _ _ ((isFirst_iff t).mpr h0) (fun h => (fun h' => by omega) ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexact HS0
      isplitl [HS1]; · iexact HS1
      iintro ⟨H0, H1, H2, H3, H4, H5, H6, H7, H8, H9, H10, H11, H12, H13, H14, H15, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (cover_accH_First c _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover_accC_First c _ _ _ _ _ _ _ _ _ _ _ _ _ _ _ _ _ _ _ _ _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      iexists _; iexact H15
    · rw [PhiS_castSucc V c t, PhiS_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((stepFirst c (grid0.coords t) _ _ _ _ _ _ _ _ _ _ _ _ _ _ _ _ _ _ _ _ _ _ _ _ _ _ _ _ _ _ _ _ _ _ _ _ ((isFirst_iff t).mpr h0) (fun h => (fun h' => by omega) ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexists _; iexact HS0
      isplitl [HS1]; · iexists _; iexact HS1
      iintro ⟨H0, H1, H2, H3, H4, H5, H6, H7, H8, H9, H10, H11, H12, H13, H14, H15, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (cover_accH_First c _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover_accC_First c _ _ _ _ _ _ _ _ _ _ _ _ _ _ _ _ _ _ _ _ _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      iexists _; iexact H15
  · have hz : t.val ≠ 0 := fun h => h0 (by rw [h])
    by_cases h1 : t.val % 6 = 5
    · rw [show (dat V c).leavesExact 14 t = owns (c : Thread nD τ) (ms_14 t) fullShare ((dat V c).after 14 t) from by
        unfold Dat.leavesExact; rw [live_14 t ((isLast_iff t).mpr h1)], after_14]
      rw [show (dat V c).leavesExact 15 t = owns (c : Thread nD τ) (ms_15 t) fullShare ((dat V c).after 15 t) from by
        unfold Dat.leavesExact; rw [live_15 t ((isLast_iff t).mpr h1)], after_15]
      rw [stateAt_last V c t h0 h1]
      unfold outH_Last outC_Last accH_Last accC_Last; (try dsimp only)
      rw [PhiS_castSucc V c t, PhiS_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((stepLast c (grid0.coords t) _ _ _ _ _ _ _ _ _ _ _ _ _ _ _ _ _ _ _ _ _ _ _ _ _ _ _ _ _ _ _ _ _ _ _ _ (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [HS0]; · iexact HS0
      isplitl [HS1]; · iexact HS1
      iintro ⟨H0, H1, H2, H3, H4, H5, H6, H7, H8, H9, H10, H11, H12, H13, ⟨%e14, H14⟩, ⟨%e15, H15⟩, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (cover_accH_Last c _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover_accC_Last c _ _ _ _ _ _ _ _ _ _ _ _ _ _ _ _ _ _ _ _ _ _ _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; exact View.read_writes_of_cover _ _ _ _ _ (cover_outH_Last c _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H15
      ipureintro; exact View.read_writes_of_cover _ _ _ _ _ (cover_outC_Last c _ _ _ _ _ _ _ _ _ _ _ _ _ _ _ _ _ _ _ _ _ _ _ _ _ _ _ _ _ _ _ _ _ _ _ _ _ _ _ _ _ _ _ _ _ _ _ _ _ _ _ _ _ _ _)
    · have hnl : ¬isLast (grid0.coords t) := fun h => h1 ((isLast_iff t).mp h)
      rw [Dat.leavesExact_idle (dat V c) 14 t (idle_14 t hnl) (noFlush_14 t hnl)]
      rw [Dat.leavesExact_idle (dat V c) 15 t (idle_15 t hnl) (noFlush_15 t hnl)]
      rw [stateAt_mid V c t h0 h1]
      unfold accH_Mid accC_Mid; (try dsimp only)
      rw [PhiS_castSucc V c t, PhiS_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((stepMid c (grid0.coords t) _ _ _ _ _ _ _ _ _ _ _ _ _ _ _ _ _ _ _ _ _ _ _ _ _ _ _ _ _ _ _ _ _ _ _ _ (fun h => h0 ((isFirst_iff t).mp h)) (fun h => h1 ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexact HS0
      isplitl [HS1]; · iexact HS1
      iintro ⟨H0, H1, H2, H3, H4, H5, H6, H7, H8, H9, H10, H11, H12, H13, H14, H15, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (cover_accH_Mid c _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover_accC_Mid c _ _ _ _ _ _ _ _ _ _ _ _ _ _ _ _ _ _ _ _ _ _ _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      iexists _; iexact H15

/-- The library's body obligation, at every point. -/
theorem body_obligation (c : Dev nD) : BodyObligation (dat (F := F) V c) (defs₀ (F := F)) Variants.none () Set.univ := fun t => by
  rw [bigSep_W0, bigSep_W0]
  exact sound_body V c t

/-- Before the first point the invariant is the class's. -/
theorem phi_in (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point it gives the class's back: the accumulators' named contents are forgotten. -/
theorem phi_out (c : Dev nD) : (dat V c).Φ (Fin.last cfg0.N) ⊢ Pipeline.ΦA spec0 c := by
  have ht : (Fin.last cfg0.N).val ≠ 0 := by rw [Fin.val_last]; have : cfg0.N = 36 := N_0; omega
  rw [show (dat V c).Φ (Fin.last cfg0.N) = PhiS V c (Fin.last cfg0.N).val (Nat.le_of_lt_succ (Fin.last cfg0.N).isLt) from rfl, PhiS_pos V c _ _ ht, phiA_eq]
  iintro ⟨⟨⟨HS0, HS1⟩, Hoth⟩, Hg⟩
  isplitl [HS0 HS1 Hoth]
  · isplitl [HS0 HS1]
    · isplitl [HS0]
      · iexists _; iexact HS0
      iexists _; iexact HS1
    iexact Hoth
  iexact Hg

end Data

end Cert.KernelIdeal.Gen.Layer0

end
-- ==== Proof.IdealLayer0Deal.lean ====
/-
  Layer 1's region and the arrays it works on. The node features are staged through two windows (one by the receiving
  tile, one by the sending tile) and so are the coordinates: each such pair of windows holds its one array together, half
  a share each. Entering the region the fourteen distinct arrays, held whole, are dealt to the sixteen windows; leaving it
  the halves are joined again, the ten weight arrays are as they were and the two output arrays hold what the pipeline's
  write-backs left.
-/
import proofs.«110946_j38972533244288_1_alg».proof.Proof.IdealLayer0Data

set_option maxRecDepth 16384

noncomputable section

namespace Cert.KernelIdeal.Gen.Layer0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Deal
variable (V : (c : Dev nD) → (b : Ref sig .tc) → Buf (Elt F) ((c : Thread nD τ).loc b))

/-- The distinct arrays behind the sixteen windows. -/
theorem arrRefs_eq : Finset.univ.image (Pipeline.arrRef spec0) = ([main_v6, main_v13, main_v15, main_v17, main_v19, main_v20, main_v22, main_v23, main_v25, main_v27, main_v29, main_v30, main_v31_0, main_v31_1] : List (Ref sig .tc)).toFinset := by decide

/-- The windows' arrays, each a whole buffer, held buffer by buffer at the window's share. -/
theorem arrays_shares (c : Dev nD) (G : (w : Fin cfg0.W) → Buf (Elt F) ((cfg0.spec w).arr.view.loc (c.tc : Thread nD τ))) :
    ((dat V c).arrays G : sProp 𝕄)
      = bigSep Finset.univ fun w => (((c.tc : Thread nD τ).loc (Pipeline.arrRef cfg0.spec w)) ↦{(dat V c).share w} G w : sProp 𝕄) := by
  unfold Dat.arrays
  exact Idealize.SL.BI.bigSep_congr fun w _ => by rw [(arr_whole0 w).set_eq_univ]

/-- A buffer held at the full share is held twice over at its two halves, and back. -/
theorem halves (ℓ : Loc nD τ sig) (f : Buf (Elt F) ℓ) :
    (ℓ ↦{fullShare} f : sProp 𝕄) ⊢ iprop((ℓ ↦{fullShare.left} f) ∗ (ℓ ↦{fullShare.right} f)) :=
  (pointsTo_share (PosShare.mem_left_op_right fullShare)).1
theorem whole (ℓ : Loc nD τ sig) (f : Buf (Elt F) ℓ) :
    iprop((ℓ ↦{fullShare.left} f) ∗ (ℓ ↦{fullShare.right} f)) ⊢ (ℓ ↦{fullShare} f : sProp 𝕄) :=
  (pointsTo_share (PosShare.mem_left_op_right fullShare)).2

/-- The fourteen arrays one by one. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c.tc : Thread nD τ).loc main_v6) ↦{fullShare} W main_v6) ∗ (((c.tc : Thread nD τ).loc main_v13) ↦{fullShare} W main_v13) ∗ (((c.tc : Thread nD τ).loc main_v15) ↦{fullShare} W main_v15) ∗ (((c.tc : Thread nD τ).loc main_v17) ↦{fullShare} W main_v17) ∗ (((c.tc : Thread nD τ).loc main_v19) ↦{fullShare} W main_v19) ∗ (((c.tc : Thread nD τ).loc main_v20) ↦{fullShare} W main_v20) ∗ (((c.tc : Thread nD τ).loc main_v22) ↦{fullShare} W main_v22) ∗ (((c.tc : Thread nD τ).loc main_v23) ↦{fullShare} W main_v23) ∗ (((c.tc : Thread nD τ).loc main_v25) ↦{fullShare} W main_v25) ∗ (((c.tc : Thread nD τ).loc main_v27) ↦{fullShare} W main_v27) ∗ (((c.tc : Thread nD τ).loc main_v29) ↦{fullShare} W main_v29) ∗ (((c.tc : Thread nD τ).loc main_v30) ↦{fullShare} W main_v30) ∗ (((c.tc : Thread nD τ).loc main_v31_0) ↦{fullShare} W main_v31_0) ∗ (((c.tc : Thread nD τ).loc main_v31_1) ↦{fullShare} W main_v31_1)) := by
  unfold Pipeline.arrBufs
  exact Idealize.SL.BI.bigSep_eq_bigSepL_of_eq _ arrRefs_eq (by decide) _

set_option maxHeartbeats 4000000 in
/-- ENTRY: the fourteen arrays at the entry contents, dealt to the sixteen windows. -/
theorem deal (c : Dev nD) :
    (Pipeline.arrBufs (Ix := Unit) (Name := ℕ) (U := UR sig nD τ) (Lvl := ℕ) spec0 c (V c) : sProp 𝕄)
      ⊢ (dat V c).arrays ((dat V c).arrAt · 0) := by
  rw [arrays_shares, bigSep_W0, arrBufs_chain]
  iintro ⟨H_main_v6, H_main_v13, H_main_v15, H_main_v17, H_main_v19, H_main_v20, H_main_v22, H_main_v23, H_main_v25, H_main_v27, H_main_v29, H_main_v30, H_main_v31_0, H_main_v31_1⟩
  ihave Hh := halves _ _ $$ H_main_v6
  icases Hh with ⟨Hhl, Hhr⟩
  ihave Hc := halves _ _ $$ H_main_v13
  icases Hc with ⟨Hcl, Hcr⟩
  isplitl [Hhl]; · iexact Hhl
  isplitl [Hhr]; · iexact Hhr
  isplitl [Hcl]; · iexact Hcl
  isplitl [Hcr]; · iexact Hcr
  isplitl [H_main_v15]; · iexact H_main_v15
  isplitl [H_main_v17]; · iexact H_main_v17
  isplitl [H_main_v19]; · iexact H_main_v19
  isplitl [H_main_v20]; · iexact H_main_v20
  isplitl [H_main_v22]; · iexact H_main_v22
  isplitl [H_main_v23]; · iexact H_main_v23
  isplitl [H_main_v25]; · iexact H_main_v25
  isplitl [H_main_v27]; · iexact H_main_v27
  isplitl [H_main_v29]; · iexact H_main_v29
  isplitl [H_main_v30]; · iexact H_main_v30
  isplitl [H_main_v31_0]; · iexact H_main_v31_0
  iexact H_main_v31_1

/-- An input's array is never written: after the last grid point it is as the region found it. -/
theorem input_kept (c : Dev nD) (w : Fin cfg0.W) (hw : (cfg0.win w).isOut = false) (q : PosShare TreeShare) :
    ((((c.tc : Thread nD τ).loc (Pipeline.arrRef cfg0.spec w)) ↦{q} (dat V c).arrAt w cfg0.N : sProp 𝕄))
      ⊢ (((c.tc : Thread nD τ).loc (Pipeline.arrRef cfg0.spec w)) ↦{q} (dat V c).A w) :=
  Entails.of_eq (by rw [(dat V c).arrAt_in w hw])

set_option maxHeartbeats 8000000 in
/-- EXIT: the windows' arrays after the last grid point make the fourteen arrays at the exit contents `V'`: as at
    entry but for the two outputs, which hold what the write-backs left. -/
theorem join (c : Dev nD) (V' : (b : Ref sig .tc) → Buf (Elt F) ((c : Thread nD τ).loc b))
    (hin : ∀ b, b ≠ main_v31_0 → b ≠ main_v31_1 → V' b = V c b)
    (hH : V' main_v31_0 = (dat V c).arrAt 14 cfg0.N) (hC : V' main_v31_1 = (dat V c).arrAt 15 cfg0.N) :
    ((dat V c).arrays ((dat V c).arrAt · cfg0.N) : sProp 𝕄)
      ⊢ Pipeline.arrBufs (Ix := Unit) (Name := ℕ) (U := UR sig nD τ) (Lvl := ℕ) spec0 c V' := by
  rw [arrays_shares, bigSep_W0, arrBufs_chain]
  rw [hin main_v6 (by decide) (by decide), hin main_v13 (by decide) (by decide), hin main_v15 (by decide) (by decide), hin main_v17 (by decide) (by decide), hin main_v19 (by decide) (by decide), hin main_v20 (by decide) (by decide), hin main_v22 (by decide) (by decide), hin main_v23 (by decide) (by decide), hin main_v25 (by decide) (by decide), hin main_v27 (by decide) (by decide), hin main_v29 (by decide) (by decide), hin main_v30 (by decide) (by decide), hH, hC]
  iintro ⟨W0, W1, W2, W3, W4, W5, W6, W7, W8, W9, W10, W11, W12, W13, W14, W15⟩
  ihave K0 := input_kept V c 0 rfl _ $$ W0
  ihave K1 := input_kept V c 1 rfl _ $$ W1
  ihave K2 := input_kept V c 2 rfl _ $$ W2
  ihave K3 := input_kept V c 3 rfl _ $$ W3
  ihave K4 := input_kept V c 4 rfl _ $$ W4
  ihave K5 := input_kept V c 5 rfl _ $$ W5
  ihave K6 := input_kept V c 6 rfl _ $$ W6
  ihave K7 := input_kept V c 7 rfl _ $$ W7
  ihave K8 := input_kept V c 8 rfl _ $$ W8
  ihave K9 := input_kept V c 9 rfl _ $$ W9
  ihave K10 := input_kept V c 10 rfl _ $$ W10
  ihave K11 := input_kept V c 11 rfl _ $$ W11
  ihave K12 := input_kept V c 12 rfl _ $$ W12
  ihave K13 := input_kept V c 13 rfl _ $$ W13
  isplitl [K0 K1]
  · iapply whole; isplitl [K0]; · iexact K0
    iexact K1
  isplitl [K2 K3]
  · iapply whole; isplitl [K2]; · iexact K2
    iexact K3
  isplitl [K4]; · iexact K4
  isplitl [K5]; · iexact K5
  isplitl [K6]; · iexact K6
  isplitl [K7]; · iexact K7
  isplitl [K8]; · iexact K8
  isplitl [K9]; · iexact K9
  isplitl [K10]; · iexact K10
  isplitl [K11]; · iexact K11
  isplitl [K12]; · iexact K12
  isplitl [K13]; · iexact K13
  isplitl [W14]; · iexact W14
  iexact W15

/-- A core's unscoped buffers are the buffers behind the windows' arrays and the rest. -/
theorem unscoped_split (c : Dev nD) (W : (b : Ref sig .tc) → Buf (Elt F) ((c : Thread nD τ).loc b)) :
    (unscopedBufs (Ix := Unit) (Name := ℕ) (U := UR sig nD τ) (Lvl := ℕ) c W : sProp 𝕄)
      = iprop((Pipeline.arrBufs spec0 c W : sProp 𝕄) ∗ Pipeline.unscopedRest spec0 c W) := by
  classical
  have hA : Finset.univ.image (Pipeline.arrRef spec0) ⊆ Finset.univ.filter fun b : Ref sig .tc => ¬ b.isScoped := by decide
  unfold unscopedBufs Pipeline.unscopedRest Pipeline.arrBufs
  rw [bigSep_sdiff_split hA]
  rfl

/-- The rest does not see a change of the two outputs' arrays. -/
theorem rest_congr (c : Dev nD) (W W' : (b : Ref sig .tc) → Buf (Elt F) ((c : Thread nD τ).loc b))
    (h : ∀ b, b ≠ main_v31_0 → b ≠ main_v31_1 → W' b = W b) :
    (Pipeline.unscopedRest (Ix := Unit) (Name := ℕ) (U := UR sig nD τ) (Lvl := ℕ) spec0 c W : sProp 𝕄) = Pipeline.unscopedRest spec0 c W' := by
  unfold Pipeline.unscopedRest
  refine Idealize.SL.BI.bigSep_congr fun b hb => ?_
  have hb' : b ∉ Finset.univ.image (Pipeline.arrRef spec0) := (Finset.mem_sdiff.mp hb).2
  rw [h b (fun e => hb' (by rw [e]; decide)) (fun e => hb' (by rw [e]; decide))]

end Deal

end Cert.KernelIdeal.Gen.Layer0

end
-- ==== Proof.IdealLayer1Base.lean ====
/-
  Message-passing layer 2 as a pipelined kernel over a 6 × 6 grid of 128-row tiles (i over the receiving nodes, j over
  the sending ones, j the reduction axis): what the three kinds of step share. The body's two branches depend on j only:
  the first (zero both accumulators) is taken exactly when j = 0, the second (scale the sums by 1/768, apply the second
  linear map, add the residual and store both outputs) exactly when j = 5. The two outputs' tiles are touched only at
  j = 5, which is also where they are written back; the accumulators live in two scratch buffers of the kernel's own.
-/
import proofs.«110946_j38972533244288_1_alg».proof.Proof.Gen.KernelIdeal.Launch
import proofs.«110946_j38972533244288_1_alg».proof.Proof.Gen.KernelIdeal.Skeleton
import proofs.«110946_j38972533244288_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The two branch conditions, decided over the grid -/

/-- The first branch's condition: j = 0. -/
abbrev isFirst (i : grid1.Coords) : Prop := (Scalar.cmpi .ne (Scalar.extui (Scalar.cmpi .eq (BitVec.ofNat 32 (i 1).val) 0#32)) 0#32) = 1#1
theorem isFirst_iff : ∀ t : Fin cfg1.N, isFirst (grid1.coords t) ↔ t.val % 6 = 0 :=
  (by decide +kernel : ∀ t : Fin grid1.N, isFirst (grid1.coords t) ↔ t.val % 6 = 0)
/-- The second branch's condition: j = 5. -/
abbrev isLast (i : grid1.Coords) : Prop := k1_cond2 i = 1#1
theorem isLast_iff : ∀ t : Fin cfg1.N, isLast (grid1.coords t) ↔ t.val % 6 = 5 :=
  (by decide +kernel : ∀ t : Fin grid1.N, isLast (grid1.coords t) ↔ t.val % 6 = 5)

/-! ## Where a window is idle: an input never, an output except at j = 5 (where it is also written back) -/

theorem live_0 : ∀ i, cfg1.idle 0 i = false := fun _ => rfl
theorem live_1 : ∀ i, cfg1.idle 1 i = false := fun _ => rfl
theorem live_2 : ∀ i, cfg1.idle 2 i = false := fun _ => rfl
theorem live_3 : ∀ i, cfg1.idle 3 i = false := fun _ => rfl
theorem live_4 : ∀ i, cfg1.idle 4 i = false := fun _ => rfl
theorem live_5 : ∀ i, cfg1.idle 5 i = false := fun _ => rfl
theorem live_6 : ∀ i, cfg1.idle 6 i = false := fun _ => rfl
theorem live_7 : ∀ i, cfg1.idle 7 i = false := fun _ => rfl
theorem live_8 : ∀ i, cfg1.idle 8 i = false := fun _ => rfl
theorem live_9 : ∀ i, cfg1.idle 9 i = false := fun _ => rfl
theorem live_10 : ∀ i, cfg1.idle 10 i = false := fun _ => rfl
theorem live_11 : ∀ i, cfg1.idle 11 i = false := fun _ => rfl
theorem live_12 : ∀ i, cfg1.idle 12 i = false := fun _ => rfl
theorem live_13 : ∀ i, cfg1.idle 13 i = false := fun _ => rfl
theorem idle_14 : ∀ t : Fin cfg1.N, ¬isLast (grid1.coords t) → cfg1.idle 14 (grid1.coords t) = true := by decide +kernel
theorem noFlush_14 : ∀ t : Fin cfg1.N, ¬isLast (grid1.coords t) → (cfg1.win 14).flush t = false := by decide +kernel
theorem live_14 : ∀ t : Fin cfg1.N, isLast (grid1.coords t) → cfg1.idle 14 (grid1.coords t) = false := by decide +kernel
theorem idle_15 : ∀ t : Fin cfg1.N, ¬isLast (grid1.coords t) → cfg1.idle 15 (grid1.coords t) = true := by decide +kernel
theorem noFlush_15 : ∀ t : Fin cfg1.N, ¬isLast (grid1.coords t) → (cfg1.win 15).flush t = false := by decide +kernel
theorem live_15 : ∀ t : Fin cfg1.N, isLast (grid1.coords t) → cfg1.idle 15 (grid1.coords t) = false := by decide +kernel

/-! ## The memrefs the body is called with -/

/-- One staging buffer of each output, through which its contents are stated. -/
abbrev viewH : View sig .tc .vmem S128x128 .f32 := (Memref.whole cc1_stg14_0 : Memref sig .tc .vmem S128x128 .f32).view
abbrev viewC : View sig .tc .vmem S128x3 .f32 := (Memref.whole cc1_stg15_0 : Memref sig .tc .vmem S128x3 .f32).view
abbrev ms_0 (t : Fin cfg1.N) : Memref sig .tc .vmem S128x128 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S128x128 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S128x3 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S128x3 .f32 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S128x128 .f32 := win1_4.stage (cfg1.slots t 4)
abbrev hs_4 (t : Fin cfg1.N) : (ms_4 t).IsWhole := hstage1_4 ((cfg1.slots t 4).cast nbuf1_4)
abbrev ms_5 (t : Fin cfg1.N) : Memref sig .tc .vmem S128x128 .f32 := win1_5.stage (cfg1.slots t 5)
abbrev hs_5 (t : Fin cfg1.N) : (ms_5 t).IsWhole := hstage1_5 ((cfg1.slots t 5).cast nbuf1_5)
abbrev ms_6 (t : Fin cfg1.N) : Memref sig .tc .vmem S1x128 .f32 := win1_6.stage (cfg1.slots t 6)
abbrev hs_6 (t : Fin cfg1.N) : (ms_6 t).IsWhole := hstage1_6 ((cfg1.slots t 6).cast nbuf1_6)
abbrev ms_7 (t : Fin cfg1.N) : Memref sig .tc .vmem S1x128 .f32 := win1_7.stage (cfg1.slots t 7)
abbrev hs_7 (t : Fin cfg1.N) : (ms_7 t).IsWhole := hstage1_7 ((cfg1.slots t 7).cast nbuf1_7)
abbrev ms_8 (t : Fin cfg1.N) : Memref sig .tc .vmem S128x128 .f32 := win1_8.stage (cfg1.slots t 8)
abbrev hs_8 (t : Fin cfg1.N) : (ms_8 t).IsWhole := hstage1_8 ((cfg1.slots t 8).cast nbuf1_8)
abbrev ms_9 (t : Fin cfg1.N) : Memref sig .tc .vmem S1x128 .f32 := win1_9.stage (cfg1.slots t 9)
abbrev hs_9 (t : Fin cfg1.N) : (ms_9 t).IsWhole := hstage1_9 ((cfg1.slots t 9).cast nbuf1_9)
abbrev ms_10 (t : Fin cfg1.N) : Memref sig .tc .vmem S128x1 .f32 := win1_10.stage (cfg1.slots t 10)
abbrev hs_10 (t : Fin cfg1.N) : (ms_10 t).IsWhole := hstage1_10 ((cfg1.slots t 10).cast nbuf1_10)
abbrev ms_11 (t : Fin cfg1.N) : Memref sig .tc .vmem S128x1 .f32 := win1_11.stage (cfg1.slots t 11)
abbrev hs_11 (t : Fin cfg1.N) : (ms_11 t).IsWhole := hstage1_11 ((cfg1.slots t 11).cast nbuf1_11)
abbrev ms_12 (t : Fin cfg1.N) : Memref sig .tc .vmem S1x1 .f32 := win1_12.stage (cfg1.slots t 12)
abbrev hs_12 (t : Fin cfg1.N) : (ms_12 t).IsWhole := hstage1_12 ((cfg1.slots t 12).cast nbuf1_12)
abbrev ms_13 (t : Fin cfg1.N) : Memref sig .tc .vmem S1x1 .f32 := win1_13.stage (cfg1.slots t 13)
abbrev hs_13 (t : Fin cfg1.N) : (ms_13 t).IsWhole := hstage1_13 ((cfg1.slots t 13).cast nbuf1_13)
abbrev ms_14 (t : Fin cfg1.N) : Memref sig .tc .vmem S128x128 .f32 := win1_14.stage (cfg1.slots t 14)
abbrev hs_14 (t : Fin cfg1.N) : (ms_14 t).IsWhole := hstage1_14 ((cfg1.slots t 14).cast nbuf1_14)
abbrev ms_15 (t : Fin cfg1.N) : Memref sig .tc .vmem S128x3 .f32 := win1_15.stage (cfg1.slots t 15)
abbrev hs_15 (t : Fin cfg1.N) : (ms_15 t).IsWhole := hstage1_15 ((cfg1.slots t 15).cast nbuf1_15)
/-- The two accumulators: the sum over j of the messages, and of the weighted coordinate differences. -/
abbrev accH : Memref sig .tc .vmem S128x128 .f32 := Memref.whole cc1_scratch0
abbrev accC : Memref sig .tc .vmem S128x3 .f32 := Memref.whole cc1_scratch1
abbrev viewAccH : View sig .tc .vmem S128x128 .f32 := accH.view
abbrev viewAccC : View sig .tc .vmem S128x3 .f32 := accC.view

/-- The scoped buffers of the core that are neither this kernel's staging buffers nor its accumulators. -/
abbrev others (c : Dev nD) : sProp 𝕄 :=
  Pipeline.scopedRestBut (Ix := Unit) (Name := ℕ) (U := UR sig nD τ) (Lvl := ℕ) (Val := Elt F) spec1 c [cc1_scratch0, cc1_scratch1]

/-- The region's invariant before the first step: both accumulators at anything, the other scoped buffers, the
    generator register. -/
theorem phiA_eq (c : Dev nD) :
    (Pipeline.ΦA spec1 c : sProp 𝕄)
      = iprop(iprop(iprop((∃ d, owns (c : Thread nD τ) accH fullShare d) ∗ (∃ d, owns (c : Thread nD τ) accC fullShare d)) ∗ others c) ∗ (∃ r, prngReg c r)) := by
  unfold Pipeline.ΦA; rw [scopedRest1_split]; simp only [accH, accC, owns_whole]; try rfl

/-! ## The windows' blocks, read off the arrays as the region finds them -/

section Blocks
variable (V : (c : Dev nD) → (b : Ref sig .tc) → Buf (Elt F) ((c : Thread nD τ).loc b))

/-- Window `w`'s tile at grid point `t`. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input 0's current staging buffer holds its tile at every grid point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1's current staging buffer holds its tile at every grid point, fetched there or not. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input 2's current staging buffer holds its tile at every grid point, fetched there or not. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input 3's current staging buffer holds its tile at every grid point, fetched there or not. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input 4's current staging buffer holds its tile at every grid point, fetched there or not. -/
theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input 5's current staging buffer holds its tile at every grid point, fetched there or not. -/
theorem before_5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input 6's current staging buffer holds its tile at every grid point, fetched there or not. -/
theorem before_6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input 7's current staging buffer holds its tile at every grid point, fetched there or not. -/
theorem before_7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input 8's current staging buffer holds its tile at every grid point, fetched there or not. -/
theorem before_8_of {c : Dev nD} (dat : Dat τ (Elt F) Unit ℕ (UR sig nD τ) ℕ cfg1 c) (hA : dat.A 8 = V c (Pipeline.arrRef spec1 8))
    (hafter : ∀ t, dat.after 8 t = iblk V c 8 t) (t : Fin cfg1.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input 9's current staging buffer holds its tile at every grid point, fetched there or not. -/
theorem before_9_of {c : Dev nD} (dat : Dat τ (Elt F) Unit ℕ (UR sig nD τ) ℕ cfg1 c) (hA : dat.A 9 = V c (Pipeline.arrRef spec1 9))
    (hafter : ∀ t, dat.after 9 t = iblk V c 9 t) (t : Fin cfg1.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input 10's current staging buffer holds its tile at every grid point, fetched there or not. -/
theorem before_10_of {c : Dev nD} (dat : Dat τ (Elt F) Unit ℕ (UR sig nD τ) ℕ cfg1 c) (hA : dat.A 10 = V c (Pipeline.arrRef spec1 10))
    (hafter : ∀ t, dat.after 10 t = iblk V c 10 t) (t : Fin cfg1.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input 11's current staging buffer holds its tile at every grid point, fetched there or not. -/
theorem before_11_of {c : Dev nD} (dat : Dat τ (Elt F) Unit ℕ (UR sig nD τ) ℕ cfg1 c) (hA : dat.A 11 = V c (Pipeline.arrRef spec1 11))
    (hafter : ∀ t, dat.after 11 t = iblk V c 11 t) (t : Fin cfg1.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input 12's current staging buffer holds its tile at every grid point, fetched there or not. -/
theorem before_12_of {c : Dev nD} (dat : Dat τ (Elt F) Unit ℕ (UR sig nD τ) ℕ cfg1 c) (hA : dat.A 12 = V c (Pipeline.arrRef spec1 12))
    (hafter : ∀ t, dat.after 12 t = iblk V c 12 t) (t : Fin cfg1.N) (d) : dat.before 12 t d = iblk V c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input 13's current staging buffer holds its tile at every grid point, fetched there or not. -/
theorem before_13_of {c : Dev nD} (dat : Dat τ (Elt F) Unit ℕ (UR sig nD τ) ℕ cfg1 c) (hA : dat.A 13 = V c (Pipeline.arrRef spec1 13))
    (hafter : ∀ t, dat.after 13 t = iblk V c 13 t) (t : Fin cfg1.N) (d) : dat.before 13 t d = iblk V c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
end Blocks

end Cert.KernelIdeal.Gen.Layer1

end
-- ==== Proof.IdealLayer1First.lean ====
/-
  Layer 2's kernel body at one kind of grid point, run on whole staging memrefs.
  THE FIRST STEP (j = 0): both accumulators, found at anything, are zeroed and then take this tile's sums; the outputs'
  buffers are not touched.
  The lists of stored pieces each buffer ends with are found by running the body.
-/
import proofs.«110946_j38972533244288_1_alg».proof.Proof.IdealLayer1Base

set_option maxRecDepth 16384

noncomputable section

namespace Cert.KernelIdeal.Gen.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at such a point, from the inputs' tiles (and what it finds in the accumulators), to the continuation holding the inputs
    as they were and every buffer it stored into with its pieces written. -/
noncomputable def stepFirst (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) :
    Σ' (LS0 : List (View.Piece (Elt F) S128x128 .f32)), { LS1 : List (View.Piece (Elt F) S128x3 .f32) //
      ∀ (xi14 : Vec F S128x128 .f32) (xi15 : Vec F S128x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ owns (c : Thread nD τ) arg17 fullShare xi15 ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ owns (c : Thread nD τ) arg17 fullShare xi15 ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc1__layer_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun xi14 xi15 E K => ?run⟩
  case run =>
    simp only [cc1__layer_kernel_eq_skeleton]; unfold cc1__layer_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [HS0]; · iexists _; iexact HS0
    iexists _; iexact HS1

end Cert.KernelIdeal.Gen.Layer1

end
-- ==== Proof.IdealLayer1Mid.lean ====
/-
  Layer 2's kernel body at one kind of grid point, run on whole staging memrefs.
  A MIDDLE STEP (0 < j < 5): both accumulators take this tile's sums on top of what the step before left; the outputs'
  buffers are not touched.
  The lists of stored pieces each buffer ends with are found by running the body.
-/
import proofs.«110946_j38972533244288_1_alg».proof.Proof.IdealLayer1First

set_option maxRecDepth 16384

noncomputable section

namespace Cert.KernelIdeal.Gen.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at such a point, from the inputs' tiles (and what it finds in the accumulators), to the continuation holding the inputs
    as they were and every buffer it stored into with its pieces written. -/
noncomputable def stepMid (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) :
    Σ' (LS0 : List (View.Piece (Elt F) S128x128 .f32)), { LS1 : List (View.Piece (Elt F) S128x3 .f32) //
      ∀ (xi14 : Vec F S128x128 .f32) (xi15 : Vec F S128x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ owns (c : Thread nD τ) arg17 fullShare xi15 ∗ owns (c : Thread nD τ) arg18 fullShare xs0 ∗ owns (c : Thread nD τ) arg19 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ owns (c : Thread nD τ) arg17 fullShare xi15 ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc1__layer_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun xi14 xi15 E K => ?run⟩
  case run =>
    simp only [cc1__layer_kernel_eq_skeleton]; unfold cc1__layer_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hfs0; obtain rfl := harg19.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [HS0]; · iexists _; iexact HS0
    iexists _; iexact HS1

end Cert.KernelIdeal.Gen.Layer1

end
-- ==== Proof.IdealLayer1Last.lean ====
/-
  Layer 2's kernel body at one kind of grid point, run on whole staging memrefs.
  THE LAST STEP (j = 5): both accumulators take this tile's sums; then the message sum is scaled by 1/768, multiplied by
  the second weight matrix, biased and added to the receiving nodes' features, and the coordinate sum is scaled by
  1/768 and added to their coordinates: each output's buffer is stored whole.
  The lists of stored pieces each buffer ends with are found by running the body.
-/
import proofs.«110946_j38972533244288_1_alg».proof.Proof.IdealLayer1Mid

set_option maxRecDepth 16384

noncomputable section

namespace Cert.KernelIdeal.Gen.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at such a point, from the inputs' tiles (and what it finds in the accumulators), to the continuation holding the inputs
    as they were and every buffer it stored into with its pieces written. -/
noncomputable def stepLast (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) :
    Σ' (L14 : List (View.Piece (Elt F) S128x128 .f32)) (L15 : List (View.Piece (Elt F) S128x3 .f32)) (LS0 : List (View.Piece (Elt F) S128x128 .f32)), { LS1 : List (View.Piece (Elt F) S128x3 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ owns (c : Thread nD τ) arg18 fullShare xs0 ∗ owns (c : Thread nD τ) arg19 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc1__layer_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun E K => ?run⟩
  case run =>
    simp only [cc1__layer_kernel_eq_skeleton]; unfold cc1__layer_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg18.eq_unread hfs0; obtain rfl := harg19.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [H15]; · iexists _; iexact H15
    isplitl [HS0]; · iexists _; iexact HS0
    iexists _; iexact HS1

end Cert.KernelIdeal.Gen.Layer1

end
-- ==== Proof.IdealLayer1Data.lean ====
/-
  Layer 2's kernel over its 36 grid points: what the two accumulators and the two outputs' buffers hold after each point
  (a recursion over the points: zeroed and refilled at j = 0, added to at 0 < j < 5, added to and read out at j = 5), the
  region's invariant carrying the accumulators from one point to the next, the pipeline's proof data at any contents `V`
  of the arrays at the region's entry, and the body's obligation at every point.
-/
import proofs.«110946_j38972533244288_1_alg».proof.Proof.IdealLayer1Last

set_option maxRecDepth 16384

noncomputable section

namespace Cert.KernelIdeal.Gen.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What each kind of step leaves: its stored pieces cover each buffer it stores into -/
theorem cover_accH_First (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (y : S128x128.Idx) :
    ∃ pc ∈ (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).1, y ∈ pc.1.set :=
  View.cover_of_tiledL (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).1 S128x128.size (by sl_kernel_rfl) y
/-- Its contents then: the pieces read back. -/
def accH_First (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) : Vec F S128x128 .f32 :=
  viewAccH.read (Elt F) (viewAccH.writes (Elt F) viewAccH.junk (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).1)
theorem cover_accC_First (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (y : S128x3.Idx) :
    ∃ pc ∈ (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).2.1, y ∈ pc.1.set :=
  View.cover_of_tiledL (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).2.1 S128x3.size (by sl_kernel_rfl) y
/-- Its contents then: the pieces read back. -/
def accC_First (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) : Vec F S128x3 .f32 :=
  viewAccC.read (Elt F) (viewAccC.writes (Elt F) viewAccC.junk (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).2.1)
theorem cover_accH_Mid (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x128.Idx) :
    ∃ pc ∈ (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1, y ∈ pc.1.set :=
  View.cover_of_tiledL (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1 S128x128.size (by sl_kernel_rfl) y
/-- Its contents then: the pieces read back. -/
def accH_Mid (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x128 .f32 :=
  viewAccH.read (Elt F) (viewAccH.writes (Elt F) viewAccH.junk (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1)
theorem cover_accC_Mid (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x3.Idx) :
    ∃ pc ∈ (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1, y ∈ pc.1.set :=
  View.cover_of_tiledL (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1 S128x3.size (by sl_kernel_rfl) y
/-- Its contents then: the pieces read back. -/
def accC_Mid (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x3 .f32 :=
  viewAccC.read (Elt F) (viewAccC.writes (Elt F) viewAccC.junk (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1)
theorem cover_outH_Last (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x128.Idx) :
    ∃ pc ∈ (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1, y ∈ pc.1.set :=
  View.cover_of_tiledL (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1 S128x128.size (by sl_kernel_rfl) y
/-- Its contents then: the pieces read back. -/
def outH_Last (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x128 .f32 :=
  viewH.read (Elt F) (viewH.writes (Elt F) viewH.junk (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1)
theorem cover_outC_Last (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x3.Idx) :
    ∃ pc ∈ (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1, y ∈ pc.1.set :=
  View.cover_of_tiledL (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1 S128x3.size (by sl_kernel_rfl) y
/-- Its contents then: the pieces read back. -/
def outC_Last (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x3 .f32 :=
  viewC.read (Elt F) (viewC.writes (Elt F) viewC.junk (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1)
theorem cover_accH_Last (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x128.Idx) :
    ∃ pc ∈ (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.1, y ∈ pc.1.set :=
  View.cover_of_tiledL (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.1 S128x128.size (by sl_kernel_rfl) y
/-- Its contents then: the pieces read back. -/
def accH_Last (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x128 .f32 :=
  viewAccH.read (Elt F) (viewAccH.writes (Elt F) viewAccH.junk (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.1)
theorem cover_accC_Last (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x3.Idx) :
    ∃ pc ∈ (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.2.1, y ∈ pc.1.set :=
  View.cover_of_tiledL (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.2.1 S128x3.size (by sl_kernel_rfl) y
/-- Its contents then: the pieces read back. -/
def accC_Last (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x3 .f32 :=
  viewAccC.read (Elt F) (viewAccC.writes (Elt F) viewAccC.junk (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.2.1)

section Data
variable (V : (c : Dev nD) → (b : Ref sig .tc) → Buf (Elt F) ((c : Thread nD τ).loc b))

/-! ## The state after each grid point -/

/-- Placeholders for the outputs' buffers at the points that do not touch them (nothing reads them: at those points the
    buffers are neither written back nor stated). -/
abbrev idleH : Vec F S128x128 .f32 := viewH.read (Elt F) viewH.junk
abbrev idleC : Vec F S128x3 .f32 := viewC.read (Elt F) viewC.junk

/-- THE ACCUMULATION: after the body at position `n`, the two outputs' buffers and the two accumulators. -/
def stateAt (c : Dev nD) : (n : ℕ) → n < cfg1.N → Vec F S128x128 .f32 × Vec F S128x3 .f32 × Vec F S128x128 .f32 × Vec F S128x3 .f32
  | 0, hn => (idleH, idleC,
      accH_First c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) (ms_10 ⟨0, hn⟩) (hs_10 ⟨0, hn⟩) (ms_11 ⟨0, hn⟩) (hs_11 ⟨0, hn⟩) (ms_12 ⟨0, hn⟩) (hs_12 ⟨0, hn⟩) (ms_13 ⟨0, hn⟩) (hs_13 ⟨0, hn⟩) (ms_14 ⟨0, hn⟩) (hs_14 ⟨0, hn⟩) (ms_15 ⟨0, hn⟩) (hs_15 ⟨0, hn⟩) accH (Memref.isWhole_whole _) accC (Memref.isWhole_whole _) ((isFirst_iff ⟨0, hn⟩).mpr (Nat.zero_mod _)) (fun h => (fun h' => by (try dsimp only at h'); omega) ((isLast_iff ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩) (iblk V c 10 ⟨0, hn⟩) (iblk V c 11 ⟨0, hn⟩) (iblk V c 12 ⟨0, hn⟩) (iblk V c 13 ⟨0, hn⟩),
      accC_First c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) (ms_10 ⟨0, hn⟩) (hs_10 ⟨0, hn⟩) (ms_11 ⟨0, hn⟩) (hs_11 ⟨0, hn⟩) (ms_12 ⟨0, hn⟩) (hs_12 ⟨0, hn⟩) (ms_13 ⟨0, hn⟩) (hs_13 ⟨0, hn⟩) (ms_14 ⟨0, hn⟩) (hs_14 ⟨0, hn⟩) (ms_15 ⟨0, hn⟩) (hs_15 ⟨0, hn⟩) accH (Memref.isWhole_whole _) accC (Memref.isWhole_whole _) ((isFirst_iff ⟨0, hn⟩).mpr (Nat.zero_mod _)) (fun h => (fun h' => by (try dsimp only at h'); omega) ((isLast_iff ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩) (iblk V c 10 ⟨0, hn⟩) (iblk V c 11 ⟨0, hn⟩) (iblk V c 12 ⟨0, hn⟩) (iblk V c 13 ⟨0, hn⟩))
  | n + 1, hn =>
    if h0 : (n + 1) % 6 = 0 then
      (idleH, idleC,
        accH_First c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) ((isFirst_iff ⟨n + 1, hn⟩).mpr h0) (fun h => (fun h' => by (try dsimp only at h'); omega) ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩),
        accC_First c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) ((isFirst_iff ⟨n + 1, hn⟩).mpr h0) (fun h => (fun h' => by (try dsimp only at h'); omega) ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩))
    else if h1 : (n + 1) % 6 = 5 then
      (outH_Last c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2,
        outC_Last c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2,
        accH_Last c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2,
        accC_Last c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2)
    else
      (idleH, idleC,
        accH_Mid c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2,
        accC_Mid c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2)

/-- The point before `t`, when `t` is not the first. -/
abbrev prevLt (t : Fin cfg1.N) : t.val - 1 < cfg1.N := Nat.lt_of_le_of_lt (Nat.sub_le _ _) t.isLt

theorem stateAt_first (c : Dev nD) (t : Fin cfg1.N) (h0 : t.val % 6 = 0) :
    stateAt V c t.val t.isLt = (idleH, idleC,
      accH_First c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) ((isFirst_iff t).mpr h0) (fun h => (fun h' => by omega) ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t),
      accC_First c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) ((isFirst_iff t).mpr h0) (fun h => (fun h' => by omega) ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t)) := by
  obtain ⟨n, hn⟩ := t
  cases n with
  | zero => exact rfl
  | succ n => exact (dif_pos h0).trans rfl

theorem stateAt_mid (c : Dev nD) (t : Fin cfg1.N) (h0 : ¬t.val % 6 = 0) (h1 : ¬t.val % 6 = 5) :
    stateAt V c t.val t.isLt = (idleH, idleC,
      accH_Mid c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) (fun h => h1 ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2,
      accC_Mid c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) (fun h => h1 ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2) := by
  obtain ⟨n, hn⟩ := t
  cases n with
  | zero => exact absurd (Nat.zero_mod _) h0
  | succ n => exact (dif_neg h0).trans ((dif_neg h1).trans rfl)

theorem stateAt_last (c : Dev nD) (t : Fin cfg1.N) (h0 : ¬t.val % 6 = 0) (h1 : t.val % 6 = 5) :
    stateAt V c t.val t.isLt = (
      outH_Last c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2,
      outC_Last c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2,
      accH_Last c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2,
      accC_Last c (grid1.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2) := by
  obtain ⟨n, hn⟩ := t
  cases n with
  | zero => exact absurd (Nat.zero_mod _) h0
  | succ n => exact (dif_neg h0).trans ((dif_pos h1).trans rfl)

/-! ## The region's invariant: the accumulators carried from point to point -/

def PhiS (c : Dev nD) : (n : ℕ) → n ≤ cfg1.N → sProp 𝕄
  | 0, _ => Pipeline.ΦA spec1 c
  | n + 1, hn => iprop(iprop(iprop(owns (c : Thread nD τ) accH fullShare ((stateAt V c n hn).2.2.1) ∗ owns (c : Thread nD τ) accC fullShare ((stateAt V c n hn).2.2.2)) ∗ others c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(iprop(owns (c : Thread nD τ) accH fullShare ((stateAt V c n hn).2.2.1) ∗ owns (c : Thread nD τ) accC fullShare ((stateAt V c n hn).2.2.2)) ∗ others c) ∗ (∃ r, prngReg c r)) := rfl
theorem PhiS_pos (c : Dev nD) (n : ℕ) (h : n ≤ cfg1.N) (hz : n ≠ 0) :
    PhiS V c n h = iprop(iprop(iprop(owns (c : Thread nD τ) accH fullShare ((stateAt V c (n - 1) (by omega)).2.2.1) ∗ owns (c : Thread nD τ) accC fullShare ((stateAt V c (n - 1) (by omega)).2.2.2)) ∗ others c) ∗ (∃ r, prngReg c r)) := by
  cases n with
  | zero => exact absurd rfl hz
  | succ n => rfl

/-! ## The pipeline's proof data -/

/-- The arrays as the region finds them; after the body at a point each input's buffer at its tile, each output's at the state's
    component; the invariant above; the two node-feature windows and the two coordinate windows each hold half of their one
    array, every other input its array whole; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => (stateAt V c t.val t.isLt).1
    | ⟨15, _⟩ => (stateAt V c t.val t.isLt).2.1
    | ⟨_ + 16, h⟩ => absurd h (Nat.not_lt.2 (Nat.le_add_left _ _))
  Φ t := PhiS V c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨_ + 16, h⟩ => absurd h (Nat.not_lt.2 (Nat.le_add_left _ _))
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = iblk V c 6 t := by dsimp only [dat]
theorem after_7 (c : Dev nD) (t : Fin cfg1.N) : (dat V c).after 7 t = iblk V c 7 t := by dsimp only [dat]
theorem after_8 (c : Dev nD) (t : Fin cfg1.N) : (dat V c).after 8 t = iblk V c 8 t := by dsimp only [dat]
theorem after_9 (c : Dev nD) (t : Fin cfg1.N) : (dat V c).after 9 t = iblk V c 9 t := by dsimp only [dat]
theorem after_10 (c : Dev nD) (t : Fin cfg1.N) : (dat V c).after 10 t = iblk V c 10 t := by dsimp only [dat]
theorem after_11 (c : Dev nD) (t : Fin cfg1.N) : (dat V c).after 11 t = iblk V c 11 t := by dsimp only [dat]
theorem after_12 (c : Dev nD) (t : Fin cfg1.N) : (dat V c).after 12 t = iblk V c 12 t := by dsimp only [dat]
theorem after_13 (c : Dev nD) (t : Fin cfg1.N) : (dat V c).after 13 t = iblk V c 13 t := by dsimp only [dat]
theorem after_14 (c : Dev nD) (t : Fin cfg1.N) : (dat V c).after 14 t = (stateAt V c t.val t.isLt).1 := by dsimp only [dat]
theorem after_15 (c : Dev nD) (t : Fin cfg1.N) : (dat V c).after 15 t = (stateAt V c t.val t.isLt).2.1 := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d
theorem before_5 (c : Dev nD) (t : Fin cfg1.N) (d) : (dat V c).before 5 t d = iblk V c 5 t :=
  before_5_of V (dat V c) (A_eq V c 5) (after_5 V c) t d
theorem before_6 (c : Dev nD) (t : Fin cfg1.N) (d) : (dat V c).before 6 t d = iblk V c 6 t :=
  before_6_of V (dat V c) (A_eq V c 6) (after_6 V c) t d
theorem before_7 (c : Dev nD) (t : Fin cfg1.N) (d) : (dat V c).before 7 t d = iblk V c 7 t :=
  before_7_of V (dat V c) (A_eq V c 7) (after_7 V c) t d
theorem before_8 (c : Dev nD) (t : Fin cfg1.N) (d) : (dat V c).before 8 t d = iblk V c 8 t :=
  before_8_of V (dat V c) (A_eq V c 8) (after_8 V c) t d
theorem before_9 (c : Dev nD) (t : Fin cfg1.N) (d) : (dat V c).before 9 t d = iblk V c 9 t :=
  before_9_of V (dat V c) (A_eq V c 9) (after_9 V c) t d
theorem before_10 (c : Dev nD) (t : Fin cfg1.N) (d) : (dat V c).before 10 t d = iblk V c 10 t :=
  before_10_of V (dat V c) (A_eq V c 10) (after_10 V c) t d
theorem before_11 (c : Dev nD) (t : Fin cfg1.N) (d) : (dat V c).before 11 t d = iblk V c 11 t :=
  before_11_of V (dat V c) (A_eq V c 11) (after_11 V c) t d
theorem before_12 (c : Dev nD) (t : Fin cfg1.N) (d) : (dat V c).before 12 t d = iblk V c 12 t :=
  before_12_of V (dat V c) (A_eq V c 12) (after_12 V c) t d
theorem before_13 (c : Dev nD) (t : Fin cfg1.N) (d) : (dat V c).before 13 t d = iblk V c 13 t :=
  before_13_of V (dat V c) (A_eq V c 13) (after_13 V c) t d

/-! ## The body's obligation at a grid point -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d))
    ∗ (∃ d, owns (c : Thread nD τ) (ms_8 t) fullShare ((dat V c).before 8 t d))
    ∗ (∃ d, owns (c : Thread nD τ) (ms_9 t) fullShare ((dat V c).before 9 t d))
    ∗ (∃ d, owns (c : Thread nD τ) (ms_10 t) fullShare ((dat V c).before 10 t d))
    ∗ (∃ d, owns (c : Thread nD τ) (ms_11 t) fullShare ((dat V c).before 11 t d))
    ∗ (∃ d, owns (c : Thread nD τ) (ms_12 t) fullShare ((dat V c).before 12 t d))
    ∗ (∃ d, owns (c : Thread nD τ) (ms_13 t) fullShare ((dat V c).before 13 t d))
    ∗ (∃ d, owns (c : Thread nD τ) (ms_14 t) fullShare ((dat V c).before 14 t d))
    ∗ (∃ d, owns (c : Thread nD τ) (ms_15 t) fullShare ((dat V c).before 15 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t
    ∗ (dat V c).leavesExact 12 t
    ∗ (dat V c).leavesExact 13 t
    ∗ (dat V c).leavesExact 14 t
    ∗ (dat V c).leavesExact 15 t)

set_option maxHeartbeats 8000000 in
/-- The body at any point: the inputs' buffers hold their tiles; the point's position along the reduction axis says which kind of
    step it is; the invariant hands the step the accumulators at what the point before left (at anything before the first
    point) and takes them back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6, before_7, before_8, before_9, before_10, before_11, before_12, before_13]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [live_0], after_0]
  rw [show (dat V c).leavesExact 1 t = owns (c : Thread nD τ) (ms_1 t) fullShare ((dat V c).after 1 t) from by
    unfold Dat.leavesExact; rw [live_1], after_1]
  rw [show (dat V c).leavesExact 2 t = owns (c : Thread nD τ) (ms_2 t) fullShare ((dat V c).after 2 t) from by
    unfold Dat.leavesExact; rw [live_2], after_2]
  rw [show (dat V c).leavesExact 3 t = owns (c : Thread nD τ) (ms_3 t) fullShare ((dat V c).after 3 t) from by
    unfold Dat.leavesExact; rw [live_3], after_3]
  rw [show (dat V c).leavesExact 4 t = owns (c : Thread nD τ) (ms_4 t) fullShare ((dat V c).after 4 t) from by
    unfold Dat.leavesExact; rw [live_4], after_4]
  rw [show (dat V c).leavesExact 5 t = owns (c : Thread nD τ) (ms_5 t) fullShare ((dat V c).after 5 t) from by
    unfold Dat.leavesExact; rw [live_5], after_5]
  rw [show (dat V c).leavesExact 6 t = owns (c : Thread nD τ) (ms_6 t) fullShare ((dat V c).after 6 t) from by
    unfold Dat.leavesExact; rw [live_6], after_6]
  rw [show (dat V c).leavesExact 7 t = owns (c : Thread nD τ) (ms_7 t) fullShare ((dat V c).after 7 t) from by
    unfold Dat.leavesExact; rw [live_7], after_7]
  rw [show (dat V c).leavesExact 8 t = owns (c : Thread nD τ) (ms_8 t) fullShare ((dat V c).after 8 t) from by
    unfold Dat.leavesExact; rw [live_8], after_8]
  rw [show (dat V c).leavesExact 9 t = owns (c : Thread nD τ) (ms_9 t) fullShare ((dat V c).after 9 t) from by
    unfold Dat.leavesExact; rw [live_9], after_9]
  rw [show (dat V c).leavesExact 10 t = owns (c : Thread nD τ) (ms_10 t) fullShare ((dat V c).after 10 t) from by
    unfold Dat.leavesExact; rw [live_10], after_10]
  rw [show (dat V c).leavesExact 11 t = owns (c : Thread nD τ) (ms_11 t) fullShare ((dat V c).after 11 t) from by
    unfold Dat.leavesExact; rw [live_11], after_11]
  rw [show (dat V c).leavesExact 12 t = owns (c : Thread nD τ) (ms_12 t) fullShare ((dat V c).after 12 t) from by
    unfold Dat.leavesExact; rw [live_12], after_12]
  rw [show (dat V c).leavesExact 13 t = owns (c : Thread nD τ) (ms_13 t) fullShare ((dat V c).after 13 t) from by
    unfold Dat.leavesExact; rw [live_13], after_13]
  have hN : t.val < 36 := lt_of_lt_of_eq t.isLt (show cfg1.N = 36 from N_1)
  by_cases h0 : t.val % 6 = 0
  · have hnl : ¬isLast (grid1.coords t) := fun h => (fun h' => by omega) ((isLast_iff t).mp h)
    rw [Dat.leavesExact_idle (dat V c) 14 t (idle_14 t hnl) (noFlush_14 t hnl)]
    rw [Dat.leavesExact_idle (dat V c) 15 t (idle_15 t hnl) (noFlush_15 t hnl)]
    rw [stateAt_first V c t h0]
    unfold accH_First accC_First; (try dsimp only)
    by_cases hz : t.val = 0
    · rw [PhiS_castSucc V c t, PhiS_zero V c _ _ hz, phiA_eq]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((stepFirst c (grid1.coords t) _ _ _ _ _ _ _ _ _ _ _ _ _ _ _ _ _ _ _ _ _ _ _ _ _ _ _ _ _ _ _ _ _ _ _ _ ((isFirst_iff t).mpr h0) (fun h => (fun h' => by omega) ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexact HS0
      isplitl [HS1]; · iexact HS1
      iintro ⟨H0, H1, H2, H3, H4, H5, H6, H7, H8, H9, H10, H11, H12, H13, H14, H15, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (cover_accH_First c _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover_accC_First c _ _ _ _ _ _ _ _ _ _ _ _ _ _ _ _ _ _ _ _ _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      iexists _; iexact H15
    · rw [PhiS_castSucc V c t, PhiS_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((stepFirst c (grid1.coords t) _ _ _ _ _ _ _ _ _ _ _ _ _ _ _ _ _ _ _ _ _ _ _ _ _ _ _ _ _ _ _ _ _ _ _ _ ((isFirst_iff t).mpr h0) (fun h => (fun h' => by omega) ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexists _; iexact HS0
      isplitl [HS1]; · iexists _; iexact HS1
      iintro ⟨H0, H1, H2, H3, H4, H5, H6, H7, H8, H9, H10, H11, H12, H13, H14, H15, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (cover_accH_First c _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover_accC_First c _ _ _ _ _ _ _ _ _ _ _ _ _ _ _ _ _ _ _ _ _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      iexists _; iexact H15
  · have hz : t.val ≠ 0 := fun h => h0 (by rw [h])
    by_cases h1 : t.val % 6 = 5
    · rw [show (dat V c).leavesExact 14 t = owns (c : Thread nD τ) (ms_14 t) fullShare ((dat V c).after 14 t) from by
        unfold Dat.leavesExact; rw [live_14 t ((isLast_iff t).mpr h1)], after_14]
      rw [show (dat V c).leavesExact 15 t = owns (c : Thread nD τ) (ms_15 t) fullShare ((dat V c).after 15 t) from by
        unfold Dat.leavesExact; rw [live_15 t ((isLast_iff t).mpr h1)], after_15]
      rw [stateAt_last V c t h0 h1]
      unfold outH_Last outC_Last accH_Last accC_Last; (try dsimp only)
      rw [PhiS_castSucc V c t, PhiS_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((stepLast c (grid1.coords t) _ _ _ _ _ _ _ _ _ _ _ _ _ _ _ _ _ _ _ _ _ _ _ _ _ _ _ _ _ _ _ _ _ _ _ _ (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [HS0]; · iexact HS0
      isplitl [HS1]; · iexact HS1
      iintro ⟨H0, H1, H2, H3, H4, H5, H6, H7, H8, H9, H10, H11, H12, H13, ⟨%e14, H14⟩, ⟨%e15, H15⟩, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (cover_accH_Last c _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover_accC_Last c _ _ _ _ _ _ _ _ _ _ _ _ _ _ _ _ _ _ _ _ _ _ _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; exact View.read_writes_of_cover _ _ _ _ _ (cover_outH_Last c _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H15
      ipureintro; exact View.read_writes_of_cover _ _ _ _ _ (cover_outC_Last c _ _ _ _ _ _ _ _ _ _ _ _ _ _ _ _ _ _ _ _ _ _ _ _ _ _ _ _ _ _ _ _ _ _ _ _ _ _ _ _ _ _ _ _ _ _ _ _ _ _ _ _ _ _ _)
    · have hnl : ¬isLast (grid1.coords t) := fun h => h1 ((isLast_iff t).mp h)
      rw [Dat.leavesExact_idle (dat V c) 14 t (idle_14 t hnl) (noFlush_14 t hnl)]
      rw [Dat.leavesExact_idle (dat V c) 15 t (idle_15 t hnl) (noFlush_15 t hnl)]
      rw [stateAt_mid V c t h0 h1]
      unfold accH_Mid accC_Mid; (try dsimp only)
      rw [PhiS_castSucc V c t, PhiS_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((stepMid c (grid1.coords t) _ _ _ _ _ _ _ _ _ _ _ _ _ _ _ _ _ _ _ _ _ _ _ _ _ _ _ _ _ _ _ _ _ _ _ _ (fun h => h0 ((isFirst_iff t).mp h)) (fun h => h1 ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexact HS0
      isplitl [HS1]; · iexact HS1
      iintro ⟨H0, H1, H2, H3, H4, H5, H6, H7, H8, H9, H10, H11, H12, H13, H14, H15, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (cover_accH_Mid c _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover_accC_Mid c _ _ _ _ _ _ _ _ _ _ _ _ _ _ _ _ _ _ _ _ _ _ _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      iexists _; iexact H15

/-- The library's body obligation, at every point. -/
theorem body_obligation (c : Dev nD) : BodyObligation (dat (F := F) V c) (defs₀ (F := F)) Variants.none () Set.univ := fun t => by
  rw [bigSep_W1, bigSep_W1]
  exact sound_body V c t

/-- Before the first point the invariant is the class's. -/
theorem phi_in (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point it gives the class's back: the accumulators' named contents are forgotten. -/
theorem phi_out (c : Dev nD) : (dat V c).Φ (Fin.last cfg1.N) ⊢ Pipeline.ΦA spec1 c := by
  have ht : (Fin.last cfg1.N).val ≠ 0 := by rw [Fin.val_last]; have : cfg1.N = 36 := N_1; omega
  rw [show (dat V c).Φ (Fin.last cfg1.N) = PhiS V c (Fin.last cfg1.N).val (Nat.le_of_lt_succ (Fin.last cfg1.N).isLt) from rfl, PhiS_pos V c _ _ ht, phiA_eq]
  iintro ⟨⟨⟨HS0, HS1⟩, Hoth⟩, Hg⟩
  isplitl [HS0 HS1 Hoth]
  · isplitl [HS0 HS1]
    · isplitl [HS0]
      · iexists _; iexact HS0
      iexists _; iexact HS1
    iexact Hoth
  iexact Hg

end Data

end Cert.KernelIdeal.Gen.Layer1

end
-- ==== Proof.IdealLayer1Deal.lean ====
/-
  Layer 2's region and the arrays it works on. The node features are staged through two windows (one by the receiving
  tile, one by the sending tile) and so are the coordinates: each such pair of windows holds its one array together, half
  a share each. Entering the region the fourteen distinct arrays, held whole, are dealt to the sixteen windows; leaving it
  the halves are joined again, the ten weight arrays are as they were and the two output arrays hold what the pipeline's
  write-backs left.
-/
import proofs.«110946_j38972533244288_1_alg».proof.Proof.IdealLayer1Data

set_option maxRecDepth 16384

noncomputable section

namespace Cert.KernelIdeal.Gen.Layer1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Deal
variable (V : (c : Dev nD) → (b : Ref sig .tc) → Buf (Elt F) ((c : Thread nD τ).loc b))

/-- The distinct arrays behind the sixteen windows. -/
theorem arrRefs_eq : Finset.univ.image (Pipeline.arrRef spec1) = ([main_v31_0, main_v31_1, main_v33, main_v35, main_v37, main_v38, main_v40, main_v41, main_v43, main_v45, main_v47, main_v48, main_v49_0, main_v49_1] : List (Ref sig .tc)).toFinset := by decide

/-- The windows' arrays, each a whole buffer, held buffer by buffer at the window's share. -/
theorem arrays_shares (c : Dev nD) (G : (w : Fin cfg1.W) → Buf (Elt F) ((cfg1.spec w).arr.view.loc (c.tc : Thread nD τ))) :
    ((dat V c).arrays G : sProp 𝕄)
      = bigSep Finset.univ fun w => (((c.tc : Thread nD τ).loc (Pipeline.arrRef cfg1.spec w)) ↦{(dat V c).share w} G w : sProp 𝕄) := by
  unfold Dat.arrays
  exact Idealize.SL.BI.bigSep_congr fun w _ => by rw [(arr_whole1 w).set_eq_univ]

/-- A buffer held at the full share is held twice over at its two halves, and back. -/
theorem halves (ℓ : Loc nD τ sig) (f : Buf (Elt F) ℓ) :
    (ℓ ↦{fullShare} f : sProp 𝕄) ⊢ iprop((ℓ ↦{fullShare.left} f) ∗ (ℓ ↦{fullShare.right} f)) :=
  (pointsTo_share (PosShare.mem_left_op_right fullShare)).1
theorem whole (ℓ : Loc nD τ sig) (f : Buf (Elt F) ℓ) :
    iprop((ℓ ↦{fullShare.left} f) ∗ (ℓ ↦{fullShare.right} f)) ⊢ (ℓ ↦{fullShare} f : sProp 𝕄) :=
  (pointsTo_share (PosShare.mem_left_op_right fullShare)).2

/-- The fourteen arrays one by one. -/
theorem arrBufs_chain (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c.tc : Thread nD τ).loc main_v31_0) ↦{fullShare} W main_v31_0) ∗ (((c.tc : Thread nD τ).loc main_v31_1) ↦{fullShare} W main_v31_1) ∗ (((c.tc : Thread nD τ).loc main_v33) ↦{fullShare} W main_v33) ∗ (((c.tc : Thread nD τ).loc main_v35) ↦{fullShare} W main_v35) ∗ (((c.tc : Thread nD τ).loc main_v37) ↦{fullShare} W main_v37) ∗ (((c.tc : Thread nD τ).loc main_v38) ↦{fullShare} W main_v38) ∗ (((c.tc : Thread nD τ).loc main_v40) ↦{fullShare} W main_v40) ∗ (((c.tc : Thread nD τ).loc main_v41) ↦{fullShare} W main_v41) ∗ (((c.tc : Thread nD τ).loc main_v43) ↦{fullShare} W main_v43) ∗ (((c.tc : Thread nD τ).loc main_v45) ↦{fullShare} W main_v45) ∗ (((c.tc : Thread nD τ).loc main_v47) ↦{fullShare} W main_v47) ∗ (((c.tc : Thread nD τ).loc main_v48) ↦{fullShare} W main_v48) ∗ (((c.tc : Thread nD τ).loc main_v49_0) ↦{fullShare} W main_v49_0) ∗ (((c.tc : Thread nD τ).loc main_v49_1) ↦{fullShare} W main_v49_1)) := by
  unfold Pipeline.arrBufs
  exact Idealize.SL.BI.bigSep_eq_bigSepL_of_eq _ arrRefs_eq (by decide) _

set_option maxHeartbeats 4000000 in
/-- ENTRY: the fourteen arrays at the entry contents, dealt to the sixteen windows. -/
theorem deal (c : Dev nD) :
    (Pipeline.arrBufs (Ix := Unit) (Name := ℕ) (U := UR sig nD τ) (Lvl := ℕ) spec1 c (V c) : sProp 𝕄)
      ⊢ (dat V c).arrays ((dat V c).arrAt · 0) := by
  rw [arrays_shares, bigSep_W1, arrBufs_chain]
  iintro ⟨H_main_v31_0, H_main_v31_1, H_main_v33, H_main_v35, H_main_v37, H_main_v38, H_main_v40, H_main_v41, H_main_v43, H_main_v45, H_main_v47, H_main_v48, H_main_v49_0, H_main_v49_1⟩
  ihave Hh := halves _ _ $$ H_main_v31_0
  icases Hh with ⟨Hhl, Hhr⟩
  ihave Hc := halves _ _ $$ H_main_v31_1
  icases Hc with ⟨Hcl, Hcr⟩
  isplitl [Hhl]; · iexact Hhl
  isplitl [Hhr]; · iexact Hhr
  isplitl [Hcl]; · iexact Hcl
  isplitl [Hcr]; · iexact Hcr
  isplitl [H_main_v33]; · iexact H_main_v33
  isplitl [H_main_v35]; · iexact H_main_v35
  isplitl [H_main_v37]; · iexact H_main_v37
  isplitl [H_main_v38]; · iexact H_main_v38
  isplitl [H_main_v40]; · iexact H_main_v40
  isplitl [H_main_v41]; · iexact H_main_v41
  isplitl [H_main_v43]; · iexact H_main_v43
  isplitl [H_main_v45]; · iexact H_main_v45
  isplitl [H_main_v47]; · iexact H_main_v47
  isplitl [H_main_v48]; · iexact H_main_v48
  isplitl [H_main_v49_0]; · iexact H_main_v49_0
  iexact H_main_v49_1

/-- An input's array is never written: after the last grid point it is as the region found it. -/
theorem input_kept (c : Dev nD) (w : Fin cfg1.W) (hw : (cfg1.win w).isOut = false) (q : PosShare TreeShare) :
    ((((c.tc : Thread nD τ).loc (Pipeline.arrRef cfg1.spec w)) ↦{q} (dat V c).arrAt w cfg1.N : sProp 𝕄))
      ⊢ (((c.tc : Thread nD τ).loc (Pipeline.arrRef cfg1.spec w)) ↦{q} (dat V c).A w) :=
  Entails.of_eq (by rw [(dat V c).arrAt_in w hw])

set_option maxHeartbeats 8000000 in
/-- EXIT: the windows' arrays after the last grid point make the fourteen arrays at the exit contents `V'`: as at
    entry but for the two outputs, which hold what the write-backs left. -/
theorem join (c : Dev nD) (V' : (b : Ref sig .tc) → Buf (Elt F) ((c : Thread nD τ).loc b))
    (hin : ∀ b, b ≠ main_v49_0 → b ≠ main_v49_1 → V' b = V c b)
    (hH : V' main_v49_0 = (dat V c).arrAt 14 cfg1.N) (hC : V' main_v49_1 = (dat V c).arrAt 15 cfg1.N) :
    ((dat V c).arrays ((dat V c).arrAt · cfg1.N) : sProp 𝕄)
      ⊢ Pipeline.arrBufs (Ix := Unit) (Name := ℕ) (U := UR sig nD τ) (Lvl := ℕ) spec1 c V' := by
  rw [arrays_shares, bigSep_W1, arrBufs_chain]
  rw [hin main_v31_0 (by decide) (by decide), hin main_v31_1 (by decide) (by decide), hin main_v33 (by decide) (by decide), hin main_v35 (by decide) (by decide), hin main_v37 (by decide) (by decide), hin main_v38 (by decide) (by decide), hin main_v40 (by decide) (by decide), hin main_v41 (by decide) (by decide), hin main_v43 (by decide) (by decide), hin main_v45 (by decide) (by decide), hin main_v47 (by decide) (by decide), hin main_v48 (by decide) (by decide), hH, hC]
  iintro ⟨W0, W1, W2, W3, W4, W5, W6, W7, W8, W9, W10, W11, W12, W13, W14, W15⟩
  ihave K0 := input_kept V c 0 rfl _ $$ W0
  ihave K1 := input_kept V c 1 rfl _ $$ W1
  ihave K2 := input_kept V c 2 rfl _ $$ W2
  ihave K3 := input_kept V c 3 rfl _ $$ W3
  ihave K4 := input_kept V c 4 rfl _ $$ W4
  ihave K5 := input_kept V c 5 rfl _ $$ W5
  ihave K6 := input_kept V c 6 rfl _ $$ W6
  ihave K7 := input_kept V c 7 rfl _ $$ W7
  ihave K8 := input_kept V c 8 rfl _ $$ W8
  ihave K9 := input_kept V c 9 rfl _ $$ W9
  ihave K10 := input_kept V c 10 rfl _ $$ W10
  ihave K11 := input_kept V c 11 rfl _ $$ W11
  ihave K12 := input_kept V c 12 rfl _ $$ W12
  ihave K13 := input_kept V c 13 rfl _ $$ W13
  isplitl [K0 K1]
  · iapply whole; isplitl [K0]; · iexact K0
    iexact K1
  isplitl [K2 K3]
  · iapply whole; isplitl [K2]; · iexact K2
    iexact K3
  isplitl [K4]; · iexact K4
  isplitl [K5]; · iexact K5
  isplitl [K6]; · iexact K6
  isplitl [K7]; · iexact K7
  isplitl [K8]; · iexact K8
  isplitl [K9]; · iexact K9
  isplitl [K10]; · iexact K10
  isplitl [K11]; · iexact K11
  isplitl [K12]; · iexact K12
  isplitl [K13]; · iexact K13
  isplitl [W14]; · iexact W14
  iexact W15

/-- A core's unscoped buffers are the buffers behind the windows' arrays and the rest. -/
theorem unscoped_split (c : Dev nD) (W : (b : Ref sig .tc) → Buf (Elt F) ((c : Thread nD τ).loc b)) :
    (unscopedBufs (Ix := Unit) (Name := ℕ) (U := UR sig nD τ) (Lvl := ℕ) c W : sProp 𝕄)
      = iprop((Pipeline.arrBufs spec1 c W : sProp 𝕄) ∗ Pipeline.unscopedRest spec1 c W) := by
  classical
  have hA : Finset.univ.image (Pipeline.arrRef spec1) ⊆ Finset.univ.filter fun b : Ref sig .tc => ¬ b.isScoped := by decide
  unfold unscopedBufs Pipeline.unscopedRest Pipeline.arrBufs
  rw [bigSep_sdiff_split hA]
  rfl

/-- The rest does not see a change of the two outputs' arrays. -/
theorem rest_congr (c : Dev nD) (W W' : (b : Ref sig .tc) → Buf (Elt F) ((c : Thread nD τ).loc b))
    (h : ∀ b, b ≠ main_v49_0 → b ≠ main_v49_1 → W' b = W b) :
    (Pipeline.unscopedRest (Ix := Unit) (Name := ℕ) (U := UR sig nD τ) (Lvl := ℕ) spec1 c W : sProp 𝕄) = Pipeline.unscopedRest spec1 c W' := by
  unfold Pipeline.unscopedRest
  refine Idealize.SL.BI.bigSep_congr fun b hb => ?_
  have hb' : b ∉ Finset.univ.image (Pipeline.arrRef spec1) := (Finset.mem_sdiff.mp hb).2
  rw [h b (fun e => hb' (by rw [e]; decide)) (fun e => hb' (by rw [e]; decide))]

end Deal

end Cert.KernelIdeal.Gen.Layer1

end
-- ==== Proof.IdealLayer2Base.lean ====
/-
  Message-passing layer 3 as a pipelined kernel over a 6 × 6 grid of 128-row tiles (i over the receiving nodes, j over
  the sending ones, j the reduction axis): what the three kinds of step share. The body's two branches depend on j only:
  the first (zero both accumulators) is taken exactly when j = 0, the second (scale the sums by 1/768, apply the second
  linear map, add the residual and store both outputs) exactly when j = 5. The two outputs' tiles are touched only at
  j = 5, which is also where they are written back; the accumulators live in two scratch buffers of the kernel's own.
-/
import proofs.«110946_j38972533244288_1_alg».proof.Proof.Gen.KernelIdeal.Launch
import proofs.«110946_j38972533244288_1_alg».proof.Proof.Gen.KernelIdeal.Skeleton
import proofs.«110946_j38972533244288_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The two branch conditions, decided over the grid -/

/-- The first branch's condition: j = 0. -/
abbrev isFirst (i : grid2.Coords) : Prop := (Scalar.cmpi .ne (Scalar.extui (Scalar.cmpi .eq (BitVec.ofNat 32 (i 1).val) 0#32)) 0#32) = 1#1
theorem isFirst_iff : ∀ t : Fin cfg2.N, isFirst (grid2.coords t) ↔ t.val % 6 = 0 :=
  (by decide +kernel : ∀ t : Fin grid2.N, isFirst (grid2.coords t) ↔ t.val % 6 = 0)
/-- The second branch's condition: j = 5. -/
abbrev isLast (i : grid2.Coords) : Prop := k2_cond2 i = 1#1
theorem isLast_iff : ∀ t : Fin cfg2.N, isLast (grid2.coords t) ↔ t.val % 6 = 5 :=
  (by decide +kernel : ∀ t : Fin grid2.N, isLast (grid2.coords t) ↔ t.val % 6 = 5)

/-! ## Where a window is idle: an input never, an output except at j = 5 (where it is also written back) -/

theorem live_0 : ∀ i, cfg2.idle 0 i = false := fun _ => rfl
theorem live_1 : ∀ i, cfg2.idle 1 i = false := fun _ => rfl
theorem live_2 : ∀ i, cfg2.idle 2 i = false := fun _ => rfl
theorem live_3 : ∀ i, cfg2.idle 3 i = false := fun _ => rfl
theorem live_4 : ∀ i, cfg2.idle 4 i = false := fun _ => rfl
theorem live_5 : ∀ i, cfg2.idle 5 i = false := fun _ => rfl
theorem live_6 : ∀ i, cfg2.idle 6 i = false := fun _ => rfl
theorem live_7 : ∀ i, cfg2.idle 7 i = false := fun _ => rfl
theorem live_8 : ∀ i, cfg2.idle 8 i = false := fun _ => rfl
theorem live_9 : ∀ i, cfg2.idle 9 i = false := fun _ => rfl
theorem live_10 : ∀ i, cfg2.idle 10 i = false := fun _ => rfl
theorem live_11 : ∀ i, cfg2.idle 11 i = false := fun _ => rfl
theorem live_12 : ∀ i, cfg2.idle 12 i = false := fun _ => rfl
theorem live_13 : ∀ i, cfg2.idle 13 i = false := fun _ => rfl
theorem idle_14 : ∀ t : Fin cfg2.N, ¬isLast (grid2.coords t) → cfg2.idle 14 (grid2.coords t) = true := by decide +kernel
theorem noFlush_14 : ∀ t : Fin cfg2.N, ¬isLast (grid2.coords t) → (cfg2.win 14).flush t = false := by decide +kernel
theorem live_14 : ∀ t : Fin cfg2.N, isLast (grid2.coords t) → cfg2.idle 14 (grid2.coords t) = false := by decide +kernel
theorem idle_15 : ∀ t : Fin cfg2.N, ¬isLast (grid2.coords t) → cfg2.idle 15 (grid2.coords t) = true := by decide +kernel
theorem noFlush_15 : ∀ t : Fin cfg2.N, ¬isLast (grid2.coords t) → (cfg2.win 15).flush t = false := by decide +kernel
theorem live_15 : ∀ t : Fin cfg2.N, isLast (grid2.coords t) → cfg2.idle 15 (grid2.coords t) = false := by decide +kernel

/-! ## The memrefs the body is called with -/

/-- One staging buffer of each output, through which its contents are stated. -/
abbrev viewH : View sig .tc .vmem S128x128 .f32 := (Memref.whole cc2_stg14_0 : Memref sig .tc .vmem S128x128 .f32).view
abbrev viewC : View sig .tc .vmem S128x3 .f32 := (Memref.whole cc2_stg15_0 : Memref sig .tc .vmem S128x3 .f32).view
abbrev ms_0 (t : Fin cfg2.N) : Memref sig .tc .vmem S128x128 .f32 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S128x128 .f32 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S128x3 .f32 := win2_2.stage (cfg2.slots t 2)
abbrev hs_2 (t : Fin cfg2.N) : (ms_2 t).IsWhole := hstage2_2 ((cfg2.slots t 2).cast nbuf2_2)
abbrev ms_3 (t : Fin cfg2.N) : Memref sig .tc .vmem S128x3 .f32 := win2_3.stage (cfg2.slots t 3)
abbrev hs_3 (t : Fin cfg2.N) : (ms_3 t).IsWhole := hstage2_3 ((cfg2.slots t 3).cast nbuf2_3)
abbrev ms_4 (t : Fin cfg2.N) : Memref sig .tc .vmem S128x128 .f32 := win2_4.stage (cfg2.slots t 4)
abbrev hs_4 (t : Fin cfg2.N) : (ms_4 t).IsWhole := hstage2_4 ((cfg2.slots t 4).cast nbuf2_4)
abbrev ms_5 (t : Fin cfg2.N) : Memref sig .tc .vmem S128x128 .f32 := win2_5.stage (cfg2.slots t 5)
abbrev hs_5 (t : Fin cfg2.N) : (ms_5 t).IsWhole := hstage2_5 ((cfg2.slots t 5).cast nbuf2_5)
abbrev ms_6 (t : Fin cfg2.N) : Memref sig .tc .vmem S1x128 .f32 := win2_6.stage (cfg2.slots t 6)
abbrev hs_6 (t : Fin cfg2.N) : (ms_6 t).IsWhole := hstage2_6 ((cfg2.slots t 6).cast nbuf2_6)
abbrev ms_7 (t : Fin cfg2.N) : Memref sig .tc .vmem S1x128 .f32 := win2_7.stage (cfg2.slots t 7)
abbrev hs_7 (t : Fin cfg2.N) : (ms_7 t).IsWhole := hstage2_7 ((cfg2.slots t 7).cast nbuf2_7)
abbrev ms_8 (t : Fin cfg2.N) : Memref sig .tc .vmem S128x128 .f32 := win2_8.stage (cfg2.slots t 8)
abbrev hs_8 (t : Fin cfg2.N) : (ms_8 t).IsWhole := hstage2_8 ((cfg2.slots t 8).cast nbuf2_8)
abbrev ms_9 (t : Fin cfg2.N) : Memref sig .tc .vmem S1x128 .f32 := win2_9.stage (cfg2.slots t 9)
abbrev hs_9 (t : Fin cfg2.N) : (ms_9 t).IsWhole := hstage2_9 ((cfg2.slots t 9).cast nbuf2_9)
abbrev ms_10 (t : Fin cfg2.N) : Memref sig .tc .vmem S128x1 .f32 := win2_10.stage (cfg2.slots t 10)
abbrev hs_10 (t : Fin cfg2.N) : (ms_10 t).IsWhole := hstage2_10 ((cfg2.slots t 10).cast nbuf2_10)
abbrev ms_11 (t : Fin cfg2.N) : Memref sig .tc .vmem S128x1 .f32 := win2_11.stage (cfg2.slots t 11)
abbrev hs_11 (t : Fin cfg2.N) : (ms_11 t).IsWhole := hstage2_11 ((cfg2.slots t 11).cast nbuf2_11)
abbrev ms_12 (t : Fin cfg2.N) : Memref sig .tc .vmem S1x1 .f32 := win2_12.stage (cfg2.slots t 12)
abbrev hs_12 (t : Fin cfg2.N) : (ms_12 t).IsWhole := hstage2_12 ((cfg2.slots t 12).cast nbuf2_12)
abbrev ms_13 (t : Fin cfg2.N) : Memref sig .tc .vmem S1x1 .f32 := win2_13.stage (cfg2.slots t 13)
abbrev hs_13 (t : Fin cfg2.N) : (ms_13 t).IsWhole := hstage2_13 ((cfg2.slots t 13).cast nbuf2_13)
abbrev ms_14 (t : Fin cfg2.N) : Memref sig .tc .vmem S128x128 .f32 := win2_14.stage (cfg2.slots t 14)
abbrev hs_14 (t : Fin cfg2.N) : (ms_14 t).IsWhole := hstage2_14 ((cfg2.slots t 14).cast nbuf2_14)
abbrev ms_15 (t : Fin cfg2.N) : Memref sig .tc .vmem S128x3 .f32 := win2_15.stage (cfg2.slots t 15)
abbrev hs_15 (t : Fin cfg2.N) : (ms_15 t).IsWhole := hstage2_15 ((cfg2.slots t 15).cast nbuf2_15)
/-- The two accumulators: the sum over j of the messages, and of the weighted coordinate differences. -/
abbrev accH : Memref sig .tc .vmem S128x128 .f32 := Memref.whole cc2_scratch0
abbrev accC : Memref sig .tc .vmem S128x3 .f32 := Memref.whole cc2_scratch1
abbrev viewAccH : View sig .tc .vmem S128x128 .f32 := accH.view
abbrev viewAccC : View sig .tc .vmem S128x3 .f32 := accC.view

/-- The scoped buffers of the core that are neither this kernel's staging buffers nor its accumulators. -/
abbrev others (c : Dev nD) : sProp 𝕄 :=
  Pipeline.scopedRestBut (Ix := Unit) (Name := ℕ) (U := UR sig nD τ) (Lvl := ℕ) (Val := Elt F) spec2 c [cc2_scratch0, cc2_scratch1]

/-- The region's invariant before the first step: both accumulators at anything, the other scoped buffers, the
    generator register. -/
theorem phiA_eq (c : Dev nD) :
    (Pipeline.ΦA spec2 c : sProp 𝕄)
      = iprop(iprop(iprop((∃ d, owns (c : Thread nD τ) accH fullShare d) ∗ (∃ d, owns (c : Thread nD τ) accC fullShare d)) ∗ others c) ∗ (∃ r, prngReg c r)) := by
  unfold Pipeline.ΦA; rw [scopedRest2_split]; simp only [accH, accC, owns_whole]; try rfl

/-! ## The windows' blocks, read off the arrays as the region finds them -/

section Blocks
variable (V : (c : Dev nD) → (b : Ref sig .tc) → Buf (Elt F) ((c : Thread nD τ).loc b))

/-- Window `w`'s tile at grid point `t`. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input 0's current staging buffer holds its tile at every grid point, fetched there or not. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1's current staging buffer holds its tile at every grid point, fetched there or not. -/
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input 2's current staging buffer holds its tile at every grid point, fetched there or not. -/
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input 3's current staging buffer holds its tile at every grid point, fetched there or not. -/
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input 4's current staging buffer holds its tile at every grid point, fetched there or not. -/
theorem before_4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input 5's current staging buffer holds its tile at every grid point, fetched there or not. -/
theorem before_5_of {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input 6's current staging buffer holds its tile at every grid point, fetched there or not. -/
theorem before_6_of {c : Dev nD} (dat : Dat τ (Elt F) Unit ℕ (UR sig nD τ) ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input 7's current staging buffer holds its tile at every grid point, fetched there or not. -/
theorem before_7_of {c : Dev nD} (dat : Dat τ (Elt F) Unit ℕ (UR sig nD τ) ℕ cfg2 c) (hA : dat.A 7 = V c (Pipeline.arrRef spec2 7))
    (hafter : ∀ t, dat.after 7 t = iblk V c 7 t) (t : Fin cfg2.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input 8's current staging buffer holds its tile at every grid point, fetched there or not. -/
theorem before_8_of {c : Dev nD} (dat : Dat τ (Elt F) Unit ℕ (UR sig nD τ) ℕ cfg2 c) (hA : dat.A 8 = V c (Pipeline.arrRef spec2 8))
    (hafter : ∀ t, dat.after 8 t = iblk V c 8 t) (t : Fin cfg2.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input 9's current staging buffer holds its tile at every grid point, fetched there or not. -/
theorem before_9_of {c : Dev nD} (dat : Dat τ (Elt F) Unit ℕ (UR sig nD τ) ℕ cfg2 c) (hA : dat.A 9 = V c (Pipeline.arrRef spec2 9))
    (hafter : ∀ t, dat.after 9 t = iblk V c 9 t) (t : Fin cfg2.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input 10's current staging buffer holds its tile at every grid point, fetched there or not. -/
theorem before_10_of {c : Dev nD} (dat : Dat τ (Elt F) Unit ℕ (UR sig nD τ) ℕ cfg2 c) (hA : dat.A 10 = V c (Pipeline.arrRef spec2 10))
    (hafter : ∀ t, dat.after 10 t = iblk V c 10 t) (t : Fin cfg2.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input 11's current staging buffer holds its tile at every grid point, fetched there or not. -/
theorem before_11_of {c : Dev nD} (dat : Dat τ (Elt F) Unit ℕ (UR sig nD τ) ℕ cfg2 c) (hA : dat.A 11 = V c (Pipeline.arrRef spec2 11))
    (hafter : ∀ t, dat.after 11 t = iblk V c 11 t) (t : Fin cfg2.N) (d) : dat.before 11 t d = iblk V c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input 12's current staging buffer holds its tile at every grid point, fetched there or not. -/
theorem before_12_of {c : Dev nD} (dat : Dat τ (Elt F) Unit ℕ (UR sig nD τ) ℕ cfg2 c) (hA : dat.A 12 = V c (Pipeline.arrRef spec2 12))
    (hafter : ∀ t, dat.after 12 t = iblk V c 12 t) (t : Fin cfg2.N) (d) : dat.before 12 t d = iblk V c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input 13's current staging buffer holds its tile at every grid point, fetched there or not. -/
theorem before_13_of {c : Dev nD} (dat : Dat τ (Elt F) Unit ℕ (UR sig nD τ) ℕ cfg2 c) (hA : dat.A 13 = V c (Pipeline.arrRef spec2 13))
    (hafter : ∀ t, dat.after 13 t = iblk V c 13 t) (t : Fin cfg2.N) (d) : dat.before 13 t d = iblk V c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
end Blocks

end Cert.KernelIdeal.Gen.Layer2

end
-- ==== Proof.IdealLayer2First.lean ====
/-
  Layer 3's kernel body at one kind of grid point, run on whole staging memrefs.
  THE FIRST STEP (j = 0): both accumulators, found at anything, are zeroed and then take this tile's sums; the outputs'
  buffers are not touched.
  The lists of stored pieces each buffer ends with are found by running the body.
-/
import proofs.«110946_j38972533244288_1_alg».proof.Proof.IdealLayer2Base

set_option maxRecDepth 16384

noncomputable section

namespace Cert.KernelIdeal.Gen.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at such a point, from the inputs' tiles (and what it finds in the accumulators), to the continuation holding the inputs
    as they were and every buffer it stored into with its pieces written. -/
noncomputable def stepFirst (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) :
    Σ' (LS0 : List (View.Piece (Elt F) S128x128 .f32)), { LS1 : List (View.Piece (Elt F) S128x3 .f32) //
      ∀ (xi14 : Vec F S128x128 .f32) (xi15 : Vec F S128x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ owns (c : Thread nD τ) arg17 fullShare xi15 ∗ (∃ d, owns (c : Thread nD τ) arg18 fullShare d) ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ owns (c : Thread nD τ) arg17 fullShare xi15 ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc2__layer_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun xi14 xi15 E K => ?run⟩
  case run =>
    simp only [cc2__layer_kernel_eq_skeleton]; unfold cc2__layer_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [HS0]; · iexists _; iexact HS0
    iexists _; iexact HS1

end Cert.KernelIdeal.Gen.Layer2

end
-- ==== Proof.IdealLayer2Mid.lean ====
/-
  Layer 3's kernel body at one kind of grid point, run on whole staging memrefs.
  A MIDDLE STEP (0 < j < 5): both accumulators take this tile's sums on top of what the step before left; the outputs'
  buffers are not touched.
  The lists of stored pieces each buffer ends with are found by running the body.
-/
import proofs.«110946_j38972533244288_1_alg».proof.Proof.IdealLayer2First

set_option maxRecDepth 16384

noncomputable section

namespace Cert.KernelIdeal.Gen.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at such a point, from the inputs' tiles (and what it finds in the accumulators), to the continuation holding the inputs
    as they were and every buffer it stored into with its pieces written. -/
noncomputable def stepMid (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) :
    Σ' (LS0 : List (View.Piece (Elt F) S128x128 .f32)), { LS1 : List (View.Piece (Elt F) S128x3 .f32) //
      ∀ (xi14 : Vec F S128x128 .f32) (xi15 : Vec F S128x3 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ owns (c : Thread nD τ) arg17 fullShare xi15 ∗ owns (c : Thread nD τ) arg18 fullShare xs0 ∗ owns (c : Thread nD τ) arg19 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ owns (c : Thread nD τ) arg17 fullShare xi15 ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc2__layer_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun xi14 xi15 E K => ?run⟩
  case run =>
    simp only [cc2__layer_kernel_eq_skeleton]; unfold cc2__layer_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hfs0; obtain rfl := harg19.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [HS0]; · iexists _; iexact HS0
    iexists _; iexact HS1

end Cert.KernelIdeal.Gen.Layer2

end
-- ==== Proof.IdealLayer2Last.lean ====
/-
  Layer 3's kernel body at one kind of grid point, run on whole staging memrefs.
  THE LAST STEP (j = 5): both accumulators take this tile's sums; then the message sum is scaled by 1/768, multiplied by
  the second weight matrix, biased and added to the receiving nodes' features, and the coordinate sum is scaled by
  1/768 and added to their coordinates: each output's buffer is stored whole.
  The lists of stored pieces each buffer ends with are found by running the body.
-/
import proofs.«110946_j38972533244288_1_alg».proof.Proof.IdealLayer2Mid

set_option maxRecDepth 16384

noncomputable section

namespace Cert.KernelIdeal.Gen.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at such a point, from the inputs' tiles (and what it finds in the accumulators), to the continuation holding the inputs
    as they were and every buffer it stored into with its pieces written. -/
noncomputable def stepLast (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) :
    Σ' (L14 : List (View.Piece (Elt F) S128x128 .f32)) (L15 : List (View.Piece (Elt F) S128x3 .f32)) (LS0 : List (View.Piece (Elt F) S128x128 .f32)), { LS1 : List (View.Piece (Elt F) S128x3 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ owns (c : Thread nD τ) arg18 fullShare xs0 ∗ owns (c : Thread nD τ) arg19 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f LS0) ∗ (∃ f, arg19.view.loc (c : Thread nD τ) ↦[arg19.view.set]{fullShare} arg19.view.writes (Elt F) f LS1)) -∗ K ⟨⟩))
          ⊢ wp frame (wpE (defs₀ (F := F)) Variants.none c none) E (cc2__layer_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun E K => ?run⟩
  case run =>
    simp only [cc2__layer_kernel_eq_skeleton]; unfold cc2__layer_kernel_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg18.eq_unread hfs0; obtain rfl := harg19.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [H15]; · iexists _; iexact H15
    isplitl [HS0]; · iexists _; iexact HS0
    iexists _; iexact HS1

end Cert.KernelIdeal.Gen.Layer2

end
-- ==== Proof.IdealLayer2Data.lean ====
/-
  Layer 3's kernel over its 36 grid points: what the two accumulators and the two outputs' buffers hold after each point
  (a recursion over the points: zeroed and refilled at j = 0, added to at 0 < j < 5, added to and read out at j = 5), the
  region's invariant carrying the accumulators from one point to the next, the pipeline's proof data at any contents `V`
  of the arrays at the region's entry, and the body's obligation at every point.
-/
import proofs.«110946_j38972533244288_1_alg».proof.Proof.IdealLayer2Last

set_option maxRecDepth 16384

noncomputable section

namespace Cert.KernelIdeal.Gen.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What each kind of step leaves: its stored pieces cover each buffer it stores into -/
theorem cover_accH_First (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (y : S128x128.Idx) :
    ∃ pc ∈ (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).1, y ∈ pc.1.set :=
  View.cover_of_tiledL (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).1 S128x128.size (by sl_kernel_rfl) y
/-- Its contents then: the pieces read back. -/
def accH_First (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) : Vec F S128x128 .f32 :=
  viewAccH.read (Elt F) (viewAccH.writes (Elt F) viewAccH.junk (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).1)
theorem cover_accC_First (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (y : S128x3.Idx) :
    ∃ pc ∈ (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).2.1, y ∈ pc.1.set :=
  View.cover_of_tiledL (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).2.1 S128x3.size (by sl_kernel_rfl) y
/-- Its contents then: the pieces read back. -/
def accC_First (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) : Vec F S128x3 .f32 :=
  viewAccC.read (Elt F) (viewAccC.writes (Elt F) viewAccC.junk (stepFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13).2.1)
theorem cover_accH_Mid (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x128.Idx) :
    ∃ pc ∈ (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1, y ∈ pc.1.set :=
  View.cover_of_tiledL (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1 S128x128.size (by sl_kernel_rfl) y
/-- Its contents then: the pieces read back. -/
def accH_Mid (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x128 .f32 :=
  viewAccH.read (Elt F) (viewAccH.writes (Elt F) viewAccH.junk (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1)
theorem cover_accC_Mid (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x3.Idx) :
    ∃ pc ∈ (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1, y ∈ pc.1.set :=
  View.cover_of_tiledL (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1 S128x3.size (by sl_kernel_rfl) y
/-- Its contents then: the pieces read back. -/
def accC_Mid (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x3 .f32 :=
  viewAccC.read (Elt F) (viewAccC.writes (Elt F) viewAccC.junk (stepMid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1)
theorem cover_outH_Last (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x128.Idx) :
    ∃ pc ∈ (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1, y ∈ pc.1.set :=
  View.cover_of_tiledL (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1 S128x128.size (by sl_kernel_rfl) y
/-- Its contents then: the pieces read back. -/
def outH_Last (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x128 .f32 :=
  viewH.read (Elt F) (viewH.writes (Elt F) viewH.junk (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).1)
theorem cover_outC_Last (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x3.Idx) :
    ∃ pc ∈ (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1, y ∈ pc.1.set :=
  View.cover_of_tiledL (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1 S128x3.size (by sl_kernel_rfl) y
/-- Its contents then: the pieces read back. -/
def outC_Last (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x3 .f32 :=
  viewC.read (Elt F) (viewC.writes (Elt F) viewC.junk (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.1)
theorem cover_accH_Last (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x128.Idx) :
    ∃ pc ∈ (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.1, y ∈ pc.1.set :=
  View.cover_of_tiledL (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.1 S128x128.size (by sl_kernel_rfl) y
/-- Its contents then: the pieces read back. -/
def accH_Last (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x128 .f32 :=
  viewAccH.read (Elt F) (viewAccH.writes (Elt F) viewAccH.junk (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.1)
theorem cover_accC_Last (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) (y : S128x3.Idx) :
    ∃ pc ∈ (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.2.1, y ∈ pc.1.set :=
  View.cover_of_tiledL (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.2.1 S128x3.size (by sl_kernel_rfl) y
/-- Its contents then: the pieces read back. -/
def accC_Last (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i)
    (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) : Vec F S128x3 .f32 :=
  viewAccC.read (Elt F) (viewAccC.writes (Elt F) viewAccC.junk (stepLast c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1).2.2.2.1)

section Data
variable (V : (c : Dev nD) → (b : Ref sig .tc) → Buf (Elt F) ((c : Thread nD τ).loc b))

/-! ## The state after each grid point -/

/-- Placeholders for the outputs' buffers at the points that do not touch them (nothing reads them: at those points the
    buffers are neither written back nor stated). -/
abbrev idleH : Vec F S128x128 .f32 := viewH.read (Elt F) viewH.junk
abbrev idleC : Vec F S128x3 .f32 := viewC.read (Elt F) viewC.junk

/-- THE ACCUMULATION: after the body at position `n`, the two outputs' buffers and the two accumulators. -/
def stateAt (c : Dev nD) : (n : ℕ) → n < cfg2.N → Vec F S128x128 .f32 × Vec F S128x3 .f32 × Vec F S128x128 .f32 × Vec F S128x3 .f32
  | 0, hn => (idleH, idleC,
      accH_First c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) (ms_10 ⟨0, hn⟩) (hs_10 ⟨0, hn⟩) (ms_11 ⟨0, hn⟩) (hs_11 ⟨0, hn⟩) (ms_12 ⟨0, hn⟩) (hs_12 ⟨0, hn⟩) (ms_13 ⟨0, hn⟩) (hs_13 ⟨0, hn⟩) (ms_14 ⟨0, hn⟩) (hs_14 ⟨0, hn⟩) (ms_15 ⟨0, hn⟩) (hs_15 ⟨0, hn⟩) accH (Memref.isWhole_whole _) accC (Memref.isWhole_whole _) ((isFirst_iff ⟨0, hn⟩).mpr (Nat.zero_mod _)) (fun h => (fun h' => by (try dsimp only at h'); omega) ((isLast_iff ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩) (iblk V c 10 ⟨0, hn⟩) (iblk V c 11 ⟨0, hn⟩) (iblk V c 12 ⟨0, hn⟩) (iblk V c 13 ⟨0, hn⟩),
      accC_First c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) (ms_4 ⟨0, hn⟩) (hs_4 ⟨0, hn⟩) (ms_5 ⟨0, hn⟩) (hs_5 ⟨0, hn⟩) (ms_6 ⟨0, hn⟩) (hs_6 ⟨0, hn⟩) (ms_7 ⟨0, hn⟩) (hs_7 ⟨0, hn⟩) (ms_8 ⟨0, hn⟩) (hs_8 ⟨0, hn⟩) (ms_9 ⟨0, hn⟩) (hs_9 ⟨0, hn⟩) (ms_10 ⟨0, hn⟩) (hs_10 ⟨0, hn⟩) (ms_11 ⟨0, hn⟩) (hs_11 ⟨0, hn⟩) (ms_12 ⟨0, hn⟩) (hs_12 ⟨0, hn⟩) (ms_13 ⟨0, hn⟩) (hs_13 ⟨0, hn⟩) (ms_14 ⟨0, hn⟩) (hs_14 ⟨0, hn⟩) (ms_15 ⟨0, hn⟩) (hs_15 ⟨0, hn⟩) accH (Memref.isWhole_whole _) accC (Memref.isWhole_whole _) ((isFirst_iff ⟨0, hn⟩).mpr (Nat.zero_mod _)) (fun h => (fun h' => by (try dsimp only at h'); omega) ((isLast_iff ⟨0, hn⟩).mp h)) (iblk V c 0 ⟨0, hn⟩) (iblk V c 1 ⟨0, hn⟩) (iblk V c 2 ⟨0, hn⟩) (iblk V c 3 ⟨0, hn⟩) (iblk V c 4 ⟨0, hn⟩) (iblk V c 5 ⟨0, hn⟩) (iblk V c 6 ⟨0, hn⟩) (iblk V c 7 ⟨0, hn⟩) (iblk V c 8 ⟨0, hn⟩) (iblk V c 9 ⟨0, hn⟩) (iblk V c 10 ⟨0, hn⟩) (iblk V c 11 ⟨0, hn⟩) (iblk V c 12 ⟨0, hn⟩) (iblk V c 13 ⟨0, hn⟩))
  | n + 1, hn =>
    if h0 : (n + 1) % 6 = 0 then
      (idleH, idleC,
        accH_First c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) ((isFirst_iff ⟨n + 1, hn⟩).mpr h0) (fun h => (fun h' => by (try dsimp only at h'); omega) ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩),
        accC_First c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) ((isFirst_iff ⟨n + 1, hn⟩).mpr h0) (fun h => (fun h' => by (try dsimp only at h'); omega) ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩))
    else if h1 : (n + 1) % 6 = 5 then
      (outH_Last c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2,
        outC_Last c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2,
        accH_Last c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2,
        accC_Last c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2)
    else
      (idleH, idleC,
        accH_Mid c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2,
        accC_Mid c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) (ms_4 ⟨n + 1, hn⟩) (hs_4 ⟨n + 1, hn⟩) (ms_5 ⟨n + 1, hn⟩) (hs_5 ⟨n + 1, hn⟩) (ms_6 ⟨n + 1, hn⟩) (hs_6 ⟨n + 1, hn⟩) (ms_7 ⟨n + 1, hn⟩) (hs_7 ⟨n + 1, hn⟩) (ms_8 ⟨n + 1, hn⟩) (hs_8 ⟨n + 1, hn⟩) (ms_9 ⟨n + 1, hn⟩) (hs_9 ⟨n + 1, hn⟩) (ms_10 ⟨n + 1, hn⟩) (hs_10 ⟨n + 1, hn⟩) (ms_11 ⟨n + 1, hn⟩) (hs_11 ⟨n + 1, hn⟩) (ms_12 ⟨n + 1, hn⟩) (hs_12 ⟨n + 1, hn⟩) (ms_13 ⟨n + 1, hn⟩) (hs_13 ⟨n + 1, hn⟩) (ms_14 ⟨n + 1, hn⟩) (hs_14 ⟨n + 1, hn⟩) (ms_15 ⟨n + 1, hn⟩) (hs_15 ⟨n + 1, hn⟩) accH (Memref.isWhole_whole _) accC (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (iblk V c 3 ⟨n + 1, hn⟩) (iblk V c 4 ⟨n + 1, hn⟩) (iblk V c 5 ⟨n + 1, hn⟩) (iblk V c 6 ⟨n + 1, hn⟩) (iblk V c 7 ⟨n + 1, hn⟩) (iblk V c 8 ⟨n + 1, hn⟩) (iblk V c 9 ⟨n + 1, hn⟩) (iblk V c 10 ⟨n + 1, hn⟩) (iblk V c 11 ⟨n + 1, hn⟩) (iblk V c 12 ⟨n + 1, hn⟩) (iblk V c 13 ⟨n + 1, hn⟩) (stateAt c n (Nat.lt_of_succ_lt hn)).2.2.1 (stateAt c n (Nat.lt_of_succ_lt hn)).2.2.2)

/-- The point before `t`, when `t` is not the first. -/
abbrev prevLt (t : Fin cfg2.N) : t.val - 1 < cfg2.N := Nat.lt_of_le_of_lt (Nat.sub_le _ _) t.isLt

theorem stateAt_first (c : Dev nD) (t : Fin cfg2.N) (h0 : t.val % 6 = 0) :
    stateAt V c t.val t.isLt = (idleH, idleC,
      accH_First c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) ((isFirst_iff t).mpr h0) (fun h => (fun h' => by omega) ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t),
      accC_First c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) ((isFirst_iff t).mpr h0) (fun h => (fun h' => by omega) ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t)) := by
  obtain ⟨n, hn⟩ := t
  cases n with
  | zero => exact rfl
  | succ n => exact (dif_pos h0).trans rfl

theorem stateAt_mid (c : Dev nD) (t : Fin cfg2.N) (h0 : ¬t.val % 6 = 0) (h1 : ¬t.val % 6 = 5) :
    stateAt V c t.val t.isLt = (idleH, idleC,
      accH_Mid c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) (fun h => h1 ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2,
      accC_Mid c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) (fun h => h1 ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2) := by
  obtain ⟨n, hn⟩ := t
  cases n with
  | zero => exact absurd (Nat.zero_mod _) h0
  | succ n => exact (dif_neg h0).trans ((dif_neg h1).trans rfl)

theorem stateAt_last (c : Dev nD) (t : Fin cfg2.N) (h0 : ¬t.val % 6 = 0) (h1 : t.val % 6 = 5) :
    stateAt V c t.val t.isLt = (
      outH_Last c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2,
      outC_Last c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2,
      accH_Last c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2,
      accC_Last c (grid2.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) (ms_11 t) (hs_11 t) (ms_12 t) (hs_12 t) (ms_13 t) (hs_13 t) (ms_14 t) (hs_14 t) (ms_15 t) (hs_15 t) accH (Memref.isWhole_whole _) accC (Memref.isWhole_whole _) (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) (stateAt V c (t.val - 1) (prevLt t)).2.2.1 (stateAt V c (t.val - 1) (prevLt t)).2.2.2) := by
  obtain ⟨n, hn⟩ := t
  cases n with
  | zero => exact absurd (Nat.zero_mod _) h0
  | succ n => exact (dif_neg h0).trans ((dif_pos h1).trans rfl)

/-! ## The region's invariant: the accumulators carried from point to point -/

def PhiS (c : Dev nD) : (n : ℕ) → n ≤ cfg2.N → sProp 𝕄
  | 0, _ => Pipeline.ΦA spec2 c
  | n + 1, hn => iprop(iprop(iprop(owns (c : Thread nD τ) accH fullShare ((stateAt V c n hn).2.2.1) ∗ owns (c : Thread nD τ) accC fullShare ((stateAt V c n hn).2.2.2)) ∗ others c) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(iprop(owns (c : Thread nD τ) accH fullShare ((stateAt V c n hn).2.2.1) ∗ owns (c : Thread nD τ) accC fullShare ((stateAt V c n hn).2.2.2)) ∗ others c) ∗ (∃ r, prngReg c r)) := rfl
theorem PhiS_pos (c : Dev nD) (n : ℕ) (h : n ≤ cfg2.N) (hz : n ≠ 0) :
    PhiS V c n h = iprop(iprop(iprop(owns (c : Thread nD τ) accH fullShare ((stateAt V c (n - 1) (by omega)).2.2.1) ∗ owns (c : Thread nD τ) accC fullShare ((stateAt V c (n - 1) (by omega)).2.2.2)) ∗ others c) ∗ (∃ r, prngReg c r)) := by
  cases n with
  | zero => exact absurd rfl hz
  | succ n => rfl

/-! ## The pipeline's proof data -/

/-- The arrays as the region finds them; after the body at a point each input's buffer at its tile, each output's at the state's
    component; the invariant above; the two node-feature windows and the two coordinate windows each hold half of their one
    array, every other input its array whole; nothing owed. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => (stateAt V c t.val t.isLt).1
    | ⟨15, _⟩ => (stateAt V c t.val t.isLt).2.1
    | ⟨_ + 16, h⟩ => absurd h (Nat.not_lt.2 (Nat.le_add_left _ _))
  Φ t := PhiS V c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨_ + 16, h⟩ => absurd h (Nat.not_lt.2 (Nat.le_add_left _ _))
  owed _ := 0

theorem A_eq (c : Dev nD) (w : Fin cfg2.W) : (dat V c).A w = V c (Pipeline.arrRef spec2 w) := by
  dsimp only [dat]
theorem PhiS_castSucc (c : Dev nD) (t : Fin cfg2.N) :
    (dat V c).Φ t.castSucc = PhiS V c t.val (Nat.le_of_lt t.isLt) := by
  dsimp only [dat]; simp only [Fin.coe_castSucc]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = iblk V c 6 t := by dsimp only [dat]
theorem after_7 (c : Dev nD) (t : Fin cfg2.N) : (dat V c).after 7 t = iblk V c 7 t := by dsimp only [dat]
theorem after_8 (c : Dev nD) (t : Fin cfg2.N) : (dat V c).after 8 t = iblk V c 8 t := by dsimp only [dat]
theorem after_9 (c : Dev nD) (t : Fin cfg2.N) : (dat V c).after 9 t = iblk V c 9 t := by dsimp only [dat]
theorem after_10 (c : Dev nD) (t : Fin cfg2.N) : (dat V c).after 10 t = iblk V c 10 t := by dsimp only [dat]
theorem after_11 (c : Dev nD) (t : Fin cfg2.N) : (dat V c).after 11 t = iblk V c 11 t := by dsimp only [dat]
theorem after_12 (c : Dev nD) (t : Fin cfg2.N) : (dat V c).after 12 t = iblk V c 12 t := by dsimp only [dat]
theorem after_13 (c : Dev nD) (t : Fin cfg2.N) : (dat V c).after 13 t = iblk V c 13 t := by dsimp only [dat]
theorem after_14 (c : Dev nD) (t : Fin cfg2.N) : (dat V c).after 14 t = (stateAt V c t.val t.isLt).1 := by dsimp only [dat]
theorem after_15 (c : Dev nD) (t : Fin cfg2.N) : (dat V c).after 15 t = (stateAt V c t.val t.isLt).2.1 := by dsimp only [dat]
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d
theorem before_3 (c : Dev nD) (t : Fin cfg2.N) (d) : (dat V c).before 3 t d = iblk V c 3 t :=
  before_3_of V (dat V c) (A_eq V c 3) (after_3 V c) t d
theorem before_4 (c : Dev nD) (t : Fin cfg2.N) (d) : (dat V c).before 4 t d = iblk V c 4 t :=
  before_4_of V (dat V c) (A_eq V c 4) (after_4 V c) t d
theorem before_5 (c : Dev nD) (t : Fin cfg2.N) (d) : (dat V c).before 5 t d = iblk V c 5 t :=
  before_5_of V (dat V c) (A_eq V c 5) (after_5 V c) t d
theorem before_6 (c : Dev nD) (t : Fin cfg2.N) (d) : (dat V c).before 6 t d = iblk V c 6 t :=
  before_6_of V (dat V c) (A_eq V c 6) (after_6 V c) t d
theorem before_7 (c : Dev nD) (t : Fin cfg2.N) (d) : (dat V c).before 7 t d = iblk V c 7 t :=
  before_7_of V (dat V c) (A_eq V c 7) (after_7 V c) t d
theorem before_8 (c : Dev nD) (t : Fin cfg2.N) (d) : (dat V c).before 8 t d = iblk V c 8 t :=
  before_8_of V (dat V c) (A_eq V c 8) (after_8 V c) t d
theorem before_9 (c : Dev nD) (t : Fin cfg2.N) (d) : (dat V c).before 9 t d = iblk V c 9 t :=
  before_9_of V (dat V c) (A_eq V c 9) (after_9 V c) t d
theorem before_10 (c : Dev nD) (t : Fin cfg2.N) (d) : (dat V c).before 10 t d = iblk V c 10 t :=
  before_10_of V (dat V c) (A_eq V c 10) (after_10 V c) t d
theorem before_11 (c : Dev nD) (t : Fin cfg2.N) (d) : (dat V c).before 11 t d = iblk V c 11 t :=
  before_11_of V (dat V c) (A_eq V c 11) (after_11 V c) t d
theorem before_12 (c : Dev nD) (t : Fin cfg2.N) (d) : (dat V c).before 12 t d = iblk V c 12 t :=
  before_12_of V (dat V c) (A_eq V c 12) (after_12 V c) t d
theorem before_13 (c : Dev nD) (t : Fin cfg2.N) (d) : (dat V c).before 13 t d = iblk V c 13 t :=
  before_13_of V (dat V c) (A_eq V c 13) (after_13 V c) t d

/-! ## The body's obligation at a grid point -/

def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d))
    ∗ (∃ d, owns (c : Thread nD τ) (ms_6 t) fullShare ((dat V c).before 6 t d))
    ∗ (∃ d, owns (c : Thread nD τ) (ms_7 t) fullShare ((dat V c).before 7 t d))
    ∗ (∃ d, owns (c : Thread nD τ) (ms_8 t) fullShare ((dat V c).before 8 t d))
    ∗ (∃ d, owns (c : Thread nD τ) (ms_9 t) fullShare ((dat V c).before 9 t d))
    ∗ (∃ d, owns (c : Thread nD τ) (ms_10 t) fullShare ((dat V c).before 10 t d))
    ∗ (∃ d, owns (c : Thread nD τ) (ms_11 t) fullShare ((dat V c).before 11 t d))
    ∗ (∃ d, owns (c : Thread nD τ) (ms_12 t) fullShare ((dat V c).before 12 t d))
    ∗ (∃ d, owns (c : Thread nD τ) (ms_13 t) fullShare ((dat V c).before 13 t d))
    ∗ (∃ d, owns (c : Thread nD τ) (ms_14 t) fullShare ((dat V c).before 14 t d))
    ∗ (∃ d, owns (c : Thread nD τ) (ms_15 t) fullShare ((dat V c).before 15 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t
    ∗ (dat V c).leavesExact 9 t
    ∗ (dat V c).leavesExact 10 t
    ∗ (dat V c).leavesExact 11 t
    ∗ (dat V c).leavesExact 12 t
    ∗ (dat V c).leavesExact 13 t
    ∗ (dat V c).leavesExact 14 t
    ∗ (dat V c).leavesExact 15 t)

set_option maxHeartbeats 8000000 in
/-- The body at any point: the inputs' buffers hold their tiles; the point's position along the reduction axis says which kind of
    step it is; the invariant hands the step the accumulators at what the point before left (at anything before the first
    point) and takes them back at this point's contents. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6, before_7, before_8, before_9, before_10, before_11, before_12, before_13]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
    unfold Dat.leavesExact; rw [live_0], after_0]
  rw [show (dat V c).leavesExact 1 t = owns (c : Thread nD τ) (ms_1 t) fullShare ((dat V c).after 1 t) from by
    unfold Dat.leavesExact; rw [live_1], after_1]
  rw [show (dat V c).leavesExact 2 t = owns (c : Thread nD τ) (ms_2 t) fullShare ((dat V c).after 2 t) from by
    unfold Dat.leavesExact; rw [live_2], after_2]
  rw [show (dat V c).leavesExact 3 t = owns (c : Thread nD τ) (ms_3 t) fullShare ((dat V c).after 3 t) from by
    unfold Dat.leavesExact; rw [live_3], after_3]
  rw [show (dat V c).leavesExact 4 t = owns (c : Thread nD τ) (ms_4 t) fullShare ((dat V c).after 4 t) from by
    unfold Dat.leavesExact; rw [live_4], after_4]
  rw [show (dat V c).leavesExact 5 t = owns (c : Thread nD τ) (ms_5 t) fullShare ((dat V c).after 5 t) from by
    unfold Dat.leavesExact; rw [live_5], after_5]
  rw [show (dat V c).leavesExact 6 t = owns (c : Thread nD τ) (ms_6 t) fullShare ((dat V c).after 6 t) from by
    unfold Dat.leavesExact; rw [live_6], after_6]
  rw [show (dat V c).leavesExact 7 t = owns (c : Thread nD τ) (ms_7 t) fullShare ((dat V c).after 7 t) from by
    unfold Dat.leavesExact; rw [live_7], after_7]
  rw [show (dat V c).leavesExact 8 t = owns (c : Thread nD τ) (ms_8 t) fullShare ((dat V c).after 8 t) from by
    unfold Dat.leavesExact; rw [live_8], after_8]
  rw [show (dat V c).leavesExact 9 t = owns (c : Thread nD τ) (ms_9 t) fullShare ((dat V c).after 9 t) from by
    unfold Dat.leavesExact; rw [live_9], after_9]
  rw [show (dat V c).leavesExact 10 t = owns (c : Thread nD τ) (ms_10 t) fullShare ((dat V c).after 10 t) from by
    unfold Dat.leavesExact; rw [live_10], after_10]
  rw [show (dat V c).leavesExact 11 t = owns (c : Thread nD τ) (ms_11 t) fullShare ((dat V c).after 11 t) from by
    unfold Dat.leavesExact; rw [live_11], after_11]
  rw [show (dat V c).leavesExact 12 t = owns (c : Thread nD τ) (ms_12 t) fullShare ((dat V c).after 12 t) from by
    unfold Dat.leavesExact; rw [live_12], after_12]
  rw [show (dat V c).leavesExact 13 t = owns (c : Thread nD τ) (ms_13 t) fullShare ((dat V c).after 13 t) from by
    unfold Dat.leavesExact; rw [live_13], after_13]
  have hN : t.val < 36 := lt_of_lt_of_eq t.isLt (show cfg2.N = 36 from N_2)
  by_cases h0 : t.val % 6 = 0
  · have hnl : ¬isLast (grid2.coords t) := fun h => (fun h' => by omega) ((isLast_iff t).mp h)
    rw [Dat.leavesExact_idle (dat V c) 14 t (idle_14 t hnl) (noFlush_14 t hnl)]
    rw [Dat.leavesExact_idle (dat V c) 15 t (idle_15 t hnl) (noFlush_15 t hnl)]
    rw [stateAt_first V c t h0]
    unfold accH_First accC_First; (try dsimp only)
    by_cases hz : t.val = 0
    · rw [PhiS_castSucc V c t, PhiS_zero V c _ _ hz, phiA_eq]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((stepFirst c (grid2.coords t) _ _ _ _ _ _ _ _ _ _ _ _ _ _ _ _ _ _ _ _ _ _ _ _ _ _ _ _ _ _ _ _ _ _ _ _ ((isFirst_iff t).mpr h0) (fun h => (fun h' => by omega) ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexact HS0
      isplitl [HS1]; · iexact HS1
      iintro ⟨H0, H1, H2, H3, H4, H5, H6, H7, H8, H9, H10, H11, H12, H13, H14, H15, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (cover_accH_First c _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover_accC_First c _ _ _ _ _ _ _ _ _ _ _ _ _ _ _ _ _ _ _ _ _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      iexists _; iexact H15
    · rw [PhiS_castSucc V c t, PhiS_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((stepFirst c (grid2.coords t) _ _ _ _ _ _ _ _ _ _ _ _ _ _ _ _ _ _ _ _ _ _ _ _ _ _ _ _ _ _ _ _ _ _ _ _ ((isFirst_iff t).mpr h0) (fun h => (fun h' => by omega) ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t)).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexists _; iexact HS0
      isplitl [HS1]; · iexists _; iexact HS1
      iintro ⟨H0, H1, H2, H3, H4, H5, H6, H7, H8, H9, H10, H11, H12, H13, H14, H15, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (cover_accH_First c _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover_accC_First c _ _ _ _ _ _ _ _ _ _ _ _ _ _ _ _ _ _ _ _ _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      iexists _; iexact H15
  · have hz : t.val ≠ 0 := fun h => h0 (by rw [h])
    by_cases h1 : t.val % 6 = 5
    · rw [show (dat V c).leavesExact 14 t = owns (c : Thread nD τ) (ms_14 t) fullShare ((dat V c).after 14 t) from by
        unfold Dat.leavesExact; rw [live_14 t ((isLast_iff t).mpr h1)], after_14]
      rw [show (dat V c).leavesExact 15 t = owns (c : Thread nD τ) (ms_15 t) fullShare ((dat V c).after 15 t) from by
        unfold Dat.leavesExact; rw [live_15 t ((isLast_iff t).mpr h1)], after_15]
      rw [stateAt_last V c t h0 h1]
      unfold outH_Last outC_Last accH_Last accC_Last; (try dsimp only)
      rw [PhiS_castSucc V c t, PhiS_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((stepLast c (grid2.coords t) _ _ _ _ _ _ _ _ _ _ _ _ _ _ _ _ _ _ _ _ _ _ _ _ _ _ _ _ _ _ _ _ _ _ _ _ (fun h => h0 ((isFirst_iff t).mp h)) ((isLast_iff t).mpr h1) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [HS0]; · iexact HS0
      isplitl [HS1]; · iexact HS1
      iintro ⟨H0, H1, H2, H3, H4, H5, H6, H7, H8, H9, H10, H11, H12, H13, ⟨%e14, H14⟩, ⟨%e15, H15⟩, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (cover_accH_Last c _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover_accC_Last c _ _ _ _ _ _ _ _ _ _ _ _ _ _ _ _ _ _ _ _ _ _ _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; exact View.read_writes_of_cover _ _ _ _ _ (cover_outH_Last c _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H15
      ipureintro; exact View.read_writes_of_cover _ _ _ _ _ (cover_outC_Last c _ _ _ _ _ _ _ _ _ _ _ _ _ _ _ _ _ _ _ _ _ _ _ _ _ _ _ _ _ _ _ _ _ _ _ _ _ _ _ _ _ _ _ _ _ _ _ _ _ _ _ _ _ _ _)
    · have hnl : ¬isLast (grid2.coords t) := fun h => h1 ((isLast_iff t).mp h)
      rw [Dat.leavesExact_idle (dat V c) 14 t (idle_14 t hnl) (noFlush_14 t hnl)]
      rw [Dat.leavesExact_idle (dat V c) 15 t (idle_15 t hnl) (noFlush_15 t hnl)]
      rw [stateAt_mid V c t h0 h1]
      unfold accH_Mid accC_Mid; (try dsimp only)
      rw [PhiS_castSucc V c t, PhiS_pos V c _ _ hz]
      iintro ⟨⟨⟨⟨HS0, HS1⟩, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((stepMid c (grid2.coords t) _ _ _ _ _ _ _ _ _ _ _ _ _ _ _ _ _ _ _ _ _ _ _ _ _ _ _ _ _ _ _ _ _ _ _ _ (fun h => h0 ((isFirst_iff t).mp h)) (fun h => h1 ((isLast_iff t).mp h)) (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [HS0]; · iexact HS0
      isplitl [HS1]; · iexact HS1
      iintro ⟨H0, H1, H2, H3, H4, H5, H6, H7, H8, H9, H10, H11, H12, H13, H14, H15, ⟨%es0, HS0⟩, ⟨%es1, HS1⟩⟩
      isplitl [HS0 HS1 Hoth Hg]
      · isplitl [HS0 HS1 Hoth]
        · isplitl [HS0 HS1]
          · isplitl [HS0]
            · unfold owns; iexists _; isplitr
              swap; · iexact HS0
              ipureintro; exact View.read_writes_of_cover _ _ _ _ _ (cover_accH_Mid c _ _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (cover_accC_Mid c _ _ _ _ _ _ _ _ _ _ _ _ _ _ _ _ _ _ _ _ _ _ _ _ _ _ _ _ _ _ _ _ _ _ _ _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      iexists _; iexact H15

/-- The library's body obligation, at every point. -/
theorem body_obligation (c : Dev nD) : BodyObligation (dat (F := F) V c) (defs₀ (F := F)) Variants.none () Set.univ := fun t => by
  rw [bigSep_W2, bigSep_W2]
  exact sound_body V c t

/-- Before the first point the invariant is the class's. -/
theorem phi_in (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After the last point it gives the class's back: the accumulators' named contents are forgotten. -/
theorem phi_out (c : Dev nD) : (dat V c).Φ (Fin.last cfg2.N) ⊢ Pipeline.ΦA spec2 c := by
  have ht : (Fin.last cfg2.N).val ≠ 0 := by rw [Fin.val_last]; have : cfg2.N = 36 := N_2; omega
  rw [show (dat V c).Φ (Fin.last cfg2.N) = PhiS V c (Fin.last cfg2.N).val (Nat.le_of_lt_succ (Fin.last cfg2.N).isLt) from rfl, PhiS_pos V c _ _ ht, phiA_eq]
  iintro ⟨⟨⟨HS0, HS1⟩, Hoth⟩, Hg⟩
  isplitl [HS0 HS1 Hoth]
  · isplitl [HS0 HS1]
    · isplitl [HS0]
      · iexists _; iexact HS0
      iexists _; iexact HS1
    iexact Hoth
  iexact Hg

end Data

end Cert.KernelIdeal.Gen.Layer2

end
-- ==== Proof.IdealLayer2Deal.lean ====
/-
  Layer 3's region and the arrays it works on. The node features are staged through two windows (one by the receiving
  tile, one by the sending tile) and so are the coordinates: each such pair of windows holds its one array together, half
  a share each. Entering the region the fourteen distinct arrays, held whole, are dealt to the sixteen windows; leaving it
  the halves are joined again, the ten weight arrays are as they were and the two output arrays hold what the pipeline's
  write-backs left.
-/
import proofs.«110946_j38972533244288_1_alg».proof.Proof.IdealLayer2Data

set_option maxRecDepth 16384

noncomputable section

namespace Cert.KernelIdeal.Gen.Layer2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Deal
variable (V : (c : Dev nD) → (b : Ref sig .tc) → Buf (Elt F) ((c : Thread nD τ).loc b))

/-- The distinct arrays behind the sixteen windows. -/
theorem arrRefs_eq : Finset.univ.image (Pipeline.arrRef spec2) = ([main_v49_0, main_v49_1, main_v51, main_v53, main_v55, main_v56, main_v58, main_v59, main_v61, main_v63, main_v65, main_v66, main_v67_0, main_v67_1] : List (Ref sig .tc)).toFinset := by decide

/-- The windows' arrays, each a whole buffer, held buffer by buffer at the window's share. -/
theorem arrays_shares (c : Dev nD) (G : (w : Fin cfg2.W) → Buf (Elt F) ((cfg2.spec w).arr.view.loc (c.tc : Thread nD τ))) :
    ((dat V c).arrays G : sProp 𝕄)
      = bigSep Finset.univ fun w => (((c.tc : Thread nD τ).loc (Pipeline.arrRef cfg2.spec w)) ↦{(dat V c).share w} G w : sProp 𝕄) := by
  unfold Dat.arrays
  exact Idealize.SL.BI.bigSep_congr fun w _ => by rw [(arr_whole2 w).set_eq_univ]

/-- A buffer held at the full share is held twice over at its two halves, and back. -/
theorem halves (ℓ : Loc nD τ sig) (f : Buf (Elt F) ℓ) :
    (ℓ ↦{fullShare} f : sProp 𝕄) ⊢ iprop((ℓ ↦{fullShare.left} f) ∗ (ℓ ↦{fullShare.right} f)) :=
  (pointsTo_share (PosShare.mem_left_op_right fullShare)).1
theorem whole (ℓ : Loc nD τ sig) (f : Buf (Elt F) ℓ) :
    iprop((ℓ ↦{fullShare.left} f) ∗ (ℓ ↦{fullShare.right} f)) ⊢ (ℓ ↦{fullShare} f : sProp 𝕄) :=
  (pointsTo_share (PosShare.mem_left_op_right fullShare)).2

/-- The fourteen arrays one by one. -/
theorem arrBufs_chain (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      = iprop((((c.tc : Thread nD τ).loc main_v49_0) ↦{fullShare} W main_v49_0) ∗ (((c.tc : Thread nD τ).loc main_v49_1) ↦{fullShare} W main_v49_1) ∗ (((c.tc : Thread nD τ).loc main_v51) ↦{fullShare} W main_v51) ∗ (((c.tc : Thread nD τ).loc main_v53) ↦{fullShare} W main_v53) ∗ (((c.tc : Thread nD τ).loc main_v55) ↦{fullShare} W main_v55) ∗ (((c.tc : Thread nD τ).loc main_v56) ↦{fullShare} W main_v56) ∗ (((c.tc : Thread nD τ).loc main_v58) ↦{fullShare} W main_v58) ∗ (((c.tc : Thread nD τ).loc main_v59) ↦{fullShare} W main_v59) ∗ (((c.tc : Thread nD τ).loc main_v61) ↦{fullShare} W main_v61) ∗ (((c.tc : Thread nD τ).loc main_v63) ↦{fullShare} W main_v63) ∗ (((c.tc : Thread nD τ).loc main_v65) ↦{fullShare} W main_v65) ∗ (((c.tc : Thread nD τ).loc main_v66) ↦{fullShare} W main_v66) ∗ (((c.tc : Thread nD τ).loc main_v67_0) ↦{fullShare} W main_v67_0) ∗ (((c.tc : Thread nD τ).loc main_v67_1) ↦{fullShare} W main_v67_1)) := by
  unfold Pipeline.arrBufs
  exact Idealize.SL.BI.bigSep_eq_bigSepL_of_eq _ arrRefs_eq (by decide) _

set_option maxHeartbeats 4000000 in
/-- ENTRY: the fourteen arrays at the entry contents, dealt to the sixteen windows. -/
theorem deal (c : Dev nD) :
    (Pipeline.arrBufs (Ix := Unit) (Name := ℕ) (U := UR sig nD τ) (Lvl := ℕ) spec2 c (V c) : sProp 𝕄)
      ⊢ (dat V c).arrays ((dat V c).arrAt · 0) := by
  rw [arrays_shares, bigSep_W2, arrBufs_chain]
  iintro ⟨H_main_v49_0, H_main_v49_1, H_main_v51, H_main_v53, H_main_v55, H_main_v56, H_main_v58, H_main_v59, H_main_v61, H_main_v63, H_main_v65, H_main_v66, H_main_v67_0, H_main_v67_1⟩
  ihave Hh := halves _ _ $$ H_main_v49_0
  icases Hh with ⟨Hhl, Hhr⟩
  ihave Hc := halves _ _ $$ H_main_v49_1
  icases Hc with ⟨Hcl, Hcr⟩
  isplitl [Hhl]; · iexact Hhl
  isplitl [Hhr]; · iexact Hhr
  isplitl [Hcl]; · iexact Hcl
  isplitl [Hcr]; · iexact Hcr
  isplitl [H_main_v51]; · iexact H_main_v51
  isplitl [H_main_v53]; · iexact H_main_v53
  isplitl [H_main_v55]; · iexact H_main_v55
  isplitl [H_main_v56]; · iexact H_main_v56
  isplitl [H_main_v58]; · iexact H_main_v58
  isplitl [H_main_v59]; · iexact H_main_v59
  isplitl [H_main_v61]; · iexact H_main_v61
  isplitl [H_main_v63]; · iexact H_main_v63
  isplitl [H_main_v65]; · iexact H_main_v65
  isplitl [H_main_v66]; · iexact H_main_v66
  isplitl [H_main_v67_0]; · iexact H_main_v67_0
  iexact H_main_v67_1

/-- An input's array is never written: after the last grid point it is as the region found it. -/
theorem input_kept (c : Dev nD) (w : Fin cfg2.W) (hw : (cfg2.win w).isOut = false) (q : PosShare TreeShare) :
    ((((c.tc : Thread nD τ).loc (Pipeline.arrRef cfg2.spec w)) ↦{q} (dat V c).arrAt w cfg2.N : sProp 𝕄))
      ⊢ (((c.tc : Thread nD τ).loc (Pipeline.arrRef cfg2.spec w)) ↦{q} (dat V c).A w) :=
  Entails.of_eq (by rw [(dat V c).arrAt_in w hw])

set_option maxHeartbeats 8000000 in
/-- EXIT: the windows' arrays after the last grid point make the fourteen arrays at the exit contents `V'`: as at
    entry but for the two outputs, which hold what the write-backs left. -/
theorem join (c : Dev nD) (V' : (b : Ref sig .tc) → Buf (Elt F) ((c : Thread nD τ).loc b))
    (hin : ∀ b, b ≠ main_v67_0 → b ≠ main_v67_1 → V' b = V c b)
    (hH : V' main_v67_0 = (dat V c).arrAt 14 cfg2.N) (hC : V' main_v67_1 = (dat V c).arrAt 15 cfg2.N) :
    ((dat V c).arrays ((dat V c).arrAt · cfg2.N) : sProp 𝕄)
      ⊢ Pipeline.arrBufs (Ix := Unit) (Name := ℕ) (U := UR sig nD τ) (Lvl := ℕ) spec2 c V' := by
  rw [arrays_shares, bigSep_W2, arrBufs_chain]
  rw [hin main_v49_0 (by decide) (by decide), hin main_v49_1 (by decide) (by decide), hin main_v51 (by decide) (by decide), hin main_v53 (by decide) (by decide), hin main_v55 (by decide) (by decide), hin main_v56 (by decide) (by decide), hin main_v58 (by decide) (by decide), hin main_v59 (by decide) (by decide), hin main_v61 (by decide) (by decide), hin main_v63 (by decide) (by decide), hin main_v65 (by decide) (by decide), hin main_v66 (by decide) (by decide), hH, hC]
  iintro ⟨W0, W1, W2, W3, W4, W5, W6, W7, W8, W9, W10, W11, W12, W13, W14, W15⟩
  ihave K0 := input_kept V c 0 rfl _ $$ W0
  ihave K1 := input_kept V c 1 rfl _ $$ W1
  ihave K2 := input_kept V c 2 rfl _ $$ W2
  ihave K3 := input_kept V c 3 rfl _ $$ W3
  ihave K4 := input_kept V c 4 rfl _ $$ W4
  ihave K5 := input_kept V c 5 rfl _ $$ W5
  ihave K6 := input_kept V c 6 rfl _ $$ W6
  ihave K7 := input_kept V c 7 rfl _ $$ W7
  ihave K8 := input_kept V c 8 rfl _ $$ W8
  ihave K9 := input_kept V c 9 rfl _ $$ W9
  ihave K10 := input_kept V c 10 rfl _ $$ W10
  ihave K11 := input_kept V c 11 rfl _ $$ W11
  ihave K12 := input_kept V c 12 rfl _ $$ W12
  ihave K13 := input_kept V c 13 rfl _ $$ W13
  isplitl [K0 K1]
  · iapply whole; isplitl [K0]; · iexact K0
    iexact K1
  isplitl [K2 K3]
  · iapply whole; isplitl [K2]; · iexact K2
    iexact K3
  isplitl [K4]; · iexact K4
  isplitl [K5]; · iexact K5
  isplitl [K6]; · iexact K6
  isplitl [K7]; · iexact K7
  isplitl [K8]; · iexact K8
  isplitl [K9]; · iexact K9
  isplitl [K10]; · iexact K10
  isplitl [K11]; · iexact K11
  isplitl [K12]; · iexact K12
  isplitl [K13]; · iexact K13
  isplitl [W14]; · iexact W14
  iexact W15

/-- A core's unscoped buffers are the buffers behind the windows' arrays and the rest. -/
theorem unscoped_split (c : Dev nD) (W : (b : Ref sig .tc) → Buf (Elt F) ((c : Thread nD τ).loc b)) :
    (unscopedBufs (Ix := Unit) (Name := ℕ) (U := UR sig nD τ) (Lvl := ℕ) c W : sProp 𝕄)
      = iprop((Pipeline.arrBufs spec2 c W : sProp 𝕄) ∗ Pipeline.unscopedRest spec2 c W) := by
  classical
  have hA : Finset.univ.image (Pipeline.arrRef spec2) ⊆ Finset.univ.filter fun b : Ref sig .tc => ¬ b.isScoped := by decide
  unfold unscopedBufs Pipeline.unscopedRest Pipeline.arrBufs
  rw [bigSep_sdiff_split hA]
  rfl

/-- The rest does not see a change of the two outputs' arrays. -/
theorem rest_congr (c : Dev nD) (W W' : (b : Ref sig .tc) → Buf (Elt F) ((c : Thread nD τ).loc b))
    (h : ∀ b, b ≠ main_v67_0 → b ≠ main_v67_1 → W' b = W b) :
    (Pipeline.unscopedRest (Ix := Unit) (Name := ℕ) (U := UR sig nD τ) (Lvl := ℕ) spec2 c W : sProp 𝕄) = Pipeline.unscopedRest spec2 c W' := by
  unfold Pipeline.unscopedRest
  refine Idealize.SL.BI.bigSep_congr fun b hb => ?_
  have hb' : b ∉ Finset.univ.image (Pipeline.arrRef spec2) := (Finset.mem_sdiff.mp hb).2
  rw [h b (fun e => hb' (by rw [e]; decide)) (fun e => hb' (by rw [e]; decide))]

end Deal

end Cert.KernelIdeal.Gen.Layer2

end
-- ==== Proof.IdealFrame.lean ====
/-
  The whole program's frame: every weakly fair execution of @main terminates, faults nowhere and leaves the fourteen
  argument arrays as launched. @main is host operations, then the three layers' kernel regions with host operations
  between them, then the pooling and normalisation tail. Between two segments a core holds every unscoped buffer at
  contents named here: after a host stretch the stretch's fold of what came before, after a layer's region the same
  but for the layer's two output arrays, which hold what the pipeline's write-backs left. Each region is entered by
  dealing its fourteen arrays to its sixteen windows and left by joining them again; the rest is the generated
  conditional frame of the program.
-/
import proofs.«110946_j38972533244288_1_alg».proof.Proof.Gen.KernelIdeal.Regions
import proofs.«110946_j38972533244288_1_alg».proof.Proof.IdealLayer0Deal
import proofs.«110946_j38972533244288_1_alg».proof.Proof.IdealLayer1Deal
import proofs.«110946_j38972533244288_1_alg».proof.Proof.IdealLayer2Deal
import Idealize.ShloMosaic.Lib.Pipeline.Frame

set_option maxRecDepth 16384

noncomputable section

namespace Cert.KernelIdeal.Gen.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The buffers' contents between segments -/

/-- A core's contents read at the TensorCore's references. -/
abbrev atTc (W : Dev nD → Valuation τ sig (Elt F)) : (c : Dev nD) → (b : Ref sig .tc) → Buf (Elt F) ((c : Thread nD τ).loc b) := fun c b => W c b

/-- Entering layer 1: the launch contents after the first host stretch. -/
abbrev U1 : Dev nD → Valuation τ sig (Elt F) := fun c => V1 m c
/-- Leaving layer 1: as entered, but for its two outputs. -/
def U2 : Dev nD → Valuation τ sig (Elt F) := fun c =>
  Function.update (Function.update (U1 m c) main_v31_0 ((Layer0.dat (atTc (U1 m)) c).arrAt 14 cfg0.N : Buf (Elt F) ((c : Thread nD τ).loc main_v31_0)))
    main_v31_1 ((Layer0.dat (atTc (U1 m)) c).arrAt 15 cfg0.N : Buf (Elt F) ((c : Thread nD τ).loc main_v31_1))
theorem U2_of (c : Dev nD) (r : Ref sig .tc) (h : r ∉ ([main_v31_0, main_v31_1] : List (Ref sig .tc))) : U2 m c r = U1 m c r := by
  simp only [U2, Function.update_of_ne (StableHlo.devRef_ne_of_ne (List.ne_of_not_mem_cons h) : (Proc.devRef .tc r : DevRef τ sig) ≠ Proc.devRef .tc main_v31_0), Function.update_of_ne (StableHlo.devRef_ne_of_ne (List.ne_of_not_mem_cons (List.not_mem_of_not_mem_cons h)) : (Proc.devRef .tc r : DevRef τ sig) ≠ Proc.devRef .tc main_v31_1)]
theorem U2_h (c : Dev nD) : U2 m c main_v31_0 = (Layer0.dat (atTc (U1 m)) c).arrAt 14 cfg0.N := by
  simp only [U2, Function.update_of_ne (StableHlo.devRef_ne_of_ne (by decide) : (Proc.devRef .tc main_v31_0 : DevRef τ sig) ≠ Proc.devRef .tc main_v31_1), Function.update_self]
theorem U2_c (c : Dev nD) : U2 m c main_v31_1 = (Layer0.dat (atTc (U1 m)) c).arrAt 15 cfg0.N := by
  simp only [U2, Function.update_self]
/-- Entering layer 2: after the host stretch between the two regions. -/
abbrev U3 : Dev nD → Valuation τ sig (Elt F) := fun c => StableHlo.after hostOps1 (U2 m c)
/-- Leaving layer 2: as entered, but for its two outputs. -/
def U4 : Dev nD → Valuation τ sig (Elt F) := fun c =>
  Function.update (Function.update (U3 m c) main_v49_0 ((Layer1.dat (atTc (U3 m)) c).arrAt 14 cfg1.N : Buf (Elt F) ((c : Thread nD τ).loc main_v49_0)))
    main_v49_1 ((Layer1.dat (atTc (U3 m)) c).arrAt 15 cfg1.N : Buf (Elt F) ((c : Thread nD τ).loc main_v49_1))
theorem U4_of (c : Dev nD) (r : Ref sig .tc) (h : r ∉ ([main_v49_0, main_v49_1] : List (Ref sig .tc))) : U4 m c r = U3 m c r := by
  simp only [U4, Function.update_of_ne (StableHlo.devRef_ne_of_ne (List.ne_of_not_mem_cons h) : (Proc.devRef .tc r : DevRef τ sig) ≠ Proc.devRef .tc main_v49_0), Function.update_of_ne (StableHlo.devRef_ne_of_ne (List.ne_of_not_mem_cons (List.not_mem_of_not_mem_cons h)) : (Proc.devRef .tc r : DevRef τ sig) ≠ Proc.devRef .tc main_v49_1)]
theorem U4_h (c : Dev nD) : U4 m c main_v49_0 = (Layer1.dat (atTc (U3 m)) c).arrAt 14 cfg1.N := by
  simp only [U4, Function.update_of_ne (StableHlo.devRef_ne_of_ne (by decide) : (Proc.devRef .tc main_v49_0 : DevRef τ sig) ≠ Proc.devRef .tc main_v49_1), Function.update_self]
theorem U4_c (c : Dev nD) : U4 m c main_v49_1 = (Layer1.dat (atTc (U3 m)) c).arrAt 15 cfg1.N := by
  simp only [U4, Function.update_self]
/-- Entering layer 3: after the host stretch between the two regions. -/
abbrev U5 : Dev nD → Valuation τ sig (Elt F) := fun c => StableHlo.after hostOps2 (U4 m c)
/-- Leaving layer 3: as entered, but for its two outputs. -/
def U6 : Dev nD → Valuation τ sig (Elt F) := fun c =>
  Function.update (Function.update (U5 m c) main_v67_0 ((Layer2.dat (atTc (U5 m)) c).arrAt 14 cfg2.N : Buf (Elt F) ((c : Thread nD τ).loc main_v67_0)))
    main_v67_1 ((Layer2.dat (atTc (U5 m)) c).arrAt 15 cfg2.N : Buf (Elt F) ((c : Thread nD τ).loc main_v67_1))
theorem U6_of (c : Dev nD) (r : Ref sig .tc) (h : r ∉ ([main_v67_0, main_v67_1] : List (Ref sig .tc))) : U6 m c r = U5 m c r := by
  simp only [U6, Function.update_of_ne (StableHlo.devRef_ne_of_ne (List.ne_of_not_mem_cons h) : (Proc.devRef .tc r : DevRef τ sig) ≠ Proc.devRef .tc main_v67_0), Function.update_of_ne (StableHlo.devRef_ne_of_ne (List.ne_of_not_mem_cons (List.not_mem_of_not_mem_cons h)) : (Proc.devRef .tc r : DevRef τ sig) ≠ Proc.devRef .tc main_v67_1)]
theorem U6_h (c : Dev nD) : U6 m c main_v67_0 = (Layer2.dat (atTc (U5 m)) c).arrAt 14 cfg2.N := by
  simp only [U6, Function.update_of_ne (StableHlo.devRef_ne_of_ne (by decide) : (Proc.devRef .tc main_v67_0 : DevRef τ sig) ≠ Proc.devRef .tc main_v67_1), Function.update_self]
theorem U6_c (c : Dev nD) : U6 m c main_v67_1 = (Layer2.dat (atTc (U5 m)) c).arrAt 15 cfg2.N := by
  simp only [U6, Function.update_self]

/-- What the regions leave, as the generated valuations read it. -/
def outs : Outs (F := F) := fun J r c =>
  match J with
  | 2 => U2 m c r
  | 4 => U4 m c r
  | 6 => U6 m c r
  | _ => U1 m c r

theorem hV2 (c : Dev nD) : V2 m (outs m) c = U2 m c := by
  show Function.update (Function.update (V1 m c) main_v31_0 (U2 m c main_v31_0)) main_v31_1 (U2 m c main_v31_1) = U2 m c
  rw [U2_h, U2_c]; rfl
theorem hV3 (c : Dev nD) : V3 m (outs m) c = U3 m c := by
  show StableHlo.after hostOps1 (V2 m (outs m) c) = _; rw [hV2]
theorem hV4 (c : Dev nD) : V4 m (outs m) c = U4 m c := by
  show Function.update (Function.update (V3 m (outs m) c) main_v49_0 (U4 m c main_v49_0)) main_v49_1 (U4 m c main_v49_1) = U4 m c
  rw [U4_h, U4_c, hV3]; rfl
theorem hV5 (c : Dev nD) : V5 m (outs m) c = U5 m c := by
  show StableHlo.after hostOps2 (V4 m (outs m) c) = _; rw [hV4]
theorem hV6 (c : Dev nD) : V6 m (outs m) c = U6 m c := by
  show Function.update (Function.update (V5 m (outs m) c) main_v67_0 (U6 m c main_v67_0)) main_v67_1 (U6 m c main_v67_1) = U6 m c
  rw [U6_h, U6_c, hV5]; rfl

/-! ## The proof data family and what rides beside the buffers -/

def pdats : (p : Fin 3) → (c : Dev nD) → Dat τ (Elt F) Unit ℕ (UR sig nD τ) ℕ (cfgs p) c
  | ⟨0, _⟩ => fun c => Layer0.dat (atTc (U1 m)) c
  | ⟨1, _⟩ => fun c => Layer1.dat (atTc (U3 m)) c
  | ⟨2, _⟩ => fun c => Layer2.dat (atTc (U5 m)) c

abbrev L : GSem nD τ sig → Finset Unit := fun _ => ∅
abbrev lv : GSem nD τ sig → Unit → ℕ := fun _ _ => 0
/-- The core's generator register at some state and its dues, at nothing. -/
abbrev R (c : Dev nD) : sProp 𝕄 := iprop((∃ r, prngReg c r) ∗ ∃ W, owes (c : Thread nD τ) (0 : CellTallies nD τ sig Unit) W)

/-! ## The three regions -/

set_option backward.isDefEq.respectTransparency.types false in
/-- Layer 1's region: entered from every unscoped buffer at `U1`, left at `U2`. -/
def reg0 : Pipeline.RegionSeg (pcfgs (F := F)) adm (pdats m) () defs₀ Variants.none L lv 0 where
  win := winFacts₀0
  block_pos := block_pos0
  stage_whole := stage_whole0
  K := PEmpty
  osem k := k.elim
  ho := Pipeline.OwnSemFacts.none _
  hbody c := (Layer0.body_obligation (atTc (U1 m)) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (atTc (U1 m) c)
  hentry c := by
    rw [Pipeline.ownSems0_none]
    have hs : (StableHlo.held (c : Thread nD τ) (Pipeline.ucRefs τ sig) (U1 m c) : sProp 𝕄)
        ⊢ iprop((Layer0.dat (atTc (U1 m)) c).arrays ((Layer0.dat (atTc (U1 m)) c).arrAt · 0) ∗ Pipeline.unscopedRest spec0 c (atTc (U1 m) c)) := by
      rw [← Pipeline.unscopedBufs_held (Ix := Unit) (Name := ℕ) (U := UR sig nD τ) (Lvl := ℕ) c (U1 m c), Layer0.unscoped_split]
      exact sep_mono (Layer0.deal (atTc (U1 m)) c) .rfl
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Layer0.phi_in (atTc (U1 m)) c)
    unfold Pipeline.ΦA
    iintro ⟨Hp, -, Hr⟩
    isplitl [Hr]; · iexact Hr
    iexact Hp
  hout c := by
    rw [Pipeline.ownSems0_none]
    refine BIBase.Entails.trans (Layer0.phi_out (atTc (U1 m)) c) ?_
    unfold Pipeline.ΦA
    iintro ⟨Hr, Hp⟩
    isplitl [Hp]; · iexact Hp
    isplitr; · iempintro
    iexact Hr
  hexit c := by
    have hof : ∀ b, b ≠ main_v31_0 → b ≠ main_v31_1 → atTc (U2 m) c b = atTc (U1 m) c b := fun b h1 h2 =>
      U2_of m c b (by intro hmem; simp only [List.mem_cons, List.not_mem_nil, _root_.or_false] at hmem; exact hmem.elim h1 h2)
    have hj : iprop((Layer0.dat (atTc (U1 m)) c).arrays ((Layer0.dat (atTc (U1 m)) c).arrAt · cfg0.N) ∗ Pipeline.unscopedRest spec0 c (atTc (U1 m) c))
        ⊢ (StableHlo.held (c : Thread nD τ) (Pipeline.ucRefs τ sig) (U2 m c) : sProp 𝕄) := by
      rw [← Pipeline.unscopedBufs_held (Ix := Unit) (Name := ℕ) (U := UR sig nD τ) (Lvl := ℕ) c (U2 m c), Layer0.unscoped_split,
        Layer0.rest_congr c (atTc (U1 m) c) (atTc (U2 m) c) hof]
      exact sep_mono (Layer0.join (atTc (U1 m)) c (atTc (U2 m) c) hof (U2_h m c) (U2_c m c)) .rfl
    iintro ⟨Ha, HO, HY, Hrest⟩
    imodintro
    isplitl [Ha Hrest]
    · iapply hj; isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Layer 2's region: entered from every unscoped buffer at `U3`, left at `U4`. -/
def reg1 : Pipeline.RegionSeg (pcfgs (F := F)) adm (pdats m) () defs₀ Variants.none L lv 1 where
  win := winFacts₀1
  block_pos := block_pos1
  stage_whole := stage_whole1
  K := PEmpty
  osem k := k.elim
  ho := Pipeline.OwnSemFacts.none _
  hbody c := (Layer1.body_obligation (atTc (U3 m)) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec1 c (atTc (U3 m) c)
  hentry c := by
    rw [Pipeline.ownSems0_none]
    have hs : (StableHlo.held (c : Thread nD τ) (Pipeline.ucRefs τ sig) (U3 m c) : sProp 𝕄)
        ⊢ iprop((Layer1.dat (atTc (U3 m)) c).arrays ((Layer1.dat (atTc (U3 m)) c).arrAt · 0) ∗ Pipeline.unscopedRest spec1 c (atTc (U3 m) c)) := by
      rw [← Pipeline.unscopedBufs_held (Ix := Unit) (Name := ℕ) (U := UR sig nD τ) (Lvl := ℕ) c (U3 m c), Layer1.unscoped_split]
      exact sep_mono (Layer1.deal (atTc (U3 m)) c) .rfl
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Layer1.phi_in (atTc (U3 m)) c)
    unfold Pipeline.ΦA
    iintro ⟨Hp, -, Hr⟩
    isplitl [Hr]; · iexact Hr
    iexact Hp
  hout c := by
    rw [Pipeline.ownSems0_none]
    refine BIBase.Entails.trans (Layer1.phi_out (atTc (U3 m)) c) ?_
    unfold Pipeline.ΦA
    iintro ⟨Hr, Hp⟩
    isplitl [Hp]; · iexact Hp
    isplitr; · iempintro
    iexact Hr
  hexit c := by
    have hof : ∀ b, b ≠ main_v49_0 → b ≠ main_v49_1 → atTc (U4 m) c b = atTc (U3 m) c b := fun b h1 h2 =>
      U4_of m c b (by intro hmem; simp only [List.mem_cons, List.not_mem_nil, _root_.or_false] at hmem; exact hmem.elim h1 h2)
    have hj : iprop((Layer1.dat (atTc (U3 m)) c).arrays ((Layer1.dat (atTc (U3 m)) c).arrAt · cfg1.N) ∗ Pipeline.unscopedRest spec1 c (atTc (U3 m) c))
        ⊢ (StableHlo.held (c : Thread nD τ) (Pipeline.ucRefs τ sig) (U4 m c) : sProp 𝕄) := by
      rw [← Pipeline.unscopedBufs_held (Ix := Unit) (Name := ℕ) (U := UR sig nD τ) (Lvl := ℕ) c (U4 m c), Layer1.unscoped_split,
        Layer1.rest_congr c (atTc (U3 m) c) (atTc (U4 m) c) hof]
      exact sep_mono (Layer1.join (atTc (U3 m)) c (atTc (U4 m) c) hof (U4_h m c) (U4_c m c)) .rfl
    iintro ⟨Ha, HO, HY, Hrest⟩
    imodintro
    isplitl [Ha Hrest]
    · iapply hj; isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Layer 3's region: entered from every unscoped buffer at `U5`, left at `U6`. -/
def reg2 : Pipeline.RegionSeg (pcfgs (F := F)) adm (pdats m) () defs₀ Variants.none L lv 2 where
  win := winFacts₀2
  block_pos := block_pos2
  stage_whole := stage_whole2
  K := PEmpty
  osem k := k.elim
  ho := Pipeline.OwnSemFacts.none _
  hbody c := (Layer2.body_obligation (atTc (U5 m)) c).loose
  hwaits := Pipeline.hwaits_of_owed_zero _ _ _ _ L lv 2 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec2 c (atTc (U5 m) c)
  hentry c := by
    rw [Pipeline.ownSems0_none]
    have hs : (StableHlo.held (c : Thread nD τ) (Pipeline.ucRefs τ sig) (U5 m c) : sProp 𝕄)
        ⊢ iprop((Layer2.dat (atTc (U5 m)) c).arrays ((Layer2.dat (atTc (U5 m)) c).arrAt · 0) ∗ Pipeline.unscopedRest spec2 c (atTc (U5 m) c)) := by
      rw [← Pipeline.unscopedBufs_held (Ix := Unit) (Name := ℕ) (U := UR sig nD τ) (Lvl := ℕ) c (U5 m c), Layer2.unscoped_split]
      exact sep_mono (Layer2.deal (atTc (U5 m)) c) .rfl
    iintro ⟨⟨Hub, Hp, HO⟩, -, -⟩
    ihave H := hs $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Layer2.phi_in (atTc (U5 m)) c)
    unfold Pipeline.ΦA
    iintro ⟨Hp, -, Hr⟩
    isplitl [Hr]; · iexact Hr
    iexact Hp
  hout c := by
    rw [Pipeline.ownSems0_none]
    refine BIBase.Entails.trans (Layer2.phi_out (atTc (U5 m)) c) ?_
    unfold Pipeline.ΦA
    iintro ⟨Hr, Hp⟩
    isplitl [Hp]; · iexact Hp
    isplitr; · iempintro
    iexact Hr
  hexit c := by
    have hof : ∀ b, b ≠ main_v67_0 → b ≠ main_v67_1 → atTc (U6 m) c b = atTc (U5 m) c b := fun b h1 h2 =>
      U6_of m c b (by intro hmem; simp only [List.mem_cons, List.not_mem_nil, _root_.or_false] at hmem; exact hmem.elim h1 h2)
    have hj : iprop((Layer2.dat (atTc (U5 m)) c).arrays ((Layer2.dat (atTc (U5 m)) c).arrAt · cfg2.N) ∗ Pipeline.unscopedRest spec2 c (atTc (U5 m) c))
        ⊢ (StableHlo.held (c : Thread nD τ) (Pipeline.ucRefs τ sig) (U6 m c) : sProp 𝕄) := by
      rw [← Pipeline.unscopedBufs_held (Ix := Unit) (Name := ℕ) (U := UR sig nD τ) (Lvl := ℕ) c (U6 m c), Layer2.unscoped_split,
        Layer2.rest_congr c (atTc (U5 m) c) (atTc (U6 m) c) hof]
      exact sep_mono (Layer2.join (atTc (U5 m)) c (atTc (U6 m) c) hof (U6_h m c) (U6_c m c)) .rfl
    iintro ⟨Ha, HO, HY, Hrest⟩
    imodintro
    isplitl [Ha Hrest]
    · iapply hj; isplitl [Ha]; · iexact Ha
      iexact Hrest
    isplitl [HY]; · iexact HY
    unfold Pipeline.Dat.owesAt Pipeline.owesWithin
    icases HO with ⟨%W, -, HO⟩; iexists W; iexact HO

/-! ## The frame -/

set_option backward.isDefEq.respectTransparency.types false in
/-- Every weakly fair execution of @main from memory `m` with zero counters terminates, and every final memory holds each
    argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_cond m emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE3 := fun c => by iintro ⟨-, H⟩; iexact H)
    (reg0 m) (fun c => .rfl) (fun c => by rw [hV2]; exact .rfl)
    (reg1 m) (fun c => by rw [hV3]; exact .rfl) (fun c => by rw [hV4]; exact .rfl)
    (reg2 m) (fun c => by rw [hV5]; exact .rfl) (fun c => by rw [hV6]; exact .rfl)

end Cert.KernelIdeal.Gen.Whole

end
-- ==== Proof.IdealRun.lean ====
/-
  The idealized kernel program's run with its result named: as the frame, and the result array ends at what the last
  host stretch computes from the contents the third layer's region leaves. The first theorem is the program's conditional
  frame restated with the result buffer read off the last valuation beside the arguments.
-/
import proofs.«110946_j38972533244288_1_alg».proof.Proof.IdealFrame

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]
variable (m : (ℓ : Loc nD τ sig) → Buf (Elt F) ℓ)

set_option backward.isDefEq.respectTransparency.types false in
theorem value_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V5 m outs c) ∗ E 2 c) ⊢ R2.pre c)
    (hpost2 : ∀ c : Dev nD, R2.post c ⊢ iprop(StableHlo.held (c : Thread nD τ) (Pipeline.ucRefs τ sig) (V6 m outs c) ∗ E 3 c)) :
    θ_run defs (onTc (τ := τ) (main (F := F))) ⟨m, fun _ => 0, ρ⟩ (fun r => ∀ c : Dev nD,
      r.2.mem ((c.tc : Thread nD τ).loc main_v107) = V11 m outs c main_v107
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1,
          StableHlo.seq hostOps3_2,
          StableHlo.seq hostOps3_3,
          StableHlo.seq hostOps3_4 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V11 m outs c))
    (hch := fun c => ⟨.rfl, hpre0 c, hpost0 c, hpre1 c, hpost1 c, hpre2 c, hpost2 c, .rfl, .rfl, .rfl, .rfl, sep_mono .rfl (hE3 c)⟩)
    (hinit := ?_) (QY := fun c s => s.mem ((c.tc : Thread nD τ).loc main_v107) = V11 m outs c main_v107 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V11 m outs c) s') $$ [Hh HSI]
    · isplitl [Hh] <;> iassumption
    icases Hr with ⟨%h, HSI⟩
    imodintro
    isplitr
    · ipureintro
      exact ⟨h (Proc.devRef .tc main_v107) (Finset.mem_filter.mpr ⟨StableHlo.devRef_mem_tcRefs main_v107, by decide⟩),
        (h (Proc.devRef .tc main_arg0) (Finset.mem_filter.mpr ⟨StableHlo.devRef_mem_tcRefs main_arg0, by decide⟩)).trans (V11_main_arg0 m outs c),
        (h (Proc.devRef .tc main_arg1) (Finset.mem_filter.mpr ⟨StableHlo.devRef_mem_tcRefs main_arg1, by decide⟩)).trans (V11_main_arg1 m outs c),
        (h (Proc.devRef .tc main_arg2) (Finset.mem_filter.mpr ⟨StableHlo.devRef_mem_tcRefs main_arg2, by decide⟩)).trans (V11_main_arg2 m outs c),
        (h (Proc.devRef .tc main_arg3) (Finset.mem_filter.mpr ⟨StableHlo.devRef_mem_tcRefs main_arg3, by decide⟩)).trans (V11_main_arg3 m outs c),
        (h (Proc.devRef .tc main_arg4) (Finset.mem_filter.mpr ⟨StableHlo.devRef_mem_tcRefs main_arg4, by decide⟩)).trans (V11_main_arg4 m outs c),
        (h (Proc.devRef .tc main_arg5) (Finset.mem_filter.mpr ⟨StableHlo.devRef_mem_tcRefs main_arg5, by decide⟩)).trans (V11_main_arg5 m outs c),
        (h (Proc.devRef .tc main_arg6) (Finset.mem_filter.mpr ⟨StableHlo.devRef_mem_tcRefs main_arg6, by decide⟩)).trans (V11_main_arg6 m outs c),
        (h (Proc.devRef .tc main_arg7) (Finset.mem_filter.mpr ⟨StableHlo.devRef_mem_tcRefs main_arg7, by decide⟩)).trans (V11_main_arg7 m outs c),
        (h (Proc.devRef .tc main_arg8) (Finset.mem_filter.mpr ⟨StableHlo.devRef_mem_tcRefs main_arg8, by decide⟩)).trans (V11_main_arg8 m outs c),
        (h (Proc.devRef .tc main_arg9) (Finset.mem_filter.mpr ⟨StableHlo.devRef_mem_tcRefs main_arg9, by decide⟩)).trans (V11_main_arg9 m outs c),
        (h (Proc.devRef .tc main_arg10) (Finset.mem_filter.mpr ⟨StableHlo.devRef_mem_tcRefs main_arg10, by decide⟩)).trans (V11_main_arg10 m outs c),
        (h (Proc.devRef .tc main_arg11) (Finset.mem_filter.mpr ⟨StableHlo.devRef_mem_tcRefs main_arg11, by decide⟩)).trans (V11_main_arg11 m outs c),
        (h (Proc.devRef .tc main_arg12) (Finset.mem_filter.mpr ⟨StableHlo.devRef_mem_tcRefs main_arg12, by decide⟩)).trans (V11_main_arg12 m outs c),
        (h (Proc.devRef .tc main_arg13) (Finset.mem_filter.mpr ⟨StableHlo.devRef_mem_tcRefs main_arg13, by decide⟩)).trans (V11_main_arg13 m outs c)⟩
    · iexact HSI

end Cert.KernelIdeal.Gen

namespace Cert.KernelIdeal.Gen.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- The result: the tail's five host stretches folded over what the third layer's region leaves. -/
abbrev result (c : Dev nD) : Valuation τ sig (Elt F) :=
  StableHlo.after hostOps3_4 (StableHlo.after hostOps3_3 (StableHlo.after hostOps3_2 (StableHlo.after hostOps3_1 (StableHlo.after hostOps3 (U6 m c)))))

theorem hV11 (c : Dev nD) : V11 m (outs m) c = result m c := by
  show StableHlo.after hostOps3_4 (StableHlo.after hostOps3_3 (StableHlo.after hostOps3_2 (StableHlo.after hostOps3_1 (StableHlo.after hostOps3 (V6 m (outs m) c))))) = _
  rw [hV6]

set_option backward.isDefEq.respectTransparency.types false in
theorem run_value (ρ : Dev nD → PrngReg) :
    θ_run defs (onTc (τ := τ) (main (F := F))) ⟨m, fun _ => 0, ρ⟩ (fun r => ∀ c : Dev nD,
      r.2.mem ((c.tc : Thread nD τ).loc main_v107) = result m c main_v107
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => by rw [← hV11]; exact h c) <|
  value_cond m emb₁ () Variants.none L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := Pipeline.initEach L lv fun c => by
      iintro ⟨⟨-, HO, -, Hp, -⟩, -⟩
      imodintro
      isplitl [Hp]; · iexists _; iexact Hp
      iexists ∅; iexact HO)
    (hE3 := fun c => by iintro ⟨-, H⟩; iexact H)
    (reg0 m) (fun c => .rfl) (fun c => by rw [hV2]; exact .rfl)
    (reg1 m) (fun c => by rw [hV3]; exact .rfl) (fun c => by rw [hV4]; exact .rfl)
    (reg2 m) (fun c => by rw [hV5]; exact .rfl) (fun c => by rw [hV6]; exact .rfl)

end Cert.KernelIdeal.Gen.Whole

end
-- ==== Proof.RefRun.lean ====
/- The reference program's run, written by hand. @main is a straight line of host operations; the functions it calls
   are straight lines too (one of them calls another), so with every call's operations listed at the call site — over
   the buffers that call's record names — the whole program is one list of operations. `main_eq` says @main is that
   list run in order; the library's theorem for such a line then gives: every weakly fair execution terminates, each
   buffer ends at the fold of the operations' results over the launch contents, and a buffer no operation writes —
   each of the fourteen arguments — ends as it began. The list is kept in six windows, as @main is printed. -/
import proofs.«110946_j38972533244288_1_alg».proof.ReferenceIdeal
import proofs.«110946_j38972533244288_1_alg».proof.Proof.Gen.ReferenceIdeal
import Idealize.ShloMosaic.Lib.StableHlo.Run

-- one declaration at a time: the windows' proofs each hold their whole list
set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- Statements 1 … 60 of @main, 64 operations: its 58 own, and the two calls of `where` in it, each listed inline
    as its three operations (the scalar converted, broadcast, the select) over the call's buffers `main_call0`, `main_call1`. -/
abbrev ops0 : List (HloOp τ sig (Elt F)) :=
  [ StableHlo.nullary main_c (constantI S_ 32 0#32),
    StableHlo.unary main_c main_v0 (broadcastInDim S768 ![] bcast_S_S768 : (⟨S_, .i32⟩ : BufTy).Contents (Elt F) → (⟨S768, .i32⟩ : BufTy).Contents (Elt F)),
    StableHlo.binary main_arg12 main_v0 main_v1 (cmpi .slt : (⟨S768, .i32⟩ : BufTy).Contents (Elt F) → (⟨S768, .i32⟩ : BufTy).Contents (Elt F) → (⟨S768, .i1⟩ : BufTy).Contents (Elt F)),
    StableHlo.nullary main_c_0 (constantI S_ 32 2048#32),
    StableHlo.unary main_c_0 main_v2 (broadcastInDim S768 ![] bcast_S_S768 : (⟨S_, .i32⟩ : BufTy).Contents (Elt F) → (⟨S768, .i32⟩ : BufTy).Contents (Elt F)),
    StableHlo.binary main_arg12 main_v2 main_v3 (addi : (⟨S768, .i32⟩ : BufTy).Contents (Elt F) → (⟨S768, .i32⟩ : BufTy).Contents (Elt F) → (⟨S768, .i32⟩ : BufTy).Contents (Elt F)),
    StableHlo.ternary main_v1 main_v3 main_arg12 main_v4 (select : (⟨S768, .i1⟩ : BufTy).Contents (Elt F) → (⟨S768, .i32⟩ : BufTy).Contents (Elt F) → (⟨S768, .i32⟩ : BufTy).Contents (Elt F) → (⟨S768, .i32⟩ : BufTy).Contents (Elt F)),
    StableHlo.unary main_v4 main_v5 (broadcastInDim S768x1 ![0] bcast_S768_S768x1_0 : (⟨S768, .i32⟩ : BufTy).Contents (Elt F) → (⟨S768x1, .i32⟩ : BufTy).Contents (Elt F)),
    StableHlo.binary main_arg0 main_v5 main_v6 ((fun x i => Host.gather gather_S2048x128_S768x1_S768x128_1_0_n_n_0_1_1128 x i) : (⟨S2048x128, .f32⟩ : BufTy).Contents (Elt F) → (⟨S768x1, .i32⟩ : BufTy).Contents (Elt F) → (⟨S768x128, .f32⟩ : BufTy).Contents (Elt F)),
    StableHlo.nullary main_c_1 (constantI S_ 32 0#32),
    StableHlo.unary main_c_1 main_v7 (broadcastInDim S768 ![] bcast_S_S768 : (⟨S_, .i32⟩ : BufTy).Contents (Elt F) → (⟨S768, .i32⟩ : BufTy).Contents (Elt F)),
    StableHlo.binary main_arg12 main_v7 main_v8 (cmpi .slt : (⟨S768, .i32⟩ : BufTy).Contents (Elt F) → (⟨S768, .i32⟩ : BufTy).Contents (Elt F) → (⟨S768, .i1⟩ : BufTy).Contents (Elt F)),
    StableHlo.nullary main_c_2 (constantI S_ 32 2048#32),
    StableHlo.unary main_c_2 main_v9 (broadcastInDim S768 ![] bcast_S_S768 : (⟨S_, .i32⟩ : BufTy).Contents (Elt F) → (⟨S768, .i32⟩ : BufTy).Contents (Elt F)),
    StableHlo.binary main_arg12 main_v9 main_v10 (addi : (⟨S768, .i32⟩ : BufTy).Contents (Elt F) → (⟨S768, .i32⟩ : BufTy).Contents (Elt F) → (⟨S768, .i32⟩ : BufTy).Contents (Elt F)),
    StableHlo.ternary main_v8 main_v10 main_arg12 main_v11 (select : (⟨S768, .i1⟩ : BufTy).Contents (Elt F) → (⟨S768, .i32⟩ : BufTy).Contents (Elt F) → (⟨S768, .i32⟩ : BufTy).Contents (Elt F) → (⟨S768, .i32⟩ : BufTy).Contents (Elt F)),
    StableHlo.unary main_v11 main_v12 (broadcastInDim S768x1 ![0] bcast_S768_S768x1_0 : (⟨S768, .i32⟩ : BufTy).Contents (Elt F) → (⟨S768x1, .i32⟩ : BufTy).Contents (Elt F)),
    StableHlo.binary main_arg1 main_v12 main_v13 ((fun x i => Host.gather gather_S2048x3_S768x1_S768x3_1_0_n_n_0_1_13 x i) : (⟨S2048x3, .f32⟩ : BufTy).Contents (Elt F) → (⟨S768x1, .i32⟩ : BufTy).Contents (Elt F) → (⟨S768x3, .f32⟩ : BufTy).Contents (Elt F)),
    StableHlo.unary main_v13 main_v14 (broadcastInDim S768x1x3 ![0, 2] bcast_S768x3_S768x1x3_0_2 : (⟨S768x3, .f32⟩ : BufTy).Contents (Elt F) → (⟨S768x1x3, .f32⟩ : BufTy).Contents (Elt F)),
    StableHlo.unary main_v13 main_v15 (broadcastInDim S1x768x3 ![1, 2] bcast_S768x3_S1x768x3_1_2 : (⟨S768x3, .f32⟩ : BufTy).Contents (Elt F) → (⟨S1x768x3, .f32⟩ : BufTy).Contents (Elt F)),
    StableHlo.unary main_v14 main_v16 (broadcastInDim S768x768x3 ![0, 1, 2] bcast_S768x1x3_S768x768x3_0_1_2 : (⟨S768x1x3, .f32⟩ : BufTy).Contents (Elt F) → (⟨S768x768x3, .f32⟩ : BufTy).Contents (Elt F)),
    StableHlo.unary main_v15 main_v17 (broadcastInDim S768x768x3 ![0, 1, 2] bcast_S1x768x3_S768x768x3_0_1_2 : (⟨S1x768x3, .f32⟩ : BufTy).Contents (Elt F) → (⟨S768x768x3, .f32⟩ : BufTy).Contents (Elt F)),
    StableHlo.binary main_v16 main_v17 main_v18 (subf : (⟨S768x768x3, .f32⟩ : BufTy).Contents (Elt F) → (⟨S768x768x3, .f32⟩ : BufTy).Contents (Elt F) → (⟨S768x768x3, .f32⟩ : BufTy).Contents (Elt F)),
    StableHlo.binary main_v18 main_v18 main_v19 (mulf : (⟨S768x768x3, .f32⟩ : BufTy).Contents (Elt F) → (⟨S768x768x3, .f32⟩ : BufTy).Contents (Elt F) → (⟨S768x768x3, .f32⟩ : BufTy).Contents (Elt F)),
    StableHlo.nullary main_cst (constant S_ .f32 0x00000000#32),
    StableHlo.binary main_v19 main_cst main_v20 ((fun x v => Host.reduceAdd x v reducesTo_S768x768x3_S768x768_d2 h_S_) : (⟨S768x768x3, .f32⟩ : BufTy).Contents (Elt F) → (⟨S_, .f32⟩ : BufTy).Contents (Elt F) → (⟨S768x768, .f32⟩ : BufTy).Contents (Elt F)),
    StableHlo.nullary main_cst_3 (constant S_ .f32 0x00000000#32),
    StableHlo.unary main_cst_3 main_v21 (broadcastInDim S768x768 ![] bcast_S_S768x768 : (⟨S_, .f32⟩ : BufTy).Contents (Elt F) → (⟨S768x768, .f32⟩ : BufTy).Contents (Elt F)),
    StableHlo.binary main_v20 main_v21 main_v22 (cmpf .ogt : (⟨S768x768, .f32⟩ : BufTy).Contents (Elt F) → (⟨S768x768, .f32⟩ : BufTy).Contents (Elt F) → (⟨S768x768, .i1⟩ : BufTy).Contents (Elt F)),
    StableHlo.nullary main_cst_4 (constant S_ .f32 0x3F800000#32),
    StableHlo.TRef.unary (.of main_cst_4 : StableHlo.TRef sig ⟨S_, .f32⟩) main_call0.v0 id,
    StableHlo.TRef.unary main_call0.v0 main_call0.v1 (broadcastInDim S768x768 ![] bcast_S_S768x768),
    StableHlo.TRef.ternary (.of main_v22 : StableHlo.TRef sig ⟨S768x768, .i1⟩) (.of main_v20 : StableHlo.TRef sig ⟨S768x768, .f32⟩) main_call0.v1 main_call0.v2 select,
    StableHlo.unary main_v23 main_v24 (Host.sqrt : (⟨S768x768, .f32⟩ : BufTy).Contents (Elt F) → (⟨S768x768, .f32⟩ : BufTy).Contents (Elt F)),
    StableHlo.nullary main_cst_5 (constant S_ .f32 0x00000000#32),
    StableHlo.unary main_cst_5 main_v25 (broadcastInDim S768x768 ![] bcast_S_S768x768 : (⟨S_, .f32⟩ : BufTy).Contents (Elt F) → (⟨S768x768, .f32⟩ : BufTy).Contents (Elt F)),
    StableHlo.binary main_v20 main_v25 main_v26 (cmpf .ogt : (⟨S768x768, .f32⟩ : BufTy).Contents (Elt F) → (⟨S768x768, .f32⟩ : BufTy).Contents (Elt F) → (⟨S768x768, .i1⟩ : BufTy).Contents (Elt F)),
    StableHlo.nullary main_cst_6 (constant S_ .f32 0x00000000#32),
    StableHlo.TRef.unary (.of main_cst_6 : StableHlo.TRef sig ⟨S_, .f32⟩) main_call1.v0 id,
    StableHlo.TRef.unary main_call1.v0 main_call1.v1 (broadcastInDim S768x768 ![] bcast_S_S768x768),
    StableHlo.TRef.ternary (.of main_v26 : StableHlo.TRef sig ⟨S768x768, .i1⟩) (.of main_v24 : StableHlo.TRef sig ⟨S768x768, .f32⟩) main_call1.v1 main_call1.v2 select,
    StableHlo.unary main_arg2 main_v28 ((extractStridedSlice S1x257x128 ![0, 0, 0] · slices_S3x257x128_S1x257x128_0_0_0) : (⟨S3x257x128, .f32⟩ : BufTy).Contents (Elt F) → (⟨S1x257x128, .f32⟩ : BufTy).Contents (Elt F)),
    StableHlo.reshape main_v28 main_v29 rfl shapeCasts_S1x257x128_S257x128,
    StableHlo.unary main_v29 main_v30 ((extractStridedSlice S128x128 ![0, 0] · slices_S257x128_S128x128_0_0) : (⟨S257x128, .f32⟩ : BufTy).Contents (Elt F) → (⟨S128x128, .f32⟩ : BufTy).Contents (Elt F)),
    StableHlo.binary main_v6 main_v30 main_v31 ((fun l r => Host.dotGeneral dot_S768x128_S128x128_S768x128_1_0_0_1_n_n none l r) : (⟨S768x128, .f32⟩ : BufTy).Contents (Elt F) → (⟨S128x128, .f32⟩ : BufTy).Contents (Elt F) → (⟨S768x128, .f32⟩ : BufTy).Contents (Elt F)),
    StableHlo.unary main_v31 main_v32 (broadcastInDim S768x1x128 ![0, 2] bcast_S768x128_S768x1x128_0_2 : (⟨S768x128, .f32⟩ : BufTy).Contents (Elt F) → (⟨S768x1x128, .f32⟩ : BufTy).Contents (Elt F)),
    StableHlo.unary main_v29 main_v33 ((extractStridedSlice S128x128 ![128, 0] · slices_S257x128_S128x128_128_0) : (⟨S257x128, .f32⟩ : BufTy).Contents (Elt F) → (⟨S128x128, .f32⟩ : BufTy).Contents (Elt F)),
    StableHlo.binary main_v6 main_v33 main_v34 ((fun l r => Host.dotGeneral dot_S768x128_S128x128_S768x128_1_0_0_1_n_n none l r) : (⟨S768x128, .f32⟩ : BufTy).Contents (Elt F) → (⟨S128x128, .f32⟩ : BufTy).Contents (Elt F) → (⟨S768x128, .f32⟩ : BufTy).Contents (Elt F)),
    StableHlo.unary main_v34 main_v35 (broadcastInDim S1x768x128 ![1, 2] bcast_S768x128_S1x768x128_1_2 : (⟨S768x128, .f32⟩ : BufTy).Contents (Elt F) → (⟨S1x768x128, .f32⟩ : BufTy).Contents (Elt F)),
    StableHlo.unary main_v32 main_v36 (broadcastInDim S768x768x128 ![0, 1, 2] bcast_S768x1x128_S768x768x128_0_1_2 : (⟨S768x1x128, .f32⟩ : BufTy).Contents (Elt F) → (⟨S768x768x128, .f32⟩ : BufTy).Contents (Elt F)),
    StableHlo.unary main_v35 main_v37 (broadcastInDim S768x768x128 ![0, 1, 2] bcast_S1x768x128_S768x768x128_0_1_2 : (⟨S1x768x128, .f32⟩ : BufTy).Contents (Elt F) → (⟨S768x768x128, .f32⟩ : BufTy).Contents (Elt F)),
    StableHlo.binary main_v36 main_v37 main_v38 (addf : (⟨S768x768x128, .f32⟩ : BufTy).Contents (Elt F) → (⟨S768x768x128, .f32⟩ : BufTy).Contents (Elt F) → (⟨S768x768x128, .f32⟩ : BufTy).Contents (Elt F)),
    StableHlo.unary main_v27 main_v39 (broadcastInDim S768x768x1 ![0, 1] bcast_S768x768_S768x768x1_0_1 : (⟨S768x768, .f32⟩ : BufTy).Contents (Elt F) → (⟨S768x768x1, .f32⟩ : BufTy).Contents (Elt F)),
    StableHlo.unary main_v29 main_v40 ((extractStridedSlice S1x128 ![256, 0] · slices_S257x128_S1x128_256_0) : (⟨S257x128, .f32⟩ : BufTy).Contents (Elt F) → (⟨S1x128, .f32⟩ : BufTy).Contents (Elt F)),
    StableHlo.reshape main_v40 main_v41 rfl shapeCasts_S1x128_S128,
    StableHlo.unary main_v41 main_v42 (broadcastInDim S1x1x128 ![2] bcast_S128_S1x1x128_2 : (⟨S128, .f32⟩ : BufTy).Contents (Elt F) → (⟨S1x1x128, .f32⟩ : BufTy).Contents (Elt F)),
    StableHlo.unary main_v39 main_v43 (broadcastInDim S768x768x128 ![0, 1, 2] bcast_S768x768x1_S768x768x128_0_1_2 : (⟨S768x768x1, .f32⟩ : BufTy).Contents (Elt F) → (⟨S768x768x128, .f32⟩ : BufTy).Contents (Elt F)),
    StableHlo.unary main_v42 main_v44 (broadcastInDim S768x768x128 ![0, 1, 2] bcast_S1x1x128_S768x768x128_0_1_2 : (⟨S1x1x128, .f32⟩ : BufTy).Contents (Elt F) → (⟨S768x768x128, .f32⟩ : BufTy).Contents (Elt F)),
    StableHlo.binary main_v43 main_v44 main_v45 (mulf : (⟨S768x768x128, .f32⟩ : BufTy).Contents (Elt F) → (⟨S768x768x128, .f32⟩ : BufTy).Contents (Elt F) → (⟨S768x768x128, .f32⟩ : BufTy).Contents (Elt F)),
    StableHlo.binary main_v38 main_v45 main_v46 (addf : (⟨S768x768x128, .f32⟩ : BufTy).Contents (Elt F) → (⟨S768x768x128, .f32⟩ : BufTy).Contents (Elt F) → (⟨S768x768x128, .f32⟩ : BufTy).Contents (Elt F)),
    StableHlo.unary main_arg3 main_v47 ((extractStridedSlice S1x128 ![0, 0] · slices_S3x128_S1x128_0_0) : (⟨S3x128, .f32⟩ : BufTy).Contents (Elt F) → (⟨S1x128, .f32⟩ : BufTy).Contents (Elt F)),
    StableHlo.reshape main_v47 main_v48 rfl shapeCasts_S1x128_S128,
    StableHlo.unary main_v48 main_v49 (broadcastInDim S1x1x128 ![2] bcast_S128_S1x1x128_2 : (⟨S128, .f32⟩ : BufTy).Contents (Elt F) → (⟨S1x1x128, .f32⟩ : BufTy).Contents (Elt F)),
    StableHlo.unary main_v49 main_v50 (broadcastInDim S768x768x128 ![0, 1, 2] bcast_S1x1x128_S768x768x128_0_1_2 : (⟨S1x1x128, .f32⟩ : BufTy).Contents (Elt F) → (⟨S768x768x128, .f32⟩ : BufTy).Contents (Elt F)) ]

set_option maxRecDepth 8192 in
set_option maxHeartbeats 4000000 in
/-- Window 0 of @main is that line: the called functions' bodies unfold at their calls and the call records at
    their fields, and sequencing reassociates by computation. -/
theorem main_part0_eq (c : Dev nD) : main_part0 (F := F) c = seq ops0 := rfl

set_option maxRecDepth 8192 in
theorem ops0_sub : (ops0 : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., unary_bufs_sub .., unary_bufs_sub .., binary_bufs_sub .., binary_bufs_sub ..,
    nullary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., nullary_bufs_sub .., unary_bufs_sub .., unary_bufs_sub .., ternary_bufs_sub .., unary_bufs_sub ..,
    reshape_bufs_sub .., unary_bufs_sub .., binary_bufs_sub .., unary_bufs_sub .., unary_bufs_sub .., binary_bufs_sub ..,
    unary_bufs_sub .., unary_bufs_sub .., unary_bufs_sub .., binary_bufs_sub .., unary_bufs_sub .., unary_bufs_sub ..,
    reshape_bufs_sub .., unary_bufs_sub .., unary_bufs_sub .., unary_bufs_sub .., binary_bufs_sub .., binary_bufs_sub ..,
    unary_bufs_sub .., reshape_bufs_sub .., unary_bufs_sub .., unary_bufs_sub ..⟩

set_option maxRecDepth 8192 in
/-- No operation of window 0 allocates: each determines the buffer it writes. -/
theorem ops0_fresh : (ops0 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩

/-- The buffers window 0 writes, in order. -/
abbrev W0 : List (Ref sig .tc) :=
  [
    main_c, main_v0, main_v1, main_c_0, main_v2, main_v3, main_v4, main_v5,
    main_v6, main_c_1, main_v7, main_v8, main_c_2, main_v9, main_v10, main_v11,
    main_v12, main_v13, main_v14, main_v15, main_v16, main_v17, main_v18, main_v19,
    main_cst, main_v20, main_cst_3, main_v21, main_v22, main_cst_4, main_call0_v0, main_call0_v1,
    main_v23, main_v24, main_cst_5, main_v25, main_v26, main_cst_6, main_call1_v0, main_call1_v1,
    main_v27, main_v28, main_v29, main_v30, main_v31, main_v32, main_v33, main_v34,
    main_v35, main_v36, main_v37, main_v38, main_v39, main_v40, main_v41, main_v42,
    main_v43, main_v44, main_v45, main_v46, main_v47, main_v48, main_v49, main_v50]

set_option maxRecDepth 8192 in
set_option maxHeartbeats 4000000 in
theorem ops0_writes : (ops0 : List (HloOp τ sig (Elt F))).Forall fun op => op.writes ⊆ (W0.map (Proc.devRef (τ := τ) .tc)).toFinset := by
  simp only [List.Forall]
  exact ⟨
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer window 0 does not write keeps its contents through it. -/
theorem keep0 (V : Valuation τ sig (Elt F)) (r : Ref sig .tc) (h : r ∉ W0) :
    after ops0 V (Proc.devRef .tc r) = V (Proc.devRef .tc r) :=
  after_of_writes_sub ops0 V ops0_writes h

set_option maxRecDepth 8192 in
/-- Statements 61 … 120, 76 operations: 58 own, and the calls of `silu` (`main_call2`) and `silu_0` (`main_call3`) inline,
    each as its nine operations (negate, exponential, the constant one broadcast and added, the constant one broadcast and divided by that sum, the product with the argument). -/
abbrev ops1 : List (HloOp τ sig (Elt F)) :=
  [ StableHlo.binary main_v46 main_v50 main_v51 (addf : (⟨S768x768x128, .f32⟩ : BufTy).Contents (Elt F) → (⟨S768x768x128, .f32⟩ : BufTy).Contents (Elt F) → (⟨S768x768x128, .f32⟩ : BufTy).Contents (Elt F)),
    StableHlo.TRef.unary (.of main_v51 : StableHlo.TRef sig ⟨S768x768x128, .f32⟩) main_call2.v0 Host.negf,
    StableHlo.TRef.unary main_call2.v0 main_call2.v1 Host.exp,
    StableHlo.TRef.nullary main_call2.cst (constant S_ .f32 0x3F800000#32),
    StableHlo.TRef.unary main_call2.cst main_call2.v2 (broadcastInDim S768x768x128 ![] bcast_S_S768x768x128),
    StableHlo.TRef.binary main_call2.v2 main_call2.v1 main_call2.v3 addf,
    StableHlo.TRef.nullary main_call2.cst_0 (constant S_ .f32 0x3F800000#32),
    StableHlo.TRef.unary main_call2.cst_0 main_call2.v4 (broadcastInDim S768x768x128 ![] bcast_S_S768x768x128),
    StableHlo.TRef.binary main_call2.v4 main_call2.v3 main_call2.v5 Host.divf,
    StableHlo.TRef.binary (.of main_v51 : StableHlo.TRef sig ⟨S768x768x128, .f32⟩) main_call2.v5 main_call2.v6 mulf,
    StableHlo.nullary main_cst_7 (constant S_ .f32 0x00000000#32),
    StableHlo.binary main_v52 main_cst_7 main_v53 ((fun x v => Host.reduceAdd x v reducesTo_S768x768x128_S768x128_d1 h_S_) : (⟨S768x768x128, .f32⟩ : BufTy).Contents (Elt F) → (⟨S_, .f32⟩ : BufTy).Contents (Elt F) → (⟨S768x128, .f32⟩ : BufTy).Contents (Elt F)),
    StableHlo.nullary main_cst_8 (constant S_ .f32 0x44400000#32),
    StableHlo.unary main_cst_8 main_v54 (broadcastInDim S768x128 ![] bcast_S_S768x128 : (⟨S_, .f32⟩ : BufTy).Contents (Elt F) → (⟨S768x128, .f32⟩ : BufTy).Contents (Elt F)),
    StableHlo.binary main_v53 main_v54 main_v55 (Host.divf : (⟨S768x128, .f32⟩ : BufTy).Contents (Elt F) → (⟨S768x128, .f32⟩ : BufTy).Contents (Elt F) → (⟨S768x128, .f32⟩ : BufTy).Contents (Elt F)),
    StableHlo.unary main_arg4 main_v56 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v56 main_v57 rfl shapeCasts_S1x128x128_S128x128,
    StableHlo.binary main_v55 main_v57 main_v58 ((fun l r => Host.dotGeneral dot_S768x128_S128x128_S768x128_1_0_0_1_n_n none l r) : (⟨S768x128, .f32⟩ : BufTy).Contents (Elt F) → (⟨S128x128, .f32⟩ : BufTy).Contents (Elt F) → (⟨S768x128, .f32⟩ : BufTy).Contents (Elt F)),
    StableHlo.unary main_arg5 main_v59 ((extractStridedSlice S1x128 ![0, 0] · slices_S3x128_S1x128_0_0) : (⟨S3x128, .f32⟩ : BufTy).Contents (Elt F) → (⟨S1x128, .f32⟩ : BufTy).Contents (Elt F)),
    StableHlo.reshape main_v59 main_v60 rfl shapeCasts_S1x128_S128,
    StableHlo.unary main_v60 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S768x128 ![0, 1] bcast_S1x128_S768x128_0_1 : (⟨S1x128, .f32⟩ : BufTy).Contents (Elt F) → (⟨S768x128, .f32⟩ : BufTy).Contents (Elt F)),
    StableHlo.binary main_v58 main_v62 main_v63 (addf : (⟨S768x128, .f32⟩ : BufTy).Contents (Elt F) → (⟨S768x128, .f32⟩ : BufTy).Contents (Elt F) → (⟨S768x128, .f32⟩ : BufTy).Contents (Elt F)),
    StableHlo.unary main_arg6 main_v64 ((extractStridedSlice S1x257x1 ![0, 0, 0] · slices_S3x257x1_S1x257x1_0_0_0) : (⟨S3x257x1, .f32⟩ : BufTy).Contents (Elt F) → (⟨S1x257x1, .f32⟩ : BufTy).Contents (Elt F)),
    StableHlo.reshape main_v64 main_v65 rfl shapeCasts_S1x257x1_S257x1,
    StableHlo.unary main_v65 main_v66 ((extractStridedSlice S128x1 ![0, 0] · slices_S257x1_S128x1_0_0) : (⟨S257x1, .f32⟩ : BufTy).Contents (Elt F) → (⟨S128x1, .f32⟩ : BufTy).Contents (Elt F)),
    StableHlo.binary main_v6 main_v66 main_v67 ((fun l r => Host.dotGeneral dot_S768x128_S128x1_S768x1_1_0_0_1_n_n none l r) : (⟨S768x128, .f32⟩ : BufTy).Contents (Elt F) → (⟨S128x1, .f32⟩ : BufTy).Contents (Elt F) → (⟨S768x1, .f32⟩ : BufTy).Contents (Elt F)),
    StableHlo.unary main_v67 main_v68 (broadcastInDim S768x1x1 ![0, 2] bcast_S768x1_S768x1x1_0_2 : (⟨S768x1, .f32⟩ : BufTy).Contents (Elt F) → (⟨S768x1x1, .f32⟩ : BufTy).Contents (Elt F)),
    StableHlo.unary main_v65 main_v69 ((extractStridedSlice S128x1 ![128, 0] · slices_S257x1_S128x1_128_0) : (⟨S257x1, .f32⟩ : BufTy).Contents (Elt F) → (⟨S128x1, .f32⟩ : BufTy).Contents (Elt F)),
    StableHlo.binary main_v6 main_v69 main_v70 ((fun l r => Host.dotGeneral dot_S768x128_S128x1_S768x1_1_0_0_1_n_n none l r) : (⟨S768x128, .f32⟩ : BufTy).Contents (Elt F) → (⟨S128x1, .f32⟩ : BufTy).Contents (Elt F) → (⟨S768x1, .f32⟩ : BufTy).Contents (Elt F)),
    StableHlo.unary main_v70 main_v71 (broadcastInDim S1x768x1 ![1, 2] bcast_S768x1_S1x768x1_1_2 : (⟨S768x1, .f32⟩ : BufTy).Contents (Elt F) → (⟨S1x768x1, .f32⟩ : BufTy).Contents (Elt F)),
    StableHlo.unary main_v68 main_v72 (broadcastInDim S768x768x1 ![0, 1, 2] bcast_S768x1x1_S768x768x1_0_1_2 : (⟨S768x1x1, .f32⟩ : BufTy).Contents (Elt F) → (⟨S768x768x1, .f32⟩ : BufTy).Contents (Elt F)),
    StableHlo.unary main_v71 main_v73 (broadcastInDim S768x768x1 ![0, 1, 2] bcast_S1x768x1_S768x768x1_0_1_2 : (⟨S1x768x1, .f32⟩ : BufTy).Contents (Elt F) → (⟨S768x768x1, .f32⟩ : BufTy).Contents (Elt F)),
    StableHlo.binary main_v72 main_v73 main_v74 (addf : (⟨S768x768x1, .f32⟩ : BufTy).Contents (Elt F) → (⟨S768x768x1, .f32⟩ : BufTy).Contents (Elt F) → (⟨S768x768x1, .f32⟩ : BufTy).Contents (Elt F)),
    StableHlo.unary main_v27 main_v75 (broadcastInDim S768x768x1 ![0, 1] bcast_S768x768_S768x768x1_0_1 : (⟨S768x768, .f32⟩ : BufTy).Contents (Elt F) → (⟨S768x768x1, .f32⟩ : BufTy).Contents (Elt F)),
    StableHlo.unary main_v65 main_v76 ((extractStridedSlice S1x1 ![256, 0] · slices_S257x1_S1x1_256_0) : (⟨S257x1, .f32⟩ : BufTy).Contents (Elt F) → (⟨S1x1, .f32⟩ : BufTy).Contents (Elt F)),
    StableHlo.reshape main_v76 main_v77 rfl shapeCasts_S1x1_S1,
    StableHlo.unary main_v77 main_v78 (broadcastInDim S1x1x1 ![2] bcast_S1_S1x1x1_2 : (⟨S1, .f32⟩ : BufTy).Contents (Elt F) → (⟨S1x1x1, .f32⟩ : BufTy).Contents (Elt F)),
    StableHlo.unary main_v78 main_v79 (broadcastInDim S768x768x1 ![0, 1, 2] bcast_S1x1x1_S768x768x1_0_1_2 : (⟨S1x1x1, .f32⟩ : BufTy).Contents (Elt F) → (⟨S768x768x1, .f32⟩ : BufTy).Contents (Elt F)),
    StableHlo.binary main_v75 main_v79 main_v80 (mulf : (⟨S768x768x1, .f32⟩ : BufTy).Contents (Elt F) → (⟨S768x768x1, .f32⟩ : BufTy).Contents (Elt F) → (⟨S768x768x1, .f32⟩ : BufTy).Contents (Elt F)),
    StableHlo.binary main_v74 main_v80 main_v81 (addf : (⟨S768x768x1, .f32⟩ : BufTy).Contents (Elt F) → (⟨S768x768x1, .f32⟩ : BufTy).Contents (Elt F) → (⟨S768x768x1, .f32⟩ : BufTy).Contents (Elt F)),
    StableHlo.unary main_arg7 main_v82 ((extractStridedSlice S1x1 ![0, 0] · slices_S3x1_S1x1_0_0) : (⟨S3x1, .f32⟩ : BufTy).Contents (Elt F) → (⟨S1x1, .f32⟩ : BufTy).Contents (Elt F)),
    StableHlo.reshape main_v82 main_v83 rfl shapeCasts_S1x1_S1,
    StableHlo.unary main_v83 main_v84 (broadcastInDim S1x1x1 ![2] bcast_S1_S1x1x1_2 : (⟨S1, .f32⟩ : BufTy).Contents (Elt F) → (⟨S1x1x1, .f32⟩ : BufTy).Contents (Elt F)),
    StableHlo.unary main_v84 main_v85 (broadcastInDim S768x768x1 ![0, 1, 2] bcast_S1x1x1_S768x768x1_0_1_2 : (⟨S1x1x1, .f32⟩ : BufTy).Contents (Elt F) → (⟨S768x768x1, .f32⟩ : BufTy).Contents (Elt F)),
    StableHlo.binary main_v81 main_v85 main_v86 (addf : (⟨S768x768x1, .f32⟩ : BufTy).Contents (Elt F) → (⟨S768x768x1, .f32⟩ : BufTy).Contents (Elt F) → (⟨S768x768x1, .f32⟩ : BufTy).Contents (Elt F)),
    StableHlo.TRef.unary (.of main_v86 : StableHlo.TRef sig ⟨S768x768x1, .f32⟩) main_call3.v0 Host.negf,
    StableHlo.TRef.unary main_call3.v0 main_call3.v1 Host.exp,
    StableHlo.TRef.nullary main_call3.cst (constant S_ .f32 0x3F800000#32),
    StableHlo.TRef.unary main_call3.cst main_call3.v2 (broadcastInDim S768x768x1 ![] bcast_S_S768x768x1),
    StableHlo.TRef.binary main_call3.v2 main_call3.v1 main_call3.v3 addf,
    StableHlo.TRef.nullary main_call3.cst_0 (constant S_ .f32 0x3F800000#32),
    StableHlo.TRef.unary main_call3.cst_0 main_call3.v4 (broadcastInDim S768x768x1 ![] bcast_S_S768x768x1),
    StableHlo.TRef.binary main_call3.v4 main_call3.v3 main_call3.v5 Host.divf,
    StableHlo.TRef.binary (.of main_v86 : StableHlo.TRef sig ⟨S768x768x1, .f32⟩) main_call3.v5 main_call3.v6 mulf,
    StableHlo.unary main_v87 main_v88 (broadcastInDim S768x768x3 ![0, 1, 2] bcast_S768x768x1_S768x768x3_0_1_2 : (⟨S768x768x1, .f32⟩ : BufTy).Contents (Elt F) → (⟨S768x768x3, .f32⟩ : BufTy).Contents (Elt F)),
    StableHlo.binary main_v88 main_v18 main_v89 (mulf : (⟨S768x768x3, .f32⟩ : BufTy).Contents (Elt F) → (⟨S768x768x3, .f32⟩ : BufTy).Contents (Elt F) → (⟨S768x768x3, .f32⟩ : BufTy).Contents (Elt F)),
    StableHlo.nullary main_cst_9 (constant S_ .f32 0x00000000#32),
    StableHlo.binary main_v89 main_cst_9 main_v90 ((fun x v => Host.reduceAdd x v reducesTo_S768x768x3_S768x3_d1 h_S_) : (⟨S768x768x3, .f32⟩ : BufTy).Contents (Elt F) → (⟨S_, .f32⟩ : BufTy).Contents (Elt F) → (⟨S768x3, .f32⟩ : BufTy).Contents (Elt F)),
    StableHlo.nullary main_cst_10 (constant S_ .f32 0x44400000#32),
    StableHlo.unary main_cst_10 main_v91 (broadcastInDim S768x3 ![] bcast_S_S768x3 : (⟨S_, .f32⟩ : BufTy).Contents (Elt F) → (⟨S768x3, .f32⟩ : BufTy).Contents (Elt F)),
    StableHlo.binary main_v90 main_v91 main_v92 (Host.divf : (⟨S768x3, .f32⟩ : BufTy).Contents (Elt F) → (⟨S768x3, .f32⟩ : BufTy).Contents (Elt F) → (⟨S768x3, .f32⟩ : BufTy).Contents (Elt F)),
    StableHlo.binary main_v13 main_v92 main_v93 (addf : (⟨S768x3, .f32⟩ : BufTy).Contents (Elt F) → (⟨S768x3, .f32⟩ : BufTy).Contents (Elt F) → (⟨S768x3, .f32⟩ : BufTy).Contents (Elt F)),
    StableHlo.binary main_v6 main_v63 main_v94 (addf : (⟨S768x128, .f32⟩ : BufTy).Contents (Elt F) → (⟨S768x128, .f32⟩ : BufTy).Contents (Elt F) → (⟨S768x128, .f32⟩ : BufTy).Contents (Elt F)),
    StableHlo.unary main_v93 main_v95 (broadcastInDim S768x1x3 ![0, 2] bcast_S768x3_S768x1x3_0_2 : (⟨S768x3, .f32⟩ : BufTy).Contents (Elt F) → (⟨S768x1x3, .f32⟩ : BufTy).Contents (Elt F)),
    StableHlo.unary main_v93 main_v96 (broadcastInDim S1x768x3 ![1, 2] bcast_S768x3_S1x768x3_1_2 : (⟨S768x3, .f32⟩ : BufTy).Contents (Elt F) → (⟨S1x768x3, .f32⟩ : BufTy).Contents (Elt F)),
    StableHlo.unary main_v95 main_v97 (broadcastInDim S768x768x3 ![0, 1, 2] bcast_S768x1x3_S768x768x3_0_1_2 : (⟨S768x1x3, .f32⟩ : BufTy).Contents (Elt F) → (⟨S768x768x3, .f32⟩ : BufTy).Contents (Elt F)),
    StableHlo.unary main_v96 main_v98 (broadcastInDim S768x768x3 ![0, 1, 2] bcast_S1x768x3_S768x768x3_0_1_2 : (⟨S1x768x3, .f32⟩ : BufTy).Contents (Elt F) → (⟨S768x768x3, .f32⟩ : BufTy).Contents (Elt F)),
    StableHlo.binary main_v97 main_v98 main_v99 (subf : (⟨S768x768x3, .f32⟩ : BufTy).Contents (Elt F) → (⟨S768x768x3, .f32⟩ : BufTy).Contents (Elt F) → (⟨S768x768x3, .f32⟩ : BufTy).Contents (Elt F)),
    StableHlo.binary main_v99 main_v99 main_v100 (mulf : (⟨S768x768x3, .f32⟩ : BufTy).Contents (Elt F) → (⟨S768x768x3, .f32⟩ : BufTy).Contents (Elt F) → (⟨S768x768x3, .f32⟩ : BufTy).Contents (Elt F)),
    StableHlo.nullary main_cst_11 (constant S_ .f32 0x00000000#32),
    StableHlo.binary main_v100 main_cst_11 main_v101 ((fun x v => Host.reduceAdd x v reducesTo_S768x768x3_S768x768_d2 h_S_) : (⟨S768x768x3, .f32⟩ : BufTy).Contents (Elt F) → (⟨S_, .f32⟩ : BufTy).Contents (Elt F) → (⟨S768x768, .f32⟩ : BufTy).Contents (Elt F)),
    StableHlo.nullary main_cst_12 (constant S_ .f32 0x00000000#32),
    StableHlo.unary main_cst_12 main_v102 (broadcastInDim S768x768 ![] bcast_S_S768x768 : (⟨S_, .f32⟩ : BufTy).Contents (Elt F) → (⟨S768x768, .f32⟩ : BufTy).Contents (Elt F)),
    StableHlo.binary main_v101 main_v102 main_v103 (cmpf .ogt : (⟨S768x768, .f32⟩ : BufTy).Contents (Elt F) → (⟨S768x768, .f32⟩ : BufTy).Contents (Elt F) → (⟨S768x768, .i1⟩ : BufTy).Contents (Elt F)),
    StableHlo.nullary main_cst_13 (constant S_ .f32 0x3F800000#32) ]

set_option maxRecDepth 8192 in
set_option maxHeartbeats 4000000 in
/-- Window 1 of @main is that line: the called functions' bodies unfold at their calls and the call records at
    their fields, and sequencing reassociates by computation. -/
theorem main_part1_eq (c : Dev nD) : main_part1 (F := F) c = seq ops1 := rfl

set_option maxRecDepth 8192 in
theorem ops1_sub : (ops1 : List (HloOp τ sig (Elt F))).Forall fun op => op.bufs ⊆ tcRefs τ sig :=
  ⟨
    binary_bufs_sub .., unary_bufs_sub .., unary_bufs_sub .., nullary_bufs_sub .., unary_bufs_sub .., binary_bufs_sub ..,
    nullary_bufs_sub .., unary_bufs_sub .., binary_bufs_sub .., binary_bufs_sub .., nullary_bufs_sub .., binary_bufs_sub ..,
    nullary_bufs_sub .., unary_bufs_sub .., binary_bufs_sub .., unary_bufs_sub .., reshape_bufs_sub .., binary_bufs_sub ..,
    unary_bufs_sub .., reshape_bufs_sub .., unary_bufs_sub .., unary_bufs_sub .., binary_bufs_sub .., unary_bufs_sub ..,
    reshape_bufs_sub .., unary_bufs_sub .., binary_bufs_sub .., unary_bufs_sub .., unary_bufs_sub .., binary_bufs_sub ..,
    unary_bufs_sub .., unary_bufs_sub .., unary_bufs_sub .., binary_bufs_sub .., unary_bufs_sub .., unary_bufs_sub ..,
    reshape_bufs_sub .., unary_bufs_sub .., unary_bufs_sub .., binary_bufs_sub .., binary_bufs_sub .., unary_bufs_sub ..,
    reshape_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    binary_bufs_sub .., unary_bufs_sub .., binary_bufs_sub .., nullary_bufs_sub .., binary_bufs_sub .., nullary_bufs_sub ..,
    unary_bufs_sub .., binary_bufs_sub .., binary_bufs_sub .., binary_bufs_sub .., unary_bufs_sub .., unary_bufs_sub ..,
    unary_bufs_sub .., unary_bufs_sub .., binary_bufs_sub .., binary_bufs_sub .., nullary_bufs_sub .., binary_bufs_sub ..,
    nullary_bufs_sub .., unary_bufs_sub .., binary_bufs_sub .., nullary_bufs_sub ..⟩

set_option maxRecDepth 8192 in
/-- No operation of window 1 allocates: each determines the buffer it writes. -/
theorem ops1_fresh : (ops1 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩

/-- The buffers window 1 writes, in order. -/
abbrev W1 : List (Ref sig .tc) :=
  [
    main_v51, main_call2_v0, main_call2_v1, main_call2_cst, main_call2_v2, main_call2_v3, main_call2_cst_0, main_call2_v4,
    main_call2_v5, main_v52, main_cst_7, main_v53, main_cst_8, main_v54, main_v55, main_v56,
    main_v57, main_v58, main_v59, main_v60, main_v61, main_v62, main_v63, main_v64,
    main_v65, main_v66, main_v67, main_v68, main_v69, main_v70, main_v71, main_v72,
    main_v73, main_v74, main_v75, main_v76, main_v77, main_v78, main_v79, main_v80,
    main_v81, main_v82, main_v83, main_v84, main_v85, main_v86, main_call3_v0, main_call3_v1,
    main_call3_cst, main_call3_v2, main_call3_v3, main_call3_cst_0, main_call3_v4, main_call3_v5, main_v87, main_v88,
    main_v89, main_cst_9, main_v90, main_cst_10, main_v91, main_v92, main_v93, main_v94,
    main_v95, main_v96, main_v97, main_v98, main_v99, main_v100, main_cst_11, main_v101,
    main_cst_12, main_v102, main_v103, main_cst_13]

set_option maxRecDepth 8192 in
set_option maxHeartbeats 4000000 in
theorem ops1_writes : (ops1 : List (HloOp τ sig (Elt F))).Forall fun op => op.writes ⊆ (W1.map (Proc.devRef (τ := τ) .tc)).toFinset := by
  simp only [List.Forall]
  exact ⟨
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer window 1 does not write keeps its contents through it. -/
theorem keep1 (V : Valuation τ sig (Elt F)) (r : Ref sig .tc) (h : r ∉ W1) :
    after ops1 V (Proc.devRef .tc r) = V (Proc.devRef .tc r) :=
  after_of_writes_sub ops1 V ops1_writes h

set_option maxRecDepth 8192 in
/-- Statements 121 … 180, 72 operations: 57 own; `where` twice inline (`main_call4`, `main_call5`, three operations each)
    and `silu` once (`main_call6`, nine). -/
abbrev ops2 : List (HloOp τ sig (Elt F)) :=
  [ StableHlo.TRef.unary (.of main_cst_13 : StableHlo.TRef sig ⟨S_, .f32⟩) main_call4.v0 id,
    StableHlo.TRef.unary main_call4.v0 main_call4.v1 (broadcastInDim S768x768 ![] bcast_S_S768x768),
    StableHlo.TRef.ternary (.of main_v103 : StableHlo.TRef sig ⟨S768x768, .i1⟩) (.of main_v101 : StableHlo.TRef sig ⟨S768x768, .f32⟩) main_call4.v1 main_call4.v2 select,
    StableHlo.unary main_v104 main_v105 (Host.sqrt : (⟨S768x768, .f32⟩ : BufTy).Contents (Elt F) → (⟨S768x768, .f32⟩ : BufTy).Contents (Elt F)),
    StableHlo.nullary main_cst_14 (constant S_ .f32 0x00000000#32),
    StableHlo.unary main_cst_14 main_v106 (broadcastInDim S768x768 ![] bcast_S_S768x768 : (⟨S_, .f32⟩ : BufTy).Contents (Elt F) → (⟨S768x768, .f32⟩ : BufTy).Contents (Elt F)),
    StableHlo.binary main_v101 main_v106 main_v107 (cmpf .ogt : (⟨S768x768, .f32⟩ : BufTy).Contents (Elt F) → (⟨S768x768, .f32⟩ : BufTy).Contents (Elt F) → (⟨S768x768, .i1⟩ : BufTy).Contents (Elt F)),
    StableHlo.nullary main_cst_15 (constant S_ .f32 0x00000000#32),
    StableHlo.TRef.unary (.of main_cst_15 : StableHlo.TRef sig ⟨S_, .f32⟩) main_call5.v0 id,
    StableHlo.TRef.unary main_call5.v0 main_call5.v1 (broadcastInDim S768x768 ![] bcast_S_S768x768),
    StableHlo.TRef.ternary (.of main_v107 : StableHlo.TRef sig ⟨S768x768, .i1⟩) (.of main_v105 : StableHlo.TRef sig ⟨S768x768, .f32⟩) main_call5.v1 main_call5.v2 select,
    StableHlo.unary main_arg2 main_v109 ((extractStridedSlice S1x257x128 ![1, 0, 0] · slices_S3x257x128_S1x257x128_1_0_0) : (⟨S3x257x128, .f32⟩ : BufTy).Contents (Elt F) → (⟨S1x257x128, .f32⟩ : BufTy).Contents (Elt F)),
    StableHlo.reshape main_v109 main_v110 rfl shapeCasts_S1x257x128_S257x128,
    StableHlo.unary main_v110 main_v111 ((extractStridedSlice S128x128 ![0, 0] · slices_S257x128_S128x128_0_0) : (⟨S257x128, .f32⟩ : BufTy).Contents (Elt F) → (⟨S128x128, .f32⟩ : BufTy).Contents (Elt F)),
    StableHlo.binary main_v94 main_v111 main_v112 ((fun l r => Host.dotGeneral dot_S768x128_S128x128_S768x128_1_0_0_1_n_n none l r) : (⟨S768x128, .f32⟩ : BufTy).Contents (Elt F) → (⟨S128x128, .f32⟩ : BufTy).Contents (Elt F) → (⟨S768x128, .f32⟩ : BufTy).Contents (Elt F)),
    StableHlo.unary main_v112 main_v113 (broadcastInDim S768x1x128 ![0, 2] bcast_S768x128_S768x1x128_0_2 : (⟨S768x128, .f32⟩ : BufTy).Contents (Elt F) → (⟨S768x1x128, .f32⟩ : BufTy).Contents (Elt F)),
    StableHlo.unary main_v110 main_v114 ((extractStridedSlice S128x128 ![128, 0] · slices_S257x128_S128x128_128_0) : (⟨S257x128, .f32⟩ : BufTy).Contents (Elt F) → (⟨S128x128, .f32⟩ : BufTy).Contents (Elt F)),
    StableHlo.binary main_v94 main_v114 main_v115 ((fun l r => Host.dotGeneral dot_S768x128_S128x128_S768x128_1_0_0_1_n_n none l r) : (⟨S768x128, .f32⟩ : BufTy).Contents (Elt F) → (⟨S128x128, .f32⟩ : BufTy).Contents (Elt F) → (⟨S768x128, .f32⟩ : BufTy).Contents (Elt F)),
    StableHlo.unary main_v115 main_v116 (broadcastInDim S1x768x128 ![1, 2] bcast_S768x128_S1x768x128_1_2 : (⟨S768x128, .f32⟩ : BufTy).Contents (Elt F) → (⟨S1x768x128, .f32⟩ : BufTy).Contents (Elt F)),
    StableHlo.unary main_v113 main_v117 (broadcastInDim S768x768x128 ![0, 1, 2] bcast_S768x1x128_S768x768x128_0_1_2 : (⟨S768x1x128, .f32⟩ : BufTy).Contents (Elt F) → (⟨S768x768x128, .f32⟩ : BufTy).Contents (Elt F)),
    StableHlo.unary main_v116 main_v118 (broadcastInDim S768x768x128 ![0, 1, 2] bcast_S1x768x128_S768x768x128_0_1_2 : (⟨S1x768x128, .f32⟩ : BufTy).Contents (Elt F) → (⟨S768x768x128, .f32⟩ : BufTy).Contents (Elt F)),
    StableHlo.binary main_v117 main_v118 main_v119 (addf : (⟨S768x768x128, .f32⟩ : BufTy).Contents (Elt F) → (⟨S768x768x128, .f32⟩ : BufTy).Contents (Elt F) → (⟨S768x768x128, .f32⟩ : BufTy).Contents (Elt F)),
    StableHlo.unary main_v108 main_v120 (broadcastInDim S768x768x1 ![0, 1] bcast_S768x768_S768x768x1_0_1 : (⟨S768x768, .f32⟩ : BufTy).Contents (Elt F) → (⟨S768x768x1, .f32⟩ : BufTy).Contents (Elt F)),
    StableHlo.unary main_v110 main_v121 ((extractStridedSlice S1x128 ![256, 0] · slices_S257x128_S1x128_256_0) : (⟨S257x128, .f32⟩ : BufTy).Contents (Elt F) → (⟨S1x128, .f32⟩ : BufTy).Contents (Elt F)),
    StableHlo.reshape main_v121 main_v122 rfl shapeCasts_S1x128_S128,
    StableHlo.unary main_v122 main_v123 (broadcastInDim S1x1x128 ![2] bcast_S128_S1x1x128_2 : (⟨S128, .f32⟩ : BufTy).Contents (Elt F) → (⟨S1x1x128, .f32⟩ : BufTy).Contents (Elt F)),
    StableHlo.unary main_v120 main_v124 (broadcastInDim S768x768x128 ![0, 1, 2] bcast_S768x768x1_S768x768x128_0_1_2 : (⟨S768x768x1, .f32⟩ : BufTy).Contents (Elt F) → (⟨S768x768x128, .f32⟩ : BufTy).Contents (Elt F)),
    StableHlo.unary main_v123 main_v125 (broadcastInDim S768x768x128 ![0, 1, 2] bcast_S1x1x128_S768x768x128_0_1_2 : (⟨S1x1x128, .f32⟩ : BufTy).Contents (Elt F) → (⟨S768x768x128, .f32⟩ : BufTy).Contents (Elt F)),
    StableHlo.binary main_v124 main_v125 main_v126 (mulf : (⟨S768x768x128, .f32⟩ : BufTy).Contents (Elt F) → (⟨S768x768x128, .f32⟩ : BufTy).Contents (Elt F) → (⟨S768x768x128, .f32⟩ : BufTy).Contents (Elt F)),
    StableHlo.binary main_v119 main_v126 main_v127 (addf : (⟨S768x768x128, .f32⟩ : BufTy).Contents (Elt F) → (⟨S768x768x128, .f32⟩ : BufTy).Contents (Elt F) → (⟨S768x768x128, .f32⟩ : BufTy).Contents (Elt F)),
    StableHlo.unary main_arg3 main_v128 ((extractStridedSlice S1x128 ![1, 0] · slices_S3x128_S1x128_1_0) : (⟨S3x128, .f32⟩ : BufTy).Contents (Elt F) → (⟨S1x128, .f32⟩ : BufTy).Contents (Elt F)),
    StableHlo.reshape main_v128 main_v129 rfl shapeCasts_S1x128_S128,
    StableHlo.unary main_v129 main_v130 (broadcastInDim S1x1x128 ![2] bcast_S128_S1x1x128_2 : (⟨S128, .f32⟩ : BufTy).Contents (Elt F) → (⟨S1x1x128, .f32⟩ : BufTy).Contents (Elt F)),
    StableHlo.unary main_v130 main_v131 (broadcastInDim S768x768x128 ![0, 1, 2] bcast_S1x1x128_S768x768x128_0_1_2 : (⟨S1x1x128, .f32⟩ : BufTy).Contents (Elt F) → (⟨S768x768x128, .f32⟩ : BufTy).Contents (Elt F)),
    StableHlo.binary main_v127 main_v131 main_v132 (addf : (⟨S768x768x128, .f32⟩ : BufTy).Contents (Elt F) → (⟨S768x768x128, .f32⟩ : BufTy).Contents (Elt F) → (⟨S768x768x128, .f32⟩ : BufTy).Contents (Elt F)),
    StableHlo.TRef.unary (.of main_v132 : StableHlo.TRef sig ⟨S768x768x128, .f32⟩) main_call6.v0 Host.negf,
    StableHlo.TRef.unary main_call6.v0 main_call6.v1 Host.exp,
    StableHlo.TRef.nullary main_call6.cst (constant S_ .f32 0x3F800000#32),
    StableHlo.TRef.unary main_call6.cst main_call6.v2 (broadcastInDim S768x768x128 ![] bcast_S_S768x768x128),
    StableHlo.TRef.binary main_call6.v2 main_call6.v1 main_call6.v3 addf,
    StableHlo.TRef.nullary main_call6.cst_0 (constant S_ .f32 0x3F800000#32),
    StableHlo.TRef.unary main_call6.cst_0 main_call6.v4 (broadcastInDim S768x768x128 ![] bcast_S_S768x768x128),
    StableHlo.TRef.binary main_call6.v4 main_call6.v3 main_call6.v5 Host.divf,
    StableHlo.TRef.binary (.of main_v132 : StableHlo.TRef sig ⟨S768x768x128, .f32⟩) main_call6.v5 main_call6.v6 mulf,
    StableHlo.nullary main_cst_16 (constant S_ .f32 0x00000000#32),
    StableHlo.binary main_v133 main_cst_16 main_v134 ((fun x v => Host.reduceAdd x v reducesTo_S768x768x128_S768x128_d1 h_S_) : (⟨S768x768x128, .f32⟩ : BufTy).Contents (Elt F) → (⟨S_, .f32⟩ : BufTy).Contents (Elt F) → (⟨S768x128, .f32⟩ : BufTy).Contents (Elt F)),
    StableHlo.nullary main_cst_17 (constant S_ .f32 0x44400000#32),
    StableHlo.unary main_cst_17 main_v135 (broadcastInDim S768x128 ![] bcast_S_S768x128 : (⟨S_, .f32⟩ : BufTy).Contents (Elt F) → (⟨S768x128, .f32⟩ : BufTy).Contents (Elt F)),
    StableHlo.binary main_v134 main_v135 main_v136 (Host.divf : (⟨S768x128, .f32⟩ : BufTy).Contents (Elt F) → (⟨S768x128, .f32⟩ : BufTy).Contents (Elt F) → (⟨S768x128, .f32⟩ : BufTy).Contents (Elt F)),
    StableHlo.unary main_arg4 main_v137 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v137 main_v138 rfl shapeCasts_S1x128x128_S128x128,
    StableHlo.binary main_v136 main_v138 main_v139 ((fun l r => Host.dotGeneral dot_S768x128_S128x128_S768x128_1_0_0_1_n_n none l r) : (⟨S768x128, .f32⟩ : BufTy).Contents (Elt F) → (⟨S128x128, .f32⟩ : BufTy).Contents (Elt F) → (⟨S768x128, .f32⟩ : BufTy).Contents (Elt F)),
    StableHlo.unary main_arg5 main_v140 ((extractStridedSlice S1x128 ![1, 0] · slices_S3x128_S1x128_1_0) : (⟨S3x128, .f32⟩ : BufTy).Contents (Elt F) → (⟨S1x128, .f32⟩ : BufTy).Contents (Elt F)),
    StableHlo.reshape main_v140 main_v141 rfl shapeCasts_S1x128_S128,
    StableHlo.unary main_v141 main_v142 (broadcastInDim S1x128 ![1] bcast_S128_S1x128_1 : (⟨S128, .f32⟩ : BufTy).Contents (Elt F) → (⟨S1x128, .f32⟩ : BufTy).Contents (Elt F)),
    StableHlo.unary main_v142 main_v143 (broadcastInDim S768x128 ![0, 1] bcast_S1x128_S768x128_0_1 : (⟨S1x128, .f32⟩ : BufTy).Contents (Elt F) → (⟨S768x128, .f32⟩ : BufTy).Contents (Elt F)),
    StableHlo.binary main_v139 main_v143 main_v144 (addf : (⟨S768x128, .f32⟩ : BufTy).Contents (Elt F) → (⟨S768x128, .f32⟩ : BufTy).Contents (Elt F) → (⟨S768x128, .f32⟩ : BufTy).Contents (Elt F)),
    StableHlo.unary main_arg6 main_v145 ((extractStridedSlice S1x257x1 ![1, 0, 0] · slices_S3x257x1_S1x257x1_1_0_0) : (⟨S3x257x1, .f32⟩ : BufTy).Contents (Elt F) → (⟨S1x257x1, .f32⟩ : BufTy).Contents (Elt F)),
    StableHlo.reshape main_v145 main_v146 rfl shapeCasts_S1x257x1_S257x1,
    StableHlo.unary main_v146 main_v147 ((extractStridedSlice S128x1 ![0, 0] · slices_S257x1_S128x1_0_0) : (⟨S257x1, .f32⟩ : BufTy).Contents (Elt F) → (⟨S128x1, .f32⟩ : BufTy).Contents (Elt F)),
    StableHlo.binary main_v94 main_v147 main_v148 ((fun l r => Host.dotGeneral dot_S768x128_S128x1_S768x1_1_0_0_1_n_n none l r) : (⟨S768x128, .f32⟩ : BufTy).Contents (Elt F) → (⟨S128x1, .f32⟩ : BufTy).Contents (Elt F) → (⟨S768x1, .f32⟩ : BufTy).Contents (Elt F)),
    StableHlo.unary main_v148 main_v149 (broadcastInDim S768x1x1 ![0, 2] bcast_S768x1_S768x1x1_0_2 : (⟨S768x1, .f32⟩ : BufTy).Contents (Elt F) → (⟨S768x1x1, .f32⟩ : BufTy).Contents (Elt F)),
    StableHlo.unary main_v146 main_v150 ((extractStridedSlice S128x1 ![128, 0] · slices_S257x1_S128x1_128_0) : (⟨S257x1, .f32⟩ : BufTy).Contents (Elt F) → (⟨S128x1, .f32⟩ : BufTy).Contents (Elt F)),
    StableHlo.binary main_v94 main_v150 main_v151 ((fun l r => Host.dotGeneral dot_S768x128_S128x1_S768x1_1_0_0_1_n_n none l r) : (⟨S768x128, .f32⟩ : BufTy).Contents (Elt F) → (⟨S128x1, .f32⟩ : BufTy).Contents (Elt F) → (⟨S768x1, .f32⟩ : BufTy).Contents (Elt F)),
    StableHlo.unary main_v151 main_v152 (broadcastInDim S1x768x1 ![1, 2] bcast_S768x1_S1x768x1_1_2 : (⟨S768x1, .f32⟩ : BufTy).Contents (Elt F) → (⟨S1x768x1, .f32⟩ : BufTy).Contents (Elt F)),
    StableHlo.unary main_v149 main_v153 (broadcastInDim S768x768x1 ![0, 1, 2] bcast_S768x1x1_S768x768x1_0_1_2 : (⟨S768x1x1, .f32⟩ : BufTy).Contents (Elt F) → (⟨S768x768x1, .f32⟩ : BufTy).Contents (Elt F)),
    StableHlo.unary main_v152 main_v154 (broadcastInDim S768x768x1 ![0, 1, 2] bcast_S1x768x1_S768x768x1_0_1_2 : (⟨S1x768x1, .f32⟩ : BufTy).Contents (Elt F) → (⟨S768x768x1, .f32⟩ : BufTy).Contents (Elt F)),
    StableHlo.binary main_v153 main_v154 main_v155 (addf : (⟨S768x768x1, .f32⟩ : BufTy).Contents (Elt F) → (⟨S768x768x1, .f32⟩ : BufTy).Contents (Elt F) → (⟨S768x768x1, .f32⟩ : BufTy).Contents (Elt F)),
    StableHlo.unary main_v108 main_v156 (broadcastInDim S768x768x1 ![0, 1] bcast_S768x768_S768x768x1_0_1 : (⟨S768x768, .f32⟩ : BufTy).Contents (Elt F) → (⟨S768x768x1, .f32⟩ : BufTy).Contents (Elt F)),
    StableHlo.unary main_v146 main_v157 ((extractStridedSlice S1x1 ![256, 0] · slices_S257x1_S1x1_256_0) : (⟨S257x1, .f32⟩ : BufTy).Contents (Elt F) → (⟨S1x1, .f32⟩ : BufTy).Contents (Elt F)),
    StableHlo.reshape main_v157 main_v158 rfl shapeCasts_S1x1_S1,
    StableHlo.unary main_v158 main_v159 (broadcastInDim S1x1x1 ![2] bcast_S1_S1x1x1_2 : (⟨S1, .f32⟩ : BufTy).Contents (Elt F) → (⟨S1x1x1, .f32⟩ : BufTy).Contents (Elt F)) ]

set_option maxRecDepth 8192 in
set_option maxHeartbeats 4000000 in
/-- Window 2 of @main is that line: the called functions' bodies unfold at their calls and the call records at
    their fields, and sequencing reassociates by computation. -/
theorem main_part2_eq (c : Dev nD) : main_part2 (F := F) c = seq ops2 := rfl

set_option maxRecDepth 8192 in
theorem ops2_sub : (ops2 : List (HloOp τ sig (Elt F))).Forall fun op => op.bufs ⊆ tcRefs τ sig :=
  ⟨
    unary_bufs_sub .., unary_bufs_sub .., ternary_bufs_sub .., unary_bufs_sub .., nullary_bufs_sub .., unary_bufs_sub ..,
    binary_bufs_sub .., nullary_bufs_sub .., unary_bufs_sub .., unary_bufs_sub .., ternary_bufs_sub .., unary_bufs_sub ..,
    reshape_bufs_sub .., unary_bufs_sub .., binary_bufs_sub .., unary_bufs_sub .., unary_bufs_sub .., binary_bufs_sub ..,
    unary_bufs_sub .., unary_bufs_sub .., unary_bufs_sub .., binary_bufs_sub .., unary_bufs_sub .., unary_bufs_sub ..,
    reshape_bufs_sub .., unary_bufs_sub .., unary_bufs_sub .., unary_bufs_sub .., binary_bufs_sub .., binary_bufs_sub ..,
    unary_bufs_sub .., reshape_bufs_sub .., unary_bufs_sub .., unary_bufs_sub .., binary_bufs_sub .., unary_bufs_sub ..,
    unary_bufs_sub .., nullary_bufs_sub .., unary_bufs_sub .., binary_bufs_sub .., nullary_bufs_sub .., unary_bufs_sub ..,
    binary_bufs_sub .., binary_bufs_sub .., nullary_bufs_sub .., binary_bufs_sub .., nullary_bufs_sub .., unary_bufs_sub ..,
    binary_bufs_sub .., unary_bufs_sub .., reshape_bufs_sub .., binary_bufs_sub .., unary_bufs_sub .., reshape_bufs_sub ..,
    unary_bufs_sub .., unary_bufs_sub .., binary_bufs_sub .., unary_bufs_sub .., reshape_bufs_sub .., unary_bufs_sub ..,
    binary_bufs_sub .., unary_bufs_sub .., unary_bufs_sub .., binary_bufs_sub .., unary_bufs_sub .., unary_bufs_sub ..,
    unary_bufs_sub .., binary_bufs_sub .., unary_bufs_sub .., unary_bufs_sub .., reshape_bufs_sub .., unary_bufs_sub ..⟩

set_option maxRecDepth 8192 in
/-- No operation of window 2 allocates: each determines the buffer it writes. -/
theorem ops2_fresh : (ops2 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl⟩

/-- The buffers window 2 writes, in order. -/
abbrev W2 : List (Ref sig .tc) :=
  [
    main_call4_v0, main_call4_v1, main_v104, main_v105, main_cst_14, main_v106, main_v107, main_cst_15,
    main_call5_v0, main_call5_v1, main_v108, main_v109, main_v110, main_v111, main_v112, main_v113,
    main_v114, main_v115, main_v116, main_v117, main_v118, main_v119, main_v120, main_v121,
    main_v122, main_v123, main_v124, main_v125, main_v126, main_v127, main_v128, main_v129,
    main_v130, main_v131, main_v132, main_call6_v0, main_call6_v1, main_call6_cst, main_call6_v2, main_call6_v3,
    main_call6_cst_0, main_call6_v4, main_call6_v5, main_v133, main_cst_16, main_v134, main_cst_17, main_v135,
    main_v136, main_v137, main_v138, main_v139, main_v140, main_v141, main_v142, main_v143,
    main_v144, main_v145, main_v146, main_v147, main_v148, main_v149, main_v150, main_v151,
    main_v152, main_v153, main_v154, main_v155, main_v156, main_v157, main_v158, main_v159]

set_option maxRecDepth 8192 in
set_option maxHeartbeats 4000000 in
theorem ops2_writes : (ops2 : List (HloOp τ sig (Elt F))).Forall fun op => op.writes ⊆ (W2.map (Proc.devRef (τ := τ) .tc)).toFinset := by
  simp only [List.Forall]
  exact ⟨
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer window 2 does not write keeps its contents through it. -/
theorem keep2 (V : Valuation τ sig (Elt F)) (r : Ref sig .tc) (h : r ∉ W2) :
    after ops2 V (Proc.devRef .tc r) = V (Proc.devRef .tc r) :=
  after_of_writes_sub ops2 V ops2_writes h

set_option maxRecDepth 8192 in
/-- Statements 181 … 240, 72 operations: 57 own; `silu_0` inline (`main_call7`, nine operations) and `where` twice
    (`main_call8`, `main_call9`, three each). -/
abbrev ops3 : List (HloOp τ sig (Elt F)) :=
  [ StableHlo.unary main_v159 main_v160 (broadcastInDim S768x768x1 ![0, 1, 2] bcast_S1x1x1_S768x768x1_0_1_2 : (⟨S1x1x1, .f32⟩ : BufTy).Contents (Elt F) → (⟨S768x768x1, .f32⟩ : BufTy).Contents (Elt F)),
    StableHlo.binary main_v156 main_v160 main_v161 (mulf : (⟨S768x768x1, .f32⟩ : BufTy).Contents (Elt F) → (⟨S768x768x1, .f32⟩ : BufTy).Contents (Elt F) → (⟨S768x768x1, .f32⟩ : BufTy).Contents (Elt F)),
    StableHlo.binary main_v155 main_v161 main_v162 (addf : (⟨S768x768x1, .f32⟩ : BufTy).Contents (Elt F) → (⟨S768x768x1, .f32⟩ : BufTy).Contents (Elt F) → (⟨S768x768x1, .f32⟩ : BufTy).Contents (Elt F)),
    StableHlo.unary main_arg7 main_v163 ((extractStridedSlice S1x1 ![1, 0] · slices_S3x1_S1x1_1_0) : (⟨S3x1, .f32⟩ : BufTy).Contents (Elt F) → (⟨S1x1, .f32⟩ : BufTy).Contents (Elt F)),
    StableHlo.reshape main_v163 main_v164 rfl shapeCasts_S1x1_S1,
    StableHlo.unary main_v164 main_v165 (broadcastInDim S1x1x1 ![2] bcast_S1_S1x1x1_2 : (⟨S1, .f32⟩ : BufTy).Contents (Elt F) → (⟨S1x1x1, .f32⟩ : BufTy).Contents (Elt F)),
    StableHlo.unary main_v165 main_v166 (broadcastInDim S768x768x1 ![0, 1, 2] bcast_S1x1x1_S768x768x1_0_1_2 : (⟨S1x1x1, .f32⟩ : BufTy).Contents (Elt F) → (⟨S768x768x1, .f32⟩ : BufTy).Contents (Elt F)),
    StableHlo.binary main_v162 main_v166 main_v167 (addf : (⟨S768x768x1, .f32⟩ : BufTy).Contents (Elt F) → (⟨S768x768x1, .f32⟩ : BufTy).Contents (Elt F) → (⟨S768x768x1, .f32⟩ : BufTy).Contents (Elt F)),
    StableHlo.TRef.unary (.of main_v167 : StableHlo.TRef sig ⟨S768x768x1, .f32⟩) main_call7.v0 Host.negf,
    StableHlo.TRef.unary main_call7.v0 main_call7.v1 Host.exp,
    StableHlo.TRef.nullary main_call7.cst (constant S_ .f32 0x3F800000#32),
    StableHlo.TRef.unary main_call7.cst main_call7.v2 (broadcastInDim S768x768x1 ![] bcast_S_S768x768x1),
    StableHlo.TRef.binary main_call7.v2 main_call7.v1 main_call7.v3 addf,
    StableHlo.TRef.nullary main_call7.cst_0 (constant S_ .f32 0x3F800000#32),
    StableHlo.TRef.unary main_call7.cst_0 main_call7.v4 (broadcastInDim S768x768x1 ![] bcast_S_S768x768x1),
    StableHlo.TRef.binary main_call7.v4 main_call7.v3 main_call7.v5 Host.divf,
    StableHlo.TRef.binary (.of main_v167 : StableHlo.TRef sig ⟨S768x768x1, .f32⟩) main_call7.v5 main_call7.v6 mulf,
    StableHlo.unary main_v168 main_v169 (broadcastInDim S768x768x3 ![0, 1, 2] bcast_S768x768x1_S768x768x3_0_1_2 : (⟨S768x768x1, .f32⟩ : BufTy).Contents (Elt F) → (⟨S768x768x3, .f32⟩ : BufTy).Contents (Elt F)),
    StableHlo.binary main_v169 main_v99 main_v170 (mulf : (⟨S768x768x3, .f32⟩ : BufTy).Contents (Elt F) → (⟨S768x768x3, .f32⟩ : BufTy).Contents (Elt F) → (⟨S768x768x3, .f32⟩ : BufTy).Contents (Elt F)),
    StableHlo.nullary main_cst_18 (constant S_ .f32 0x00000000#32),
    StableHlo.binary main_v170 main_cst_18 main_v171 ((fun x v => Host.reduceAdd x v reducesTo_S768x768x3_S768x3_d1 h_S_) : (⟨S768x768x3, .f32⟩ : BufTy).Contents (Elt F) → (⟨S_, .f32⟩ : BufTy).Contents (Elt F) → (⟨S768x3, .f32⟩ : BufTy).Contents (Elt F)),
    StableHlo.nullary main_cst_19 (constant S_ .f32 0x44400000#32),
    StableHlo.unary main_cst_19 main_v172 (broadcastInDim S768x3 ![] bcast_S_S768x3 : (⟨S_, .f32⟩ : BufTy).Contents (Elt F) → (⟨S768x3, .f32⟩ : BufTy).Contents (Elt F)),
    StableHlo.binary main_v171 main_v172 main_v173 (Host.divf : (⟨S768x3, .f32⟩ : BufTy).Contents (Elt F) → (⟨S768x3, .f32⟩ : BufTy).Contents (Elt F) → (⟨S768x3, .f32⟩ : BufTy).Contents (Elt F)),
    StableHlo.binary main_v93 main_v173 main_v174 (addf : (⟨S768x3, .f32⟩ : BufTy).Contents (Elt F) → (⟨S768x3, .f32⟩ : BufTy).Contents (Elt F) → (⟨S768x3, .f32⟩ : BufTy).Contents (Elt F)),
    StableHlo.binary main_v94 main_v144 main_v175 (addf : (⟨S768x128, .f32⟩ : BufTy).Contents (Elt F) → (⟨S768x128, .f32⟩ : BufTy).Contents (Elt F) → (⟨S768x128, .f32⟩ : BufTy).Contents (Elt F)),
    StableHlo.unary main_v174 main_v176 (broadcastInDim S768x1x3 ![0, 2] bcast_S768x3_S768x1x3_0_2 : (⟨S768x3, .f32⟩ : BufTy).Contents (Elt F) → (⟨S768x1x3, .f32⟩ : BufTy).Contents (Elt F)),
    StableHlo.unary main_v174 main_v177 (broadcastInDim S1x768x3 ![1, 2] bcast_S768x3_S1x768x3_1_2 : (⟨S768x3, .f32⟩ : BufTy).Contents (Elt F) → (⟨S1x768x3, .f32⟩ : BufTy).Contents (Elt F)),
    StableHlo.unary main_v176 main_v178 (broadcastInDim S768x768x3 ![0, 1, 2] bcast_S768x1x3_S768x768x3_0_1_2 : (⟨S768x1x3, .f32⟩ : BufTy).Contents (Elt F) → (⟨S768x768x3, .f32⟩ : BufTy).Contents (Elt F)),
    StableHlo.unary main_v177 main_v179 (broadcastInDim S768x768x3 ![0, 1, 2] bcast_S1x768x3_S768x768x3_0_1_2 : (⟨S1x768x3, .f32⟩ : BufTy).Contents (Elt F) → (⟨S768x768x3, .f32⟩ : BufTy).Contents (Elt F)),
    StableHlo.binary main_v178 main_v179 main_v180 (subf : (⟨S768x768x3, .f32⟩ : BufTy).Contents (Elt F) → (⟨S768x768x3, .f32⟩ : BufTy).Contents (Elt F) → (⟨S768x768x3, .f32⟩ : BufTy).Contents (Elt F)),
    StableHlo.binary main_v180 main_v180 main_v181 (mulf : (⟨S768x768x3, .f32⟩ : BufTy).Contents (Elt F) → (⟨S768x768x3, .f32⟩ : BufTy).Contents (Elt F) → (⟨S768x768x3, .f32⟩ : BufTy).Contents (Elt F)),
    StableHlo.nullary main_cst_20 (constant S_ .f32 0x00000000#32),
    StableHlo.binary main_v181 main_cst_20 main_v182 ((fun x v => Host.reduceAdd x v reducesTo_S768x768x3_S768x768_d2 h_S_) : (⟨S768x768x3, .f32⟩ : BufTy).Contents (Elt F) → (⟨S_, .f32⟩ : BufTy).Contents (Elt F) → (⟨S768x768, .f32⟩ : BufTy).Contents (Elt F)),
    StableHlo.nullary main_cst_21 (constant S_ .f32 0x00000000#32),
    StableHlo.unary main_cst_21 main_v183 (broadcastInDim S768x768 ![] bcast_S_S768x768 : (⟨S_, .f32⟩ : BufTy).Contents (Elt F) → (⟨S768x768, .f32⟩ : BufTy).Contents (Elt F)),
    StableHlo.binary main_v182 main_v183 main_v184 (cmpf .ogt : (⟨S768x768, .f32⟩ : BufTy).Contents (Elt F) → (⟨S768x768, .f32⟩ : BufTy).Contents (Elt F) → (⟨S768x768, .i1⟩ : BufTy).Contents (Elt F)),
    StableHlo.nullary main_cst_22 (constant S_ .f32 0x3F800000#32),
    StableHlo.TRef.unary (.of main_cst_22 : StableHlo.TRef sig ⟨S_, .f32⟩) main_call8.v0 id,
    StableHlo.TRef.unary main_call8.v0 main_call8.v1 (broadcastInDim S768x768 ![] bcast_S_S768x768),
    StableHlo.TRef.ternary (.of main_v184 : StableHlo.TRef sig ⟨S768x768, .i1⟩) (.of main_v182 : StableHlo.TRef sig ⟨S768x768, .f32⟩) main_call8.v1 main_call8.v2 select,
    StableHlo.unary main_v185 main_v186 (Host.sqrt : (⟨S768x768, .f32⟩ : BufTy).Contents (Elt F) → (⟨S768x768, .f32⟩ : BufTy).Contents (Elt F)),
    StableHlo.nullary main_cst_23 (constant S_ .f32 0x00000000#32),
    StableHlo.unary main_cst_23 main_v187 (broadcastInDim S768x768 ![] bcast_S_S768x768 : (⟨S_, .f32⟩ : BufTy).Contents (Elt F) → (⟨S768x768, .f32⟩ : BufTy).Contents (Elt F)),
    StableHlo.binary main_v182 main_v187 main_v188 (cmpf .ogt : (⟨S768x768, .f32⟩ : BufTy).Contents (Elt F) → (⟨S768x768, .f32⟩ : BufTy).Contents (Elt F) → (⟨S768x768, .i1⟩ : BufTy).Contents (Elt F)),
    StableHlo.nullary main_cst_24 (constant S_ .f32 0x00000000#32),
    StableHlo.TRef.unary (.of main_cst_24 : StableHlo.TRef sig ⟨S_, .f32⟩) main_call9.v0 id,
    StableHlo.TRef.unary main_call9.v0 main_call9.v1 (broadcastInDim S768x768 ![] bcast_S_S768x768),
    StableHlo.TRef.ternary (.of main_v188 : StableHlo.TRef sig ⟨S768x768, .i1⟩) (.of main_v186 : StableHlo.TRef sig ⟨S768x768, .f32⟩) main_call9.v1 main_call9.v2 select,
    StableHlo.unary main_arg2 main_v190 ((extractStridedSlice S1x257x128 ![2, 0, 0] · slices_S3x257x128_S1x257x128_2_0_0) : (⟨S3x257x128, .f32⟩ : BufTy).Contents (Elt F) → (⟨S1x257x128, .f32⟩ : BufTy).Contents (Elt F)),
    StableHlo.reshape main_v190 main_v191 rfl shapeCasts_S1x257x128_S257x128,
    StableHlo.unary main_v191 main_v192 ((extractStridedSlice S128x128 ![0, 0] · slices_S257x128_S128x128_0_0) : (⟨S257x128, .f32⟩ : BufTy).Contents (Elt F) → (⟨S128x128, .f32⟩ : BufTy).Contents (Elt F)),
    StableHlo.binary main_v175 main_v192 main_v193 ((fun l r => Host.dotGeneral dot_S768x128_S128x128_S768x128_1_0_0_1_n_n none l r) : (⟨S768x128, .f32⟩ : BufTy).Contents (Elt F) → (⟨S128x128, .f32⟩ : BufTy).Contents (Elt F) → (⟨S768x128, .f32⟩ : BufTy).Contents (Elt F)),
    StableHlo.unary main_v193 main_v194 (broadcastInDim S768x1x128 ![0, 2] bcast_S768x128_S768x1x128_0_2 : (⟨S768x128, .f32⟩ : BufTy).Contents (Elt F) → (⟨S768x1x128, .f32⟩ : BufTy).Contents (Elt F)),
    StableHlo.unary main_v191 main_v195 ((extractStridedSlice S128x128 ![128, 0] · slices_S257x128_S128x128_128_0) : (⟨S257x128, .f32⟩ : BufTy).Contents (Elt F) → (⟨S128x128, .f32⟩ : BufTy).Contents (Elt F)),
    StableHlo.binary main_v175 main_v195 main_v196 ((fun l r => Host.dotGeneral dot_S768x128_S128x128_S768x128_1_0_0_1_n_n none l r) : (⟨S768x128, .f32⟩ : BufTy).Contents (Elt F) → (⟨S128x128, .f32⟩ : BufTy).Contents (Elt F) → (⟨S768x128, .f32⟩ : BufTy).Contents (Elt F)),
    StableHlo.unary main_v196 main_v197 (broadcastInDim S1x768x128 ![1, 2] bcast_S768x128_S1x768x128_1_2 : (⟨S768x128, .f32⟩ : BufTy).Contents (Elt F) → (⟨S1x768x128, .f32⟩ : BufTy).Contents (Elt F)),
    StableHlo.unary main_v194 main_v198 (broadcastInDim S768x768x128 ![0, 1, 2] bcast_S768x1x128_S768x768x128_0_1_2 : (⟨S768x1x128, .f32⟩ : BufTy).Contents (Elt F) → (⟨S768x768x128, .f32⟩ : BufTy).Contents (Elt F)),
    StableHlo.unary main_v197 main_v199 (broadcastInDim S768x768x128 ![0, 1, 2] bcast_S1x768x128_S768x768x128_0_1_2 : (⟨S1x768x128, .f32⟩ : BufTy).Contents (Elt F) → (⟨S768x768x128, .f32⟩ : BufTy).Contents (Elt F)),
    StableHlo.binary main_v198 main_v199 main_v200 (addf : (⟨S768x768x128, .f32⟩ : BufTy).Contents (Elt F) → (⟨S768x768x128, .f32⟩ : BufTy).Contents (Elt F) → (⟨S768x768x128, .f32⟩ : BufTy).Contents (Elt F)),
    StableHlo.unary main_v189 main_v201 (broadcastInDim S768x768x1 ![0, 1] bcast_S768x768_S768x768x1_0_1 : (⟨S768x768, .f32⟩ : BufTy).Contents (Elt F) → (⟨S768x768x1, .f32⟩ : BufTy).Contents (Elt F)),
    StableHlo.unary main_v191 main_v202 ((extractStridedSlice S1x128 ![256, 0] · slices_S257x128_S1x128_256_0) : (⟨S257x128, .f32⟩ : BufTy).Contents (Elt F) → (⟨S1x128, .f32⟩ : BufTy).Contents (Elt F)),
    StableHlo.reshape main_v202 main_v203 rfl shapeCasts_S1x128_S128,
    StableHlo.unary main_v203 main_v204 (broadcastInDim S1x1x128 ![2] bcast_S128_S1x1x128_2 : (⟨S128, .f32⟩ : BufTy).Contents (Elt F) → (⟨S1x1x128, .f32⟩ : BufTy).Contents (Elt F)),
    StableHlo.unary main_v201 main_v205 (broadcastInDim S768x768x128 ![0, 1, 2] bcast_S768x768x1_S768x768x128_0_1_2 : (⟨S768x768x1, .f32⟩ : BufTy).Contents (Elt F) → (⟨S768x768x128, .f32⟩ : BufTy).Contents (Elt F)),
    StableHlo.unary main_v204 main_v206 (broadcastInDim S768x768x128 ![0, 1, 2] bcast_S1x1x128_S768x768x128_0_1_2 : (⟨S1x1x128, .f32⟩ : BufTy).Contents (Elt F) → (⟨S768x768x128, .f32⟩ : BufTy).Contents (Elt F)),
    StableHlo.binary main_v205 main_v206 main_v207 (mulf : (⟨S768x768x128, .f32⟩ : BufTy).Contents (Elt F) → (⟨S768x768x128, .f32⟩ : BufTy).Contents (Elt F) → (⟨S768x768x128, .f32⟩ : BufTy).Contents (Elt F)),
    StableHlo.binary main_v200 main_v207 main_v208 (addf : (⟨S768x768x128, .f32⟩ : BufTy).Contents (Elt F) → (⟨S768x768x128, .f32⟩ : BufTy).Contents (Elt F) → (⟨S768x768x128, .f32⟩ : BufTy).Contents (Elt F)),
    StableHlo.unary main_arg3 main_v209 ((extractStridedSlice S1x128 ![2, 0] · slices_S3x128_S1x128_2_0) : (⟨S3x128, .f32⟩ : BufTy).Contents (Elt F) → (⟨S1x128, .f32⟩ : BufTy).Contents (Elt F)),
    StableHlo.reshape main_v209 main_v210 rfl shapeCasts_S1x128_S128,
    StableHlo.unary main_v210 main_v211 (broadcastInDim S1x1x128 ![2] bcast_S128_S1x1x128_2 : (⟨S128, .f32⟩ : BufTy).Contents (Elt F) → (⟨S1x1x128, .f32⟩ : BufTy).Contents (Elt F)),
    StableHlo.unary main_v211 main_v212 (broadcastInDim S768x768x128 ![0, 1, 2] bcast_S1x1x128_S768x768x128_0_1_2 : (⟨S1x1x128, .f32⟩ : BufTy).Contents (Elt F) → (⟨S768x768x128, .f32⟩ : BufTy).Contents (Elt F)) ]

set_option maxRecDepth 8192 in
set_option maxHeartbeats 4000000 in
/-- Window 3 of @main is that line: the called functions' bodies unfold at their calls and the call records at
    their fields, and sequencing reassociates by computation. -/
theorem main_part3_eq (c : Dev nD) : main_part3 (F := F) c = seq ops3 := rfl

set_option maxRecDepth 8192 in
theorem ops3_sub : (ops3 : List (HloOp τ sig (Elt F))).Forall fun op => op.bufs ⊆ tcRefs τ sig :=
  ⟨
    unary_bufs_sub .., binary_bufs_sub .., binary_bufs_sub .., unary_bufs_sub .., reshape_bufs_sub .., unary_bufs_sub ..,
    unary_bufs_sub .., binary_bufs_sub .., unary_bufs_sub .., unary_bufs_sub .., nullary_bufs_sub .., unary_bufs_sub ..,
    binary_bufs_sub .., nullary_bufs_sub .., unary_bufs_sub .., binary_bufs_sub .., binary_bufs_sub .., unary_bufs_sub ..,
    binary_bufs_sub .., nullary_bufs_sub .., binary_bufs_sub .., nullary_bufs_sub .., unary_bufs_sub .., binary_bufs_sub ..,
    binary_bufs_sub .., binary_bufs_sub .., unary_bufs_sub .., unary_bufs_sub .., unary_bufs_sub .., unary_bufs_sub ..,
    binary_bufs_sub .., binary_bufs_sub .., nullary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., nullary_bufs_sub .., unary_bufs_sub .., unary_bufs_sub ..,
    ternary_bufs_sub .., unary_bufs_sub .., reshape_bufs_sub .., unary_bufs_sub .., binary_bufs_sub .., unary_bufs_sub ..,
    unary_bufs_sub .., binary_bufs_sub .., unary_bufs_sub .., unary_bufs_sub .., unary_bufs_sub .., binary_bufs_sub ..,
    unary_bufs_sub .., unary_bufs_sub .., reshape_bufs_sub .., unary_bufs_sub .., unary_bufs_sub .., unary_bufs_sub ..,
    binary_bufs_sub .., binary_bufs_sub .., unary_bufs_sub .., reshape_bufs_sub .., unary_bufs_sub .., unary_bufs_sub ..⟩

set_option maxRecDepth 8192 in
/-- No operation of window 3 allocates: each determines the buffer it writes. -/
theorem ops3_fresh : (ops3 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl⟩

/-- The buffers window 3 writes, in order. -/
abbrev W3 : List (Ref sig .tc) :=
  [
    main_v160, main_v161, main_v162, main_v163, main_v164, main_v165, main_v166, main_v167,
    main_call7_v0, main_call7_v1, main_call7_cst, main_call7_v2, main_call7_v3, main_call7_cst_0, main_call7_v4, main_call7_v5,
    main_v168, main_v169, main_v170, main_cst_18, main_v171, main_cst_19, main_v172, main_v173,
    main_v174, main_v175, main_v176, main_v177, main_v178, main_v179, main_v180, main_v181,
    main_cst_20, main_v182, main_cst_21, main_v183, main_v184, main_cst_22, main_call8_v0, main_call8_v1,
    main_v185, main_v186, main_cst_23, main_v187, main_v188, main_cst_24, main_call9_v0, main_call9_v1,
    main_v189, main_v190, main_v191, main_v192, main_v193, main_v194, main_v195, main_v196,
    main_v197, main_v198, main_v199, main_v200, main_v201, main_v202, main_v203, main_v204,
    main_v205, main_v206, main_v207, main_v208, main_v209, main_v210, main_v211, main_v212]

set_option maxRecDepth 8192 in
set_option maxHeartbeats 4000000 in
theorem ops3_writes : (ops3 : List (HloOp τ sig (Elt F))).Forall fun op => op.writes ⊆ (W3.map (Proc.devRef (τ := τ) .tc)).toFinset := by
  simp only [List.Forall]
  exact ⟨
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer window 3 does not write keeps its contents through it. -/
theorem keep3 (V : Valuation τ sig (Elt F)) (r : Ref sig .tc) (h : r ∉ W3) :
    after ops3 V (Proc.devRef .tc r) = V (Proc.devRef .tc r) :=
  after_of_writes_sub ops3 V ops3_writes h

set_option maxRecDepth 8192 in
/-- Statements 241 … 300, 76 operations: 58 own; `silu` (`main_call10`) and `silu_0` (`main_call11`) inline, nine operations each. -/
abbrev ops4 : List (HloOp τ sig (Elt F)) :=
  [ StableHlo.binary main_v208 main_v212 main_v213 (addf : (⟨S768x768x128, .f32⟩ : BufTy).Contents (Elt F) → (⟨S768x768x128, .f32⟩ : BufTy).Contents (Elt F) → (⟨S768x768x128, .f32⟩ : BufTy).Contents (Elt F)),
    StableHlo.TRef.unary (.of main_v213 : StableHlo.TRef sig ⟨S768x768x128, .f32⟩) main_call10.v0 Host.negf,
    StableHlo.TRef.unary main_call10.v0 main_call10.v1 Host.exp,
    StableHlo.TRef.nullary main_call10.cst (constant S_ .f32 0x3F800000#32),
    StableHlo.TRef.unary main_call10.cst main_call10.v2 (broadcastInDim S768x768x128 ![] bcast_S_S768x768x128),
    StableHlo.TRef.binary main_call10.v2 main_call10.v1 main_call10.v3 addf,
    StableHlo.TRef.nullary main_call10.cst_0 (constant S_ .f32 0x3F800000#32),
    StableHlo.TRef.unary main_call10.cst_0 main_call10.v4 (broadcastInDim S768x768x128 ![] bcast_S_S768x768x128),
    StableHlo.TRef.binary main_call10.v4 main_call10.v3 main_call10.v5 Host.divf,
    StableHlo.TRef.binary (.of main_v213 : StableHlo.TRef sig ⟨S768x768x128, .f32⟩) main_call10.v5 main_call10.v6 mulf,
    StableHlo.nullary main_cst_25 (constant S_ .f32 0x00000000#32),
    StableHlo.binary main_v214 main_cst_25 main_v215 ((fun x v => Host.reduceAdd x v reducesTo_S768x768x128_S768x128_d1 h_S_) : (⟨S768x768x128, .f32⟩ : BufTy).Contents (Elt F) → (⟨S_, .f32⟩ : BufTy).Contents (Elt F) → (⟨S768x128, .f32⟩ : BufTy).Contents (Elt F)),
    StableHlo.nullary main_cst_26 (constant S_ .f32 0x44400000#32),
    StableHlo.unary main_cst_26 main_v216 (broadcastInDim S768x128 ![] bcast_S_S768x128 : (⟨S_, .f32⟩ : BufTy).Contents (Elt F) → (⟨S768x128, .f32⟩ : BufTy).Contents (Elt F)),
    StableHlo.binary main_v215 main_v216 main_v217 (Host.divf : (⟨S768x128, .f32⟩ : BufTy).Contents (Elt F) → (⟨S768x128, .f32⟩ : BufTy).Contents (Elt F) → (⟨S768x128, .f32⟩ : BufTy).Contents (Elt F)),
    StableHlo.unary main_arg4 main_v218 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v218 main_v219 rfl shapeCasts_S1x128x128_S128x128,
    StableHlo.binary main_v217 main_v219 main_v220 ((fun l r => Host.dotGeneral dot_S768x128_S128x128_S768x128_1_0_0_1_n_n none l r) : (⟨S768x128, .f32⟩ : BufTy).Contents (Elt F) → (⟨S128x128, .f32⟩ : BufTy).Contents (Elt F) → (⟨S768x128, .f32⟩ : BufTy).Contents (Elt F)),
    StableHlo.unary main_arg5 main_v221 ((extractStridedSlice S1x128 ![2, 0] · slices_S3x128_S1x128_2_0) : (⟨S3x128, .f32⟩ : BufTy).Contents (Elt F) → (⟨S1x128, .f32⟩ : BufTy).Contents (Elt F)),
    StableHlo.reshape main_v221 main_v222 rfl shapeCasts_S1x128_S128,
    StableHlo.unary main_v222 main_v223 (broadcastInDim S1x128 ![1] bcast_S128_S1x128_1 : (⟨S128, .f32⟩ : BufTy).Contents (Elt F) → (⟨S1x128, .f32⟩ : BufTy).Contents (Elt F)),
    StableHlo.unary main_v223 main_v224 (broadcastInDim S768x128 ![0, 1] bcast_S1x128_S768x128_0_1 : (⟨S1x128, .f32⟩ : BufTy).Contents (Elt F) → (⟨S768x128, .f32⟩ : BufTy).Contents (Elt F)),
    StableHlo.binary main_v220 main_v224 main_v225 (addf : (⟨S768x128, .f32⟩ : BufTy).Contents (Elt F) → (⟨S768x128, .f32⟩ : BufTy).Contents (Elt F) → (⟨S768x128, .f32⟩ : BufTy).Contents (Elt F)),
    StableHlo.unary main_arg6 main_v226 ((extractStridedSlice S1x257x1 ![2, 0, 0] · slices_S3x257x1_S1x257x1_2_0_0) : (⟨S3x257x1, .f32⟩ : BufTy).Contents (Elt F) → (⟨S1x257x1, .f32⟩ : BufTy).Contents (Elt F)),
    StableHlo.reshape main_v226 main_v227 rfl shapeCasts_S1x257x1_S257x1,
    StableHlo.unary main_v227 main_v228 ((extractStridedSlice S128x1 ![0, 0] · slices_S257x1_S128x1_0_0) : (⟨S257x1, .f32⟩ : BufTy).Contents (Elt F) → (⟨S128x1, .f32⟩ : BufTy).Contents (Elt F)),
    StableHlo.binary main_v175 main_v228 main_v229 ((fun l r => Host.dotGeneral dot_S768x128_S128x1_S768x1_1_0_0_1_n_n none l r) : (⟨S768x128, .f32⟩ : BufTy).Contents (Elt F) → (⟨S128x1, .f32⟩ : BufTy).Contents (Elt F) → (⟨S768x1, .f32⟩ : BufTy).Contents (Elt F)),
    StableHlo.unary main_v229 main_v230 (broadcastInDim S768x1x1 ![0, 2] bcast_S768x1_S768x1x1_0_2 : (⟨S768x1, .f32⟩ : BufTy).Contents (Elt F) → (⟨S768x1x1, .f32⟩ : BufTy).Contents (Elt F)),
    StableHlo.unary main_v227 main_v231 ((extractStridedSlice S128x1 ![128, 0] · slices_S257x1_S128x1_128_0) : (⟨S257x1, .f32⟩ : BufTy).Contents (Elt F) → (⟨S128x1, .f32⟩ : BufTy).Contents (Elt F)),
    StableHlo.binary main_v175 main_v231 main_v232 ((fun l r => Host.dotGeneral dot_S768x128_S128x1_S768x1_1_0_0_1_n_n none l r) : (⟨S768x128, .f32⟩ : BufTy).Contents (Elt F) → (⟨S128x1, .f32⟩ : BufTy).Contents (Elt F) → (⟨S768x1, .f32⟩ : BufTy).Contents (Elt F)),
    StableHlo.unary main_v232 main_v233 (broadcastInDim S1x768x1 ![1, 2] bcast_S768x1_S1x768x1_1_2 : (⟨S768x1, .f32⟩ : BufTy).Contents (Elt F) → (⟨S1x768x1, .f32⟩ : BufTy).Contents (Elt F)),
    StableHlo.unary main_v230 main_v234 (broadcastInDim S768x768x1 ![0, 1, 2] bcast_S768x1x1_S768x768x1_0_1_2 : (⟨S768x1x1, .f32⟩ : BufTy).Contents (Elt F) → (⟨S768x768x1, .f32⟩ : BufTy).Contents (Elt F)),
    StableHlo.unary main_v233 main_v235 (broadcastInDim S768x768x1 ![0, 1, 2] bcast_S1x768x1_S768x768x1_0_1_2 : (⟨S1x768x1, .f32⟩ : BufTy).Contents (Elt F) → (⟨S768x768x1, .f32⟩ : BufTy).Contents (Elt F)),
    StableHlo.binary main_v234 main_v235 main_v236 (addf : (⟨S768x768x1, .f32⟩ : BufTy).Contents (Elt F) → (⟨S768x768x1, .f32⟩ : BufTy).Contents (Elt F) → (⟨S768x768x1, .f32⟩ : BufTy).Contents (Elt F)),
    StableHlo.unary main_v189 main_v237 (broadcastInDim S768x768x1 ![0, 1] bcast_S768x768_S768x768x1_0_1 : (⟨S768x768, .f32⟩ : BufTy).Contents (Elt F) → (⟨S768x768x1, .f32⟩ : BufTy).Contents (Elt F)),
    StableHlo.unary main_v227 main_v238 ((extractStridedSlice S1x1 ![256, 0] · slices_S257x1_S1x1_256_0) : (⟨S257x1, .f32⟩ : BufTy).Contents (Elt F) → (⟨S1x1, .f32⟩ : BufTy).Contents (Elt F)),
    StableHlo.reshape main_v238 main_v239 rfl shapeCasts_S1x1_S1,
    StableHlo.unary main_v239 main_v240 (broadcastInDim S1x1x1 ![2] bcast_S1_S1x1x1_2 : (⟨S1, .f32⟩ : BufTy).Contents (Elt F) → (⟨S1x1x1, .f32⟩ : BufTy).Contents (Elt F)),
    StableHlo.unary main_v240 main_v241 (broadcastInDim S768x768x1 ![0, 1, 2] bcast_S1x1x1_S768x768x1_0_1_2 : (⟨S1x1x1, .f32⟩ : BufTy).Contents (Elt F) → (⟨S768x768x1, .f32⟩ : BufTy).Contents (Elt F)),
    StableHlo.binary main_v237 main_v241 main_v242 (mulf : (⟨S768x768x1, .f32⟩ : BufTy).Contents (Elt F) → (⟨S768x768x1, .f32⟩ : BufTy).Contents (Elt F) → (⟨S768x768x1, .f32⟩ : BufTy).Contents (Elt F)),
    StableHlo.binary main_v236 main_v242 main_v243 (addf : (⟨S768x768x1, .f32⟩ : BufTy).Contents (Elt F) → (⟨S768x768x1, .f32⟩ : BufTy).Contents (Elt F) → (⟨S768x768x1, .f32⟩ : BufTy).Contents (Elt F)),
    StableHlo.unary main_arg7 main_v244 ((extractStridedSlice S1x1 ![2, 0] · slices_S3x1_S1x1_2_0) : (⟨S3x1, .f32⟩ : BufTy).Contents (Elt F) → (⟨S1x1, .f32⟩ : BufTy).Contents (Elt F)),
    StableHlo.reshape main_v244 main_v245 rfl shapeCasts_S1x1_S1,
    StableHlo.unary main_v245 main_v246 (broadcastInDim S1x1x1 ![2] bcast_S1_S1x1x1_2 : (⟨S1, .f32⟩ : BufTy).Contents (Elt F) → (⟨S1x1x1, .f32⟩ : BufTy).Contents (Elt F)),
    StableHlo.unary main_v246 main_v247 (broadcastInDim S768x768x1 ![0, 1, 2] bcast_S1x1x1_S768x768x1_0_1_2 : (⟨S1x1x1, .f32⟩ : BufTy).Contents (Elt F) → (⟨S768x768x1, .f32⟩ : BufTy).Contents (Elt F)),
    StableHlo.binary main_v243 main_v247 main_v248 (addf : (⟨S768x768x1, .f32⟩ : BufTy).Contents (Elt F) → (⟨S768x768x1, .f32⟩ : BufTy).Contents (Elt F) → (⟨S768x768x1, .f32⟩ : BufTy).Contents (Elt F)),
    StableHlo.TRef.unary (.of main_v248 : StableHlo.TRef sig ⟨S768x768x1, .f32⟩) main_call11.v0 Host.negf,
    StableHlo.TRef.unary main_call11.v0 main_call11.v1 Host.exp,
    StableHlo.TRef.nullary main_call11.cst (constant S_ .f32 0x3F800000#32),
    StableHlo.TRef.unary main_call11.cst main_call11.v2 (broadcastInDim S768x768x1 ![] bcast_S_S768x768x1),
    StableHlo.TRef.binary main_call11.v2 main_call11.v1 main_call11.v3 addf,
    StableHlo.TRef.nullary main_call11.cst_0 (constant S_ .f32 0x3F800000#32),
    StableHlo.TRef.unary main_call11.cst_0 main_call11.v4 (broadcastInDim S768x768x1 ![] bcast_S_S768x768x1),
    StableHlo.TRef.binary main_call11.v4 main_call11.v3 main_call11.v5 Host.divf,
    StableHlo.TRef.binary (.of main_v248 : StableHlo.TRef sig ⟨S768x768x1, .f32⟩) main_call11.v5 main_call11.v6 mulf,
    StableHlo.unary main_v249 main_v250 (broadcastInDim S768x768x3 ![0, 1, 2] bcast_S768x768x1_S768x768x3_0_1_2 : (⟨S768x768x1, .f32⟩ : BufTy).Contents (Elt F) → (⟨S768x768x3, .f32⟩ : BufTy).Contents (Elt F)),
    StableHlo.binary main_v250 main_v180 main_v251 (mulf : (⟨S768x768x3, .f32⟩ : BufTy).Contents (Elt F) → (⟨S768x768x3, .f32⟩ : BufTy).Contents (Elt F) → (⟨S768x768x3, .f32⟩ : BufTy).Contents (Elt F)),
    StableHlo.nullary main_cst_27 (constant S_ .f32 0x00000000#32),
    StableHlo.binary main_v251 main_cst_27 main_v252 ((fun x v => Host.reduceAdd x v reducesTo_S768x768x3_S768x3_d1 h_S_) : (⟨S768x768x3, .f32⟩ : BufTy).Contents (Elt F) → (⟨S_, .f32⟩ : BufTy).Contents (Elt F) → (⟨S768x3, .f32⟩ : BufTy).Contents (Elt F)),
    StableHlo.nullary main_cst_28 (constant S_ .f32 0x44400000#32),
    StableHlo.unary main_cst_28 main_v253 (broadcastInDim S768x3 ![] bcast_S_S768x3 : (⟨S_, .f32⟩ : BufTy).Contents (Elt F) → (⟨S768x3, .f32⟩ : BufTy).Contents (Elt F)),
    StableHlo.binary main_v252 main_v253 main_v254 (Host.divf : (⟨S768x3, .f32⟩ : BufTy).Contents (Elt F) → (⟨S768x3, .f32⟩ : BufTy).Contents (Elt F) → (⟨S768x3, .f32⟩ : BufTy).Contents (Elt F)),
    StableHlo.binary main_v174 main_v254 main_v255 (addf : (⟨S768x3, .f32⟩ : BufTy).Contents (Elt F) → (⟨S768x3, .f32⟩ : BufTy).Contents (Elt F) → (⟨S768x3, .f32⟩ : BufTy).Contents (Elt F)),
    StableHlo.binary main_v175 main_v225 main_v256 (addf : (⟨S768x128, .f32⟩ : BufTy).Contents (Elt F) → (⟨S768x128, .f32⟩ : BufTy).Contents (Elt F) → (⟨S768x128, .f32⟩ : BufTy).Contents (Elt F)),
    StableHlo.nullary main_cst_29 (constant S_ .f32 0x00000000#32),
    StableHlo.unary main_cst_29 main_v257 (broadcastInDim S2048x128 ![] bcast_S_S2048x128 : (⟨S_, .f32⟩ : BufTy).Contents (Elt F) → (⟨S2048x128, .f32⟩ : BufTy).Contents (Elt F)),
    StableHlo.unary main_arg13 main_v258 (broadcastInDim S768x1 ![0] bcast_S768_S768x1_0 : (⟨S768, .i32⟩ : BufTy).Contents (Elt F) → (⟨S768x1, .i32⟩ : BufTy).Contents (Elt F)),
    StableHlo.ternary main_v257 main_v258 main_v256 main_v259 ((fun x i u => Host.scatterAdd scatter_S2048x128_S768x1_S768x128_1_0_0_1 x i u) : (⟨S2048x128, .f32⟩ : BufTy).Contents (Elt F) → (⟨S768x1, .i32⟩ : BufTy).Contents (Elt F) → (⟨S768x128, .f32⟩ : BufTy).Contents (Elt F) → (⟨S2048x128, .f32⟩ : BufTy).Contents (Elt F)),
    StableHlo.nullary main_cst_30 (constant S_ .f32 0x3F800000#32),
    StableHlo.unary main_cst_30 main_v260 (broadcastInDim S768 ![] bcast_S_S768 : (⟨S_, .f32⟩ : BufTy).Contents (Elt F) → (⟨S768, .f32⟩ : BufTy).Contents (Elt F)),
    StableHlo.nullary main_cst_31 (constant S_ .f32 0x00000000#32),
    StableHlo.unary main_cst_31 main_v261 (broadcastInDim S2048 ![] bcast_S_S2048 : (⟨S_, .f32⟩ : BufTy).Contents (Elt F) → (⟨S2048, .f32⟩ : BufTy).Contents (Elt F)),
    StableHlo.unary main_arg13 main_v262 (broadcastInDim S768x1 ![0] bcast_S768_S768x1_0 : (⟨S768, .i32⟩ : BufTy).Contents (Elt F) → (⟨S768x1, .i32⟩ : BufTy).Contents (Elt F)),
    StableHlo.ternary main_v261 main_v262 main_v260 main_v263 ((fun x i u => Host.scatterAdd scatter_S2048_S768x1_S768_n_0_0_1 x i u) : (⟨S2048, .f32⟩ : BufTy).Contents (Elt F) → (⟨S768x1, .i32⟩ : BufTy).Contents (Elt F) → (⟨S768, .f32⟩ : BufTy).Contents (Elt F) → (⟨S2048, .f32⟩ : BufTy).Contents (Elt F)),
    StableHlo.unary main_v263 main_v264 (broadcastInDim S2048x1 ![0] bcast_S2048_S2048x1_0 : (⟨S2048, .f32⟩ : BufTy).Contents (Elt F) → (⟨S2048x1, .f32⟩ : BufTy).Contents (Elt F)),
    StableHlo.nullary main_cst_32 (constant S_ .f32 0x00000000#32) ]

set_option maxRecDepth 8192 in
set_option maxHeartbeats 4000000 in
/-- Window 4 of @main is that line: the called functions' bodies unfold at their calls and the call records at
    their fields, and sequencing reassociates by computation. -/
theorem main_part4_eq (c : Dev nD) : main_part4 (F := F) c = seq ops4 := rfl

set_option maxRecDepth 8192 in
theorem ops4_sub : (ops4 : List (HloOp τ sig (Elt F))).Forall fun op => op.bufs ⊆ tcRefs τ sig :=
  ⟨
    binary_bufs_sub .., unary_bufs_sub .., unary_bufs_sub .., nullary_bufs_sub .., unary_bufs_sub .., binary_bufs_sub ..,
    nullary_bufs_sub .., unary_bufs_sub .., binary_bufs_sub .., binary_bufs_sub .., nullary_bufs_sub .., binary_bufs_sub ..,
    nullary_bufs_sub .., unary_bufs_sub .., binary_bufs_sub .., unary_bufs_sub .., reshape_bufs_sub .., binary_bufs_sub ..,
    unary_bufs_sub .., reshape_bufs_sub .., unary_bufs_sub .., unary_bufs_sub .., binary_bufs_sub .., unary_bufs_sub ..,
    reshape_bufs_sub .., unary_bufs_sub .., binary_bufs_sub .., unary_bufs_sub .., unary_bufs_sub .., binary_bufs_sub ..,
    unary_bufs_sub .., unary_bufs_sub .., unary_bufs_sub .., binary_bufs_sub .., unary_bufs_sub .., unary_bufs_sub ..,
    reshape_bufs_sub .., unary_bufs_sub .., unary_bufs_sub .., binary_bufs_sub .., binary_bufs_sub .., unary_bufs_sub ..,
    reshape_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    binary_bufs_sub .., unary_bufs_sub .., binary_bufs_sub .., nullary_bufs_sub .., binary_bufs_sub .., nullary_bufs_sub ..,
    unary_bufs_sub .., binary_bufs_sub .., binary_bufs_sub .., binary_bufs_sub .., nullary_bufs_sub .., unary_bufs_sub ..,
    unary_bufs_sub .., ternary_bufs_sub .., nullary_bufs_sub .., unary_bufs_sub .., nullary_bufs_sub .., unary_bufs_sub ..,
    unary_bufs_sub .., ternary_bufs_sub .., unary_bufs_sub .., nullary_bufs_sub ..⟩

set_option maxRecDepth 8192 in
/-- No operation of window 4 allocates: each determines the buffer it writes. -/
theorem ops4_fresh : (ops4 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩

/-- The buffers window 4 writes, in order. -/
abbrev W4 : List (Ref sig .tc) :=
  [
    main_v213, main_call10_v0, main_call10_v1, main_call10_cst, main_call10_v2, main_call10_v3, main_call10_cst_0, main_call10_v4,
    main_call10_v5, main_v214, main_cst_25, main_v215, main_cst_26, main_v216, main_v217, main_v218,
    main_v219, main_v220, main_v221, main_v222, main_v223, main_v224, main_v225, main_v226,
    main_v227, main_v228, main_v229, main_v230, main_v231, main_v232, main_v233, main_v234,
    main_v235, main_v236, main_v237, main_v238, main_v239, main_v240, main_v241, main_v242,
    main_v243, main_v244, main_v245, main_v246, main_v247, main_v248, main_call11_v0, main_call11_v1,
    main_call11_cst, main_call11_v2, main_call11_v3, main_call11_cst_0, main_call11_v4, main_call11_v5, main_v249, main_v250,
    main_v251, main_cst_27, main_v252, main_cst_28, main_v253, main_v254, main_v255, main_v256,
    main_cst_29, main_v257, main_v258, main_v259, main_cst_30, main_v260, main_cst_31, main_v261,
    main_v262, main_v263, main_v264, main_cst_32]

set_option maxRecDepth 8192 in
set_option maxHeartbeats 4000000 in
theorem ops4_writes : (ops4 : List (HloOp τ sig (Elt F))).Forall fun op => op.writes ⊆ (W4.map (Proc.devRef (τ := τ) .tc)).toFinset := by
  simp only [List.Forall]
  exact ⟨
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer window 4 does not write keeps its contents through it. -/
theorem keep4 (V : Valuation τ sig (Elt F)) (r : Ref sig .tc) (h : r ∉ W4) :
    after ops4 V (Proc.devRef .tc r) = V (Proc.devRef .tc r) :=
  after_of_writes_sub ops4 V ops4_writes h

set_option maxRecDepth 8192 in
/-- Statements 301 … 339, 62 operations: 36 own; `where_1` inline over `main_call12` as its four operations (the scalar
    converted, the mask broadcast, the scalar broadcast, the select); `var` inline over `main_call13` as its nineteen own
    operations followed by the three of the `where_2` it calls, over `main_call13.call0` (whose select broadcasts its scalar
    predicate). The last operation, a sum, writes `main_v296`. -/
abbrev ops5 : List (HloOp τ sig (Elt F)) :=
  [ StableHlo.unary main_cst_32 main_v265 (broadcastInDim S2048x1 ![] bcast_S_S2048x1 : (⟨S_, .f32⟩ : BufTy).Contents (Elt F) → (⟨S2048x1, .f32⟩ : BufTy).Contents (Elt F)),
    StableHlo.binary main_v264 main_v265 main_v266 (cmpf .ogt : (⟨S2048x1, .f32⟩ : BufTy).Contents (Elt F) → (⟨S2048x1, .f32⟩ : BufTy).Contents (Elt F) → (⟨S2048x1, .i1⟩ : BufTy).Contents (Elt F)),
    StableHlo.nullary main_cst_33 (constant S_ .f32 0x3F800000#32),
    StableHlo.unary main_cst_33 main_v267 (broadcastInDim S2048 ![] bcast_S_S2048 : (⟨S_, .f32⟩ : BufTy).Contents (Elt F) → (⟨S2048, .f32⟩ : BufTy).Contents (Elt F)),
    StableHlo.binary main_v263 main_v267 main_v268 (maximumf : (⟨S2048, .f32⟩ : BufTy).Contents (Elt F) → (⟨S2048, .f32⟩ : BufTy).Contents (Elt F) → (⟨S2048, .f32⟩ : BufTy).Contents (Elt F)),
    StableHlo.unary main_v268 main_v269 (broadcastInDim S2048x1 ![0] bcast_S2048_S2048x1_0 : (⟨S2048, .f32⟩ : BufTy).Contents (Elt F) → (⟨S2048x1, .f32⟩ : BufTy).Contents (Elt F)),
    StableHlo.unary main_v269 main_v270 (broadcastInDim S2048x128 ![0, 1] bcast_S2048x1_S2048x128_0_1 : (⟨S2048x1, .f32⟩ : BufTy).Contents (Elt F) → (⟨S2048x128, .f32⟩ : BufTy).Contents (Elt F)),
    StableHlo.binary main_v259 main_v270 main_v271 (Host.divf : (⟨S2048x128, .f32⟩ : BufTy).Contents (Elt F) → (⟨S2048x128, .f32⟩ : BufTy).Contents (Elt F) → (⟨S2048x128, .f32⟩ : BufTy).Contents (Elt F)),
    StableHlo.nullary main_cst_34 (constant S_ .f32 0x00000000#32),
    StableHlo.TRef.unary (.of main_cst_34 : StableHlo.TRef sig ⟨S_, .f32⟩) main_call12.v0 id,
    StableHlo.TRef.unary (.of main_v266 : StableHlo.TRef sig ⟨S2048x1, .i1⟩) main_call12.v1 (broadcastInDim S2048x128 ![0, 1] bcast_S2048x1_S2048x128_0_1),
    StableHlo.TRef.unary main_call12.v0 main_call12.v2 (broadcastInDim S2048x128 ![] bcast_S_S2048x128),
    StableHlo.TRef.ternary main_call12.v1 (.of main_v271 : StableHlo.TRef sig ⟨S2048x128, .f32⟩) main_call12.v2 main_call12.v3 select,
    StableHlo.binary main_arg0 main_v272 main_v273 ((fun a b => concatenate S2048x256 1 [⟨S2048x128, a⟩, ⟨S2048x128, b⟩] concatenates_S2048x128_S2048x128_S2048x256_d1) : (⟨S2048x128, .f32⟩ : BufTy).Contents (Elt F) → (⟨S2048x128, .f32⟩ : BufTy).Contents (Elt F) → (⟨S2048x256, .f32⟩ : BufTy).Contents (Elt F)),
    StableHlo.nullary main_cst_35 (constant S_ .f32 0x00000000#32),
    StableHlo.binary main_v273 main_cst_35 main_v274 ((fun x v => Host.reduceAdd x v reducesTo_S2048x256_S256_d0 h_S_) : (⟨S2048x256, .f32⟩ : BufTy).Contents (Elt F) → (⟨S_, .f32⟩ : BufTy).Contents (Elt F) → (⟨S256, .f32⟩ : BufTy).Contents (Elt F)),
    StableHlo.nullary main_cst_36 (constant S_ .f32 0x45000000#32),
    StableHlo.unary main_cst_36 main_v275 (broadcastInDim S256 ![] bcast_S_S256 : (⟨S_, .f32⟩ : BufTy).Contents (Elt F) → (⟨S256, .f32⟩ : BufTy).Contents (Elt F)),
    StableHlo.binary main_v274 main_v275 main_v276 (Host.divf : (⟨S256, .f32⟩ : BufTy).Contents (Elt F) → (⟨S256, .f32⟩ : BufTy).Contents (Elt F) → (⟨S256, .f32⟩ : BufTy).Contents (Elt F)),
    StableHlo.nullary main_c_37 (constantI S_ 32 0#32),
    StableHlo.TRef.nullary main_call13.cst (constant S_ .f32 0x00000000#32),
    StableHlo.TRef.binary (.of main_v273 : StableHlo.TRef sig ⟨S2048x256, .f32⟩) main_call13.cst main_call13.v0 (fun x v => Host.reduceAdd x v reducesTo_S2048x256_S256_d0 h_S_),
    StableHlo.TRef.unary main_call13.v0 main_call13.v1 (broadcastInDim S1x256 ![1] bcast_S256_S1x256_1),
    StableHlo.TRef.nullary main_call13.cst_0 (constant S_ .f32 0x45000000#32),
    StableHlo.TRef.unary main_call13.cst_0 main_call13.v2 (broadcastInDim S1x256 ![] bcast_S_S1x256),
    StableHlo.TRef.binary main_call13.v1 main_call13.v2 main_call13.v3 Host.divf,
    StableHlo.TRef.unary main_call13.v3 main_call13.v4 (broadcastInDim S2048x256 ![0, 1] bcast_S1x256_S2048x256_0_1),
    StableHlo.TRef.binary (.of main_v273 : StableHlo.TRef sig ⟨S2048x256, .f32⟩) main_call13.v4 main_call13.v5 subf,
    StableHlo.TRef.binary main_call13.v5 main_call13.v5 main_call13.v6 mulf,
    StableHlo.TRef.unary (.of main_c_37 : StableHlo.TRef sig ⟨S_, .i32⟩) main_call13.v7 (sitofp .f32),
    StableHlo.TRef.nullary main_call13.cst_1 (constant S_ .f32 0x45000000#32),
    StableHlo.TRef.binary main_call13.cst_1 main_call13.v7 main_call13.v8 subf,
    StableHlo.TRef.nullary main_call13.cst_2 (constant S_ .f32 0x00000000#32),
    StableHlo.TRef.binary main_call13.v6 main_call13.cst_2 main_call13.v9 (fun x v => Host.reduceAdd x v reducesTo_S2048x256_S256_d0 h_S_),
    StableHlo.TRef.unary main_call13.v8 main_call13.v10 (broadcastInDim S256 ![] bcast_S_S256),
    StableHlo.TRef.binary main_call13.v9 main_call13.v10 main_call13.v11 Host.divf,
    StableHlo.TRef.nullary main_call13.cst_3 (constant S_ .f32 0x00000000#32),
    StableHlo.TRef.binary main_call13.v8 main_call13.cst_3 main_call13.v12 (cmpf .ogt),
    StableHlo.TRef.nullary main_call13.cst_4 (constant S_ .f32 0x7FC00000#32),
    StableHlo.TRef.unary main_call13.cst_4 main_call13.call0.v0 id,
    StableHlo.TRef.unary main_call13.call0.v0 main_call13.call0.v1 (broadcastInDim S256 ![] bcast_S_S256),
    StableHlo.TRef.ternary main_call13.v12 main_call13.v11 main_call13.call0.v1 main_call13.call0.v2 (fun p a b => select (broadcastInDim S256 ![] bcast_S_S256 p) a b),
    StableHlo.unary main_v276 main_v278 (broadcastInDim S1x256 ![1] bcast_S256_S1x256_1 : (⟨S256, .f32⟩ : BufTy).Contents (Elt F) → (⟨S1x256, .f32⟩ : BufTy).Contents (Elt F)),
    StableHlo.unary main_v278 main_v279 (broadcastInDim S2048x256 ![0, 1] bcast_S1x256_S2048x256_0_1 : (⟨S1x256, .f32⟩ : BufTy).Contents (Elt F) → (⟨S2048x256, .f32⟩ : BufTy).Contents (Elt F)),
    StableHlo.binary main_v273 main_v279 main_v280 (subf : (⟨S2048x256, .f32⟩ : BufTy).Contents (Elt F) → (⟨S2048x256, .f32⟩ : BufTy).Contents (Elt F) → (⟨S2048x256, .f32⟩ : BufTy).Contents (Elt F)),
    StableHlo.nullary main_cst_38 (constant S_ .f32 0x3727C5AC#32),
    StableHlo.unary main_cst_38 main_v281 (broadcastInDim S256 ![] bcast_S_S256 : (⟨S_, .f32⟩ : BufTy).Contents (Elt F) → (⟨S256, .f32⟩ : BufTy).Contents (Elt F)),
    StableHlo.binary main_v277 main_v281 main_v282 (addf : (⟨S256, .f32⟩ : BufTy).Contents (Elt F) → (⟨S256, .f32⟩ : BufTy).Contents (Elt F) → (⟨S256, .f32⟩ : BufTy).Contents (Elt F)),
    StableHlo.unary main_v282 main_v283 (Host.sqrt : (⟨S256, .f32⟩ : BufTy).Contents (Elt F) → (⟨S256, .f32⟩ : BufTy).Contents (Elt F)),
    StableHlo.unary main_v283 main_v284 (broadcastInDim S1x256 ![1] bcast_S256_S1x256_1 : (⟨S256, .f32⟩ : BufTy).Contents (Elt F) → (⟨S1x256, .f32⟩ : BufTy).Contents (Elt F)),
    StableHlo.unary main_v284 main_v285 (broadcastInDim S2048x256 ![0, 1] bcast_S1x256_S2048x256_0_1 : (⟨S1x256, .f32⟩ : BufTy).Contents (Elt F) → (⟨S2048x256, .f32⟩ : BufTy).Contents (Elt F)),
    StableHlo.binary main_v280 main_v285 main_v286 (Host.divf : (⟨S2048x256, .f32⟩ : BufTy).Contents (Elt F) → (⟨S2048x256, .f32⟩ : BufTy).Contents (Elt F) → (⟨S2048x256, .f32⟩ : BufTy).Contents (Elt F)),
    StableHlo.unary main_arg8 main_v287 (broadcastInDim S1x256 ![1] bcast_S256_S1x256_1 : (⟨S256, .f32⟩ : BufTy).Contents (Elt F) → (⟨S1x256, .f32⟩ : BufTy).Contents (Elt F)),
    StableHlo.unary main_v287 main_v288 (broadcastInDim S2048x256 ![0, 1] bcast_S1x256_S2048x256_0_1 : (⟨S1x256, .f32⟩ : BufTy).Contents (Elt F) → (⟨S2048x256, .f32⟩ : BufTy).Contents (Elt F)),
    StableHlo.binary main_v286 main_v288 main_v289 (mulf : (⟨S2048x256, .f32⟩ : BufTy).Contents (Elt F) → (⟨S2048x256, .f32⟩ : BufTy).Contents (Elt F) → (⟨S2048x256, .f32⟩ : BufTy).Contents (Elt F)),
    StableHlo.unary main_arg9 main_v290 (broadcastInDim S1x256 ![1] bcast_S256_S1x256_1 : (⟨S256, .f32⟩ : BufTy).Contents (Elt F) → (⟨S1x256, .f32⟩ : BufTy).Contents (Elt F)),
    StableHlo.unary main_v290 main_v291 (broadcastInDim S2048x256 ![0, 1] bcast_S1x256_S2048x256_0_1 : (⟨S1x256, .f32⟩ : BufTy).Contents (Elt F) → (⟨S2048x256, .f32⟩ : BufTy).Contents (Elt F)),
    StableHlo.binary main_v289 main_v291 main_v292 (addf : (⟨S2048x256, .f32⟩ : BufTy).Contents (Elt F) → (⟨S2048x256, .f32⟩ : BufTy).Contents (Elt F) → (⟨S2048x256, .f32⟩ : BufTy).Contents (Elt F)),
    StableHlo.binary main_v292 main_arg10 main_v293 ((fun l r => Host.dotGeneral dot_S2048x256_S256x128_S2048x128_1_0_0_1_n_n none l r) : (⟨S2048x256, .f32⟩ : BufTy).Contents (Elt F) → (⟨S256x128, .f32⟩ : BufTy).Contents (Elt F) → (⟨S2048x128, .f32⟩ : BufTy).Contents (Elt F)),
    StableHlo.unary main_arg11 main_v294 (broadcastInDim S1x128 ![1] bcast_S128_S1x128_1 : (⟨S128, .f32⟩ : BufTy).Contents (Elt F) → (⟨S1x128, .f32⟩ : BufTy).Contents (Elt F)),
    StableHlo.unary main_v294 main_v295 (broadcastInDim S2048x128 ![0, 1] bcast_S1x128_S2048x128_0_1 : (⟨S1x128, .f32⟩ : BufTy).Contents (Elt F) → (⟨S2048x128, .f32⟩ : BufTy).Contents (Elt F)),
    StableHlo.binary main_v293 main_v295 main_v296 (addf : (⟨S2048x128, .f32⟩ : BufTy).Contents (Elt F) → (⟨S2048x128, .f32⟩ : BufTy).Contents (Elt F) → (⟨S2048x128, .f32⟩ : BufTy).Contents (Elt F)) ]

set_option maxRecDepth 8192 in
set_option maxHeartbeats 4000000 in
/-- Window 5 of @main is that line: the called functions' bodies unfold at their calls and the call records at
    their fields, and sequencing reassociates by computation. -/
theorem main_part5_eq (c : Dev nD) : main_part5 (F := F) c = seq ops5 := rfl

set_option maxRecDepth 8192 in
theorem ops5_sub : (ops5 : List (HloOp τ sig (Elt F))).Forall fun op => op.bufs ⊆ tcRefs τ sig :=
  ⟨
    unary_bufs_sub .., binary_bufs_sub .., nullary_bufs_sub .., unary_bufs_sub .., binary_bufs_sub .., unary_bufs_sub ..,
    unary_bufs_sub .., binary_bufs_sub .., nullary_bufs_sub .., unary_bufs_sub .., unary_bufs_sub .., unary_bufs_sub ..,
    ternary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., binary_bufs_sub .., unary_bufs_sub ..,
    unary_bufs_sub .., binary_bufs_sub ..⟩

set_option maxRecDepth 8192 in
/-- No operation of window 5 allocates: each determines the buffer it writes. -/
theorem ops5_fresh : (ops5 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl⟩

/-- The buffers window 5 writes, in order. -/
abbrev W5 : List (Ref sig .tc) :=
  [
    main_v265, main_v266, main_cst_33, main_v267, main_v268, main_v269, main_v270, main_v271,
    main_cst_34, main_call12_v0, main_call12_v1, main_call12_v2, main_v272, main_v273, main_cst_35, main_v274,
    main_cst_36, main_v275, main_v276, main_c_37, main_call13_cst, main_call13_v0, main_call13_v1, main_call13_cst_0,
    main_call13_v2, main_call13_v3, main_call13_v4, main_call13_v5, main_call13_v6, main_call13_v7, main_call13_cst_1, main_call13_v8,
    main_call13_cst_2, main_call13_v9, main_call13_v10, main_call13_v11, main_call13_cst_3, main_call13_v12, main_call13_cst_4, main_call13_call0_v0,
    main_call13_call0_v1, main_v277, main_v278, main_v279, main_v280, main_cst_38, main_v281, main_v282,
    main_v283, main_v284, main_v285, main_v286, main_v287, main_v288, main_v289, main_v290,
    main_v291, main_v292, main_v293, main_v294, main_v295, main_v296]

set_option maxRecDepth 8192 in
set_option maxHeartbeats 4000000 in
theorem ops5_writes : (ops5 : List (HloOp τ sig (Elt F))).Forall fun op => op.writes ⊆ (W5.map (Proc.devRef (τ := τ) .tc)).toFinset := by
  simp only [List.Forall]
  exact ⟨
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer window 5 does not write keeps its contents through it. -/
theorem keep5 (V : Valuation τ sig (Elt F)) (r : Ref sig .tc) (h : r ∉ W5) :
    after ops5 V (Proc.devRef .tc r) = V (Proc.devRef .tc r) :=
  after_of_writes_sub ops5 V ops5_writes h

/-- @main's 422 operations in program order, every call listed inline: the six windows' lines one after the other. -/
abbrev ops : List (HloOp τ sig (Elt F)) := ops0 ++ (ops1 ++ (ops2 ++ (ops3 ++ (ops4 ++ ops5))))

/-- @main runs its windows in order, and a line run after a line is their concatenation run as one. -/
theorem main_eq (c : Dev nD) : main (F := F) c = seq ops := by
  simp only [ops, seq_append, ← main_part0_eq c, ← main_part1_eq c, ← main_part2_eq c, ← main_part3_eq c, ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

/-- What holds of every operation of each window holds of every operation of the whole line. -/
theorem ops_forall {P : HloOp τ sig (Elt F) → Prop}
    (h0 : (ops0 : List (HloOp τ sig (Elt F))).Forall P)
    (h1 : (ops1 : List (HloOp τ sig (Elt F))).Forall P)
    (h2 : (ops2 : List (HloOp τ sig (Elt F))).Forall P)
    (h3 : (ops3 : List (HloOp τ sig (Elt F))).Forall P)
    (h4 : (ops4 : List (HloOp τ sig (Elt F))).Forall P)
    (h5 : (ops5 : List (HloOp τ sig (Elt F))).Forall P) :
    (ops : List (HloOp τ sig (Elt F))).Forall P :=
  List.forall_iff_forall_mem.mpr fun op h => by
    simp only [ops, List.mem_append] at h
    rcases h with h | h | h | h | h | h
    exacts [List.forall_iff_forall_mem.mp h0 op h, List.forall_iff_forall_mem.mp h1 op h, List.forall_iff_forall_mem.mp h2 op h, List.forall_iff_forall_mem.mp h3 op h, List.forall_iff_forall_mem.mp h4 op h, List.forall_iff_forall_mem.mp h5 op h]

theorem ops_sub : (ops : List (HloOp τ sig (Elt F))).Forall fun op => op.bufs ⊆ tcRefs τ sig :=
  ops_forall ops0_sub ops1_sub ops2_sub ops3_sub ops4_sub ops5_sub

theorem ops_fresh : ∀ op ∈ (ops : List (HloOp τ sig (Elt F))), op.fresh = ∅ :=
  List.forall_iff_forall_mem.mp (ops_forall ops0_fresh ops1_fresh ops2_fresh ops3_fresh ops4_fresh ops5_fresh)

/-- The fold over two lines in a row is the second's fold after the first's. -/
theorem after_concat : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_concat l₁ l₂]

/-- The whole line's fold, window by window. -/
theorem after_ops (V : Valuation τ sig (Elt F)) :
    after ops V = after ops5 (after ops4 (after ops3 (after ops2 (after ops1 (after ops0 V))))) := by
  simp only [ops, after_concat]

/-- A buffer no window writes keeps its contents through the whole line. -/
theorem keep (V : Valuation τ sig (Elt F)) (r : Ref sig .tc)
    (h0 : r ∉ W0) (h1 : r ∉ W1) (h2 : r ∉ W2) (h3 : r ∉ W3) (h4 : r ∉ W4) (h5 : r ∉ W5) :
    after ops V (Proc.devRef .tc r) = V (Proc.devRef .tc r) := by
  rw [after_ops, keep5 _ r h5, keep4 _ r h4, keep3 _ r h3, keep2 _ r h2, keep1 _ r h1, keep0 _ r h0]

set_option maxRecDepth 8192 in
/-- On every device, for any float values, from any memory with zero counters: every weakly fair execution of @main
    terminates with the result buffer at the operations' fold over the launch contents — kept as the fold, to be
    opened one operation at a time — and the fourteen arguments, which no operation writes, unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v296) = StableHlo.after ops (fun b => m (c, b)) (Proc.devRef .tc main_v296)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨h c main_v296,
      (h c main_arg0).trans (keep (launchContents m c) main_arg0 (by decide) (by decide) (by decide) (by decide) (by decide) (by decide)),
      (h c main_arg1).trans (keep (launchContents m c) main_arg1 (by decide) (by decide) (by decide) (by decide) (by decide) (by decide)),
      (h c main_arg2).trans (keep (launchContents m c) main_arg2 (by decide) (by decide) (by decide) (by decide) (by decide) (by decide)),
      (h c main_arg3).trans (keep (launchContents m c) main_arg3 (by decide) (by decide) (by decide) (by decide) (by decide) (by decide)),
      (h c main_arg4).trans (keep (launchContents m c) main_arg4 (by decide) (by decide) (by decide) (by decide) (by decide) (by decide)),
      (h c main_arg5).trans (keep (launchContents m c) main_arg5 (by decide) (by decide) (by decide) (by decide) (by decide) (by decide)),
      (h c main_arg6).trans (keep (launchContents m c) main_arg6 (by decide) (by decide) (by decide) (by decide) (by decide) (by decide)),
      (h c main_arg7).trans (keep (launchContents m c) main_arg7 (by decide) (by decide) (by decide) (by decide) (by decide) (by decide)),
      (h c main_arg8).trans (keep (launchContents m c) main_arg8 (by decide) (by decide) (by decide) (by decide) (by decide) (by decide)),
      (h c main_arg9).trans (keep (launchContents m c) main_arg9 (by decide) (by decide) (by decide) (by decide) (by decide) (by decide)),
      (h c main_arg10).trans (keep (launchContents m c) main_arg10 (by decide) (by decide) (by decide) (by decide) (by decide) (by decide)),
      (h c main_arg11).trans (keep (launchContents m c) main_arg11 (by decide) (by decide) (by decide) (by decide) (by decide) (by decide)),
      (h c main_arg12).trans (keep (launchContents m c) main_arg12 (by decide) (by decide) (by decide) (by decide) (by decide) (by decide)),
      (h c main_arg13).trans (keep (launchContents m c) main_arg13 (by decide) (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.LayerSpec.lean ====
/-
  ONE MESSAGE-PASSING LAYER AS A FUNCTION ON THE EXTENDED REALS, index by index.
  768 nodes carry a feature row h i (128 entries) and a coordinate row c i (3 entries). For every ordered pair (i, j):
    rel i j k = c i k − c j k,   sq i j = Σ_k rel²,   dist i j = √sq where sq > 0 and 0 elsewhere (the square root taken of 1 there),
    pre i j d  = ((Σ_k h i k · w1a k d) + (Σ_k h j k · w1b k d) + dist i j · w1c d) + b1 d,        silu x = x · (1 / (1 + e^(−x))),
    wpre i j   = ((Σ_k h i k · wca k)   + (Σ_k h j k · wcb k)   + dist i j · wcc)   + bc.
  The layer returns
    h' i d = h i d + ((Σ_k ((Σ_j silu (pre i j k)) · (1/768)) · w2 k d) + b2 d),
    c' i k = c i k + (Σ_j silu (wpre i j) · rel i j k) · (1/768).
  No finiteness is assumed anywhere: every sum is a sum in the commutative monoid of the extended reals.
-/
import Idealize.ShloMosaic.PureOps.Ideal
import Idealize.ShloMosaic.PureOps.Ideal.Laws

noncomputable section

namespace Cert.Spec

open Idealize.ShloMosaic

/-- The comparison "x > 0" as a float comparison answers it (one bit). -/
abbrev isPos (x : EReal) : BitVec 1 := Ideal.cmp .ogt x 0

section Layer
variable (h : Fin 768 → Fin 128 → EReal) (c : Fin 768 → Fin 3 → EReal)

def rel (i j : Fin 768) (k : Fin 3) : EReal := c i k - c j k
def sq (i j : Fin 768) : EReal := ∑ k : Fin 3, rel c i j k * rel c i j k
/-- The distance, with the square root kept away from 0 (where its derivative is infinite). -/
def dist (i j : Fin 768) : EReal :=
  Scalar.select (isPos (sq c i j)) (Ideal.sqrt (Scalar.select (isPos (sq c i j)) (sq c i j) 1)) 0

def silu (x : EReal) : EReal := x * Ideal.logistic x

variable (w1a w1b : Fin 128 → Fin 128 → EReal) (w1c b1 : Fin 128 → EReal) (w2 : Fin 128 → Fin 128 → EReal) (b2 : Fin 128 → EReal)

def pre (i j : Fin 768) (d : Fin 128) : EReal :=
  ((∑ k : Fin 128, h i k * w1a k d) + (∑ k : Fin 128, h j k * w1b k d) + dist c i j * w1c d) + b1 d

/-- The layer's new features. -/
def layerH (i : Fin 768) (d : Fin 128) : EReal :=
  h i d + ((∑ k : Fin 128, ((∑ j : Fin 768, silu (pre h c w1a w1b w1c b1 i j k)) * ((1 / 768 : ℝ) : EReal)) * w2 k d) + b2 d)

variable (wca wcb : Fin 128 → EReal) (wcc bc : EReal)

def wpre (i j : Fin 768) : EReal :=
  ((∑ k : Fin 128, h i k * wca k) + (∑ k : Fin 128, h j k * wcb k) + dist c i j * wcc) + bc

/-- The layer's new coordinates. -/
def layerC (i : Fin 768) (k : Fin 3) : EReal :=
  c i k + (∑ j : Fin 768, silu (wpre h c wca wcb wcc bc i j) * rel c i j k) * ((1 / 768 : ℝ) : EReal)

end Layer

end Cert.Spec

end
-- ==== Proof.GlueDefs.lean ====
/-
  The host computations the two programs share around their three message-passing layers, each named once as a function of
  the argument arrays, so that both programs' results can be stated with the same terms: the two gathers in front of the
  layers, and the stretch after them — pooling per graph, normalisation over the graphs, the last affine map.
-/
import proofs.«110946_j38972533244288_1_alg».proof.Proof.Gen.KernelIdeal

noncomputable section

namespace Cert.Glue

open Idealize.ShloMosaic Cert.KernelIdeal Cert.KernelIdeal.Gen

/-- The node index array made non-negative (a negative index counts from the end, 2048 added) and given a unit axis. -/
def normIdx (idx : IVec S768 32) : IVec S768x1 32 :=
  broadcastInDim S768x1 ![0] bcast_S768_S768x1_0
    (select (cmpi .slt idx (broadcastInDim S768 ![] bcast_S_S768 (constantI S_ 32 0#32)))
      (addi idx (broadcastInDim S768 ![] bcast_S_S768 (constantI S_ 32 2048#32))) idx)

/-- The 768 gathered feature rows. -/
def gatherH (x : FVec Ideal S2048x128 .f32) (idx : IVec S768 32) : FVec Ideal S768x128 .f32 :=
  Host.gather gather_S2048x128_S768x1_S768x128_1_0_n_n_0_1_1128 x (normIdx idx)

/-- The 768 gathered coordinate rows. -/
def gatherC (x : FVec Ideal S2048x3 .f32) (idx : IVec S768 32) : FVec Ideal S768x3 .f32 :=
  Host.gather gather_S2048x3_S768x1_S768x3_1_0_n_n_0_1_13 x (normIdx idx)

/-- The per-graph mean of the node features: the segment sum divided by the segment's count (kept at least one), and
    zero for a graph with no node. -/
def pooled (h3 : FVec Ideal S768x128 .f32) (seg : IVec S768 32) : FVec Ideal S2048x128 .f32 :=
  let cnt : FVec Ideal S2048 .f32 :=
    Host.scatterAdd scatter_S2048_S768x1_S768_n_0_0_1
      (broadcastInDim S2048 ![] bcast_S_S2048 (constant (F := Ideal) S_ .f32 0x00000000#32))
      (broadcastInDim S768x1 ![0] bcast_S768_S768x1_0 seg)
      (broadcastInDim S768 ![] bcast_S_S768 (constant (F := Ideal) S_ .f32 0x3F800000#32))
  select
    (broadcastInDim S2048x128 ![0, 1] bcast_S2048x1_S2048x128_0_1
      (cmpf .ogt (broadcastInDim S2048x1 ![0] bcast_S2048_S2048x1_0 cnt)
        (broadcastInDim S2048x1 ![] bcast_S_S2048x1 (constant (F := Ideal) S_ .f32 0x00000000#32))))
    (Host.divf
      (Host.scatterAdd scatter_S2048x128_S768x1_S768x128_1_0_0_1
        (broadcastInDim S2048x128 ![] bcast_S_S2048x128 (constant (F := Ideal) S_ .f32 0x00000000#32))
        (broadcastInDim S768x1 ![0] bcast_S768_S768x1_0 seg) h3)
      (broadcastInDim S2048x128 ![0, 1] bcast_S2048x1_S2048x128_0_1
        (broadcastInDim S2048x1 ![0] bcast_S2048_S2048x1_0
          (maximumf cnt (broadcastInDim S2048 ![] bcast_S_S2048 (constant (F := Ideal) S_ .f32 0x3F800000#32))))))
    (broadcastInDim S2048x128 ![] bcast_S_S2048x128 (id (constant (F := Ideal) S_ .f32 0x00000000#32)))

/-- The graph features with the pooled node features appended: 256 columns. -/
def catF (x p : FVec Ideal S2048x128 .f32) : FVec Ideal S2048x256 .f32 :=
  concatenate S2048x256 1 [⟨S2048x128, x⟩, ⟨S2048x128, p⟩] concatenates_S2048x128_S2048x128_S2048x256_d1

/-- Each column's mean over the 2048 graphs. -/
def colMean (c : FVec Ideal S2048x256 .f32) : FVec Ideal S256 .f32 :=
  Host.divf (Host.reduceAdd c (constant (F := Ideal) S_ .f32 0x00000000#32) reducesTo_S2048x256_S256_d0 h_S_)
    (broadcastInDim S256 ![] bcast_S_S256 (constant (F := Ideal) S_ .f32 0x45000000#32))

/-- Each column's variance over the 2048 graphs, with the correction `z` subtracted from the divisor (not a number where
    the divisor is not positive). -/
def colVarOf (c : FVec Ideal S2048x256 .f32) (z : IVec S_ 32) : FVec Ideal S256 .f32 :=
  let dev : FVec Ideal S2048x256 .f32 :=
    subf c
      (broadcastInDim S2048x256 ![0, 1] bcast_S1x256_S2048x256_0_1
        (Host.divf
          (broadcastInDim S1x256 ![1] bcast_S256_S1x256_1 (Host.reduceAdd c (constant (F := Ideal) S_ .f32 0x00000000#32) reducesTo_S2048x256_S256_d0 h_S_))
          (broadcastInDim S1x256 ![] bcast_S_S1x256 (constant (F := Ideal) S_ .f32 0x45000000#32))))
  let n : FVec Ideal S_ .f32 := subf (constant (F := Ideal) S_ .f32 0x45000000#32) (sitofp .f32 z)
  select (broadcastInDim S256 ![] bcast_S_S256 (cmpf .ogt n (constant (F := Ideal) S_ .f32 0x00000000#32)))
    (Host.divf (Host.reduceAdd (mulf dev dev) (constant (F := Ideal) S_ .f32 0x00000000#32) reducesTo_S2048x256_S256_d0 h_S_)
      (broadcastInDim S256 ![] bcast_S_S256 n))
    (broadcastInDim S256 ![] bcast_S_S256 (id (constant (F := Ideal) S_ .f32 0x7FC00000#32)))

/-- The variance as the programs take it: no correction. -/
def colVar (c : FVec Ideal S2048x256 .f32) : FVec Ideal S256 .f32 := colVarOf c (constantI S_ 32 0#32)

/-- Normalisation by a given mean and variance, scale and shift, and the last affine map. -/
def finF (c : FVec Ideal S2048x256 .f32) (m v gamma beta : FVec Ideal S256 .f32) (w : FVec Ideal S256x128 .f32)
    (b : FVec Ideal S128 .f32) : FVec Ideal S2048x128 .f32 :=
  addf
    (Host.dotGeneral dot_S2048x256_S256x128_S2048x128_1_0_0_1_n_n none
      (addf
        (mulf
          (Host.divf
            (subf c (broadcastInDim S2048x256 ![0, 1] bcast_S1x256_S2048x256_0_1 (broadcastInDim S1x256 ![1] bcast_S256_S1x256_1 m)))
            (broadcastInDim S2048x256 ![0, 1] bcast_S1x256_S2048x256_0_1
              (broadcastInDim S1x256 ![1] bcast_S256_S1x256_1
                (Host.sqrt (addf v (broadcastInDim S256 ![] bcast_S_S256 (constant (F := Ideal) S_ .f32 0x3727C5AC#32)))))))
          (broadcastInDim S2048x256 ![0, 1] bcast_S1x256_S2048x256_0_1 (broadcastInDim S1x256 ![1] bcast_S256_S1x256_1 gamma)))
        (broadcastInDim S2048x256 ![0, 1] bcast_S1x256_S2048x256_0_1 (broadcastInDim S1x256 ![1] bcast_S256_S1x256_1 beta)))
      w)
    (broadcastInDim S2048x128 ![0, 1] bcast_S1x128_S2048x128_0_1 (broadcastInDim S1x128 ![1] bcast_S128_S1x128_1 b))

/-- Everything after the last layer, as one function of the last features and six argument arrays. -/
def tail (h3 : FVec Ideal S768x128 .f32) (x : FVec Ideal S2048x128 .f32) (seg : IVec S768 32)
    (gamma beta : FVec Ideal S256 .f32) (w : FVec Ideal S256x128 .f32) (b : FVec Ideal S128 .f32) :
    FVec Ideal S2048x128 .f32 :=
  finF (catF x (pooled h3 seg)) (colMean (catF x (pooled h3 seg))) (colVar (catF x (pooled h3 seg))) gamma beta w b

end Cert.Glue

end
-- ==== Proof.Net.lean ====
/-
  THE WHOLE COMPUTATION AS ONE FUNCTION OF THE ARGUMENT ARRAYS, on the extended reals: gather 768 of the 2048 node feature
  rows and coordinate rows; three message-passing layers (LayerSpec), layer l with the l-th slices of the six weight
  arguments (rows 0–127 of the 257-row matrices act on the receiving node, rows 128–255 on the sending node, row 256 on
  the distance); then the pooling, normalisation and projection tail applied to the last layer's features.
-/
import proofs.«110946_j38972533244288_1_alg».proof.Proof.LayerSpec
import proofs.«110946_j38972533244288_1_alg».proof.Proof.GlueDefs
import Idealize.ShloMosaic.Lib.ValueIdx

noncomputable section

namespace Cert.Net

open Idealize.ShloMosaic Idealize.ShloMosaic.ValueIdx Cert.KernelIdeal

section
variable (x : FVec Ideal S2048x128 .f32) (co : FVec Ideal S2048x3 .f32)
  (a2 : FVec Ideal S3x257x128 .f32) (a3 : FVec Ideal S3x128 .f32) (a4 : FVec Ideal S3x128x128 .f32) (a5 : FVec Ideal S3x128 .f32)
  (a6 : FVec Ideal S3x257x1 .f32) (a7 : FVec Ideal S3x1 .f32) (idx : IVec S768 32)

/-! ### Layer l's weights, as slices of the arguments -/
def w1a (l : Fin 3) : Fin 128 → Fin 128 → EReal := fun k d => a2 (ix3 l (⟨k.val, Nat.lt_of_lt_of_le k.isLt (by decide)⟩ : Fin 257) d)
def w1b (l : Fin 3) : Fin 128 → Fin 128 → EReal := fun k d => a2 (ix3 l (⟨128 + k.val, by have := k.isLt; omega⟩ : Fin 257) d)
def w1c (l : Fin 3) : Fin 128 → EReal := fun d => a2 (ix3 l (⟨256, by decide⟩ : Fin 257) d)
def b1 (l : Fin 3) : Fin 128 → EReal := fun d => a3 (ix2 l d)
def w2 (l : Fin 3) : Fin 128 → Fin 128 → EReal := fun k d => a4 (ix3 l k d)
def b2 (l : Fin 3) : Fin 128 → EReal := fun d => a5 (ix2 l d)
def wca (l : Fin 3) : Fin 128 → EReal := fun k => a6 (ix3 l (⟨k.val, Nat.lt_of_lt_of_le k.isLt (by decide)⟩ : Fin 257) (0 : Fin 1))
def wcb (l : Fin 3) : Fin 128 → EReal := fun k => a6 (ix3 l (⟨128 + k.val, by have := k.isLt; omega⟩ : Fin 257) (0 : Fin 1))
def wcc (l : Fin 3) : EReal := a6 (ix3 l (⟨256, by decide⟩ : Fin 257) (0 : Fin 1))
def bc (l : Fin 3) : EReal := a7 (ix2 l (0 : Fin 1))

/-- Layer l on features h and coordinates c. -/
def stepH (l : Fin 3) (h : Fin 768 → Fin 128 → EReal) (c : Fin 768 → Fin 3 → EReal) : Fin 768 → Fin 128 → EReal :=
  Cert.Spec.layerH h c (w1a a2 l) (w1b a2 l) (w1c a2 l) (b1 a3 l) (w2 a4 l) (b2 a5 l)
def stepC (l : Fin 3) (h : Fin 768 → Fin 128 → EReal) (c : Fin 768 → Fin 3 → EReal) : Fin 768 → Fin 3 → EReal :=
  Cert.Spec.layerC h c (wca a6 l) (wcb a6 l) (wcc a6 l) (bc a7 l)

/-! ### The gathered rows and the three layers -/
def H0 : Fin 768 → Fin 128 → EReal := fun i k => Cert.Glue.gatherH x idx (ix2 i k)
def C0 : Fin 768 → Fin 3 → EReal := fun i k => Cert.Glue.gatherC co idx (ix2 i k)
def H1 : Fin 768 → Fin 128 → EReal := stepH a2 a3 a4 a5 0 (H0 x idx) (C0 co idx)
def C1 : Fin 768 → Fin 3 → EReal := stepC a6 a7 0 (H0 x idx) (C0 co idx)
def H2 : Fin 768 → Fin 128 → EReal := stepH a2 a3 a4 a5 1 (H1 x co a2 a3 a4 a5 idx) (C1 x co a6 a7 idx)
def C2 : Fin 768 → Fin 3 → EReal := stepC a6 a7 1 (H1 x co a2 a3 a4 a5 idx) (C1 x co a6 a7 idx)
def H3 : Fin 768 → Fin 128 → EReal := stepH a2 a3 a4 a5 2 (H2 x co a2 a3 a4 a5 a6 a7 idx) (C2 x co a2 a3 a4 a5 a6 a7 idx)

/-- The last layer's features as an array. -/
def h3 : FVec Ideal S768x128 .f32 := fun j => H3 x co a2 a3 a4 a5 a6 a7 idx (j 0) (j 1)

end

/-- The result, from the fourteen arguments in the programs' order. -/
def out (x : FVec Ideal S2048x128 .f32) (co : FVec Ideal S2048x3 .f32)
    (a2 : FVec Ideal S3x257x128 .f32) (a3 : FVec Ideal S3x128 .f32) (a4 : FVec Ideal S3x128x128 .f32) (a5 : FVec Ideal S3x128 .f32)
    (a6 : FVec Ideal S3x257x1 .f32) (a7 : FVec Ideal S3x1 .f32) (gamma beta : FVec Ideal S256 .f32) (w : FVec Ideal S256x128 .f32) (b : FVec Ideal S128 .f32)
    (idx seg : IVec S768 32) : FVec Ideal S2048x128 .f32 :=
  Cert.Glue.tail (h3 x co a2 a3 a4 a5 a6 a7 idx) x seg gamma beta w b

end Cert.Net

end
-- ==== Proof.IdealLayer0ValuePieces.lean ====
/-
  What each kind of step of layer 1's kernel leaves in the two accumulators and the two outputs' buffers, as the kernel
  body's arithmetic applied to the tiles the step was given: the stored pieces, read back, are one covering store each,
  and every load reads a whole buffer.
-/
import proofs.«110946_j38972533244288_1_alg».proof.Proof.IdealLayer0Data
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Gen.Layer0.Value

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen Cert.KernelIdeal.Gen.Layer0

variable {F : FTy → Type} [FloatOps F] [Named F]

theorem hz : (![0, 0] : Fin 2 → Nat) = fun _ => 0 := funext fun a => by fin_cases a <;> rfl

/-- One step's new feature accumulator: the old one plus, for each receiving row, the sum over the tile's sending rows of the
    messages. -/
abbrev updH (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (acc : Vec F S128x128 .f32) : Vec F S128x128 .f32 :=
  k0_pay14 (k0_pay6 x0) (k0_pay7 x1) (k0_pay10 x2 x3) (k0_pay11 x4) (k0_pay12 x5) (k0_pay13 x6) x7 acc

/-- One step's new coordinate accumulator: the old one plus the sum over the tile's sending rows of the weighted coordinate
    differences. -/
abbrev updC (x0 : Vec F S128x128 .f32) (x1 : Vec F S128x128 .f32) (x2 : Vec F S128x3 .f32) (x3 : Vec F S128x3 .f32) (x10 : Vec F S128x1 .f32) (x11 : Vec F S128x1 .f32) (x12 : Vec F S1x1 .f32) (x13 : Vec F S1x1 .f32) (acc : Vec F S128x3 .f32) : Vec F S128x3 .f32 :=
  k0_pay1 (k0_pay9 x2 x3) (k0_pay15 x13) (k0_pay16 (k0_pay6 x0) (k0_pay7 x1) x10 x11) (k0_pay17 (k0_pay10 x2 x3)) (k0_pay18 x12) acc

theorem accH_First_eq (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i) (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32)  :
    accH_First c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13  = updH x0 x1 x2 x3 x4 x5 x6 x7 k0_pay4 := by
  unfold accH_First
  rw [View.read_writes_eq_canon _ _ _ (cover_accH_First c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 )]
  unfold stepFirst
  dsimp only
  sl_unfold_words
  rw [View.canon_cons_unit_zero (S := S128x128) hz, View.readCov_unit_zero (S := S128x128) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, harg19.read_unread, View.ld_unit_zero (S := S128x128) hz, View.ld_unit_zero (S := S128x3) hz, View.ld_unit_zero (S := S1x128) hz, View.ld_unit_zero (S := S128x1) hz, View.ld_unit_zero (S := S1x1) hz]

theorem accC_First_eq (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i) (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32)  :
    accC_First c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13  = updC x0 x1 x2 x3 x10 x11 x12 x13 k0_pay5 := by
  unfold accC_First
  rw [View.read_writes_eq_canon _ _ _ (cover_accC_First c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 )]
  unfold stepFirst
  dsimp only
  sl_unfold_words
  rw [View.canon_cons_unit_zero (S := S128x3) hz, View.readCov_unit_zero (S := S128x3) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, harg19.read_unread, View.ld_unit_zero (S := S128x128) hz, View.ld_unit_zero (S := S128x3) hz, View.ld_unit_zero (S := S1x128) hz, View.ld_unit_zero (S := S128x1) hz, View.ld_unit_zero (S := S1x1) hz]

theorem accH_Mid_eq (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i) (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) :
    accH_Mid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 = updH x0 x1 x2 x3 x4 x5 x6 x7 xs0 := by
  unfold accH_Mid
  rw [View.read_writes_eq_canon _ _ _ (cover_accH_Mid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1)]
  unfold stepMid
  dsimp only
  sl_unfold_words
  rw [View.canon_unit_zero (S := S128x128) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, harg19.read_unread, View.ld_unit_zero (S := S128x128) hz, View.ld_unit_zero (S := S128x3) hz, View.ld_unit_zero (S := S1x128) hz, View.ld_unit_zero (S := S128x1) hz, View.ld_unit_zero (S := S1x1) hz]

theorem accC_Mid_eq (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i) (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) :
    accC_Mid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 = updC x0 x1 x2 x3 x10 x11 x12 x13 xs1 := by
  unfold accC_Mid
  rw [View.read_writes_eq_canon _ _ _ (cover_accC_Mid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1)]
  unfold stepMid
  dsimp only
  sl_unfold_words
  rw [View.canon_unit_zero (S := S128x3) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, harg19.read_unread, View.ld_unit_zero (S := S128x128) hz, View.ld_unit_zero (S := S128x3) hz, View.ld_unit_zero (S := S1x128) hz, View.ld_unit_zero (S := S128x1) hz, View.ld_unit_zero (S := S1x1) hz]

theorem accH_Last_eq (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i) (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) :
    accH_Last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 = updH x0 x1 x2 x3 x4 x5 x6 x7 xs0 := by
  unfold accH_Last
  rw [View.read_writes_eq_canon _ _ _ (cover_accH_Last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1)]
  unfold stepLast
  dsimp only
  sl_unfold_words
  rw [View.canon_unit_zero (S := S128x128) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, harg19.read_unread, View.ld_unit_zero (S := S128x128) hz, View.ld_unit_zero (S := S128x3) hz, View.ld_unit_zero (S := S1x128) hz, View.ld_unit_zero (S := S128x1) hz, View.ld_unit_zero (S := S1x1) hz]

theorem accC_Last_eq (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i) (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) :
    accC_Last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 = updC x0 x1 x2 x3 x10 x11 x12 x13 xs1 := by
  unfold accC_Last
  rw [View.read_writes_eq_canon _ _ _ (cover_accC_Last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1)]
  unfold stepLast
  dsimp only
  sl_unfold_words
  rw [View.canon_unit_zero (S := S128x3) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, harg19.read_unread, View.ld_unit_zero (S := S128x128) hz, View.ld_unit_zero (S := S128x3) hz, View.ld_unit_zero (S := S1x128) hz, View.ld_unit_zero (S := S128x1) hz, View.ld_unit_zero (S := S1x1) hz]

theorem outH_Last_eq (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i) (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) :
    outH_Last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 = k0_pay2 (k0_pay6 x0) (updH x0 x1 x2 x3 x4 x5 x6 x7 xs0) x8 x9 := by
  unfold outH_Last
  rw [View.read_writes_eq_canon _ _ _ (cover_outH_Last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1)]
  unfold stepLast
  dsimp only
  sl_unfold_words
  rw [View.canon_unit_zero (S := S128x128) hz, View.readCov_unit_zero (S := S128x128) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, harg19.read_unread, View.ld_unit_zero (S := S128x128) hz, View.ld_unit_zero (S := S128x3) hz, View.ld_unit_zero (S := S1x128) hz, View.ld_unit_zero (S := S128x1) hz, View.ld_unit_zero (S := S1x1) hz]

theorem outC_Last_eq (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i) (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) :
    outC_Last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 = k0_pay3 (k0_pay8 x2) (updC x0 x1 x2 x3 x10 x11 x12 x13 xs1) := by
  unfold outC_Last
  rw [View.read_writes_eq_canon _ _ _ (cover_outC_Last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1)]
  unfold stepLast
  dsimp only
  sl_unfold_words
  rw [View.canon_unit_zero (S := S128x3) hz, View.readCov_unit_zero (S := S128x3) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, harg19.read_unread, View.ld_unit_zero (S := S128x128) hz, View.ld_unit_zero (S := S128x3) hz, View.ld_unit_zero (S := S1x128) hz, View.ld_unit_zero (S := S128x1) hz, View.ld_unit_zero (S := S1x1) hz]

end Cert.KernelIdeal.Gen.Layer0.Value

end
-- ==== Proof.LibLayout3.lean ====
/-
  Layout operations on arrays of rank two and three read at an index whose coordinates are written out: a shape cast
  that inserts a unit axis in the middle or at the end, a broadcast along any unit axes of a rank-three array, the index a
  one-axis reduction of a rank-three array sums over, a pointwise square root and logistic function, and the bit
  pattern of the number one.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib

open Idealize.ShloMosaic Idealize.ShloMosaic.ValueIdx

variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A broadcast of a rank-three array along its unit axes reads, at `(i, j, k)`, the operand at the index that has `0` on
    each unit axis and the same coordinate on every other. -/
theorem broadcastTo3_apply {a b c a' b' c' : ℕ} (v : (⟨3, ![a', b', c']⟩ : Shape).Idx → α)
    (h : (⟨3, ![a', b', c']⟩ : Shape).Broadcasts ⟨3, ![a, b, c]⟩) (i : Fin a) (j : Fin b) (k : Fin c)
    (i' : Fin a') (j' : Fin b') (k' : Fin c') (hi : i'.val = if a' = 1 then 0 else i.val)
    (hj : j'.val = if b' = 1 then 0 else j.val) (hk : k'.val = if c' = 1 then 0 else k.val) :
    broadcastTo ⟨3, ![a, b, c]⟩ v h (ix3 i j k) = v (ix3 i' j' k') := by
  refine broadcastTo_apply v h (ix3 i j k) (ix3 i' j' k') fun ax => ?_
  match ax with
  | ⟨0, _⟩ => exact hi
  | ⟨1, _⟩ => exact hj
  | ⟨2, _⟩ => exact hk

/-- A coordinate below `n` is `0` when `n = 1`. -/
theorem keep_val {n : ℕ} (i : Fin n) : i.val = if n = 1 then 0 else i.val := by
  split
  · have := i.isLt; omega
  · rfl

/-- `[a, 1, c]` broadcast to `[a, b, c]`. -/
theorem bcast_a1c_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) :=
  broadcastTo3_apply v h i j k i 0 k (keep_val i) rfl (keep_val k)

/-- `[1, b, c]` broadcast to `[a, b, c]`. -/
theorem bcast_1bc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) :=
  broadcastTo3_apply v h i j k 0 j k rfl (keep_val j) (keep_val k)

/-- `[a, b, 1]` broadcast to `[a, b, c]`. -/
theorem bcast_ab1_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) :=
  broadcastTo3_apply v h i j k i j 0 (keep_val i) (keep_val j) rfl

/-- `[1, 1, c]` broadcast to `[a, b, c]`. -/
theorem bcast_11c_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) :=
  broadcastTo3_apply v h i j k 0 0 k rfl rfl (keep_val k)

/-- Summing a rank-three array over its middle axis: the index over `(i, k)` with `j` on the summed axis is `(i, j, k)`. -/
theorem lift_axis1 {a b c : ℕ} (h : (⟨3, ![a, b, c]⟩ : Shape).Reduces [1] ⟨2, ![a, c]⟩) (i : Fin a) (k : Fin c) (j : Fin b) :
    h.lift (ix2 i k) j = ix3 i j k := by
  funext ax; apply Fin.ext
  match ax with
  | ⟨0, _⟩ => rfl
  | ⟨1, _⟩ => rfl
  | ⟨2, _⟩ => rfl

/-- Summing a rank-three array over its last axis: the index over `(i, j)` with `k` on the summed axis is `(i, j, k)`. -/
theorem lift_axis2 {a b c : ℕ} (h : (⟨3, ![a, b, c]⟩ : Shape).Reduces [2] ⟨2, ![a, b]⟩) (i : Fin a) (j : Fin b) (k : Fin c) :
    h.lift (ix2 i j) k = ix3 i j k := by
  funext ax; apply Fin.ext
  match ax with
  | ⟨0, _⟩ => rfl
  | ⟨1, _⟩ => rfl
  | ⟨2, _⟩ => rfl

/-- The sum over the middle axis, at the ideal values and from the zero word, at `(i, k)`. -/
theorem sum_axis1_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (i : Fin a) (k : Fin c) :
    multiReduction .add [1] ⟨2, ![a, c]⟩ src 0x00000000#32 h hφ hacc (ix2 i k) = ∑ j : Fin b, src (ix3 i j k) := by
  rw [Ideal.multiReduction_add_single]
  exact Finset.sum_congr rfl fun j _ => congrArg src (lift_axis1 h i k j)

/-- The sum over the last axis, at the ideal values and from the zero word, at `(i, j)`. -/
theorem sum_axis2_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (i : Fin a) (j : Fin b) :
    multiReduction .add [2] ⟨2, ![a, b]⟩ src 0x00000000#32 h hφ hacc (ix2 i j) = ∑ k : Fin c, src (ix3 i j k) := by
  rw [Ideal.multiReduction_add_single]
  exact Finset.sum_congr rfl fun k _ => congrArg src (lift_axis2 h i j k)

/-- A pointwise logistic function and square root at an index, at the ideal values. -/
theorem logistic_apply {s : Shape} (x : FVec Ideal s .f32) (i : s.Idx) : logistic x i = Ideal.logistic (x i) := rfl
theorem sqrt_apply {s : Shape} (x : FVec Ideal s .f32) (i : s.Idx) : sqrt x i = Ideal.sqrt (x i) := rfl

/-- The single-precision word of the number one is the extended real one. -/
theorem ofBits_one_f32 : Ideal.ofBits .f32 0x3F800000#32 = 1 := by
  simp [Ideal.ofBits, Ideal.ieee]
  rw [← EReal.coe_mul, ← EReal.coe_one]
  exact congrArg _ (by norm_num)

end Cert.Lib

end
-- ==== Proof.LibMatmulAt.lean ====
/-
  A matrix product accumulated into the zero block, at the ideal values, read at one entry: for an m×k matrix times a
  k×n matrix (the left operand contracted along its columns, the right along its rows, no batch axis) the entry at
  row `a`, column `b` is the sum over the contracted coordinate `c` of `A (a, c) * B (c, b)`.
-/
import Idealize.ShloMosaic.Lib.ValueIdx
import Idealize.ShloMosaic.PureOps.Ideal.Laws

noncomputable section

open scoped BigOperators

namespace Cert.Lib

open Idealize.ShloMosaic Idealize.ShloMosaic.ValueIdx

/-- The product of an m×k by a k×n matrix into the zero block, read at entry (a, b). -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B (constant (F := Ideal) _ .f32 0x00000000#32) (ix2 a b)
      = ∑ c : Fin k, A (ix2 a c) * B (ix2 c b) := by
  show FloatOps.matmul _ prec A B (constant (F := Ideal) _ .f32 0x00000000#32) (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.Lib

end
-- ==== Proof.IdealLayer0ValuePay.lean ====
/-
  The arithmetic of layer 1's kernel body read at an index, at the ideal values: when the tiles a step is given are rows
  I(·) and J(·) of the node features and coordinates and the weights themselves, each stored value is the specification's
  formula at those rows — the coordinate differences, the clamped distance, the message and coordinate-weight sums over the
  tile's sending rows added to the accumulators, and at the last step the scaled sums through the second linear map added to
  the residual.
-/
import proofs.«110946_j38972533244288_1_alg».proof.Proof.Gen.KernelIdeal.Skeleton
import proofs.«110946_j38972533244288_1_alg».proof.Proof.LayerSpec
import proofs.«110946_j38972533244288_1_alg».proof.Proof.LibLayout3
import proofs.«110946_j38972533244288_1_alg».proof.Proof.LibMatmulAt

set_option maxRecDepth 16384

noncomputable section

open scoped BigOperators

namespace Cert.KernelIdeal.Gen.Layer0.Value

open Idealize.ShloMosaic Idealize.ShloMosaic.ValueIdx
open Cert.KernelIdeal Cert.KernelIdeal.Gen Cert.Lib

/-- The sum over the middle axis of a rank-three array, from the zero word, at `(i, k)`. -/
theorem sumAxis1_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = 0x00000000#32) (i : Fin a) (k : Fin c) :
    multiReduction .add [1] ⟨2, ![a, c]⟩ src 0x00000000#32 h hφ hacc (ix2 i k) = ∑ j : Fin b, src (ix3 i j k) :=
  (Ideal.multiReduction_add_single src 0x00000000#32 h hφ hacc (ix2 i k)).trans
    (Finset.sum_congr rfl fun j _ => congrArg src (lift_axis1 h i k j))

/-- The sum over the last axis of a rank-three array, from the zero word, at `(i, j)`. -/
theorem sumAxis2_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ k : Fin c, src (ix3 i j k) :=
  (Ideal.multiReduction_add_single src 0x00000000#32 h hφ hacc (ix2 i j)).trans
    (Finset.sum_congr rfl fun k _ => congrArg src (lift_axis2 h i j k))

/-- The product of two 128×128 tiles into the zero block, at an entry. -/
theorem mm_apply (A B : FVec Ideal S128x128 .f32) (a d : Fin 128) :
    matmul dot_S128x128_S128x128_S128x128_1_0_0_1_n_n none A B (constant S128x128 .f32 0x00000000#32) (ix2 a d)
      = ∑ k : Fin 128, A (ix2 a k) * B (ix2 k d) :=
  matmul_plain_zero_apply _ none A B a d

/-- The product of a 128×128 tile and a 128×1 column into the zero column, at an entry. -/
theorem mv_apply (A : FVec Ideal S128x128 .f32) (B : FVec Ideal S128x1 .f32) (a : Fin 128) (u : Fin 1) :
    matmul dot_S128x128_S128x1_S128x1_1_0_0_1_n_n none A B (constant S128x1 .f32 0x00000000#32) (ix2 a u)
      = ∑ k : Fin 128, A (ix2 a k) * B (ix2 k u) :=
  matmul_plain_zero_apply _ none A B a u

/-- The kernel's named reciprocal is the rational 1/768. -/
theorem inv_768 : Named.named (F := Ideal) Cert.KernelIdeal.κ "inv_768" (φ := .f32) 0x3AAAAAAB#32 = ((1 / 768 : ℝ) : EReal) :=
  IdealRules.named_const.ideal_named_scalar _ _ _ _ rfl

/-- The zero blocks the first step stores. -/
theorem pay4_apply (a d : Fin 128) : k0_pay4 (F := Ideal) (ix2 a d) = 0 := by
  unfold k0_pay4
  try dsimp only
  rw [shapeCast_self, broadcast_apply]
  exact Ideal.ofBits_zero_f32
theorem pay5_apply (a : Fin 128) (k : Fin 3) : k0_pay5 (F := Ideal) (ix2 a k) = 0 := by
  unfold k0_pay5
  try dsimp only
  rw [shapeCast_self, broadcast_apply]
  exact Ideal.ofBits_zero_f32

/-- The coordinate differences between the receiving tile's rows and the sending tile's. -/
theorem pay9_apply (cc : Fin 768 → Fin 3 → EReal) (I J : Fin 128 → Fin 768) (x2 : Vec Ideal S128x3 .f32) (x3 : Vec Ideal S128x3 .f32) (h2 : ∀ a k, x2 (ix2 a k) = cc (I a) k) (h3 : ∀ b k, x3 (ix2 b k) = cc (J b) k) (a b : Fin 128) (k : Fin 3) :
    k0_pay9 x2 x3 (ix3 a b k) = Cert.Spec.rel cc (I a) (J b) k := by
  unfold k0_pay9 k0_pay8
  try dsimp only
  rw [subf_apply, bcast_a1c_apply, bcast_1bc_apply, shapeCast_ab_a1b_apply, shapeCast_ab_1ab_apply, shapeCast_self, shapeCast_self, h2, h3]
  rfl

/-- The clamped distance. -/
theorem pay10_apply (cc : Fin 768 → Fin 3 → EReal) (I J : Fin 128 → Fin 768) (x2 : Vec Ideal S128x3 .f32) (x3 : Vec Ideal S128x3 .f32) (h2 : ∀ a k, x2 (ix2 a k) = cc (I a) k) (h3 : ∀ b k, x3 (ix2 b k) = cc (J b) k) (a b : Fin 128) :
    k0_pay10 x2 x3 (ix2 a b) = Cert.Spec.dist cc (I a) (J b) := by
  have hS : multiReduction .add [2] S128x128 (mulf (k0_pay9 x2 x3) (k0_pay9 x2 x3)) 0x00000000#32 reduces_S128x128x3_S128x128 (.inl rfl) rfl (ix2 a b)
      = Cert.Spec.sq cc (I a) (J b) := by
    rw [sumAxis2_apply]
    exact Finset.sum_congr rfl fun k _ => by rw [mulf_apply, pay9_apply cc I J x2 x3 h2 h3]
  unfold k0_pay10
  try dsimp only
  simp only [select_apply, sqrt_apply, cmpf_apply, broadcast_apply, hS, Ideal.cmpf_def, Ideal.ofBits_def, Ideal.ofBits_zero_f32, ofBits_one_f32]
  rfl

/-- The feature accumulator's update: the sum over the tile's sending rows of the messages. -/
theorem pay14_apply (h : Fin 768 → Fin 128 → EReal) (cc : Fin 768 → Fin 3 → EReal) (w1a w1b : Fin 128 → Fin 128 → EReal) (w1c b1 : Fin 128 → EReal) (I J : Fin 128 → Fin 768) (x0 : Vec Ideal S128x128 .f32) (x1 : Vec Ideal S128x128 .f32) (x2 : Vec Ideal S128x3 .f32) (x3 : Vec Ideal S128x3 .f32) (x4 : Vec Ideal S128x128 .f32) (x5 : Vec Ideal S128x128 .f32) (x6 : Vec Ideal S1x128 .f32) (x7 : Vec Ideal S1x128 .f32) (acc : Vec Ideal S128x128 .f32)
    (h0 : ∀ a k, x0 (ix2 a k) = h (I a) k) (h1 : ∀ b k, x1 (ix2 b k) = h (J b) k) (h2 : ∀ a k, x2 (ix2 a k) = cc (I a) k) (h3 : ∀ b k, x3 (ix2 b k) = cc (J b) k) (h4 : ∀ k d, x4 (ix2 k d) = w1a k d) (h5 : ∀ k d, x5 (ix2 k d) = w1b k d) (h6 : ∀ d, x6 (ix2 (0 : Fin 1) d) = w1c d) (h7 : ∀ d, x7 (ix2 (0 : Fin 1) d) = b1 d) (a d : Fin 128) :
    k0_pay14 (k0_pay6 x0) (k0_pay7 x1) (k0_pay10 x2 x3) (k0_pay11 x4) (k0_pay12 x5) (k0_pay13 x6) x7 acc (ix2 a d)
      = acc (ix2 a d) + ∑ b : Fin 128, Cert.Spec.silu (Cert.Spec.pre h cc w1a w1b w1c b1 (I a) (J b) d) := by
  unfold k0_pay14
  try dsimp only
  rw [shapeCast_self, addf_apply, sumAxis1_apply]
  refine congrArg (acc (ix2 a d) + ·) (Finset.sum_congr rfl fun b _ => ?_)
  simp only [mulf_apply, addf_apply, logistic_apply, bcast_a1c_apply, bcast_1bc_apply, bcast_ab1_apply, bcast_11c_apply,
    shapeCast_ab_a1b_apply, shapeCast_ab_1ab_apply, shapeCast_ab_ab1_apply, shapeCast_self, mm_apply,
    pay10_apply cc I J x2 x3 h2 h3, k0_pay6, k0_pay7, k0_pay11, k0_pay12, k0_pay13, h0, h1, h4, h5, h6, h7]
  rfl

/-- The coordinate accumulator's update: the sum over the tile's sending rows of the weighted coordinate differences. -/
theorem pay1_apply (h : Fin 768 → Fin 128 → EReal) (cc : Fin 768 → Fin 3 → EReal) (wca wcb : Fin 128 → EReal) (wcc bc : EReal) (I J : Fin 128 → Fin 768) (x0 : Vec Ideal S128x128 .f32) (x1 : Vec Ideal S128x128 .f32) (x2 : Vec Ideal S128x3 .f32) (x3 : Vec Ideal S128x3 .f32) (x10 : Vec Ideal S128x1 .f32) (x11 : Vec Ideal S128x1 .f32) (x12 : Vec Ideal S1x1 .f32) (x13 : Vec Ideal S1x1 .f32) (acc : Vec Ideal S128x3 .f32)
    (h0 : ∀ a k, x0 (ix2 a k) = h (I a) k) (h1 : ∀ b k, x1 (ix2 b k) = h (J b) k) (h2 : ∀ a k, x2 (ix2 a k) = cc (I a) k) (h3 : ∀ b k, x3 (ix2 b k) = cc (J b) k) (h10 : ∀ k, x10 (ix2 k (0 : Fin 1)) = wca k) (h11 : ∀ k, x11 (ix2 k (0 : Fin 1)) = wcb k) (h12 : x12 (ix2 (0 : Fin 1) (0 : Fin 1)) = wcc) (h13 : x13 (ix2 (0 : Fin 1) (0 : Fin 1)) = bc) (a : Fin 128) (k : Fin 3) :
    k0_pay1 (k0_pay9 x2 x3) (k0_pay15 x13) (k0_pay16 (k0_pay6 x0) (k0_pay7 x1) x10 x11) (k0_pay17 (k0_pay10 x2 x3)) (k0_pay18 x12) acc (ix2 a k)
      = acc (ix2 a k) + ∑ b : Fin 128, Cert.Spec.silu (Cert.Spec.wpre h cc wca wcb wcc bc (I a) (J b)) * Cert.Spec.rel cc (I a) (J b) k := by
  unfold k0_pay1
  try dsimp only
  rw [shapeCast_self, addf_apply, sumAxis1_apply]
  refine congrArg (acc (ix2 a k) + ·) (Finset.sum_congr rfl fun b _ => ?_)
  simp only [mulf_apply, addf_apply, logistic_apply, bcast_a1c_apply, bcast_1bc_apply, bcast_ab1_apply, bcast_11c_apply,
    shapeCast_ab_a1b_apply, shapeCast_ab_1ab_apply, shapeCast_ab_ab1_apply, shapeCast_self, mv_apply,
    pay10_apply cc I J x2 x3 h2 h3, pay9_apply cc I J x2 x3 h2 h3, k0_pay6, k0_pay7, k0_pay15, k0_pay16, k0_pay17, k0_pay18, h0, h1, h10, h11, h12, h13]
  rfl

/-- The new features of the receiving tile: the residual plus the second linear map of the scaled message sums. -/
theorem pay2_apply (h : Fin 768 → Fin 128 → EReal) (w2 : Fin 128 → Fin 128 → EReal) (b2 : Fin 128 → EReal) (I : Fin 128 → Fin 768) (x0 : Vec Ideal S128x128 .f32) (x8 : Vec Ideal S128x128 .f32) (x9 : Vec Ideal S1x128 .f32) (acc : Vec Ideal S128x128 .f32) (h0 : ∀ a k, x0 (ix2 a k) = h (I a) k) (h8 : ∀ k d, x8 (ix2 k d) = w2 k d) (h9 : ∀ d, x9 (ix2 (0 : Fin 1) d) = b2 d) (a d : Fin 128) :
    k0_pay2 (k0_pay6 x0) acc x8 x9 (ix2 a d)
      = h (I a) d + ((∑ k : Fin 128, (acc (ix2 a k) * ((1 / 768 : ℝ) : EReal)) * w2 k d) + b2 d) := by
  unfold k0_pay2
  try dsimp only
  simp only [addf_apply, mm_apply, mulf_apply, broadcast_apply, broadcastTo_1b_ab_apply, shapeCast_self, k0_pay6, inv_768, h0, h8, h9]

/-- The new coordinates of the receiving tile: the residual plus the scaled weighted sums. -/
theorem pay3_apply (cc : Fin 768 → Fin 3 → EReal) (I : Fin 128 → Fin 768) (x2 : Vec Ideal S128x3 .f32) (acc : Vec Ideal S128x3 .f32) (h2 : ∀ a k, x2 (ix2 a k) = cc (I a) k) (a : Fin 128) (k : Fin 3) :
    k0_pay3 (k0_pay8 x2) acc (ix2 a k) = cc (I a) k + acc (ix2 a k) * ((1 / 768 : ℝ) : EReal) := by
  unfold k0_pay3
  try dsimp only
  simp only [addf_apply, mulf_apply, broadcast_apply, shapeCast_self, k0_pay8, inv_768, h2]

end Cert.KernelIdeal.Gen.Layer0.Value

end
-- ==== Proof.IdealLayer0ValueBlocks.lean ====
/-
  Layer 1's kernel windows read off the arrays at the region's entry: the tile a window stages at a grid point, index by
  index (a row tile of the features or coordinates at the point's quotient or remainder by 6; a weight whole), and the rows
  of the two result arrays the point's output blocks hold.
-/
import proofs.«110946_j38972533244288_1_alg».proof.Proof.IdealLayer0Data
import Idealize.ShloMosaic.Lib.Pipeline.Value
import Idealize.ShloMosaic.Lib.ValueIdx

set_option maxRecDepth 16384

noncomputable section

open scoped BigOperators

namespace Cert.KernelIdeal.Gen.Layer0.Value

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen Cert.KernelIdeal.Gen.Layer0

/-- Row `a` of row tile `q` among the 768 rows. -/
def tileRow (q : ℕ) (a : Fin 128) : Fin 768 := ⟨(q * 128 + a.val) % 768, Nat.mod_lt _ (by decide)⟩

theorem tileRow_val (q : ℕ) (hq : q < 6) (a : Fin 128) : (tileRow q a).val = q * 128 + a.val := by
  have := a.isLt
  show (q * 128 + a.val) % 768 = _
  omega

/-! ## The block indices of the windows, decided over the grid -/

theorem idx_0 : ∀ t : Fin cfg0.N, win0_0.index t (0 : Fin 2) = t.val / 6 ∧ win0_0.index t (1 : Fin 2) = 0 :=
  (by decide +kernel : ∀ t : Fin grid0.N, win0_0.index t (0 : Fin 2) = t.val / 6 ∧ win0_0.index t (1 : Fin 2) = 0)
theorem idx_1 : ∀ t : Fin cfg0.N, win0_1.index t (0 : Fin 2) = t.val % 6 ∧ win0_1.index t (1 : Fin 2) = 0 :=
  (by decide +kernel : ∀ t : Fin grid0.N, win0_1.index t (0 : Fin 2) = t.val % 6 ∧ win0_1.index t (1 : Fin 2) = 0)
theorem idx_2 : ∀ t : Fin cfg0.N, win0_2.index t (0 : Fin 2) = t.val / 6 ∧ win0_2.index t (1 : Fin 2) = 0 :=
  (by decide +kernel : ∀ t : Fin grid0.N, win0_2.index t (0 : Fin 2) = t.val / 6 ∧ win0_2.index t (1 : Fin 2) = 0)
theorem idx_3 : ∀ t : Fin cfg0.N, win0_3.index t (0 : Fin 2) = t.val % 6 ∧ win0_3.index t (1 : Fin 2) = 0 :=
  (by decide +kernel : ∀ t : Fin grid0.N, win0_3.index t (0 : Fin 2) = t.val % 6 ∧ win0_3.index t (1 : Fin 2) = 0)
theorem idx_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx_8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx_9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx_10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx_11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem idx_12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)
theorem idx_13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)
theorem idx_14 : ∀ t : Fin cfg0.N, win0_14.index t (0 : Fin 2) = t.val / 6 ∧ win0_14.index t (1 : Fin 2) = 0 :=
  (by decide +kernel : ∀ t : Fin grid0.N, win0_14.index t (0 : Fin 2) = t.val / 6 ∧ win0_14.index t (1 : Fin 2) = 0)
theorem idx_15 : ∀ t : Fin cfg0.N, win0_15.index t (0 : Fin 2) = t.val / 6 ∧ win0_15.index t (1 : Fin 2) = 0 :=
  (by decide +kernel : ∀ t : Fin grid0.N, win0_15.index t (0 : Fin 2) = t.val / 6 ∧ win0_15.index t (1 : Fin 2) = 0)

section Blocks
variable {F : FTy → Type} [FloatOps F] [Named F]
variable (V : (c : Dev nD) → (b : Ref sig .tc) → Buf (Elt F) ((c : Thread nD τ).loc b))

/-! ## Each input's tile at a point, index by index -/

theorem iblk0_apply (c : Dev nD) (t : Fin cfg0.N) (a : Fin 128) (k : Fin 128) :
    (iblk V c 0 t : Vec F S128x128 .f32) (ix2 a k) = V c main_v6 (ix2 (tileRow (t.val / 6) a) k) := by
  have hN : t.val < 36 := lt_of_lt_of_eq t.isLt (show cfg0.N = 36 from N_0)
  unfold iblk
  rw [View.read_apply]
  show V c main_v6 _ = V c main_v6 _
  congr 1
  funext ax
  apply Fin.ext
  match ax with
  | ⟨0, _⟩ => show win0_0.index t (0 : Fin 2) * 128 + 1 * a.val = ((t.val / 6) * 128 + a.val) % 768; rw [(idx_0 t).1]; omega
  | ⟨1, _⟩ => show win0_0.index t (1 : Fin 2) * 128 + 1 * k.val = k.val; rw [(idx_0 t).2]; omega

theorem iblk1_apply (c : Dev nD) (t : Fin cfg0.N) (a : Fin 128) (k : Fin 128) :
    (iblk V c 1 t : Vec F S128x128 .f32) (ix2 a k) = V c main_v6 (ix2 (tileRow (t.val % 6) a) k) := by
  have hN : t.val < 36 := lt_of_lt_of_eq t.isLt (show cfg0.N = 36 from N_0)
  unfold iblk
  rw [View.read_apply]
  show V c main_v6 _ = V c main_v6 _
  congr 1
  funext ax
  apply Fin.ext
  match ax with
  | ⟨0, _⟩ => show win0_1.index t (0 : Fin 2) * 128 + 1 * a.val = ((t.val % 6) * 128 + a.val) % 768; rw [(idx_1 t).1]; omega
  | ⟨1, _⟩ => show win0_1.index t (1 : Fin 2) * 128 + 1 * k.val = k.val; rw [(idx_1 t).2]; omega

theorem iblk2_apply (c : Dev nD) (t : Fin cfg0.N) (a : Fin 128) (k : Fin 3) :
    (iblk V c 2 t : Vec F S128x3 .f32) (ix2 a k) = V c main_v13 (ix2 (tileRow (t.val / 6) a) k) := by
  have hN : t.val < 36 := lt_of_lt_of_eq t.isLt (show cfg0.N = 36 from N_0)
  unfold iblk
  rw [View.read_apply]
  show V c main_v13 _ = V c main_v13 _
  congr 1
  funext ax
  apply Fin.ext
  match ax with
  | ⟨0, _⟩ => show win0_2.index t (0 : Fin 2) * 128 + 1 * a.val = ((t.val / 6) * 128 + a.val) % 768; rw [(idx_2 t).1]; omega
  | ⟨1, _⟩ => show win0_2.index t (1 : Fin 2) * 3 + 1 * k.val = k.val; rw [(idx_2 t).2]; omega

theorem iblk3_apply (c : Dev nD) (t : Fin cfg0.N) (a : Fin 128) (k : Fin 3) :
    (iblk V c 3 t : Vec F S128x3 .f32) (ix2 a k) = V c main_v13 (ix2 (tileRow (t.val % 6) a) k) := by
  have hN : t.val < 36 := lt_of_lt_of_eq t.isLt (show cfg0.N = 36 from N_0)
  unfold iblk
  rw [View.read_apply]
  show V c main_v13 _ = V c main_v13 _
  congr 1
  funext ax
  apply Fin.ext
  match ax with
  | ⟨0, _⟩ => show win0_3.index t (0 : Fin 2) * 128 + 1 * a.val = ((t.val % 6) * 128 + a.val) % 768; rw [(idx_3 t).1]; omega
  | ⟨1, _⟩ => show win0_3.index t (1 : Fin 2) * 3 + 1 * k.val = k.val; rw [(idx_3 t).2]; omega

theorem iblk4_apply (c : Dev nD) (t : Fin cfg0.N) (a : Fin 128) (k : Fin 128) :
    (iblk V c 4 t : Vec F S128x128 .f32) (ix2 a k) = V c main_v15 (ix2 a k) := by
  have hN : t.val < 36 := lt_of_lt_of_eq t.isLt (show cfg0.N = 36 from N_0)
  unfold iblk
  rw [View.read_apply]
  show V c main_v15 _ = V c main_v15 _
  congr 1
  funext ax
  apply Fin.ext
  match ax with
  | ⟨0, _⟩ => show win0_4.index t (0 : Fin 2) * 128 + 1 * a.val = a.val; rw [(idx_4 t).1]; omega
  | ⟨1, _⟩ => show win0_4.index t (1 : Fin 2) * 128 + 1 * k.val = k.val; rw [(idx_4 t).2]; omega

theorem iblk5_apply (c : Dev nD) (t : Fin cfg0.N) (a : Fin 128) (k : Fin 128) :
    (iblk V c 5 t : Vec F S128x128 .f32) (ix2 a k) = V c main_v17 (ix2 a k) := by
  have hN : t.val < 36 := lt_of_lt_of_eq t.isLt (show cfg0.N = 36 from N_0)
  unfold iblk
  rw [View.read_apply]
  show V c main_v17 _ = V c main_v17 _
  congr 1
  funext ax
  apply Fin.ext
  match ax with
  | ⟨0, _⟩ => show win0_5.index t (0 : Fin 2) * 128 + 1 * a.val = a.val; rw [(idx_5 t).1]; omega
  | ⟨1, _⟩ => show win0_5.index t (1 : Fin 2) * 128 + 1 * k.val = k.val; rw [(idx_5 t).2]; omega

theorem iblk6_apply (c : Dev nD) (t : Fin cfg0.N) (a : Fin 1) (k : Fin 128) :
    (iblk V c 6 t : Vec F S1x128 .f32) (ix2 a k) = V c main_v19 (ix2 a k) := by
  have hN : t.val < 36 := lt_of_lt_of_eq t.isLt (show cfg0.N = 36 from N_0)
  unfold iblk
  rw [View.read_apply]
  show V c main_v19 _ = V c main_v19 _
  congr 1
  funext ax
  apply Fin.ext
  match ax with
  | ⟨0, _⟩ => show win0_6.index t (0 : Fin 2) * 1 + 1 * a.val = a.val; rw [(idx_6 t).1]; omega
  | ⟨1, _⟩ => show win0_6.index t (1 : Fin 2) * 128 + 1 * k.val = k.val; rw [(idx_6 t).2]; omega

theorem iblk7_apply (c : Dev nD) (t : Fin cfg0.N) (a : Fin 1) (k : Fin 128) :
    (iblk V c 7 t : Vec F S1x128 .f32) (ix2 a k) = V c main_v20 (ix2 a k) := by
  have hN : t.val < 36 := lt_of_lt_of_eq t.isLt (show cfg0.N = 36 from N_0)
  unfold iblk
  rw [View.read_apply]
  show V c main_v20 _ = V c main_v20 _
  congr 1
  funext ax
  apply Fin.ext
  match ax with
  | ⟨0, _⟩ => show win0_7.index t (0 : Fin 2) * 1 + 1 * a.val = a.val; rw [(idx_7 t).1]; omega
  | ⟨1, _⟩ => show win0_7.index t (1 : Fin 2) * 128 + 1 * k.val = k.val; rw [(idx_7 t).2]; omega

theorem iblk8_apply (c : Dev nD) (t : Fin cfg0.N) (a : Fin 128) (k : Fin 128) :
    (iblk V c 8 t : Vec F S128x128 .f32) (ix2 a k) = V c main_v22 (ix2 a k) := by
  have hN : t.val < 36 := lt_of_lt_of_eq t.isLt (show cfg0.N = 36 from N_0)
  unfold iblk
  rw [View.read_apply]
  show V c main_v22 _ = V c main_v22 _
  congr 1
  funext ax
  apply Fin.ext
  match ax with
  | ⟨0, _⟩ => show win0_8.index t (0 : Fin 2) * 128 + 1 * a.val = a.val; rw [(idx_8 t).1]; omega
  | ⟨1, _⟩ => show win0_8.index t (1 : Fin 2) * 128 + 1 * k.val = k.val; rw [(idx_8 t).2]; omega

theorem iblk9_apply (c : Dev nD) (t : Fin cfg0.N) (a : Fin 1) (k : Fin 128) :
    (iblk V c 9 t : Vec F S1x128 .f32) (ix2 a k) = V c main_v23 (ix2 a k) := by
  have hN : t.val < 36 := lt_of_lt_of_eq t.isLt (show cfg0.N = 36 from N_0)
  unfold iblk
  rw [View.read_apply]
  show V c main_v23 _ = V c main_v23 _
  congr 1
  funext ax
  apply Fin.ext
  match ax with
  | ⟨0, _⟩ => show win0_9.index t (0 : Fin 2) * 1 + 1 * a.val = a.val; rw [(idx_9 t).1]; omega
  | ⟨1, _⟩ => show win0_9.index t (1 : Fin 2) * 128 + 1 * k.val = k.val; rw [(idx_9 t).2]; omega

theorem iblk10_apply (c : Dev nD) (t : Fin cfg0.N) (a : Fin 128) (k : Fin 1) :
    (iblk V c 10 t : Vec F S128x1 .f32) (ix2 a k) = V c main_v25 (ix2 a k) := by
  have hN : t.val < 36 := lt_of_lt_of_eq t.isLt (show cfg0.N = 36 from N_0)
  unfold iblk
  rw [View.read_apply]
  show V c main_v25 _ = V c main_v25 _
  congr 1
  funext ax
  apply Fin.ext
  match ax with
  | ⟨0, _⟩ => show win0_10.index t (0 : Fin 2) * 128 + 1 * a.val = a.val; rw [(idx_10 t).1]; omega
  | ⟨1, _⟩ => show win0_10.index t (1 : Fin 2) * 1 + 1 * k.val = k.val; rw [(idx_10 t).2]; omega

theorem iblk11_apply (c : Dev nD) (t : Fin cfg0.N) (a : Fin 128) (k : Fin 1) :
    (iblk V c 11 t : Vec F S128x1 .f32) (ix2 a k) = V c main_v27 (ix2 a k) := by
  have hN : t.val < 36 := lt_of_lt_of_eq t.isLt (show cfg0.N = 36 from N_0)
  unfold iblk
  rw [View.read_apply]
  show V c main_v27 _ = V c main_v27 _
  congr 1
  funext ax
  apply Fin.ext
  match ax with
  | ⟨0, _⟩ => show win0_11.index t (0 : Fin 2) * 128 + 1 * a.val = a.val; rw [(idx_11 t).1]; omega
  | ⟨1, _⟩ => show win0_11.index t (1 : Fin 2) * 1 + 1 * k.val = k.val; rw [(idx_11 t).2]; omega

theorem iblk12_apply (c : Dev nD) (t : Fin cfg0.N) (a : Fin 1) (k : Fin 1) :
    (iblk V c 12 t : Vec F S1x1 .f32) (ix2 a k) = V c main_v29 (ix2 a k) := by
  have hN : t.val < 36 := lt_of_lt_of_eq t.isLt (show cfg0.N = 36 from N_0)
  unfold iblk
  rw [View.read_apply]
  show V c main_v29 _ = V c main_v29 _
  congr 1
  funext ax
  apply Fin.ext
  match ax with
  | ⟨0, _⟩ => show win0_12.index t (0 : Fin 2) * 1 + 1 * a.val = a.val; rw [(idx_12 t).1]; omega
  | ⟨1, _⟩ => show win0_12.index t (1 : Fin 2) * 1 + 1 * k.val = k.val; rw [(idx_12 t).2]; omega

theorem iblk13_apply (c : Dev nD) (t : Fin cfg0.N) (a : Fin 1) (k : Fin 1) :
    (iblk V c 13 t : Vec F S1x1 .f32) (ix2 a k) = V c main_v30 (ix2 a k) := by
  have hN : t.val < 36 := lt_of_lt_of_eq t.isLt (show cfg0.N = 36 from N_0)
  unfold iblk
  rw [View.read_apply]
  show V c main_v30 _ = V c main_v30 _
  congr 1
  funext ax
  apply Fin.ext
  match ax with
  | ⟨0, _⟩ => show win0_13.index t (0 : Fin 2) * 1 + 1 * a.val = a.val; rw [(idx_13 t).1]; omega
  | ⟨1, _⟩ => show win0_13.index t (1 : Fin 2) * 1 + 1 * k.val = k.val; rw [(idx_13 t).2]; omega

end Blocks

end Cert.KernelIdeal.Gen.Layer0.Value

end
-- ==== Proof.LibBlockSum.lean ====
/-
  A sum over `K = kt * n` consecutive positions, cut into `kt` blocks of `n` positions each, is the sum over the
  blocks of the sums inside each block: position `k * n + i` is position `i` of block `k`. Stated for any
  commutative additive monoid (the extended reals among them: no finiteness is asked).
-/
import Mathlib.Algebra.BigOperators.Fin
import Mathlib.Logic.Equiv.Fin.Basic

open scoped BigOperators

namespace Cert.Lib

/-- Position `i` of block `k` is below `kt * n`. -/
theorem blockPos_lt {kt n K : ℕ} (h : kt * n = K) (k : Fin kt) (i : Fin n) : k.val * n + i.val < K := by
  have hk := k.isLt
  have hi := i.isLt
  calc k.val * n + i.val < k.val * n + n := by omega
    _ = (k.val + 1) * n := by rw [Nat.succ_mul]
    _ ≤ kt * n := Nat.mul_le_mul_right _ hk
    _ = K := h

/-- The sum over all `K = kt * n` positions is the sum over the `kt` blocks of the sums over each block's `n` positions. -/
theorem sum_blocks {M : Type*} [AddCommMonoid M] {kt n K : ℕ} (h : kt * n = K) (f : Fin K → M) :
    ∑ c : Fin K, f c = ∑ k : Fin kt, ∑ i : Fin n, f ⟨k.val * n + i.val, blockPos_lt h k i⟩ := by
  subst h
  rw [← Equiv.sum_comp finProdFinEquiv f, Fintype.sum_prod_type]
  refine Finset.sum_congr rfl fun k _ => Finset.sum_congr rfl fun i _ => ?_
  refine congrArg f (Fin.ext ?_)
  show i.val + n * k.val = k.val * n + i.val
  rw [Nat.mul_comm, Nat.add_comm]

end Cert.Lib
-- ==== Proof.IdealLayer0Value.lean ====
/-
  What layer 1's kernel region leaves in its two result arrays, at the ideal values: the accumulators after the grid point
  with quotient q and remainder j by 6 hold, for the rows of row tile q, the sums over the sending rows of row tiles 0 … j
  of the messages and of the weighted coordinate differences (by induction on j: zeroed and filled at j = 0, added to
  after); at j = 5 these are the sums over all 768 rows, the step's two output blocks are the layer's new features and
  coordinates of the rows of tile q, and those blocks, written back there, fill the two arrays.
-/
import proofs.«110946_j38972533244288_1_alg».proof.Proof.IdealLayer0ValuePieces
import proofs.«110946_j38972533244288_1_alg».proof.Proof.IdealLayer0ValuePay
import proofs.«110946_j38972533244288_1_alg».proof.Proof.IdealLayer0ValueBlocks
import proofs.«110946_j38972533244288_1_alg».proof.Proof.LibBlockSum

set_option maxRecDepth 16384

noncomputable section

open scoped BigOperators

namespace Cert.KernelIdeal.Gen.Layer0.Value

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen Cert.KernelIdeal.Gen.Layer0

open Cert.Lib

variable (V : (c : Dev nD) → (b : Ref sig .tc) → Buf (Elt Ideal) ((c : Thread nD τ).loc b))

/-! ## The arrays at the region's entry, as the specification's arguments -/

abbrev Hf (c : Dev nD) : Fin 768 → Fin 128 → EReal := fun i k => V c main_v6 (ix2 i k)
abbrev Cf (c : Dev nD) : Fin 768 → Fin 3 → EReal := fun i k => V c main_v13 (ix2 i k)
abbrev W1a (c : Dev nD) : Fin 128 → Fin 128 → EReal := fun k d => V c main_v15 (ix2 k d)
abbrev W1b (c : Dev nD) : Fin 128 → Fin 128 → EReal := fun k d => V c main_v17 (ix2 k d)
abbrev W1c (c : Dev nD) : Fin 128 → EReal := fun d => V c main_v19 (ix2 0 d)
abbrev B1 (c : Dev nD) : Fin 128 → EReal := fun d => V c main_v20 (ix2 0 d)
abbrev W2 (c : Dev nD) : Fin 128 → Fin 128 → EReal := fun k d => V c main_v22 (ix2 k d)
abbrev B2 (c : Dev nD) : Fin 128 → EReal := fun d => V c main_v23 (ix2 0 d)
abbrev Wca (c : Dev nD) : Fin 128 → EReal := fun k => V c main_v25 (ix2 k 0)
abbrev Wcb (c : Dev nD) : Fin 128 → EReal := fun k => V c main_v27 (ix2 k 0)
abbrev Wcc (c : Dev nD) : EReal := V c main_v29 (ix2 0 0)
abbrev Bc (c : Dev nD) : EReal := V c main_v30 (ix2 0 0)

/-- The message from node j to node i, and the weighted coordinate difference. -/
abbrev msgRow (c : Dev nD) (i j : Fin 768) (d : Fin 128) : EReal := Cert.Spec.silu (Cert.Spec.pre (Hf V c) (Cf V c) (W1a V c) (W1b V c) (W1c V c) (B1 V c) i j d)
abbrev cwRow (c : Dev nD) (i j : Fin 768) (k : Fin 3) : EReal :=
  Cert.Spec.silu (Cert.Spec.wpre (Hf V c) (Cf V c) (Wca V c) (Wcb V c) (Wcc V c) (Bc V c) i j) * Cert.Spec.rel (Cf V c) i j k
/-- Their sums over the rows of sending row tile s, for row a of receiving row tile q. -/
def msgTile (c : Dev nD) (q s : ℕ) (a d : Fin 128) : EReal := ∑ b : Fin 128, msgRow V c (tileRow q a) (tileRow s b) d
def cwTile (c : Dev nD) (q s : ℕ) (a : Fin 128) (k : Fin 3) : EReal := ∑ b : Fin 128, cwRow V c (tileRow q a) (tileRow s b) k

/-! ## One step of the accumulators -/

theorem accH_at_first (c : Dev nD) (n : ℕ) (hn : n < cfg0.N) (h0 : n % 6 = 0) (a d : Fin 128) :
    (stateAt V c n hn).2.2.1 (ix2 a d) = msgTile V c (n / 6) (n % 6) a d := by
  have hcF : isFirst (grid0.coords (⟨n, hn⟩ : Fin cfg0.N)) := (isFirst_iff (⟨n, hn⟩ : Fin cfg0.N)).mpr h0
  have hcNL : ¬isLast (grid0.coords (⟨n, hn⟩ : Fin cfg0.N)) := fun h => by have := (isLast_iff (⟨n, hn⟩ : Fin cfg0.N)).mp h; dsimp only at this; omega
  rw [show stateAt V c n hn = _ from stateAt_first V c (⟨n, hn⟩ : Fin cfg0.N) h0]
  dsimp only
  rw [accH_First_eq c (grid0.coords (⟨n, hn⟩ : Fin cfg0.N)) (ms_0 (⟨n, hn⟩ : Fin cfg0.N)) (hs_0 (⟨n, hn⟩ : Fin cfg0.N)) (ms_1 (⟨n, hn⟩ : Fin cfg0.N)) (hs_1 (⟨n, hn⟩ : Fin cfg0.N)) (ms_2 (⟨n, hn⟩ : Fin cfg0.N)) (hs_2 (⟨n, hn⟩ : Fin cfg0.N)) (ms_3 (⟨n, hn⟩ : Fin cfg0.N)) (hs_3 (⟨n, hn⟩ : Fin cfg0.N)) (ms_4 (⟨n, hn⟩ : Fin cfg0.N)) (hs_4 (⟨n, hn⟩ : Fin cfg0.N)) (ms_5 (⟨n, hn⟩ : Fin cfg0.N)) (hs_5 (⟨n, hn⟩ : Fin cfg0.N)) (ms_6 (⟨n, hn⟩ : Fin cfg0.N)) (hs_6 (⟨n, hn⟩ : Fin cfg0.N)) (ms_7 (⟨n, hn⟩ : Fin cfg0.N)) (hs_7 (⟨n, hn⟩ : Fin cfg0.N)) (ms_8 (⟨n, hn⟩ : Fin cfg0.N)) (hs_8 (⟨n, hn⟩ : Fin cfg0.N)) (ms_9 (⟨n, hn⟩ : Fin cfg0.N)) (hs_9 (⟨n, hn⟩ : Fin cfg0.N)) (ms_10 (⟨n, hn⟩ : Fin cfg0.N)) (hs_10 (⟨n, hn⟩ : Fin cfg0.N)) (ms_11 (⟨n, hn⟩ : Fin cfg0.N)) (hs_11 (⟨n, hn⟩ : Fin cfg0.N)) (ms_12 (⟨n, hn⟩ : Fin cfg0.N)) (hs_12 (⟨n, hn⟩ : Fin cfg0.N)) (ms_13 (⟨n, hn⟩ : Fin cfg0.N)) (hs_13 (⟨n, hn⟩ : Fin cfg0.N)) (ms_14 (⟨n, hn⟩ : Fin cfg0.N)) (hs_14 (⟨n, hn⟩ : Fin cfg0.N)) (ms_15 (⟨n, hn⟩ : Fin cfg0.N)) (hs_15 (⟨n, hn⟩ : Fin cfg0.N)) accH (Memref.isWhole_whole _) accC (Memref.isWhole_whole _) hcF hcNL (iblk V c 0 (⟨n, hn⟩ : Fin cfg0.N)) (iblk V c 1 (⟨n, hn⟩ : Fin cfg0.N)) (iblk V c 2 (⟨n, hn⟩ : Fin cfg0.N)) (iblk V c 3 (⟨n, hn⟩ : Fin cfg0.N)) (iblk V c 4 (⟨n, hn⟩ : Fin cfg0.N)) (iblk V c 5 (⟨n, hn⟩ : Fin cfg0.N)) (iblk V c 6 (⟨n, hn⟩ : Fin cfg0.N)) (iblk V c 7 (⟨n, hn⟩ : Fin cfg0.N)) (iblk V c 8 (⟨n, hn⟩ : Fin cfg0.N)) (iblk V c 9 (⟨n, hn⟩ : Fin cfg0.N)) (iblk V c 10 (⟨n, hn⟩ : Fin cfg0.N)) (iblk V c 11 (⟨n, hn⟩ : Fin cfg0.N)) (iblk V c 12 (⟨n, hn⟩ : Fin cfg0.N)) (iblk V c 13 (⟨n, hn⟩ : Fin cfg0.N))]
  refine (pay14_apply (Hf V c) (Cf V c) (W1a V c) (W1b V c) (W1c V c) (B1 V c) (tileRow (n / 6)) (tileRow (n % 6)) (iblk V c 0 (⟨n, hn⟩ : Fin cfg0.N)) (iblk V c 1 (⟨n, hn⟩ : Fin cfg0.N)) (iblk V c 2 (⟨n, hn⟩ : Fin cfg0.N)) (iblk V c 3 (⟨n, hn⟩ : Fin cfg0.N)) (iblk V c 4 (⟨n, hn⟩ : Fin cfg0.N)) (iblk V c 5 (⟨n, hn⟩ : Fin cfg0.N)) (iblk V c 6 (⟨n, hn⟩ : Fin cfg0.N)) (iblk V c 7 (⟨n, hn⟩ : Fin cfg0.N)) (k0_pay4 (F := Ideal)) (iblk0_apply V c (⟨n, hn⟩ : Fin cfg0.N)) (iblk1_apply V c (⟨n, hn⟩ : Fin cfg0.N)) (iblk2_apply V c (⟨n, hn⟩ : Fin cfg0.N)) (iblk3_apply V c (⟨n, hn⟩ : Fin cfg0.N)) (iblk4_apply V c (⟨n, hn⟩ : Fin cfg0.N)) (iblk5_apply V c (⟨n, hn⟩ : Fin cfg0.N)) (fun d => iblk6_apply V c (⟨n, hn⟩ : Fin cfg0.N) 0 d) (fun d => iblk7_apply V c (⟨n, hn⟩ : Fin cfg0.N) 0 d) a d).trans ?_
  rw [pay4_apply, zero_add]
  rfl

theorem accC_at_first (c : Dev nD) (n : ℕ) (hn : n < cfg0.N) (h0 : n % 6 = 0) (a : Fin 128) (k : Fin 3) :
    (stateAt V c n hn).2.2.2 (ix2 a k) = cwTile V c (n / 6) (n % 6) a k := by
  have hcF : isFirst (grid0.coords (⟨n, hn⟩ : Fin cfg0.N)) := (isFirst_iff (⟨n, hn⟩ : Fin cfg0.N)).mpr h0
  have hcNL : ¬isLast (grid0.coords (⟨n, hn⟩ : Fin cfg0.N)) := fun h => by have := (isLast_iff (⟨n, hn⟩ : Fin cfg0.N)).mp h; dsimp only at this; omega
  rw [show stateAt V c n hn = _ from stateAt_first V c (⟨n, hn⟩ : Fin cfg0.N) h0]
  dsimp only
  rw [accC_First_eq c (grid0.coords (⟨n, hn⟩ : Fin cfg0.N)) (ms_0 (⟨n, hn⟩ : Fin cfg0.N)) (hs_0 (⟨n, hn⟩ : Fin cfg0.N)) (ms_1 (⟨n, hn⟩ : Fin cfg0.N)) (hs_1 (⟨n, hn⟩ : Fin cfg0.N)) (ms_2 (⟨n, hn⟩ : Fin cfg0.N)) (hs_2 (⟨n, hn⟩ : Fin cfg0.N)) (ms_3 (⟨n, hn⟩ : Fin cfg0.N)) (hs_3 (⟨n, hn⟩ : Fin cfg0.N)) (ms_4 (⟨n, hn⟩ : Fin cfg0.N)) (hs_4 (⟨n, hn⟩ : Fin cfg0.N)) (ms_5 (⟨n, hn⟩ : Fin cfg0.N)) (hs_5 (⟨n, hn⟩ : Fin cfg0.N)) (ms_6 (⟨n, hn⟩ : Fin cfg0.N)) (hs_6 (⟨n, hn⟩ : Fin cfg0.N)) (ms_7 (⟨n, hn⟩ : Fin cfg0.N)) (hs_7 (⟨n, hn⟩ : Fin cfg0.N)) (ms_8 (⟨n, hn⟩ : Fin cfg0.N)) (hs_8 (⟨n, hn⟩ : Fin cfg0.N)) (ms_9 (⟨n, hn⟩ : Fin cfg0.N)) (hs_9 (⟨n, hn⟩ : Fin cfg0.N)) (ms_10 (⟨n, hn⟩ : Fin cfg0.N)) (hs_10 (⟨n, hn⟩ : Fin cfg0.N)) (ms_11 (⟨n, hn⟩ : Fin cfg0.N)) (hs_11 (⟨n, hn⟩ : Fin cfg0.N)) (ms_12 (⟨n, hn⟩ : Fin cfg0.N)) (hs_12 (⟨n, hn⟩ : Fin cfg0.N)) (ms_13 (⟨n, hn⟩ : Fin cfg0.N)) (hs_13 (⟨n, hn⟩ : Fin cfg0.N)) (ms_14 (⟨n, hn⟩ : Fin cfg0.N)) (hs_14 (⟨n, hn⟩ : Fin cfg0.N)) (ms_15 (⟨n, hn⟩ : Fin cfg0.N)) (hs_15 (⟨n, hn⟩ : Fin cfg0.N)) accH (Memref.isWhole_whole _) accC (Memref.isWhole_whole _) hcF hcNL (iblk V c 0 (⟨n, hn⟩ : Fin cfg0.N)) (iblk V c 1 (⟨n, hn⟩ : Fin cfg0.N)) (iblk V c 2 (⟨n, hn⟩ : Fin cfg0.N)) (iblk V c 3 (⟨n, hn⟩ : Fin cfg0.N)) (iblk V c 4 (⟨n, hn⟩ : Fin cfg0.N)) (iblk V c 5 (⟨n, hn⟩ : Fin cfg0.N)) (iblk V c 6 (⟨n, hn⟩ : Fin cfg0.N)) (iblk V c 7 (⟨n, hn⟩ : Fin cfg0.N)) (iblk V c 8 (⟨n, hn⟩ : Fin cfg0.N)) (iblk V c 9 (⟨n, hn⟩ : Fin cfg0.N)) (iblk V c 10 (⟨n, hn⟩ : Fin cfg0.N)) (iblk V c 11 (⟨n, hn⟩ : Fin cfg0.N)) (iblk V c 12 (⟨n, hn⟩ : Fin cfg0.N)) (iblk V c 13 (⟨n, hn⟩ : Fin cfg0.N))]
  refine (pay1_apply (Hf V c) (Cf V c) (Wca V c) (Wcb V c) (Wcc V c) (Bc V c) (tileRow (n / 6)) (tileRow (n % 6)) (iblk V c 0 (⟨n, hn⟩ : Fin cfg0.N)) (iblk V c 1 (⟨n, hn⟩ : Fin cfg0.N)) (iblk V c 2 (⟨n, hn⟩ : Fin cfg0.N)) (iblk V c 3 (⟨n, hn⟩ : Fin cfg0.N)) (iblk V c 10 (⟨n, hn⟩ : Fin cfg0.N)) (iblk V c 11 (⟨n, hn⟩ : Fin cfg0.N)) (iblk V c 12 (⟨n, hn⟩ : Fin cfg0.N)) (iblk V c 13 (⟨n, hn⟩ : Fin cfg0.N)) (k0_pay5 (F := Ideal)) (iblk0_apply V c (⟨n, hn⟩ : Fin cfg0.N)) (iblk1_apply V c (⟨n, hn⟩ : Fin cfg0.N)) (iblk2_apply V c (⟨n, hn⟩ : Fin cfg0.N)) (iblk3_apply V c (⟨n, hn⟩ : Fin cfg0.N)) (fun k => iblk10_apply V c (⟨n, hn⟩ : Fin cfg0.N) k 0) (fun k => iblk11_apply V c (⟨n, hn⟩ : Fin cfg0.N) k 0) (iblk12_apply V c (⟨n, hn⟩ : Fin cfg0.N) 0 0) (iblk13_apply V c (⟨n, hn⟩ : Fin cfg0.N) 0 0) a k).trans ?_
  rw [pay5_apply, zero_add]
  rfl

theorem accH_at_step (c : Dev nD) (n : ℕ) (hn : n < cfg0.N) (hp : n - 1 < cfg0.N) (h0 : ¬n % 6 = 0) (a d : Fin 128) :
    (stateAt V c n hn).2.2.1 (ix2 a d) = (stateAt V c (n - 1) hp).2.2.1 (ix2 a d) + msgTile V c (n / 6) (n % 6) a d := by
  have hcNF : ¬isFirst (grid0.coords (⟨n, hn⟩ : Fin cfg0.N)) := fun h => h0 ((isFirst_iff (⟨n, hn⟩ : Fin cfg0.N)).mp h)
  by_cases h1 : n % 6 = 5
  · have hcL : isLast (grid0.coords (⟨n, hn⟩ : Fin cfg0.N)) := (isLast_iff (⟨n, hn⟩ : Fin cfg0.N)).mpr h1
    rw [show stateAt V c n hn = _ from stateAt_last V c (⟨n, hn⟩ : Fin cfg0.N) h0 h1]
    dsimp only
    rw [accH_Last_eq c (grid0.coords (⟨n, hn⟩ : Fin cfg0.N)) (ms_0 (⟨n, hn⟩ : Fin cfg0.N)) (hs_0 (⟨n, hn⟩ : Fin cfg0.N)) (ms_1 (⟨n, hn⟩ : Fin cfg0.N)) (hs_1 (⟨n, hn⟩ : Fin cfg0.N)) (ms_2 (⟨n, hn⟩ : Fin cfg0.N)) (hs_2 (⟨n, hn⟩ : Fin cfg0.N)) (ms_3 (⟨n, hn⟩ : Fin cfg0.N)) (hs_3 (⟨n, hn⟩ : Fin cfg0.N)) (ms_4 (⟨n, hn⟩ : Fin cfg0.N)) (hs_4 (⟨n, hn⟩ : Fin cfg0.N)) (ms_5 (⟨n, hn⟩ : Fin cfg0.N)) (hs_5 (⟨n, hn⟩ : Fin cfg0.N)) (ms_6 (⟨n, hn⟩ : Fin cfg0.N)) (hs_6 (⟨n, hn⟩ : Fin cfg0.N)) (ms_7 (⟨n, hn⟩ : Fin cfg0.N)) (hs_7 (⟨n, hn⟩ : Fin cfg0.N)) (ms_8 (⟨n, hn⟩ : Fin cfg0.N)) (hs_8 (⟨n, hn⟩ : Fin cfg0.N)) (ms_9 (⟨n, hn⟩ : Fin cfg0.N)) (hs_9 (⟨n, hn⟩ : Fin cfg0.N)) (ms_10 (⟨n, hn⟩ : Fin cfg0.N)) (hs_10 (⟨n, hn⟩ : Fin cfg0.N)) (ms_11 (⟨n, hn⟩ : Fin cfg0.N)) (hs_11 (⟨n, hn⟩ : Fin cfg0.N)) (ms_12 (⟨n, hn⟩ : Fin cfg0.N)) (hs_12 (⟨n, hn⟩ : Fin cfg0.N)) (ms_13 (⟨n, hn⟩ : Fin cfg0.N)) (hs_13 (⟨n, hn⟩ : Fin cfg0.N)) (ms_14 (⟨n, hn⟩ : Fin cfg0.N)) (hs_14 (⟨n, hn⟩ : Fin cfg0.N)) (ms_15 (⟨n, hn⟩ : Fin cfg0.N)) (hs_15 (⟨n, hn⟩ : Fin cfg0.N)) accH (Memref.isWhole_whole _) accC (Memref.isWhole_whole _) hcNF hcL (iblk V c 0 (⟨n, hn⟩ : Fin cfg0.N)) (iblk V c 1 (⟨n, hn⟩ : Fin cfg0.N)) (iblk V c 2 (⟨n, hn⟩ : Fin cfg0.N)) (iblk V c 3 (⟨n, hn⟩ : Fin cfg0.N)) (iblk V c 4 (⟨n, hn⟩ : Fin cfg0.N)) (iblk V c 5 (⟨n, hn⟩ : Fin cfg0.N)) (iblk V c 6 (⟨n, hn⟩ : Fin cfg0.N)) (iblk V c 7 (⟨n, hn⟩ : Fin cfg0.N)) (iblk V c 8 (⟨n, hn⟩ : Fin cfg0.N)) (iblk V c 9 (⟨n, hn⟩ : Fin cfg0.N)) (iblk V c 10 (⟨n, hn⟩ : Fin cfg0.N)) (iblk V c 11 (⟨n, hn⟩ : Fin cfg0.N)) (iblk V c 12 (⟨n, hn⟩ : Fin cfg0.N)) (iblk V c 13 (⟨n, hn⟩ : Fin cfg0.N)) (stateAt V c (n - 1) hp).2.2.1 (stateAt V c (n - 1) hp).2.2.2]
    exact pay14_apply (Hf V c) (Cf V c) (W1a V c) (W1b V c) (W1c V c) (B1 V c) (tileRow (n / 6)) (tileRow (n % 6)) (iblk V c 0 (⟨n, hn⟩ : Fin cfg0.N)) (iblk V c 1 (⟨n, hn⟩ : Fin cfg0.N)) (iblk V c 2 (⟨n, hn⟩ : Fin cfg0.N)) (iblk V c 3 (⟨n, hn⟩ : Fin cfg0.N)) (iblk V c 4 (⟨n, hn⟩ : Fin cfg0.N)) (iblk V c 5 (⟨n, hn⟩ : Fin cfg0.N)) (iblk V c 6 (⟨n, hn⟩ : Fin cfg0.N)) (iblk V c 7 (⟨n, hn⟩ : Fin cfg0.N)) (stateAt V c (n - 1) hp).2.2.1 (iblk0_apply V c (⟨n, hn⟩ : Fin cfg0.N)) (iblk1_apply V c (⟨n, hn⟩ : Fin cfg0.N)) (iblk2_apply V c (⟨n, hn⟩ : Fin cfg0.N)) (iblk3_apply V c (⟨n, hn⟩ : Fin cfg0.N)) (iblk4_apply V c (⟨n, hn⟩ : Fin cfg0.N)) (iblk5_apply V c (⟨n, hn⟩ : Fin cfg0.N)) (fun d => iblk6_apply V c (⟨n, hn⟩ : Fin cfg0.N) 0 d) (fun d => iblk7_apply V c (⟨n, hn⟩ : Fin cfg0.N) 0 d) a d
  · have hcNL : ¬isLast (grid0.coords (⟨n, hn⟩ : Fin cfg0.N)) := fun h => h1 ((isLast_iff (⟨n, hn⟩ : Fin cfg0.N)).mp h)
    rw [show stateAt V c n hn = _ from stateAt_mid V c (⟨n, hn⟩ : Fin cfg0.N) h0 h1]
    dsimp only
    rw [accH_Mid_eq c (grid0.coords (⟨n, hn⟩ : Fin cfg0.N)) (ms_0 (⟨n, hn⟩ : Fin cfg0.N)) (hs_0 (⟨n, hn⟩ : Fin cfg0.N)) (ms_1 (⟨n, hn⟩ : Fin cfg0.N)) (hs_1 (⟨n, hn⟩ : Fin cfg0.N)) (ms_2 (⟨n, hn⟩ : Fin cfg0.N)) (hs_2 (⟨n, hn⟩ : Fin cfg0.N)) (ms_3 (⟨n, hn⟩ : Fin cfg0.N)) (hs_3 (⟨n, hn⟩ : Fin cfg0.N)) (ms_4 (⟨n, hn⟩ : Fin cfg0.N)) (hs_4 (⟨n, hn⟩ : Fin cfg0.N)) (ms_5 (⟨n, hn⟩ : Fin cfg0.N)) (hs_5 (⟨n, hn⟩ : Fin cfg0.N)) (ms_6 (⟨n, hn⟩ : Fin cfg0.N)) (hs_6 (⟨n, hn⟩ : Fin cfg0.N)) (ms_7 (⟨n, hn⟩ : Fin cfg0.N)) (hs_7 (⟨n, hn⟩ : Fin cfg0.N)) (ms_8 (⟨n, hn⟩ : Fin cfg0.N)) (hs_8 (⟨n, hn⟩ : Fin cfg0.N)) (ms_9 (⟨n, hn⟩ : Fin cfg0.N)) (hs_9 (⟨n, hn⟩ : Fin cfg0.N)) (ms_10 (⟨n, hn⟩ : Fin cfg0.N)) (hs_10 (⟨n, hn⟩ : Fin cfg0.N)) (ms_11 (⟨n, hn⟩ : Fin cfg0.N)) (hs_11 (⟨n, hn⟩ : Fin cfg0.N)) (ms_12 (⟨n, hn⟩ : Fin cfg0.N)) (hs_12 (⟨n, hn⟩ : Fin cfg0.N)) (ms_13 (⟨n, hn⟩ : Fin cfg0.N)) (hs_13 (⟨n, hn⟩ : Fin cfg0.N)) (ms_14 (⟨n, hn⟩ : Fin cfg0.N)) (hs_14 (⟨n, hn⟩ : Fin cfg0.N)) (ms_15 (⟨n, hn⟩ : Fin cfg0.N)) (hs_15 (⟨n, hn⟩ : Fin cfg0.N)) accH (Memref.isWhole_whole _) accC (Memref.isWhole_whole _) hcNF hcNL (iblk V c 0 (⟨n, hn⟩ : Fin cfg0.N)) (iblk V c 1 (⟨n, hn⟩ : Fin cfg0.N)) (iblk V c 2 (⟨n, hn⟩ : Fin cfg0.N)) (iblk V c 3 (⟨n, hn⟩ : Fin cfg0.N)) (iblk V c 4 (⟨n, hn⟩ : Fin cfg0.N)) (iblk V c 5 (⟨n, hn⟩ : Fin cfg0.N)) (iblk V c 6 (⟨n, hn⟩ : Fin cfg0.N)) (iblk V c 7 (⟨n, hn⟩ : Fin cfg0.N)) (iblk V c 8 (⟨n, hn⟩ : Fin cfg0.N)) (iblk V c 9 (⟨n, hn⟩ : Fin cfg0.N)) (iblk V c 10 (⟨n, hn⟩ : Fin cfg0.N)) (iblk V c 11 (⟨n, hn⟩ : Fin cfg0.N)) (iblk V c 12 (⟨n, hn⟩ : Fin cfg0.N)) (iblk V c 13 (⟨n, hn⟩ : Fin cfg0.N)) (stateAt V c (n - 1) hp).2.2.1 (stateAt V c (n - 1) hp).2.2.2]
    exact pay14_apply (Hf V c) (Cf V c) (W1a V c) (W1b V c) (W1c V c) (B1 V c) (tileRow (n / 6)) (tileRow (n % 6)) (iblk V c 0 (⟨n, hn⟩ : Fin cfg0.N)) (iblk V c 1 (⟨n, hn⟩ : Fin cfg0.N)) (iblk V c 2 (⟨n, hn⟩ : Fin cfg0.N)) (iblk V c 3 (⟨n, hn⟩ : Fin cfg0.N)) (iblk V c 4 (⟨n, hn⟩ : Fin cfg0.N)) (iblk V c 5 (⟨n, hn⟩ : Fin cfg0.N)) (iblk V c 6 (⟨n, hn⟩ : Fin cfg0.N)) (iblk V c 7 (⟨n, hn⟩ : Fin cfg0.N)) (stateAt V c (n - 1) hp).2.2.1 (iblk0_apply V c (⟨n, hn⟩ : Fin cfg0.N)) (iblk1_apply V c (⟨n, hn⟩ : Fin cfg0.N)) (iblk2_apply V c (⟨n, hn⟩ : Fin cfg0.N)) (iblk3_apply V c (⟨n, hn⟩ : Fin cfg0.N)) (iblk4_apply V c (⟨n, hn⟩ : Fin cfg0.N)) (iblk5_apply V c (⟨n, hn⟩ : Fin cfg0.N)) (fun d => iblk6_apply V c (⟨n, hn⟩ : Fin cfg0.N) 0 d) (fun d => iblk7_apply V c (⟨n, hn⟩ : Fin cfg0.N) 0 d) a d

theorem accC_at_step (c : Dev nD) (n : ℕ) (hn : n < cfg0.N) (hp : n - 1 < cfg0.N) (h0 : ¬n % 6 = 0) (a : Fin 128) (k : Fin 3) :
    (stateAt V c n hn).2.2.2 (ix2 a k) = (stateAt V c (n - 1) hp).2.2.2 (ix2 a k) + cwTile V c (n / 6) (n % 6) a k := by
  have hcNF : ¬isFirst (grid0.coords (⟨n, hn⟩ : Fin cfg0.N)) := fun h => h0 ((isFirst_iff (⟨n, hn⟩ : Fin cfg0.N)).mp h)
  by_cases h1 : n % 6 = 5
  · have hcL : isLast (grid0.coords (⟨n, hn⟩ : Fin cfg0.N)) := (isLast_iff (⟨n, hn⟩ : Fin cfg0.N)).mpr h1
    rw [show stateAt V c n hn = _ from stateAt_last V c (⟨n, hn⟩ : Fin cfg0.N) h0 h1]
    dsimp only
    rw [accC_Last_eq c (grid0.coords (⟨n, hn⟩ : Fin cfg0.N)) (ms_0 (⟨n, hn⟩ : Fin cfg0.N)) (hs_0 (⟨n, hn⟩ : Fin cfg0.N)) (ms_1 (⟨n, hn⟩ : Fin cfg0.N)) (hs_1 (⟨n, hn⟩ : Fin cfg0.N)) (ms_2 (⟨n, hn⟩ : Fin cfg0.N)) (hs_2 (⟨n, hn⟩ : Fin cfg0.N)) (ms_3 (⟨n, hn⟩ : Fin cfg0.N)) (hs_3 (⟨n, hn⟩ : Fin cfg0.N)) (ms_4 (⟨n, hn⟩ : Fin cfg0.N)) (hs_4 (⟨n, hn⟩ : Fin cfg0.N)) (ms_5 (⟨n, hn⟩ : Fin cfg0.N)) (hs_5 (⟨n, hn⟩ : Fin cfg0.N)) (ms_6 (⟨n, hn⟩ : Fin cfg0.N)) (hs_6 (⟨n, hn⟩ : Fin cfg0.N)) (ms_7 (⟨n, hn⟩ : Fin cfg0.N)) (hs_7 (⟨n, hn⟩ : Fin cfg0.N)) (ms_8 (⟨n, hn⟩ : Fin cfg0.N)) (hs_8 (⟨n, hn⟩ : Fin cfg0.N)) (ms_9 (⟨n, hn⟩ : Fin cfg0.N)) (hs_9 (⟨n, hn⟩ : Fin cfg0.N)) (ms_10 (⟨n, hn⟩ : Fin cfg0.N)) (hs_10 (⟨n, hn⟩ : Fin cfg0.N)) (ms_11 (⟨n, hn⟩ : Fin cfg0.N)) (hs_11 (⟨n, hn⟩ : Fin cfg0.N)) (ms_12 (⟨n, hn⟩ : Fin cfg0.N)) (hs_12 (⟨n, hn⟩ : Fin cfg0.N)) (ms_13 (⟨n, hn⟩ : Fin cfg0.N)) (hs_13 (⟨n, hn⟩ : Fin cfg0.N)) (ms_14 (⟨n, hn⟩ : Fin cfg0.N)) (hs_14 (⟨n, hn⟩ : Fin cfg0.N)) (ms_15 (⟨n, hn⟩ : Fin cfg0.N)) (hs_15 (⟨n, hn⟩ : Fin cfg0.N)) accH (Memref.isWhole_whole _) accC (Memref.isWhole_whole _) hcNF hcL (iblk V c 0 (⟨n, hn⟩ : Fin cfg0.N)) (iblk V c 1 (⟨n, hn⟩ : Fin cfg0.N)) (iblk V c 2 (⟨n, hn⟩ : Fin cfg0.N)) (iblk V c 3 (⟨n, hn⟩ : Fin cfg0.N)) (iblk V c 4 (⟨n, hn⟩ : Fin cfg0.N)) (iblk V c 5 (⟨n, hn⟩ : Fin cfg0.N)) (iblk V c 6 (⟨n, hn⟩ : Fin cfg0.N)) (iblk V c 7 (⟨n, hn⟩ : Fin cfg0.N)) (iblk V c 8 (⟨n, hn⟩ : Fin cfg0.N)) (iblk V c 9 (⟨n, hn⟩ : Fin cfg0.N)) (iblk V c 10 (⟨n, hn⟩ : Fin cfg0.N)) (iblk V c 11 (⟨n, hn⟩ : Fin cfg0.N)) (iblk V c 12 (⟨n, hn⟩ : Fin cfg0.N)) (iblk V c 13 (⟨n, hn⟩ : Fin cfg0.N)) (stateAt V c (n - 1) hp).2.2.1 (stateAt V c (n - 1) hp).2.2.2]
    exact pay1_apply (Hf V c) (Cf V c) (Wca V c) (Wcb V c) (Wcc V c) (Bc V c) (tileRow (n / 6)) (tileRow (n % 6)) (iblk V c 0 (⟨n, hn⟩ : Fin cfg0.N)) (iblk V c 1 (⟨n, hn⟩ : Fin cfg0.N)) (iblk V c 2 (⟨n, hn⟩ : Fin cfg0.N)) (iblk V c 3 (⟨n, hn⟩ : Fin cfg0.N)) (iblk V c 10 (⟨n, hn⟩ : Fin cfg0.N)) (iblk V c 11 (⟨n, hn⟩ : Fin cfg0.N)) (iblk V c 12 (⟨n, hn⟩ : Fin cfg0.N)) (iblk V c 13 (⟨n, hn⟩ : Fin cfg0.N)) (stateAt V c (n - 1) hp).2.2.2 (iblk0_apply V c (⟨n, hn⟩ : Fin cfg0.N)) (iblk1_apply V c (⟨n, hn⟩ : Fin cfg0.N)) (iblk2_apply V c (⟨n, hn⟩ : Fin cfg0.N)) (iblk3_apply V c (⟨n, hn⟩ : Fin cfg0.N)) (fun k => iblk10_apply V c (⟨n, hn⟩ : Fin cfg0.N) k 0) (fun k => iblk11_apply V c (⟨n, hn⟩ : Fin cfg0.N) k 0) (iblk12_apply V c (⟨n, hn⟩ : Fin cfg0.N) 0 0) (iblk13_apply V c (⟨n, hn⟩ : Fin cfg0.N) 0 0) a k
  · have hcNL : ¬isLast (grid0.coords (⟨n, hn⟩ : Fin cfg0.N)) := fun h => h1 ((isLast_iff (⟨n, hn⟩ : Fin cfg0.N)).mp h)
    rw [show stateAt V c n hn = _ from stateAt_mid V c (⟨n, hn⟩ : Fin cfg0.N) h0 h1]
    dsimp only
    rw [accC_Mid_eq c (grid0.coords (⟨n, hn⟩ : Fin cfg0.N)) (ms_0 (⟨n, hn⟩ : Fin cfg0.N)) (hs_0 (⟨n, hn⟩ : Fin cfg0.N)) (ms_1 (⟨n, hn⟩ : Fin cfg0.N)) (hs_1 (⟨n, hn⟩ : Fin cfg0.N)) (ms_2 (⟨n, hn⟩ : Fin cfg0.N)) (hs_2 (⟨n, hn⟩ : Fin cfg0.N)) (ms_3 (⟨n, hn⟩ : Fin cfg0.N)) (hs_3 (⟨n, hn⟩ : Fin cfg0.N)) (ms_4 (⟨n, hn⟩ : Fin cfg0.N)) (hs_4 (⟨n, hn⟩ : Fin cfg0.N)) (ms_5 (⟨n, hn⟩ : Fin cfg0.N)) (hs_5 (⟨n, hn⟩ : Fin cfg0.N)) (ms_6 (⟨n, hn⟩ : Fin cfg0.N)) (hs_6 (⟨n, hn⟩ : Fin cfg0.N)) (ms_7 (⟨n, hn⟩ : Fin cfg0.N)) (hs_7 (⟨n, hn⟩ : Fin cfg0.N)) (ms_8 (⟨n, hn⟩ : Fin cfg0.N)) (hs_8 (⟨n, hn⟩ : Fin cfg0.N)) (ms_9 (⟨n, hn⟩ : Fin cfg0.N)) (hs_9 (⟨n, hn⟩ : Fin cfg0.N)) (ms_10 (⟨n, hn⟩ : Fin cfg0.N)) (hs_10 (⟨n, hn⟩ : Fin cfg0.N)) (ms_11 (⟨n, hn⟩ : Fin cfg0.N)) (hs_11 (⟨n, hn⟩ : Fin cfg0.N)) (ms_12 (⟨n, hn⟩ : Fin cfg0.N)) (hs_12 (⟨n, hn⟩ : Fin cfg0.N)) (ms_13 (⟨n, hn⟩ : Fin cfg0.N)) (hs_13 (⟨n, hn⟩ : Fin cfg0.N)) (ms_14 (⟨n, hn⟩ : Fin cfg0.N)) (hs_14 (⟨n, hn⟩ : Fin cfg0.N)) (ms_15 (⟨n, hn⟩ : Fin cfg0.N)) (hs_15 (⟨n, hn⟩ : Fin cfg0.N)) accH (Memref.isWhole_whole _) accC (Memref.isWhole_whole _) hcNF hcNL (iblk V c 0 (⟨n, hn⟩ : Fin cfg0.N)) (iblk V c 1 (⟨n, hn⟩ : Fin cfg0.N)) (iblk V c 2 (⟨n, hn⟩ : Fin cfg0.N)) (iblk V c 3 (⟨n, hn⟩ : Fin cfg0.N)) (iblk V c 4 (⟨n, hn⟩ : Fin cfg0.N)) (iblk V c 5 (⟨n, hn⟩ : Fin cfg0.N)) (iblk V c 6 (⟨n, hn⟩ : Fin cfg0.N)) (iblk V c 7 (⟨n, hn⟩ : Fin cfg0.N)) (iblk V c 8 (⟨n, hn⟩ : Fin cfg0.N)) (iblk V c 9 (⟨n, hn⟩ : Fin cfg0.N)) (iblk V c 10 (⟨n, hn⟩ : Fin cfg0.N)) (iblk V c 11 (⟨n, hn⟩ : Fin cfg0.N)) (iblk V c 12 (⟨n, hn⟩ : Fin cfg0.N)) (iblk V c 13 (⟨n, hn⟩ : Fin cfg0.N)) (stateAt V c (n - 1) hp).2.2.1 (stateAt V c (n - 1) hp).2.2.2]
    exact pay1_apply (Hf V c) (Cf V c) (Wca V c) (Wcb V c) (Wcc V c) (Bc V c) (tileRow (n / 6)) (tileRow (n % 6)) (iblk V c 0 (⟨n, hn⟩ : Fin cfg0.N)) (iblk V c 1 (⟨n, hn⟩ : Fin cfg0.N)) (iblk V c 2 (⟨n, hn⟩ : Fin cfg0.N)) (iblk V c 3 (⟨n, hn⟩ : Fin cfg0.N)) (iblk V c 10 (⟨n, hn⟩ : Fin cfg0.N)) (iblk V c 11 (⟨n, hn⟩ : Fin cfg0.N)) (iblk V c 12 (⟨n, hn⟩ : Fin cfg0.N)) (iblk V c 13 (⟨n, hn⟩ : Fin cfg0.N)) (stateAt V c (n - 1) hp).2.2.2 (iblk0_apply V c (⟨n, hn⟩ : Fin cfg0.N)) (iblk1_apply V c (⟨n, hn⟩ : Fin cfg0.N)) (iblk2_apply V c (⟨n, hn⟩ : Fin cfg0.N)) (iblk3_apply V c (⟨n, hn⟩ : Fin cfg0.N)) (fun k => iblk10_apply V c (⟨n, hn⟩ : Fin cfg0.N) k 0) (fun k => iblk11_apply V c (⟨n, hn⟩ : Fin cfg0.N) k 0) (iblk12_apply V c (⟨n, hn⟩ : Fin cfg0.N) 0 0) (iblk13_apply V c (⟨n, hn⟩ : Fin cfg0.N) 0 0) a k

/-! ## The accumulators after a point: the sums over the sending row tiles so far -/

theorem accH_inv (c : Dev nD) : ∀ (n : ℕ) (hn : n < cfg0.N) (a d : Fin 128),
    (stateAt V c n hn).2.2.1 (ix2 a d) = ∑ s ∈ Finset.range (n % 6 + 1), msgTile V c (n / 6) s a d
  | 0, hn, a, d => (accH_at_first V c 0 hn rfl a d).trans (Finset.sum_range_one (fun s => msgTile V c (0 / 6) s a d)).symm
  | n + 1, hn, a, d => by
    by_cases h0 : (n + 1) % 6 = 0
    · refine (accH_at_first V c (n + 1) hn h0 a d).trans ?_
      rw [h0, Nat.zero_add, Finset.sum_range_one]
    · have q : (n + 1) / 6 = n / 6 := by omega
      have r : (n + 1) % 6 = n % 6 + 1 := by omega
      refine (accH_at_step V c (n + 1) hn (Nat.lt_of_succ_lt hn) h0 a d).trans ?_
      rw [q, r, Finset.sum_range_succ]
      exact congrArg (· + msgTile V c (n / 6) (n % 6 + 1) a d) (accH_inv c n (Nat.lt_of_succ_lt hn) a d)

theorem accC_inv (c : Dev nD) : ∀ (n : ℕ) (hn : n < cfg0.N) (a : Fin 128) (k : Fin 3),
    (stateAt V c n hn).2.2.2 (ix2 a k) = ∑ s ∈ Finset.range (n % 6 + 1), cwTile V c (n / 6) s a k
  | 0, hn, a, k => (accC_at_first V c 0 hn rfl a k).trans (Finset.sum_range_one (fun s => cwTile V c (0 / 6) s a k)).symm
  | n + 1, hn, a, k => by
    by_cases h0 : (n + 1) % 6 = 0
    · refine (accC_at_first V c (n + 1) hn h0 a k).trans ?_
      rw [h0, Nat.zero_add, Finset.sum_range_one]
    · have q : (n + 1) / 6 = n / 6 := by omega
      have r : (n + 1) % 6 = n % 6 + 1 := by omega
      refine (accC_at_step V c (n + 1) hn (Nat.lt_of_succ_lt hn) h0 a k).trans ?_
      rw [q, r, Finset.sum_range_succ]
      exact congrArg (· + cwTile V c (n / 6) (n % 6 + 1) a k) (accC_inv c n (Nat.lt_of_succ_lt hn) a k)

/-- At the last step of a row tile the six tile sums are the sum over all 768 sending rows. -/
theorem accH_full (c : Dev nD) (n : ℕ) (hn : n < cfg0.N) (h5 : n % 6 = 5) (a d : Fin 128) :
    (stateAt V c n hn).2.2.1 (ix2 a d) = ∑ r : Fin 768, msgRow V c (tileRow (n / 6) a) r d := by
  rw [accH_inv V c n hn a d, h5, Finset.sum_range,
    sum_blocks (kt := 6) (n := 128) (K := 768) rfl (fun r => msgRow V c (tileRow (n / 6) a) r d)]
  refine Finset.sum_congr rfl fun s _ => ?_
  unfold msgTile
  refine Finset.sum_congr rfl fun b _ => ?_
  exact congrArg (fun j => msgRow V c (tileRow (n / 6) a) j d) (Fin.ext (tileRow_val s.val s.isLt b))

theorem accC_full (c : Dev nD) (n : ℕ) (hn : n < cfg0.N) (h5 : n % 6 = 5) (a : Fin 128) (k : Fin 3) :
    (stateAt V c n hn).2.2.2 (ix2 a k) = ∑ r : Fin 768, cwRow V c (tileRow (n / 6) a) r k := by
  rw [accC_inv V c n hn a k, h5, Finset.sum_range,
    sum_blocks (kt := 6) (n := 128) (K := 768) rfl (fun r => cwRow V c (tileRow (n / 6) a) r k)]
  refine Finset.sum_congr rfl fun s _ => ?_
  unfold cwTile
  refine Finset.sum_congr rfl fun b _ => ?_
  exact congrArg (fun j => cwRow V c (tileRow (n / 6) a) j k) (Fin.ext (tileRow_val s.val s.isLt b))

/-! ## The two output blocks at the last step of a row tile -/

theorem outH_at_last (c : Dev nD) (n : ℕ) (hn : n < cfg0.N) (hp : n - 1 < cfg0.N) (h5 : n % 6 = 5) (a d : Fin 128) :
    (stateAt V c n hn).1 (ix2 a d) = Cert.Spec.layerH (Hf V c) (Cf V c) (W1a V c) (W1b V c) (W1c V c) (B1 V c) (W2 V c) (B2 V c) (tileRow (n / 6) a) d := by
  have h0 : ¬n % 6 = 0 := by omega
  have hcNF : ¬isFirst (grid0.coords (⟨n, hn⟩ : Fin cfg0.N)) := fun h => h0 ((isFirst_iff (⟨n, hn⟩ : Fin cfg0.N)).mp h)
  have hcL : isLast (grid0.coords (⟨n, hn⟩ : Fin cfg0.N)) := (isLast_iff (⟨n, hn⟩ : Fin cfg0.N)).mpr h5
  have e := stateAt_last V c (⟨n, hn⟩ : Fin cfg0.N) h0 h5
  have eacc : (stateAt V c n hn).2.2.1 = (updH (iblk V c 0 (⟨n, hn⟩ : Fin cfg0.N)) (iblk V c 1 (⟨n, hn⟩ : Fin cfg0.N)) (iblk V c 2 (⟨n, hn⟩ : Fin cfg0.N)) (iblk V c 3 (⟨n, hn⟩ : Fin cfg0.N)) (iblk V c 4 (⟨n, hn⟩ : Fin cfg0.N)) (iblk V c 5 (⟨n, hn⟩ : Fin cfg0.N)) (iblk V c 6 (⟨n, hn⟩ : Fin cfg0.N)) (iblk V c 7 (⟨n, hn⟩ : Fin cfg0.N)) (stateAt V c (n - 1) hp).2.2.1) :=
    (congrArg (fun s => s.2.2.1) e).trans (accH_Last_eq c (grid0.coords (⟨n, hn⟩ : Fin cfg0.N)) (ms_0 (⟨n, hn⟩ : Fin cfg0.N)) (hs_0 (⟨n, hn⟩ : Fin cfg0.N)) (ms_1 (⟨n, hn⟩ : Fin cfg0.N)) (hs_1 (⟨n, hn⟩ : Fin cfg0.N)) (ms_2 (⟨n, hn⟩ : Fin cfg0.N)) (hs_2 (⟨n, hn⟩ : Fin cfg0.N)) (ms_3 (⟨n, hn⟩ : Fin cfg0.N)) (hs_3 (⟨n, hn⟩ : Fin cfg0.N)) (ms_4 (⟨n, hn⟩ : Fin cfg0.N)) (hs_4 (⟨n, hn⟩ : Fin cfg0.N)) (ms_5 (⟨n, hn⟩ : Fin cfg0.N)) (hs_5 (⟨n, hn⟩ : Fin cfg0.N)) (ms_6 (⟨n, hn⟩ : Fin cfg0.N)) (hs_6 (⟨n, hn⟩ : Fin cfg0.N)) (ms_7 (⟨n, hn⟩ : Fin cfg0.N)) (hs_7 (⟨n, hn⟩ : Fin cfg0.N)) (ms_8 (⟨n, hn⟩ : Fin cfg0.N)) (hs_8 (⟨n, hn⟩ : Fin cfg0.N)) (ms_9 (⟨n, hn⟩ : Fin cfg0.N)) (hs_9 (⟨n, hn⟩ : Fin cfg0.N)) (ms_10 (⟨n, hn⟩ : Fin cfg0.N)) (hs_10 (⟨n, hn⟩ : Fin cfg0.N)) (ms_11 (⟨n, hn⟩ : Fin cfg0.N)) (hs_11 (⟨n, hn⟩ : Fin cfg0.N)) (ms_12 (⟨n, hn⟩ : Fin cfg0.N)) (hs_12 (⟨n, hn⟩ : Fin cfg0.N)) (ms_13 (⟨n, hn⟩ : Fin cfg0.N)) (hs_13 (⟨n, hn⟩ : Fin cfg0.N)) (ms_14 (⟨n, hn⟩ : Fin cfg0.N)) (hs_14 (⟨n, hn⟩ : Fin cfg0.N)) (ms_15 (⟨n, hn⟩ : Fin cfg0.N)) (hs_15 (⟨n, hn⟩ : Fin cfg0.N)) accH (Memref.isWhole_whole _) accC (Memref.isWhole_whole _) hcNF hcL (iblk V c 0 (⟨n, hn⟩ : Fin cfg0.N)) (iblk V c 1 (⟨n, hn⟩ : Fin cfg0.N)) (iblk V c 2 (⟨n, hn⟩ : Fin cfg0.N)) (iblk V c 3 (⟨n, hn⟩ : Fin cfg0.N)) (iblk V c 4 (⟨n, hn⟩ : Fin cfg0.N)) (iblk V c 5 (⟨n, hn⟩ : Fin cfg0.N)) (iblk V c 6 (⟨n, hn⟩ : Fin cfg0.N)) (iblk V c 7 (⟨n, hn⟩ : Fin cfg0.N)) (iblk V c 8 (⟨n, hn⟩ : Fin cfg0.N)) (iblk V c 9 (⟨n, hn⟩ : Fin cfg0.N)) (iblk V c 10 (⟨n, hn⟩ : Fin cfg0.N)) (iblk V c 11 (⟨n, hn⟩ : Fin cfg0.N)) (iblk V c 12 (⟨n, hn⟩ : Fin cfg0.N)) (iblk V c 13 (⟨n, hn⟩ : Fin cfg0.N)) (stateAt V c (n - 1) hp).2.2.1 (stateAt V c (n - 1) hp).2.2.2)
  rw [show stateAt V c n hn = _ from e]
  dsimp only
  rw [outH_Last_eq c (grid0.coords (⟨n, hn⟩ : Fin cfg0.N)) (ms_0 (⟨n, hn⟩ : Fin cfg0.N)) (hs_0 (⟨n, hn⟩ : Fin cfg0.N)) (ms_1 (⟨n, hn⟩ : Fin cfg0.N)) (hs_1 (⟨n, hn⟩ : Fin cfg0.N)) (ms_2 (⟨n, hn⟩ : Fin cfg0.N)) (hs_2 (⟨n, hn⟩ : Fin cfg0.N)) (ms_3 (⟨n, hn⟩ : Fin cfg0.N)) (hs_3 (⟨n, hn⟩ : Fin cfg0.N)) (ms_4 (⟨n, hn⟩ : Fin cfg0.N)) (hs_4 (⟨n, hn⟩ : Fin cfg0.N)) (ms_5 (⟨n, hn⟩ : Fin cfg0.N)) (hs_5 (⟨n, hn⟩ : Fin cfg0.N)) (ms_6 (⟨n, hn⟩ : Fin cfg0.N)) (hs_6 (⟨n, hn⟩ : Fin cfg0.N)) (ms_7 (⟨n, hn⟩ : Fin cfg0.N)) (hs_7 (⟨n, hn⟩ : Fin cfg0.N)) (ms_8 (⟨n, hn⟩ : Fin cfg0.N)) (hs_8 (⟨n, hn⟩ : Fin cfg0.N)) (ms_9 (⟨n, hn⟩ : Fin cfg0.N)) (hs_9 (⟨n, hn⟩ : Fin cfg0.N)) (ms_10 (⟨n, hn⟩ : Fin cfg0.N)) (hs_10 (⟨n, hn⟩ : Fin cfg0.N)) (ms_11 (⟨n, hn⟩ : Fin cfg0.N)) (hs_11 (⟨n, hn⟩ : Fin cfg0.N)) (ms_12 (⟨n, hn⟩ : Fin cfg0.N)) (hs_12 (⟨n, hn⟩ : Fin cfg0.N)) (ms_13 (⟨n, hn⟩ : Fin cfg0.N)) (hs_13 (⟨n, hn⟩ : Fin cfg0.N)) (ms_14 (⟨n, hn⟩ : Fin cfg0.N)) (hs_14 (⟨n, hn⟩ : Fin cfg0.N)) (ms_15 (⟨n, hn⟩ : Fin cfg0.N)) (hs_15 (⟨n, hn⟩ : Fin cfg0.N)) accH (Memref.isWhole_whole _) accC (Memref.isWhole_whole _) hcNF hcL (iblk V c 0 (⟨n, hn⟩ : Fin cfg0.N)) (iblk V c 1 (⟨n, hn⟩ : Fin cfg0.N)) (iblk V c 2 (⟨n, hn⟩ : Fin cfg0.N)) (iblk V c 3 (⟨n, hn⟩ : Fin cfg0.N)) (iblk V c 4 (⟨n, hn⟩ : Fin cfg0.N)) (iblk V c 5 (⟨n, hn⟩ : Fin cfg0.N)) (iblk V c 6 (⟨n, hn⟩ : Fin cfg0.N)) (iblk V c 7 (⟨n, hn⟩ : Fin cfg0.N)) (iblk V c 8 (⟨n, hn⟩ : Fin cfg0.N)) (iblk V c 9 (⟨n, hn⟩ : Fin cfg0.N)) (iblk V c 10 (⟨n, hn⟩ : Fin cfg0.N)) (iblk V c 11 (⟨n, hn⟩ : Fin cfg0.N)) (iblk V c 12 (⟨n, hn⟩ : Fin cfg0.N)) (iblk V c 13 (⟨n, hn⟩ : Fin cfg0.N)) (stateAt V c (n - 1) hp).2.2.1 (stateAt V c (n - 1) hp).2.2.2]
  refine (pay2_apply (Hf V c) (W2 V c) (B2 V c) (tileRow (n / 6)) (iblk V c 0 (⟨n, hn⟩ : Fin cfg0.N)) (iblk V c 8 (⟨n, hn⟩ : Fin cfg0.N)) (iblk V c 9 (⟨n, hn⟩ : Fin cfg0.N)) (updH (iblk V c 0 (⟨n, hn⟩ : Fin cfg0.N)) (iblk V c 1 (⟨n, hn⟩ : Fin cfg0.N)) (iblk V c 2 (⟨n, hn⟩ : Fin cfg0.N)) (iblk V c 3 (⟨n, hn⟩ : Fin cfg0.N)) (iblk V c 4 (⟨n, hn⟩ : Fin cfg0.N)) (iblk V c 5 (⟨n, hn⟩ : Fin cfg0.N)) (iblk V c 6 (⟨n, hn⟩ : Fin cfg0.N)) (iblk V c 7 (⟨n, hn⟩ : Fin cfg0.N)) (stateAt V c (n - 1) hp).2.2.1) (iblk0_apply V c (⟨n, hn⟩ : Fin cfg0.N)) (iblk8_apply V c (⟨n, hn⟩ : Fin cfg0.N)) (fun d => iblk9_apply V c (⟨n, hn⟩ : Fin cfg0.N) 0 d) a d).trans ?_
  unfold Cert.Spec.layerH
  refine congrArg (Hf V c (tileRow (n / 6) a) d + ·) (congrArg (· + B2 V c d) (Finset.sum_congr rfl fun k _ => ?_))
  refine congrArg (· * W2 V c k d) (congrArg (· * ((1 / 768 : ℝ) : EReal)) ?_)
  exact (congrFun eacc.symm (ix2 a k)).trans (accH_full V c n hn h5 a k)

theorem outC_at_last (c : Dev nD) (n : ℕ) (hn : n < cfg0.N) (hp : n - 1 < cfg0.N) (h5 : n % 6 = 5) (a : Fin 128) (k : Fin 3) :
    (stateAt V c n hn).2.1 (ix2 a k) = Cert.Spec.layerC (Hf V c) (Cf V c) (Wca V c) (Wcb V c) (Wcc V c) (Bc V c) (tileRow (n / 6) a) k := by
  have h0 : ¬n % 6 = 0 := by omega
  have hcNF : ¬isFirst (grid0.coords (⟨n, hn⟩ : Fin cfg0.N)) := fun h => h0 ((isFirst_iff (⟨n, hn⟩ : Fin cfg0.N)).mp h)
  have hcL : isLast (grid0.coords (⟨n, hn⟩ : Fin cfg0.N)) := (isLast_iff (⟨n, hn⟩ : Fin cfg0.N)).mpr h5
  have e := stateAt_last V c (⟨n, hn⟩ : Fin cfg0.N) h0 h5
  have eacc : (stateAt V c n hn).2.2.2 = (updC (iblk V c 0 (⟨n, hn⟩ : Fin cfg0.N)) (iblk V c 1 (⟨n, hn⟩ : Fin cfg0.N)) (iblk V c 2 (⟨n, hn⟩ : Fin cfg0.N)) (iblk V c 3 (⟨n, hn⟩ : Fin cfg0.N)) (iblk V c 10 (⟨n, hn⟩ : Fin cfg0.N)) (iblk V c 11 (⟨n, hn⟩ : Fin cfg0.N)) (iblk V c 12 (⟨n, hn⟩ : Fin cfg0.N)) (iblk V c 13 (⟨n, hn⟩ : Fin cfg0.N)) (stateAt V c (n - 1) hp).2.2.2) :=
    (congrArg (fun s => s.2.2.2) e).trans (accC_Last_eq c (grid0.coords (⟨n, hn⟩ : Fin cfg0.N)) (ms_0 (⟨n, hn⟩ : Fin cfg0.N)) (hs_0 (⟨n, hn⟩ : Fin cfg0.N)) (ms_1 (⟨n, hn⟩ : Fin cfg0.N)) (hs_1 (⟨n, hn⟩ : Fin cfg0.N)) (ms_2 (⟨n, hn⟩ : Fin cfg0.N)) (hs_2 (⟨n, hn⟩ : Fin cfg0.N)) (ms_3 (⟨n, hn⟩ : Fin cfg0.N)) (hs_3 (⟨n, hn⟩ : Fin cfg0.N)) (ms_4 (⟨n, hn⟩ : Fin cfg0.N)) (hs_4 (⟨n, hn⟩ : Fin cfg0.N)) (ms_5 (⟨n, hn⟩ : Fin cfg0.N)) (hs_5 (⟨n, hn⟩ : Fin cfg0.N)) (ms_6 (⟨n, hn⟩ : Fin cfg0.N)) (hs_6 (⟨n, hn⟩ : Fin cfg0.N)) (ms_7 (⟨n, hn⟩ : Fin cfg0.N)) (hs_7 (⟨n, hn⟩ : Fin cfg0.N)) (ms_8 (⟨n, hn⟩ : Fin cfg0.N)) (hs_8 (⟨n, hn⟩ : Fin cfg0.N)) (ms_9 (⟨n, hn⟩ : Fin cfg0.N)) (hs_9 (⟨n, hn⟩ : Fin cfg0.N)) (ms_10 (⟨n, hn⟩ : Fin cfg0.N)) (hs_10 (⟨n, hn⟩ : Fin cfg0.N)) (ms_11 (⟨n, hn⟩ : Fin cfg0.N)) (hs_11 (⟨n, hn⟩ : Fin cfg0.N)) (ms_12 (⟨n, hn⟩ : Fin cfg0.N)) (hs_12 (⟨n, hn⟩ : Fin cfg0.N)) (ms_13 (⟨n, hn⟩ : Fin cfg0.N)) (hs_13 (⟨n, hn⟩ : Fin cfg0.N)) (ms_14 (⟨n, hn⟩ : Fin cfg0.N)) (hs_14 (⟨n, hn⟩ : Fin cfg0.N)) (ms_15 (⟨n, hn⟩ : Fin cfg0.N)) (hs_15 (⟨n, hn⟩ : Fin cfg0.N)) accH (Memref.isWhole_whole _) accC (Memref.isWhole_whole _) hcNF hcL (iblk V c 0 (⟨n, hn⟩ : Fin cfg0.N)) (iblk V c 1 (⟨n, hn⟩ : Fin cfg0.N)) (iblk V c 2 (⟨n, hn⟩ : Fin cfg0.N)) (iblk V c 3 (⟨n, hn⟩ : Fin cfg0.N)) (iblk V c 4 (⟨n, hn⟩ : Fin cfg0.N)) (iblk V c 5 (⟨n, hn⟩ : Fin cfg0.N)) (iblk V c 6 (⟨n, hn⟩ : Fin cfg0.N)) (iblk V c 7 (⟨n, hn⟩ : Fin cfg0.N)) (iblk V c 8 (⟨n, hn⟩ : Fin cfg0.N)) (iblk V c 9 (⟨n, hn⟩ : Fin cfg0.N)) (iblk V c 10 (⟨n, hn⟩ : Fin cfg0.N)) (iblk V c 11 (⟨n, hn⟩ : Fin cfg0.N)) (iblk V c 12 (⟨n, hn⟩ : Fin cfg0.N)) (iblk V c 13 (⟨n, hn⟩ : Fin cfg0.N)) (stateAt V c (n - 1) hp).2.2.1 (stateAt V c (n - 1) hp).2.2.2)
  rw [show stateAt V c n hn = _ from e]
  dsimp only
  rw [outC_Last_eq c (grid0.coords (⟨n, hn⟩ : Fin cfg0.N)) (ms_0 (⟨n, hn⟩ : Fin cfg0.N)) (hs_0 (⟨n, hn⟩ : Fin cfg0.N)) (ms_1 (⟨n, hn⟩ : Fin cfg0.N)) (hs_1 (⟨n, hn⟩ : Fin cfg0.N)) (ms_2 (⟨n, hn⟩ : Fin cfg0.N)) (hs_2 (⟨n, hn⟩ : Fin cfg0.N)) (ms_3 (⟨n, hn⟩ : Fin cfg0.N)) (hs_3 (⟨n, hn⟩ : Fin cfg0.N)) (ms_4 (⟨n, hn⟩ : Fin cfg0.N)) (hs_4 (⟨n, hn⟩ : Fin cfg0.N)) (ms_5 (⟨n, hn⟩ : Fin cfg0.N)) (hs_5 (⟨n, hn⟩ : Fin cfg0.N)) (ms_6 (⟨n, hn⟩ : Fin cfg0.N)) (hs_6 (⟨n, hn⟩ : Fin cfg0.N)) (ms_7 (⟨n, hn⟩ : Fin cfg0.N)) (hs_7 (⟨n, hn⟩ : Fin cfg0.N)) (ms_8 (⟨n, hn⟩ : Fin cfg0.N)) (hs_8 (⟨n, hn⟩ : Fin cfg0.N)) (ms_9 (⟨n, hn⟩ : Fin cfg0.N)) (hs_9 (⟨n, hn⟩ : Fin cfg0.N)) (ms_10 (⟨n, hn⟩ : Fin cfg0.N)) (hs_10 (⟨n, hn⟩ : Fin cfg0.N)) (ms_11 (⟨n, hn⟩ : Fin cfg0.N)) (hs_11 (⟨n, hn⟩ : Fin cfg0.N)) (ms_12 (⟨n, hn⟩ : Fin cfg0.N)) (hs_12 (⟨n, hn⟩ : Fin cfg0.N)) (ms_13 (⟨n, hn⟩ : Fin cfg0.N)) (hs_13 (⟨n, hn⟩ : Fin cfg0.N)) (ms_14 (⟨n, hn⟩ : Fin cfg0.N)) (hs_14 (⟨n, hn⟩ : Fin cfg0.N)) (ms_15 (⟨n, hn⟩ : Fin cfg0.N)) (hs_15 (⟨n, hn⟩ : Fin cfg0.N)) accH (Memref.isWhole_whole _) accC (Memref.isWhole_whole _) hcNF hcL (iblk V c 0 (⟨n, hn⟩ : Fin cfg0.N)) (iblk V c 1 (⟨n, hn⟩ : Fin cfg0.N)) (iblk V c 2 (⟨n, hn⟩ : Fin cfg0.N)) (iblk V c 3 (⟨n, hn⟩ : Fin cfg0.N)) (iblk V c 4 (⟨n, hn⟩ : Fin cfg0.N)) (iblk V c 5 (⟨n, hn⟩ : Fin cfg0.N)) (iblk V c 6 (⟨n, hn⟩ : Fin cfg0.N)) (iblk V c 7 (⟨n, hn⟩ : Fin cfg0.N)) (iblk V c 8 (⟨n, hn⟩ : Fin cfg0.N)) (iblk V c 9 (⟨n, hn⟩ : Fin cfg0.N)) (iblk V c 10 (⟨n, hn⟩ : Fin cfg0.N)) (iblk V c 11 (⟨n, hn⟩ : Fin cfg0.N)) (iblk V c 12 (⟨n, hn⟩ : Fin cfg0.N)) (iblk V c 13 (⟨n, hn⟩ : Fin cfg0.N)) (stateAt V c (n - 1) hp).2.2.1 (stateAt V c (n - 1) hp).2.2.2]
  refine (pay3_apply (Cf V c) (tileRow (n / 6)) (iblk V c 2 (⟨n, hn⟩ : Fin cfg0.N)) (updC (iblk V c 0 (⟨n, hn⟩ : Fin cfg0.N)) (iblk V c 1 (⟨n, hn⟩ : Fin cfg0.N)) (iblk V c 2 (⟨n, hn⟩ : Fin cfg0.N)) (iblk V c 3 (⟨n, hn⟩ : Fin cfg0.N)) (iblk V c 10 (⟨n, hn⟩ : Fin cfg0.N)) (iblk V c 11 (⟨n, hn⟩ : Fin cfg0.N)) (iblk V c 12 (⟨n, hn⟩ : Fin cfg0.N)) (iblk V c 13 (⟨n, hn⟩ : Fin cfg0.N)) (stateAt V c (n - 1) hp).2.2.2) (iblk2_apply V c (⟨n, hn⟩ : Fin cfg0.N)) a k).trans ?_
  unfold Cert.Spec.layerC
  refine congrArg (Cf V c (tileRow (n / 6) a) k + ·) (congrArg (· * ((1 / 768 : ℝ) : EReal)) ?_)
  exact (congrFun eacc.symm (ix2 a k)).trans (accC_full V c n hn h5 a k)

/-! ## From the blocks written back to the two result arrays -/

/-- The layer's new features and coordinates, as contents of the two result arrays. -/
def GH (c : Dev nD) : Buf (Elt Ideal) ((c : Thread nD τ).loc main_v31_0) :=
  fun (idx : (⟨2, ![768, 128]⟩ : Shape).Idx) => Cert.Spec.layerH (Hf V c) (Cf V c) (W1a V c) (W1b V c) (W1c V c) (B1 V c) (W2 V c) (B2 V c) (idx 0) (idx 1)
def GC (c : Dev nD) : Buf (Elt Ideal) ((c : Thread nD τ).loc main_v31_1) :=
  fun (idx : (⟨2, ![768, 3]⟩ : Shape).Idx) => Cert.Spec.layerC (Hf V c) (Cf V c) (Wca V c) (Wcb V c) (Wcc V c) (Bc V c) (idx 0) (idx 1)

theorem flushedH_eq (c : Dev nD) (t : Fin cfg0.N) (hf : (cfg0.win 14).flush t = true) :
    (dat V c).flushed 14 t = ((cfg0.win 14).blk t).view.read (Elt Ideal) (GH V c) := by
  have h5 : t.val % 6 = 5 := (flush0_14 t).mp hf
  have hN : t.val < 36 := lt_of_lt_of_eq t.isLt (show cfg0.N = 36 from N_0)
  show (cfg0.win 14).cut (grid0.coords t) ((dat V c).after 14 t) = _
  rw [after_14]
  funext j
  obtain ⟨a, d, rfl⟩ : ∃ (a : Fin 128) (d : Fin 128), j = ix2 a d := ⟨j 0, j 1, eq_ix2 j⟩
  show (stateAt V c t.val t.isLt).1 (ix2 a d) = GH V c (((cfg0.win 14).blk t).view.emb (ix2 a d))
  rw [outH_at_last V c t.val t.isLt (prevLt t) h5 a d]
  have e0 : (((cfg0.win 14).blk t).view.emb (ix2 a d)) (0 : Fin 2) = tileRow (t.val / 6) a := Fin.ext (by
    show win0_14.index t (0 : Fin 2) * 128 + 1 * a.val = (tileRow (t.val / 6) a).val
    rw [(idx_14 t).1, tileRow_val _ (by omega)]; omega)
  have e1 : (((cfg0.win 14).blk t).view.emb (ix2 a d)) (1 : Fin 2) = d := Fin.ext (by
    show win0_14.index t (1 : Fin 2) * 128 + 1 * d.val = d.val
    rw [(idx_14 t).2]; omega)
  exact congrArg₂ (fun i d => Cert.Spec.layerH (Hf V c) (Cf V c) (W1a V c) (W1b V c) (W1c V c) (B1 V c) (W2 V c) (B2 V c) i d) e0.symm e1.symm

theorem flushedC_eq (c : Dev nD) (t : Fin cfg0.N) (hf : (cfg0.win 15).flush t = true) :
    (dat V c).flushed 15 t = ((cfg0.win 15).blk t).view.read (Elt Ideal) (GC V c) := by
  have h5 : t.val % 6 = 5 := (flush0_15 t).mp hf
  have hN : t.val < 36 := lt_of_lt_of_eq t.isLt (show cfg0.N = 36 from N_0)
  show (cfg0.win 15).cut (grid0.coords t) ((dat V c).after 15 t) = _
  rw [after_15]
  funext j
  obtain ⟨a, k, rfl⟩ : ∃ (a : Fin 128) (k : Fin 3), j = ix2 a k := ⟨j 0, j 1, eq_ix2 j⟩
  show (stateAt V c t.val t.isLt).2.1 (ix2 a k) = GC V c (((cfg0.win 15).blk t).view.emb (ix2 a k))
  rw [outC_at_last V c t.val t.isLt (prevLt t) h5 a k]
  have e0 : (((cfg0.win 15).blk t).view.emb (ix2 a k)) (0 : Fin 2) = tileRow (t.val / 6) a := Fin.ext (by
    show win0_15.index t (0 : Fin 2) * 128 + 1 * a.val = (tileRow (t.val / 6) a).val
    rw [(idx_15 t).1, tileRow_val _ (by omega)]; omega)
  have e1 : (((cfg0.win 15).blk t).view.emb (ix2 a k)) (1 : Fin 2) = k := Fin.ext (by
    show win0_15.index t (1 : Fin 2) * 3 + 1 * k.val = k.val
    rw [(idx_15 t).2]; omega)
  exact congrArg₂ (fun i k => Cert.Spec.layerC (Hf V c) (Cf V c) (Wca V c) (Wcb V c) (Wcc V c) (Bc V c) i k) e0.symm e1.symm

/-- An index of a result array is in a point's block iff each coordinate is in the block's range on its axis. -/
theorem mem_blkH (t : Fin cfg0.N) (i : (⟨2, ![768, 128]⟩ : Shape).Idx) :
    i ∈ ((cfg0.win 14).blk t).view.set ↔ ∀ ax : Fin 2, win0_14.index t ax * S128x128.size ax ≤ (i ax).val ∧ (i ax).val < win0_14.index t ax * S128x128.size ax + S128x128.size ax := by
  show i ∈ ((View.whole main_v31_0).slice (win0_14.rect t)).set ↔ _
  rw [View.set_slice_whole, Rect.mem_set_unit]
  exact Iff.rfl
theorem mem_blkC (t : Fin cfg0.N) (i : (⟨2, ![768, 3]⟩ : Shape).Idx) :
    i ∈ ((cfg0.win 15).blk t).view.set ↔ ∀ ax : Fin 2, win0_15.index t ax * S128x3.size ax ≤ (i ax).val ∧ (i ax).val < win0_15.index t ax * S128x3.size ax + S128x3.size ax := by
  show i ∈ ((View.whole main_v31_1).slice (win0_15.rect t)).set ↔ _
  rw [View.set_slice_whole, Rect.mem_set_unit]
  exact Iff.rfl

/-- Row r of a result array is written back at the last step of its row tile. -/
theorem coverH (i : (⟨2, ![768, 128]⟩ : Shape).Idx) :
    ∃ t : Fin cfg0.N, (cfg0.win 14).flush t = true ∧ i ∈ ((cfg0.win 14).blk t).view.set := by
  have hi0 : (i 0).val < 768 := (i 0).isLt
  have hi1 : (i 1).val < 128 := (i 1).isLt
  have hN : cfg0.N = 36 := N_0
  refine ⟨⟨6 * ((i 0).val / 128) + 5, by rw [hN]; omega⟩, (flush0_14 _).mpr (by show (6 * ((i 0).val / 128) + 5) % 6 = 5; omega), ?_⟩
  rw [mem_blkH]
  intro ax
  match ax with
  | ⟨0, _⟩ =>
    show win0_14.index _ (0 : Fin 2) * 128 ≤ (i 0).val ∧ (i 0).val < win0_14.index _ (0 : Fin 2) * 128 + 128
    rw [(idx_14 _).1]
    show (6 * ((i 0).val / 128) + 5) / 6 * 128 ≤ (i 0).val ∧ (i 0).val < (6 * ((i 0).val / 128) + 5) / 6 * 128 + 128
    omega
  | ⟨1, _⟩ =>
    show win0_14.index _ (1 : Fin 2) * 128 ≤ (i 1).val ∧ (i 1).val < win0_14.index _ (1 : Fin 2) * 128 + 128
    rw [(idx_14 _).2]; omega
theorem coverC (i : (⟨2, ![768, 3]⟩ : Shape).Idx) :
    ∃ t : Fin cfg0.N, (cfg0.win 15).flush t = true ∧ i ∈ ((cfg0.win 15).blk t).view.set := by
  have hi0 : (i 0).val < 768 := (i 0).isLt
  have hi1 : (i 1).val < 3 := (i 1).isLt
  have hN : cfg0.N = 36 := N_0
  refine ⟨⟨6 * ((i 0).val / 128) + 5, by rw [hN]; omega⟩, (flush0_15 _).mpr (by show (6 * ((i 0).val / 128) + 5) % 6 = 5; omega), ?_⟩
  rw [mem_blkC]
  intro ax
  match ax with
  | ⟨0, _⟩ =>
    show win0_15.index _ (0 : Fin 2) * 128 ≤ (i 0).val ∧ (i 0).val < win0_15.index _ (0 : Fin 2) * 128 + 128
    rw [(idx_15 _).1]
    show (6 * ((i 0).val / 128) + 5) / 6 * 128 ≤ (i 0).val ∧ (i 0).val < (6 * ((i 0).val / 128) + 5) / 6 * 128 + 128
    omega
  | ⟨1, _⟩ =>
    show win0_15.index _ (1 : Fin 2) * 3 ≤ (i 1).val ∧ (i 1).val < win0_15.index _ (1 : Fin 2) * 3 + 3
    rw [(idx_15 _).2]; omega

/-- The two result arrays after the region. -/
theorem final_h (c : Dev nD) : (dat V c).arrAt 14 cfg0.N = GH V c :=
  (dat V c).arrAt_eq_of_cover 14 (GH V c) (flushedH_eq V c) coverH
theorem final_c (c : Dev nD) : (dat V c).arrAt 15 cfg0.N = GC V c :=
  (dat V c).arrAt_eq_of_cover 15 (GC V c) (flushedC_eq V c) coverC

/-- THE VALUE of layer 1's region: its first result array holds the layer's new features, -/
theorem value_h (c : Dev nD) (i : Fin 768) (d : Fin 128) : (dat (F := Ideal) V c).arrAt 14 cfg0.N (ValueIdx.ix2 i d)
      = Cert.Spec.layerH (fun i k => V c main_v6 (ValueIdx.ix2 i k)) (fun i k => V c main_v13 (ValueIdx.ix2 i k)) (fun k d => V c main_v15 (ValueIdx.ix2 k d)) (fun k d => V c main_v17 (ValueIdx.ix2 k d)) (fun d => V c main_v19 (ValueIdx.ix2 0 d)) (fun d => V c main_v20 (ValueIdx.ix2 0 d)) (fun k d => V c main_v22 (ValueIdx.ix2 k d)) (fun d => V c main_v23 (ValueIdx.ix2 0 d)) i d :=
  congrFun (final_h V c) (ix2 i d)

/-- and its second the new coordinates. -/
theorem value_c (c : Dev nD) (i : Fin 768) (k : Fin 3) : (dat (F := Ideal) V c).arrAt 15 cfg0.N (ValueIdx.ix2 i k)
      = Cert.Spec.layerC (fun i k => V c main_v6 (ValueIdx.ix2 i k)) (fun i k => V c main_v13 (ValueIdx.ix2 i k)) (fun k => V c main_v25 (ValueIdx.ix2 k 0)) (fun k => V c main_v27 (ValueIdx.ix2 k 0)) (V c main_v29 (ValueIdx.ix2 0 0)) (V c main_v30 (ValueIdx.ix2 0 0)) i k :=
  congrFun (final_c V c) (ix2 i k)

end Cert.KernelIdeal.Gen.Layer0.Value

end
-- ==== Proof.IdealLayer1ValuePieces.lean ====
/-
  What each kind of step of layer 2's kernel leaves in the two accumulators and the two outputs' buffers, as the kernel
  body's arithmetic applied to the tiles the step was given: the stored pieces, read back, are one covering store each,
  and every load reads a whole buffer.
-/
import proofs.«110946_j38972533244288_1_alg».proof.Proof.IdealLayer1Data
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Gen.Layer1.Value

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen Cert.KernelIdeal.Gen.Layer1

variable {F : FTy → Type} [FloatOps F] [Named F]

theorem hz : (![0, 0] : Fin 2 → Nat) = fun _ => 0 := funext fun a => by fin_cases a <;> rfl

/-- One step's new feature accumulator: the old one plus, for each receiving row, the sum over the tile's sending rows of the
    messages. -/
abbrev updH (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (acc : Vec F S128x128 .f32) : Vec F S128x128 .f32 :=
  k1_pay14 (k1_pay6 x0) (k1_pay7 x1) (k1_pay10 x2 x3) (k1_pay11 x4) (k1_pay12 x5) (k1_pay13 x6) x7 acc

/-- One step's new coordinate accumulator: the old one plus the sum over the tile's sending rows of the weighted coordinate
    differences. -/
abbrev updC (x0 : Vec F S128x128 .f32) (x1 : Vec F S128x128 .f32) (x2 : Vec F S128x3 .f32) (x3 : Vec F S128x3 .f32) (x10 : Vec F S128x1 .f32) (x11 : Vec F S128x1 .f32) (x12 : Vec F S1x1 .f32) (x13 : Vec F S1x1 .f32) (acc : Vec F S128x3 .f32) : Vec F S128x3 .f32 :=
  k1_pay1 (k1_pay9 x2 x3) (k1_pay15 x13) (k1_pay16 (k1_pay6 x0) (k1_pay7 x1) x10 x11) (k1_pay17 (k1_pay10 x2 x3)) (k1_pay18 x12) acc

theorem accH_First_eq (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i) (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32)  :
    accH_First c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13  = updH x0 x1 x2 x3 x4 x5 x6 x7 k1_pay4 := by
  unfold accH_First
  rw [View.read_writes_eq_canon _ _ _ (cover_accH_First c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 )]
  unfold stepFirst
  dsimp only
  sl_unfold_words
  rw [View.canon_cons_unit_zero (S := S128x128) hz, View.readCov_unit_zero (S := S128x128) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, harg19.read_unread, View.ld_unit_zero (S := S128x128) hz, View.ld_unit_zero (S := S128x3) hz, View.ld_unit_zero (S := S1x128) hz, View.ld_unit_zero (S := S128x1) hz, View.ld_unit_zero (S := S1x1) hz]

theorem accC_First_eq (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i) (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32)  :
    accC_First c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13  = updC x0 x1 x2 x3 x10 x11 x12 x13 k1_pay5 := by
  unfold accC_First
  rw [View.read_writes_eq_canon _ _ _ (cover_accC_First c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 )]
  unfold stepFirst
  dsimp only
  sl_unfold_words
  rw [View.canon_cons_unit_zero (S := S128x3) hz, View.readCov_unit_zero (S := S128x3) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, harg19.read_unread, View.ld_unit_zero (S := S128x128) hz, View.ld_unit_zero (S := S128x3) hz, View.ld_unit_zero (S := S1x128) hz, View.ld_unit_zero (S := S128x1) hz, View.ld_unit_zero (S := S1x1) hz]

theorem accH_Mid_eq (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i) (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) :
    accH_Mid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 = updH x0 x1 x2 x3 x4 x5 x6 x7 xs0 := by
  unfold accH_Mid
  rw [View.read_writes_eq_canon _ _ _ (cover_accH_Mid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1)]
  unfold stepMid
  dsimp only
  sl_unfold_words
  rw [View.canon_unit_zero (S := S128x128) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, harg19.read_unread, View.ld_unit_zero (S := S128x128) hz, View.ld_unit_zero (S := S128x3) hz, View.ld_unit_zero (S := S1x128) hz, View.ld_unit_zero (S := S128x1) hz, View.ld_unit_zero (S := S1x1) hz]

theorem accC_Mid_eq (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i) (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) :
    accC_Mid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 = updC x0 x1 x2 x3 x10 x11 x12 x13 xs1 := by
  unfold accC_Mid
  rw [View.read_writes_eq_canon _ _ _ (cover_accC_Mid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1)]
  unfold stepMid
  dsimp only
  sl_unfold_words
  rw [View.canon_unit_zero (S := S128x3) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, harg19.read_unread, View.ld_unit_zero (S := S128x128) hz, View.ld_unit_zero (S := S128x3) hz, View.ld_unit_zero (S := S1x128) hz, View.ld_unit_zero (S := S128x1) hz, View.ld_unit_zero (S := S1x1) hz]

theorem accH_Last_eq (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i) (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) :
    accH_Last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 = updH x0 x1 x2 x3 x4 x5 x6 x7 xs0 := by
  unfold accH_Last
  rw [View.read_writes_eq_canon _ _ _ (cover_accH_Last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1)]
  unfold stepLast
  dsimp only
  sl_unfold_words
  rw [View.canon_unit_zero (S := S128x128) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, harg19.read_unread, View.ld_unit_zero (S := S128x128) hz, View.ld_unit_zero (S := S128x3) hz, View.ld_unit_zero (S := S1x128) hz, View.ld_unit_zero (S := S128x1) hz, View.ld_unit_zero (S := S1x1) hz]

theorem accC_Last_eq (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i) (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) :
    accC_Last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 = updC x0 x1 x2 x3 x10 x11 x12 x13 xs1 := by
  unfold accC_Last
  rw [View.read_writes_eq_canon _ _ _ (cover_accC_Last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1)]
  unfold stepLast
  dsimp only
  sl_unfold_words
  rw [View.canon_unit_zero (S := S128x3) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, harg19.read_unread, View.ld_unit_zero (S := S128x128) hz, View.ld_unit_zero (S := S128x3) hz, View.ld_unit_zero (S := S1x128) hz, View.ld_unit_zero (S := S128x1) hz, View.ld_unit_zero (S := S1x1) hz]

theorem outH_Last_eq (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i) (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) :
    outH_Last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 = k1_pay2 (k1_pay6 x0) (updH x0 x1 x2 x3 x4 x5 x6 x7 xs0) x8 x9 := by
  unfold outH_Last
  rw [View.read_writes_eq_canon _ _ _ (cover_outH_Last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1)]
  unfold stepLast
  dsimp only
  sl_unfold_words
  rw [View.canon_unit_zero (S := S128x128) hz, View.readCov_unit_zero (S := S128x128) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, harg19.read_unread, View.ld_unit_zero (S := S128x128) hz, View.ld_unit_zero (S := S128x3) hz, View.ld_unit_zero (S := S1x128) hz, View.ld_unit_zero (S := S128x1) hz, View.ld_unit_zero (S := S1x1) hz]

theorem outC_Last_eq (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i) (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) :
    outC_Last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 = k1_pay3 (k1_pay8 x2) (updC x0 x1 x2 x3 x10 x11 x12 x13 xs1) := by
  unfold outC_Last
  rw [View.read_writes_eq_canon _ _ _ (cover_outC_Last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1)]
  unfold stepLast
  dsimp only
  sl_unfold_words
  rw [View.canon_unit_zero (S := S128x3) hz, View.readCov_unit_zero (S := S128x3) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, harg19.read_unread, View.ld_unit_zero (S := S128x128) hz, View.ld_unit_zero (S := S128x3) hz, View.ld_unit_zero (S := S1x128) hz, View.ld_unit_zero (S := S128x1) hz, View.ld_unit_zero (S := S1x1) hz]

end Cert.KernelIdeal.Gen.Layer1.Value

end
-- ==== Proof.IdealLayer1ValuePay.lean ====
/-
  The arithmetic of layer 2's kernel body read at an index, at the ideal values: when the tiles a step is given are rows
  I(·) and J(·) of the node features and coordinates and the weights themselves, each stored value is the specification's
  formula at those rows — the coordinate differences, the clamped distance, the message and coordinate-weight sums over the
  tile's sending rows added to the accumulators, and at the last step the scaled sums through the second linear map added to
  the residual.
-/
import proofs.«110946_j38972533244288_1_alg».proof.Proof.Gen.KernelIdeal.Skeleton
import proofs.«110946_j38972533244288_1_alg».proof.Proof.LayerSpec
import proofs.«110946_j38972533244288_1_alg».proof.Proof.LibLayout3
import proofs.«110946_j38972533244288_1_alg».proof.Proof.LibMatmulAt

set_option maxRecDepth 16384

noncomputable section

open scoped BigOperators

namespace Cert.KernelIdeal.Gen.Layer1.Value

open Idealize.ShloMosaic Idealize.ShloMosaic.ValueIdx
open Cert.KernelIdeal Cert.KernelIdeal.Gen Cert.Lib

/-- The sum over the middle axis of a rank-three array, from the zero word, at `(i, k)`. -/
theorem sumAxis1_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = 0x00000000#32) (i : Fin a) (k : Fin c) :
    multiReduction .add [1] ⟨2, ![a, c]⟩ src 0x00000000#32 h hφ hacc (ix2 i k) = ∑ j : Fin b, src (ix3 i j k) :=
  (Ideal.multiReduction_add_single src 0x00000000#32 h hφ hacc (ix2 i k)).trans
    (Finset.sum_congr rfl fun j _ => congrArg src (lift_axis1 h i k j))

/-- The sum over the last axis of a rank-three array, from the zero word, at `(i, j)`. -/
theorem sumAxis2_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ k : Fin c, src (ix3 i j k) :=
  (Ideal.multiReduction_add_single src 0x00000000#32 h hφ hacc (ix2 i j)).trans
    (Finset.sum_congr rfl fun k _ => congrArg src (lift_axis2 h i j k))

/-- The product of two 128×128 tiles into the zero block, at an entry. -/
theorem mm_apply (A B : FVec Ideal S128x128 .f32) (a d : Fin 128) :
    matmul dot_S128x128_S128x128_S128x128_1_0_0_1_n_n none A B (constant S128x128 .f32 0x00000000#32) (ix2 a d)
      = ∑ k : Fin 128, A (ix2 a k) * B (ix2 k d) :=
  matmul_plain_zero_apply _ none A B a d

/-- The product of a 128×128 tile and a 128×1 column into the zero column, at an entry. -/
theorem mv_apply (A : FVec Ideal S128x128 .f32) (B : FVec Ideal S128x1 .f32) (a : Fin 128) (u : Fin 1) :
    matmul dot_S128x128_S128x1_S128x1_1_0_0_1_n_n none A B (constant S128x1 .f32 0x00000000#32) (ix2 a u)
      = ∑ k : Fin 128, A (ix2 a k) * B (ix2 k u) :=
  matmul_plain_zero_apply _ none A B a u

/-- The kernel's named reciprocal is the rational 1/768. -/
theorem inv_768 : Named.named (F := Ideal) Cert.KernelIdeal.κ "inv_768" (φ := .f32) 0x3AAAAAAB#32 = ((1 / 768 : ℝ) : EReal) :=
  IdealRules.named_const.ideal_named_scalar _ _ _ _ rfl

/-- The zero blocks the first step stores. -/
theorem pay4_apply (a d : Fin 128) : k1_pay4 (F := Ideal) (ix2 a d) = 0 := by
  unfold k1_pay4
  try dsimp only
  rw [shapeCast_self, broadcast_apply]
  exact Ideal.ofBits_zero_f32
theorem pay5_apply (a : Fin 128) (k : Fin 3) : k1_pay5 (F := Ideal) (ix2 a k) = 0 := by
  unfold k1_pay5
  try dsimp only
  rw [shapeCast_self, broadcast_apply]
  exact Ideal.ofBits_zero_f32

/-- The coordinate differences between the receiving tile's rows and the sending tile's. -/
theorem pay9_apply (cc : Fin 768 → Fin 3 → EReal) (I J : Fin 128 → Fin 768) (x2 : Vec Ideal S128x3 .f32) (x3 : Vec Ideal S128x3 .f32) (h2 : ∀ a k, x2 (ix2 a k) = cc (I a) k) (h3 : ∀ b k, x3 (ix2 b k) = cc (J b) k) (a b : Fin 128) (k : Fin 3) :
    k1_pay9 x2 x3 (ix3 a b k) = Cert.Spec.rel cc (I a) (J b) k := by
  unfold k1_pay9 k1_pay8
  try dsimp only
  rw [subf_apply, bcast_a1c_apply, bcast_1bc_apply, shapeCast_ab_a1b_apply, shapeCast_ab_1ab_apply, shapeCast_self, shapeCast_self, h2, h3]
  rfl

/-- The clamped distance. -/
theorem pay10_apply (cc : Fin 768 → Fin 3 → EReal) (I J : Fin 128 → Fin 768) (x2 : Vec Ideal S128x3 .f32) (x3 : Vec Ideal S128x3 .f32) (h2 : ∀ a k, x2 (ix2 a k) = cc (I a) k) (h3 : ∀ b k, x3 (ix2 b k) = cc (J b) k) (a b : Fin 128) :
    k1_pay10 x2 x3 (ix2 a b) = Cert.Spec.dist cc (I a) (J b) := by
  have hS : multiReduction .add [2] S128x128 (mulf (k1_pay9 x2 x3) (k1_pay9 x2 x3)) 0x00000000#32 reduces_S128x128x3_S128x128 (.inl rfl) rfl (ix2 a b)
      = Cert.Spec.sq cc (I a) (J b) := by
    rw [sumAxis2_apply]
    exact Finset.sum_congr rfl fun k _ => by rw [mulf_apply, pay9_apply cc I J x2 x3 h2 h3]
  unfold k1_pay10
  try dsimp only
  simp only [select_apply, sqrt_apply, cmpf_apply, broadcast_apply, hS, Ideal.cmpf_def, Ideal.ofBits_def, Ideal.ofBits_zero_f32, ofBits_one_f32]
  rfl

/-- The feature accumulator's update: the sum over the tile's sending rows of the messages. -/
theorem pay14_apply (h : Fin 768 → Fin 128 → EReal) (cc : Fin 768 → Fin 3 → EReal) (w1a w1b : Fin 128 → Fin 128 → EReal) (w1c b1 : Fin 128 → EReal) (I J : Fin 128 → Fin 768) (x0 : Vec Ideal S128x128 .f32) (x1 : Vec Ideal S128x128 .f32) (x2 : Vec Ideal S128x3 .f32) (x3 : Vec Ideal S128x3 .f32) (x4 : Vec Ideal S128x128 .f32) (x5 : Vec Ideal S128x128 .f32) (x6 : Vec Ideal S1x128 .f32) (x7 : Vec Ideal S1x128 .f32) (acc : Vec Ideal S128x128 .f32)
    (h0 : ∀ a k, x0 (ix2 a k) = h (I a) k) (h1 : ∀ b k, x1 (ix2 b k) = h (J b) k) (h2 : ∀ a k, x2 (ix2 a k) = cc (I a) k) (h3 : ∀ b k, x3 (ix2 b k) = cc (J b) k) (h4 : ∀ k d, x4 (ix2 k d) = w1a k d) (h5 : ∀ k d, x5 (ix2 k d) = w1b k d) (h6 : ∀ d, x6 (ix2 (0 : Fin 1) d) = w1c d) (h7 : ∀ d, x7 (ix2 (0 : Fin 1) d) = b1 d) (a d : Fin 128) :
    k1_pay14 (k1_pay6 x0) (k1_pay7 x1) (k1_pay10 x2 x3) (k1_pay11 x4) (k1_pay12 x5) (k1_pay13 x6) x7 acc (ix2 a d)
      = acc (ix2 a d) + ∑ b : Fin 128, Cert.Spec.silu (Cert.Spec.pre h cc w1a w1b w1c b1 (I a) (J b) d) := by
  unfold k1_pay14
  try dsimp only
  rw [shapeCast_self, addf_apply, sumAxis1_apply]
  refine congrArg (acc (ix2 a d) + ·) (Finset.sum_congr rfl fun b _ => ?_)
  simp only [mulf_apply, addf_apply, logistic_apply, bcast_a1c_apply, bcast_1bc_apply, bcast_ab1_apply, bcast_11c_apply,
    shapeCast_ab_a1b_apply, shapeCast_ab_1ab_apply, shapeCast_ab_ab1_apply, shapeCast_self, mm_apply,
    pay10_apply cc I J x2 x3 h2 h3, k1_pay6, k1_pay7, k1_pay11, k1_pay12, k1_pay13, h0, h1, h4, h5, h6, h7]
  rfl

/-- The coordinate accumulator's update: the sum over the tile's sending rows of the weighted coordinate differences. -/
theorem pay1_apply (h : Fin 768 → Fin 128 → EReal) (cc : Fin 768 → Fin 3 → EReal) (wca wcb : Fin 128 → EReal) (wcc bc : EReal) (I J : Fin 128 → Fin 768) (x0 : Vec Ideal S128x128 .f32) (x1 : Vec Ideal S128x128 .f32) (x2 : Vec Ideal S128x3 .f32) (x3 : Vec Ideal S128x3 .f32) (x10 : Vec Ideal S128x1 .f32) (x11 : Vec Ideal S128x1 .f32) (x12 : Vec Ideal S1x1 .f32) (x13 : Vec Ideal S1x1 .f32) (acc : Vec Ideal S128x3 .f32)
    (h0 : ∀ a k, x0 (ix2 a k) = h (I a) k) (h1 : ∀ b k, x1 (ix2 b k) = h (J b) k) (h2 : ∀ a k, x2 (ix2 a k) = cc (I a) k) (h3 : ∀ b k, x3 (ix2 b k) = cc (J b) k) (h10 : ∀ k, x10 (ix2 k (0 : Fin 1)) = wca k) (h11 : ∀ k, x11 (ix2 k (0 : Fin 1)) = wcb k) (h12 : x12 (ix2 (0 : Fin 1) (0 : Fin 1)) = wcc) (h13 : x13 (ix2 (0 : Fin 1) (0 : Fin 1)) = bc) (a : Fin 128) (k : Fin 3) :
    k1_pay1 (k1_pay9 x2 x3) (k1_pay15 x13) (k1_pay16 (k1_pay6 x0) (k1_pay7 x1) x10 x11) (k1_pay17 (k1_pay10 x2 x3)) (k1_pay18 x12) acc (ix2 a k)
      = acc (ix2 a k) + ∑ b : Fin 128, Cert.Spec.silu (Cert.Spec.wpre h cc wca wcb wcc bc (I a) (J b)) * Cert.Spec.rel cc (I a) (J b) k := by
  unfold k1_pay1
  try dsimp only
  rw [shapeCast_self, addf_apply, sumAxis1_apply]
  refine congrArg (acc (ix2 a k) + ·) (Finset.sum_congr rfl fun b _ => ?_)
  simp only [mulf_apply, addf_apply, logistic_apply, bcast_a1c_apply, bcast_1bc_apply, bcast_ab1_apply, bcast_11c_apply,
    shapeCast_ab_a1b_apply, shapeCast_ab_1ab_apply, shapeCast_ab_ab1_apply, shapeCast_self, mv_apply,
    pay10_apply cc I J x2 x3 h2 h3, pay9_apply cc I J x2 x3 h2 h3, k1_pay6, k1_pay7, k1_pay15, k1_pay16, k1_pay17, k1_pay18, h0, h1, h10, h11, h12, h13]
  rfl

/-- The new features of the receiving tile: the residual plus the second linear map of the scaled message sums. -/
theorem pay2_apply (h : Fin 768 → Fin 128 → EReal) (w2 : Fin 128 → Fin 128 → EReal) (b2 : Fin 128 → EReal) (I : Fin 128 → Fin 768) (x0 : Vec Ideal S128x128 .f32) (x8 : Vec Ideal S128x128 .f32) (x9 : Vec Ideal S1x128 .f32) (acc : Vec Ideal S128x128 .f32) (h0 : ∀ a k, x0 (ix2 a k) = h (I a) k) (h8 : ∀ k d, x8 (ix2 k d) = w2 k d) (h9 : ∀ d, x9 (ix2 (0 : Fin 1) d) = b2 d) (a d : Fin 128) :
    k1_pay2 (k1_pay6 x0) acc x8 x9 (ix2 a d)
      = h (I a) d + ((∑ k : Fin 128, (acc (ix2 a k) * ((1 / 768 : ℝ) : EReal)) * w2 k d) + b2 d) := by
  unfold k1_pay2
  try dsimp only
  simp only [addf_apply, mm_apply, mulf_apply, broadcast_apply, broadcastTo_1b_ab_apply, shapeCast_self, k1_pay6, inv_768, h0, h8, h9]

/-- The new coordinates of the receiving tile: the residual plus the scaled weighted sums. -/
theorem pay3_apply (cc : Fin 768 → Fin 3 → EReal) (I : Fin 128 → Fin 768) (x2 : Vec Ideal S128x3 .f32) (acc : Vec Ideal S128x3 .f32) (h2 : ∀ a k, x2 (ix2 a k) = cc (I a) k) (a : Fin 128) (k : Fin 3) :
    k1_pay3 (k1_pay8 x2) acc (ix2 a k) = cc (I a) k + acc (ix2 a k) * ((1 / 768 : ℝ) : EReal) := by
  unfold k1_pay3
  try dsimp only
  simp only [addf_apply, mulf_apply, broadcast_apply, shapeCast_self, k1_pay8, inv_768, h2]

end Cert.KernelIdeal.Gen.Layer1.Value

end
-- ==== Proof.IdealLayer1ValueBlocks.lean ====
/-
  Layer 2's kernel windows read off the arrays at the region's entry: the tile a window stages at a grid point, index by
  index (a row tile of the features or coordinates at the point's quotient or remainder by 6; a weight whole), and the rows
  of the two result arrays the point's output blocks hold.
-/
import proofs.«110946_j38972533244288_1_alg».proof.Proof.IdealLayer1Data
import Idealize.ShloMosaic.Lib.Pipeline.Value
import Idealize.ShloMosaic.Lib.ValueIdx

set_option maxRecDepth 16384

noncomputable section

open scoped BigOperators

namespace Cert.KernelIdeal.Gen.Layer1.Value

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen Cert.KernelIdeal.Gen.Layer1

/-- Row `a` of row tile `q` among the 768 rows. -/
def tileRow (q : ℕ) (a : Fin 128) : Fin 768 := ⟨(q * 128 + a.val) % 768, Nat.mod_lt _ (by decide)⟩

theorem tileRow_val (q : ℕ) (hq : q < 6) (a : Fin 128) : (tileRow q a).val = q * 128 + a.val := by
  have := a.isLt
  show (q * 128 + a.val) % 768 = _
  omega

/-! ## The block indices of the windows, decided over the grid -/

theorem idx_0 : ∀ t : Fin cfg1.N, win1_0.index t (0 : Fin 2) = t.val / 6 ∧ win1_0.index t (1 : Fin 2) = 0 :=
  (by decide +kernel : ∀ t : Fin grid1.N, win1_0.index t (0 : Fin 2) = t.val / 6 ∧ win1_0.index t (1 : Fin 2) = 0)
theorem idx_1 : ∀ t : Fin cfg1.N, win1_1.index t (0 : Fin 2) = t.val % 6 ∧ win1_1.index t (1 : Fin 2) = 0 :=
  (by decide +kernel : ∀ t : Fin grid1.N, win1_1.index t (0 : Fin 2) = t.val % 6 ∧ win1_1.index t (1 : Fin 2) = 0)
theorem idx_2 : ∀ t : Fin cfg1.N, win1_2.index t (0 : Fin 2) = t.val / 6 ∧ win1_2.index t (1 : Fin 2) = 0 :=
  (by decide +kernel : ∀ t : Fin grid1.N, win1_2.index t (0 : Fin 2) = t.val / 6 ∧ win1_2.index t (1 : Fin 2) = 0)
theorem idx_3 : ∀ t : Fin cfg1.N, win1_3.index t (0 : Fin 2) = t.val % 6 ∧ win1_3.index t (1 : Fin 2) = 0 :=
  (by decide +kernel : ∀ t : Fin grid1.N, win1_3.index t (0 : Fin 2) = t.val % 6 ∧ win1_3.index t (1 : Fin 2) = 0)
theorem idx_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem idx_5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
theorem idx_6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)
theorem idx_7 : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)
theorem idx_8 : ∀ t : Fin cfg1.N, win1_8.index t (0 : Fin 2) = 0 ∧ win1_8.index t (1 : Fin 2) = 0 :=
  (by decide +kernel : ∀ t : Fin grid1.N, win1_8.index t (0 : Fin 2) = 0 ∧ win1_8.index t (1 : Fin 2) = 0)
theorem idx_9 : ∀ t : Fin cfg1.N, win1_9.index t (0 : Fin 2) = 0 ∧ win1_9.index t (1 : Fin 2) = 0 :=
  (by decide +kernel : ∀ t : Fin grid1.N, win1_9.index t (0 : Fin 2) = 0 ∧ win1_9.index t (1 : Fin 2) = 0)
theorem idx_10 : ∀ t : Fin cfg1.N, win1_10.index t (0 : Fin 2) = 0 ∧ win1_10.index t (1 : Fin 2) = 0 :=
  (by decide +kernel : ∀ t : Fin grid1.N, win1_10.index t (0 : Fin 2) = 0 ∧ win1_10.index t (1 : Fin 2) = 0)
theorem idx_11 : ∀ t : Fin cfg1.N, win1_11.index t (0 : Fin 2) = 0 ∧ win1_11.index t (1 : Fin 2) = 0 :=
  (by decide +kernel : ∀ t : Fin grid1.N, win1_11.index t (0 : Fin 2) = 0 ∧ win1_11.index t (1 : Fin 2) = 0)
theorem idx_12 : ∀ t : Fin cfg1.N, win1_12.index t (0 : Fin 2) = 0 ∧ win1_12.index t (1 : Fin 2) = 0 :=
  (by decide +kernel : ∀ t : Fin grid1.N, win1_12.index t (0 : Fin 2) = 0 ∧ win1_12.index t (1 : Fin 2) = 0)
theorem idx_13 : ∀ t : Fin cfg1.N, win1_13.index t (0 : Fin 2) = 0 ∧ win1_13.index t (1 : Fin 2) = 0 :=
  (by decide +kernel : ∀ t : Fin grid1.N, win1_13.index t (0 : Fin 2) = 0 ∧ win1_13.index t (1 : Fin 2) = 0)
theorem idx_14 : ∀ t : Fin cfg1.N, win1_14.index t (0 : Fin 2) = t.val / 6 ∧ win1_14.index t (1 : Fin 2) = 0 :=
  (by decide +kernel : ∀ t : Fin grid1.N, win1_14.index t (0 : Fin 2) = t.val / 6 ∧ win1_14.index t (1 : Fin 2) = 0)
theorem idx_15 : ∀ t : Fin cfg1.N, win1_15.index t (0 : Fin 2) = t.val / 6 ∧ win1_15.index t (1 : Fin 2) = 0 :=
  (by decide +kernel : ∀ t : Fin grid1.N, win1_15.index t (0 : Fin 2) = t.val / 6 ∧ win1_15.index t (1 : Fin 2) = 0)

section Blocks
variable {F : FTy → Type} [FloatOps F] [Named F]
variable (V : (c : Dev nD) → (b : Ref sig .tc) → Buf (Elt F) ((c : Thread nD τ).loc b))

/-! ## Each input's tile at a point, index by index -/

theorem iblk0_apply (c : Dev nD) (t : Fin cfg1.N) (a : Fin 128) (k : Fin 128) :
    (iblk V c 0 t : Vec F S128x128 .f32) (ix2 a k) = V c main_v31_0 (ix2 (tileRow (t.val / 6) a) k) := by
  have hN : t.val < 36 := lt_of_lt_of_eq t.isLt (show cfg1.N = 36 from N_1)
  unfold iblk
  rw [View.read_apply]
  show V c main_v31_0 _ = V c main_v31_0 _
  congr 1
  funext ax
  apply Fin.ext
  match ax with
  | ⟨0, _⟩ => show win1_0.index t (0 : Fin 2) * 128 + 1 * a.val = ((t.val / 6) * 128 + a.val) % 768; rw [(idx_0 t).1]; omega
  | ⟨1, _⟩ => show win1_0.index t (1 : Fin 2) * 128 + 1 * k.val = k.val; rw [(idx_0 t).2]; omega

theorem iblk1_apply (c : Dev nD) (t : Fin cfg1.N) (a : Fin 128) (k : Fin 128) :
    (iblk V c 1 t : Vec F S128x128 .f32) (ix2 a k) = V c main_v31_0 (ix2 (tileRow (t.val % 6) a) k) := by
  have hN : t.val < 36 := lt_of_lt_of_eq t.isLt (show cfg1.N = 36 from N_1)
  unfold iblk
  rw [View.read_apply]
  show V c main_v31_0 _ = V c main_v31_0 _
  congr 1
  funext ax
  apply Fin.ext
  match ax with
  | ⟨0, _⟩ => show win1_1.index t (0 : Fin 2) * 128 + 1 * a.val = ((t.val % 6) * 128 + a.val) % 768; rw [(idx_1 t).1]; omega
  | ⟨1, _⟩ => show win1_1.index t (1 : Fin 2) * 128 + 1 * k.val = k.val; rw [(idx_1 t).2]; omega

theorem iblk2_apply (c : Dev nD) (t : Fin cfg1.N) (a : Fin 128) (k : Fin 3) :
    (iblk V c 2 t : Vec F S128x3 .f32) (ix2 a k) = V c main_v31_1 (ix2 (tileRow (t.val / 6) a) k) := by
  have hN : t.val < 36 := lt_of_lt_of_eq t.isLt (show cfg1.N = 36 from N_1)
  unfold iblk
  rw [View.read_apply]
  show V c main_v31_1 _ = V c main_v31_1 _
  congr 1
  funext ax
  apply Fin.ext
  match ax with
  | ⟨0, _⟩ => show win1_2.index t (0 : Fin 2) * 128 + 1 * a.val = ((t.val / 6) * 128 + a.val) % 768; rw [(idx_2 t).1]; omega
  | ⟨1, _⟩ => show win1_2.index t (1 : Fin 2) * 3 + 1 * k.val = k.val; rw [(idx_2 t).2]; omega

theorem iblk3_apply (c : Dev nD) (t : Fin cfg1.N) (a : Fin 128) (k : Fin 3) :
    (iblk V c 3 t : Vec F S128x3 .f32) (ix2 a k) = V c main_v31_1 (ix2 (tileRow (t.val % 6) a) k) := by
  have hN : t.val < 36 := lt_of_lt_of_eq t.isLt (show cfg1.N = 36 from N_1)
  unfold iblk
  rw [View.read_apply]
  show V c main_v31_1 _ = V c main_v31_1 _
  congr 1
  funext ax
  apply Fin.ext
  match ax with
  | ⟨0, _⟩ => show win1_3.index t (0 : Fin 2) * 128 + 1 * a.val = ((t.val % 6) * 128 + a.val) % 768; rw [(idx_3 t).1]; omega
  | ⟨1, _⟩ => show win1_3.index t (1 : Fin 2) * 3 + 1 * k.val = k.val; rw [(idx_3 t).2]; omega

theorem iblk4_apply (c : Dev nD) (t : Fin cfg1.N) (a : Fin 128) (k : Fin 128) :
    (iblk V c 4 t : Vec F S128x128 .f32) (ix2 a k) = V c main_v33 (ix2 a k) := by
  have hN : t.val < 36 := lt_of_lt_of_eq t.isLt (show cfg1.N = 36 from N_1)
  unfold iblk
  rw [View.read_apply]
  show V c main_v33 _ = V c main_v33 _
  congr 1
  funext ax
  apply Fin.ext
  match ax with
  | ⟨0, _⟩ => show win1_4.index t (0 : Fin 2) * 128 + 1 * a.val = a.val; rw [(idx_4 t).1]; omega
  | ⟨1, _⟩ => show win1_4.index t (1 : Fin 2) * 128 + 1 * k.val = k.val; rw [(idx_4 t).2]; omega

theorem iblk5_apply (c : Dev nD) (t : Fin cfg1.N) (a : Fin 128) (k : Fin 128) :
    (iblk V c 5 t : Vec F S128x128 .f32) (ix2 a k) = V c main_v35 (ix2 a k) := by
  have hN : t.val < 36 := lt_of_lt_of_eq t.isLt (show cfg1.N = 36 from N_1)
  unfold iblk
  rw [View.read_apply]
  show V c main_v35 _ = V c main_v35 _
  congr 1
  funext ax
  apply Fin.ext
  match ax with
  | ⟨0, _⟩ => show win1_5.index t (0 : Fin 2) * 128 + 1 * a.val = a.val; rw [(idx_5 t).1]; omega
  | ⟨1, _⟩ => show win1_5.index t (1 : Fin 2) * 128 + 1 * k.val = k.val; rw [(idx_5 t).2]; omega

theorem iblk6_apply (c : Dev nD) (t : Fin cfg1.N) (a : Fin 1) (k : Fin 128) :
    (iblk V c 6 t : Vec F S1x128 .f32) (ix2 a k) = V c main_v37 (ix2 a k) := by
  have hN : t.val < 36 := lt_of_lt_of_eq t.isLt (show cfg1.N = 36 from N_1)
  unfold iblk
  rw [View.read_apply]
  show V c main_v37 _ = V c main_v37 _
  congr 1
  funext ax
  apply Fin.ext
  match ax with
  | ⟨0, _⟩ => show win1_6.index t (0 : Fin 2) * 1 + 1 * a.val = a.val; rw [(idx_6 t).1]; omega
  | ⟨1, _⟩ => show win1_6.index t (1 : Fin 2) * 128 + 1 * k.val = k.val; rw [(idx_6 t).2]; omega

theorem iblk7_apply (c : Dev nD) (t : Fin cfg1.N) (a : Fin 1) (k : Fin 128) :
    (iblk V c 7 t : Vec F S1x128 .f32) (ix2 a k) = V c main_v38 (ix2 a k) := by
  have hN : t.val < 36 := lt_of_lt_of_eq t.isLt (show cfg1.N = 36 from N_1)
  unfold iblk
  rw [View.read_apply]
  show V c main_v38 _ = V c main_v38 _
  congr 1
  funext ax
  apply Fin.ext
  match ax with
  | ⟨0, _⟩ => show win1_7.index t (0 : Fin 2) * 1 + 1 * a.val = a.val; rw [(idx_7 t).1]; omega
  | ⟨1, _⟩ => show win1_7.index t (1 : Fin 2) * 128 + 1 * k.val = k.val; rw [(idx_7 t).2]; omega

theorem iblk8_apply (c : Dev nD) (t : Fin cfg1.N) (a : Fin 128) (k : Fin 128) :
    (iblk V c 8 t : Vec F S128x128 .f32) (ix2 a k) = V c main_v40 (ix2 a k) := by
  have hN : t.val < 36 := lt_of_lt_of_eq t.isLt (show cfg1.N = 36 from N_1)
  unfold iblk
  rw [View.read_apply]
  show V c main_v40 _ = V c main_v40 _
  congr 1
  funext ax
  apply Fin.ext
  match ax with
  | ⟨0, _⟩ => show win1_8.index t (0 : Fin 2) * 128 + 1 * a.val = a.val; rw [(idx_8 t).1]; omega
  | ⟨1, _⟩ => show win1_8.index t (1 : Fin 2) * 128 + 1 * k.val = k.val; rw [(idx_8 t).2]; omega

theorem iblk9_apply (c : Dev nD) (t : Fin cfg1.N) (a : Fin 1) (k : Fin 128) :
    (iblk V c 9 t : Vec F S1x128 .f32) (ix2 a k) = V c main_v41 (ix2 a k) := by
  have hN : t.val < 36 := lt_of_lt_of_eq t.isLt (show cfg1.N = 36 from N_1)
  unfold iblk
  rw [View.read_apply]
  show V c main_v41 _ = V c main_v41 _
  congr 1
  funext ax
  apply Fin.ext
  match ax with
  | ⟨0, _⟩ => show win1_9.index t (0 : Fin 2) * 1 + 1 * a.val = a.val; rw [(idx_9 t).1]; omega
  | ⟨1, _⟩ => show win1_9.index t (1 : Fin 2) * 128 + 1 * k.val = k.val; rw [(idx_9 t).2]; omega

theorem iblk10_apply (c : Dev nD) (t : Fin cfg1.N) (a : Fin 128) (k : Fin 1) :
    (iblk V c 10 t : Vec F S128x1 .f32) (ix2 a k) = V c main_v43 (ix2 a k) := by
  have hN : t.val < 36 := lt_of_lt_of_eq t.isLt (show cfg1.N = 36 from N_1)
  unfold iblk
  rw [View.read_apply]
  show V c main_v43 _ = V c main_v43 _
  congr 1
  funext ax
  apply Fin.ext
  match ax with
  | ⟨0, _⟩ => show win1_10.index t (0 : Fin 2) * 128 + 1 * a.val = a.val; rw [(idx_10 t).1]; omega
  | ⟨1, _⟩ => show win1_10.index t (1 : Fin 2) * 1 + 1 * k.val = k.val; rw [(idx_10 t).2]; omega

theorem iblk11_apply (c : Dev nD) (t : Fin cfg1.N) (a : Fin 128) (k : Fin 1) :
    (iblk V c 11 t : Vec F S128x1 .f32) (ix2 a k) = V c main_v45 (ix2 a k) := by
  have hN : t.val < 36 := lt_of_lt_of_eq t.isLt (show cfg1.N = 36 from N_1)
  unfold iblk
  rw [View.read_apply]
  show V c main_v45 _ = V c main_v45 _
  congr 1
  funext ax
  apply Fin.ext
  match ax with
  | ⟨0, _⟩ => show win1_11.index t (0 : Fin 2) * 128 + 1 * a.val = a.val; rw [(idx_11 t).1]; omega
  | ⟨1, _⟩ => show win1_11.index t (1 : Fin 2) * 1 + 1 * k.val = k.val; rw [(idx_11 t).2]; omega

theorem iblk12_apply (c : Dev nD) (t : Fin cfg1.N) (a : Fin 1) (k : Fin 1) :
    (iblk V c 12 t : Vec F S1x1 .f32) (ix2 a k) = V c main_v47 (ix2 a k) := by
  have hN : t.val < 36 := lt_of_lt_of_eq t.isLt (show cfg1.N = 36 from N_1)
  unfold iblk
  rw [View.read_apply]
  show V c main_v47 _ = V c main_v47 _
  congr 1
  funext ax
  apply Fin.ext
  match ax with
  | ⟨0, _⟩ => show win1_12.index t (0 : Fin 2) * 1 + 1 * a.val = a.val; rw [(idx_12 t).1]; omega
  | ⟨1, _⟩ => show win1_12.index t (1 : Fin 2) * 1 + 1 * k.val = k.val; rw [(idx_12 t).2]; omega

theorem iblk13_apply (c : Dev nD) (t : Fin cfg1.N) (a : Fin 1) (k : Fin 1) :
    (iblk V c 13 t : Vec F S1x1 .f32) (ix2 a k) = V c main_v48 (ix2 a k) := by
  have hN : t.val < 36 := lt_of_lt_of_eq t.isLt (show cfg1.N = 36 from N_1)
  unfold iblk
  rw [View.read_apply]
  show V c main_v48 _ = V c main_v48 _
  congr 1
  funext ax
  apply Fin.ext
  match ax with
  | ⟨0, _⟩ => show win1_13.index t (0 : Fin 2) * 1 + 1 * a.val = a.val; rw [(idx_13 t).1]; omega
  | ⟨1, _⟩ => show win1_13.index t (1 : Fin 2) * 1 + 1 * k.val = k.val; rw [(idx_13 t).2]; omega

end Blocks

end Cert.KernelIdeal.Gen.Layer1.Value

end
-- ==== Proof.IdealLayer1Value.lean ====
/-
  What layer 2's kernel region leaves in its two result arrays, at the ideal values: the accumulators after the grid point
  with quotient q and remainder j by 6 hold, for the rows of row tile q, the sums over the sending rows of row tiles 0 … j
  of the messages and of the weighted coordinate differences (by induction on j: zeroed and filled at j = 0, added to
  after); at j = 5 these are the sums over all 768 rows, the step's two output blocks are the layer's new features and
  coordinates of the rows of tile q, and those blocks, written back there, fill the two arrays.
-/
import proofs.«110946_j38972533244288_1_alg».proof.Proof.IdealLayer1ValuePieces
import proofs.«110946_j38972533244288_1_alg».proof.Proof.IdealLayer1ValuePay
import proofs.«110946_j38972533244288_1_alg».proof.Proof.IdealLayer1ValueBlocks
import proofs.«110946_j38972533244288_1_alg».proof.Proof.LibBlockSum

set_option maxRecDepth 16384

noncomputable section

open scoped BigOperators

namespace Cert.KernelIdeal.Gen.Layer1.Value

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen Cert.KernelIdeal.Gen.Layer1

open Cert.Lib

variable (V : (c : Dev nD) → (b : Ref sig .tc) → Buf (Elt Ideal) ((c : Thread nD τ).loc b))

/-! ## The arrays at the region's entry, as the specification's arguments -/

abbrev Hf (c : Dev nD) : Fin 768 → Fin 128 → EReal := fun i k => V c main_v31_0 (ix2 i k)
abbrev Cf (c : Dev nD) : Fin 768 → Fin 3 → EReal := fun i k => V c main_v31_1 (ix2 i k)
abbrev W1a (c : Dev nD) : Fin 128 → Fin 128 → EReal := fun k d => V c main_v33 (ix2 k d)
abbrev W1b (c : Dev nD) : Fin 128 → Fin 128 → EReal := fun k d => V c main_v35 (ix2 k d)
abbrev W1c (c : Dev nD) : Fin 128 → EReal := fun d => V c main_v37 (ix2 0 d)
abbrev B1 (c : Dev nD) : Fin 128 → EReal := fun d => V c main_v38 (ix2 0 d)
abbrev W2 (c : Dev nD) : Fin 128 → Fin 128 → EReal := fun k d => V c main_v40 (ix2 k d)
abbrev B2 (c : Dev nD) : Fin 128 → EReal := fun d => V c main_v41 (ix2 0 d)
abbrev Wca (c : Dev nD) : Fin 128 → EReal := fun k => V c main_v43 (ix2 k 0)
abbrev Wcb (c : Dev nD) : Fin 128 → EReal := fun k => V c main_v45 (ix2 k 0)
abbrev Wcc (c : Dev nD) : EReal := V c main_v47 (ix2 0 0)
abbrev Bc (c : Dev nD) : EReal := V c main_v48 (ix2 0 0)

/-- The message from node j to node i, and the weighted coordinate difference. -/
abbrev msgRow (c : Dev nD) (i j : Fin 768) (d : Fin 128) : EReal := Cert.Spec.silu (Cert.Spec.pre (Hf V c) (Cf V c) (W1a V c) (W1b V c) (W1c V c) (B1 V c) i j d)
abbrev cwRow (c : Dev nD) (i j : Fin 768) (k : Fin 3) : EReal :=
  Cert.Spec.silu (Cert.Spec.wpre (Hf V c) (Cf V c) (Wca V c) (Wcb V c) (Wcc V c) (Bc V c) i j) * Cert.Spec.rel (Cf V c) i j k
/-- Their sums over the rows of sending row tile s, for row a of receiving row tile q. -/
def msgTile (c : Dev nD) (q s : ℕ) (a d : Fin 128) : EReal := ∑ b : Fin 128, msgRow V c (tileRow q a) (tileRow s b) d
def cwTile (c : Dev nD) (q s : ℕ) (a : Fin 128) (k : Fin 3) : EReal := ∑ b : Fin 128, cwRow V c (tileRow q a) (tileRow s b) k

/-! ## One step of the accumulators -/

theorem accH_at_first (c : Dev nD) (n : ℕ) (hn : n < cfg1.N) (h0 : n % 6 = 0) (a d : Fin 128) :
    (stateAt V c n hn).2.2.1 (ix2 a d) = msgTile V c (n / 6) (n % 6) a d := by
  have hcF : isFirst (grid1.coords (⟨n, hn⟩ : Fin cfg1.N)) := (isFirst_iff (⟨n, hn⟩ : Fin cfg1.N)).mpr h0
  have hcNL : ¬isLast (grid1.coords (⟨n, hn⟩ : Fin cfg1.N)) := fun h => by have := (isLast_iff (⟨n, hn⟩ : Fin cfg1.N)).mp h; dsimp only at this; omega
  rw [show stateAt V c n hn = _ from stateAt_first V c (⟨n, hn⟩ : Fin cfg1.N) h0]
  dsimp only
  rw [accH_First_eq c (grid1.coords (⟨n, hn⟩ : Fin cfg1.N)) (ms_0 (⟨n, hn⟩ : Fin cfg1.N)) (hs_0 (⟨n, hn⟩ : Fin cfg1.N)) (ms_1 (⟨n, hn⟩ : Fin cfg1.N)) (hs_1 (⟨n, hn⟩ : Fin cfg1.N)) (ms_2 (⟨n, hn⟩ : Fin cfg1.N)) (hs_2 (⟨n, hn⟩ : Fin cfg1.N)) (ms_3 (⟨n, hn⟩ : Fin cfg1.N)) (hs_3 (⟨n, hn⟩ : Fin cfg1.N)) (ms_4 (⟨n, hn⟩ : Fin cfg1.N)) (hs_4 (⟨n, hn⟩ : Fin cfg1.N)) (ms_5 (⟨n, hn⟩ : Fin cfg1.N)) (hs_5 (⟨n, hn⟩ : Fin cfg1.N)) (ms_6 (⟨n, hn⟩ : Fin cfg1.N)) (hs_6 (⟨n, hn⟩ : Fin cfg1.N)) (ms_7 (⟨n, hn⟩ : Fin cfg1.N)) (hs_7 (⟨n, hn⟩ : Fin cfg1.N)) (ms_8 (⟨n, hn⟩ : Fin cfg1.N)) (hs_8 (⟨n, hn⟩ : Fin cfg1.N)) (ms_9 (⟨n, hn⟩ : Fin cfg1.N)) (hs_9 (⟨n, hn⟩ : Fin cfg1.N)) (ms_10 (⟨n, hn⟩ : Fin cfg1.N)) (hs_10 (⟨n, hn⟩ : Fin cfg1.N)) (ms_11 (⟨n, hn⟩ : Fin cfg1.N)) (hs_11 (⟨n, hn⟩ : Fin cfg1.N)) (ms_12 (⟨n, hn⟩ : Fin cfg1.N)) (hs_12 (⟨n, hn⟩ : Fin cfg1.N)) (ms_13 (⟨n, hn⟩ : Fin cfg1.N)) (hs_13 (⟨n, hn⟩ : Fin cfg1.N)) (ms_14 (⟨n, hn⟩ : Fin cfg1.N)) (hs_14 (⟨n, hn⟩ : Fin cfg1.N)) (ms_15 (⟨n, hn⟩ : Fin cfg1.N)) (hs_15 (⟨n, hn⟩ : Fin cfg1.N)) accH (Memref.isWhole_whole _) accC (Memref.isWhole_whole _) hcF hcNL (iblk V c 0 (⟨n, hn⟩ : Fin cfg1.N)) (iblk V c 1 (⟨n, hn⟩ : Fin cfg1.N)) (iblk V c 2 (⟨n, hn⟩ : Fin cfg1.N)) (iblk V c 3 (⟨n, hn⟩ : Fin cfg1.N)) (iblk V c 4 (⟨n, hn⟩ : Fin cfg1.N)) (iblk V c 5 (⟨n, hn⟩ : Fin cfg1.N)) (iblk V c 6 (⟨n, hn⟩ : Fin cfg1.N)) (iblk V c 7 (⟨n, hn⟩ : Fin cfg1.N)) (iblk V c 8 (⟨n, hn⟩ : Fin cfg1.N)) (iblk V c 9 (⟨n, hn⟩ : Fin cfg1.N)) (iblk V c 10 (⟨n, hn⟩ : Fin cfg1.N)) (iblk V c 11 (⟨n, hn⟩ : Fin cfg1.N)) (iblk V c 12 (⟨n, hn⟩ : Fin cfg1.N)) (iblk V c 13 (⟨n, hn⟩ : Fin cfg1.N))]
  refine (pay14_apply (Hf V c) (Cf V c) (W1a V c) (W1b V c) (W1c V c) (B1 V c) (tileRow (n / 6)) (tileRow (n % 6)) (iblk V c 0 (⟨n, hn⟩ : Fin cfg1.N)) (iblk V c 1 (⟨n, hn⟩ : Fin cfg1.N)) (iblk V c 2 (⟨n, hn⟩ : Fin cfg1.N)) (iblk V c 3 (⟨n, hn⟩ : Fin cfg1.N)) (iblk V c 4 (⟨n, hn⟩ : Fin cfg1.N)) (iblk V c 5 (⟨n, hn⟩ : Fin cfg1.N)) (iblk V c 6 (⟨n, hn⟩ : Fin cfg1.N)) (iblk V c 7 (⟨n, hn⟩ : Fin cfg1.N)) (k1_pay4 (F := Ideal)) (iblk0_apply V c (⟨n, hn⟩ : Fin cfg1.N)) (iblk1_apply V c (⟨n, hn⟩ : Fin cfg1.N)) (iblk2_apply V c (⟨n, hn⟩ : Fin cfg1.N)) (iblk3_apply V c (⟨n, hn⟩ : Fin cfg1.N)) (iblk4_apply V c (⟨n, hn⟩ : Fin cfg1.N)) (iblk5_apply V c (⟨n, hn⟩ : Fin cfg1.N)) (fun d => iblk6_apply V c (⟨n, hn⟩ : Fin cfg1.N) 0 d) (fun d => iblk7_apply V c (⟨n, hn⟩ : Fin cfg1.N) 0 d) a d).trans ?_
  rw [pay4_apply, zero_add]
  rfl

theorem accC_at_first (c : Dev nD) (n : ℕ) (hn : n < cfg1.N) (h0 : n % 6 = 0) (a : Fin 128) (k : Fin 3) :
    (stateAt V c n hn).2.2.2 (ix2 a k) = cwTile V c (n / 6) (n % 6) a k := by
  have hcF : isFirst (grid1.coords (⟨n, hn⟩ : Fin cfg1.N)) := (isFirst_iff (⟨n, hn⟩ : Fin cfg1.N)).mpr h0
  have hcNL : ¬isLast (grid1.coords (⟨n, hn⟩ : Fin cfg1.N)) := fun h => by have := (isLast_iff (⟨n, hn⟩ : Fin cfg1.N)).mp h; dsimp only at this; omega
  rw [show stateAt V c n hn = _ from stateAt_first V c (⟨n, hn⟩ : Fin cfg1.N) h0]
  dsimp only
  rw [accC_First_eq c (grid1.coords (⟨n, hn⟩ : Fin cfg1.N)) (ms_0 (⟨n, hn⟩ : Fin cfg1.N)) (hs_0 (⟨n, hn⟩ : Fin cfg1.N)) (ms_1 (⟨n, hn⟩ : Fin cfg1.N)) (hs_1 (⟨n, hn⟩ : Fin cfg1.N)) (ms_2 (⟨n, hn⟩ : Fin cfg1.N)) (hs_2 (⟨n, hn⟩ : Fin cfg1.N)) (ms_3 (⟨n, hn⟩ : Fin cfg1.N)) (hs_3 (⟨n, hn⟩ : Fin cfg1.N)) (ms_4 (⟨n, hn⟩ : Fin cfg1.N)) (hs_4 (⟨n, hn⟩ : Fin cfg1.N)) (ms_5 (⟨n, hn⟩ : Fin cfg1.N)) (hs_5 (⟨n, hn⟩ : Fin cfg1.N)) (ms_6 (⟨n, hn⟩ : Fin cfg1.N)) (hs_6 (⟨n, hn⟩ : Fin cfg1.N)) (ms_7 (⟨n, hn⟩ : Fin cfg1.N)) (hs_7 (⟨n, hn⟩ : Fin cfg1.N)) (ms_8 (⟨n, hn⟩ : Fin cfg1.N)) (hs_8 (⟨n, hn⟩ : Fin cfg1.N)) (ms_9 (⟨n, hn⟩ : Fin cfg1.N)) (hs_9 (⟨n, hn⟩ : Fin cfg1.N)) (ms_10 (⟨n, hn⟩ : Fin cfg1.N)) (hs_10 (⟨n, hn⟩ : Fin cfg1.N)) (ms_11 (⟨n, hn⟩ : Fin cfg1.N)) (hs_11 (⟨n, hn⟩ : Fin cfg1.N)) (ms_12 (⟨n, hn⟩ : Fin cfg1.N)) (hs_12 (⟨n, hn⟩ : Fin cfg1.N)) (ms_13 (⟨n, hn⟩ : Fin cfg1.N)) (hs_13 (⟨n, hn⟩ : Fin cfg1.N)) (ms_14 (⟨n, hn⟩ : Fin cfg1.N)) (hs_14 (⟨n, hn⟩ : Fin cfg1.N)) (ms_15 (⟨n, hn⟩ : Fin cfg1.N)) (hs_15 (⟨n, hn⟩ : Fin cfg1.N)) accH (Memref.isWhole_whole _) accC (Memref.isWhole_whole _) hcF hcNL (iblk V c 0 (⟨n, hn⟩ : Fin cfg1.N)) (iblk V c 1 (⟨n, hn⟩ : Fin cfg1.N)) (iblk V c 2 (⟨n, hn⟩ : Fin cfg1.N)) (iblk V c 3 (⟨n, hn⟩ : Fin cfg1.N)) (iblk V c 4 (⟨n, hn⟩ : Fin cfg1.N)) (iblk V c 5 (⟨n, hn⟩ : Fin cfg1.N)) (iblk V c 6 (⟨n, hn⟩ : Fin cfg1.N)) (iblk V c 7 (⟨n, hn⟩ : Fin cfg1.N)) (iblk V c 8 (⟨n, hn⟩ : Fin cfg1.N)) (iblk V c 9 (⟨n, hn⟩ : Fin cfg1.N)) (iblk V c 10 (⟨n, hn⟩ : Fin cfg1.N)) (iblk V c 11 (⟨n, hn⟩ : Fin cfg1.N)) (iblk V c 12 (⟨n, hn⟩ : Fin cfg1.N)) (iblk V c 13 (⟨n, hn⟩ : Fin cfg1.N))]
  refine (pay1_apply (Hf V c) (Cf V c) (Wca V c) (Wcb V c) (Wcc V c) (Bc V c) (tileRow (n / 6)) (tileRow (n % 6)) (iblk V c 0 (⟨n, hn⟩ : Fin cfg1.N)) (iblk V c 1 (⟨n, hn⟩ : Fin cfg1.N)) (iblk V c 2 (⟨n, hn⟩ : Fin cfg1.N)) (iblk V c 3 (⟨n, hn⟩ : Fin cfg1.N)) (iblk V c 10 (⟨n, hn⟩ : Fin cfg1.N)) (iblk V c 11 (⟨n, hn⟩ : Fin cfg1.N)) (iblk V c 12 (⟨n, hn⟩ : Fin cfg1.N)) (iblk V c 13 (⟨n, hn⟩ : Fin cfg1.N)) (k1_pay5 (F := Ideal)) (iblk0_apply V c (⟨n, hn⟩ : Fin cfg1.N)) (iblk1_apply V c (⟨n, hn⟩ : Fin cfg1.N)) (iblk2_apply V c (⟨n, hn⟩ : Fin cfg1.N)) (iblk3_apply V c (⟨n, hn⟩ : Fin cfg1.N)) (fun k => iblk10_apply V c (⟨n, hn⟩ : Fin cfg1.N) k 0) (fun k => iblk11_apply V c (⟨n, hn⟩ : Fin cfg1.N) k 0) (iblk12_apply V c (⟨n, hn⟩ : Fin cfg1.N) 0 0) (iblk13_apply V c (⟨n, hn⟩ : Fin cfg1.N) 0 0) a k).trans ?_
  rw [pay5_apply, zero_add]
  rfl

theorem accH_at_step (c : Dev nD) (n : ℕ) (hn : n < cfg1.N) (hp : n - 1 < cfg1.N) (h0 : ¬n % 6 = 0) (a d : Fin 128) :
    (stateAt V c n hn).2.2.1 (ix2 a d) = (stateAt V c (n - 1) hp).2.2.1 (ix2 a d) + msgTile V c (n / 6) (n % 6) a d := by
  have hcNF : ¬isFirst (grid1.coords (⟨n, hn⟩ : Fin cfg1.N)) := fun h => h0 ((isFirst_iff (⟨n, hn⟩ : Fin cfg1.N)).mp h)
  by_cases h1 : n % 6 = 5
  · have hcL : isLast (grid1.coords (⟨n, hn⟩ : Fin cfg1.N)) := (isLast_iff (⟨n, hn⟩ : Fin cfg1.N)).mpr h1
    rw [show stateAt V c n hn = _ from stateAt_last V c (⟨n, hn⟩ : Fin cfg1.N) h0 h1]
    dsimp only
    rw [accH_Last_eq c (grid1.coords (⟨n, hn⟩ : Fin cfg1.N)) (ms_0 (⟨n, hn⟩ : Fin cfg1.N)) (hs_0 (⟨n, hn⟩ : Fin cfg1.N)) (ms_1 (⟨n, hn⟩ : Fin cfg1.N)) (hs_1 (⟨n, hn⟩ : Fin cfg1.N)) (ms_2 (⟨n, hn⟩ : Fin cfg1.N)) (hs_2 (⟨n, hn⟩ : Fin cfg1.N)) (ms_3 (⟨n, hn⟩ : Fin cfg1.N)) (hs_3 (⟨n, hn⟩ : Fin cfg1.N)) (ms_4 (⟨n, hn⟩ : Fin cfg1.N)) (hs_4 (⟨n, hn⟩ : Fin cfg1.N)) (ms_5 (⟨n, hn⟩ : Fin cfg1.N)) (hs_5 (⟨n, hn⟩ : Fin cfg1.N)) (ms_6 (⟨n, hn⟩ : Fin cfg1.N)) (hs_6 (⟨n, hn⟩ : Fin cfg1.N)) (ms_7 (⟨n, hn⟩ : Fin cfg1.N)) (hs_7 (⟨n, hn⟩ : Fin cfg1.N)) (ms_8 (⟨n, hn⟩ : Fin cfg1.N)) (hs_8 (⟨n, hn⟩ : Fin cfg1.N)) (ms_9 (⟨n, hn⟩ : Fin cfg1.N)) (hs_9 (⟨n, hn⟩ : Fin cfg1.N)) (ms_10 (⟨n, hn⟩ : Fin cfg1.N)) (hs_10 (⟨n, hn⟩ : Fin cfg1.N)) (ms_11 (⟨n, hn⟩ : Fin cfg1.N)) (hs_11 (⟨n, hn⟩ : Fin cfg1.N)) (ms_12 (⟨n, hn⟩ : Fin cfg1.N)) (hs_12 (⟨n, hn⟩ : Fin cfg1.N)) (ms_13 (⟨n, hn⟩ : Fin cfg1.N)) (hs_13 (⟨n, hn⟩ : Fin cfg1.N)) (ms_14 (⟨n, hn⟩ : Fin cfg1.N)) (hs_14 (⟨n, hn⟩ : Fin cfg1.N)) (ms_15 (⟨n, hn⟩ : Fin cfg1.N)) (hs_15 (⟨n, hn⟩ : Fin cfg1.N)) accH (Memref.isWhole_whole _) accC (Memref.isWhole_whole _) hcNF hcL (iblk V c 0 (⟨n, hn⟩ : Fin cfg1.N)) (iblk V c 1 (⟨n, hn⟩ : Fin cfg1.N)) (iblk V c 2 (⟨n, hn⟩ : Fin cfg1.N)) (iblk V c 3 (⟨n, hn⟩ : Fin cfg1.N)) (iblk V c 4 (⟨n, hn⟩ : Fin cfg1.N)) (iblk V c 5 (⟨n, hn⟩ : Fin cfg1.N)) (iblk V c 6 (⟨n, hn⟩ : Fin cfg1.N)) (iblk V c 7 (⟨n, hn⟩ : Fin cfg1.N)) (iblk V c 8 (⟨n, hn⟩ : Fin cfg1.N)) (iblk V c 9 (⟨n, hn⟩ : Fin cfg1.N)) (iblk V c 10 (⟨n, hn⟩ : Fin cfg1.N)) (iblk V c 11 (⟨n, hn⟩ : Fin cfg1.N)) (iblk V c 12 (⟨n, hn⟩ : Fin cfg1.N)) (iblk V c 13 (⟨n, hn⟩ : Fin cfg1.N)) (stateAt V c (n - 1) hp).2.2.1 (stateAt V c (n - 1) hp).2.2.2]
    exact pay14_apply (Hf V c) (Cf V c) (W1a V c) (W1b V c) (W1c V c) (B1 V c) (tileRow (n / 6)) (tileRow (n % 6)) (iblk V c 0 (⟨n, hn⟩ : Fin cfg1.N)) (iblk V c 1 (⟨n, hn⟩ : Fin cfg1.N)) (iblk V c 2 (⟨n, hn⟩ : Fin cfg1.N)) (iblk V c 3 (⟨n, hn⟩ : Fin cfg1.N)) (iblk V c 4 (⟨n, hn⟩ : Fin cfg1.N)) (iblk V c 5 (⟨n, hn⟩ : Fin cfg1.N)) (iblk V c 6 (⟨n, hn⟩ : Fin cfg1.N)) (iblk V c 7 (⟨n, hn⟩ : Fin cfg1.N)) (stateAt V c (n - 1) hp).2.2.1 (iblk0_apply V c (⟨n, hn⟩ : Fin cfg1.N)) (iblk1_apply V c (⟨n, hn⟩ : Fin cfg1.N)) (iblk2_apply V c (⟨n, hn⟩ : Fin cfg1.N)) (iblk3_apply V c (⟨n, hn⟩ : Fin cfg1.N)) (iblk4_apply V c (⟨n, hn⟩ : Fin cfg1.N)) (iblk5_apply V c (⟨n, hn⟩ : Fin cfg1.N)) (fun d => iblk6_apply V c (⟨n, hn⟩ : Fin cfg1.N) 0 d) (fun d => iblk7_apply V c (⟨n, hn⟩ : Fin cfg1.N) 0 d) a d
  · have hcNL : ¬isLast (grid1.coords (⟨n, hn⟩ : Fin cfg1.N)) := fun h => h1 ((isLast_iff (⟨n, hn⟩ : Fin cfg1.N)).mp h)
    rw [show stateAt V c n hn = _ from stateAt_mid V c (⟨n, hn⟩ : Fin cfg1.N) h0 h1]
    dsimp only
    rw [accH_Mid_eq c (grid1.coords (⟨n, hn⟩ : Fin cfg1.N)) (ms_0 (⟨n, hn⟩ : Fin cfg1.N)) (hs_0 (⟨n, hn⟩ : Fin cfg1.N)) (ms_1 (⟨n, hn⟩ : Fin cfg1.N)) (hs_1 (⟨n, hn⟩ : Fin cfg1.N)) (ms_2 (⟨n, hn⟩ : Fin cfg1.N)) (hs_2 (⟨n, hn⟩ : Fin cfg1.N)) (ms_3 (⟨n, hn⟩ : Fin cfg1.N)) (hs_3 (⟨n, hn⟩ : Fin cfg1.N)) (ms_4 (⟨n, hn⟩ : Fin cfg1.N)) (hs_4 (⟨n, hn⟩ : Fin cfg1.N)) (ms_5 (⟨n, hn⟩ : Fin cfg1.N)) (hs_5 (⟨n, hn⟩ : Fin cfg1.N)) (ms_6 (⟨n, hn⟩ : Fin cfg1.N)) (hs_6 (⟨n, hn⟩ : Fin cfg1.N)) (ms_7 (⟨n, hn⟩ : Fin cfg1.N)) (hs_7 (⟨n, hn⟩ : Fin cfg1.N)) (ms_8 (⟨n, hn⟩ : Fin cfg1.N)) (hs_8 (⟨n, hn⟩ : Fin cfg1.N)) (ms_9 (⟨n, hn⟩ : Fin cfg1.N)) (hs_9 (⟨n, hn⟩ : Fin cfg1.N)) (ms_10 (⟨n, hn⟩ : Fin cfg1.N)) (hs_10 (⟨n, hn⟩ : Fin cfg1.N)) (ms_11 (⟨n, hn⟩ : Fin cfg1.N)) (hs_11 (⟨n, hn⟩ : Fin cfg1.N)) (ms_12 (⟨n, hn⟩ : Fin cfg1.N)) (hs_12 (⟨n, hn⟩ : Fin cfg1.N)) (ms_13 (⟨n, hn⟩ : Fin cfg1.N)) (hs_13 (⟨n, hn⟩ : Fin cfg1.N)) (ms_14 (⟨n, hn⟩ : Fin cfg1.N)) (hs_14 (⟨n, hn⟩ : Fin cfg1.N)) (ms_15 (⟨n, hn⟩ : Fin cfg1.N)) (hs_15 (⟨n, hn⟩ : Fin cfg1.N)) accH (Memref.isWhole_whole _) accC (Memref.isWhole_whole _) hcNF hcNL (iblk V c 0 (⟨n, hn⟩ : Fin cfg1.N)) (iblk V c 1 (⟨n, hn⟩ : Fin cfg1.N)) (iblk V c 2 (⟨n, hn⟩ : Fin cfg1.N)) (iblk V c 3 (⟨n, hn⟩ : Fin cfg1.N)) (iblk V c 4 (⟨n, hn⟩ : Fin cfg1.N)) (iblk V c 5 (⟨n, hn⟩ : Fin cfg1.N)) (iblk V c 6 (⟨n, hn⟩ : Fin cfg1.N)) (iblk V c 7 (⟨n, hn⟩ : Fin cfg1.N)) (iblk V c 8 (⟨n, hn⟩ : Fin cfg1.N)) (iblk V c 9 (⟨n, hn⟩ : Fin cfg1.N)) (iblk V c 10 (⟨n, hn⟩ : Fin cfg1.N)) (iblk V c 11 (⟨n, hn⟩ : Fin cfg1.N)) (iblk V c 12 (⟨n, hn⟩ : Fin cfg1.N)) (iblk V c 13 (⟨n, hn⟩ : Fin cfg1.N)) (stateAt V c (n - 1) hp).2.2.1 (stateAt V c (n - 1) hp).2.2.2]
    exact pay14_apply (Hf V c) (Cf V c) (W1a V c) (W1b V c) (W1c V c) (B1 V c) (tileRow (n / 6)) (tileRow (n % 6)) (iblk V c 0 (⟨n, hn⟩ : Fin cfg1.N)) (iblk V c 1 (⟨n, hn⟩ : Fin cfg1.N)) (iblk V c 2 (⟨n, hn⟩ : Fin cfg1.N)) (iblk V c 3 (⟨n, hn⟩ : Fin cfg1.N)) (iblk V c 4 (⟨n, hn⟩ : Fin cfg1.N)) (iblk V c 5 (⟨n, hn⟩ : Fin cfg1.N)) (iblk V c 6 (⟨n, hn⟩ : Fin cfg1.N)) (iblk V c 7 (⟨n, hn⟩ : Fin cfg1.N)) (stateAt V c (n - 1) hp).2.2.1 (iblk0_apply V c (⟨n, hn⟩ : Fin cfg1.N)) (iblk1_apply V c (⟨n, hn⟩ : Fin cfg1.N)) (iblk2_apply V c (⟨n, hn⟩ : Fin cfg1.N)) (iblk3_apply V c (⟨n, hn⟩ : Fin cfg1.N)) (iblk4_apply V c (⟨n, hn⟩ : Fin cfg1.N)) (iblk5_apply V c (⟨n, hn⟩ : Fin cfg1.N)) (fun d => iblk6_apply V c (⟨n, hn⟩ : Fin cfg1.N) 0 d) (fun d => iblk7_apply V c (⟨n, hn⟩ : Fin cfg1.N) 0 d) a d

theorem accC_at_step (c : Dev nD) (n : ℕ) (hn : n < cfg1.N) (hp : n - 1 < cfg1.N) (h0 : ¬n % 6 = 0) (a : Fin 128) (k : Fin 3) :
    (stateAt V c n hn).2.2.2 (ix2 a k) = (stateAt V c (n - 1) hp).2.2.2 (ix2 a k) + cwTile V c (n / 6) (n % 6) a k := by
  have hcNF : ¬isFirst (grid1.coords (⟨n, hn⟩ : Fin cfg1.N)) := fun h => h0 ((isFirst_iff (⟨n, hn⟩ : Fin cfg1.N)).mp h)
  by_cases h1 : n % 6 = 5
  · have hcL : isLast (grid1.coords (⟨n, hn⟩ : Fin cfg1.N)) := (isLast_iff (⟨n, hn⟩ : Fin cfg1.N)).mpr h1
    rw [show stateAt V c n hn = _ from stateAt_last V c (⟨n, hn⟩ : Fin cfg1.N) h0 h1]
    dsimp only
    rw [accC_Last_eq c (grid1.coords (⟨n, hn⟩ : Fin cfg1.N)) (ms_0 (⟨n, hn⟩ : Fin cfg1.N)) (hs_0 (⟨n, hn⟩ : Fin cfg1.N)) (ms_1 (⟨n, hn⟩ : Fin cfg1.N)) (hs_1 (⟨n, hn⟩ : Fin cfg1.N)) (ms_2 (⟨n, hn⟩ : Fin cfg1.N)) (hs_2 (⟨n, hn⟩ : Fin cfg1.N)) (ms_3 (⟨n, hn⟩ : Fin cfg1.N)) (hs_3 (⟨n, hn⟩ : Fin cfg1.N)) (ms_4 (⟨n, hn⟩ : Fin cfg1.N)) (hs_4 (⟨n, hn⟩ : Fin cfg1.N)) (ms_5 (⟨n, hn⟩ : Fin cfg1.N)) (hs_5 (⟨n, hn⟩ : Fin cfg1.N)) (ms_6 (⟨n, hn⟩ : Fin cfg1.N)) (hs_6 (⟨n, hn⟩ : Fin cfg1.N)) (ms_7 (⟨n, hn⟩ : Fin cfg1.N)) (hs_7 (⟨n, hn⟩ : Fin cfg1.N)) (ms_8 (⟨n, hn⟩ : Fin cfg1.N)) (hs_8 (⟨n, hn⟩ : Fin cfg1.N)) (ms_9 (⟨n, hn⟩ : Fin cfg1.N)) (hs_9 (⟨n, hn⟩ : Fin cfg1.N)) (ms_10 (⟨n, hn⟩ : Fin cfg1.N)) (hs_10 (⟨n, hn⟩ : Fin cfg1.N)) (ms_11 (⟨n, hn⟩ : Fin cfg1.N)) (hs_11 (⟨n, hn⟩ : Fin cfg1.N)) (ms_12 (⟨n, hn⟩ : Fin cfg1.N)) (hs_12 (⟨n, hn⟩ : Fin cfg1.N)) (ms_13 (⟨n, hn⟩ : Fin cfg1.N)) (hs_13 (⟨n, hn⟩ : Fin cfg1.N)) (ms_14 (⟨n, hn⟩ : Fin cfg1.N)) (hs_14 (⟨n, hn⟩ : Fin cfg1.N)) (ms_15 (⟨n, hn⟩ : Fin cfg1.N)) (hs_15 (⟨n, hn⟩ : Fin cfg1.N)) accH (Memref.isWhole_whole _) accC (Memref.isWhole_whole _) hcNF hcL (iblk V c 0 (⟨n, hn⟩ : Fin cfg1.N)) (iblk V c 1 (⟨n, hn⟩ : Fin cfg1.N)) (iblk V c 2 (⟨n, hn⟩ : Fin cfg1.N)) (iblk V c 3 (⟨n, hn⟩ : Fin cfg1.N)) (iblk V c 4 (⟨n, hn⟩ : Fin cfg1.N)) (iblk V c 5 (⟨n, hn⟩ : Fin cfg1.N)) (iblk V c 6 (⟨n, hn⟩ : Fin cfg1.N)) (iblk V c 7 (⟨n, hn⟩ : Fin cfg1.N)) (iblk V c 8 (⟨n, hn⟩ : Fin cfg1.N)) (iblk V c 9 (⟨n, hn⟩ : Fin cfg1.N)) (iblk V c 10 (⟨n, hn⟩ : Fin cfg1.N)) (iblk V c 11 (⟨n, hn⟩ : Fin cfg1.N)) (iblk V c 12 (⟨n, hn⟩ : Fin cfg1.N)) (iblk V c 13 (⟨n, hn⟩ : Fin cfg1.N)) (stateAt V c (n - 1) hp).2.2.1 (stateAt V c (n - 1) hp).2.2.2]
    exact pay1_apply (Hf V c) (Cf V c) (Wca V c) (Wcb V c) (Wcc V c) (Bc V c) (tileRow (n / 6)) (tileRow (n % 6)) (iblk V c 0 (⟨n, hn⟩ : Fin cfg1.N)) (iblk V c 1 (⟨n, hn⟩ : Fin cfg1.N)) (iblk V c 2 (⟨n, hn⟩ : Fin cfg1.N)) (iblk V c 3 (⟨n, hn⟩ : Fin cfg1.N)) (iblk V c 10 (⟨n, hn⟩ : Fin cfg1.N)) (iblk V c 11 (⟨n, hn⟩ : Fin cfg1.N)) (iblk V c 12 (⟨n, hn⟩ : Fin cfg1.N)) (iblk V c 13 (⟨n, hn⟩ : Fin cfg1.N)) (stateAt V c (n - 1) hp).2.2.2 (iblk0_apply V c (⟨n, hn⟩ : Fin cfg1.N)) (iblk1_apply V c (⟨n, hn⟩ : Fin cfg1.N)) (iblk2_apply V c (⟨n, hn⟩ : Fin cfg1.N)) (iblk3_apply V c (⟨n, hn⟩ : Fin cfg1.N)) (fun k => iblk10_apply V c (⟨n, hn⟩ : Fin cfg1.N) k 0) (fun k => iblk11_apply V c (⟨n, hn⟩ : Fin cfg1.N) k 0) (iblk12_apply V c (⟨n, hn⟩ : Fin cfg1.N) 0 0) (iblk13_apply V c (⟨n, hn⟩ : Fin cfg1.N) 0 0) a k
  · have hcNL : ¬isLast (grid1.coords (⟨n, hn⟩ : Fin cfg1.N)) := fun h => h1 ((isLast_iff (⟨n, hn⟩ : Fin cfg1.N)).mp h)
    rw [show stateAt V c n hn = _ from stateAt_mid V c (⟨n, hn⟩ : Fin cfg1.N) h0 h1]
    dsimp only
    rw [accC_Mid_eq c (grid1.coords (⟨n, hn⟩ : Fin cfg1.N)) (ms_0 (⟨n, hn⟩ : Fin cfg1.N)) (hs_0 (⟨n, hn⟩ : Fin cfg1.N)) (ms_1 (⟨n, hn⟩ : Fin cfg1.N)) (hs_1 (⟨n, hn⟩ : Fin cfg1.N)) (ms_2 (⟨n, hn⟩ : Fin cfg1.N)) (hs_2 (⟨n, hn⟩ : Fin cfg1.N)) (ms_3 (⟨n, hn⟩ : Fin cfg1.N)) (hs_3 (⟨n, hn⟩ : Fin cfg1.N)) (ms_4 (⟨n, hn⟩ : Fin cfg1.N)) (hs_4 (⟨n, hn⟩ : Fin cfg1.N)) (ms_5 (⟨n, hn⟩ : Fin cfg1.N)) (hs_5 (⟨n, hn⟩ : Fin cfg1.N)) (ms_6 (⟨n, hn⟩ : Fin cfg1.N)) (hs_6 (⟨n, hn⟩ : Fin cfg1.N)) (ms_7 (⟨n, hn⟩ : Fin cfg1.N)) (hs_7 (⟨n, hn⟩ : Fin cfg1.N)) (ms_8 (⟨n, hn⟩ : Fin cfg1.N)) (hs_8 (⟨n, hn⟩ : Fin cfg1.N)) (ms_9 (⟨n, hn⟩ : Fin cfg1.N)) (hs_9 (⟨n, hn⟩ : Fin cfg1.N)) (ms_10 (⟨n, hn⟩ : Fin cfg1.N)) (hs_10 (⟨n, hn⟩ : Fin cfg1.N)) (ms_11 (⟨n, hn⟩ : Fin cfg1.N)) (hs_11 (⟨n, hn⟩ : Fin cfg1.N)) (ms_12 (⟨n, hn⟩ : Fin cfg1.N)) (hs_12 (⟨n, hn⟩ : Fin cfg1.N)) (ms_13 (⟨n, hn⟩ : Fin cfg1.N)) (hs_13 (⟨n, hn⟩ : Fin cfg1.N)) (ms_14 (⟨n, hn⟩ : Fin cfg1.N)) (hs_14 (⟨n, hn⟩ : Fin cfg1.N)) (ms_15 (⟨n, hn⟩ : Fin cfg1.N)) (hs_15 (⟨n, hn⟩ : Fin cfg1.N)) accH (Memref.isWhole_whole _) accC (Memref.isWhole_whole _) hcNF hcNL (iblk V c 0 (⟨n, hn⟩ : Fin cfg1.N)) (iblk V c 1 (⟨n, hn⟩ : Fin cfg1.N)) (iblk V c 2 (⟨n, hn⟩ : Fin cfg1.N)) (iblk V c 3 (⟨n, hn⟩ : Fin cfg1.N)) (iblk V c 4 (⟨n, hn⟩ : Fin cfg1.N)) (iblk V c 5 (⟨n, hn⟩ : Fin cfg1.N)) (iblk V c 6 (⟨n, hn⟩ : Fin cfg1.N)) (iblk V c 7 (⟨n, hn⟩ : Fin cfg1.N)) (iblk V c 8 (⟨n, hn⟩ : Fin cfg1.N)) (iblk V c 9 (⟨n, hn⟩ : Fin cfg1.N)) (iblk V c 10 (⟨n, hn⟩ : Fin cfg1.N)) (iblk V c 11 (⟨n, hn⟩ : Fin cfg1.N)) (iblk V c 12 (⟨n, hn⟩ : Fin cfg1.N)) (iblk V c 13 (⟨n, hn⟩ : Fin cfg1.N)) (stateAt V c (n - 1) hp).2.2.1 (stateAt V c (n - 1) hp).2.2.2]
    exact pay1_apply (Hf V c) (Cf V c) (Wca V c) (Wcb V c) (Wcc V c) (Bc V c) (tileRow (n / 6)) (tileRow (n % 6)) (iblk V c 0 (⟨n, hn⟩ : Fin cfg1.N)) (iblk V c 1 (⟨n, hn⟩ : Fin cfg1.N)) (iblk V c 2 (⟨n, hn⟩ : Fin cfg1.N)) (iblk V c 3 (⟨n, hn⟩ : Fin cfg1.N)) (iblk V c 10 (⟨n, hn⟩ : Fin cfg1.N)) (iblk V c 11 (⟨n, hn⟩ : Fin cfg1.N)) (iblk V c 12 (⟨n, hn⟩ : Fin cfg1.N)) (iblk V c 13 (⟨n, hn⟩ : Fin cfg1.N)) (stateAt V c (n - 1) hp).2.2.2 (iblk0_apply V c (⟨n, hn⟩ : Fin cfg1.N)) (iblk1_apply V c (⟨n, hn⟩ : Fin cfg1.N)) (iblk2_apply V c (⟨n, hn⟩ : Fin cfg1.N)) (iblk3_apply V c (⟨n, hn⟩ : Fin cfg1.N)) (fun k => iblk10_apply V c (⟨n, hn⟩ : Fin cfg1.N) k 0) (fun k => iblk11_apply V c (⟨n, hn⟩ : Fin cfg1.N) k 0) (iblk12_apply V c (⟨n, hn⟩ : Fin cfg1.N) 0 0) (iblk13_apply V c (⟨n, hn⟩ : Fin cfg1.N) 0 0) a k

/-! ## The accumulators after a point: the sums over the sending row tiles so far -/

theorem accH_inv (c : Dev nD) : ∀ (n : ℕ) (hn : n < cfg1.N) (a d : Fin 128),
    (stateAt V c n hn).2.2.1 (ix2 a d) = ∑ s ∈ Finset.range (n % 6 + 1), msgTile V c (n / 6) s a d
  | 0, hn, a, d => (accH_at_first V c 0 hn rfl a d).trans (Finset.sum_range_one (fun s => msgTile V c (0 / 6) s a d)).symm
  | n + 1, hn, a, d => by
    by_cases h0 : (n + 1) % 6 = 0
    · refine (accH_at_first V c (n + 1) hn h0 a d).trans ?_
      rw [h0, Nat.zero_add, Finset.sum_range_one]
    · have q : (n + 1) / 6 = n / 6 := by omega
      have r : (n + 1) % 6 = n % 6 + 1 := by omega
      refine (accH_at_step V c (n + 1) hn (Nat.lt_of_succ_lt hn) h0 a d).trans ?_
      rw [q, r, Finset.sum_range_succ]
      exact congrArg (· + msgTile V c (n / 6) (n % 6 + 1) a d) (accH_inv c n (Nat.lt_of_succ_lt hn) a d)

theorem accC_inv (c : Dev nD) : ∀ (n : ℕ) (hn : n < cfg1.N) (a : Fin 128) (k : Fin 3),
    (stateAt V c n hn).2.2.2 (ix2 a k) = ∑ s ∈ Finset.range (n % 6 + 1), cwTile V c (n / 6) s a k
  | 0, hn, a, k => (accC_at_first V c 0 hn rfl a k).trans (Finset.sum_range_one (fun s => cwTile V c (0 / 6) s a k)).symm
  | n + 1, hn, a, k => by
    by_cases h0 : (n + 1) % 6 = 0
    · refine (accC_at_first V c (n + 1) hn h0 a k).trans ?_
      rw [h0, Nat.zero_add, Finset.sum_range_one]
    · have q : (n + 1) / 6 = n / 6 := by omega
      have r : (n + 1) % 6 = n % 6 + 1 := by omega
      refine (accC_at_step V c (n + 1) hn (Nat.lt_of_succ_lt hn) h0 a k).trans ?_
      rw [q, r, Finset.sum_range_succ]
      exact congrArg (· + cwTile V c (n / 6) (n % 6 + 1) a k) (accC_inv c n (Nat.lt_of_succ_lt hn) a k)

/-- At the last step of a row tile the six tile sums are the sum over all 768 sending rows. -/
theorem accH_full (c : Dev nD) (n : ℕ) (hn : n < cfg1.N) (h5 : n % 6 = 5) (a d : Fin 128) :
    (stateAt V c n hn).2.2.1 (ix2 a d) = ∑ r : Fin 768, msgRow V c (tileRow (n / 6) a) r d := by
  rw [accH_inv V c n hn a d, h5, Finset.sum_range,
    sum_blocks (kt := 6) (n := 128) (K := 768) rfl (fun r => msgRow V c (tileRow (n / 6) a) r d)]
  refine Finset.sum_congr rfl fun s _ => ?_
  unfold msgTile
  refine Finset.sum_congr rfl fun b _ => ?_
  exact congrArg (fun j => msgRow V c (tileRow (n / 6) a) j d) (Fin.ext (tileRow_val s.val s.isLt b))

theorem accC_full (c : Dev nD) (n : ℕ) (hn : n < cfg1.N) (h5 : n % 6 = 5) (a : Fin 128) (k : Fin 3) :
    (stateAt V c n hn).2.2.2 (ix2 a k) = ∑ r : Fin 768, cwRow V c (tileRow (n / 6) a) r k := by
  rw [accC_inv V c n hn a k, h5, Finset.sum_range,
    sum_blocks (kt := 6) (n := 128) (K := 768) rfl (fun r => cwRow V c (tileRow (n / 6) a) r k)]
  refine Finset.sum_congr rfl fun s _ => ?_
  unfold cwTile
  refine Finset.sum_congr rfl fun b _ => ?_
  exact congrArg (fun j => cwRow V c (tileRow (n / 6) a) j k) (Fin.ext (tileRow_val s.val s.isLt b))

/-! ## The two output blocks at the last step of a row tile -/

theorem outH_at_last (c : Dev nD) (n : ℕ) (hn : n < cfg1.N) (hp : n - 1 < cfg1.N) (h5 : n % 6 = 5) (a d : Fin 128) :
    (stateAt V c n hn).1 (ix2 a d) = Cert.Spec.layerH (Hf V c) (Cf V c) (W1a V c) (W1b V c) (W1c V c) (B1 V c) (W2 V c) (B2 V c) (tileRow (n / 6) a) d := by
  have h0 : ¬n % 6 = 0 := by omega
  have hcNF : ¬isFirst (grid1.coords (⟨n, hn⟩ : Fin cfg1.N)) := fun h => h0 ((isFirst_iff (⟨n, hn⟩ : Fin cfg1.N)).mp h)
  have hcL : isLast (grid1.coords (⟨n, hn⟩ : Fin cfg1.N)) := (isLast_iff (⟨n, hn⟩ : Fin cfg1.N)).mpr h5
  have e := stateAt_last V c (⟨n, hn⟩ : Fin cfg1.N) h0 h5
  have eacc : (stateAt V c n hn).2.2.1 = (updH (iblk V c 0 (⟨n, hn⟩ : Fin cfg1.N)) (iblk V c 1 (⟨n, hn⟩ : Fin cfg1.N)) (iblk V c 2 (⟨n, hn⟩ : Fin cfg1.N)) (iblk V c 3 (⟨n, hn⟩ : Fin cfg1.N)) (iblk V c 4 (⟨n, hn⟩ : Fin cfg1.N)) (iblk V c 5 (⟨n, hn⟩ : Fin cfg1.N)) (iblk V c 6 (⟨n, hn⟩ : Fin cfg1.N)) (iblk V c 7 (⟨n, hn⟩ : Fin cfg1.N)) (stateAt V c (n - 1) hp).2.2.1) :=
    (congrArg (fun s => s.2.2.1) e).trans (accH_Last_eq c (grid1.coords (⟨n, hn⟩ : Fin cfg1.N)) (ms_0 (⟨n, hn⟩ : Fin cfg1.N)) (hs_0 (⟨n, hn⟩ : Fin cfg1.N)) (ms_1 (⟨n, hn⟩ : Fin cfg1.N)) (hs_1 (⟨n, hn⟩ : Fin cfg1.N)) (ms_2 (⟨n, hn⟩ : Fin cfg1.N)) (hs_2 (⟨n, hn⟩ : Fin cfg1.N)) (ms_3 (⟨n, hn⟩ : Fin cfg1.N)) (hs_3 (⟨n, hn⟩ : Fin cfg1.N)) (ms_4 (⟨n, hn⟩ : Fin cfg1.N)) (hs_4 (⟨n, hn⟩ : Fin cfg1.N)) (ms_5 (⟨n, hn⟩ : Fin cfg1.N)) (hs_5 (⟨n, hn⟩ : Fin cfg1.N)) (ms_6 (⟨n, hn⟩ : Fin cfg1.N)) (hs_6 (⟨n, hn⟩ : Fin cfg1.N)) (ms_7 (⟨n, hn⟩ : Fin cfg1.N)) (hs_7 (⟨n, hn⟩ : Fin cfg1.N)) (ms_8 (⟨n, hn⟩ : Fin cfg1.N)) (hs_8 (⟨n, hn⟩ : Fin cfg1.N)) (ms_9 (⟨n, hn⟩ : Fin cfg1.N)) (hs_9 (⟨n, hn⟩ : Fin cfg1.N)) (ms_10 (⟨n, hn⟩ : Fin cfg1.N)) (hs_10 (⟨n, hn⟩ : Fin cfg1.N)) (ms_11 (⟨n, hn⟩ : Fin cfg1.N)) (hs_11 (⟨n, hn⟩ : Fin cfg1.N)) (ms_12 (⟨n, hn⟩ : Fin cfg1.N)) (hs_12 (⟨n, hn⟩ : Fin cfg1.N)) (ms_13 (⟨n, hn⟩ : Fin cfg1.N)) (hs_13 (⟨n, hn⟩ : Fin cfg1.N)) (ms_14 (⟨n, hn⟩ : Fin cfg1.N)) (hs_14 (⟨n, hn⟩ : Fin cfg1.N)) (ms_15 (⟨n, hn⟩ : Fin cfg1.N)) (hs_15 (⟨n, hn⟩ : Fin cfg1.N)) accH (Memref.isWhole_whole _) accC (Memref.isWhole_whole _) hcNF hcL (iblk V c 0 (⟨n, hn⟩ : Fin cfg1.N)) (iblk V c 1 (⟨n, hn⟩ : Fin cfg1.N)) (iblk V c 2 (⟨n, hn⟩ : Fin cfg1.N)) (iblk V c 3 (⟨n, hn⟩ : Fin cfg1.N)) (iblk V c 4 (⟨n, hn⟩ : Fin cfg1.N)) (iblk V c 5 (⟨n, hn⟩ : Fin cfg1.N)) (iblk V c 6 (⟨n, hn⟩ : Fin cfg1.N)) (iblk V c 7 (⟨n, hn⟩ : Fin cfg1.N)) (iblk V c 8 (⟨n, hn⟩ : Fin cfg1.N)) (iblk V c 9 (⟨n, hn⟩ : Fin cfg1.N)) (iblk V c 10 (⟨n, hn⟩ : Fin cfg1.N)) (iblk V c 11 (⟨n, hn⟩ : Fin cfg1.N)) (iblk V c 12 (⟨n, hn⟩ : Fin cfg1.N)) (iblk V c 13 (⟨n, hn⟩ : Fin cfg1.N)) (stateAt V c (n - 1) hp).2.2.1 (stateAt V c (n - 1) hp).2.2.2)
  rw [show stateAt V c n hn = _ from e]
  dsimp only
  rw [outH_Last_eq c (grid1.coords (⟨n, hn⟩ : Fin cfg1.N)) (ms_0 (⟨n, hn⟩ : Fin cfg1.N)) (hs_0 (⟨n, hn⟩ : Fin cfg1.N)) (ms_1 (⟨n, hn⟩ : Fin cfg1.N)) (hs_1 (⟨n, hn⟩ : Fin cfg1.N)) (ms_2 (⟨n, hn⟩ : Fin cfg1.N)) (hs_2 (⟨n, hn⟩ : Fin cfg1.N)) (ms_3 (⟨n, hn⟩ : Fin cfg1.N)) (hs_3 (⟨n, hn⟩ : Fin cfg1.N)) (ms_4 (⟨n, hn⟩ : Fin cfg1.N)) (hs_4 (⟨n, hn⟩ : Fin cfg1.N)) (ms_5 (⟨n, hn⟩ : Fin cfg1.N)) (hs_5 (⟨n, hn⟩ : Fin cfg1.N)) (ms_6 (⟨n, hn⟩ : Fin cfg1.N)) (hs_6 (⟨n, hn⟩ : Fin cfg1.N)) (ms_7 (⟨n, hn⟩ : Fin cfg1.N)) (hs_7 (⟨n, hn⟩ : Fin cfg1.N)) (ms_8 (⟨n, hn⟩ : Fin cfg1.N)) (hs_8 (⟨n, hn⟩ : Fin cfg1.N)) (ms_9 (⟨n, hn⟩ : Fin cfg1.N)) (hs_9 (⟨n, hn⟩ : Fin cfg1.N)) (ms_10 (⟨n, hn⟩ : Fin cfg1.N)) (hs_10 (⟨n, hn⟩ : Fin cfg1.N)) (ms_11 (⟨n, hn⟩ : Fin cfg1.N)) (hs_11 (⟨n, hn⟩ : Fin cfg1.N)) (ms_12 (⟨n, hn⟩ : Fin cfg1.N)) (hs_12 (⟨n, hn⟩ : Fin cfg1.N)) (ms_13 (⟨n, hn⟩ : Fin cfg1.N)) (hs_13 (⟨n, hn⟩ : Fin cfg1.N)) (ms_14 (⟨n, hn⟩ : Fin cfg1.N)) (hs_14 (⟨n, hn⟩ : Fin cfg1.N)) (ms_15 (⟨n, hn⟩ : Fin cfg1.N)) (hs_15 (⟨n, hn⟩ : Fin cfg1.N)) accH (Memref.isWhole_whole _) accC (Memref.isWhole_whole _) hcNF hcL (iblk V c 0 (⟨n, hn⟩ : Fin cfg1.N)) (iblk V c 1 (⟨n, hn⟩ : Fin cfg1.N)) (iblk V c 2 (⟨n, hn⟩ : Fin cfg1.N)) (iblk V c 3 (⟨n, hn⟩ : Fin cfg1.N)) (iblk V c 4 (⟨n, hn⟩ : Fin cfg1.N)) (iblk V c 5 (⟨n, hn⟩ : Fin cfg1.N)) (iblk V c 6 (⟨n, hn⟩ : Fin cfg1.N)) (iblk V c 7 (⟨n, hn⟩ : Fin cfg1.N)) (iblk V c 8 (⟨n, hn⟩ : Fin cfg1.N)) (iblk V c 9 (⟨n, hn⟩ : Fin cfg1.N)) (iblk V c 10 (⟨n, hn⟩ : Fin cfg1.N)) (iblk V c 11 (⟨n, hn⟩ : Fin cfg1.N)) (iblk V c 12 (⟨n, hn⟩ : Fin cfg1.N)) (iblk V c 13 (⟨n, hn⟩ : Fin cfg1.N)) (stateAt V c (n - 1) hp).2.2.1 (stateAt V c (n - 1) hp).2.2.2]
  refine (pay2_apply (Hf V c) (W2 V c) (B2 V c) (tileRow (n / 6)) (iblk V c 0 (⟨n, hn⟩ : Fin cfg1.N)) (iblk V c 8 (⟨n, hn⟩ : Fin cfg1.N)) (iblk V c 9 (⟨n, hn⟩ : Fin cfg1.N)) (updH (iblk V c 0 (⟨n, hn⟩ : Fin cfg1.N)) (iblk V c 1 (⟨n, hn⟩ : Fin cfg1.N)) (iblk V c 2 (⟨n, hn⟩ : Fin cfg1.N)) (iblk V c 3 (⟨n, hn⟩ : Fin cfg1.N)) (iblk V c 4 (⟨n, hn⟩ : Fin cfg1.N)) (iblk V c 5 (⟨n, hn⟩ : Fin cfg1.N)) (iblk V c 6 (⟨n, hn⟩ : Fin cfg1.N)) (iblk V c 7 (⟨n, hn⟩ : Fin cfg1.N)) (stateAt V c (n - 1) hp).2.2.1) (iblk0_apply V c (⟨n, hn⟩ : Fin cfg1.N)) (iblk8_apply V c (⟨n, hn⟩ : Fin cfg1.N)) (fun d => iblk9_apply V c (⟨n, hn⟩ : Fin cfg1.N) 0 d) a d).trans ?_
  unfold Cert.Spec.layerH
  refine congrArg (Hf V c (tileRow (n / 6) a) d + ·) (congrArg (· + B2 V c d) (Finset.sum_congr rfl fun k _ => ?_))
  refine congrArg (· * W2 V c k d) (congrArg (· * ((1 / 768 : ℝ) : EReal)) ?_)
  exact (congrFun eacc.symm (ix2 a k)).trans (accH_full V c n hn h5 a k)

theorem outC_at_last (c : Dev nD) (n : ℕ) (hn : n < cfg1.N) (hp : n - 1 < cfg1.N) (h5 : n % 6 = 5) (a : Fin 128) (k : Fin 3) :
    (stateAt V c n hn).2.1 (ix2 a k) = Cert.Spec.layerC (Hf V c) (Cf V c) (Wca V c) (Wcb V c) (Wcc V c) (Bc V c) (tileRow (n / 6) a) k := by
  have h0 : ¬n % 6 = 0 := by omega
  have hcNF : ¬isFirst (grid1.coords (⟨n, hn⟩ : Fin cfg1.N)) := fun h => h0 ((isFirst_iff (⟨n, hn⟩ : Fin cfg1.N)).mp h)
  have hcL : isLast (grid1.coords (⟨n, hn⟩ : Fin cfg1.N)) := (isLast_iff (⟨n, hn⟩ : Fin cfg1.N)).mpr h5
  have e := stateAt_last V c (⟨n, hn⟩ : Fin cfg1.N) h0 h5
  have eacc : (stateAt V c n hn).2.2.2 = (updC (iblk V c 0 (⟨n, hn⟩ : Fin cfg1.N)) (iblk V c 1 (⟨n, hn⟩ : Fin cfg1.N)) (iblk V c 2 (⟨n, hn⟩ : Fin cfg1.N)) (iblk V c 3 (⟨n, hn⟩ : Fin cfg1.N)) (iblk V c 10 (⟨n, hn⟩ : Fin cfg1.N)) (iblk V c 11 (⟨n, hn⟩ : Fin cfg1.N)) (iblk V c 12 (⟨n, hn⟩ : Fin cfg1.N)) (iblk V c 13 (⟨n, hn⟩ : Fin cfg1.N)) (stateAt V c (n - 1) hp).2.2.2) :=
    (congrArg (fun s => s.2.2.2) e).trans (accC_Last_eq c (grid1.coords (⟨n, hn⟩ : Fin cfg1.N)) (ms_0 (⟨n, hn⟩ : Fin cfg1.N)) (hs_0 (⟨n, hn⟩ : Fin cfg1.N)) (ms_1 (⟨n, hn⟩ : Fin cfg1.N)) (hs_1 (⟨n, hn⟩ : Fin cfg1.N)) (ms_2 (⟨n, hn⟩ : Fin cfg1.N)) (hs_2 (⟨n, hn⟩ : Fin cfg1.N)) (ms_3 (⟨n, hn⟩ : Fin cfg1.N)) (hs_3 (⟨n, hn⟩ : Fin cfg1.N)) (ms_4 (⟨n, hn⟩ : Fin cfg1.N)) (hs_4 (⟨n, hn⟩ : Fin cfg1.N)) (ms_5 (⟨n, hn⟩ : Fin cfg1.N)) (hs_5 (⟨n, hn⟩ : Fin cfg1.N)) (ms_6 (⟨n, hn⟩ : Fin cfg1.N)) (hs_6 (⟨n, hn⟩ : Fin cfg1.N)) (ms_7 (⟨n, hn⟩ : Fin cfg1.N)) (hs_7 (⟨n, hn⟩ : Fin cfg1.N)) (ms_8 (⟨n, hn⟩ : Fin cfg1.N)) (hs_8 (⟨n, hn⟩ : Fin cfg1.N)) (ms_9 (⟨n, hn⟩ : Fin cfg1.N)) (hs_9 (⟨n, hn⟩ : Fin cfg1.N)) (ms_10 (⟨n, hn⟩ : Fin cfg1.N)) (hs_10 (⟨n, hn⟩ : Fin cfg1.N)) (ms_11 (⟨n, hn⟩ : Fin cfg1.N)) (hs_11 (⟨n, hn⟩ : Fin cfg1.N)) (ms_12 (⟨n, hn⟩ : Fin cfg1.N)) (hs_12 (⟨n, hn⟩ : Fin cfg1.N)) (ms_13 (⟨n, hn⟩ : Fin cfg1.N)) (hs_13 (⟨n, hn⟩ : Fin cfg1.N)) (ms_14 (⟨n, hn⟩ : Fin cfg1.N)) (hs_14 (⟨n, hn⟩ : Fin cfg1.N)) (ms_15 (⟨n, hn⟩ : Fin cfg1.N)) (hs_15 (⟨n, hn⟩ : Fin cfg1.N)) accH (Memref.isWhole_whole _) accC (Memref.isWhole_whole _) hcNF hcL (iblk V c 0 (⟨n, hn⟩ : Fin cfg1.N)) (iblk V c 1 (⟨n, hn⟩ : Fin cfg1.N)) (iblk V c 2 (⟨n, hn⟩ : Fin cfg1.N)) (iblk V c 3 (⟨n, hn⟩ : Fin cfg1.N)) (iblk V c 4 (⟨n, hn⟩ : Fin cfg1.N)) (iblk V c 5 (⟨n, hn⟩ : Fin cfg1.N)) (iblk V c 6 (⟨n, hn⟩ : Fin cfg1.N)) (iblk V c 7 (⟨n, hn⟩ : Fin cfg1.N)) (iblk V c 8 (⟨n, hn⟩ : Fin cfg1.N)) (iblk V c 9 (⟨n, hn⟩ : Fin cfg1.N)) (iblk V c 10 (⟨n, hn⟩ : Fin cfg1.N)) (iblk V c 11 (⟨n, hn⟩ : Fin cfg1.N)) (iblk V c 12 (⟨n, hn⟩ : Fin cfg1.N)) (iblk V c 13 (⟨n, hn⟩ : Fin cfg1.N)) (stateAt V c (n - 1) hp).2.2.1 (stateAt V c (n - 1) hp).2.2.2)
  rw [show stateAt V c n hn = _ from e]
  dsimp only
  rw [outC_Last_eq c (grid1.coords (⟨n, hn⟩ : Fin cfg1.N)) (ms_0 (⟨n, hn⟩ : Fin cfg1.N)) (hs_0 (⟨n, hn⟩ : Fin cfg1.N)) (ms_1 (⟨n, hn⟩ : Fin cfg1.N)) (hs_1 (⟨n, hn⟩ : Fin cfg1.N)) (ms_2 (⟨n, hn⟩ : Fin cfg1.N)) (hs_2 (⟨n, hn⟩ : Fin cfg1.N)) (ms_3 (⟨n, hn⟩ : Fin cfg1.N)) (hs_3 (⟨n, hn⟩ : Fin cfg1.N)) (ms_4 (⟨n, hn⟩ : Fin cfg1.N)) (hs_4 (⟨n, hn⟩ : Fin cfg1.N)) (ms_5 (⟨n, hn⟩ : Fin cfg1.N)) (hs_5 (⟨n, hn⟩ : Fin cfg1.N)) (ms_6 (⟨n, hn⟩ : Fin cfg1.N)) (hs_6 (⟨n, hn⟩ : Fin cfg1.N)) (ms_7 (⟨n, hn⟩ : Fin cfg1.N)) (hs_7 (⟨n, hn⟩ : Fin cfg1.N)) (ms_8 (⟨n, hn⟩ : Fin cfg1.N)) (hs_8 (⟨n, hn⟩ : Fin cfg1.N)) (ms_9 (⟨n, hn⟩ : Fin cfg1.N)) (hs_9 (⟨n, hn⟩ : Fin cfg1.N)) (ms_10 (⟨n, hn⟩ : Fin cfg1.N)) (hs_10 (⟨n, hn⟩ : Fin cfg1.N)) (ms_11 (⟨n, hn⟩ : Fin cfg1.N)) (hs_11 (⟨n, hn⟩ : Fin cfg1.N)) (ms_12 (⟨n, hn⟩ : Fin cfg1.N)) (hs_12 (⟨n, hn⟩ : Fin cfg1.N)) (ms_13 (⟨n, hn⟩ : Fin cfg1.N)) (hs_13 (⟨n, hn⟩ : Fin cfg1.N)) (ms_14 (⟨n, hn⟩ : Fin cfg1.N)) (hs_14 (⟨n, hn⟩ : Fin cfg1.N)) (ms_15 (⟨n, hn⟩ : Fin cfg1.N)) (hs_15 (⟨n, hn⟩ : Fin cfg1.N)) accH (Memref.isWhole_whole _) accC (Memref.isWhole_whole _) hcNF hcL (iblk V c 0 (⟨n, hn⟩ : Fin cfg1.N)) (iblk V c 1 (⟨n, hn⟩ : Fin cfg1.N)) (iblk V c 2 (⟨n, hn⟩ : Fin cfg1.N)) (iblk V c 3 (⟨n, hn⟩ : Fin cfg1.N)) (iblk V c 4 (⟨n, hn⟩ : Fin cfg1.N)) (iblk V c 5 (⟨n, hn⟩ : Fin cfg1.N)) (iblk V c 6 (⟨n, hn⟩ : Fin cfg1.N)) (iblk V c 7 (⟨n, hn⟩ : Fin cfg1.N)) (iblk V c 8 (⟨n, hn⟩ : Fin cfg1.N)) (iblk V c 9 (⟨n, hn⟩ : Fin cfg1.N)) (iblk V c 10 (⟨n, hn⟩ : Fin cfg1.N)) (iblk V c 11 (⟨n, hn⟩ : Fin cfg1.N)) (iblk V c 12 (⟨n, hn⟩ : Fin cfg1.N)) (iblk V c 13 (⟨n, hn⟩ : Fin cfg1.N)) (stateAt V c (n - 1) hp).2.2.1 (stateAt V c (n - 1) hp).2.2.2]
  refine (pay3_apply (Cf V c) (tileRow (n / 6)) (iblk V c 2 (⟨n, hn⟩ : Fin cfg1.N)) (updC (iblk V c 0 (⟨n, hn⟩ : Fin cfg1.N)) (iblk V c 1 (⟨n, hn⟩ : Fin cfg1.N)) (iblk V c 2 (⟨n, hn⟩ : Fin cfg1.N)) (iblk V c 3 (⟨n, hn⟩ : Fin cfg1.N)) (iblk V c 10 (⟨n, hn⟩ : Fin cfg1.N)) (iblk V c 11 (⟨n, hn⟩ : Fin cfg1.N)) (iblk V c 12 (⟨n, hn⟩ : Fin cfg1.N)) (iblk V c 13 (⟨n, hn⟩ : Fin cfg1.N)) (stateAt V c (n - 1) hp).2.2.2) (iblk2_apply V c (⟨n, hn⟩ : Fin cfg1.N)) a k).trans ?_
  unfold Cert.Spec.layerC
  refine congrArg (Cf V c (tileRow (n / 6) a) k + ·) (congrArg (· * ((1 / 768 : ℝ) : EReal)) ?_)
  exact (congrFun eacc.symm (ix2 a k)).trans (accC_full V c n hn h5 a k)

/-! ## From the blocks written back to the two result arrays -/

/-- The layer's new features and coordinates, as contents of the two result arrays. -/
def GH (c : Dev nD) : Buf (Elt Ideal) ((c : Thread nD τ).loc main_v49_0) :=
  fun (idx : (⟨2, ![768, 128]⟩ : Shape).Idx) => Cert.Spec.layerH (Hf V c) (Cf V c) (W1a V c) (W1b V c) (W1c V c) (B1 V c) (W2 V c) (B2 V c) (idx 0) (idx 1)
def GC (c : Dev nD) : Buf (Elt Ideal) ((c : Thread nD τ).loc main_v49_1) :=
  fun (idx : (⟨2, ![768, 3]⟩ : Shape).Idx) => Cert.Spec.layerC (Hf V c) (Cf V c) (Wca V c) (Wcb V c) (Wcc V c) (Bc V c) (idx 0) (idx 1)

theorem flushedH_eq (c : Dev nD) (t : Fin cfg1.N) (hf : (cfg1.win 14).flush t = true) :
    (dat V c).flushed 14 t = ((cfg1.win 14).blk t).view.read (Elt Ideal) (GH V c) := by
  have h5 : t.val % 6 = 5 := (flush1_14 t).mp hf
  have hN : t.val < 36 := lt_of_lt_of_eq t.isLt (show cfg1.N = 36 from N_1)
  show (cfg1.win 14).cut (grid1.coords t) ((dat V c).after 14 t) = _
  rw [after_14]
  funext j
  obtain ⟨a, d, rfl⟩ : ∃ (a : Fin 128) (d : Fin 128), j = ix2 a d := ⟨j 0, j 1, eq_ix2 j⟩
  show (stateAt V c t.val t.isLt).1 (ix2 a d) = GH V c (((cfg1.win 14).blk t).view.emb (ix2 a d))
  rw [outH_at_last V c t.val t.isLt (prevLt t) h5 a d]
  have e0 : (((cfg1.win 14).blk t).view.emb (ix2 a d)) (0 : Fin 2) = tileRow (t.val / 6) a := Fin.ext (by
    show win1_14.index t (0 : Fin 2) * 128 + 1 * a.val = (tileRow (t.val / 6) a).val
    rw [(idx_14 t).1, tileRow_val _ (by omega)]; omega)
  have e1 : (((cfg1.win 14).blk t).view.emb (ix2 a d)) (1 : Fin 2) = d := Fin.ext (by
    show win1_14.index t (1 : Fin 2) * 128 + 1 * d.val = d.val
    rw [(idx_14 t).2]; omega)
  exact congrArg₂ (fun i d => Cert.Spec.layerH (Hf V c) (Cf V c) (W1a V c) (W1b V c) (W1c V c) (B1 V c) (W2 V c) (B2 V c) i d) e0.symm e1.symm

theorem flushedC_eq (c : Dev nD) (t : Fin cfg1.N) (hf : (cfg1.win 15).flush t = true) :
    (dat V c).flushed 15 t = ((cfg1.win 15).blk t).view.read (Elt Ideal) (GC V c) := by
  have h5 : t.val % 6 = 5 := (flush1_15 t).mp hf
  have hN : t.val < 36 := lt_of_lt_of_eq t.isLt (show cfg1.N = 36 from N_1)
  show (cfg1.win 15).cut (grid1.coords t) ((dat V c).after 15 t) = _
  rw [after_15]
  funext j
  obtain ⟨a, k, rfl⟩ : ∃ (a : Fin 128) (k : Fin 3), j = ix2 a k := ⟨j 0, j 1, eq_ix2 j⟩
  show (stateAt V c t.val t.isLt).2.1 (ix2 a k) = GC V c (((cfg1.win 15).blk t).view.emb (ix2 a k))
  rw [outC_at_last V c t.val t.isLt (prevLt t) h5 a k]
  have e0 : (((cfg1.win 15).blk t).view.emb (ix2 a k)) (0 : Fin 2) = tileRow (t.val / 6) a := Fin.ext (by
    show win1_15.index t (0 : Fin 2) * 128 + 1 * a.val = (tileRow (t.val / 6) a).val
    rw [(idx_15 t).1, tileRow_val _ (by omega)]; omega)
  have e1 : (((cfg1.win 15).blk t).view.emb (ix2 a k)) (1 : Fin 2) = k := Fin.ext (by
    show win1_15.index t (1 : Fin 2) * 3 + 1 * k.val = k.val
    rw [(idx_15 t).2]; omega)
  exact congrArg₂ (fun i k => Cert.Spec.layerC (Hf V c) (Cf V c) (Wca V c) (Wcb V c) (Wcc V c) (Bc V c) i k) e0.symm e1.symm

/-- An index of a result array is in a point's block iff each coordinate is in the block's range on its axis. -/
theorem mem_blkH (t : Fin cfg1.N) (i : (⟨2, ![768, 128]⟩ : Shape).Idx) :
    i ∈ ((cfg1.win 14).blk t).view.set ↔ ∀ ax : Fin 2, win1_14.index t ax * S128x128.size ax ≤ (i ax).val ∧ (i ax).val < win1_14.index t ax * S128x128.size ax + S128x128.size ax := by
  show i ∈ ((View.whole main_v49_0).slice (win1_14.rect t)).set ↔ _
  rw [View.set_slice_whole, Rect.mem_set_unit]
  exact Iff.rfl
theorem mem_blkC (t : Fin cfg1.N) (i : (⟨2, ![768, 3]⟩ : Shape).Idx) :
    i ∈ ((cfg1.win 15).blk t).view.set ↔ ∀ ax : Fin 2, win1_15.index t ax * S128x3.size ax ≤ (i ax).val ∧ (i ax).val < win1_15.index t ax * S128x3.size ax + S128x3.size ax := by
  show i ∈ ((View.whole main_v49_1).slice (win1_15.rect t)).set ↔ _
  rw [View.set_slice_whole, Rect.mem_set_unit]
  exact Iff.rfl

/-- Row r of a result array is written back at the last step of its row tile. -/
theorem coverH (i : (⟨2, ![768, 128]⟩ : Shape).Idx) :
    ∃ t : Fin cfg1.N, (cfg1.win 14).flush t = true ∧ i ∈ ((cfg1.win 14).blk t).view.set := by
  have hi0 : (i 0).val < 768 := (i 0).isLt
  have hi1 : (i 1).val < 128 := (i 1).isLt
  have hN : cfg1.N = 36 := N_1
  refine ⟨⟨6 * ((i 0).val / 128) + 5, by rw [hN]; omega⟩, (flush1_14 _).mpr (by show (6 * ((i 0).val / 128) + 5) % 6 = 5; omega), ?_⟩
  rw [mem_blkH]
  intro ax
  match ax with
  | ⟨0, _⟩ =>
    show win1_14.index _ (0 : Fin 2) * 128 ≤ (i 0).val ∧ (i 0).val < win1_14.index _ (0 : Fin 2) * 128 + 128
    rw [(idx_14 _).1]
    show (6 * ((i 0).val / 128) + 5) / 6 * 128 ≤ (i 0).val ∧ (i 0).val < (6 * ((i 0).val / 128) + 5) / 6 * 128 + 128
    omega
  | ⟨1, _⟩ =>
    show win1_14.index _ (1 : Fin 2) * 128 ≤ (i 1).val ∧ (i 1).val < win1_14.index _ (1 : Fin 2) * 128 + 128
    rw [(idx_14 _).2]; omega
theorem coverC (i : (⟨2, ![768, 3]⟩ : Shape).Idx) :
    ∃ t : Fin cfg1.N, (cfg1.win 15).flush t = true ∧ i ∈ ((cfg1.win 15).blk t).view.set := by
  have hi0 : (i 0).val < 768 := (i 0).isLt
  have hi1 : (i 1).val < 3 := (i 1).isLt
  have hN : cfg1.N = 36 := N_1
  refine ⟨⟨6 * ((i 0).val / 128) + 5, by rw [hN]; omega⟩, (flush1_15 _).mpr (by show (6 * ((i 0).val / 128) + 5) % 6 = 5; omega), ?_⟩
  rw [mem_blkC]
  intro ax
  match ax with
  | ⟨0, _⟩ =>
    show win1_15.index _ (0 : Fin 2) * 128 ≤ (i 0).val ∧ (i 0).val < win1_15.index _ (0 : Fin 2) * 128 + 128
    rw [(idx_15 _).1]
    show (6 * ((i 0).val / 128) + 5) / 6 * 128 ≤ (i 0).val ∧ (i 0).val < (6 * ((i 0).val / 128) + 5) / 6 * 128 + 128
    omega
  | ⟨1, _⟩ =>
    show win1_15.index _ (1 : Fin 2) * 3 ≤ (i 1).val ∧ (i 1).val < win1_15.index _ (1 : Fin 2) * 3 + 3
    rw [(idx_15 _).2]; omega

/-- The two result arrays after the region. -/
theorem final_h (c : Dev nD) : (dat V c).arrAt 14 cfg1.N = GH V c :=
  (dat V c).arrAt_eq_of_cover 14 (GH V c) (flushedH_eq V c) coverH
theorem final_c (c : Dev nD) : (dat V c).arrAt 15 cfg1.N = GC V c :=
  (dat V c).arrAt_eq_of_cover 15 (GC V c) (flushedC_eq V c) coverC

/-- THE VALUE of layer 2's region: its first result array holds the layer's new features, -/
theorem value_h (c : Dev nD) (i : Fin 768) (d : Fin 128) : (dat (F := Ideal) V c).arrAt 14 cfg1.N (ValueIdx.ix2 i d)
      = Cert.Spec.layerH (fun i k => V c main_v31_0 (ValueIdx.ix2 i k)) (fun i k => V c main_v31_1 (ValueIdx.ix2 i k)) (fun k d => V c main_v33 (ValueIdx.ix2 k d)) (fun k d => V c main_v35 (ValueIdx.ix2 k d)) (fun d => V c main_v37 (ValueIdx.ix2 0 d)) (fun d => V c main_v38 (ValueIdx.ix2 0 d)) (fun k d => V c main_v40 (ValueIdx.ix2 k d)) (fun d => V c main_v41 (ValueIdx.ix2 0 d)) i d :=
  congrFun (final_h V c) (ix2 i d)

/-- and its second the new coordinates. -/
theorem value_c (c : Dev nD) (i : Fin 768) (k : Fin 3) : (dat (F := Ideal) V c).arrAt 15 cfg1.N (ValueIdx.ix2 i k)
      = Cert.Spec.layerC (fun i k => V c main_v31_0 (ValueIdx.ix2 i k)) (fun i k => V c main_v31_1 (ValueIdx.ix2 i k)) (fun k => V c main_v43 (ValueIdx.ix2 k 0)) (fun k => V c main_v45 (ValueIdx.ix2 k 0)) (V c main_v47 (ValueIdx.ix2 0 0)) (V c main_v48 (ValueIdx.ix2 0 0)) i k :=
  congrFun (final_c V c) (ix2 i k)

end Cert.KernelIdeal.Gen.Layer1.Value

end
-- ==== Proof.IdealLayer2ValuePieces.lean ====
/-
  What each kind of step of layer 3's kernel leaves in the two accumulators and the two outputs' buffers, as the kernel
  body's arithmetic applied to the tiles the step was given: the stored pieces, read back, are one covering store each,
  and every load reads a whole buffer.
-/
import proofs.«110946_j38972533244288_1_alg».proof.Proof.IdealLayer2Data
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Gen.Layer2.Value

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen Cert.KernelIdeal.Gen.Layer2

variable {F : FTy → Type} [FloatOps F] [Named F]

theorem hz : (![0, 0] : Fin 2 → Nat) = fun _ => 0 := funext fun a => by fin_cases a <;> rfl

/-- One step's new feature accumulator: the old one plus, for each receiving row, the sum over the tile's sending rows of the
    messages. -/
abbrev updH (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (acc : Vec F S128x128 .f32) : Vec F S128x128 .f32 :=
  k2_pay14 (k2_pay6 x0) (k2_pay7 x1) (k2_pay10 x2 x3) (k2_pay11 x4) (k2_pay12 x5) (k2_pay13 x6) x7 acc

/-- One step's new coordinate accumulator: the old one plus the sum over the tile's sending rows of the weighted coordinate
    differences. -/
abbrev updC (x0 : Vec F S128x128 .f32) (x1 : Vec F S128x128 .f32) (x2 : Vec F S128x3 .f32) (x3 : Vec F S128x3 .f32) (x10 : Vec F S128x1 .f32) (x11 : Vec F S128x1 .f32) (x12 : Vec F S1x1 .f32) (x13 : Vec F S1x1 .f32) (acc : Vec F S128x3 .f32) : Vec F S128x3 .f32 :=
  k2_pay1 (k2_pay9 x2 x3) (k2_pay15 x13) (k2_pay16 (k2_pay6 x0) (k2_pay7 x1) x10 x11) (k2_pay17 (k2_pay10 x2 x3)) (k2_pay18 x12) acc

theorem accH_First_eq (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i) (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32)  :
    accH_First c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13  = updH x0 x1 x2 x3 x4 x5 x6 x7 k2_pay4 := by
  unfold accH_First
  rw [View.read_writes_eq_canon _ _ _ (cover_accH_First c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 )]
  unfold stepFirst
  dsimp only
  sl_unfold_words
  rw [View.canon_cons_unit_zero (S := S128x128) hz, View.readCov_unit_zero (S := S128x128) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, harg19.read_unread, View.ld_unit_zero (S := S128x128) hz, View.ld_unit_zero (S := S128x3) hz, View.ld_unit_zero (S := S1x128) hz, View.ld_unit_zero (S := S128x1) hz, View.ld_unit_zero (S := S1x1) hz]

theorem accC_First_eq (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : isFirst i) (hc1 : ¬isLast i) (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32)  :
    accC_First c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13  = updC x0 x1 x2 x3 x10 x11 x12 x13 k2_pay5 := by
  unfold accC_First
  rw [View.read_writes_eq_canon _ _ _ (cover_accC_First c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 )]
  unfold stepFirst
  dsimp only
  sl_unfold_words
  rw [View.canon_cons_unit_zero (S := S128x3) hz, View.readCov_unit_zero (S := S128x3) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, harg19.read_unread, View.ld_unit_zero (S := S128x128) hz, View.ld_unit_zero (S := S128x3) hz, View.ld_unit_zero (S := S1x128) hz, View.ld_unit_zero (S := S128x1) hz, View.ld_unit_zero (S := S1x1) hz]

theorem accH_Mid_eq (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i) (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) :
    accH_Mid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 = updH x0 x1 x2 x3 x4 x5 x6 x7 xs0 := by
  unfold accH_Mid
  rw [View.read_writes_eq_canon _ _ _ (cover_accH_Mid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1)]
  unfold stepMid
  dsimp only
  sl_unfold_words
  rw [View.canon_unit_zero (S := S128x128) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, harg19.read_unread, View.ld_unit_zero (S := S128x128) hz, View.ld_unit_zero (S := S128x3) hz, View.ld_unit_zero (S := S1x128) hz, View.ld_unit_zero (S := S128x1) hz, View.ld_unit_zero (S := S1x1) hz]

theorem accC_Mid_eq (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : ¬isLast i) (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) :
    accC_Mid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 = updC x0 x1 x2 x3 x10 x11 x12 x13 xs1 := by
  unfold accC_Mid
  rw [View.read_writes_eq_canon _ _ _ (cover_accC_Mid c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1)]
  unfold stepMid
  dsimp only
  sl_unfold_words
  rw [View.canon_unit_zero (S := S128x3) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, harg19.read_unread, View.ld_unit_zero (S := S128x128) hz, View.ld_unit_zero (S := S128x3) hz, View.ld_unit_zero (S := S1x128) hz, View.ld_unit_zero (S := S128x1) hz, View.ld_unit_zero (S := S1x1) hz]

theorem accH_Last_eq (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i) (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) :
    accH_Last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 = updH x0 x1 x2 x3 x4 x5 x6 x7 xs0 := by
  unfold accH_Last
  rw [View.read_writes_eq_canon _ _ _ (cover_accH_Last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1)]
  unfold stepLast
  dsimp only
  sl_unfold_words
  rw [View.canon_unit_zero (S := S128x128) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, harg19.read_unread, View.ld_unit_zero (S := S128x128) hz, View.ld_unit_zero (S := S128x3) hz, View.ld_unit_zero (S := S1x128) hz, View.ld_unit_zero (S := S128x1) hz, View.ld_unit_zero (S := S1x1) hz]

theorem accC_Last_eq (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i) (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) :
    accC_Last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 = updC x0 x1 x2 x3 x10 x11 x12 x13 xs1 := by
  unfold accC_Last
  rw [View.read_writes_eq_canon _ _ _ (cover_accC_Last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1)]
  unfold stepLast
  dsimp only
  sl_unfold_words
  rw [View.canon_unit_zero (S := S128x3) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, harg19.read_unread, View.ld_unit_zero (S := S128x128) hz, View.ld_unit_zero (S := S128x3) hz, View.ld_unit_zero (S := S1x128) hz, View.ld_unit_zero (S := S128x1) hz, View.ld_unit_zero (S := S1x1) hz]

theorem outH_Last_eq (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i) (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) :
    outH_Last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 = k2_pay2 (k2_pay6 x0) (updH x0 x1 x2 x3 x4 x5 x6 x7 xs0) x8 x9 := by
  unfold outH_Last
  rw [View.read_writes_eq_canon _ _ _ (cover_outH_Last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1)]
  unfold stepLast
  dsimp only
  sl_unfold_words
  rw [View.canon_unit_zero (S := S128x128) hz, View.readCov_unit_zero (S := S128x128) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, harg19.read_unread, View.ld_unit_zero (S := S128x128) hz, View.ld_unit_zero (S := S128x3) hz, View.ld_unit_zero (S := S1x128) hz, View.ld_unit_zero (S := S128x1) hz, View.ld_unit_zero (S := S1x1) hz]

theorem outC_Last_eq (c : Dev nD) (i : grid2.Coords) (arg2 : Memref sig .tc .vmem S128x128 .f32) (harg2 : arg2.IsWhole) (arg3 : Memref sig .tc .vmem S128x128 .f32) (harg3 : arg3.IsWhole) (arg4 : Memref sig .tc .vmem S128x3 .f32) (harg4 : arg4.IsWhole) (arg5 : Memref sig .tc .vmem S128x3 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x1 .f32) (harg12 : arg12.IsWhole) (arg13 : Memref sig .tc .vmem S128x1 .f32) (harg13 : arg13.IsWhole) (arg14 : Memref sig .tc .vmem S1x1 .f32) (harg14 : arg14.IsWhole) (arg15 : Memref sig .tc .vmem S1x1 .f32) (harg15 : arg15.IsWhole) (arg16 : Memref sig .tc .vmem S128x128 .f32) (harg16 : arg16.IsWhole) (arg17 : Memref sig .tc .vmem S128x3 .f32) (harg17 : arg17.IsWhole) (arg18 : Memref sig .tc .vmem S128x128 .f32) (harg18 : arg18.IsWhole) (arg19 : Memref sig .tc .vmem S128x3 .f32) (harg19 : arg19.IsWhole) (hc0 : ¬isFirst i) (hc1 : isLast i) (x0 : Vec F S128x128 .f32) (x1 : Vec F S128x128 .f32) (x2 : Vec F S128x3 .f32) (x3 : Vec F S128x3 .f32) (x4 : Vec F S128x128 .f32) (x5 : Vec F S128x128 .f32) (x6 : Vec F S1x128 .f32) (x7 : Vec F S1x128 .f32) (x8 : Vec F S128x128 .f32) (x9 : Vec F S1x128 .f32) (x10 : Vec F S128x1 .f32) (x11 : Vec F S128x1 .f32) (x12 : Vec F S1x1 .f32) (x13 : Vec F S1x1 .f32) (xs0 : Vec F S128x128 .f32) (xs1 : Vec F S128x3 .f32) :
    outC_Last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1 = k2_pay3 (k2_pay8 x2) (updC x0 x1 x2 x3 x10 x11 x12 x13 xs1) := by
  unfold outC_Last
  rw [View.read_writes_eq_canon _ _ _ (cover_outC_Last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 x13 xs0 xs1)]
  unfold stepLast
  dsimp only
  sl_unfold_words
  rw [View.canon_unit_zero (S := S128x3) hz, View.readCov_unit_zero (S := S128x3) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg18.read_unread, harg19.read_unread, View.ld_unit_zero (S := S128x128) hz, View.ld_unit_zero (S := S128x3) hz, View.ld_unit_zero (S := S1x128) hz, View.ld_unit_zero (S := S128x1) hz, View.ld_unit_zero (S := S1x1) hz]

end Cert.KernelIdeal.Gen.Layer2.Value

end
-- ==== Proof.IdealLayer2ValuePay.lean ====
/-
  The arithmetic of layer 3's kernel body read at an index, at the ideal values: when the tiles a step is given are rows
  I(·) and J(·) of the node features and coordinates and the weights themselves, each stored value is the specification's
  formula at those rows — the coordinate differences, the clamped distance, the message and coordinate-weight sums over the
  tile's sending rows added to the accumulators, and at the last step the scaled sums through the second linear map added to
  the residual.
-/
import proofs.«110946_j38972533244288_1_alg».proof.Proof.Gen.KernelIdeal.Skeleton
import proofs.«110946_j38972533244288_1_alg».proof.Proof.LayerSpec
import proofs.«110946_j38972533244288_1_alg».proof.Proof.LibLayout3
import proofs.«110946_j38972533244288_1_alg».proof.Proof.LibMatmulAt

set_option maxRecDepth 16384

noncomputable section

open scoped BigOperators

namespace Cert.KernelIdeal.Gen.Layer2.Value

open Idealize.ShloMosaic Idealize.ShloMosaic.ValueIdx
open Cert.KernelIdeal Cert.KernelIdeal.Gen Cert.Lib

/-- The sum over the middle axis of a rank-three array, from the zero word, at `(i, k)`. -/
theorem sumAxis1_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = 0x00000000#32) (i : Fin a) (k : Fin c) :
    multiReduction .add [1] ⟨2, ![a, c]⟩ src 0x00000000#32 h hφ hacc (ix2 i k) = ∑ j : Fin b, src (ix3 i j k) :=
  (Ideal.multiReduction_add_single src 0x00000000#32 h hφ hacc (ix2 i k)).trans
    (Finset.sum_congr rfl fun j _ => congrArg src (lift_axis1 h i k j))

/-- The sum over the last axis of a rank-three array, from the zero word, at `(i, j)`. -/
theorem sumAxis2_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ k : Fin c, src (ix3 i j k) :=
  (Ideal.multiReduction_add_single src 0x00000000#32 h hφ hacc (ix2 i j)).trans
    (Finset.sum_congr rfl fun k _ => congrArg src (lift_axis2 h i j k))

/-- The product of two 128×128 tiles into the zero block, at an entry. -/
theorem mm_apply (A B : FVec Ideal S128x128 .f32) (a d : Fin 128) :
    matmul dot_S128x128_S128x128_S128x128_1_0_0_1_n_n none A B (constant S128x128 .f32 0x00000000#32) (ix2 a d)
      = ∑ k : Fin 128, A (ix2 a k) * B (ix2 k d) :=
  matmul_plain_zero_apply _ none A B a d

/-- The product of a 128×128 tile and a 128×1 column into the zero column, at an entry. -/
theorem mv_apply (A : FVec Ideal S128x128 .f32) (B : FVec Ideal S128x1 .f32) (a : Fin 128) (u : Fin 1) :
    matmul dot_S128x128_S128x1_S128x1_1_0_0_1_n_n none A B (constant S128x1 .f32 0x00000000#32) (ix2 a u)
      = ∑ k : Fin 128, A (ix2 a k) * B (ix2 k u) :=
  matmul_plain_zero_apply _ none A B a u

/-- The kernel's named reciprocal is the rational 1/768. -/
theorem inv_768 : Named.named (F := Ideal) Cert.KernelIdeal.κ "inv_768" (φ := .f32) 0x3AAAAAAB#32 = ((1 / 768 : ℝ) : EReal) :=
  IdealRules.named_const.ideal_named_scalar _ _ _ _ rfl

/-- The zero blocks the first step stores. -/
theorem pay4_apply (a d : Fin 128) : k2_pay4 (F := Ideal) (ix2 a d) = 0 := by
  unfold k2_pay4
  try dsimp only
  rw [shapeCast_self, broadcast_apply]
  exact Ideal.ofBits_zero_f32
theorem pay5_apply (a : Fin 128) (k : Fin 3) : k2_pay5 (F := Ideal) (ix2 a k) = 0 := by
  unfold k2_pay5
  try dsimp only
  rw [shapeCast_self, broadcast_apply]
  exact Ideal.ofBits_zero_f32

/-- The coordinate differences between the receiving tile's rows and the sending tile's. -/
theorem pay9_apply (cc : Fin 768 → Fin 3 → EReal) (I J : Fin 128 → Fin 768) (x2 : Vec Ideal S128x3 .f32) (x3 : Vec Ideal S128x3 .f32) (h2 : ∀ a k, x2 (ix2 a k) = cc (I a) k) (h3 : ∀ b k, x3 (ix2 b k) = cc (J b) k) (a b : Fin 128) (k : Fin 3) :
    k2_pay9 x2 x3 (ix3 a b k) = Cert.Spec.rel cc (I a) (J b) k := by
  unfold k2_pay9 k2_pay8
  try dsimp only
  rw [subf_apply, bcast_a1c_apply, bcast_1bc_apply, shapeCast_ab_a1b_apply, shapeCast_ab_1ab_apply, shapeCast_self, shapeCast_self, h2, h3]
  rfl

/-- The clamped distance. -/
theorem pay10_apply (cc : Fin 768 → Fin 3 → EReal) (I J : Fin 128 → Fin 768) (x2 : Vec Ideal S128x3 .f32) (x3 : Vec Ideal S128x3 .f32) (h2 : ∀ a k, x2 (ix2 a k) = cc (I a) k) (h3 : ∀ b k, x3 (ix2 b k) = cc (J b) k) (a b : Fin 128) :
    k2_pay10 x2 x3 (ix2 a b) = Cert.Spec.dist cc (I a) (J b) := by
  have hS : multiReduction .add [2] S128x128 (mulf (k2_pay9 x2 x3) (k2_pay9 x2 x3)) 0x00000000#32 reduces_S128x128x3_S128x128 (.inl rfl) rfl (ix2 a b)
      = Cert.Spec.sq cc (I a) (J b) := by
    rw [sumAxis2_apply]
    exact Finset.sum_congr rfl fun k _ => by rw [mulf_apply, pay9_apply cc I J x2 x3 h2 h3]
  unfold k2_pay10
  try dsimp only
  simp only [select_apply, sqrt_apply, cmpf_apply, broadcast_apply, hS, Ideal.cmpf_def, Ideal.ofBits_def, Ideal.ofBits_zero_f32, ofBits_one_f32]
  rfl

/-- The feature accumulator's update: the sum over the tile's sending rows of the messages. -/
theorem pay14_apply (h : Fin 768 → Fin 128 → EReal) (cc : Fin 768 → Fin 3 → EReal) (w1a w1b : Fin 128 → Fin 128 → EReal) (w1c b1 : Fin 128 → EReal) (I J : Fin 128 → Fin 768) (x0 : Vec Ideal S128x128 .f32) (x1 : Vec Ideal S128x128 .f32) (x2 : Vec Ideal S128x3 .f32) (x3 : Vec Ideal S128x3 .f32) (x4 : Vec Ideal S128x128 .f32) (x5 : Vec Ideal S128x128 .f32) (x6 : Vec Ideal S1x128 .f32) (x7 : Vec Ideal S1x128 .f32) (acc : Vec Ideal S128x128 .f32)
    (h0 : ∀ a k, x0 (ix2 a k) = h (I a) k) (h1 : ∀ b k, x1 (ix2 b k) = h (J b) k) (h2 : ∀ a k, x2 (ix2 a k) = cc (I a) k) (h3 : ∀ b k, x3 (ix2 b k) = cc (J b) k) (h4 : ∀ k d, x4 (ix2 k d) = w1a k d) (h5 : ∀ k d, x5 (ix2 k d) = w1b k d) (h6 : ∀ d, x6 (ix2 (0 : Fin 1) d) = w1c d) (h7 : ∀ d, x7 (ix2 (0 : Fin 1) d) = b1 d) (a d : Fin 128) :
    k2_pay14 (k2_pay6 x0) (k2_pay7 x1) (k2_pay10 x2 x3) (k2_pay11 x4) (k2_pay12 x5) (k2_pay13 x6) x7 acc (ix2 a d)
      = acc (ix2 a d) + ∑ b : Fin 128, Cert.Spec.silu (Cert.Spec.pre h cc w1a w1b w1c b1 (I a) (J b) d) := by
  unfold k2_pay14
  try dsimp only
  rw [shapeCast_self, addf_apply, sumAxis1_apply]
  refine congrArg (acc (ix2 a d) + ·) (Finset.sum_congr rfl fun b _ => ?_)
  simp only [mulf_apply, addf_apply, logistic_apply, bcast_a1c_apply, bcast_1bc_apply, bcast_ab1_apply, bcast_11c_apply,
    shapeCast_ab_a1b_apply, shapeCast_ab_1ab_apply, shapeCast_ab_ab1_apply, shapeCast_self, mm_apply,
    pay10_apply cc I J x2 x3 h2 h3, k2_pay6, k2_pay7, k2_pay11, k2_pay12, k2_pay13, h0, h1, h4, h5, h6, h7]
  rfl

/-- The coordinate accumulator's update: the sum over the tile's sending rows of the weighted coordinate differences. -/
theorem pay1_apply (h : Fin 768 → Fin 128 → EReal) (cc : Fin 768 → Fin 3 → EReal) (wca wcb : Fin 128 → EReal) (wcc bc : EReal) (I J : Fin 128 → Fin 768) (x0 : Vec Ideal S128x128 .f32) (x1 : Vec Ideal S128x128 .f32) (x2 : Vec Ideal S128x3 .f32) (x3 : Vec Ideal S128x3 .f32) (x10 : Vec Ideal S128x1 .f32) (x11 : Vec Ideal S128x1 .f32) (x12 : Vec Ideal S1x1 .f32) (x13 : Vec Ideal S1x1 .f32) (acc : Vec Ideal S128x3 .f32)
    (h0 : ∀ a k, x0 (ix2 a k) = h (I a) k) (h1 : ∀ b k, x1 (ix2 b k) = h (J b) k) (h2 : ∀ a k, x2 (ix2 a k) = cc (I a) k) (h3 : ∀ b k, x3 (ix2 b k) = cc (J b) k) (h10 : ∀ k, x10 (ix2 k (0 : Fin 1)) = wca k) (h11 : ∀ k, x11 (ix2 k (0 : Fin 1)) = wcb k) (h12 : x12 (ix2 (0 : Fin 1) (0 : Fin 1)) = wcc) (h13 : x13 (ix2 (0 : Fin 1) (0 : Fin 1)) = bc) (a : Fin 128) (k : Fin 3) :
    k2_pay1 (k2_pay9 x2 x3) (k2_pay15 x13) (k2_pay16 (k2_pay6 x0) (k2_pay7 x1) x10 x11) (k2_pay17 (k2_pay10 x2 x3)) (k2_pay18 x12) acc (ix2 a k)
      = acc (ix2 a k) + ∑ b : Fin 128, Cert.Spec.silu (Cert.Spec.wpre h cc wca wcb wcc bc (I a) (J b)) * Cert.Spec.rel cc (I a) (J b) k := by
  unfold k2_pay1
  try dsimp only
  rw [shapeCast_self, addf_apply, sumAxis1_apply]
  refine congrArg (acc (ix2 a k) + ·) (Finset.sum_congr rfl fun b _ => ?_)
  simp only [mulf_apply, addf_apply, logistic_apply, bcast_a1c_apply, bcast_1bc_apply, bcast_ab1_apply, bcast_11c_apply,
    shapeCast_ab_a1b_apply, shapeCast_ab_1ab_apply, shapeCast_ab_ab1_apply, shapeCast_self, mv_apply,
    pay10_apply cc I J x2 x3 h2 h3, pay9_apply cc I J x2 x3 h2 h3, k2_pay6, k2_pay7, k2_pay15, k2_pay16, k2_pay17, k2_pay18, h0, h1, h10, h11, h12, h13]
  rfl

/-- The new features of the receiving tile: the residual plus the second linear map of the scaled message sums. -/
theorem pay2_apply (h : Fin 768 → Fin 128 → EReal) (w2 : Fin 128 → Fin 128 → EReal) (b2 : Fin 128 → EReal) (I : Fin 128 → Fin 768) (x0 : Vec Ideal S128x128 .f32) (x8 : Vec Ideal S128x128 .f32) (x9 : Vec Ideal S1x128 .f32) (acc : Vec Ideal S128x128 .f32) (h0 : ∀ a k, x0 (ix2 a k) = h (I a) k) (h8 : ∀ k d, x8 (ix2 k d) = w2 k d) (h9 : ∀ d, x9 (ix2 (0 : Fin 1) d) = b2 d) (a d : Fin 128) :
    k2_pay2 (k2_pay6 x0) acc x8 x9 (ix2 a d)
      = h (I a) d + ((∑ k : Fin 128, (acc (ix2 a k) * ((1 / 768 : ℝ) : EReal)) * w2 k d) + b2 d) := by
  unfold k2_pay2
  try dsimp only
  simp only [addf_apply, mm_apply, mulf_apply, broadcast_apply, broadcastTo_1b_ab_apply, shapeCast_self, k2_pay6, inv_768, h0, h8, h9]

/-- The new coordinates of the receiving tile: the residual plus the scaled weighted sums. -/
theorem pay3_apply (cc : Fin 768 → Fin 3 → EReal) (I : Fin 128 → Fin 768) (x2 : Vec Ideal S128x3 .f32) (acc : Vec Ideal S128x3 .f32) (h2 : ∀ a k, x2 (ix2 a k) = cc (I a) k) (a : Fin 128) (k : Fin 3) :
    k2_pay3 (k2_pay8 x2) acc (ix2 a k) = cc (I a) k + acc (ix2 a k) * ((1 / 768 : ℝ) : EReal) := by
  unfold k2_pay3
  try dsimp only
  simp only [addf_apply, mulf_apply, broadcast_apply, shapeCast_self, k2_pay8, inv_768, h2]

end Cert.KernelIdeal.Gen.Layer2.Value

end
-- ==== Proof.IdealLayer2ValueBlocks.lean ====
/-
  Layer 3's kernel windows read off the arrays at the region's entry: the tile a window stages at a grid point, index by
  index (a row tile of the features or coordinates at the point's quotient or remainder by 6; a weight whole), and the rows
  of the two result arrays the point's output blocks hold.
-/
import proofs.«110946_j38972533244288_1_alg».proof.Proof.IdealLayer2Data
import Idealize.ShloMosaic.Lib.Pipeline.Value
import Idealize.ShloMosaic.Lib.ValueIdx

set_option maxRecDepth 16384

noncomputable section

open scoped BigOperators

namespace Cert.KernelIdeal.Gen.Layer2.Value

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen Cert.KernelIdeal.Gen.Layer2

/-- Row `a` of row tile `q` among the 768 rows. -/
def tileRow (q : ℕ) (a : Fin 128) : Fin 768 := ⟨(q * 128 + a.val) % 768, Nat.mod_lt _ (by decide)⟩

theorem tileRow_val (q : ℕ) (hq : q < 6) (a : Fin 128) : (tileRow q a).val = q * 128 + a.val := by
  have := a.isLt
  show (q * 128 + a.val) % 768 = _
  omega

/-! ## The block indices of the windows, decided over the grid -/

theorem idx_0 : ∀ t : Fin cfg2.N, win2_0.index t (0 : Fin 2) = t.val / 6 ∧ win2_0.index t (1 : Fin 2) = 0 :=
  (by decide +kernel : ∀ t : Fin grid2.N, win2_0.index t (0 : Fin 2) = t.val / 6 ∧ win2_0.index t (1 : Fin 2) = 0)
theorem idx_1 : ∀ t : Fin cfg2.N, win2_1.index t (0 : Fin 2) = t.val % 6 ∧ win2_1.index t (1 : Fin 2) = 0 :=
  (by decide +kernel : ∀ t : Fin grid2.N, win2_1.index t (0 : Fin 2) = t.val % 6 ∧ win2_1.index t (1 : Fin 2) = 0)
theorem idx_2 : ∀ t : Fin cfg2.N, win2_2.index t (0 : Fin 2) = t.val / 6 ∧ win2_2.index t (1 : Fin 2) = 0 :=
  (by decide +kernel : ∀ t : Fin grid2.N, win2_2.index t (0 : Fin 2) = t.val / 6 ∧ win2_2.index t (1 : Fin 2) = 0)
theorem idx_3 : ∀ t : Fin cfg2.N, win2_3.index t (0 : Fin 2) = t.val % 6 ∧ win2_3.index t (1 : Fin 2) = 0 :=
  (by decide +kernel : ∀ t : Fin grid2.N, win2_3.index t (0 : Fin 2) = t.val % 6 ∧ win2_3.index t (1 : Fin 2) = 0)
theorem idx_4 : ∀ t : Fin cfg2.N, win2_4.index t (0 : Fin 2) = 0 ∧ win2_4.index t (1 : Fin 2) = 0 :=
  (by decide +kernel : ∀ t : Fin grid2.N, win2_4.index t (0 : Fin 2) = 0 ∧ win2_4.index t (1 : Fin 2) = 0)
theorem idx_5 : ∀ t : Fin cfg2.N, win2_5.index t (0 : Fin 2) = 0 ∧ win2_5.index t (1 : Fin 2) = 0 :=
  (by decide +kernel : ∀ t : Fin grid2.N, win2_5.index t (0 : Fin 2) = 0 ∧ win2_5.index t (1 : Fin 2) = 0)
theorem idx_6 : ∀ t : Fin cfg2.N, win2_6.index t (0 : Fin 2) = 0 ∧ win2_6.index t (1 : Fin 2) = 0 :=
  (by decide +kernel : ∀ t : Fin grid2.N, win2_6.index t (0 : Fin 2) = 0 ∧ win2_6.index t (1 : Fin 2) = 0)
theorem idx_7 : ∀ t : Fin cfg2.N, win2_7.index t (0 : Fin 2) = 0 ∧ win2_7.index t (1 : Fin 2) = 0 :=
  (by decide +kernel : ∀ t : Fin grid2.N, win2_7.index t (0 : Fin 2) = 0 ∧ win2_7.index t (1 : Fin 2) = 0)
theorem idx_8 : ∀ t : Fin cfg2.N, win2_8.index t (0 : Fin 2) = 0 ∧ win2_8.index t (1 : Fin 2) = 0 :=
  (by decide +kernel : ∀ t : Fin grid2.N, win2_8.index t (0 : Fin 2) = 0 ∧ win2_8.index t (1 : Fin 2) = 0)
theorem idx_9 : ∀ t : Fin cfg2.N, win2_9.index t (0 : Fin 2) = 0 ∧ win2_9.index t (1 : Fin 2) = 0 :=
  (by decide +kernel : ∀ t : Fin grid2.N, win2_9.index t (0 : Fin 2) = 0 ∧ win2_9.index t (1 : Fin 2) = 0)
theorem idx_10 : ∀ t : Fin cfg2.N, win2_10.index t (0 : Fin 2) = 0 ∧ win2_10.index t (1 : Fin 2) = 0 :=
  (by decide +kernel : ∀ t : Fin grid2.N, win2_10.index t (0 : Fin 2) = 0 ∧ win2_10.index t (1 : Fin 2) = 0)
theorem idx_11 : ∀ t : Fin cfg2.N, win2_11.index t (0 : Fin 2) = 0 ∧ win2_11.index t (1 : Fin 2) = 0 :=
  (by decide +kernel : ∀ t : Fin grid2.N, win2_11.index t (0 : Fin 2) = 0 ∧ win2_11.index t (1 : Fin 2) = 0)
theorem idx_12 : ∀ t : Fin cfg2.N, win2_12.index t (0 : Fin 2) = 0 ∧ win2_12.index t (1 : Fin 2) = 0 :=
  (by decide +kernel : ∀ t : Fin grid2.N, win2_12.index t (0 : Fin 2) = 0 ∧ win2_12.index t (1 : Fin 2) = 0)
theorem idx_13 : ∀ t : Fin cfg2.N, win2_13.index t (0 : Fin 2) = 0 ∧ win2_13.index t (1 : Fin 2) = 0 :=
  (by decide +kernel : ∀ t : Fin grid2.N, win2_13.index t (0 : Fin 2) = 0 ∧ win2_13.index t (1 : Fin 2) = 0)
theorem idx_14 : ∀ t : Fin cfg2.N, win2_14.index t (0 : Fin 2) = t.val / 6 ∧ win2_14.index t (1 : Fin 2) = 0 :=
  (by decide +kernel : ∀ t : Fin grid2.N, win2_14.index t (0 : Fin 2) = t.val / 6 ∧ win2_14.index t (1 : Fin 2) = 0)
theorem idx_15 : ∀ t : Fin cfg2.N, win2_15.index t (0 : Fin 2) = t.val / 6 ∧ win2_15.index t (1 : Fin 2) = 0 :=
  (by decide +kernel : ∀ t : Fin grid2.N, win2_15.index t (0 : Fin 2) = t.val / 6 ∧ win2_15.index t (1 : Fin 2) = 0)

section Blocks
variable {F : FTy → Type} [FloatOps F] [Named F]
variable (V : (c : Dev nD) → (b : Ref sig .tc) → Buf (Elt F) ((c : Thread nD τ).loc b))

/-! ## Each input's tile at a point, index by index -/

theorem iblk0_apply (c : Dev nD) (t : Fin cfg2.N) (a : Fin 128) (k : Fin 128) :
    (iblk V c 0 t : Vec F S128x128 .f32) (ix2 a k) = V c main_v49_0 (ix2 (tileRow (t.val / 6) a) k) := by
  have hN : t.val < 36 := lt_of_lt_of_eq t.isLt (show cfg2.N = 36 from N_2)
  unfold iblk
  rw [View.read_apply]
  show V c main_v49_0 _ = V c main_v49_0 _
  congr 1
  funext ax
  apply Fin.ext
  match ax with
  | ⟨0, _⟩ => show win2_0.index t (0 : Fin 2) * 128 + 1 * a.val = ((t.val / 6) * 128 + a.val) % 768; rw [(idx_0 t).1]; omega
  | ⟨1, _⟩ => show win2_0.index t (1 : Fin 2) * 128 + 1 * k.val = k.val; rw [(idx_0 t).2]; omega

theorem iblk1_apply (c : Dev nD) (t : Fin cfg2.N) (a : Fin 128) (k : Fin 128) :
    (iblk V c 1 t : Vec F S128x128 .f32) (ix2 a k) = V c main_v49_0 (ix2 (tileRow (t.val % 6) a) k) := by
  have hN : t.val < 36 := lt_of_lt_of_eq t.isLt (show cfg2.N = 36 from N_2)
  unfold iblk
  rw [View.read_apply]
  show V c main_v49_0 _ = V c main_v49_0 _
  congr 1
  funext ax
  apply Fin.ext
  match ax with
  | ⟨0, _⟩ => show win2_1.index t (0 : Fin 2) * 128 + 1 * a.val = ((t.val % 6) * 128 + a.val) % 768; rw [(idx_1 t).1]; omega
  | ⟨1, _⟩ => show win2_1.index t (1 : Fin 2) * 128 + 1 * k.val = k.val; rw [(idx_1 t).2]; omega

theorem iblk2_apply (c : Dev nD) (t : Fin cfg2.N) (a : Fin 128) (k : Fin 3) :
    (iblk V c 2 t : Vec F S128x3 .f32) (ix2 a k) = V c main_v49_1 (ix2 (tileRow (t.val / 6) a) k) := by
  have hN : t.val < 36 := lt_of_lt_of_eq t.isLt (show cfg2.N = 36 from N_2)
  unfold iblk
  rw [View.read_apply]
  show V c main_v49_1 _ = V c main_v49_1 _
  congr 1
  funext ax
  apply Fin.ext
  match ax with
  | ⟨0, _⟩ => show win2_2.index t (0 : Fin 2) * 128 + 1 * a.val = ((t.val / 6) * 128 + a.val) % 768; rw [(idx_2 t).1]; omega
  | ⟨1, _⟩ => show win2_2.index t (1 : Fin 2) * 3 + 1 * k.val = k.val; rw [(idx_2 t).2]; omega

theorem iblk3_apply (c : Dev nD) (t : Fin cfg2.N) (a : Fin 128) (k : Fin 3) :
    (iblk V c 3 t : Vec F S128x3 .f32) (ix2 a k) = V c main_v49_1 (ix2 (tileRow (t.val % 6) a) k) := by
  have hN : t.val < 36 := lt_of_lt_of_eq t.isLt (show cfg2.N = 36 from N_2)
  unfold iblk
  rw [View.read_apply]
  show V c main_v49_1 _ = V c main_v49_1 _
  congr 1
  funext ax
  apply Fin.ext
  match ax with
  | ⟨0, _⟩ => show win2_3.index t (0 : Fin 2) * 128 + 1 * a.val = ((t.val % 6) * 128 + a.val) % 768; rw [(idx_3 t).1]; omega
  | ⟨1, _⟩ => show win2_3.index t (1 : Fin 2) * 3 + 1 * k.val = k.val; rw [(idx_3 t).2]; omega

theorem iblk4_apply (c : Dev nD) (t : Fin cfg2.N) (a : Fin 128) (k : Fin 128) :
    (iblk V c 4 t : Vec F S128x128 .f32) (ix2 a k) = V c main_v51 (ix2 a k) := by
  have hN : t.val < 36 := lt_of_lt_of_eq t.isLt (show cfg2.N = 36 from N_2)
  unfold iblk
  rw [View.read_apply]
  show V c main_v51 _ = V c main_v51 _
  congr 1
  funext ax
  apply Fin.ext
  match ax with
  | ⟨0, _⟩ => show win2_4.index t (0 : Fin 2) * 128 + 1 * a.val = a.val; rw [(idx_4 t).1]; omega
  | ⟨1, _⟩ => show win2_4.index t (1 : Fin 2) * 128 + 1 * k.val = k.val; rw [(idx_4 t).2]; omega

theorem iblk5_apply (c : Dev nD) (t : Fin cfg2.N) (a : Fin 128) (k : Fin 128) :
    (iblk V c 5 t : Vec F S128x128 .f32) (ix2 a k) = V c main_v53 (ix2 a k) := by
  have hN : t.val < 36 := lt_of_lt_of_eq t.isLt (show cfg2.N = 36 from N_2)
  unfold iblk
  rw [View.read_apply]
  show V c main_v53 _ = V c main_v53 _
  congr 1
  funext ax
  apply Fin.ext
  match ax with
  | ⟨0, _⟩ => show win2_5.index t (0 : Fin 2) * 128 + 1 * a.val = a.val; rw [(idx_5 t).1]; omega
  | ⟨1, _⟩ => show win2_5.index t (1 : Fin 2) * 128 + 1 * k.val = k.val; rw [(idx_5 t).2]; omega

theorem iblk6_apply (c : Dev nD) (t : Fin cfg2.N) (a : Fin 1) (k : Fin 128) :
    (iblk V c 6 t : Vec F S1x128 .f32) (ix2 a k) = V c main_v55 (ix2 a k) := by
  have hN : t.val < 36 := lt_of_lt_of_eq t.isLt (show cfg2.N = 36 from N_2)
  unfold iblk
  rw [View.read_apply]
  show V c main_v55 _ = V c main_v55 _
  congr 1
  funext ax
  apply Fin.ext
  match ax with
  | ⟨0, _⟩ => show win2_6.index t (0 : Fin 2) * 1 + 1 * a.val = a.val; rw [(idx_6 t).1]; omega
  | ⟨1, _⟩ => show win2_6.index t (1 : Fin 2) * 128 + 1 * k.val = k.val; rw [(idx_6 t).2]; omega

theorem iblk7_apply (c : Dev nD) (t : Fin cfg2.N) (a : Fin 1) (k : Fin 128) :
    (iblk V c 7 t : Vec F S1x128 .f32) (ix2 a k) = V c main_v56 (ix2 a k) := by
  have hN : t.val < 36 := lt_of_lt_of_eq t.isLt (show cfg2.N = 36 from N_2)
  unfold iblk
  rw [View.read_apply]
  show V c main_v56 _ = V c main_v56 _
  congr 1
  funext ax
  apply Fin.ext
  match ax with
  | ⟨0, _⟩ => show win2_7.index t (0 : Fin 2) * 1 + 1 * a.val = a.val; rw [(idx_7 t).1]; omega
  | ⟨1, _⟩ => show win2_7.index t (1 : Fin 2) * 128 + 1 * k.val = k.val; rw [(idx_7 t).2]; omega

theorem iblk8_apply (c : Dev nD) (t : Fin cfg2.N) (a : Fin 128) (k : Fin 128) :
    (iblk V c 8 t : Vec F S128x128 .f32) (ix2 a k) = V c main_v58 (ix2 a k) := by
  have hN : t.val < 36 := lt_of_lt_of_eq t.isLt (show cfg2.N = 36 from N_2)
  unfold iblk
  rw [View.read_apply]
  show V c main_v58 _ = V c main_v58 _
  congr 1
  funext ax
  apply Fin.ext
  match ax with
  | ⟨0, _⟩ => show win2_8.index t (0 : Fin 2) * 128 + 1 * a.val = a.val; rw [(idx_8 t).1]; omega
  | ⟨1, _⟩ => show win2_8.index t (1 : Fin 2) * 128 + 1 * k.val = k.val; rw [(idx_8 t).2]; omega

theorem iblk9_apply (c : Dev nD) (t : Fin cfg2.N) (a : Fin 1) (k : Fin 128) :
    (iblk V c 9 t : Vec F S1x128 .f32) (ix2 a k) = V c main_v59 (ix2 a k) := by
  have hN : t.val < 36 := lt_of_lt_of_eq t.isLt (show cfg2.N = 36 from N_2)
  unfold iblk
  rw [View.read_apply]
  show V c main_v59 _ = V c main_v59 _
  congr 1
  funext ax
  apply Fin.ext
  match ax with
  | ⟨0, _⟩ => show win2_9.index t (0 : Fin 2) * 1 + 1 * a.val = a.val; rw [(idx_9 t).1]; omega
  | ⟨1, _⟩ => show win2_9.index t (1 : Fin 2) * 128 + 1 * k.val = k.val; rw [(idx_9 t).2]; omega

theorem iblk10_apply (c : Dev nD) (t : Fin cfg2.N) (a : Fin 128) (k : Fin 1) :
    (iblk V c 10 t : Vec F S128x1 .f32) (ix2 a k) = V c main_v61 (ix2 a k) := by
  have hN : t.val < 36 := lt_of_lt_of_eq t.isLt (show cfg2.N = 36 from N_2)
  unfold iblk
  rw [View.read_apply]
  show V c main_v61 _ = V c main_v61 _
  congr 1
  funext ax
  apply Fin.ext
  match ax with
  | ⟨0, _⟩ => show win2_10.index t (0 : Fin 2) * 128 + 1 * a.val = a.val; rw [(idx_10 t).1]; omega
  | ⟨1, _⟩ => show win2_10.index t (1 : Fin 2) * 1 + 1 * k.val = k.val; rw [(idx_10 t).2]; omega

theorem iblk11_apply (c : Dev nD) (t : Fin cfg2.N) (a : Fin 128) (k : Fin 1) :
    (iblk V c 11 t : Vec F S128x1 .f32) (ix2 a k) = V c main_v63 (ix2 a k) := by
  have hN : t.val < 36 := lt_of_lt_of_eq t.isLt (show cfg2.N = 36 from N_2)
  unfold iblk
  rw [View.read_apply]
  show V c main_v63 _ = V c main_v63 _
  congr 1
  funext ax
  apply Fin.ext
  match ax with
  | ⟨0, _⟩ => show win2_11.index t (0 : Fin 2) * 128 + 1 * a.val = a.val; rw [(idx_11 t).1]; omega
  | ⟨1, _⟩ => show win2_11.index t (1 : Fin 2) * 1 + 1 * k.val = k.val; rw [(idx_11 t).2]; omega

theorem iblk12_apply (c : Dev nD) (t : Fin cfg2.N) (a : Fin 1) (k : Fin 1) :
    (iblk V c 12 t : Vec F S1x1 .f32) (ix2 a k) = V c main_v65 (ix2 a k) := by
  have hN : t.val < 36 := lt_of_lt_of_eq t.isLt (show cfg2.N = 36 from N_2)
  unfold iblk
  rw [View.read_apply]
  show V c main_v65 _ = V c main_v65 _
  congr 1
  funext ax
  apply Fin.ext
  match ax with
  | ⟨0, _⟩ => show win2_12.index t (0 : Fin 2) * 1 + 1 * a.val = a.val; rw [(idx_12 t).1]; omega
  | ⟨1, _⟩ => show win2_12.index t (1 : Fin 2) * 1 + 1 * k.val = k.val; rw [(idx_12 t).2]; omega

theorem iblk13_apply (c : Dev nD) (t : Fin cfg2.N) (a : Fin 1) (k : Fin 1) :
    (iblk V c 13 t : Vec F S1x1 .f32) (ix2 a k) = V c main_v66 (ix2 a k) := by
  have hN : t.val < 36 := lt_of_lt_of_eq t.isLt (show cfg2.N = 36 from N_2)
  unfold iblk
  rw [View.read_apply]
  show V c main_v66 _ = V c main_v66 _
  congr 1
  funext ax
  apply Fin.ext
  match ax with
  | ⟨0, _⟩ => show win2_13.index t (0 : Fin 2) * 1 + 1 * a.val = a.val; rw [(idx_13 t).1]; omega
  | ⟨1, _⟩ => show win2_13.index t (1 : Fin 2) * 1 + 1 * k.val = k.val; rw [(idx_13 t).2]; omega

end Blocks

end Cert.KernelIdeal.Gen.Layer2.Value

end
-- ==== Proof.IdealLayer2Value.lean ====
/-
  What layer 3's kernel region leaves in its two result arrays, at the ideal values: the accumulators after the grid point
  with quotient q and remainder j by 6 hold, for the rows of row tile q, the sums over the sending rows of row tiles 0 … j
  of the messages and of the weighted coordinate differences (by induction on j: zeroed and filled at j = 0, added to
  after); at j = 5 these are the sums over all 768 rows, the step's two output blocks are the layer's new features and
  coordinates of the rows of tile q, and those blocks, written back there, fill the two arrays.
-/
import proofs.«110946_j38972533244288_1_alg».proof.Proof.IdealLayer2ValuePieces
import proofs.«110946_j38972533244288_1_alg».proof.Proof.IdealLayer2ValuePay
import proofs.«110946_j38972533244288_1_alg».proof.Proof.IdealLayer2ValueBlocks
import proofs.«110946_j38972533244288_1_alg».proof.Proof.LibBlockSum

set_option maxRecDepth 16384

noncomputable section

open scoped BigOperators

namespace Cert.KernelIdeal.Gen.Layer2.Value

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen Cert.KernelIdeal.Gen.Layer2

open Cert.Lib

variable (V : (c : Dev nD) → (b : Ref sig .tc) → Buf (Elt Ideal) ((c : Thread nD τ).loc b))

/-! ## The arrays at the region's entry, as the specification's arguments -/

abbrev Hf (c : Dev nD) : Fin 768 → Fin 128 → EReal := fun i k => V c main_v49_0 (ix2 i k)
abbrev Cf (c : Dev nD) : Fin 768 → Fin 3 → EReal := fun i k => V c main_v49_1 (ix2 i k)
abbrev W1a (c : Dev nD) : Fin 128 → Fin 128 → EReal := fun k d => V c main_v51 (ix2 k d)
abbrev W1b (c : Dev nD) : Fin 128 → Fin 128 → EReal := fun k d => V c main_v53 (ix2 k d)
abbrev W1c (c : Dev nD) : Fin 128 → EReal := fun d => V c main_v55 (ix2 0 d)
abbrev B1 (c : Dev nD) : Fin 128 → EReal := fun d => V c main_v56 (ix2 0 d)
abbrev W2 (c : Dev nD) : Fin 128 → Fin 128 → EReal := fun k d => V c main_v58 (ix2 k d)
abbrev B2 (c : Dev nD) : Fin 128 → EReal := fun d => V c main_v59 (ix2 0 d)
abbrev Wca (c : Dev nD) : Fin 128 → EReal := fun k => V c main_v61 (ix2 k 0)
abbrev Wcb (c : Dev nD) : Fin 128 → EReal := fun k => V c main_v63 (ix2 k 0)
abbrev Wcc (c : Dev nD) : EReal := V c main_v65 (ix2 0 0)
abbrev Bc (c : Dev nD) : EReal := V c main_v66 (ix2 0 0)

/-- The message from node j to node i, and the weighted coordinate difference. -/
abbrev msgRow (c : Dev nD) (i j : Fin 768) (d : Fin 128) : EReal := Cert.Spec.silu (Cert.Spec.pre (Hf V c) (Cf V c) (W1a V c) (W1b V c) (W1c V c) (B1 V c) i j d)
abbrev cwRow (c : Dev nD) (i j : Fin 768) (k : Fin 3) : EReal :=
  Cert.Spec.silu (Cert.Spec.wpre (Hf V c) (Cf V c) (Wca V c) (Wcb V c) (Wcc V c) (Bc V c) i j) * Cert.Spec.rel (Cf V c) i j k
/-- Their sums over the rows of sending row tile s, for row a of receiving row tile q. -/
def msgTile (c : Dev nD) (q s : ℕ) (a d : Fin 128) : EReal := ∑ b : Fin 128, msgRow V c (tileRow q a) (tileRow s b) d
def cwTile (c : Dev nD) (q s : ℕ) (a : Fin 128) (k : Fin 3) : EReal := ∑ b : Fin 128, cwRow V c (tileRow q a) (tileRow s b) k

/-! ## One step of the accumulators -/

theorem accH_at_first (c : Dev nD) (n : ℕ) (hn : n < cfg2.N) (h0 : n % 6 = 0) (a d : Fin 128) :
    (stateAt V c n hn).2.2.1 (ix2 a d) = msgTile V c (n / 6) (n % 6) a d := by
  have hcF : isFirst (grid2.coords (⟨n, hn⟩ : Fin cfg2.N)) := (isFirst_iff (⟨n, hn⟩ : Fin cfg2.N)).mpr h0
  have hcNL : ¬isLast (grid2.coords (⟨n, hn⟩ : Fin cfg2.N)) := fun h => by have := (isLast_iff (⟨n, hn⟩ : Fin cfg2.N)).mp h; dsimp only at this; omega
  rw [show stateAt V c n hn = _ from stateAt_first V c (⟨n, hn⟩ : Fin cfg2.N) h0]
  dsimp only
  rw [accH_First_eq c (grid2.coords (⟨n, hn⟩ : Fin cfg2.N)) (ms_0 (⟨n, hn⟩ : Fin cfg2.N)) (hs_0 (⟨n, hn⟩ : Fin cfg2.N)) (ms_1 (⟨n, hn⟩ : Fin cfg2.N)) (hs_1 (⟨n, hn⟩ : Fin cfg2.N)) (ms_2 (⟨n, hn⟩ : Fin cfg2.N)) (hs_2 (⟨n, hn⟩ : Fin cfg2.N)) (ms_3 (⟨n, hn⟩ : Fin cfg2.N)) (hs_3 (⟨n, hn⟩ : Fin cfg2.N)) (ms_4 (⟨n, hn⟩ : Fin cfg2.N)) (hs_4 (⟨n, hn⟩ : Fin cfg2.N)) (ms_5 (⟨n, hn⟩ : Fin cfg2.N)) (hs_5 (⟨n, hn⟩ : Fin cfg2.N)) (ms_6 (⟨n, hn⟩ : Fin cfg2.N)) (hs_6 (⟨n, hn⟩ : Fin cfg2.N)) (ms_7 (⟨n, hn⟩ : Fin cfg2.N)) (hs_7 (⟨n, hn⟩ : Fin cfg2.N)) (ms_8 (⟨n, hn⟩ : Fin cfg2.N)) (hs_8 (⟨n, hn⟩ : Fin cfg2.N)) (ms_9 (⟨n, hn⟩ : Fin cfg2.N)) (hs_9 (⟨n, hn⟩ : Fin cfg2.N)) (ms_10 (⟨n, hn⟩ : Fin cfg2.N)) (hs_10 (⟨n, hn⟩ : Fin cfg2.N)) (ms_11 (⟨n, hn⟩ : Fin cfg2.N)) (hs_11 (⟨n, hn⟩ : Fin cfg2.N)) (ms_12 (⟨n, hn⟩ : Fin cfg2.N)) (hs_12 (⟨n, hn⟩ : Fin cfg2.N)) (ms_13 (⟨n, hn⟩ : Fin cfg2.N)) (hs_13 (⟨n, hn⟩ : Fin cfg2.N)) (ms_14 (⟨n, hn⟩ : Fin cfg2.N)) (hs_14 (⟨n, hn⟩ : Fin cfg2.N)) (ms_15 (⟨n, hn⟩ : Fin cfg2.N)) (hs_15 (⟨n, hn⟩ : Fin cfg2.N)) accH (Memref.isWhole_whole _) accC (Memref.isWhole_whole _) hcF hcNL (iblk V c 0 (⟨n, hn⟩ : Fin cfg2.N)) (iblk V c 1 (⟨n, hn⟩ : Fin cfg2.N)) (iblk V c 2 (⟨n, hn⟩ : Fin cfg2.N)) (iblk V c 3 (⟨n, hn⟩ : Fin cfg2.N)) (iblk V c 4 (⟨n, hn⟩ : Fin cfg2.N)) (iblk V c 5 (⟨n, hn⟩ : Fin cfg2.N)) (iblk V c 6 (⟨n, hn⟩ : Fin cfg2.N)) (iblk V c 7 (⟨n, hn⟩ : Fin cfg2.N)) (iblk V c 8 (⟨n, hn⟩ : Fin cfg2.N)) (iblk V c 9 (⟨n, hn⟩ : Fin cfg2.N)) (iblk V c 10 (⟨n, hn⟩ : Fin cfg2.N)) (iblk V c 11 (⟨n, hn⟩ : Fin cfg2.N)) (iblk V c 12 (⟨n, hn⟩ : Fin cfg2.N)) (iblk V c 13 (⟨n, hn⟩ : Fin cfg2.N))]
  refine (pay14_apply (Hf V c) (Cf V c) (W1a V c) (W1b V c) (W1c V c) (B1 V c) (tileRow (n / 6)) (tileRow (n % 6)) (iblk V c 0 (⟨n, hn⟩ : Fin cfg2.N)) (iblk V c 1 (⟨n, hn⟩ : Fin cfg2.N)) (iblk V c 2 (⟨n, hn⟩ : Fin cfg2.N)) (iblk V c 3 (⟨n, hn⟩ : Fin cfg2.N)) (iblk V c 4 (⟨n, hn⟩ : Fin cfg2.N)) (iblk V c 5 (⟨n, hn⟩ : Fin cfg2.N)) (iblk V c 6 (⟨n, hn⟩ : Fin cfg2.N)) (iblk V c 7 (⟨n, hn⟩ : Fin cfg2.N)) (k2_pay4 (F := Ideal)) (iblk0_apply V c (⟨n, hn⟩ : Fin cfg2.N)) (iblk1_apply V c (⟨n, hn⟩ : Fin cfg2.N)) (iblk2_apply V c (⟨n, hn⟩ : Fin cfg2.N)) (iblk3_apply V c (⟨n, hn⟩ : Fin cfg2.N)) (iblk4_apply V c (⟨n, hn⟩ : Fin cfg2.N)) (iblk5_apply V c (⟨n, hn⟩ : Fin cfg2.N)) (fun d => iblk6_apply V c (⟨n, hn⟩ : Fin cfg2.N) 0 d) (fun d => iblk7_apply V c (⟨n, hn⟩ : Fin cfg2.N) 0 d) a d).trans ?_
  rw [pay4_apply, zero_add]
  rfl

theorem accC_at_first (c : Dev nD) (n : ℕ) (hn : n < cfg2.N) (h0 : n % 6 = 0) (a : Fin 128) (k : Fin 3) :
    (stateAt V c n hn).2.2.2 (ix2 a k) = cwTile V c (n / 6) (n % 6) a k := by
  have hcF : isFirst (grid2.coords (⟨n, hn⟩ : Fin cfg2.N)) := (isFirst_iff (⟨n, hn⟩ : Fin cfg2.N)).mpr h0
  have hcNL : ¬isLast (grid2.coords (⟨n, hn⟩ : Fin cfg2.N)) := fun h => by have := (isLast_iff (⟨n, hn⟩ : Fin cfg2.N)).mp h; dsimp only at this; omega
  rw [show stateAt V c n hn = _ from stateAt_first V c (⟨n, hn⟩ : Fin cfg2.N) h0]
  dsimp only
  rw [accC_First_eq c (grid2.coords (⟨n, hn⟩ : Fin cfg2.N)) (ms_0 (⟨n, hn⟩ : Fin cfg2.N)) (hs_0 (⟨n, hn⟩ : Fin cfg2.N)) (ms_1 (⟨n, hn⟩ : Fin cfg2.N)) (hs_1 (⟨n, hn⟩ : Fin cfg2.N)) (ms_2 (⟨n, hn⟩ : Fin cfg2.N)) (hs_2 (⟨n, hn⟩ : Fin cfg2.N)) (ms_3 (⟨n, hn⟩ : Fin cfg2.N)) (hs_3 (⟨n, hn⟩ : Fin cfg2.N)) (ms_4 (⟨n, hn⟩ : Fin cfg2.N)) (hs_4 (⟨n, hn⟩ : Fin cfg2.N)) (ms_5 (⟨n, hn⟩ : Fin cfg2.N)) (hs_5 (⟨n, hn⟩ : Fin cfg2.N)) (ms_6 (⟨n, hn⟩ : Fin cfg2.N)) (hs_6 (⟨n, hn⟩ : Fin cfg2.N)) (ms_7 (⟨n, hn⟩ : Fin cfg2.N)) (hs_7 (⟨n, hn⟩ : Fin cfg2.N)) (ms_8 (⟨n, hn⟩ : Fin cfg2.N)) (hs_8 (⟨n, hn⟩ : Fin cfg2.N)) (ms_9 (⟨n, hn⟩ : Fin cfg2.N)) (hs_9 (⟨n, hn⟩ : Fin cfg2.N)) (ms_10 (⟨n, hn⟩ : Fin cfg2.N)) (hs_10 (⟨n, hn⟩ : Fin cfg2.N)) (ms_11 (⟨n, hn⟩ : Fin cfg2.N)) (hs_11 (⟨n, hn⟩ : Fin cfg2.N)) (ms_12 (⟨n, hn⟩ : Fin cfg2.N)) (hs_12 (⟨n, hn⟩ : Fin cfg2.N)) (ms_13 (⟨n, hn⟩ : Fin cfg2.N)) (hs_13 (⟨n, hn⟩ : Fin cfg2.N)) (ms_14 (⟨n, hn⟩ : Fin cfg2.N)) (hs_14 (⟨n, hn⟩ : Fin cfg2.N)) (ms_15 (⟨n, hn⟩ : Fin cfg2.N)) (hs_15 (⟨n, hn⟩ : Fin cfg2.N)) accH (Memref.isWhole_whole _) accC (Memref.isWhole_whole _) hcF hcNL (iblk V c 0 (⟨n, hn⟩ : Fin cfg2.N)) (iblk V c 1 (⟨n, hn⟩ : Fin cfg2.N)) (iblk V c 2 (⟨n, hn⟩ : Fin cfg2.N)) (iblk V c 3 (⟨n, hn⟩ : Fin cfg2.N)) (iblk V c 4 (⟨n, hn⟩ : Fin cfg2.N)) (iblk V c 5 (⟨n, hn⟩ : Fin cfg2.N)) (iblk V c 6 (⟨n, hn⟩ : Fin cfg2.N)) (iblk V c 7 (⟨n, hn⟩ : Fin cfg2.N)) (iblk V c 8 (⟨n, hn⟩ : Fin cfg2.N)) (iblk V c 9 (⟨n, hn⟩ : Fin cfg2.N)) (iblk V c 10 (⟨n, hn⟩ : Fin cfg2.N)) (iblk V c 11 (⟨n, hn⟩ : Fin cfg2.N)) (iblk V c 12 (⟨n, hn⟩ : Fin cfg2.N)) (iblk V c 13 (⟨n, hn⟩ : Fin cfg2.N))]
  refine (pay1_apply (Hf V c) (Cf V c) (Wca V c) (Wcb V c) (Wcc V c) (Bc V c) (tileRow (n / 6)) (tileRow (n % 6)) (iblk V c 0 (⟨n, hn⟩ : Fin cfg2.N)) (iblk V c 1 (⟨n, hn⟩ : Fin cfg2.N)) (iblk V c 2 (⟨n, hn⟩ : Fin cfg2.N)) (iblk V c 3 (⟨n, hn⟩ : Fin cfg2.N)) (iblk V c 10 (⟨n, hn⟩ : Fin cfg2.N)) (iblk V c 11 (⟨n, hn⟩ : Fin cfg2.N)) (iblk V c 12 (⟨n, hn⟩ : Fin cfg2.N)) (iblk V c 13 (⟨n, hn⟩ : Fin cfg2.N)) (k2_pay5 (F := Ideal)) (iblk0_apply V c (⟨n, hn⟩ : Fin cfg2.N)) (iblk1_apply V c (⟨n, hn⟩ : Fin cfg2.N)) (iblk2_apply V c (⟨n, hn⟩ : Fin cfg2.N)) (iblk3_apply V c (⟨n, hn⟩ : Fin cfg2.N)) (fun k => iblk10_apply V c (⟨n, hn⟩ : Fin cfg2.N) k 0) (fun k => iblk11_apply V c (⟨n, hn⟩ : Fin cfg2.N) k 0) (iblk12_apply V c (⟨n, hn⟩ : Fin cfg2.N) 0 0) (iblk13_apply V c (⟨n, hn⟩ : Fin cfg2.N) 0 0) a k).trans ?_
  rw [pay5_apply, zero_add]
  rfl

theorem accH_at_step (c : Dev nD) (n : ℕ) (hn : n < cfg2.N) (hp : n - 1 < cfg2.N) (h0 : ¬n % 6 = 0) (a d : Fin 128) :
    (stateAt V c n hn).2.2.1 (ix2 a d) = (stateAt V c (n - 1) hp).2.2.1 (ix2 a d) + msgTile V c (n / 6) (n % 6) a d := by
  have hcNF : ¬isFirst (grid2.coords (⟨n, hn⟩ : Fin cfg2.N)) := fun h => h0 ((isFirst_iff (⟨n, hn⟩ : Fin cfg2.N)).mp h)
  by_cases h1 : n % 6 = 5
  · have hcL : isLast (grid2.coords (⟨n, hn⟩ : Fin cfg2.N)) := (isLast_iff (⟨n, hn⟩ : Fin cfg2.N)).mpr h1
    rw [show stateAt V c n hn = _ from stateAt_last V c (⟨n, hn⟩ : Fin cfg2.N) h0 h1]
    dsimp only
    rw [accH_Last_eq c (grid2.coords (⟨n, hn⟩ : Fin cfg2.N)) (ms_0 (⟨n, hn⟩ : Fin cfg2.N)) (hs_0 (⟨n, hn⟩ : Fin cfg2.N)) (ms_1 (⟨n, hn⟩ : Fin cfg2.N)) (hs_1 (⟨n, hn⟩ : Fin cfg2.N)) (ms_2 (⟨n, hn⟩ : Fin cfg2.N)) (hs_2 (⟨n, hn⟩ : Fin cfg2.N)) (ms_3 (⟨n, hn⟩ : Fin cfg2.N)) (hs_3 (⟨n, hn⟩ : Fin cfg2.N)) (ms_4 (⟨n, hn⟩ : Fin cfg2.N)) (hs_4 (⟨n, hn⟩ : Fin cfg2.N)) (ms_5 (⟨n, hn⟩ : Fin cfg2.N)) (hs_5 (⟨n, hn⟩ : Fin cfg2.N)) (ms_6 (⟨n, hn⟩ : Fin cfg2.N)) (hs_6 (⟨n, hn⟩ : Fin cfg2.N)) (ms_7 (⟨n, hn⟩ : Fin cfg2.N)) (hs_7 (⟨n, hn⟩ : Fin cfg2.N)) (ms_8 (⟨n, hn⟩ : Fin cfg2.N)) (hs_8 (⟨n, hn⟩ : Fin cfg2.N)) (ms_9 (⟨n, hn⟩ : Fin cfg2.N)) (hs_9 (⟨n, hn⟩ : Fin cfg2.N)) (ms_10 (⟨n, hn⟩ : Fin cfg2.N)) (hs_10 (⟨n, hn⟩ : Fin cfg2.N)) (ms_11 (⟨n, hn⟩ : Fin cfg2.N)) (hs_11 (⟨n, hn⟩ : Fin cfg2.N)) (ms_12 (⟨n, hn⟩ : Fin cfg2.N)) (hs_12 (⟨n, hn⟩ : Fin cfg2.N)) (ms_13 (⟨n, hn⟩ : Fin cfg2.N)) (hs_13 (⟨n, hn⟩ : Fin cfg2.N)) (ms_14 (⟨n, hn⟩ : Fin cfg2.N)) (hs_14 (⟨n, hn⟩ : Fin cfg2.N)) (ms_15 (⟨n, hn⟩ : Fin cfg2.N)) (hs_15 (⟨n, hn⟩ : Fin cfg2.N)) accH (Memref.isWhole_whole _) accC (Memref.isWhole_whole _) hcNF hcL (iblk V c 0 (⟨n, hn⟩ : Fin cfg2.N)) (iblk V c 1 (⟨n, hn⟩ : Fin cfg2.N)) (iblk V c 2 (⟨n, hn⟩ : Fin cfg2.N)) (iblk V c 3 (⟨n, hn⟩ : Fin cfg2.N)) (iblk V c 4 (⟨n, hn⟩ : Fin cfg2.N)) (iblk V c 5 (⟨n, hn⟩ : Fin cfg2.N)) (iblk V c 6 (⟨n, hn⟩ : Fin cfg2.N)) (iblk V c 7 (⟨n, hn⟩ : Fin cfg2.N)) (iblk V c 8 (⟨n, hn⟩ : Fin cfg2.N)) (iblk V c 9 (⟨n, hn⟩ : Fin cfg2.N)) (iblk V c 10 (⟨n, hn⟩ : Fin cfg2.N)) (iblk V c 11 (⟨n, hn⟩ : Fin cfg2.N)) (iblk V c 12 (⟨n, hn⟩ : Fin cfg2.N)) (iblk V c 13 (⟨n, hn⟩ : Fin cfg2.N)) (stateAt V c (n - 1) hp).2.2.1 (stateAt V c (n - 1) hp).2.2.2]
    exact pay14_apply (Hf V c) (Cf V c) (W1a V c) (W1b V c) (W1c V c) (B1 V c) (tileRow (n / 6)) (tileRow (n % 6)) (iblk V c 0 (⟨n, hn⟩ : Fin cfg2.N)) (iblk V c 1 (⟨n, hn⟩ : Fin cfg2.N)) (iblk V c 2 (⟨n, hn⟩ : Fin cfg2.N)) (iblk V c 3 (⟨n, hn⟩ : Fin cfg2.N)) (iblk V c 4 (⟨n, hn⟩ : Fin cfg2.N)) (iblk V c 5 (⟨n, hn⟩ : Fin cfg2.N)) (iblk V c 6 (⟨n, hn⟩ : Fin cfg2.N)) (iblk V c 7 (⟨n, hn⟩ : Fin cfg2.N)) (stateAt V c (n - 1) hp).2.2.1 (iblk0_apply V c (⟨n, hn⟩ : Fin cfg2.N)) (iblk1_apply V c (⟨n, hn⟩ : Fin cfg2.N)) (iblk2_apply V c (⟨n, hn⟩ : Fin cfg2.N)) (iblk3_apply V c (⟨n, hn⟩ : Fin cfg2.N)) (iblk4_apply V c (⟨n, hn⟩ : Fin cfg2.N)) (iblk5_apply V c (⟨n, hn⟩ : Fin cfg2.N)) (fun d => iblk6_apply V c (⟨n, hn⟩ : Fin cfg2.N) 0 d) (fun d => iblk7_apply V c (⟨n, hn⟩ : Fin cfg2.N) 0 d) a d
  · have hcNL : ¬isLast (grid2.coords (⟨n, hn⟩ : Fin cfg2.N)) := fun h => h1 ((isLast_iff (⟨n, hn⟩ : Fin cfg2.N)).mp h)
    rw [show stateAt V c n hn = _ from stateAt_mid V c (⟨n, hn⟩ : Fin cfg2.N) h0 h1]
    dsimp only
    rw [accH_Mid_eq c (grid2.coords (⟨n, hn⟩ : Fin cfg2.N)) (ms_0 (⟨n, hn⟩ : Fin cfg2.N)) (hs_0 (⟨n, hn⟩ : Fin cfg2.N)) (ms_1 (⟨n, hn⟩ : Fin cfg2.N)) (hs_1 (⟨n, hn⟩ : Fin cfg2.N)) (ms_2 (⟨n, hn⟩ : Fin cfg2.N)) (hs_2 (⟨n, hn⟩ : Fin cfg2.N)) (ms_3 (⟨n, hn⟩ : Fin cfg2.N)) (hs_3 (⟨n, hn⟩ : Fin cfg2.N)) (ms_4 (⟨n, hn⟩ : Fin cfg2.N)) (hs_4 (⟨n, hn⟩ : Fin cfg2.N)) (ms_5 (⟨n, hn⟩ : Fin cfg2.N)) (hs_5 (⟨n, hn⟩ : Fin cfg2.N)) (ms_6 (⟨n, hn⟩ : Fin cfg2.N)) (hs_6 (⟨n, hn⟩ : Fin cfg2.N)) (ms_7 (⟨n, hn⟩ : Fin cfg2.N)) (hs_7 (⟨n, hn⟩ : Fin cfg2.N)) (ms_8 (⟨n, hn⟩ : Fin cfg2.N)) (hs_8 (⟨n, hn⟩ : Fin cfg2.N)) (ms_9 (⟨n, hn⟩ : Fin cfg2.N)) (hs_9 (⟨n, hn⟩ : Fin cfg2.N)) (ms_10 (⟨n, hn⟩ : Fin cfg2.N)) (hs_10 (⟨n, hn⟩ : Fin cfg2.N)) (ms_11 (⟨n, hn⟩ : Fin cfg2.N)) (hs_11 (⟨n, hn⟩ : Fin cfg2.N)) (ms_12 (⟨n, hn⟩ : Fin cfg2.N)) (hs_12 (⟨n, hn⟩ : Fin cfg2.N)) (ms_13 (⟨n, hn⟩ : Fin cfg2.N)) (hs_13 (⟨n, hn⟩ : Fin cfg2.N)) (ms_14 (⟨n, hn⟩ : Fin cfg2.N)) (hs_14 (⟨n, hn⟩ : Fin cfg2.N)) (ms_15 (⟨n, hn⟩ : Fin cfg2.N)) (hs_15 (⟨n, hn⟩ : Fin cfg2.N)) accH (Memref.isWhole_whole _) accC (Memref.isWhole_whole _) hcNF hcNL (iblk V c 0 (⟨n, hn⟩ : Fin cfg2.N)) (iblk V c 1 (⟨n, hn⟩ : Fin cfg2.N)) (iblk V c 2 (⟨n, hn⟩ : Fin cfg2.N)) (iblk V c 3 (⟨n, hn⟩ : Fin cfg2.N)) (iblk V c 4 (⟨n, hn⟩ : Fin cfg2.N)) (iblk V c 5 (⟨n, hn⟩ : Fin cfg2.N)) (iblk V c 6 (⟨n, hn⟩ : Fin cfg2.N)) (iblk V c 7 (⟨n, hn⟩ : Fin cfg2.N)) (iblk V c 8 (⟨n, hn⟩ : Fin cfg2.N)) (iblk V c 9 (⟨n, hn⟩ : Fin cfg2.N)) (iblk V c 10 (⟨n, hn⟩ : Fin cfg2.N)) (iblk V c 11 (⟨n, hn⟩ : Fin cfg2.N)) (iblk V c 12 (⟨n, hn⟩ : Fin cfg2.N)) (iblk V c 13 (⟨n, hn⟩ : Fin cfg2.N)) (stateAt V c (n - 1) hp).2.2.1 (stateAt V c (n - 1) hp).2.2.2]
    exact pay14_apply (Hf V c) (Cf V c) (W1a V c) (W1b V c) (W1c V c) (B1 V c) (tileRow (n / 6)) (tileRow (n % 6)) (iblk V c 0 (⟨n, hn⟩ : Fin cfg2.N)) (iblk V c 1 (⟨n, hn⟩ : Fin cfg2.N)) (iblk V c 2 (⟨n, hn⟩ : Fin cfg2.N)) (iblk V c 3 (⟨n, hn⟩ : Fin cfg2.N)) (iblk V c 4 (⟨n, hn⟩ : Fin cfg2.N)) (iblk V c 5 (⟨n, hn⟩ : Fin cfg2.N)) (iblk V c 6 (⟨n, hn⟩ : Fin cfg2.N)) (iblk V c 7 (⟨n, hn⟩ : Fin cfg2.N)) (stateAt V c (n - 1) hp).2.2.1 (iblk0_apply V c (⟨n, hn⟩ : Fin cfg2.N)) (iblk1_apply V c (⟨n, hn⟩ : Fin cfg2.N)) (iblk2_apply V c (⟨n, hn⟩ : Fin cfg2.N)) (iblk3_apply V c (⟨n, hn⟩ : Fin cfg2.N)) (iblk4_apply V c (⟨n, hn⟩ : Fin cfg2.N)) (iblk5_apply V c (⟨n, hn⟩ : Fin cfg2.N)) (fun d => iblk6_apply V c (⟨n, hn⟩ : Fin cfg2.N) 0 d) (fun d => iblk7_apply V c (⟨n, hn⟩ : Fin cfg2.N) 0 d) a d

theorem accC_at_step (c : Dev nD) (n : ℕ) (hn : n < cfg2.N) (hp : n - 1 < cfg2.N) (h0 : ¬n % 6 = 0) (a : Fin 128) (k : Fin 3) :
    (stateAt V c n hn).2.2.2 (ix2 a k) = (stateAt V c (n - 1) hp).2.2.2 (ix2 a k) + cwTile V c (n / 6) (n % 6) a k := by
  have hcNF : ¬isFirst (grid2.coords (⟨n, hn⟩ : Fin cfg2.N)) := fun h => h0 ((isFirst_iff (⟨n, hn⟩ : Fin cfg2.N)).mp h)
  by_cases h1 : n % 6 = 5
  · have hcL : isLast (grid2.coords (⟨n, hn⟩ : Fin cfg2.N)) := (isLast_iff (⟨n, hn⟩ : Fin cfg2.N)).mpr h1
    rw [show stateAt V c n hn = _ from stateAt_last V c (⟨n, hn⟩ : Fin cfg2.N) h0 h1]
    dsimp only
    rw [accC_Last_eq c (grid2.coords (⟨n, hn⟩ : Fin cfg2.N)) (ms_0 (⟨n, hn⟩ : Fin cfg2.N)) (hs_0 (⟨n, hn⟩ : Fin cfg2.N)) (ms_1 (⟨n, hn⟩ : Fin cfg2.N)) (hs_1 (⟨n, hn⟩ : Fin cfg2.N)) (ms_2 (⟨n, hn⟩ : Fin cfg2.N)) (hs_2 (⟨n, hn⟩ : Fin cfg2.N)) (ms_3 (⟨n, hn⟩ : Fin cfg2.N)) (hs_3 (⟨n, hn⟩ : Fin cfg2.N)) (ms_4 (⟨n, hn⟩ : Fin cfg2.N)) (hs_4 (⟨n, hn⟩ : Fin cfg2.N)) (ms_5 (⟨n, hn⟩ : Fin cfg2.N)) (hs_5 (⟨n, hn⟩ : Fin cfg2.N)) (ms_6 (⟨n, hn⟩ : Fin cfg2.N)) (hs_6 (⟨n, hn⟩ : Fin cfg2.N)) (ms_7 (⟨n, hn⟩ : Fin cfg2.N)) (hs_7 (⟨n, hn⟩ : Fin cfg2.N)) (ms_8 (⟨n, hn⟩ : Fin cfg2.N)) (hs_8 (⟨n, hn⟩ : Fin cfg2.N)) (ms_9 (⟨n, hn⟩ : Fin cfg2.N)) (hs_9 (⟨n, hn⟩ : Fin cfg2.N)) (ms_10 (⟨n, hn⟩ : Fin cfg2.N)) (hs_10 (⟨n, hn⟩ : Fin cfg2.N)) (ms_11 (⟨n, hn⟩ : Fin cfg2.N)) (hs_11 (⟨n, hn⟩ : Fin cfg2.N)) (ms_12 (⟨n, hn⟩ : Fin cfg2.N)) (hs_12 (⟨n, hn⟩ : Fin cfg2.N)) (ms_13 (⟨n, hn⟩ : Fin cfg2.N)) (hs_13 (⟨n, hn⟩ : Fin cfg2.N)) (ms_14 (⟨n, hn⟩ : Fin cfg2.N)) (hs_14 (⟨n, hn⟩ : Fin cfg2.N)) (ms_15 (⟨n, hn⟩ : Fin cfg2.N)) (hs_15 (⟨n, hn⟩ : Fin cfg2.N)) accH (Memref.isWhole_whole _) accC (Memref.isWhole_whole _) hcNF hcL (iblk V c 0 (⟨n, hn⟩ : Fin cfg2.N)) (iblk V c 1 (⟨n, hn⟩ : Fin cfg2.N)) (iblk V c 2 (⟨n, hn⟩ : Fin cfg2.N)) (iblk V c 3 (⟨n, hn⟩ : Fin cfg2.N)) (iblk V c 4 (⟨n, hn⟩ : Fin cfg2.N)) (iblk V c 5 (⟨n, hn⟩ : Fin cfg2.N)) (iblk V c 6 (⟨n, hn⟩ : Fin cfg2.N)) (iblk V c 7 (⟨n, hn⟩ : Fin cfg2.N)) (iblk V c 8 (⟨n, hn⟩ : Fin cfg2.N)) (iblk V c 9 (⟨n, hn⟩ : Fin cfg2.N)) (iblk V c 10 (⟨n, hn⟩ : Fin cfg2.N)) (iblk V c 11 (⟨n, hn⟩ : Fin cfg2.N)) (iblk V c 12 (⟨n, hn⟩ : Fin cfg2.N)) (iblk V c 13 (⟨n, hn⟩ : Fin cfg2.N)) (stateAt V c (n - 1) hp).2.2.1 (stateAt V c (n - 1) hp).2.2.2]
    exact pay1_apply (Hf V c) (Cf V c) (Wca V c) (Wcb V c) (Wcc V c) (Bc V c) (tileRow (n / 6)) (tileRow (n % 6)) (iblk V c 0 (⟨n, hn⟩ : Fin cfg2.N)) (iblk V c 1 (⟨n, hn⟩ : Fin cfg2.N)) (iblk V c 2 (⟨n, hn⟩ : Fin cfg2.N)) (iblk V c 3 (⟨n, hn⟩ : Fin cfg2.N)) (iblk V c 10 (⟨n, hn⟩ : Fin cfg2.N)) (iblk V c 11 (⟨n, hn⟩ : Fin cfg2.N)) (iblk V c 12 (⟨n, hn⟩ : Fin cfg2.N)) (iblk V c 13 (⟨n, hn⟩ : Fin cfg2.N)) (stateAt V c (n - 1) hp).2.2.2 (iblk0_apply V c (⟨n, hn⟩ : Fin cfg2.N)) (iblk1_apply V c (⟨n, hn⟩ : Fin cfg2.N)) (iblk2_apply V c (⟨n, hn⟩ : Fin cfg2.N)) (iblk3_apply V c (⟨n, hn⟩ : Fin cfg2.N)) (fun k => iblk10_apply V c (⟨n, hn⟩ : Fin cfg2.N) k 0) (fun k => iblk11_apply V c (⟨n, hn⟩ : Fin cfg2.N) k 0) (iblk12_apply V c (⟨n, hn⟩ : Fin cfg2.N) 0 0) (iblk13_apply V c (⟨n, hn⟩ : Fin cfg2.N) 0 0) a k
  · have hcNL : ¬isLast (grid2.coords (⟨n, hn⟩ : Fin cfg2.N)) := fun h => h1 ((isLast_iff (⟨n, hn⟩ : Fin cfg2.N)).mp h)
    rw [show stateAt V c n hn = _ from stateAt_mid V c (⟨n, hn⟩ : Fin cfg2.N) h0 h1]
    dsimp only
    rw [accC_Mid_eq c (grid2.coords (⟨n, hn⟩ : Fin cfg2.N)) (ms_0 (⟨n, hn⟩ : Fin cfg2.N)) (hs_0 (⟨n, hn⟩ : Fin cfg2.N)) (ms_1 (⟨n, hn⟩ : Fin cfg2.N)) (hs_1 (⟨n, hn⟩ : Fin cfg2.N)) (ms_2 (⟨n, hn⟩ : Fin cfg2.N)) (hs_2 (⟨n, hn⟩ : Fin cfg2.N)) (ms_3 (⟨n, hn⟩ : Fin cfg2.N)) (hs_3 (⟨n, hn⟩ : Fin cfg2.N)) (ms_4 (⟨n, hn⟩ : Fin cfg2.N)) (hs_4 (⟨n, hn⟩ : Fin cfg2.N)) (ms_5 (⟨n, hn⟩ : Fin cfg2.N)) (hs_5 (⟨n, hn⟩ : Fin cfg2.N)) (ms_6 (⟨n, hn⟩ : Fin cfg2.N)) (hs_6 (⟨n, hn⟩ : Fin cfg2.N)) (ms_7 (⟨n, hn⟩ : Fin cfg2.N)) (hs_7 (⟨n, hn⟩ : Fin cfg2.N)) (ms_8 (⟨n, hn⟩ : Fin cfg2.N)) (hs_8 (⟨n, hn⟩ : Fin cfg2.N)) (ms_9 (⟨n, hn⟩ : Fin cfg2.N)) (hs_9 (⟨n, hn⟩ : Fin cfg2.N)) (ms_10 (⟨n, hn⟩ : Fin cfg2.N)) (hs_10 (⟨n, hn⟩ : Fin cfg2.N)) (ms_11 (⟨n, hn⟩ : Fin cfg2.N)) (hs_11 (⟨n, hn⟩ : Fin cfg2.N)) (ms_12 (⟨n, hn⟩ : Fin cfg2.N)) (hs_12 (⟨n, hn⟩ : Fin cfg2.N)) (ms_13 (⟨n, hn⟩ : Fin cfg2.N)) (hs_13 (⟨n, hn⟩ : Fin cfg2.N)) (ms_14 (⟨n, hn⟩ : Fin cfg2.N)) (hs_14 (⟨n, hn⟩ : Fin cfg2.N)) (ms_15 (⟨n, hn⟩ : Fin cfg2.N)) (hs_15 (⟨n, hn⟩ : Fin cfg2.N)) accH (Memref.isWhole_whole _) accC (Memref.isWhole_whole _) hcNF hcNL (iblk V c 0 (⟨n, hn⟩ : Fin cfg2.N)) (iblk V c 1 (⟨n, hn⟩ : Fin cfg2.N)) (iblk V c 2 (⟨n, hn⟩ : Fin cfg2.N)) (iblk V c 3 (⟨n, hn⟩ : Fin cfg2.N)) (iblk V c 4 (⟨n, hn⟩ : Fin cfg2.N)) (iblk V c 5 (⟨n, hn⟩ : Fin cfg2.N)) (iblk V c 6 (⟨n, hn⟩ : Fin cfg2.N)) (iblk V c 7 (⟨n, hn⟩ : Fin cfg2.N)) (iblk V c 8 (⟨n, hn⟩ : Fin cfg2.N)) (iblk V c 9 (⟨n, hn⟩ : Fin cfg2.N)) (iblk V c 10 (⟨n, hn⟩ : Fin cfg2.N)) (iblk V c 11 (⟨n, hn⟩ : Fin cfg2.N)) (iblk V c 12 (⟨n, hn⟩ : Fin cfg2.N)) (iblk V c 13 (⟨n, hn⟩ : Fin cfg2.N)) (stateAt V c (n - 1) hp).2.2.1 (stateAt V c (n - 1) hp).2.2.2]
    exact pay1_apply (Hf V c) (Cf V c) (Wca V c) (Wcb V c) (Wcc V c) (Bc V c) (tileRow (n / 6)) (tileRow (n % 6)) (iblk V c 0 (⟨n, hn⟩ : Fin cfg2.N)) (iblk V c 1 (⟨n, hn⟩ : Fin cfg2.N)) (iblk V c 2 (⟨n, hn⟩ : Fin cfg2.N)) (iblk V c 3 (⟨n, hn⟩ : Fin cfg2.N)) (iblk V c 10 (⟨n, hn⟩ : Fin cfg2.N)) (iblk V c 11 (⟨n, hn⟩ : Fin cfg2.N)) (iblk V c 12 (⟨n, hn⟩ : Fin cfg2.N)) (iblk V c 13 (⟨n, hn⟩ : Fin cfg2.N)) (stateAt V c (n - 1) hp).2.2.2 (iblk0_apply V c (⟨n, hn⟩ : Fin cfg2.N)) (iblk1_apply V c (⟨n, hn⟩ : Fin cfg2.N)) (iblk2_apply V c (⟨n, hn⟩ : Fin cfg2.N)) (iblk3_apply V c (⟨n, hn⟩ : Fin cfg2.N)) (fun k => iblk10_apply V c (⟨n, hn⟩ : Fin cfg2.N) k 0) (fun k => iblk11_apply V c (⟨n, hn⟩ : Fin cfg2.N) k 0) (iblk12_apply V c (⟨n, hn⟩ : Fin cfg2.N) 0 0) (iblk13_apply V c (⟨n, hn⟩ : Fin cfg2.N) 0 0) a k

/-! ## The accumulators after a point: the sums over the sending row tiles so far -/

theorem accH_inv (c : Dev nD) : ∀ (n : ℕ) (hn : n < cfg2.N) (a d : Fin 128),
    (stateAt V c n hn).2.2.1 (ix2 a d) = ∑ s ∈ Finset.range (n % 6 + 1), msgTile V c (n / 6) s a d
  | 0, hn, a, d => (accH_at_first V c 0 hn rfl a d).trans (Finset.sum_range_one (fun s => msgTile V c (0 / 6) s a d)).symm
  | n + 1, hn, a, d => by
    by_cases h0 : (n + 1) % 6 = 0
    · refine (accH_at_first V c (n + 1) hn h0 a d).trans ?_
      rw [h0, Nat.zero_add, Finset.sum_range_one]
    · have q : (n + 1) / 6 = n / 6 := by omega
      have r : (n + 1) % 6 = n % 6 + 1 := by omega
      refine (accH_at_step V c (n + 1) hn (Nat.lt_of_succ_lt hn) h0 a d).trans ?_
      rw [q, r, Finset.sum_range_succ]
      exact congrArg (· + msgTile V c (n / 6) (n % 6 + 1) a d) (accH_inv c n (Nat.lt_of_succ_lt hn) a d)

theorem accC_inv (c : Dev nD) : ∀ (n : ℕ) (hn : n < cfg2.N) (a : Fin 128) (k : Fin 3),
    (stateAt V c n hn).2.2.2 (ix2 a k) = ∑ s ∈ Finset.range (n % 6 + 1), cwTile V c (n / 6) s a k
  | 0, hn, a, k => (accC_at_first V c 0 hn rfl a k).trans (Finset.sum_range_one (fun s => cwTile V c (0 / 6) s a k)).symm
  | n + 1, hn, a, k => by
    by_cases h0 : (n + 1) % 6 = 0
    · refine (accC_at_first V c (n + 1) hn h0 a k).trans ?_
      rw [h0, Nat.zero_add, Finset.sum_range_one]
    · have q : (n + 1) / 6 = n / 6 := by omega
      have r : (n + 1) % 6 = n % 6 + 1 := by omega
      refine (accC_at_step V c (n + 1) hn (Nat.lt_of_succ_lt hn) h0 a k).trans ?_
      rw [q, r, Finset.sum_range_succ]
      exact congrArg (· + cwTile V c (n / 6) (n % 6 + 1) a k) (accC_inv c n (Nat.lt_of_succ_lt hn) a k)

/-- At the last step of a row tile the six tile sums are the sum over all 768 sending rows. -/
theorem accH_full (c : Dev nD) (n : ℕ) (hn : n < cfg2.N) (h5 : n % 6 = 5) (a d : Fin 128) :
    (stateAt V c n hn).2.2.1 (ix2 a d) = ∑ r : Fin 768, msgRow V c (tileRow (n / 6) a) r d := by
  rw [accH_inv V c n hn a d, h5, Finset.sum_range,
    sum_blocks (kt := 6) (n := 128) (K := 768) rfl (fun r => msgRow V c (tileRow (n / 6) a) r d)]
  refine Finset.sum_congr rfl fun s _ => ?_
  unfold msgTile
  refine Finset.sum_congr rfl fun b _ => ?_
  exact congrArg (fun j => msgRow V c (tileRow (n / 6) a) j d) (Fin.ext (tileRow_val s.val s.isLt b))

theorem accC_full (c : Dev nD) (n : ℕ) (hn : n < cfg2.N) (h5 : n % 6 = 5) (a : Fin 128) (k : Fin 3) :
    (stateAt V c n hn).2.2.2 (ix2 a k) = ∑ r : Fin 768, cwRow V c (tileRow (n / 6) a) r k := by
  rw [accC_inv V c n hn a k, h5, Finset.sum_range,
    sum_blocks (kt := 6) (n := 128) (K := 768) rfl (fun r => cwRow V c (tileRow (n / 6) a) r k)]
  refine Finset.sum_congr rfl fun s _ => ?_
  unfold cwTile
  refine Finset.sum_congr rfl fun b _ => ?_
  exact congrArg (fun j => cwRow V c (tileRow (n / 6) a) j k) (Fin.ext (tileRow_val s.val s.isLt b))

/-! ## The two output blocks at the last step of a row tile -/

theorem outH_at_last (c : Dev nD) (n : ℕ) (hn : n < cfg2.N) (hp : n - 1 < cfg2.N) (h5 : n % 6 = 5) (a d : Fin 128) :
    (stateAt V c n hn).1 (ix2 a d) = Cert.Spec.layerH (Hf V c) (Cf V c) (W1a V c) (W1b V c) (W1c V c) (B1 V c) (W2 V c) (B2 V c) (tileRow (n / 6) a) d := by
  have h0 : ¬n % 6 = 0 := by omega
  have hcNF : ¬isFirst (grid2.coords (⟨n, hn⟩ : Fin cfg2.N)) := fun h => h0 ((isFirst_iff (⟨n, hn⟩ : Fin cfg2.N)).mp h)
  have hcL : isLast (grid2.coords (⟨n, hn⟩ : Fin cfg2.N)) := (isLast_iff (⟨n, hn⟩ : Fin cfg2.N)).mpr h5
  have e := stateAt_last V c (⟨n, hn⟩ : Fin cfg2.N) h0 h5
  have eacc : (stateAt V c n hn).2.2.1 = (updH (iblk V c 0 (⟨n, hn⟩ : Fin cfg2.N)) (iblk V c 1 (⟨n, hn⟩ : Fin cfg2.N)) (iblk V c 2 (⟨n, hn⟩ : Fin cfg2.N)) (iblk V c 3 (⟨n, hn⟩ : Fin cfg2.N)) (iblk V c 4 (⟨n, hn⟩ : Fin cfg2.N)) (iblk V c 5 (⟨n, hn⟩ : Fin cfg2.N)) (iblk V c 6 (⟨n, hn⟩ : Fin cfg2.N)) (iblk V c 7 (⟨n, hn⟩ : Fin cfg2.N)) (stateAt V c (n - 1) hp).2.2.1) :=
    (congrArg (fun s => s.2.2.1) e).trans (accH_Last_eq c (grid2.coords (⟨n, hn⟩ : Fin cfg2.N)) (ms_0 (⟨n, hn⟩ : Fin cfg2.N)) (hs_0 (⟨n, hn⟩ : Fin cfg2.N)) (ms_1 (⟨n, hn⟩ : Fin cfg2.N)) (hs_1 (⟨n, hn⟩ : Fin cfg2.N)) (ms_2 (⟨n, hn⟩ : Fin cfg2.N)) (hs_2 (⟨n, hn⟩ : Fin cfg2.N)) (ms_3 (⟨n, hn⟩ : Fin cfg2.N)) (hs_3 (⟨n, hn⟩ : Fin cfg2.N)) (ms_4 (⟨n, hn⟩ : Fin cfg2.N)) (hs_4 (⟨n, hn⟩ : Fin cfg2.N)) (ms_5 (⟨n, hn⟩ : Fin cfg2.N)) (hs_5 (⟨n, hn⟩ : Fin cfg2.N)) (ms_6 (⟨n, hn⟩ : Fin cfg2.N)) (hs_6 (⟨n, hn⟩ : Fin cfg2.N)) (ms_7 (⟨n, hn⟩ : Fin cfg2.N)) (hs_7 (⟨n, hn⟩ : Fin cfg2.N)) (ms_8 (⟨n, hn⟩ : Fin cfg2.N)) (hs_8 (⟨n, hn⟩ : Fin cfg2.N)) (ms_9 (⟨n, hn⟩ : Fin cfg2.N)) (hs_9 (⟨n, hn⟩ : Fin cfg2.N)) (ms_10 (⟨n, hn⟩ : Fin cfg2.N)) (hs_10 (⟨n, hn⟩ : Fin cfg2.N)) (ms_11 (⟨n, hn⟩ : Fin cfg2.N)) (hs_11 (⟨n, hn⟩ : Fin cfg2.N)) (ms_12 (⟨n, hn⟩ : Fin cfg2.N)) (hs_12 (⟨n, hn⟩ : Fin cfg2.N)) (ms_13 (⟨n, hn⟩ : Fin cfg2.N)) (hs_13 (⟨n, hn⟩ : Fin cfg2.N)) (ms_14 (⟨n, hn⟩ : Fin cfg2.N)) (hs_14 (⟨n, hn⟩ : Fin cfg2.N)) (ms_15 (⟨n, hn⟩ : Fin cfg2.N)) (hs_15 (⟨n, hn⟩ : Fin cfg2.N)) accH (Memref.isWhole_whole _) accC (Memref.isWhole_whole _) hcNF hcL (iblk V c 0 (⟨n, hn⟩ : Fin cfg2.N)) (iblk V c 1 (⟨n, hn⟩ : Fin cfg2.N)) (iblk V c 2 (⟨n, hn⟩ : Fin cfg2.N)) (iblk V c 3 (⟨n, hn⟩ : Fin cfg2.N)) (iblk V c 4 (⟨n, hn⟩ : Fin cfg2.N)) (iblk V c 5 (⟨n, hn⟩ : Fin cfg2.N)) (iblk V c 6 (⟨n, hn⟩ : Fin cfg2.N)) (iblk V c 7 (⟨n, hn⟩ : Fin cfg2.N)) (iblk V c 8 (⟨n, hn⟩ : Fin cfg2.N)) (iblk V c 9 (⟨n, hn⟩ : Fin cfg2.N)) (iblk V c 10 (⟨n, hn⟩ : Fin cfg2.N)) (iblk V c 11 (⟨n, hn⟩ : Fin cfg2.N)) (iblk V c 12 (⟨n, hn⟩ : Fin cfg2.N)) (iblk V c 13 (⟨n, hn⟩ : Fin cfg2.N)) (stateAt V c (n - 1) hp).2.2.1 (stateAt V c (n - 1) hp).2.2.2)
  rw [show stateAt V c n hn = _ from e]
  dsimp only
  rw [outH_Last_eq c (grid2.coords (⟨n, hn⟩ : Fin cfg2.N)) (ms_0 (⟨n, hn⟩ : Fin cfg2.N)) (hs_0 (⟨n, hn⟩ : Fin cfg2.N)) (ms_1 (⟨n, hn⟩ : Fin cfg2.N)) (hs_1 (⟨n, hn⟩ : Fin cfg2.N)) (ms_2 (⟨n, hn⟩ : Fin cfg2.N)) (hs_2 (⟨n, hn⟩ : Fin cfg2.N)) (ms_3 (⟨n, hn⟩ : Fin cfg2.N)) (hs_3 (⟨n, hn⟩ : Fin cfg2.N)) (ms_4 (⟨n, hn⟩ : Fin cfg2.N)) (hs_4 (⟨n, hn⟩ : Fin cfg2.N)) (ms_5 (⟨n, hn⟩ : Fin cfg2.N)) (hs_5 (⟨n, hn⟩ : Fin cfg2.N)) (ms_6 (⟨n, hn⟩ : Fin cfg2.N)) (hs_6 (⟨n, hn⟩ : Fin cfg2.N)) (ms_7 (⟨n, hn⟩ : Fin cfg2.N)) (hs_7 (⟨n, hn⟩ : Fin cfg2.N)) (ms_8 (⟨n, hn⟩ : Fin cfg2.N)) (hs_8 (⟨n, hn⟩ : Fin cfg2.N)) (ms_9 (⟨n, hn⟩ : Fin cfg2.N)) (hs_9 (⟨n, hn⟩ : Fin cfg2.N)) (ms_10 (⟨n, hn⟩ : Fin cfg2.N)) (hs_10 (⟨n, hn⟩ : Fin cfg2.N)) (ms_11 (⟨n, hn⟩ : Fin cfg2.N)) (hs_11 (⟨n, hn⟩ : Fin cfg2.N)) (ms_12 (⟨n, hn⟩ : Fin cfg2.N)) (hs_12 (⟨n, hn⟩ : Fin cfg2.N)) (ms_13 (⟨n, hn⟩ : Fin cfg2.N)) (hs_13 (⟨n, hn⟩ : Fin cfg2.N)) (ms_14 (⟨n, hn⟩ : Fin cfg2.N)) (hs_14 (⟨n, hn⟩ : Fin cfg2.N)) (ms_15 (⟨n, hn⟩ : Fin cfg2.N)) (hs_15 (⟨n, hn⟩ : Fin cfg2.N)) accH (Memref.isWhole_whole _) accC (Memref.isWhole_whole _) hcNF hcL (iblk V c 0 (⟨n, hn⟩ : Fin cfg2.N)) (iblk V c 1 (⟨n, hn⟩ : Fin cfg2.N)) (iblk V c 2 (⟨n, hn⟩ : Fin cfg2.N)) (iblk V c 3 (⟨n, hn⟩ : Fin cfg2.N)) (iblk V c 4 (⟨n, hn⟩ : Fin cfg2.N)) (iblk V c 5 (⟨n, hn⟩ : Fin cfg2.N)) (iblk V c 6 (⟨n, hn⟩ : Fin cfg2.N)) (iblk V c 7 (⟨n, hn⟩ : Fin cfg2.N)) (iblk V c 8 (⟨n, hn⟩ : Fin cfg2.N)) (iblk V c 9 (⟨n, hn⟩ : Fin cfg2.N)) (iblk V c 10 (⟨n, hn⟩ : Fin cfg2.N)) (iblk V c 11 (⟨n, hn⟩ : Fin cfg2.N)) (iblk V c 12 (⟨n, hn⟩ : Fin cfg2.N)) (iblk V c 13 (⟨n, hn⟩ : Fin cfg2.N)) (stateAt V c (n - 1) hp).2.2.1 (stateAt V c (n - 1) hp).2.2.2]
  refine (pay2_apply (Hf V c) (W2 V c) (B2 V c) (tileRow (n / 6)) (iblk V c 0 (⟨n, hn⟩ : Fin cfg2.N)) (iblk V c 8 (⟨n, hn⟩ : Fin cfg2.N)) (iblk V c 9 (⟨n, hn⟩ : Fin cfg2.N)) (updH (iblk V c 0 (⟨n, hn⟩ : Fin cfg2.N)) (iblk V c 1 (⟨n, hn⟩ : Fin cfg2.N)) (iblk V c 2 (⟨n, hn⟩ : Fin cfg2.N)) (iblk V c 3 (⟨n, hn⟩ : Fin cfg2.N)) (iblk V c 4 (⟨n, hn⟩ : Fin cfg2.N)) (iblk V c 5 (⟨n, hn⟩ : Fin cfg2.N)) (iblk V c 6 (⟨n, hn⟩ : Fin cfg2.N)) (iblk V c 7 (⟨n, hn⟩ : Fin cfg2.N)) (stateAt V c (n - 1) hp).2.2.1) (iblk0_apply V c (⟨n, hn⟩ : Fin cfg2.N)) (iblk8_apply V c (⟨n, hn⟩ : Fin cfg2.N)) (fun d => iblk9_apply V c (⟨n, hn⟩ : Fin cfg2.N) 0 d) a d).trans ?_
  unfold Cert.Spec.layerH
  refine congrArg (Hf V c (tileRow (n / 6) a) d + ·) (congrArg (· + B2 V c d) (Finset.sum_congr rfl fun k _ => ?_))
  refine congrArg (· * W2 V c k d) (congrArg (· * ((1 / 768 : ℝ) : EReal)) ?_)
  exact (congrFun eacc.symm (ix2 a k)).trans (accH_full V c n hn h5 a k)

theorem outC_at_last (c : Dev nD) (n : ℕ) (hn : n < cfg2.N) (hp : n - 1 < cfg2.N) (h5 : n % 6 = 5) (a : Fin 128) (k : Fin 3) :
    (stateAt V c n hn).2.1 (ix2 a k) = Cert.Spec.layerC (Hf V c) (Cf V c) (Wca V c) (Wcb V c) (Wcc V c) (Bc V c) (tileRow (n / 6) a) k := by
  have h0 : ¬n % 6 = 0 := by omega
  have hcNF : ¬isFirst (grid2.coords (⟨n, hn⟩ : Fin cfg2.N)) := fun h => h0 ((isFirst_iff (⟨n, hn⟩ : Fin cfg2.N)).mp h)
  have hcL : isLast (grid2.coords (⟨n, hn⟩ : Fin cfg2.N)) := (isLast_iff (⟨n, hn⟩ : Fin cfg2.N)).mpr h5
  have e := stateAt_last V c (⟨n, hn⟩ : Fin cfg2.N) h0 h5
  have eacc : (stateAt V c n hn).2.2.2 = (updC (iblk V c 0 (⟨n, hn⟩ : Fin cfg2.N)) (iblk V c 1 (⟨n, hn⟩ : Fin cfg2.N)) (iblk V c 2 (⟨n, hn⟩ : Fin cfg2.N)) (iblk V c 3 (⟨n, hn⟩ : Fin cfg2.N)) (iblk V c 10 (⟨n, hn⟩ : Fin cfg2.N)) (iblk V c 11 (⟨n, hn⟩ : Fin cfg2.N)) (iblk V c 12 (⟨n, hn⟩ : Fin cfg2.N)) (iblk V c 13 (⟨n, hn⟩ : Fin cfg2.N)) (stateAt V c (n - 1) hp).2.2.2) :=
    (congrArg (fun s => s.2.2.2) e).trans (accC_Last_eq c (grid2.coords (⟨n, hn⟩ : Fin cfg2.N)) (ms_0 (⟨n, hn⟩ : Fin cfg2.N)) (hs_0 (⟨n, hn⟩ : Fin cfg2.N)) (ms_1 (⟨n, hn⟩ : Fin cfg2.N)) (hs_1 (⟨n, hn⟩ : Fin cfg2.N)) (ms_2 (⟨n, hn⟩ : Fin cfg2.N)) (hs_2 (⟨n, hn⟩ : Fin cfg2.N)) (ms_3 (⟨n, hn⟩ : Fin cfg2.N)) (hs_3 (⟨n, hn⟩ : Fin cfg2.N)) (ms_4 (⟨n, hn⟩ : Fin cfg2.N)) (hs_4 (⟨n, hn⟩ : Fin cfg2.N)) (ms_5 (⟨n, hn⟩ : Fin cfg2.N)) (hs_5 (⟨n, hn⟩ : Fin cfg2.N)) (ms_6 (⟨n, hn⟩ : Fin cfg2.N)) (hs_6 (⟨n, hn⟩ : Fin cfg2.N)) (ms_7 (⟨n, hn⟩ : Fin cfg2.N)) (hs_7 (⟨n, hn⟩ : Fin cfg2.N)) (ms_8 (⟨n, hn⟩ : Fin cfg2.N)) (hs_8 (⟨n, hn⟩ : Fin cfg2.N)) (ms_9 (⟨n, hn⟩ : Fin cfg2.N)) (hs_9 (⟨n, hn⟩ : Fin cfg2.N)) (ms_10 (⟨n, hn⟩ : Fin cfg2.N)) (hs_10 (⟨n, hn⟩ : Fin cfg2.N)) (ms_11 (⟨n, hn⟩ : Fin cfg2.N)) (hs_11 (⟨n, hn⟩ : Fin cfg2.N)) (ms_12 (⟨n, hn⟩ : Fin cfg2.N)) (hs_12 (⟨n, hn⟩ : Fin cfg2.N)) (ms_13 (⟨n, hn⟩ : Fin cfg2.N)) (hs_13 (⟨n, hn⟩ : Fin cfg2.N)) (ms_14 (⟨n, hn⟩ : Fin cfg2.N)) (hs_14 (⟨n, hn⟩ : Fin cfg2.N)) (ms_15 (⟨n, hn⟩ : Fin cfg2.N)) (hs_15 (⟨n, hn⟩ : Fin cfg2.N)) accH (Memref.isWhole_whole _) accC (Memref.isWhole_whole _) hcNF hcL (iblk V c 0 (⟨n, hn⟩ : Fin cfg2.N)) (iblk V c 1 (⟨n, hn⟩ : Fin cfg2.N)) (iblk V c 2 (⟨n, hn⟩ : Fin cfg2.N)) (iblk V c 3 (⟨n, hn⟩ : Fin cfg2.N)) (iblk V c 4 (⟨n, hn⟩ : Fin cfg2.N)) (iblk V c 5 (⟨n, hn⟩ : Fin cfg2.N)) (iblk V c 6 (⟨n, hn⟩ : Fin cfg2.N)) (iblk V c 7 (⟨n, hn⟩ : Fin cfg2.N)) (iblk V c 8 (⟨n, hn⟩ : Fin cfg2.N)) (iblk V c 9 (⟨n, hn⟩ : Fin cfg2.N)) (iblk V c 10 (⟨n, hn⟩ : Fin cfg2.N)) (iblk V c 11 (⟨n, hn⟩ : Fin cfg2.N)) (iblk V c 12 (⟨n, hn⟩ : Fin cfg2.N)) (iblk V c 13 (⟨n, hn⟩ : Fin cfg2.N)) (stateAt V c (n - 1) hp).2.2.1 (stateAt V c (n - 1) hp).2.2.2)
  rw [show stateAt V c n hn = _ from e]
  dsimp only
  rw [outC_Last_eq c (grid2.coords (⟨n, hn⟩ : Fin cfg2.N)) (ms_0 (⟨n, hn⟩ : Fin cfg2.N)) (hs_0 (⟨n, hn⟩ : Fin cfg2.N)) (ms_1 (⟨n, hn⟩ : Fin cfg2.N)) (hs_1 (⟨n, hn⟩ : Fin cfg2.N)) (ms_2 (⟨n, hn⟩ : Fin cfg2.N)) (hs_2 (⟨n, hn⟩ : Fin cfg2.N)) (ms_3 (⟨n, hn⟩ : Fin cfg2.N)) (hs_3 (⟨n, hn⟩ : Fin cfg2.N)) (ms_4 (⟨n, hn⟩ : Fin cfg2.N)) (hs_4 (⟨n, hn⟩ : Fin cfg2.N)) (ms_5 (⟨n, hn⟩ : Fin cfg2.N)) (hs_5 (⟨n, hn⟩ : Fin cfg2.N)) (ms_6 (⟨n, hn⟩ : Fin cfg2.N)) (hs_6 (⟨n, hn⟩ : Fin cfg2.N)) (ms_7 (⟨n, hn⟩ : Fin cfg2.N)) (hs_7 (⟨n, hn⟩ : Fin cfg2.N)) (ms_8 (⟨n, hn⟩ : Fin cfg2.N)) (hs_8 (⟨n, hn⟩ : Fin cfg2.N)) (ms_9 (⟨n, hn⟩ : Fin cfg2.N)) (hs_9 (⟨n, hn⟩ : Fin cfg2.N)) (ms_10 (⟨n, hn⟩ : Fin cfg2.N)) (hs_10 (⟨n, hn⟩ : Fin cfg2.N)) (ms_11 (⟨n, hn⟩ : Fin cfg2.N)) (hs_11 (⟨n, hn⟩ : Fin cfg2.N)) (ms_12 (⟨n, hn⟩ : Fin cfg2.N)) (hs_12 (⟨n, hn⟩ : Fin cfg2.N)) (ms_13 (⟨n, hn⟩ : Fin cfg2.N)) (hs_13 (⟨n, hn⟩ : Fin cfg2.N)) (ms_14 (⟨n, hn⟩ : Fin cfg2.N)) (hs_14 (⟨n, hn⟩ : Fin cfg2.N)) (ms_15 (⟨n, hn⟩ : Fin cfg2.N)) (hs_15 (⟨n, hn⟩ : Fin cfg2.N)) accH (Memref.isWhole_whole _) accC (Memref.isWhole_whole _) hcNF hcL (iblk V c 0 (⟨n, hn⟩ : Fin cfg2.N)) (iblk V c 1 (⟨n, hn⟩ : Fin cfg2.N)) (iblk V c 2 (⟨n, hn⟩ : Fin cfg2.N)) (iblk V c 3 (⟨n, hn⟩ : Fin cfg2.N)) (iblk V c 4 (⟨n, hn⟩ : Fin cfg2.N)) (iblk V c 5 (⟨n, hn⟩ : Fin cfg2.N)) (iblk V c 6 (⟨n, hn⟩ : Fin cfg2.N)) (iblk V c 7 (⟨n, hn⟩ : Fin cfg2.N)) (iblk V c 8 (⟨n, hn⟩ : Fin cfg2.N)) (iblk V c 9 (⟨n, hn⟩ : Fin cfg2.N)) (iblk V c 10 (⟨n, hn⟩ : Fin cfg2.N)) (iblk V c 11 (⟨n, hn⟩ : Fin cfg2.N)) (iblk V c 12 (⟨n, hn⟩ : Fin cfg2.N)) (iblk V c 13 (⟨n, hn⟩ : Fin cfg2.N)) (stateAt V c (n - 1) hp).2.2.1 (stateAt V c (n - 1) hp).2.2.2]
  refine (pay3_apply (Cf V c) (tileRow (n / 6)) (iblk V c 2 (⟨n, hn⟩ : Fin cfg2.N)) (updC (iblk V c 0 (⟨n, hn⟩ : Fin cfg2.N)) (iblk V c 1 (⟨n, hn⟩ : Fin cfg2.N)) (iblk V c 2 (⟨n, hn⟩ : Fin cfg2.N)) (iblk V c 3 (⟨n, hn⟩ : Fin cfg2.N)) (iblk V c 10 (⟨n, hn⟩ : Fin cfg2.N)) (iblk V c 11 (⟨n, hn⟩ : Fin cfg2.N)) (iblk V c 12 (⟨n, hn⟩ : Fin cfg2.N)) (iblk V c 13 (⟨n, hn⟩ : Fin cfg2.N)) (stateAt V c (n - 1) hp).2.2.2) (iblk2_apply V c (⟨n, hn⟩ : Fin cfg2.N)) a k).trans ?_
  unfold Cert.Spec.layerC
  refine congrArg (Cf V c (tileRow (n / 6) a) k + ·) (congrArg (· * ((1 / 768 : ℝ) : EReal)) ?_)
  exact (congrFun eacc.symm (ix2 a k)).trans (accC_full V c n hn h5 a k)

/-! ## From the blocks written back to the two result arrays -/

/-- The layer's new features and coordinates, as contents of the two result arrays. -/
def GH (c : Dev nD) : Buf (Elt Ideal) ((c : Thread nD τ).loc main_v67_0) :=
  fun (idx : (⟨2, ![768, 128]⟩ : Shape).Idx) => Cert.Spec.layerH (Hf V c) (Cf V c) (W1a V c) (W1b V c) (W1c V c) (B1 V c) (W2 V c) (B2 V c) (idx 0) (idx 1)
def GC (c : Dev nD) : Buf (Elt Ideal) ((c : Thread nD τ).loc main_v67_1) :=
  fun (idx : (⟨2, ![768, 3]⟩ : Shape).Idx) => Cert.Spec.layerC (Hf V c) (Cf V c) (Wca V c) (Wcb V c) (Wcc V c) (Bc V c) (idx 0) (idx 1)

theorem flushedH_eq (c : Dev nD) (t : Fin cfg2.N) (hf : (cfg2.win 14).flush t = true) :
    (dat V c).flushed 14 t = ((cfg2.win 14).blk t).view.read (Elt Ideal) (GH V c) := by
  have h5 : t.val % 6 = 5 := (flush2_14 t).mp hf
  have hN : t.val < 36 := lt_of_lt_of_eq t.isLt (show cfg2.N = 36 from N_2)
  show (cfg2.win 14).cut (grid2.coords t) ((dat V c).after 14 t) = _
  rw [after_14]
  funext j
  obtain ⟨a, d, rfl⟩ : ∃ (a : Fin 128) (d : Fin 128), j = ix2 a d := ⟨j 0, j 1, eq_ix2 j⟩
  show (stateAt V c t.val t.isLt).1 (ix2 a d) = GH V c (((cfg2.win 14).blk t).view.emb (ix2 a d))
  rw [outH_at_last V c t.val t.isLt (prevLt t) h5 a d]
  have e0 : (((cfg2.win 14).blk t).view.emb (ix2 a d)) (0 : Fin 2) = tileRow (t.val / 6) a := Fin.ext (by
    show win2_14.index t (0 : Fin 2) * 128 + 1 * a.val = (tileRow (t.val / 6) a).val
    rw [(idx_14 t).1, tileRow_val _ (by omega)]; omega)
  have e1 : (((cfg2.win 14).blk t).view.emb (ix2 a d)) (1 : Fin 2) = d := Fin.ext (by
    show win2_14.index t (1 : Fin 2) * 128 + 1 * d.val = d.val
    rw [(idx_14 t).2]; omega)
  exact congrArg₂ (fun i d => Cert.Spec.layerH (Hf V c) (Cf V c) (W1a V c) (W1b V c) (W1c V c) (B1 V c) (W2 V c) (B2 V c) i d) e0.symm e1.symm

theorem flushedC_eq (c : Dev nD) (t : Fin cfg2.N) (hf : (cfg2.win 15).flush t = true) :
    (dat V c).flushed 15 t = ((cfg2.win 15).blk t).view.read (Elt Ideal) (GC V c) := by
  have h5 : t.val % 6 = 5 := (flush2_15 t).mp hf
  have hN : t.val < 36 := lt_of_lt_of_eq t.isLt (show cfg2.N = 36 from N_2)
  show (cfg2.win 15).cut (grid2.coords t) ((dat V c).after 15 t) = _
  rw [after_15]
  funext j
  obtain ⟨a, k, rfl⟩ : ∃ (a : Fin 128) (k : Fin 3), j = ix2 a k := ⟨j 0, j 1, eq_ix2 j⟩
  show (stateAt V c t.val t.isLt).2.1 (ix2 a k) = GC V c (((cfg2.win 15).blk t).view.emb (ix2 a k))
  rw [outC_at_last V c t.val t.isLt (prevLt t) h5 a k]
  have e0 : (((cfg2.win 15).blk t).view.emb (ix2 a k)) (0 : Fin 2) = tileRow (t.val / 6) a := Fin.ext (by
    show win2_15.index t (0 : Fin 2) * 128 + 1 * a.val = (tileRow (t.val / 6) a).val
    rw [(idx_15 t).1, tileRow_val _ (by omega)]; omega)
  have e1 : (((cfg2.win 15).blk t).view.emb (ix2 a k)) (1 : Fin 2) = k := Fin.ext (by
    show win2_15.index t (1 : Fin 2) * 3 + 1 * k.val = k.val
    rw [(idx_15 t).2]; omega)
  exact congrArg₂ (fun i k => Cert.Spec.layerC (Hf V c) (Cf V c) (Wca V c) (Wcb V c) (Wcc V c) (Bc V c) i k) e0.symm e1.symm

/-- An index of a result array is in a point's block iff each coordinate is in the block's range on its axis. -/
theorem mem_blkH (t : Fin cfg2.N) (i : (⟨2, ![768, 128]⟩ : Shape).Idx) :
    i ∈ ((cfg2.win 14).blk t).view.set ↔ ∀ ax : Fin 2, win2_14.index t ax * S128x128.size ax ≤ (i ax).val ∧ (i ax).val < win2_14.index t ax * S128x128.size ax + S128x128.size ax := by
  show i ∈ ((View.whole main_v67_0).slice (win2_14.rect t)).set ↔ _
  rw [View.set_slice_whole, Rect.mem_set_unit]
  exact Iff.rfl
theorem mem_blkC (t : Fin cfg2.N) (i : (⟨2, ![768, 3]⟩ : Shape).Idx) :
    i ∈ ((cfg2.win 15).blk t).view.set ↔ ∀ ax : Fin 2, win2_15.index t ax * S128x3.size ax ≤ (i ax).val ∧ (i ax).val < win2_15.index t ax * S128x3.size ax + S128x3.size ax := by
  show i ∈ ((View.whole main_v67_1).slice (win2_15.rect t)).set ↔ _
  rw [View.set_slice_whole, Rect.mem_set_unit]
  exact Iff.rfl

/-- Row r of a result array is written back at the last step of its row tile. -/
theorem coverH (i : (⟨2, ![768, 128]⟩ : Shape).Idx) :
    ∃ t : Fin cfg2.N, (cfg2.win 14).flush t = true ∧ i ∈ ((cfg2.win 14).blk t).view.set := by
  have hi0 : (i 0).val < 768 := (i 0).isLt
  have hi1 : (i 1).val < 128 := (i 1).isLt
  have hN : cfg2.N = 36 := N_2
  refine ⟨⟨6 * ((i 0).val / 128) + 5, by rw [hN]; omega⟩, (flush2_14 _).mpr (by show (6 * ((i 0).val / 128) + 5) % 6 = 5; omega), ?_⟩
  rw [mem_blkH]
  intro ax
  match ax with
  | ⟨0, _⟩ =>
    show win2_14.index _ (0 : Fin 2) * 128 ≤ (i 0).val ∧ (i 0).val < win2_14.index _ (0 : Fin 2) * 128 + 128
    rw [(idx_14 _).1]
    show (6 * ((i 0).val / 128) + 5) / 6 * 128 ≤ (i 0).val ∧ (i 0).val < (6 * ((i 0).val / 128) + 5) / 6 * 128 + 128
    omega
  | ⟨1, _⟩ =>
    show win2_14.index _ (1 : Fin 2) * 128 ≤ (i 1).val ∧ (i 1).val < win2_14.index _ (1 : Fin 2) * 128 + 128
    rw [(idx_14 _).2]; omega
theorem coverC (i : (⟨2, ![768, 3]⟩ : Shape).Idx) :
    ∃ t : Fin cfg2.N, (cfg2.win 15).flush t = true ∧ i ∈ ((cfg2.win 15).blk t).view.set := by
  have hi0 : (i 0).val < 768 := (i 0).isLt
  have hi1 : (i 1).val < 3 := (i 1).isLt
  have hN : cfg2.N = 36 := N_2
  refine ⟨⟨6 * ((i 0).val / 128) + 5, by rw [hN]; omega⟩, (flush2_15 _).mpr (by show (6 * ((i 0).val / 128) + 5) % 6 = 5; omega), ?_⟩
  rw [mem_blkC]
  intro ax
  match ax with
  | ⟨0, _⟩ =>
    show win2_15.index _ (0 : Fin 2) * 128 ≤ (i 0).val ∧ (i 0).val < win2_15.index _ (0 : Fin 2) * 128 + 128
    rw [(idx_15 _).1]
    show (6 * ((i 0).val / 128) + 5) / 6 * 128 ≤ (i 0).val ∧ (i 0).val < (6 * ((i 0).val / 128) + 5) / 6 * 128 + 128
    omega
  | ⟨1, _⟩ =>
    show win2_15.index _ (1 : Fin 2) * 3 ≤ (i 1).val ∧ (i 1).val < win2_15.index _ (1 : Fin 2) * 3 + 3
    rw [(idx_15 _).2]; omega

/-- The two result arrays after the region. -/
theorem final_h (c : Dev nD) : (dat V c).arrAt 14 cfg2.N = GH V c :=
  (dat V c).arrAt_eq_of_cover 14 (GH V c) (flushedH_eq V c) coverH
theorem final_c (c : Dev nD) : (dat V c).arrAt 15 cfg2.N = GC V c :=
  (dat V c).arrAt_eq_of_cover 15 (GC V c) (flushedC_eq V c) coverC

/-- THE VALUE of layer 3's region: its first result array holds the layer's new features, -/
theorem value_h (c : Dev nD) (i : Fin 768) (d : Fin 128) : (dat (F := Ideal) V c).arrAt 14 cfg2.N (ValueIdx.ix2 i d)
      = Cert.Spec.layerH (fun i k => V c main_v49_0 (ValueIdx.ix2 i k)) (fun i k => V c main_v49_1 (ValueIdx.ix2 i k)) (fun k d => V c main_v51 (ValueIdx.ix2 k d)) (fun k d => V c main_v53 (ValueIdx.ix2 k d)) (fun d => V c main_v55 (ValueIdx.ix2 0 d)) (fun d => V c main_v56 (ValueIdx.ix2 0 d)) (fun k d => V c main_v58 (ValueIdx.ix2 k d)) (fun d => V c main_v59 (ValueIdx.ix2 0 d)) i d :=
  congrFun (final_h V c) (ix2 i d)

/-- and its second the new coordinates. -/
theorem value_c (c : Dev nD) (i : Fin 768) (k : Fin 3) : (dat (F := Ideal) V c).arrAt 15 cfg2.N (ValueIdx.ix2 i k)
      = Cert.Spec.layerC (fun i k => V c main_v49_0 (ValueIdx.ix2 i k)) (fun i k => V c main_v49_1 (ValueIdx.ix2 i k)) (fun k => V c main_v61 (ValueIdx.ix2 k 0)) (fun k => V c main_v63 (ValueIdx.ix2 k 0)) (V c main_v65 (ValueIdx.ix2 0 0)) (V c main_v66 (ValueIdx.ix2 0 0)) i k :=
  congrFun (final_c V c) (ix2 i k)

end Cert.KernelIdeal.Gen.Layer2.Value

end
-- ==== Proof.GlueKernel.lean ====
/-
  The kernel program's host stretches read through the shared functions: the two gathers before the first layer, and the
  stretch after the last layer as `tail` of the last features and the argument arrays.
-/
import proofs.«110946_j38972533244288_1_alg».proof.Proof.GlueDefs
import proofs.«110946_j38972533244288_1_alg».proof.Proof.Gen.KernelIdeal.Regions
import Idealize.ShloMosaic.Lib.StableHlo.Run

noncomputable section

namespace Cert.Glue.Kernel

open Idealize.ShloMosaic Idealize.ShloMosaic.TcCoe Idealize.SL.Sem Idealize.ShloMosaic.StableHlo
open Cert.KernelIdeal Cert.KernelIdeal.Gen Cert.Glue

/-- A valuation of the kernel program's buffers at the ideal values. -/
abbrev KV : Type := Valuation τ sig (Elt Ideal)

/-! ## The gathers -/

theorem gatherH_eq (V0 : KV) :
    StableHlo.after (hostOps0 (F := Ideal)) V0 (Proc.devRef .tc main_v6)
      = gatherH (V0 (Proc.devRef .tc main_arg0)) (V0 (Proc.devRef .tc main_arg12)) := by
  after_results_simp
  rfl

theorem gatherC_eq (V0 : KV) :
    StableHlo.after (hostOps0 (F := Ideal)) V0 (Proc.devRef .tc main_v13)
      = gatherC (V0 (Proc.devRef .tc main_arg1)) (V0 (Proc.devRef .tc main_arg12)) := by
  after_results_simp
  rfl

/-! ## The stretch after the last layer, piece by piece -/

/-- What a stretch does not write it keeps. -/
theorem keep3 (V : KV) (r : Ref sig .tc) (h : r ∉ hostOps3_W) :
    StableHlo.after (hostOps3 (F := Ideal)) V (Proc.devRef .tc r) = V (Proc.devRef .tc r) := after_of_writes_sub hostOps3 V hostOps3_writes h
theorem keep3_1 (V : KV) (r : Ref sig .tc) (h : r ∉ hostOps3_1_W) :
    StableHlo.after (hostOps3_1 (F := Ideal)) V (Proc.devRef .tc r) = V (Proc.devRef .tc r) := after_of_writes_sub hostOps3_1 V hostOps3_1_writes h
theorem keep3_2 (V : KV) (r : Ref sig .tc) (h : r ∉ hostOps3_2_W) :
    StableHlo.after (hostOps3_2 (F := Ideal)) V (Proc.devRef .tc r) = V (Proc.devRef .tc r) := after_of_writes_sub hostOps3_2 V hostOps3_2_writes h
theorem keep3_3 (V : KV) (r : Ref sig .tc) (h : r ∉ hostOps3_3_W) :
    StableHlo.after (hostOps3_3 (F := Ideal)) V (Proc.devRef .tc r) = V (Proc.devRef .tc r) := after_of_writes_sub hostOps3_3 V hostOps3_3_writes h

/-- The pooled features, after the first two stretches. -/
theorem pooled_eq (V : KV) :
    StableHlo.after (hostOps3_1 (F := Ideal)) (StableHlo.after hostOps3 V) (Proc.devRef .tc main_v83)
      = pooled (V (Proc.devRef .tc main_v67_0)) (V (Proc.devRef .tc main_arg13)) := by
  after_results_simp
  rfl

theorem cat_eq (V : KV) :
    StableHlo.after (hostOps3_2 (F := Ideal)) V (Proc.devRef .tc main_v84) = catF (V (Proc.devRef .tc main_arg0)) (V (Proc.devRef .tc main_v83)) := by
  after_results_simp
  rfl

theorem mean_eq (V : KV) :
    StableHlo.after (hostOps3_2 (F := Ideal)) V (Proc.devRef .tc main_v87)
      = colMean (catF (V (Proc.devRef .tc main_arg0)) (V (Proc.devRef .tc main_v83))) := by
  after_results_simp
  rfl

theorem zero_eq (V : KV) :
    StableHlo.after (hostOps3_2 (F := Ideal)) V (Proc.devRef .tc main_c_10) = constantI S_ 32 0#32 := by
  after_results_simp

theorem var_eq (V : KV) :
    StableHlo.after (hostOps3_3 (F := Ideal)) V (Proc.devRef .tc main_v88)
      = colVarOf (V (Proc.devRef .tc main_v84)) (V (Proc.devRef .tc main_c_10)) := by
  after_results_simp
  rfl

theorem fin_eq (V : KV) :
    StableHlo.after (hostOps3_4 (F := Ideal)) V (Proc.devRef .tc main_v107)
      = finF (V (Proc.devRef .tc main_v84)) (V (Proc.devRef .tc main_v87)) (V (Proc.devRef .tc main_v88)) (V (Proc.devRef .tc main_arg8))
          (V (Proc.devRef .tc main_arg9)) (V (Proc.devRef .tc main_arg10)) (V (Proc.devRef .tc main_arg11)) := by
  after_results_simp
  rfl

/-- The kernel program's result is `tail` of the last layer's features and the argument arrays. -/
theorem tail_eq (V6 : KV) :
    StableHlo.after (hostOps3_4 (F := Ideal)) (StableHlo.after hostOps3_3 (StableHlo.after hostOps3_2
        (StableHlo.after hostOps3_1 (StableHlo.after hostOps3 V6)))) (Proc.devRef .tc main_v107)
      = tail (V6 (Proc.devRef .tc main_v67_0)) (V6 (Proc.devRef .tc main_arg0)) (V6 (Proc.devRef .tc main_arg13))
          (V6 (Proc.devRef .tc main_arg8)) (V6 (Proc.devRef .tc main_arg9)) (V6 (Proc.devRef .tc main_arg10))
          (V6 (Proc.devRef .tc main_arg11)) := by
  rw [fin_eq, var_eq,
    keep3_3 _ main_v84 (by decide), keep3_3 _ main_v87 (by decide), keep3_3 _ main_arg8 (by decide),
    keep3_3 _ main_arg9 (by decide), keep3_3 _ main_arg10 (by decide), keep3_3 _ main_arg11 (by decide),
    cat_eq, mean_eq, zero_eq,
    keep3_2 _ main_arg8 (by decide), keep3_2 _ main_arg9 (by decide), keep3_2 _ main_arg10 (by decide),
    keep3_2 _ main_arg11 (by decide),
    pooled_eq,
    keep3_1 _ main_arg0 (by decide), keep3_1 _ main_arg8 (by decide), keep3_1 _ main_arg9 (by decide),
    keep3_1 _ main_arg10 (by decide), keep3_1 _ main_arg11 (by decide),
    keep3 _ main_arg0 (by decide), keep3 _ main_arg8 (by decide), keep3 _ main_arg9 (by decide),
    keep3 _ main_arg10 (by decide), keep3 _ main_arg11 (by decide)]
  rfl

end Cert.Glue.Kernel

end
-- ==== Proof.GlueWeights.lean ====
/-
  The kernel program's weight slices read at an index: before each layer the program cuts that layer's ten weight arrays
  out of the stacked arguments (a unit-stride slice at the layer's leading index, and for the rank-three arguments a cast
  that drops the leading unit axis). Entry by entry, each is the stacked argument at the layer's index.
-/
import proofs.«110946_j38972533244288_1_alg».proof.Proof.Gen.KernelIdeal.Launch
import Idealize.ShloMosaic.Lib.StableHlo.Run
import Idealize.ShloMosaic.Lib.Pipeline.Value
import Idealize.ShloMosaic.Lib.ValueIdx

noncomputable section

namespace Cert.Glue.Weights

open Idealize.ShloMosaic Idealize.ShloMosaic.TcCoe Idealize.SL.Sem Idealize.ShloMosaic.StableHlo Idealize.ShloMosaic.ValueIdx
open Cert.KernelIdeal Cert.KernelIdeal.Gen

section Layout
variable {α : Type}

/-- A slice with unit leading extent of a rank-three array, cast to rank two, read at `(k, d)`: the array at the
    offsets moved by `k` and `d`. -/
theorem slice3_cast_apply {n0 n1 n2 m1 m2 : ℕ} (x : (⟨3, ![n0, n1, n2]⟩ : Shape).Idx → α) (o0 o1 o2 : ℕ)
    (hs : (⟨3, ![n0, n1, n2]⟩ : Shape).Slices ![o0, o1, o2] ⟨3, ![1, m1, m2]⟩)
    (hc : (⟨3, ![1, m1, m2]⟩ : Shape).ShapeCasts ⟨2, ![m1, m2]⟩)
    (k : Fin m1) (d : Fin m2) (i0 : Fin n0) (i1 : Fin n1) (i2 : Fin n2)
    (h0 : i0.val = o0) (h1 : i1.val = o1 + k.val) (h2 : i2.val = o2 + d.val) :
    shapeCast ⟨2, ![m1, m2]⟩ (extractStridedSlice ⟨3, ![1, m1, m2]⟩ ![o0, o1, o2] x hs) hc (ix2 k d) = x (ix3 i0 i1 i2) := by
  refine (shapeCast_apply _ hc (ix2 k d) (ix3 (0 : Fin 1) k d) ?_).trans ?_
  · rw [Shape.rowMajor_val_three, Shape.rowMajor_val_two]
    show ((0 : ℕ) * m1 + k.val) * m2 + d.val = k.val * m2 + d.val
    rw [Nat.zero_mul, Nat.zero_add]
  · refine extractStridedSlice_apply _ x hs _ _ fun a => ?_
    match a with
    | ⟨0, _⟩ => show i0.val = o0 + 0; rw [Nat.add_zero]; exact h0
    | ⟨1, _⟩ => exact h1
    | ⟨2, _⟩ => exact h2

/-- A slice with unit leading extent of a rank-two array read at `(0, d)`. -/
theorem slice2_apply {n0 n1 m1 : ℕ} (x : (⟨2, ![n0, n1]⟩ : Shape).Idx → α) (o0 o1 : ℕ)
    (hs : (⟨2, ![n0, n1]⟩ : Shape).Slices ![o0, o1] ⟨2, ![1, m1]⟩) (u : Fin 1) (d : Fin m1) (i0 : Fin n0) (i1 : Fin n1)
    (h0 : i0.val = o0) (h1 : i1.val = o1 + d.val) :
    extractStridedSlice ⟨2, ![1, m1]⟩ ![o0, o1] x hs (ix2 u d) = x (ix2 i0 i1) := by
  refine extractStridedSlice_apply _ x hs _ _ fun a => ?_
  match a with
  | ⟨0, _⟩ => show i0.val = o0 + u.val; have := u.isLt; omega
  | ⟨1, _⟩ => exact h1

end Layout

/-! ## The first layer's weights (from any contents `V` the first stretch is run from) -/

theorem w1a_L0_at (V : Valuation τ sig (Elt Ideal)) (k : Fin 128) (d : Fin 128) :
    (StableHlo.after (hostOps0 (F := Ideal)) V (Proc.devRef .tc main_v15) : FVec Ideal S128x128 .f32) (ix2 k d)
      = (V (Proc.devRef .tc main_arg2) : FVec Ideal S3x257x128 .f32) (ix3 (0 : Fin 3) (⟨k.val, Nat.lt_of_lt_of_le k.isLt (by decide)⟩ : Fin 257) d) := by
  have e : StableHlo.after (hostOps0 (F := Ideal)) V (Proc.devRef .tc main_v15)
      = shapeCast S128x128 (extractStridedSlice S1x128x128 ![0, 0, 0] (V (Proc.devRef .tc main_arg2)) slices_S3x257x128_S1x128x128_0_0_0) shapeCasts_S1x128x128_S128x128 := by
    after_results_simp
    rfl
  rw [e]
  exact slice3_cast_apply _ 0 0 0 _ _ _ _ _ _ _ (by simp) (by simp) (by simp)

theorem w1b_L0_at (V : Valuation τ sig (Elt Ideal)) (k : Fin 128) (d : Fin 128) :
    (StableHlo.after (hostOps0 (F := Ideal)) V (Proc.devRef .tc main_v17) : FVec Ideal S128x128 .f32) (ix2 k d)
      = (V (Proc.devRef .tc main_arg2) : FVec Ideal S3x257x128 .f32) (ix3 (0 : Fin 3) (⟨128 + k.val, by have := k.isLt; omega⟩ : Fin 257) d) := by
  have e : StableHlo.after (hostOps0 (F := Ideal)) V (Proc.devRef .tc main_v17)
      = shapeCast S128x128 (extractStridedSlice S1x128x128 ![0, 128, 0] (V (Proc.devRef .tc main_arg2)) slices_S3x257x128_S1x128x128_0_128_0) shapeCasts_S1x128x128_S128x128 := by
    after_results_simp
    rfl
  rw [e]
  exact slice3_cast_apply _ 0 128 0 _ _ _ _ _ _ _ (by simp) (by simp) (by simp)

theorem w1c_L0_at (V : Valuation τ sig (Elt Ideal)) (d : Fin 128) :
    (StableHlo.after (hostOps0 (F := Ideal)) V (Proc.devRef .tc main_v19) : FVec Ideal S1x128 .f32) (ix2 (0 : Fin 1) d)
      = (V (Proc.devRef .tc main_arg2) : FVec Ideal S3x257x128 .f32) (ix3 (0 : Fin 3) (⟨256, by decide⟩ : Fin 257) d) := by
  have e : StableHlo.after (hostOps0 (F := Ideal)) V (Proc.devRef .tc main_v19)
      = shapeCast S1x128 (extractStridedSlice S1x1x128 ![0, 256, 0] (V (Proc.devRef .tc main_arg2)) slices_S3x257x128_S1x1x128_0_256_0) shapeCasts_S1x1x128_S1x128 := by
    after_results_simp
    rfl
  rw [e]
  exact slice3_cast_apply _ 0 256 0 _ _ _ _ _ _ _ (by simp) (by simp) (by simp)

theorem b1_L0_at (V : Valuation τ sig (Elt Ideal)) (d : Fin 128) :
    (StableHlo.after (hostOps0 (F := Ideal)) V (Proc.devRef .tc main_v20) : FVec Ideal S1x128 .f32) (ix2 (0 : Fin 1) d)
      = (V (Proc.devRef .tc main_arg3) : FVec Ideal S3x128 .f32) (ix2 (0 : Fin 3) d) := by
  have e : StableHlo.after (hostOps0 (F := Ideal)) V (Proc.devRef .tc main_v20)
      = extractStridedSlice S1x128 ![0, 0] (V (Proc.devRef .tc main_arg3)) slices_S3x128_S1x128_0_0 := by
    after_results_simp
  rw [e]
  exact slice2_apply _ 0 0 _ _ _ _ _ (by simp) (by simp)

theorem w2_L0_at (V : Valuation τ sig (Elt Ideal)) (k : Fin 128) (d : Fin 128) :
    (StableHlo.after (hostOps0 (F := Ideal)) V (Proc.devRef .tc main_v22) : FVec Ideal S128x128 .f32) (ix2 k d)
      = (V (Proc.devRef .tc main_arg4) : FVec Ideal S3x128x128 .f32) (ix3 (0 : Fin 3) k d) := by
  have e : StableHlo.after (hostOps0 (F := Ideal)) V (Proc.devRef .tc main_v22)
      = shapeCast S128x128 (extractStridedSlice S1x128x128 ![0, 0, 0] (V (Proc.devRef .tc main_arg4)) slices_S3x128x128_S1x128x128_0_0_0) shapeCasts_S1x128x128_S128x128 := by
    after_results_simp
    rfl
  rw [e]
  exact slice3_cast_apply _ 0 0 0 _ _ _ _ _ _ _ (by simp) (by simp) (by simp)

theorem b2_L0_at (V : Valuation τ sig (Elt Ideal)) (d : Fin 128) :
    (StableHlo.after (hostOps0 (F := Ideal)) V (Proc.devRef .tc main_v23) : FVec Ideal S1x128 .f32) (ix2 (0 : Fin 1) d)
      = (V (Proc.devRef .tc main_arg5) : FVec Ideal S3x128 .f32) (ix2 (0 : Fin 3) d) := by
  have e : StableHlo.after (hostOps0 (F := Ideal)) V (Proc.devRef .tc main_v23)
      = extractStridedSlice S1x128 ![0, 0] (V (Proc.devRef .tc main_arg5)) slices_S3x128_S1x128_0_0 := by
    after_results_simp
  rw [e]
  exact slice2_apply _ 0 0 _ _ _ _ _ (by simp) (by simp)

theorem wca_L0_at (V : Valuation τ sig (Elt Ideal)) (k : Fin 128) :
    (StableHlo.after (hostOps0 (F := Ideal)) V (Proc.devRef .tc main_v25) : FVec Ideal S128x1 .f32) (ix2 k (0 : Fin 1))
      = (V (Proc.devRef .tc main_arg6) : FVec Ideal S3x257x1 .f32) (ix3 (0 : Fin 3) (⟨k.val, Nat.lt_of_lt_of_le k.isLt (by decide)⟩ : Fin 257) (0 : Fin 1)) := by
  have e : StableHlo.after (hostOps0 (F := Ideal)) V (Proc.devRef .tc main_v25)
      = shapeCast S128x1 (extractStridedSlice S1x128x1 ![0, 0, 0] (V (Proc.devRef .tc main_arg6)) slices_S3x257x1_S1x128x1_0_0_0) shapeCasts_S1x128x1_S128x1 := by
    after_results_simp
    rfl
  rw [e]
  exact slice3_cast_apply _ 0 0 0 _ _ _ _ _ _ _ (by simp) (by simp) (by simp)

theorem wcb_L0_at (V : Valuation τ sig (Elt Ideal)) (k : Fin 128) :
    (StableHlo.after (hostOps0 (F := Ideal)) V (Proc.devRef .tc main_v27) : FVec Ideal S128x1 .f32) (ix2 k (0 : Fin 1))
      = (V (Proc.devRef .tc main_arg6) : FVec Ideal S3x257x1 .f32) (ix3 (0 : Fin 3) (⟨128 + k.val, by have := k.isLt; omega⟩ : Fin 257) (0 : Fin 1)) := by
  have e : StableHlo.after (hostOps0 (F := Ideal)) V (Proc.devRef .tc main_v27)
      = shapeCast S128x1 (extractStridedSlice S1x128x1 ![0, 128, 0] (V (Proc.devRef .tc main_arg6)) slices_S3x257x1_S1x128x1_0_128_0) shapeCasts_S1x128x1_S128x1 := by
    after_results_simp
    rfl
  rw [e]
  exact slice3_cast_apply _ 0 128 0 _ _ _ _ _ _ _ (by simp) (by simp) (by simp)

theorem wcc_L0_at (V : Valuation τ sig (Elt Ideal))  :
    (StableHlo.after (hostOps0 (F := Ideal)) V (Proc.devRef .tc main_v29) : FVec Ideal S1x1 .f32) (ix2 (0 : Fin 1) (0 : Fin 1))
      = (V (Proc.devRef .tc main_arg6) : FVec Ideal S3x257x1 .f32) (ix3 (0 : Fin 3) (⟨256, by decide⟩ : Fin 257) (0 : Fin 1)) := by
  have e : StableHlo.after (hostOps0 (F := Ideal)) V (Proc.devRef .tc main_v29)
      = shapeCast S1x1 (extractStridedSlice S1x1x1 ![0, 256, 0] (V (Proc.devRef .tc main_arg6)) slices_S3x257x1_S1x1x1_0_256_0) shapeCasts_S1x1x1_S1x1 := by
    after_results_simp
    rfl
  rw [e]
  exact slice3_cast_apply _ 0 256 0 _ _ _ _ _ _ _ (by simp) (by simp) (by simp)

theorem bc_L0_at (V : Valuation τ sig (Elt Ideal))  :
    (StableHlo.after (hostOps0 (F := Ideal)) V (Proc.devRef .tc main_v30) : FVec Ideal S1x1 .f32) (ix2 (0 : Fin 1) (0 : Fin 1))
      = (V (Proc.devRef .tc main_arg7) : FVec Ideal S3x1 .f32) (ix2 (0 : Fin 3) (0 : Fin 1)) := by
  have e : StableHlo.after (hostOps0 (F := Ideal)) V (Proc.devRef .tc main_v30)
      = extractStridedSlice S1x1 ![0, 0] (V (Proc.devRef .tc main_arg7)) slices_S3x1_S1x1_0_0 := by
    after_results_simp
  rw [e]
  exact slice2_apply _ 0 0 _ _ _ _ _ (by simp) (by simp)

/-! ## The second layer's -/

theorem w1a_L1_at (V : Valuation τ sig (Elt Ideal)) (k : Fin 128) (d : Fin 128) :
    (StableHlo.after (hostOps1 (F := Ideal)) V (Proc.devRef .tc main_v33) : FVec Ideal S128x128 .f32) (ix2 k d)
      = (V (Proc.devRef .tc main_arg2) : FVec Ideal S3x257x128 .f32) (ix3 (1 : Fin 3) (⟨k.val, Nat.lt_of_lt_of_le k.isLt (by decide)⟩ : Fin 257) d) := by
  have e : StableHlo.after (hostOps1 (F := Ideal)) V (Proc.devRef .tc main_v33)
      = shapeCast S128x128 (extractStridedSlice S1x128x128 ![1, 0, 0] (V (Proc.devRef .tc main_arg2)) slices_S3x257x128_S1x128x128_1_0_0) shapeCasts_S1x128x128_S128x128 := by
    after_results_simp
    rfl
  rw [e]
  exact slice3_cast_apply _ 1 0 0 _ _ _ _ _ _ _ (by simp) (by simp) (by simp)

theorem w1b_L1_at (V : Valuation τ sig (Elt Ideal)) (k : Fin 128) (d : Fin 128) :
    (StableHlo.after (hostOps1 (F := Ideal)) V (Proc.devRef .tc main_v35) : FVec Ideal S128x128 .f32) (ix2 k d)
      = (V (Proc.devRef .tc main_arg2) : FVec Ideal S3x257x128 .f32) (ix3 (1 : Fin 3) (⟨128 + k.val, by have := k.isLt; omega⟩ : Fin 257) d) := by
  have e : StableHlo.after (hostOps1 (F := Ideal)) V (Proc.devRef .tc main_v35)
      = shapeCast S128x128 (extractStridedSlice S1x128x128 ![1, 128, 0] (V (Proc.devRef .tc main_arg2)) slices_S3x257x128_S1x128x128_1_128_0) shapeCasts_S1x128x128_S128x128 := by
    after_results_simp
    rfl
  rw [e]
  exact slice3_cast_apply _ 1 128 0 _ _ _ _ _ _ _ (by simp) (by simp) (by simp)

theorem w1c_L1_at (V : Valuation τ sig (Elt Ideal)) (d : Fin 128) :
    (StableHlo.after (hostOps1 (F := Ideal)) V (Proc.devRef .tc main_v37) : FVec Ideal S1x128 .f32) (ix2 (0 : Fin 1) d)
      = (V (Proc.devRef .tc main_arg2) : FVec Ideal S3x257x128 .f32) (ix3 (1 : Fin 3) (⟨256, by decide⟩ : Fin 257) d) := by
  have e : StableHlo.after (hostOps1 (F := Ideal)) V (Proc.devRef .tc main_v37)
      = shapeCast S1x128 (extractStridedSlice S1x1x128 ![1, 256, 0] (V (Proc.devRef .tc main_arg2)) slices_S3x257x128_S1x1x128_1_256_0) shapeCasts_S1x1x128_S1x128 := by
    after_results_simp
    rfl
  rw [e]
  exact slice3_cast_apply _ 1 256 0 _ _ _ _ _ _ _ (by simp) (by simp) (by simp)

theorem b1_L1_at (V : Valuation τ sig (Elt Ideal)) (d : Fin 128) :
    (StableHlo.after (hostOps1 (F := Ideal)) V (Proc.devRef .tc main_v38) : FVec Ideal S1x128 .f32) (ix2 (0 : Fin 1) d)
      = (V (Proc.devRef .tc main_arg3) : FVec Ideal S3x128 .f32) (ix2 (1 : Fin 3) d) := by
  have e : StableHlo.after (hostOps1 (F := Ideal)) V (Proc.devRef .tc main_v38)
      = extractStridedSlice S1x128 ![1, 0] (V (Proc.devRef .tc main_arg3)) slices_S3x128_S1x128_1_0 := by
    after_results_simp
  rw [e]
  exact slice2_apply _ 1 0 _ _ _ _ _ (by simp) (by simp)

theorem w2_L1_at (V : Valuation τ sig (Elt Ideal)) (k : Fin 128) (d : Fin 128) :
    (StableHlo.after (hostOps1 (F := Ideal)) V (Proc.devRef .tc main_v40) : FVec Ideal S128x128 .f32) (ix2 k d)
      = (V (Proc.devRef .tc main_arg4) : FVec Ideal S3x128x128 .f32) (ix3 (1 : Fin 3) k d) := by
  have e : StableHlo.after (hostOps1 (F := Ideal)) V (Proc.devRef .tc main_v40)
      = shapeCast S128x128 (extractStridedSlice S1x128x128 ![1, 0, 0] (V (Proc.devRef .tc main_arg4)) slices_S3x128x128_S1x128x128_1_0_0) shapeCasts_S1x128x128_S128x128 := by
    after_results_simp
    rfl
  rw [e]
  exact slice3_cast_apply _ 1 0 0 _ _ _ _ _ _ _ (by simp) (by simp) (by simp)

theorem b2_L1_at (V : Valuation τ sig (Elt Ideal)) (d : Fin 128) :
    (StableHlo.after (hostOps1 (F := Ideal)) V (Proc.devRef .tc main_v41) : FVec Ideal S1x128 .f32) (ix2 (0 : Fin 1) d)
      = (V (Proc.devRef .tc main_arg5) : FVec Ideal S3x128 .f32) (ix2 (1 : Fin 3) d) := by
  have e : StableHlo.after (hostOps1 (F := Ideal)) V (Proc.devRef .tc main_v41)
      = extractStridedSlice S1x128 ![1, 0] (V (Proc.devRef .tc main_arg5)) slices_S3x128_S1x128_1_0 := by
    after_results_simp
  rw [e]
  exact slice2_apply _ 1 0 _ _ _ _ _ (by simp) (by simp)

theorem wca_L1_at (V : Valuation τ sig (Elt Ideal)) (k : Fin 128) :
    (StableHlo.after (hostOps1 (F := Ideal)) V (Proc.devRef .tc main_v43) : FVec Ideal S128x1 .f32) (ix2 k (0 : Fin 1))
      = (V (Proc.devRef .tc main_arg6) : FVec Ideal S3x257x1 .f32) (ix3 (1 : Fin 3) (⟨k.val, Nat.lt_of_lt_of_le k.isLt (by decide)⟩ : Fin 257) (0 : Fin 1)) := by
  have e : StableHlo.after (hostOps1 (F := Ideal)) V (Proc.devRef .tc main_v43)
      = shapeCast S128x1 (extractStridedSlice S1x128x1 ![1, 0, 0] (V (Proc.devRef .tc main_arg6)) slices_S3x257x1_S1x128x1_1_0_0) shapeCasts_S1x128x1_S128x1 := by
    after_results_simp
    rfl
  rw [e]
  exact slice3_cast_apply _ 1 0 0 _ _ _ _ _ _ _ (by simp) (by simp) (by simp)

theorem wcb_L1_at (V : Valuation τ sig (Elt Ideal)) (k : Fin 128) :
    (StableHlo.after (hostOps1 (F := Ideal)) V (Proc.devRef .tc main_v45) : FVec Ideal S128x1 .f32) (ix2 k (0 : Fin 1))
      = (V (Proc.devRef .tc main_arg6) : FVec Ideal S3x257x1 .f32) (ix3 (1 : Fin 3) (⟨128 + k.val, by have := k.isLt; omega⟩ : Fin 257) (0 : Fin 1)) := by
  have e : StableHlo.after (hostOps1 (F := Ideal)) V (Proc.devRef .tc main_v45)
      = shapeCast S128x1 (extractStridedSlice S1x128x1 ![1, 128, 0] (V (Proc.devRef .tc main_arg6)) slices_S3x257x1_S1x128x1_1_128_0) shapeCasts_S1x128x1_S128x1 := by
    after_results_simp
    rfl
  rw [e]
  exact slice3_cast_apply _ 1 128 0 _ _ _ _ _ _ _ (by simp) (by simp) (by simp)

theorem wcc_L1_at (V : Valuation τ sig (Elt Ideal))  :
    (StableHlo.after (hostOps1 (F := Ideal)) V (Proc.devRef .tc main_v47) : FVec Ideal S1x1 .f32) (ix2 (0 : Fin 1) (0 : Fin 1))
      = (V (Proc.devRef .tc main_arg6) : FVec Ideal S3x257x1 .f32) (ix3 (1 : Fin 3) (⟨256, by decide⟩ : Fin 257) (0 : Fin 1)) := by
  have e : StableHlo.after (hostOps1 (F := Ideal)) V (Proc.devRef .tc main_v47)
      = shapeCast S1x1 (extractStridedSlice S1x1x1 ![1, 256, 0] (V (Proc.devRef .tc main_arg6)) slices_S3x257x1_S1x1x1_1_256_0) shapeCasts_S1x1x1_S1x1 := by
    after_results_simp
    rfl
  rw [e]
  exact slice3_cast_apply _ 1 256 0 _ _ _ _ _ _ _ (by simp) (by simp) (by simp)

theorem bc_L1_at (V : Valuation τ sig (Elt Ideal))  :
    (StableHlo.after (hostOps1 (F := Ideal)) V (Proc.devRef .tc main_v48) : FVec Ideal S1x1 .f32) (ix2 (0 : Fin 1) (0 : Fin 1))
      = (V (Proc.devRef .tc main_arg7) : FVec Ideal S3x1 .f32) (ix2 (1 : Fin 3) (0 : Fin 1)) := by
  have e : StableHlo.after (hostOps1 (F := Ideal)) V (Proc.devRef .tc main_v48)
      = extractStridedSlice S1x1 ![1, 0] (V (Proc.devRef .tc main_arg7)) slices_S3x1_S1x1_1_0 := by
    after_results_simp
  rw [e]
  exact slice2_apply _ 1 0 _ _ _ _ _ (by simp) (by simp)

/-! ## The third layer's -/

theorem w1a_L2_at (V : Valuation τ sig (Elt Ideal)) (k : Fin 128) (d : Fin 128) :
    (StableHlo.after (hostOps2 (F := Ideal)) V (Proc.devRef .tc main_v51) : FVec Ideal S128x128 .f32) (ix2 k d)
      = (V (Proc.devRef .tc main_arg2) : FVec Ideal S3x257x128 .f32) (ix3 (2 : Fin 3) (⟨k.val, Nat.lt_of_lt_of_le k.isLt (by decide)⟩ : Fin 257) d) := by
  have e : StableHlo.after (hostOps2 (F := Ideal)) V (Proc.devRef .tc main_v51)
      = shapeCast S128x128 (extractStridedSlice S1x128x128 ![2, 0, 0] (V (Proc.devRef .tc main_arg2)) slices_S3x257x128_S1x128x128_2_0_0) shapeCasts_S1x128x128_S128x128 := by
    after_results_simp
    rfl
  rw [e]
  exact slice3_cast_apply _ 2 0 0 _ _ _ _ _ _ _ (by simp) (by simp) (by simp)

theorem w1b_L2_at (V : Valuation τ sig (Elt Ideal)) (k : Fin 128) (d : Fin 128) :
    (StableHlo.after (hostOps2 (F := Ideal)) V (Proc.devRef .tc main_v53) : FVec Ideal S128x128 .f32) (ix2 k d)
      = (V (Proc.devRef .tc main_arg2) : FVec Ideal S3x257x128 .f32) (ix3 (2 : Fin 3) (⟨128 + k.val, by have := k.isLt; omega⟩ : Fin 257) d) := by
  have e : StableHlo.after (hostOps2 (F := Ideal)) V (Proc.devRef .tc main_v53)
      = shapeCast S128x128 (extractStridedSlice S1x128x128 ![2, 128, 0] (V (Proc.devRef .tc main_arg2)) slices_S3x257x128_S1x128x128_2_128_0) shapeCasts_S1x128x128_S128x128 := by
    after_results_simp
    rfl
  rw [e]
  exact slice3_cast_apply _ 2 128 0 _ _ _ _ _ _ _ (by simp) (by simp) (by simp)

theorem w1c_L2_at (V : Valuation τ sig (Elt Ideal)) (d : Fin 128) :
    (StableHlo.after (hostOps2 (F := Ideal)) V (Proc.devRef .tc main_v55) : FVec Ideal S1x128 .f32) (ix2 (0 : Fin 1) d)
      = (V (Proc.devRef .tc main_arg2) : FVec Ideal S3x257x128 .f32) (ix3 (2 : Fin 3) (⟨256, by decide⟩ : Fin 257) d) := by
  have e : StableHlo.after (hostOps2 (F := Ideal)) V (Proc.devRef .tc main_v55)
      = shapeCast S1x128 (extractStridedSlice S1x1x128 ![2, 256, 0] (V (Proc.devRef .tc main_arg2)) slices_S3x257x128_S1x1x128_2_256_0) shapeCasts_S1x1x128_S1x128 := by
    after_results_simp
    rfl
  rw [e]
  exact slice3_cast_apply _ 2 256 0 _ _ _ _ _ _ _ (by simp) (by simp) (by simp)

theorem b1_L2_at (V : Valuation τ sig (Elt Ideal)) (d : Fin 128) :
    (StableHlo.after (hostOps2 (F := Ideal)) V (Proc.devRef .tc main_v56) : FVec Ideal S1x128 .f32) (ix2 (0 : Fin 1) d)
      = (V (Proc.devRef .tc main_arg3) : FVec Ideal S3x128 .f32) (ix2 (2 : Fin 3) d) := by
  have e : StableHlo.after (hostOps2 (F := Ideal)) V (Proc.devRef .tc main_v56)
      = extractStridedSlice S1x128 ![2, 0] (V (Proc.devRef .tc main_arg3)) slices_S3x128_S1x128_2_0 := by
    after_results_simp
  rw [e]
  exact slice2_apply _ 2 0 _ _ _ _ _ (by simp) (by simp)

theorem w2_L2_at (V : Valuation τ sig (Elt Ideal)) (k : Fin 128) (d : Fin 128) :
    (StableHlo.after (hostOps2 (F := Ideal)) V (Proc.devRef .tc main_v58) : FVec Ideal S128x128 .f32) (ix2 k d)
      = (V (Proc.devRef .tc main_arg4) : FVec Ideal S3x128x128 .f32) (ix3 (2 : Fin 3) k d) := by
  have e : StableHlo.after (hostOps2 (F := Ideal)) V (Proc.devRef .tc main_v58)
      = shapeCast S128x128 (extractStridedSlice S1x128x128 ![2, 0, 0] (V (Proc.devRef .tc main_arg4)) slices_S3x128x128_S1x128x128_2_0_0) shapeCasts_S1x128x128_S128x128 := by
    after_results_simp
    rfl
  rw [e]
  exact slice3_cast_apply _ 2 0 0 _ _ _ _ _ _ _ (by simp) (by simp) (by simp)

theorem b2_L2_at (V : Valuation τ sig (Elt Ideal)) (d : Fin 128) :
    (StableHlo.after (hostOps2 (F := Ideal)) V (Proc.devRef .tc main_v59) : FVec Ideal S1x128 .f32) (ix2 (0 : Fin 1) d)
      = (V (Proc.devRef .tc main_arg5) : FVec Ideal S3x128 .f32) (ix2 (2 : Fin 3) d) := by
  have e : StableHlo.after (hostOps2 (F := Ideal)) V (Proc.devRef .tc main_v59)
      = extractStridedSlice S1x128 ![2, 0] (V (Proc.devRef .tc main_arg5)) slices_S3x128_S1x128_2_0 := by
    after_results_simp
  rw [e]
  exact slice2_apply _ 2 0 _ _ _ _ _ (by simp) (by simp)

theorem wca_L2_at (V : Valuation τ sig (Elt Ideal)) (k : Fin 128) :
    (StableHlo.after (hostOps2 (F := Ideal)) V (Proc.devRef .tc main_v61) : FVec Ideal S128x1 .f32) (ix2 k (0 : Fin 1))
      = (V (Proc.devRef .tc main_arg6) : FVec Ideal S3x257x1 .f32) (ix3 (2 : Fin 3) (⟨k.val, Nat.lt_of_lt_of_le k.isLt (by decide)⟩ : Fin 257) (0 : Fin 1)) := by
  have e : StableHlo.after (hostOps2 (F := Ideal)) V (Proc.devRef .tc main_v61)
      = shapeCast S128x1 (extractStridedSlice S1x128x1 ![2, 0, 0] (V (Proc.devRef .tc main_arg6)) slices_S3x257x1_S1x128x1_2_0_0) shapeCasts_S1x128x1_S128x1 := by
    after_results_simp
    rfl
  rw [e]
  exact slice3_cast_apply _ 2 0 0 _ _ _ _ _ _ _ (by simp) (by simp) (by simp)

theorem wcb_L2_at (V : Valuation τ sig (Elt Ideal)) (k : Fin 128) :
    (StableHlo.after (hostOps2 (F := Ideal)) V (Proc.devRef .tc main_v63) : FVec Ideal S128x1 .f32) (ix2 k (0 : Fin 1))
      = (V (Proc.devRef .tc main_arg6) : FVec Ideal S3x257x1 .f32) (ix3 (2 : Fin 3) (⟨128 + k.val, by have := k.isLt; omega⟩ : Fin 257) (0 : Fin 1)) := by
  have e : StableHlo.after (hostOps2 (F := Ideal)) V (Proc.devRef .tc main_v63)
      = shapeCast S128x1 (extractStridedSlice S1x128x1 ![2, 128, 0] (V (Proc.devRef .tc main_arg6)) slices_S3x257x1_S1x128x1_2_128_0) shapeCasts_S1x128x1_S128x1 := by
    after_results_simp
    rfl
  rw [e]
  exact slice3_cast_apply _ 2 128 0 _ _ _ _ _ _ _ (by simp) (by simp) (by simp)

theorem wcc_L2_at (V : Valuation τ sig (Elt Ideal))  :
    (StableHlo.after (hostOps2 (F := Ideal)) V (Proc.devRef .tc main_v65) : FVec Ideal S1x1 .f32) (ix2 (0 : Fin 1) (0 : Fin 1))
      = (V (Proc.devRef .tc main_arg6) : FVec Ideal S3x257x1 .f32) (ix3 (2 : Fin 3) (⟨256, by decide⟩ : Fin 257) (0 : Fin 1)) := by
  have e : StableHlo.after (hostOps2 (F := Ideal)) V (Proc.devRef .tc main_v65)
      = shapeCast S1x1 (extractStridedSlice S1x1x1 ![2, 256, 0] (V (Proc.devRef .tc main_arg6)) slices_S3x257x1_S1x1x1_2_256_0) shapeCasts_S1x1x1_S1x1 := by
    after_results_simp
    rfl
  rw [e]
  exact slice3_cast_apply _ 2 256 0 _ _ _ _ _ _ _ (by simp) (by simp) (by simp)

theorem bc_L2_at (V : Valuation τ sig (Elt Ideal))  :
    (StableHlo.after (hostOps2 (F := Ideal)) V (Proc.devRef .tc main_v66) : FVec Ideal S1x1 .f32) (ix2 (0 : Fin 1) (0 : Fin 1))
      = (V (Proc.devRef .tc main_arg7) : FVec Ideal S3x1 .f32) (ix2 (2 : Fin 3) (0 : Fin 1)) := by
  have e : StableHlo.after (hostOps2 (F := Ideal)) V (Proc.devRef .tc main_v66)
      = extractStridedSlice S1x1 ![2, 0] (V (Proc.devRef .tc main_arg7)) slices_S3x1_S1x1_2_0 := by
    after_results_simp
  rw [e]
  exact slice2_apply _ 2 0 _ _ _ _ _ (by simp) (by simp)

end Cert.Glue.Weights

end
-- ==== Proof.IdealNet.lean ====
/-
  The idealized kernel program's result as the network function of its fourteen argument arrays: the first host stretch
  gathers the node rows and cuts out the first layer's weights; each layer's region leaves the layer's function of the
  arrays it was entered with; the host stretch before the next layer keeps those two arrays and cuts out the next weights
  from arguments nothing writes; the last stretch is the shared tail of the last features and the arguments.
-/
import proofs.«110946_j38972533244288_1_alg».proof.Proof.IdealRun
import proofs.«110946_j38972533244288_1_alg».proof.Proof.IdealLayer0Value
import proofs.«110946_j38972533244288_1_alg».proof.Proof.IdealLayer1Value
import proofs.«110946_j38972533244288_1_alg».proof.Proof.IdealLayer2Value
import proofs.«110946_j38972533244288_1_alg».proof.Proof.GlueKernel
import proofs.«110946_j38972533244288_1_alg».proof.Proof.GlueWeights
import proofs.«110946_j38972533244288_1_alg».proof.Proof.Net

set_option maxRecDepth 16384

noncomputable section

namespace Cert.KernelIdeal.Gen.Whole

open Idealize.ShloMosaic Idealize.ShloMosaic.TcCoe Idealize.ShloMosaic.ValueIdx
open Idealize.SL Idealize.SL.Sem
open Cert.KernelIdeal Cert.KernelIdeal.Gen

/-! ## The layer's function respects equality of its arguments -/

theorem layerH_congr {h h' : Fin 768 → Fin 128 → EReal} {cc cc' : Fin 768 → Fin 3 → EReal}
    {w1a w1a' w1b w1b' : Fin 128 → Fin 128 → EReal} {w1c w1c' b1 b1' : Fin 128 → EReal}
    {w2 w2' : Fin 128 → Fin 128 → EReal} {b2 b2' : Fin 128 → EReal}
    (eh : h = h') (ec : cc = cc') (e1 : w1a = w1a') (e2 : w1b = w1b') (e3 : w1c = w1c') (e4 : b1 = b1') (e5 : w2 = w2') (e6 : b2 = b2') :
    Cert.Spec.layerH h cc w1a w1b w1c b1 w2 b2 = Cert.Spec.layerH h' cc' w1a' w1b' w1c' b1' w2' b2' := by
  subst eh ec e1 e2 e3 e4 e5 e6; rfl

theorem layerC_congr {h h' : Fin 768 → Fin 128 → EReal} {cc cc' : Fin 768 → Fin 3 → EReal}
    {wca wca' wcb wcb' : Fin 128 → EReal} {wcc wcc' bc bc' : EReal}
    (eh : h = h') (ec : cc = cc') (e1 : wca = wca') (e2 : wcb = wcb') (e3 : wcc = wcc') (e4 : bc = bc') :
    Cert.Spec.layerC h cc wca wcb wcc bc = Cert.Spec.layerC h' cc' wca' wcb' wcc' bc' := by
  subst eh ec e1 e2 e3 e4; rfl

variable (m : (ℓ : Loc nD τ sig) → Buf (Elt Ideal) ℓ) (c : Dev nD)

/-! ## The argument arrays, and that nothing writes them -/

abbrev A0 : FVec Ideal S2048x128 .f32 := m ((c.tc : Thread nD τ).loc main_arg0)
abbrev A1 : FVec Ideal S2048x3 .f32 := m ((c.tc : Thread nD τ).loc main_arg1)
abbrev A2 : FVec Ideal S3x257x128 .f32 := m ((c.tc : Thread nD τ).loc main_arg2)
abbrev A3 : FVec Ideal S3x128 .f32 := m ((c.tc : Thread nD τ).loc main_arg3)
abbrev A4 : FVec Ideal S3x128x128 .f32 := m ((c.tc : Thread nD τ).loc main_arg4)
abbrev A5 : FVec Ideal S3x128 .f32 := m ((c.tc : Thread nD τ).loc main_arg5)
abbrev A6 : FVec Ideal S3x257x1 .f32 := m ((c.tc : Thread nD τ).loc main_arg6)
abbrev A7 : FVec Ideal S3x1 .f32 := m ((c.tc : Thread nD τ).loc main_arg7)
abbrev A8 : FVec Ideal S256 .f32 := m ((c.tc : Thread nD τ).loc main_arg8)
abbrev A9 : FVec Ideal S256 .f32 := m ((c.tc : Thread nD τ).loc main_arg9)
abbrev A10 : FVec Ideal S256x128 .f32 := m ((c.tc : Thread nD τ).loc main_arg10)
abbrev A11 : FVec Ideal S128 .f32 := m ((c.tc : Thread nD τ).loc main_arg11)
abbrev A12 : IVec S768 32 := m ((c.tc : Thread nD τ).loc main_arg12)
abbrev A13 : IVec S768 32 := m ((c.tc : Thread nD τ).loc main_arg13)

theorem U2_arg (r : Ref sig .tc) (h0 : r ∉ hostOps0_W) (h1 : r ∉ ([main_v31_0, main_v31_1] : List (Ref sig .tc))) : U2 m c r = V0 m c r :=
  (U2_of m c r h1).trans (V1_of m c r h0)
theorem U4_arg (r : Ref sig .tc) (h0 : r ∉ hostOps0_W) (h1 : r ∉ ([main_v31_0, main_v31_1] : List (Ref sig .tc))) (h2 : r ∉ hostOps1_W)
    (h3 : r ∉ ([main_v49_0, main_v49_1] : List (Ref sig .tc))) : U4 m c r = V0 m c r :=
  (U4_of m c r h3).trans ((StableHlo.after_of_writes_sub hostOps1 (U2 m c) hostOps1_writes h2).trans (U2_arg m c r h0 h1))
theorem U6_arg (r : Ref sig .tc) (h0 : r ∉ hostOps0_W) (h1 : r ∉ ([main_v31_0, main_v31_1] : List (Ref sig .tc))) (h2 : r ∉ hostOps1_W)
    (h3 : r ∉ ([main_v49_0, main_v49_1] : List (Ref sig .tc))) (h4 : r ∉ hostOps2_W) (h5 : r ∉ ([main_v67_0, main_v67_1] : List (Ref sig .tc))) :
    U6 m c r = V0 m c r :=
  (U6_of m c r h5).trans ((StableHlo.after_of_writes_sub hostOps2 (U4 m c) hostOps2_writes h4).trans (U4_arg m c r h0 h1 h2 h3))

/-! ## The three layers, bottom up -/

/-- After layer 1's region its first output array holds the network's features after 1 layer. -/
theorem H1_at (i : Fin 768) (d : Fin 128) : (U2 m c main_v31_0 : FVec Ideal S768x128 .f32) (ix2 i d) = (Cert.Net.H1 (A0 m c) (A1 m c) (A2 m c) (A3 m c) (A4 m c) (A5 m c) (A12 m c)) i d := by
  have e_h : (fun i k => atTc (U1 m) c main_v6 (ValueIdx.ix2 i k)) = (Cert.Net.H0 (A0 m c) (A12 m c)) := funext fun i => funext fun k => congrFun (Cert.Glue.Kernel.gatherH_eq (V0 m c)) (ix2 i k)
  have e_c : (fun i k => atTc (U1 m) c main_v13 (ValueIdx.ix2 i k)) = (Cert.Net.C0 (A1 m c) (A12 m c)) := funext fun i => funext fun k => congrFun (Cert.Glue.Kernel.gatherC_eq (V0 m c)) (ix2 i k)
  have e_w1a : (fun k d => atTc (U1 m) c main_v15 (ValueIdx.ix2 k d)) = Cert.Net.w1a (A2 m c) (0 : Fin 3) := funext fun k => funext fun d => Cert.Glue.Weights.w1a_L0_at (V0 m c) k d
  have e_w1b : (fun k d => atTc (U1 m) c main_v17 (ValueIdx.ix2 k d)) = Cert.Net.w1b (A2 m c) (0 : Fin 3) := funext fun k => funext fun d => Cert.Glue.Weights.w1b_L0_at (V0 m c) k d
  have e_w1c : (fun d => atTc (U1 m) c main_v19 (ValueIdx.ix2 0 d)) = Cert.Net.w1c (A2 m c) (0 : Fin 3) := funext fun d => Cert.Glue.Weights.w1c_L0_at (V0 m c) d
  have e_b1 : (fun d => atTc (U1 m) c main_v20 (ValueIdx.ix2 0 d)) = Cert.Net.b1 (A3 m c) (0 : Fin 3) := funext fun d => Cert.Glue.Weights.b1_L0_at (V0 m c) d
  have e_w2 : (fun k d => atTc (U1 m) c main_v22 (ValueIdx.ix2 k d)) = Cert.Net.w2 (A4 m c) (0 : Fin 3) := funext fun k => funext fun d => Cert.Glue.Weights.w2_L0_at (V0 m c) k d
  have e_b2 : (fun d => atTc (U1 m) c main_v23 (ValueIdx.ix2 0 d)) = Cert.Net.b2 (A5 m c) (0 : Fin 3) := funext fun d => Cert.Glue.Weights.b2_L0_at (V0 m c) d
  refine (congrFun (U2_h m c) (ix2 i d)).trans ?_
  refine (Layer0.Value.value_h (atTc (U1 m)) c i d).trans ?_
  unfold Cert.Net.H1 Cert.Net.stepH
  exact congrFun (congrFun (layerH_congr e_h e_c e_w1a e_w1b e_w1c e_b1 e_w2 e_b2) i) d

/-- and its second the coordinates. -/
theorem C1_at (i : Fin 768) (k : Fin 3) : (U2 m c main_v31_1 : FVec Ideal S768x3 .f32) (ix2 i k) = (Cert.Net.C1 (A0 m c) (A1 m c) (A6 m c) (A7 m c) (A12 m c)) i k := by
  have e_h : (fun i k => atTc (U1 m) c main_v6 (ValueIdx.ix2 i k)) = (Cert.Net.H0 (A0 m c) (A12 m c)) := funext fun i => funext fun k => congrFun (Cert.Glue.Kernel.gatherH_eq (V0 m c)) (ix2 i k)
  have e_c : (fun i k => atTc (U1 m) c main_v13 (ValueIdx.ix2 i k)) = (Cert.Net.C0 (A1 m c) (A12 m c)) := funext fun i => funext fun k => congrFun (Cert.Glue.Kernel.gatherC_eq (V0 m c)) (ix2 i k)
  have e_wca : (fun k => atTc (U1 m) c main_v25 (ValueIdx.ix2 k 0)) = Cert.Net.wca (A6 m c) (0 : Fin 3) := funext fun k => Cert.Glue.Weights.wca_L0_at (V0 m c) k
  have e_wcb : (fun k => atTc (U1 m) c main_v27 (ValueIdx.ix2 k 0)) = Cert.Net.wcb (A6 m c) (0 : Fin 3) := funext fun k => Cert.Glue.Weights.wcb_L0_at (V0 m c) k
  have e_wcc : atTc (U1 m) c main_v29 (ValueIdx.ix2 0 0) = Cert.Net.wcc (A6 m c) (0 : Fin 3) := Cert.Glue.Weights.wcc_L0_at (V0 m c)
  have e_bc : atTc (U1 m) c main_v30 (ValueIdx.ix2 0 0) = Cert.Net.bc (A7 m c) (0 : Fin 3) := Cert.Glue.Weights.bc_L0_at (V0 m c)
  refine (congrFun (U2_c m c) (ix2 i k)).trans ?_
  refine (Layer0.Value.value_c (atTc (U1 m)) c i k).trans ?_
  unfold Cert.Net.C1 Cert.Net.stepC
  exact congrFun (congrFun (layerC_congr e_h e_c e_wca e_wcb e_wcc e_bc) i) k

/-- After layer 2's region its first output array holds the network's features after 2 layers. -/
theorem H2_at (i : Fin 768) (d : Fin 128) : (U4 m c main_v49_0 : FVec Ideal S768x128 .f32) (ix2 i d) = (Cert.Net.H2 (A0 m c) (A1 m c) (A2 m c) (A3 m c) (A4 m c) (A5 m c) (A6 m c) (A7 m c) (A12 m c)) i d := by
  have e_h : (fun i k => atTc (U3 m) c main_v31_0 (ValueIdx.ix2 i k)) = (Cert.Net.H1 (A0 m c) (A1 m c) (A2 m c) (A3 m c) (A4 m c) (A5 m c) (A12 m c)) := funext fun i => funext fun k =>
    (congrFun (StableHlo.after_of_writes_sub hostOps1 (U2 m c) hostOps1_writes (by decide : main_v31_0 ∉ hostOps1_W)) (ix2 i k)).trans (H1_at m c i k)
  have e_c : (fun i k => atTc (U3 m) c main_v31_1 (ValueIdx.ix2 i k)) = (Cert.Net.C1 (A0 m c) (A1 m c) (A6 m c) (A7 m c) (A12 m c)) := funext fun i => funext fun k =>
    (congrFun (StableHlo.after_of_writes_sub hostOps1 (U2 m c) hostOps1_writes (by decide : main_v31_1 ∉ hostOps1_W)) (ix2 i k)).trans (C1_at m c i k)
  have e_w1a : (fun k d => atTc (U3 m) c main_v33 (ValueIdx.ix2 k d)) = Cert.Net.w1a (A2 m c) (1 : Fin 3) := funext fun k => funext fun d => (Cert.Glue.Weights.w1a_L1_at (U2 m c) k d).trans (congrFun (U2_arg m c main_arg2 (by decide) (by decide)) _)
  have e_w1b : (fun k d => atTc (U3 m) c main_v35 (ValueIdx.ix2 k d)) = Cert.Net.w1b (A2 m c) (1 : Fin 3) := funext fun k => funext fun d => (Cert.Glue.Weights.w1b_L1_at (U2 m c) k d).trans (congrFun (U2_arg m c main_arg2 (by decide) (by decide)) _)
  have e_w1c : (fun d => atTc (U3 m) c main_v37 (ValueIdx.ix2 0 d)) = Cert.Net.w1c (A2 m c) (1 : Fin 3) := funext fun d => (Cert.Glue.Weights.w1c_L1_at (U2 m c) d).trans (congrFun (U2_arg m c main_arg2 (by decide) (by decide)) _)
  have e_b1 : (fun d => atTc (U3 m) c main_v38 (ValueIdx.ix2 0 d)) = Cert.Net.b1 (A3 m c) (1 : Fin 3) := funext fun d => (Cert.Glue.Weights.b1_L1_at (U2 m c) d).trans (congrFun (U2_arg m c main_arg3 (by decide) (by decide)) _)
  have e_w2 : (fun k d => atTc (U3 m) c main_v40 (ValueIdx.ix2 k d)) = Cert.Net.w2 (A4 m c) (1 : Fin 3) := funext fun k => funext fun d => (Cert.Glue.Weights.w2_L1_at (U2 m c) k d).trans (congrFun (U2_arg m c main_arg4 (by decide) (by decide)) _)
  have e_b2 : (fun d => atTc (U3 m) c main_v41 (ValueIdx.ix2 0 d)) = Cert.Net.b2 (A5 m c) (1 : Fin 3) := funext fun d => (Cert.Glue.Weights.b2_L1_at (U2 m c) d).trans (congrFun (U2_arg m c main_arg5 (by decide) (by decide)) _)
  refine (congrFun (U4_h m c) (ix2 i d)).trans ?_
  refine (Layer1.Value.value_h (atTc (U3 m)) c i d).trans ?_
  unfold Cert.Net.H2 Cert.Net.stepH
  exact congrFun (congrFun (layerH_congr e_h e_c e_w1a e_w1b e_w1c e_b1 e_w2 e_b2) i) d

/-- and its second the coordinates. -/
theorem C2_at (i : Fin 768) (k : Fin 3) : (U4 m c main_v49_1 : FVec Ideal S768x3 .f32) (ix2 i k) = (Cert.Net.C2 (A0 m c) (A1 m c) (A2 m c) (A3 m c) (A4 m c) (A5 m c) (A6 m c) (A7 m c) (A12 m c)) i k := by
  have e_h : (fun i k => atTc (U3 m) c main_v31_0 (ValueIdx.ix2 i k)) = (Cert.Net.H1 (A0 m c) (A1 m c) (A2 m c) (A3 m c) (A4 m c) (A5 m c) (A12 m c)) := funext fun i => funext fun k =>
    (congrFun (StableHlo.after_of_writes_sub hostOps1 (U2 m c) hostOps1_writes (by decide : main_v31_0 ∉ hostOps1_W)) (ix2 i k)).trans (H1_at m c i k)
  have e_c : (fun i k => atTc (U3 m) c main_v31_1 (ValueIdx.ix2 i k)) = (Cert.Net.C1 (A0 m c) (A1 m c) (A6 m c) (A7 m c) (A12 m c)) := funext fun i => funext fun k =>
    (congrFun (StableHlo.after_of_writes_sub hostOps1 (U2 m c) hostOps1_writes (by decide : main_v31_1 ∉ hostOps1_W)) (ix2 i k)).trans (C1_at m c i k)
  have e_wca : (fun k => atTc (U3 m) c main_v43 (ValueIdx.ix2 k 0)) = Cert.Net.wca (A6 m c) (1 : Fin 3) := funext fun k => (Cert.Glue.Weights.wca_L1_at (U2 m c) k).trans (congrFun (U2_arg m c main_arg6 (by decide) (by decide)) _)
  have e_wcb : (fun k => atTc (U3 m) c main_v45 (ValueIdx.ix2 k 0)) = Cert.Net.wcb (A6 m c) (1 : Fin 3) := funext fun k => (Cert.Glue.Weights.wcb_L1_at (U2 m c) k).trans (congrFun (U2_arg m c main_arg6 (by decide) (by decide)) _)
  have e_wcc : atTc (U3 m) c main_v47 (ValueIdx.ix2 0 0) = Cert.Net.wcc (A6 m c) (1 : Fin 3) := (Cert.Glue.Weights.wcc_L1_at (U2 m c)).trans (congrFun (U2_arg m c main_arg6 (by decide) (by decide)) _)
  have e_bc : atTc (U3 m) c main_v48 (ValueIdx.ix2 0 0) = Cert.Net.bc (A7 m c) (1 : Fin 3) := (Cert.Glue.Weights.bc_L1_at (U2 m c)).trans (congrFun (U2_arg m c main_arg7 (by decide) (by decide)) _)
  refine (congrFun (U4_c m c) (ix2 i k)).trans ?_
  refine (Layer1.Value.value_c (atTc (U3 m)) c i k).trans ?_
  unfold Cert.Net.C2 Cert.Net.stepC
  exact congrFun (congrFun (layerC_congr e_h e_c e_wca e_wcb e_wcc e_bc) i) k

/-- After layer 3's region its first output array holds the network's features after 3 layers. -/
theorem H3_at (i : Fin 768) (d : Fin 128) : (U6 m c main_v67_0 : FVec Ideal S768x128 .f32) (ix2 i d) = (Cert.Net.H3 (A0 m c) (A1 m c) (A2 m c) (A3 m c) (A4 m c) (A5 m c) (A6 m c) (A7 m c) (A12 m c)) i d := by
  have e_h : (fun i k => atTc (U5 m) c main_v49_0 (ValueIdx.ix2 i k)) = (Cert.Net.H2 (A0 m c) (A1 m c) (A2 m c) (A3 m c) (A4 m c) (A5 m c) (A6 m c) (A7 m c) (A12 m c)) := funext fun i => funext fun k =>
    (congrFun (StableHlo.after_of_writes_sub hostOps2 (U4 m c) hostOps2_writes (by decide : main_v49_0 ∉ hostOps2_W)) (ix2 i k)).trans (H2_at m c i k)
  have e_c : (fun i k => atTc (U5 m) c main_v49_1 (ValueIdx.ix2 i k)) = (Cert.Net.C2 (A0 m c) (A1 m c) (A2 m c) (A3 m c) (A4 m c) (A5 m c) (A6 m c) (A7 m c) (A12 m c)) := funext fun i => funext fun k =>
    (congrFun (StableHlo.after_of_writes_sub hostOps2 (U4 m c) hostOps2_writes (by decide : main_v49_1 ∉ hostOps2_W)) (ix2 i k)).trans (C2_at m c i k)
  have e_w1a : (fun k d => atTc (U5 m) c main_v51 (ValueIdx.ix2 k d)) = Cert.Net.w1a (A2 m c) (2 : Fin 3) := funext fun k => funext fun d => (Cert.Glue.Weights.w1a_L2_at (U4 m c) k d).trans (congrFun (U4_arg m c main_arg2 (by decide) (by decide) (by decide) (by decide)) _)
  have e_w1b : (fun k d => atTc (U5 m) c main_v53 (ValueIdx.ix2 k d)) = Cert.Net.w1b (A2 m c) (2 : Fin 3) := funext fun k => funext fun d => (Cert.Glue.Weights.w1b_L2_at (U4 m c) k d).trans (congrFun (U4_arg m c main_arg2 (by decide) (by decide) (by decide) (by decide)) _)
  have e_w1c : (fun d => atTc (U5 m) c main_v55 (ValueIdx.ix2 0 d)) = Cert.Net.w1c (A2 m c) (2 : Fin 3) := funext fun d => (Cert.Glue.Weights.w1c_L2_at (U4 m c) d).trans (congrFun (U4_arg m c main_arg2 (by decide) (by decide) (by decide) (by decide)) _)
  have e_b1 : (fun d => atTc (U5 m) c main_v56 (ValueIdx.ix2 0 d)) = Cert.Net.b1 (A3 m c) (2 : Fin 3) := funext fun d => (Cert.Glue.Weights.b1_L2_at (U4 m c) d).trans (congrFun (U4_arg m c main_arg3 (by decide) (by decide) (by decide) (by decide)) _)
  have e_w2 : (fun k d => atTc (U5 m) c main_v58 (ValueIdx.ix2 k d)) = Cert.Net.w2 (A4 m c) (2 : Fin 3) := funext fun k => funext fun d => (Cert.Glue.Weights.w2_L2_at (U4 m c) k d).trans (congrFun (U4_arg m c main_arg4 (by decide) (by decide) (by decide) (by decide)) _)
  have e_b2 : (fun d => atTc (U5 m) c main_v59 (ValueIdx.ix2 0 d)) = Cert.Net.b2 (A5 m c) (2 : Fin 3) := funext fun d => (Cert.Glue.Weights.b2_L2_at (U4 m c) d).trans (congrFun (U4_arg m c main_arg5 (by decide) (by decide) (by decide) (by decide)) _)
  refine (congrFun (U6_h m c) (ix2 i d)).trans ?_
  refine (Layer2.Value.value_h (atTc (U5 m)) c i d).trans ?_
  unfold Cert.Net.H3 Cert.Net.stepH
  exact congrFun (congrFun (layerH_congr e_h e_c e_w1a e_w1b e_w1c e_b1 e_w2 e_b2) i) d

/-! ## The result -/

/-- THE KERNEL PROGRAM'S RESULT is the network function of its arguments. -/
theorem kernel_value : (result (F := Ideal) m c main_v107 : FVec Ideal S2048x128 .f32)
    = Cert.Net.out (A0 m c) (A1 m c) (A2 m c) (A3 m c) (A4 m c) (A5 m c) (A6 m c) (A7 m c) (A8 m c) (A9 m c) (A10 m c) (A11 m c) (A12 m c) (A13 m c) := by
  have e3 : (U6 m c main_v67_0 : FVec Ideal S768x128 .f32) = Cert.Net.h3 (A0 m c) (A1 m c) (A2 m c) (A3 m c) (A4 m c) (A5 m c) (A6 m c) (A7 m c) (A12 m c) := funext fun j => by
    obtain ⟨i, d, rfl⟩ : ∃ (i : Fin 768) (d : Fin 128), j = ix2 i d := ⟨j 0, j 1, eq_ix2 j⟩
    exact H3_at m c i d
  refine (Cert.Glue.Kernel.tail_eq (U6 m c)).trans ?_
  unfold Cert.Net.out
  rw [e3, U6_arg m c main_arg0 (by decide) (by decide) (by decide) (by decide) (by decide) (by decide),
    U6_arg m c main_arg13 (by decide) (by decide) (by decide) (by decide) (by decide) (by decide),
    U6_arg m c main_arg8 (by decide) (by decide) (by decide) (by decide) (by decide) (by decide),
    U6_arg m c main_arg9 (by decide) (by decide) (by decide) (by decide) (by decide) (by decide),
    U6_arg m c main_arg10 (by decide) (by decide) (by decide) (by decide) (by decide) (by decide),
    U6_arg m c main_arg11 (by decide) (by decide) (by decide) (by decide) (by decide) (by decide)]

end Cert.KernelIdeal.Gen.Whole

end
-- ==== Proof.LibSingleAssignment.lean ====
/-
  SINGLE ASSIGNMENT: reading a straight line of operations back one operation at a time.

  A straight line in which the k-th operation writes exactly the k-th buffer of a list `W` of references, each buffer
  written once and no operation reading a buffer that a later one writes, leaves every buffer at its own operation's
  function of the FINAL contents of that operation's operands: the operands are not written again, so what they hold at
  the end is what the operation read; the result is not written again, so what it holds at the end is what the
  operation wrote. The statements below say this for a line `l` followed by any further line `t`, for the operation at
  position `n` of `l`: the side conditions are memberships in literal lists of references. Program-free.
-/
import Idealize.ShloMosaic.Lib.StableHlo.Run
import Idealize.ShloMosaic.Lib.Pipeline.Frame

namespace Cert.Lib.SingleAssignment

open Idealize.ShloMosaic Idealize.ShloMosaic.StableHlo

variable {τ : Topo} {sig : RefSig} {Val : EltTy → Type}

/-- The k-th operation of `l` writes exactly the k-th reference of `W`. -/
abbrev Writes (l : List (HloOp τ sig Val)) (W : List (Ref sig .tc)) : Prop :=
  List.Forall₂ (fun op r => op.writes = {Proc.devRef (τ := τ) .tc r}) l W

/-- Two such lines in a row. -/
theorem Writes.append {l₁ l₂ : List (HloOp τ sig Val)} {W₁ W₂ : List (Ref sig .tc)} (h₁ : Writes l₁ W₁) (h₂ : Writes l₂ W₂) :
    Writes (l₁ ++ l₂) (W₁ ++ W₂) := by
  induction h₁ with
  | nil => exact h₂
  | cons h _ ih => exact List.Forall₂.cons h ih

/-- The rest of such a line from position `n` on. -/
theorem Writes.drop {l : List (HloOp τ sig Val)} {W : List (Ref sig .tc)} (h : Writes l W) (n : Nat) :
    Writes (l.drop n) (W.drop n) := by
  induction h generalizing n with
  | nil => simp only [List.drop_nil]; exact List.Forall₂.nil
  | cons hop hrest ih =>
    cases n with
    | zero => exact List.Forall₂.cons hop hrest
    | succ n => simpa only [List.drop_succ_cons] using ih n

/-- A buffer not among those a line writes keeps its contents through it. -/
theorem after_of_not_mem {l : List (HloOp τ sig Val)} {W : List (Ref sig .tc)} (h : Writes l W) {r : Ref sig .tc} (hr : r ∉ W)
    (U : Valuation τ sig Val) : after l U (Proc.devRef .tc r) = U (Proc.devRef .tc r) := by
  induction h generalizing U with
  | nil => rfl
  | cons hop _ ih =>
    rw [after_cons, ih (fun hm => hr (List.mem_cons_of_mem _ hm))]
    refine HloOp.result_of_not_mem _ _ ?_
    rw [hop, Finset.mem_singleton]
    exact devRef_ne_of_ne fun e => hr (List.mem_cons.mpr (Or.inl e))

/-- A line is its first `n` operations and then the rest. -/
theorem after_take_drop (l : List (HloOp τ sig Val)) (n : Nat) (U : Valuation τ sig Val) :
    after l U = after (l.drop n) (after (l.take n) U) := by
  conv_lhs => rw [← List.take_append_drop n l]
  exact after_append _ _ _

/-- The rest of a line from the operation at position `n`: that operation, then what follows it. -/
theorem drop_eq_cons {l : List (HloOp τ sig Val)} {n : Nat} {op : HloOp τ sig Val} (hop : l[n]? = some op) :
    l.drop n = op :: l.drop (n + 1) := by
  obtain ⟨hn, rfl⟩ := List.getElem?_eq_some_iff.mp hop
  exact List.drop_eq_getElem_cons hn

section Read

variable {l t : List (HloOp τ sig Val)} {Wl Wt : List (Ref sig .tc)}

/-- A buffer written neither from position `n` of `l` on nor by `t` holds at the end what it held before position `n`. -/
theorem final_of_before (hl : Writes l Wl) (ht : Writes t Wt) (n : Nat) {a : Ref sig .tc} (ha : a ∉ Wl.drop n ++ Wt)
    (U : Valuation τ sig Val) :
    after t (after l U) (Proc.devRef .tc a) = after (l.take n) U (Proc.devRef .tc a) := by
  rw [after_of_not_mem ht (fun h => ha (List.mem_append_right _ h)), after_take_drop l n U,
    after_of_not_mem (hl.drop n) (fun h => ha (List.mem_append_left _ h))]

/-- The buffer the operation at position `n` of `l` writes, not written again after it, holds at the end that
    operation's result on the contents before it. -/
theorem final_of_at (hl : Writes l Wl) (ht : Writes t Wt) (n : Nat) {op : HloOp τ sig Val} (hop : l[n]? = some op)
    {y : Ref sig .tc} (hy : y ∉ Wl.drop (n + 1) ++ Wt) (U : Valuation τ sig Val) :
    after t (after l U) (Proc.devRef .tc y) = op.result (after (l.take n) U) (Proc.devRef .tc y) := by
  rw [after_of_not_mem ht (fun h => hy (List.mem_append_right _ h)), after_take_drop l n U, drop_eq_cons hop, after_cons,
    after_of_not_mem (hl.drop (n + 1)) (fun h => hy (List.mem_append_left _ h))]

/-- A constant's buffer holds the constant. -/
theorem read_nullary (hl : Writes l Wl) (ht : Writes t Wt) (n : Nat) {y : Ref sig .tc} {v : y.ty.Contents Val} {hy}
    (hop : l[n]? = some (nullary (τ := τ) y v hy)) (ny : y ∉ Wl.drop (n + 1) ++ Wt) (U : Valuation τ sig Val) :
    after t (after l U) (Proc.devRef .tc y) = v := by
  rw [final_of_at hl ht n hop ny, nullary_result]

/-- A one-operand operation's buffer holds its function of the operand's final contents. -/
theorem read_unary (hl : Writes l Wl) (ht : Writes t Wt) (n : Nat) {x y : Ref sig .tc} {f : x.ty.Contents Val → y.ty.Contents Val}
    {hx hy} (hop : l[n]? = some (unary (τ := τ) x y f hx hy)) (nx : x ∉ Wl.drop n ++ Wt) (ny : y ∉ Wl.drop (n + 1) ++ Wt)
    (U : Valuation τ sig Val) :
    after t (after l U) (Proc.devRef .tc y) = f (after t (after l U) (Proc.devRef .tc x)) := by
  rw [final_of_at hl ht n hop ny, unary_result, final_of_before hl ht n nx]

/-- A two-operand operation's buffer holds its function of the operands' final contents. -/
theorem read_binary (hl : Writes l Wl) (ht : Writes t Wt) (n : Nat) {a b y : Ref sig .tc}
    {f : a.ty.Contents Val → b.ty.Contents Val → y.ty.Contents Val} {ha hb hy}
    (hop : l[n]? = some (binary (τ := τ) a b y f ha hb hy)) (na : a ∉ Wl.drop n ++ Wt) (nb : b ∉ Wl.drop n ++ Wt)
    (ny : y ∉ Wl.drop (n + 1) ++ Wt) (U : Valuation τ sig Val) :
    after t (after l U) (Proc.devRef .tc y)
      = f (after t (after l U) (Proc.devRef .tc a)) (after t (after l U) (Proc.devRef .tc b)) := by
  rw [final_of_at hl ht n hop ny, binary_result, final_of_before hl ht n na, final_of_before hl ht n nb]

/-- A three-operand operation's buffer holds its function of the operands' final contents. -/
theorem read_ternary (hl : Writes l Wl) (ht : Writes t Wt) (n : Nat) {c a b y : Ref sig .tc}
    {f : c.ty.Contents Val → a.ty.Contents Val → b.ty.Contents Val → y.ty.Contents Val} {hc ha hb hy}
    (hop : l[n]? = some (ternary (τ := τ) c a b y f hc ha hb hy)) (nc : c ∉ Wl.drop n ++ Wt) (na : a ∉ Wl.drop n ++ Wt)
    (nb : b ∉ Wl.drop n ++ Wt) (ny : y ∉ Wl.drop (n + 1) ++ Wt) (U : Valuation τ sig Val) :
    after t (after l U) (Proc.devRef .tc y)
      = f (after t (after l U) (Proc.devRef .tc c)) (after t (after l U) (Proc.devRef .tc a))
          (after t (after l U) (Proc.devRef .tc b)) := by
  rw [final_of_at hl ht n hop ny, ternary_result, final_of_before hl ht n nc, final_of_before hl ht n na,
    final_of_before hl ht n nb]

/-- A reshape's buffer holds the operand's final contents at the new shape. -/
theorem read_reshape (hl : Writes l Wl) (ht : Writes t Wt) (n : Nat) {x y : Ref sig .tc} {he hn hx hy}
    (hop : l[n]? = some (reshape (τ := τ) (Val := Val) x y he hn hx hy)) (nx : x ∉ Wl.drop n ++ Wt)
    (ny : y ∉ Wl.drop (n + 1) ++ Wt) (U : Valuation τ sig Val) :
    after t (after l U) (Proc.devRef .tc y)
      = fun i => he ▸ shapeCast y.ty.shape (after t (after l U) (Proc.devRef .tc x)) hn i := by
  rw [final_of_at hl ht n hop ny, reshape_result, final_of_before hl ht n nx]

end Read

end Cert.Lib.SingleAssignment
-- ==== Proof.LibReadFinal.lean ====
/-
  Reading a single-assignment line of host operations at its end, with nothing after it: the buffer the operation at
  position `n` wrote holds that operation's function of what its operands hold at the end.  These are the forms of the
  single-assignment reading lemmas for a line followed by nothing, stated directly over `after l U` so that a line
  named by a definition is matched by name and never unfolded.
-/
import proofs.«110946_j38972533244288_1_alg».proof.Proof.LibSingleAssignment

namespace Cert.Lib.ReadFinal

open Idealize.ShloMosaic Idealize.ShloMosaic.StableHlo Cert.Lib.SingleAssignment

variable {τ : Topo} {sig : RefSig} {Val : EltTy → Type}
variable {l : List (HloOp τ sig Val)} {Wl : List (Ref sig .tc)}

private theorem nm {a : Ref sig .tc} {L : List (Ref sig .tc)} (h : a ∉ L) : a ∉ L ++ ([] : List (Ref sig .tc)) := by
  rw [List.append_nil]; exact h

theorem nullary (hl : Writes l Wl) (n : Nat) {y : Ref sig .tc} {v : y.ty.Contents Val} {hy}
    (hop : l[n]? = some (StableHlo.nullary (τ := τ) y v hy)) (ny : y ∉ Wl.drop (n + 1)) (U : Valuation τ sig Val) :
    after l U (Proc.devRef .tc y) = v :=
  read_nullary (t := []) hl List.Forall₂.nil n hop (nm ny) U

theorem unary (hl : Writes l Wl) (n : Nat) {x y : Ref sig .tc} {f : x.ty.Contents Val → y.ty.Contents Val} {hx hy}
    (hop : l[n]? = some (StableHlo.unary (τ := τ) x y f hx hy)) (nx : x ∉ Wl.drop n) (ny : y ∉ Wl.drop (n + 1))
    (U : Valuation τ sig Val) :
    after l U (Proc.devRef .tc y) = f (after l U (Proc.devRef .tc x)) :=
  read_unary (t := []) hl List.Forall₂.nil n hop (nm nx) (nm ny) U

theorem binary (hl : Writes l Wl) (n : Nat) {a b y : Ref sig .tc}
    {f : a.ty.Contents Val → b.ty.Contents Val → y.ty.Contents Val} {ha hb hy}
    (hop : l[n]? = some (StableHlo.binary (τ := τ) a b y f ha hb hy)) (na : a ∉ Wl.drop n) (nb : b ∉ Wl.drop n)
    (ny : y ∉ Wl.drop (n + 1)) (U : Valuation τ sig Val) :
    after l U (Proc.devRef .tc y) = f (after l U (Proc.devRef .tc a)) (after l U (Proc.devRef .tc b)) :=
  read_binary (t := []) hl List.Forall₂.nil n hop (nm na) (nm nb) (nm ny) U

theorem ternary (hl : Writes l Wl) (n : Nat) {c a b y : Ref sig .tc}
    {f : c.ty.Contents Val → a.ty.Contents Val → b.ty.Contents Val → y.ty.Contents Val} {hc ha hb hy}
    (hop : l[n]? = some (StableHlo.ternary (τ := τ) c a b y f hc ha hb hy)) (nc : c ∉ Wl.drop n) (na : a ∉ Wl.drop n)
    (nb : b ∉ Wl.drop n) (ny : y ∉ Wl.drop (n + 1)) (U : Valuation τ sig Val) :
    after l U (Proc.devRef .tc y)
      = f (after l U (Proc.devRef .tc c)) (after l U (Proc.devRef .tc a)) (after l U (Proc.devRef .tc b)) :=
  read_ternary (t := []) hl List.Forall₂.nil n hop (nm nc) (nm na) (nm nb) (nm ny) U

theorem reshape (hl : Writes l Wl) (n : Nat) {x y : Ref sig .tc} {he hn hx hy}
    (hop : l[n]? = some (StableHlo.reshape (τ := τ) (Val := Val) x y he hn hx hy)) (nx : x ∉ Wl.drop n)
    (ny : y ∉ Wl.drop (n + 1)) (U : Valuation τ sig Val) :
    after l U (Proc.devRef .tc y) = fun i => he ▸ shapeCast y.ty.shape (after l U (Proc.devRef .tc x)) hn i :=
  read_reshape (t := []) hl List.Forall₂.nil n hop (nm nx) (nm ny) U

end Cert.Lib.ReadFinal
-- ==== Proof.RefRead.lean ====
/- Single assignment in the reference's line of operations: the k-th operation of each window writes exactly the k-th
   buffer of that window's list and nothing else, so the same holds of the whole line against the lists laid end to end.
   With it, each buffer's final contents are its own operation's function of its operands' final contents. -/
import proofs.«110946_j38972533244288_1_alg».proof.Proof.RefRun
import proofs.«110946_j38972533244288_1_alg».proof.Proof.LibReadFinal

set_option Elab.async false

noncomputable section

namespace Cert.ReferenceIdeal.RefRead

open Cert.ReferenceIdeal Cert.ReferenceIdeal.Gen Cert.ReferenceIdeal.RefRun Idealize.ShloMosaic Idealize.ShloMosaic.TcCoe Idealize.SL.Sem Idealize.ShloMosaic.StableHlo Cert.Lib.SingleAssignment

variable {F : FTy → Type} [FloatOps F]

set_option maxRecDepth 8192 in
theorem writes0 : Writes (ops0 : List (HloOp τ sig (Elt F))) W0 :=
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.nil

set_option maxRecDepth 8192 in
theorem writes1 : Writes (ops1 : List (HloOp τ sig (Elt F))) W1 :=
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.nil

set_option maxRecDepth 8192 in
theorem writes2 : Writes (ops2 : List (HloOp τ sig (Elt F))) W2 :=
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.nil

set_option maxRecDepth 8192 in
theorem writes3 : Writes (ops3 : List (HloOp τ sig (Elt F))) W3 :=
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.nil

set_option maxRecDepth 8192 in
theorem writes4 : Writes (ops4 : List (HloOp τ sig (Elt F))) W4 :=
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.nil

set_option maxRecDepth 8192 in
theorem writes5 : Writes (ops5 : List (HloOp τ sig (Elt F))) W5 :=
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.cons rfl <|
  List.Forall₂.nil

/-- Every buffer the line writes, in the order written. -/
abbrev Wall : List (Ref sig .tc) := W0 ++ (W1 ++ (W2 ++ (W3 ++ (W4 ++ W5))))

theorem writes : Writes (ops : List (HloOp τ sig (Elt F))) Wall :=
  writes0.append (writes1.append (writes2.append (writes3.append (writes4.append writes5))))

end Cert.ReferenceIdeal.RefRead

end
-- ==== Proof.LibDotAt.lean ====
/-
  The host's matrix product at the ideal values, read at one entry: for an m×k matrix times a k×n matrix (the left
  operand contracted along its columns, the right along its rows, no batch axis) the entry at row `a`, column `b` is
  the sum over the contracted coordinate `c` of `A (a, c) * B (c, b)`.
-/
import Idealize.ShloMosaic.Lib.ValueIdx
import Idealize.ShloMosaic.PureOps.Ideal.Laws

noncomputable section

open scoped BigOperators

namespace Cert.Lib

open Idealize.ShloMosaic Idealize.ShloMosaic.ValueIdx

/-- The host's product of an m×k by a k×n matrix, read at entry (a, b). -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.Lib

end
-- ==== Proof.RefLayers.lean ====
/- The reference's three message-passing layers, read at an index against one specification, at the ideal values.
   Every buffer of the line is written once, so its final contents are its own operation's function of its operands'
   final contents; each stage of a layer — the coordinate differences, their squared length, the guarded distance, the two
   pre-activations, the outlined `silu`, the sums over the sending nodes and their means, the second linear map — is read
   at an index from those equations, and the stages compose to the specification's new features and new coordinates.
   The three layers are the same text over three consecutive stretches of 110 operations, with slab 0, 1, 2 of the weights. -/
import proofs.«110946_j38972533244288_1_alg».proof.Proof.RefRun
import proofs.«110946_j38972533244288_1_alg».proof.Proof.LibReadFinal
import proofs.«110946_j38972533244288_1_alg».proof.Proof.RefRead
import proofs.«110946_j38972533244288_1_alg».proof.Proof.LibDotAt
import proofs.«110946_j38972533244288_1_alg».proof.Proof.LayerSpec
import Idealize.ShloMosaic.Lib.ValueLayout
import Idealize.ShloMosaic.Lib.IdealHost
set_option Elab.async false

noncomputable section

namespace Cert.ReferenceIdeal.RefLayers

open Cert.ReferenceIdeal Cert.ReferenceIdeal.Gen Cert.ReferenceIdeal.RefRun Idealize.ShloMosaic Idealize.ShloMosaic.TcCoe Idealize.SL.Sem Idealize.ShloMosaic.StableHlo Cert.Lib.SingleAssignment Cert.ReferenceIdeal.RefRead Idealize.ShloMosaic.ValueIdx

open scoped BigOperators
attribute [local irreducible] StableHlo.after

/-- The word `0x44400000` is the real 768. -/
theorem ofBits_768 : Ideal.ofBits .f32 0x44400000#32 = ((768 : ℝ) : EReal) := by
  simp [Ideal.ofBits, Ideal.ieee, -EReal.coe_mul]; norm_num

section Reads
variable {F : FTy → Type} [FloatOps F]
theorem rd_main_v14 (V : Valuation τ sig (Elt F)) : after ops V (Proc.devRef .tc main_v14) = (broadcastInDim S768x1x3 ![0, 2] bcast_S768x3_S768x1x3_0_2 : (⟨S768x3, .f32⟩ : BufTy).Contents (Elt F) → (⟨S768x1x3, .f32⟩ : BufTy).Contents (Elt F)) (after ops V (Proc.devRef .tc main_v13)) :=
  Cert.Lib.ReadFinal.unary writes 18 rfl (by decide) (by decide) V
theorem rd_main_v15 (V : Valuation τ sig (Elt F)) : after ops V (Proc.devRef .tc main_v15) = (broadcastInDim S1x768x3 ![1, 2] bcast_S768x3_S1x768x3_1_2 : (⟨S768x3, .f32⟩ : BufTy).Contents (Elt F) → (⟨S1x768x3, .f32⟩ : BufTy).Contents (Elt F)) (after ops V (Proc.devRef .tc main_v13)) :=
  Cert.Lib.ReadFinal.unary writes 19 rfl (by decide) (by decide) V
theorem rd_main_v16 (V : Valuation τ sig (Elt F)) : after ops V (Proc.devRef .tc main_v16) = (broadcastInDim S768x768x3 ![0, 1, 2] bcast_S768x1x3_S768x768x3_0_1_2 : (⟨S768x1x3, .f32⟩ : BufTy).Contents (Elt F) → (⟨S768x768x3, .f32⟩ : BufTy).Contents (Elt F)) (after ops V (Proc.devRef .tc main_v14)) :=
  Cert.Lib.ReadFinal.unary writes 20 rfl (by decide) (by decide) V
theorem rd_main_v17 (V : Valuation τ sig (Elt F)) : after ops V (Proc.devRef .tc main_v17) = (broadcastInDim S768x768x3 ![0, 1, 2] bcast_S1x768x3_S768x768x3_0_1_2 : (⟨S1x768x3, .f32⟩ : BufTy).Contents (Elt F) → (⟨S768x768x3, .f32⟩ : BufTy).Contents (Elt F)) (after ops V (Proc.devRef .tc main_v15)) :=
  Cert.Lib.ReadFinal.unary writes 21 rfl (by decide) (by decide) V
theorem rd_main_v18 (V : Valuation τ sig (Elt F)) : after ops V (Proc.devRef .tc main_v18) = (subf : (⟨S768x768x3, .f32⟩ : BufTy).Contents (Elt F) → (⟨S768x768x3, .f32⟩ : BufTy).Contents (Elt F) → (⟨S768x768x3, .f32⟩ : BufTy).Contents (Elt F)) (after ops V (Proc.devRef .tc main_v16)) (after ops V (Proc.devRef .tc main_v17)) :=
  Cert.Lib.ReadFinal.binary writes 22 rfl (by decide) (by decide) (by decide) V
theorem rd_main_v19 (V : Valuation τ sig (Elt F)) : after ops V (Proc.devRef .tc main_v19) = (mulf : (⟨S768x768x3, .f32⟩ : BufTy).Contents (Elt F) → (⟨S768x768x3, .f32⟩ : BufTy).Contents (Elt F) → (⟨S768x768x3, .f32⟩ : BufTy).Contents (Elt F)) (after ops V (Proc.devRef .tc main_v18)) (after ops V (Proc.devRef .tc main_v18)) :=
  Cert.Lib.ReadFinal.binary writes 23 rfl (by decide) (by decide) (by decide) V
theorem rd_main_cst (V : Valuation τ sig (Elt F)) : after ops V (Proc.devRef .tc main_cst) = (constant S_ .f32 0x00000000#32) :=
  Cert.Lib.ReadFinal.nullary writes 24 rfl (by decide) V
theorem rd_main_v20 (V : Valuation τ sig (Elt F)) : after ops V (Proc.devRef .tc main_v20) = ((fun x v => Host.reduceAdd x v reducesTo_S768x768x3_S768x768_d2 h_S_) : (⟨S768x768x3, .f32⟩ : BufTy).Contents (Elt F) → (⟨S_, .f32⟩ : BufTy).Contents (Elt F) → (⟨S768x768, .f32⟩ : BufTy).Contents (Elt F)) (after ops V (Proc.devRef .tc main_v19)) (after ops V (Proc.devRef .tc main_cst)) :=
  Cert.Lib.ReadFinal.binary writes 25 rfl (by decide) (by decide) (by decide) V
theorem rd_main_cst_3 (V : Valuation τ sig (Elt F)) : after ops V (Proc.devRef .tc main_cst_3) = (constant S_ .f32 0x00000000#32) :=
  Cert.Lib.ReadFinal.nullary writes 26 rfl (by decide) V
theorem rd_main_v21 (V : Valuation τ sig (Elt F)) : after ops V (Proc.devRef .tc main_v21) = (broadcastInDim S768x768 ![] bcast_S_S768x768 : (⟨S_, .f32⟩ : BufTy).Contents (Elt F) → (⟨S768x768, .f32⟩ : BufTy).Contents (Elt F)) (after ops V (Proc.devRef .tc main_cst_3)) :=
  Cert.Lib.ReadFinal.unary writes 27 rfl (by decide) (by decide) V
theorem rd_main_v22 (V : Valuation τ sig (Elt F)) : after ops V (Proc.devRef .tc main_v22) = (cmpf .ogt : (⟨S768x768, .f32⟩ : BufTy).Contents (Elt F) → (⟨S768x768, .f32⟩ : BufTy).Contents (Elt F) → (⟨S768x768, .i1⟩ : BufTy).Contents (Elt F)) (after ops V (Proc.devRef .tc main_v20)) (after ops V (Proc.devRef .tc main_v21)) :=
  Cert.Lib.ReadFinal.binary writes 28 rfl (by decide) (by decide) (by decide) V
theorem rd_main_cst_4 (V : Valuation τ sig (Elt F)) : after ops V (Proc.devRef .tc main_cst_4) = (constant S_ .f32 0x3F800000#32) :=
  Cert.Lib.ReadFinal.nullary writes 29 rfl (by decide) V
theorem rd_main_call0_v0 (V : Valuation τ sig (Elt F)) : after ops V (Proc.devRef .tc main_call0_v0) = (id : (⟨S_, .f32⟩ : BufTy).Contents (Elt F) → (⟨S_, .f32⟩ : BufTy).Contents (Elt F)) (after ops V (Proc.devRef .tc main_cst_4)) :=
  Cert.Lib.ReadFinal.unary writes 30 rfl (by decide) (by decide) V
theorem rd_main_call0_v1 (V : Valuation τ sig (Elt F)) : after ops V (Proc.devRef .tc main_call0_v1) = ((broadcastInDim S768x768 ![] bcast_S_S768x768) : (⟨S_, .f32⟩ : BufTy).Contents (Elt F) → (⟨S768x768, .f32⟩ : BufTy).Contents (Elt F)) (after ops V (Proc.devRef .tc main_call0_v0)) :=
  Cert.Lib.ReadFinal.unary writes 31 rfl (by decide) (by decide) V
theorem rd_main_v23 (V : Valuation τ sig (Elt F)) : after ops V (Proc.devRef .tc main_v23) = (select : (⟨S768x768, .i1⟩ : BufTy).Contents (Elt F) → (⟨S768x768, .f32⟩ : BufTy).Contents (Elt F) → (⟨S768x768, .f32⟩ : BufTy).Contents (Elt F) → (⟨S768x768, .f32⟩ : BufTy).Contents (Elt F)) (after ops V (Proc.devRef .tc main_v22)) (after ops V (Proc.devRef .tc main_v20)) (after ops V (Proc.devRef .tc main_call0_v1)) :=
  Cert.Lib.ReadFinal.ternary writes 32 rfl (by decide) (by decide) (by decide) (by decide) V
theorem rd_main_v24 (V : Valuation τ sig (Elt F)) : after ops V (Proc.devRef .tc main_v24) = (Host.sqrt : (⟨S768x768, .f32⟩ : BufTy).Contents (Elt F) → (⟨S768x768, .f32⟩ : BufTy).Contents (Elt F)) (after ops V (Proc.devRef .tc main_v23)) :=
  Cert.Lib.ReadFinal.unary writes 33 rfl (by decide) (by decide) V
theorem rd_main_cst_5 (V : Valuation τ sig (Elt F)) : after ops V (Proc.devRef .tc main_cst_5) = (constant S_ .f32 0x00000000#32) :=
  Cert.Lib.ReadFinal.nullary writes 34 rfl (by decide) V
theorem rd_main_v25 (V : Valuation τ sig (Elt F)) : after ops V (Proc.devRef .tc main_v25) = (broadcastInDim S768x768 ![] bcast_S_S768x768 : (⟨S_, .f32⟩ : BufTy).Contents (Elt F) → (⟨S768x768, .f32⟩ : BufTy).Contents (Elt F)) (after ops V (Proc.devRef .tc main_cst_5)) :=
  Cert.Lib.ReadFinal.unary writes 35 rfl (by decide) (by decide) V
theorem rd_main_v26 (V : Valuation τ sig (Elt F)) : after ops V (Proc.devRef .tc main_v26) = (cmpf .ogt : (⟨S768x768, .f32⟩ : BufTy).Contents (Elt F) → (⟨S768x768, .f32⟩ : BufTy).Contents (Elt F) → (⟨S768x768, .i1⟩ : BufTy).Contents (Elt F)) (after ops V (Proc.devRef .tc main_v20)) (after ops V (Proc.devRef .tc main_v25)) :=
  Cert.Lib.ReadFinal.binary writes 36 rfl (by decide) (by decide) (by decide) V
theorem rd_main_cst_6 (V : Valuation τ sig (Elt F)) : after ops V (Proc.devRef .tc main_cst_6) = (constant S_ .f32 0x00000000#32) :=
  Cert.Lib.ReadFinal.nullary writes 37 rfl (by decide) V
theorem rd_main_call1_v0 (V : Valuation τ sig (Elt F)) : after ops V (Proc.devRef .tc main_call1_v0) = (id : (⟨S_, .f32⟩ : BufTy).Contents (Elt F) → (⟨S_, .f32⟩ : BufTy).Contents (Elt F)) (after ops V (Proc.devRef .tc main_cst_6)) :=
  Cert.Lib.ReadFinal.unary writes 38 rfl (by decide) (by decide) V
theorem rd_main_call1_v1 (V : Valuation τ sig (Elt F)) : after ops V (Proc.devRef .tc main_call1_v1) = ((broadcastInDim S768x768 ![] bcast_S_S768x768) : (⟨S_, .f32⟩ : BufTy).Contents (Elt F) → (⟨S768x768, .f32⟩ : BufTy).Contents (Elt F)) (after ops V (Proc.devRef .tc main_call1_v0)) :=
  Cert.Lib.ReadFinal.unary writes 39 rfl (by decide) (by decide) V
theorem rd_main_v27 (V : Valuation τ sig (Elt F)) : after ops V (Proc.devRef .tc main_v27) = (select : (⟨S768x768, .i1⟩ : BufTy).Contents (Elt F) → (⟨S768x768, .f32⟩ : BufTy).Contents (Elt F) → (⟨S768x768, .f32⟩ : BufTy).Contents (Elt F) → (⟨S768x768, .f32⟩ : BufTy).Contents (Elt F)) (after ops V (Proc.devRef .tc main_v26)) (after ops V (Proc.devRef .tc main_v24)) (after ops V (Proc.devRef .tc main_call1_v1)) :=
  Cert.Lib.ReadFinal.ternary writes 40 rfl (by decide) (by decide) (by decide) (by decide) V
theorem rd_main_v28 (V : Valuation τ sig (Elt F)) : after ops V (Proc.devRef .tc main_v28) = ((extractStridedSlice S1x257x128 ![0, 0, 0] · slices_S3x257x128_S1x257x128_0_0_0) : (⟨S3x257x128, .f32⟩ : BufTy).Contents (Elt F) → (⟨S1x257x128, .f32⟩ : BufTy).Contents (Elt F)) (after ops V (Proc.devRef .tc main_arg2)) :=
  Cert.Lib.ReadFinal.unary writes 41 rfl (by decide) (by decide) V
theorem rd_main_v29 (V : Valuation τ sig (Elt F)) : after ops V (Proc.devRef .tc main_v29) = fun i => shapeCast _ (after ops V (Proc.devRef .tc main_v28)) shapeCasts_S1x257x128_S257x128 i :=
  Cert.Lib.ReadFinal.reshape writes 42 rfl (by decide) (by decide) V
theorem rd_main_v30 (V : Valuation τ sig (Elt F)) : after ops V (Proc.devRef .tc main_v30) = ((extractStridedSlice S128x128 ![0, 0] · slices_S257x128_S128x128_0_0) : (⟨S257x128, .f32⟩ : BufTy).Contents (Elt F) → (⟨S128x128, .f32⟩ : BufTy).Contents (Elt F)) (after ops V (Proc.devRef .tc main_v29)) :=
  Cert.Lib.ReadFinal.unary writes 43 rfl (by decide) (by decide) V
theorem rd_main_v31 (V : Valuation τ sig (Elt F)) : after ops V (Proc.devRef .tc main_v31) = ((fun l r => Host.dotGeneral dot_S768x128_S128x128_S768x128_1_0_0_1_n_n none l r) : (⟨S768x128, .f32⟩ : BufTy).Contents (Elt F) → (⟨S128x128, .f32⟩ : BufTy).Contents (Elt F) → (⟨S768x128, .f32⟩ : BufTy).Contents (Elt F)) (after ops V (Proc.devRef .tc main_v6)) (after ops V (Proc.devRef .tc main_v30)) :=
  Cert.Lib.ReadFinal.binary writes 44 rfl (by decide) (by decide) (by decide) V
theorem rd_main_v32 (V : Valuation τ sig (Elt F)) : after ops V (Proc.devRef .tc main_v32) = (broadcastInDim S768x1x128 ![0, 2] bcast_S768x128_S768x1x128_0_2 : (⟨S768x128, .f32⟩ : BufTy).Contents (Elt F) → (⟨S768x1x128, .f32⟩ : BufTy).Contents (Elt F)) (after ops V (Proc.devRef .tc main_v31)) :=
  Cert.Lib.ReadFinal.unary writes 45 rfl (by decide) (by decide) V
theorem rd_main_v33 (V : Valuation τ sig (Elt F)) : after ops V (Proc.devRef .tc main_v33) = ((extractStridedSlice S128x128 ![128, 0] · slices_S257x128_S128x128_128_0) : (⟨S257x128, .f32⟩ : BufTy).Contents (Elt F) → (⟨S128x128, .f32⟩ : BufTy).Contents (Elt F)) (after ops V (Proc.devRef .tc main_v29)) :=
  Cert.Lib.ReadFinal.unary writes 46 rfl (by decide) (by decide) V
theorem rd_main_v34 (V : Valuation τ sig (Elt F)) : after ops V (Proc.devRef .tc main_v34) = ((fun l r => Host.dotGeneral dot_S768x128_S128x128_S768x128_1_0_0_1_n_n none l r) : (⟨S768x128, .f32⟩ : BufTy).Contents (Elt F) → (⟨S128x128, .f32⟩ : BufTy).Contents (Elt F) → (⟨S768x128, .f32⟩ : BufTy).Contents (Elt F)) (after ops V (Proc.devRef .tc main_v6)) (after ops V (Proc.devRef .tc main_v33)) :=
  Cert.Lib.ReadFinal.binary writes 47 rfl (by decide) (by decide) (by decide) V
theorem rd_main_v35 (V : Valuation τ sig (Elt F)) : after ops V (Proc.devRef .tc main_v35) = (broadcastInDim S1x768x128 ![1, 2] bcast_S768x128_S1x768x128_1_2 : (⟨S768x128, .f32⟩ : BufTy).Contents (Elt F) → (⟨S1x768x128, .f32⟩ : BufTy).Contents (Elt F)) (after ops V (Proc.devRef .tc main_v34)) :=
  Cert.Lib.ReadFinal.unary writes 48 rfl (by decide) (by decide) V
theorem rd_main_v36 (V : Valuation τ sig (Elt F)) : after ops V (Proc.devRef .tc main_v36) = (broadcastInDim S768x768x128 ![0, 1, 2] bcast_S768x1x128_S768x768x128_0_1_2 : (⟨S768x1x128, .f32⟩ : BufTy).Contents (Elt F) → (⟨S768x768x128, .f32⟩ : BufTy).Contents (Elt F)) (after ops V (Proc.devRef .tc main_v32)) :=
  Cert.Lib.ReadFinal.unary writes 49 rfl (by decide) (by decide) V
theorem rd_main_v37 (V : Valuation τ sig (Elt F)) : after ops V (Proc.devRef .tc main_v37) = (broadcastInDim S768x768x128 ![0, 1, 2] bcast_S1x768x128_S768x768x128_0_1_2 : (⟨S1x768x128, .f32⟩ : BufTy).Contents (Elt F) → (⟨S768x768x128, .f32⟩ : BufTy).Contents (Elt F)) (after ops V (Proc.devRef .tc main_v35)) :=
  Cert.Lib.ReadFinal.unary writes 50 rfl (by decide) (by decide) V
theorem rd_main_v38 (V : Valuation τ sig (Elt F)) : after ops V (Proc.devRef .tc main_v38) = (addf : (⟨S768x768x128, .f32⟩ : BufTy).Contents (Elt F) → (⟨S768x768x128, .f32⟩ : BufTy).Contents (Elt F) → (⟨S768x768x128, .f32⟩ : BufTy).Contents (Elt F)) (after ops V (Proc.devRef .tc main_v36)) (after ops V (Proc.devRef .tc main_v37)) :=
  Cert.Lib.ReadFinal.binary writes 51 rfl (by decide) (by decide) (by decide) V
theorem rd_main_v39 (V : Valuation τ sig (Elt F)) : after ops V (Proc.devRef .tc main_v39) = (broadcastInDim S768x768x1 ![0, 1] bcast_S768x768_S768x768x1_0_1 : (⟨S768x768, .f32⟩ : BufTy).Contents (Elt F) → (⟨S768x768x1, .f32⟩ : BufTy).Contents (Elt F)) (after ops V (Proc.devRef .tc main_v27)) :=
  Cert.Lib.ReadFinal.unary writes 52 rfl (by decide) (by decide) V
theorem rd_main_v40 (V : Valuation τ sig (Elt F)) : after ops V (Proc.devRef .tc main_v40) = ((extractStridedSlice S1x128 ![256, 0] · slices_S257x128_S1x128_256_0) : (⟨S257x128, .f32⟩ : BufTy).Contents (Elt F) → (⟨S1x128, .f32⟩ : BufTy).Contents (Elt F)) (after ops V (Proc.devRef .tc main_v29)) :=
  Cert.Lib.ReadFinal.unary writes 53 rfl (by decide) (by decide) V
theorem rd_main_v41 (V : Valuation τ sig (Elt F)) : after ops V (Proc.devRef .tc main_v41) = fun i => shapeCast _ (after ops V (Proc.devRef .tc main_v40)) shapeCasts_S1x128_S128 i :=
  Cert.Lib.ReadFinal.reshape writes 54 rfl (by decide) (by decide) V
theorem rd_main_v42 (V : Valuation τ sig (Elt F)) : after ops V (Proc.devRef .tc main_v42) = (broadcastInDim S1x1x128 ![2] bcast_S128_S1x1x128_2 : (⟨S128, .f32⟩ : BufTy).Contents (Elt F) → (⟨S1x1x128, .f32⟩ : BufTy).Contents (Elt F)) (after ops V (Proc.devRef .tc main_v41)) :=
  Cert.Lib.ReadFinal.unary writes 55 rfl (by decide) (by decide) V
theorem rd_main_v43 (V : Valuation τ sig (Elt F)) : after ops V (Proc.devRef .tc main_v43) = (broadcastInDim S768x768x128 ![0, 1, 2] bcast_S768x768x1_S768x768x128_0_1_2 : (⟨S768x768x1, .f32⟩ : BufTy).Contents (Elt F) → (⟨S768x768x128, .f32⟩ : BufTy).Contents (Elt F)) (after ops V (Proc.devRef .tc main_v39)) :=
  Cert.Lib.ReadFinal.unary writes 56 rfl (by decide) (by decide) V
theorem rd_main_v44 (V : Valuation τ sig (Elt F)) : after ops V (Proc.devRef .tc main_v44) = (broadcastInDim S768x768x128 ![0, 1, 2] bcast_S1x1x128_S768x768x128_0_1_2 : (⟨S1x1x128, .f32⟩ : BufTy).Contents (Elt F) → (⟨S768x768x128, .f32⟩ : BufTy).Contents (Elt F)) (after ops V (Proc.devRef .tc main_v42)) :=
  Cert.Lib.ReadFinal.unary writes 57 rfl (by decide) (by decide) V
theorem rd_main_v45 (V : Valuation τ sig (Elt F)) : after ops V (Proc.devRef .tc main_v45) = (mulf : (⟨S768x768x128, .f32⟩ : BufTy).Contents (Elt F) → (⟨S768x768x128, .f32⟩ : BufTy).Contents (Elt F) → (⟨S768x768x128, .f32⟩ : BufTy).Contents (Elt F)) (after ops V (Proc.devRef .tc main_v43)) (after ops V (Proc.devRef .tc main_v44)) :=
  Cert.Lib.ReadFinal.binary writes 58 rfl (by decide) (by decide) (by decide) V
theorem rd_main_v46 (V : Valuation τ sig (Elt F)) : after ops V (Proc.devRef .tc main_v46) = (addf : (⟨S768x768x128, .f32⟩ : BufTy).Contents (Elt F) → (⟨S768x768x128, .f32⟩ : BufTy).Contents (Elt F) → (⟨S768x768x128, .f32⟩ : BufTy).Contents (Elt F)) (after ops V (Proc.devRef .tc main_v38)) (after ops V (Proc.devRef .tc main_v45)) :=
  Cert.Lib.ReadFinal.binary writes 59 rfl (by decide) (by decide) (by decide) V
theorem rd_main_v47 (V : Valuation τ sig (Elt F)) : after ops V (Proc.devRef .tc main_v47) = ((extractStridedSlice S1x128 ![0, 0] · slices_S3x128_S1x128_0_0) : (⟨S3x128, .f32⟩ : BufTy).Contents (Elt F) → (⟨S1x128, .f32⟩ : BufTy).Contents (Elt F)) (after ops V (Proc.devRef .tc main_arg3)) :=
  Cert.Lib.ReadFinal.unary writes 60 rfl (by decide) (by decide) V
theorem rd_main_v48 (V : Valuation τ sig (Elt F)) : after ops V (Proc.devRef .tc main_v48) = fun i => shapeCast _ (after ops V (Proc.devRef .tc main_v47)) shapeCasts_S1x128_S128 i :=
  Cert.Lib.ReadFinal.reshape writes 61 rfl (by decide) (by decide) V
theorem rd_main_v49 (V : Valuation τ sig (Elt F)) : after ops V (Proc.devRef .tc main_v49) = (broadcastInDim S1x1x128 ![2] bcast_S128_S1x1x128_2 : (⟨S128, .f32⟩ : BufTy).Contents (Elt F) → (⟨S1x1x128, .f32⟩ : BufTy).Contents (Elt F)) (after ops V (Proc.devRef .tc main_v48)) :=
  Cert.Lib.ReadFinal.unary writes 62 rfl (by decide) (by decide) V
theorem rd_main_v50 (V : Valuation τ sig (Elt F)) : after ops V (Proc.devRef .tc main_v50) = (broadcastInDim S768x768x128 ![0, 1, 2] bcast_S1x1x128_S768x768x128_0_1_2 : (⟨S1x1x128, .f32⟩ : BufTy).Contents (Elt F) → (⟨S768x768x128, .f32⟩ : BufTy).Contents (Elt F)) (after ops V (Proc.devRef .tc main_v49)) :=
  Cert.Lib.ReadFinal.unary writes 63 rfl (by decide) (by decide) V
theorem rd_main_v51 (V : Valuation τ sig (Elt F)) : after ops V (Proc.devRef .tc main_v51) = (addf : (⟨S768x768x128, .f32⟩ : BufTy).Contents (Elt F) → (⟨S768x768x128, .f32⟩ : BufTy).Contents (Elt F) → (⟨S768x768x128, .f32⟩ : BufTy).Contents (Elt F)) (after ops V (Proc.devRef .tc main_v46)) (after ops V (Proc.devRef .tc main_v50)) :=
  Cert.Lib.ReadFinal.binary writes 64 rfl (by decide) (by decide) (by decide) V
theorem rd_main_call2_v0 (V : Valuation τ sig (Elt F)) : after ops V (Proc.devRef .tc main_call2_v0) = (Host.negf : (⟨S768x768x128, .f32⟩ : BufTy).Contents (Elt F) → (⟨S768x768x128, .f32⟩ : BufTy).Contents (Elt F)) (after ops V (Proc.devRef .tc main_v51)) :=
  Cert.Lib.ReadFinal.unary writes 65 rfl (by decide) (by decide) V
theorem rd_main_call2_v1 (V : Valuation τ sig (Elt F)) : after ops V (Proc.devRef .tc main_call2_v1) = (Host.exp : (⟨S768x768x128, .f32⟩ : BufTy).Contents (Elt F) → (⟨S768x768x128, .f32⟩ : BufTy).Contents (Elt F)) (after ops V (Proc.devRef .tc main_call2_v0)) :=
  Cert.Lib.ReadFinal.unary writes 66 rfl (by decide) (by decide) V
theorem rd_main_call2_cst (V : Valuation τ sig (Elt F)) : after ops V (Proc.devRef .tc main_call2_cst) = ((constant S_ .f32 0x3F800000#32) : (⟨S_, .f32⟩ : BufTy).Contents (Elt F)) :=
  Cert.Lib.ReadFinal.nullary writes 67 rfl (by decide) V
theorem rd_main_call2_v2 (V : Valuation τ sig (Elt F)) : after ops V (Proc.devRef .tc main_call2_v2) = ((broadcastInDim S768x768x128 ![] bcast_S_S768x768x128) : (⟨S_, .f32⟩ : BufTy).Contents (Elt F) → (⟨S768x768x128, .f32⟩ : BufTy).Contents (Elt F)) (after ops V (Proc.devRef .tc main_call2_cst)) :=
  Cert.Lib.ReadFinal.unary writes 68 rfl (by decide) (by decide) V
theorem rd_main_call2_v3 (V : Valuation τ sig (Elt F)) : after ops V (Proc.devRef .tc main_call2_v3) = (addf : (⟨S768x768x128, .f32⟩ : BufTy).Contents (Elt F) → (⟨S768x768x128, .f32⟩ : BufTy).Contents (Elt F) → (⟨S768x768x128, .f32⟩ : BufTy).Contents (Elt F)) (after ops V (Proc.devRef .tc main_call2_v2)) (after ops V (Proc.devRef .tc main_call2_v1)) :=
  Cert.Lib.ReadFinal.binary writes 69 rfl (by decide) (by decide) (by decide) V
theorem rd_main_call2_cst_0 (V : Valuation τ sig (Elt F)) : after ops V (Proc.devRef .tc main_call2_cst_0) = ((constant S_ .f32 0x3F800000#32) : (⟨S_, .f32⟩ : BufTy).Contents (Elt F)) :=
  Cert.Lib.ReadFinal.nullary writes 70 rfl (by decide) V
theorem rd_main_call2_v4 (V : Valuation τ sig (Elt F)) : after ops V (Proc.devRef .tc main_call2_v4) = ((broadcastInDim S768x768x128 ![] bcast_S_S768x768x128) : (⟨S_, .f32⟩ : BufTy).Contents (Elt F) → (⟨S768x768x128, .f32⟩ : BufTy).Contents (Elt F)) (after ops V (Proc.devRef .tc main_call2_cst_0)) :=
  Cert.Lib.ReadFinal.unary writes 71 rfl (by decide) (by decide) V
theorem rd_main_call2_v5 (V : Valuation τ sig (Elt F)) : after ops V (Proc.devRef .tc main_call2_v5) = (Host.divf : (⟨S768x768x128, .f32⟩ : BufTy).Contents (Elt F) → (⟨S768x768x128, .f32⟩ : BufTy).Contents (Elt F) → (⟨S768x768x128, .f32⟩ : BufTy).Contents (Elt F)) (after ops V (Proc.devRef .tc main_call2_v4)) (after ops V (Proc.devRef .tc main_call2_v3)) :=
  Cert.Lib.ReadFinal.binary writes 72 rfl (by decide) (by decide) (by decide) V
theorem rd_main_v52 (V : Valuation τ sig (Elt F)) : after ops V (Proc.devRef .tc main_v52) = (mulf : (⟨S768x768x128, .f32⟩ : BufTy).Contents (Elt F) → (⟨S768x768x128, .f32⟩ : BufTy).Contents (Elt F) → (⟨S768x768x128, .f32⟩ : BufTy).Contents (Elt F)) (after ops V (Proc.devRef .tc main_v51)) (after ops V (Proc.devRef .tc main_call2_v5)) :=
  Cert.Lib.ReadFinal.binary writes 73 rfl (by decide) (by decide) (by decide) V
theorem rd_main_cst_7 (V : Valuation τ sig (Elt F)) : after ops V (Proc.devRef .tc main_cst_7) = (constant S_ .f32 0x00000000#32) :=
  Cert.Lib.ReadFinal.nullary writes 74 rfl (by decide) V
theorem rd_main_v53 (V : Valuation τ sig (Elt F)) : after ops V (Proc.devRef .tc main_v53) = ((fun x v => Host.reduceAdd x v reducesTo_S768x768x128_S768x128_d1 h_S_) : (⟨S768x768x128, .f32⟩ : BufTy).Contents (Elt F) → (⟨S_, .f32⟩ : BufTy).Contents (Elt F) → (⟨S768x128, .f32⟩ : BufTy).Contents (Elt F)) (after ops V (Proc.devRef .tc main_v52)) (after ops V (Proc.devRef .tc main_cst_7)) :=
  Cert.Lib.ReadFinal.binary writes 75 rfl (by decide) (by decide) (by decide) V
theorem rd_main_cst_8 (V : Valuation τ sig (Elt F)) : after ops V (Proc.devRef .tc main_cst_8) = (constant S_ .f32 0x44400000#32) :=
  Cert.Lib.ReadFinal.nullary writes 76 rfl (by decide) V
theorem rd_main_v54 (V : Valuation τ sig (Elt F)) : after ops V (Proc.devRef .tc main_v54) = (broadcastInDim S768x128 ![] bcast_S_S768x128 : (⟨S_, .f32⟩ : BufTy).Contents (Elt F) → (⟨S768x128, .f32⟩ : BufTy).Contents (Elt F)) (after ops V (Proc.devRef .tc main_cst_8)) :=
  Cert.Lib.ReadFinal.unary writes 77 rfl (by decide) (by decide) V
theorem rd_main_v55 (V : Valuation τ sig (Elt F)) : after ops V (Proc.devRef .tc main_v55) = (Host.divf : (⟨S768x128, .f32⟩ : BufTy).Contents (Elt F) → (⟨S768x128, .f32⟩ : BufTy).Contents (Elt F) → (⟨S768x128, .f32⟩ : BufTy).Contents (Elt F)) (after ops V (Proc.devRef .tc main_v53)) (after ops V (Proc.devRef .tc main_v54)) :=
  Cert.Lib.ReadFinal.binary writes 78 rfl (by decide) (by decide) (by decide) V
theorem rd_main_v56 (V : Valuation τ sig (Elt F)) : after ops V (Proc.devRef .tc main_v56) = ((extractStridedSlice S1x128x128 ![0, 0, 0] · slices_S3x128x128_S1x128x128_0_0_0) : (⟨S3x128x128, .f32⟩ : BufTy).Contents (Elt F) → (⟨S1x128x128, .f32⟩ : BufTy).Contents (Elt F)) (after ops V (Proc.devRef .tc main_arg4)) :=
  Cert.Lib.ReadFinal.unary writes 79 rfl (by decide) (by decide) V
theorem rd_main_v57 (V : Valuation τ sig (Elt F)) : after ops V (Proc.devRef .tc main_v57) = fun i => shapeCast _ (after ops V (Proc.devRef .tc main_v56)) shapeCasts_S1x128x128_S128x128 i :=
  Cert.Lib.ReadFinal.reshape writes 80 rfl (by decide) (by decide) V
theorem rd_main_v58 (V : Valuation τ sig (Elt F)) : after ops V (Proc.devRef .tc main_v58) = ((fun l r => Host.dotGeneral dot_S768x128_S128x128_S768x128_1_0_0_1_n_n none l r) : (⟨S768x128, .f32⟩ : BufTy).Contents (Elt F) → (⟨S128x128, .f32⟩ : BufTy).Contents (Elt F) → (⟨S768x128, .f32⟩ : BufTy).Contents (Elt F)) (after ops V (Proc.devRef .tc main_v55)) (after ops V (Proc.devRef .tc main_v57)) :=
  Cert.Lib.ReadFinal.binary writes 81 rfl (by decide) (by decide) (by decide) V
theorem rd_main_v59 (V : Valuation τ sig (Elt F)) : after ops V (Proc.devRef .tc main_v59) = ((extractStridedSlice S1x128 ![0, 0] · slices_S3x128_S1x128_0_0) : (⟨S3x128, .f32⟩ : BufTy).Contents (Elt F) → (⟨S1x128, .f32⟩ : BufTy).Contents (Elt F)) (after ops V (Proc.devRef .tc main_arg5)) :=
  Cert.Lib.ReadFinal.unary writes 82 rfl (by decide) (by decide) V
theorem rd_main_v60 (V : Valuation τ sig (Elt F)) : after ops V (Proc.devRef .tc main_v60) = fun i => shapeCast _ (after ops V (Proc.devRef .tc main_v59)) shapeCasts_S1x128_S128 i :=
  Cert.Lib.ReadFinal.reshape writes 83 rfl (by decide) (by decide) V
theorem rd_main_v61 (V : Valuation τ sig (Elt F)) : after ops V (Proc.devRef .tc main_v61) = (broadcastInDim S1x128 ![1] bcast_S128_S1x128_1 : (⟨S128, .f32⟩ : BufTy).Contents (Elt F) → (⟨S1x128, .f32⟩ : BufTy).Contents (Elt F)) (after ops V (Proc.devRef .tc main_v60)) :=
  Cert.Lib.ReadFinal.unary writes 84 rfl (by decide) (by decide) V
theorem rd_main_v62 (V : Valuation τ sig (Elt F)) : after ops V (Proc.devRef .tc main_v62) = (broadcastInDim S768x128 ![0, 1] bcast_S1x128_S768x128_0_1 : (⟨S1x128, .f32⟩ : BufTy).Contents (Elt F) → (⟨S768x128, .f32⟩ : BufTy).Contents (Elt F)) (after ops V (Proc.devRef .tc main_v61)) :=
  Cert.Lib.ReadFinal.unary writes 85 rfl (by decide) (by decide) V
theorem rd_main_v63 (V : Valuation τ sig (Elt F)) : after ops V (Proc.devRef .tc main_v63) = (addf : (⟨S768x128, .f32⟩ : BufTy).Contents (Elt F) → (⟨S768x128, .f32⟩ : BufTy).Contents (Elt F) → (⟨S768x128, .f32⟩ : BufTy).Contents (Elt F)) (after ops V (Proc.devRef .tc main_v58)) (after ops V (Proc.devRef .tc main_v62)) :=
  Cert.Lib.ReadFinal.binary writes 86 rfl (by decide) (by decide) (by decide) V
theorem rd_main_v64 (V : Valuation τ sig (Elt F)) : after ops V (Proc.devRef .tc main_v64) = ((extractStridedSlice S1x257x1 ![0, 0, 0] · slices_S3x257x1_S1x257x1_0_0_0) : (⟨S3x257x1, .f32⟩ : BufTy).Contents (Elt F) → (⟨S1x257x1, .f32⟩ : BufTy).Contents (Elt F)) (after ops V (Proc.devRef .tc main_arg6)) :=
  Cert.Lib.ReadFinal.unary writes 87 rfl (by decide) (by decide) V
theorem rd_main_v65 (V : Valuation τ sig (Elt F)) : after ops V (Proc.devRef .tc main_v65) = fun i => shapeCast _ (after ops V (Proc.devRef .tc main_v64)) shapeCasts_S1x257x1_S257x1 i :=
  Cert.Lib.ReadFinal.reshape writes 88 rfl (by decide) (by decide) V
theorem rd_main_v66 (V : Valuation τ sig (Elt F)) : after ops V (Proc.devRef .tc main_v66) = ((extractStridedSlice S128x1 ![0, 0] · slices_S257x1_S128x1_0_0) : (⟨S257x1, .f32⟩ : BufTy).Contents (Elt F) → (⟨S128x1, .f32⟩ : BufTy).Contents (Elt F)) (after ops V (Proc.devRef .tc main_v65)) :=
  Cert.Lib.ReadFinal.unary writes 89 rfl (by decide) (by decide) V
theorem rd_main_v67 (V : Valuation τ sig (Elt F)) : after ops V (Proc.devRef .tc main_v67) = ((fun l r => Host.dotGeneral dot_S768x128_S128x1_S768x1_1_0_0_1_n_n none l r) : (⟨S768x128, .f32⟩ : BufTy).Contents (Elt F) → (⟨S128x1, .f32⟩ : BufTy).Contents (Elt F) → (⟨S768x1, .f32⟩ : BufTy).Contents (Elt F)) (after ops V (Proc.devRef .tc main_v6)) (after ops V (Proc.devRef .tc main_v66)) :=
  Cert.Lib.ReadFinal.binary writes 90 rfl (by decide) (by decide) (by decide) V
theorem rd_main_v68 (V : Valuation τ sig (Elt F)) : after ops V (Proc.devRef .tc main_v68) = (broadcastInDim S768x1x1 ![0, 2] bcast_S768x1_S768x1x1_0_2 : (⟨S768x1, .f32⟩ : BufTy).Contents (Elt F) → (⟨S768x1x1, .f32⟩ : BufTy).Contents (Elt F)) (after ops V (Proc.devRef .tc main_v67)) :=
  Cert.Lib.ReadFinal.unary writes 91 rfl (by decide) (by decide) V
theorem rd_main_v69 (V : Valuation τ sig (Elt F)) : after ops V (Proc.devRef .tc main_v69) = ((extractStridedSlice S128x1 ![128, 0] · slices_S257x1_S128x1_128_0) : (⟨S257x1, .f32⟩ : BufTy).Contents (Elt F) → (⟨S128x1, .f32⟩ : BufTy).Contents (Elt F)) (after ops V (Proc.devRef .tc main_v65)) :=
  Cert.Lib.ReadFinal.unary writes 92 rfl (by decide) (by decide) V
theorem rd_main_v70 (V : Valuation τ sig (Elt F)) : after ops V (Proc.devRef .tc main_v70) = ((fun l r => Host.dotGeneral dot_S768x128_S128x1_S768x1_1_0_0_1_n_n none l r) : (⟨S768x128, .f32⟩ : BufTy).Contents (Elt F) → (⟨S128x1, .f32⟩ : BufTy).Contents (Elt F) → (⟨S768x1, .f32⟩ : BufTy).Contents (Elt F)) (after ops V (Proc.devRef .tc main_v6)) (after ops V (Proc.devRef .tc main_v69)) :=
  Cert.Lib.ReadFinal.binary writes 93 rfl (by decide) (by decide) (by decide) V
theorem rd_main_v71 (V : Valuation τ sig (Elt F)) : after ops V (Proc.devRef .tc main_v71) = (broadcastInDim S1x768x1 ![1, 2] bcast_S768x1_S1x768x1_1_2 : (⟨S768x1, .f32⟩ : BufTy).Contents (Elt F) → (⟨S1x768x1, .f32⟩ : BufTy).Contents (Elt F)) (after ops V (Proc.devRef .tc main_v70)) :=
  Cert.Lib.ReadFinal.unary writes 94 rfl (by decide) (by decide) V
theorem rd_main_v72 (V : Valuation τ sig (Elt F)) : after ops V (Proc.devRef .tc main_v72) = (broadcastInDim S768x768x1 ![0, 1, 2] bcast_S768x1x1_S768x768x1_0_1_2 : (⟨S768x1x1, .f32⟩ : BufTy).Contents (Elt F) → (⟨S768x768x1, .f32⟩ : BufTy).Contents (Elt F)) (after ops V (Proc.devRef .tc main_v68)) :=
  Cert.Lib.ReadFinal.unary writes 95 rfl (by decide) (by decide) V
theorem rd_main_v73 (V : Valuation τ sig (Elt F)) : after ops V (Proc.devRef .tc main_v73) = (broadcastInDim S768x768x1 ![0, 1, 2] bcast_S1x768x1_S768x768x1_0_1_2 : (⟨S1x768x1, .f32⟩ : BufTy).Contents (Elt F) → (⟨S768x768x1, .f32⟩ : BufTy).Contents (Elt F)) (after ops V (Proc.devRef .tc main_v71)) :=
  Cert.Lib.ReadFinal.unary writes 96 rfl (by decide) (by decide) V
theorem rd_main_v74 (V : Valuation τ sig (Elt F)) : after ops V (Proc.devRef .tc main_v74) = (addf : (⟨S768x768x1, .f32⟩ : BufTy).Contents (Elt F) → (⟨S768x768x1, .f32⟩ : BufTy).Contents (Elt F) → (⟨S768x768x1, .f32⟩ : BufTy).Contents (Elt F)) (after ops V (Proc.devRef .tc main_v72)) (after ops V (Proc.devRef .tc main_v73)) :=
  Cert.Lib.ReadFinal.binary writes 97 rfl (by decide) (by decide) (by decide) V
theorem rd_main_v75 (V : Valuation τ sig (Elt F)) : after ops V (Proc.devRef .tc main_v75) = (broadcastInDim S768x768x1 ![0, 1] bcast_S768x768_S768x768x1_0_1 : (⟨S768x768, .f32⟩ : BufTy).Contents (Elt F) → (⟨S768x768x1, .f32⟩ : BufTy).Contents (Elt F)) (after ops V (Proc.devRef .tc main_v27)) :=
  Cert.Lib.ReadFinal.unary writes 98 rfl (by decide) (by decide) V
theorem rd_main_v76 (V : Valuation τ sig (Elt F)) : after ops V (Proc.devRef .tc main_v76) = ((extractStridedSlice S1x1 ![256, 0] · slices_S257x1_S1x1_256_0) : (⟨S257x1, .f32⟩ : BufTy).Contents (Elt F) → (⟨S1x1, .f32⟩ : BufTy).Contents (Elt F)) (after ops V (Proc.devRef .tc main_v65)) :=
  Cert.Lib.ReadFinal.unary writes 99 rfl (by decide) (by decide) V
theorem rd_main_v77 (V : Valuation τ sig (Elt F)) : after ops V (Proc.devRef .tc main_v77) = fun i => shapeCast _ (after ops V (Proc.devRef .tc main_v76)) shapeCasts_S1x1_S1 i :=
  Cert.Lib.ReadFinal.reshape writes 100 rfl (by decide) (by decide) V
theorem rd_main_v78 (V : Valuation τ sig (Elt F)) : after ops V (Proc.devRef .tc main_v78) = (broadcastInDim S1x1x1 ![2] bcast_S1_S1x1x1_2 : (⟨S1, .f32⟩ : BufTy).Contents (Elt F) → (⟨S1x1x1, .f32⟩ : BufTy).Contents (Elt F)) (after ops V (Proc.devRef .tc main_v77)) :=
  Cert.Lib.ReadFinal.unary writes 101 rfl (by decide) (by decide) V
theorem rd_main_v79 (V : Valuation τ sig (Elt F)) : after ops V (Proc.devRef .tc main_v79) = (broadcastInDim S768x768x1 ![0, 1, 2] bcast_S1x1x1_S768x768x1_0_1_2 : (⟨S1x1x1, .f32⟩ : BufTy).Contents (Elt F) → (⟨S768x768x1, .f32⟩ : BufTy).Contents (Elt F)) (after ops V (Proc.devRef .tc main_v78)) :=
  Cert.Lib.ReadFinal.unary writes 102 rfl (by decide) (by decide) V
theorem rd_main_v80 (V : Valuation τ sig (Elt F)) : after ops V (Proc.devRef .tc main_v80) = (mulf : (⟨S768x768x1, .f32⟩ : BufTy).Contents (Elt F) → (⟨S768x768x1, .f32⟩ : BufTy).Contents (Elt F) → (⟨S768x768x1, .f32⟩ : BufTy).Contents (Elt F)) (after ops V (Proc.devRef .tc main_v75)) (after ops V (Proc.devRef .tc main_v79)) :=
  Cert.Lib.ReadFinal.binary writes 103 rfl (by decide) (by decide) (by decide) V
theorem rd_main_v81 (V : Valuation τ sig (Elt F)) : after ops V (Proc.devRef .tc main_v81) = (addf : (⟨S768x768x1, .f32⟩ : BufTy).Contents (Elt F) → (⟨S768x768x1, .f32⟩ : BufTy).Contents (Elt F) → (⟨S768x768x1, .f32⟩ : BufTy).Contents (Elt F)) (after ops V (Proc.devRef .tc main_v74)) (after ops V (Proc.devRef .tc main_v80)) :=
  Cert.Lib.ReadFinal.binary writes 104 rfl (by decide) (by decide) (by decide) V
theorem rd_main_v82 (V : Valuation τ sig (Elt F)) : after ops V (Proc.devRef .tc main_v82) = ((extractStridedSlice S1x1 ![0, 0] · slices_S3x1_S1x1_0_0) : (⟨S3x1, .f32⟩ : BufTy).Contents (Elt F) → (⟨S1x1, .f32⟩ : BufTy).Contents (Elt F)) (after ops V (Proc.devRef .tc main_arg7)) :=
  Cert.Lib.ReadFinal.unary writes 105 rfl (by decide) (by decide) V
theorem rd_main_v83 (V : Valuation τ sig (Elt F)) : after ops V (Proc.devRef .tc main_v83) = fun i => shapeCast _ (after ops V (Proc.devRef .tc main_v82)) shapeCasts_S1x1_S1 i :=
  Cert.Lib.ReadFinal.reshape writes 106 rfl (by decide) (by decide) V
theorem rd_main_v84 (V : Valuation τ sig (Elt F)) : after ops V (Proc.devRef .tc main_v84) = (broadcastInDim S1x1x1 ![2] bcast_S1_S1x1x1_2 : (⟨S1, .f32⟩ : BufTy).Contents (Elt F) → (⟨S1x1x1, .f32⟩ : BufTy).Contents (Elt F)) (after ops V (Proc.devRef .tc main_v83)) :=
  Cert.Lib.ReadFinal.unary writes 107 rfl (by decide) (by decide) V
theorem rd_main_v85 (V : Valuation τ sig (Elt F)) : after ops V (Proc.devRef .tc main_v85) = (broadcastInDim S768x768x1 ![0, 1, 2] bcast_S1x1x1_S768x768x1_0_1_2 : (⟨S1x1x1, .f32⟩ : BufTy).Contents (Elt F) → (⟨S768x768x1, .f32⟩ : BufTy).Contents (Elt F)) (after ops V (Proc.devRef .tc main_v84)) :=
  Cert.Lib.ReadFinal.unary writes 108 rfl (by decide) (by decide) V
theorem rd_main_v86 (V : Valuation τ sig (Elt F)) : after ops V (Proc.devRef .tc main_v86) = (addf : (⟨S768x768x1, .f32⟩ : BufTy).Contents (Elt F) → (⟨S768x768x1, .f32⟩ : BufTy).Contents (Elt F) → (⟨S768x768x1, .f32⟩ : BufTy).Contents (Elt F)) (after ops V (Proc.devRef .tc main_v81)) (after ops V (Proc.devRef .tc main_v85)) :=
  Cert.Lib.ReadFinal.binary writes 109 rfl (by decide) (by decide) (by decide) V
theorem rd_main_call3_v0 (V : Valuation τ sig (Elt F)) : after ops V (Proc.devRef .tc main_call3_v0) = (Host.negf : (⟨S768x768x1, .f32⟩ : BufTy).Contents (Elt F) → (⟨S768x768x1, .f32⟩ : BufTy).Contents (Elt F)) (after ops V (Proc.devRef .tc main_v86)) :=
  Cert.Lib.ReadFinal.unary writes 110 rfl (by decide) (by decide) V
theorem rd_main_call3_v1 (V : Valuation τ sig (Elt F)) : after ops V (Proc.devRef .tc main_call3_v1) = (Host.exp : (⟨S768x768x1, .f32⟩ : BufTy).Contents (Elt F) → (⟨S768x768x1, .f32⟩ : BufTy).Contents (Elt F)) (after ops V (Proc.devRef .tc main_call3_v0)) :=
  Cert.Lib.ReadFinal.unary writes 111 rfl (by decide) (by decide) V
theorem rd_main_call3_cst (V : Valuation τ sig (Elt F)) : after ops V (Proc.devRef .tc main_call3_cst) = ((constant S_ .f32 0x3F800000#32) : (⟨S_, .f32⟩ : BufTy).Contents (Elt F)) :=
  Cert.Lib.ReadFinal.nullary writes 112 rfl (by decide) V
theorem rd_main_call3_v2 (V : Valuation τ sig (Elt F)) : after ops V (Proc.devRef .tc main_call3_v2) = ((broadcastInDim S768x768x1 ![] bcast_S_S768x768x1) : (⟨S_, .f32⟩ : BufTy).Contents (Elt F) → (⟨S768x768x1, .f32⟩ : BufTy).Contents (Elt F)) (after ops V (Proc.devRef .tc main_call3_cst)) :=
  Cert.Lib.ReadFinal.unary writes 113 rfl (by decide) (by decide) V
theorem rd_main_call3_v3 (V : Valuation τ sig (Elt F)) : after ops V (Proc.devRef .tc main_call3_v3) = (addf : (⟨S768x768x1, .f32⟩ : BufTy).Contents (Elt F) → (⟨S768x768x1, .f32⟩ : BufTy).Contents (Elt F) → (⟨S768x768x1, .f32⟩ : BufTy).Contents (Elt F)) (after ops V (Proc.devRef .tc main_call3_v2)) (after ops V (Proc.devRef .tc main_call3_v1)) :=
  Cert.Lib.ReadFinal.binary writes 114 rfl (by decide) (by decide) (by decide) V
theorem rd_main_call3_cst_0 (V : Valuation τ sig (Elt F)) : after ops V (Proc.devRef .tc main_call3_cst_0) = ((constant S_ .f32 0x3F800000#32) : (⟨S_, .f32⟩ : BufTy).Contents (Elt F)) :=
  Cert.Lib.ReadFinal.nullary writes 115 rfl (by decide) V
theorem rd_main_call3_v4 (V : Valuation τ sig (Elt F)) : after ops V (Proc.devRef .tc main_call3_v4) = ((broadcastInDim S768x768x1 ![] bcast_S_S768x768x1) : (⟨S_, .f32⟩ : BufTy).Contents (Elt F) → (⟨S768x768x1, .f32⟩ : BufTy).Contents (Elt F)) (after ops V (Proc.devRef .tc main_call3_cst_0)) :=
  Cert.Lib.ReadFinal.unary writes 116 rfl (by decide) (by decide) V
theorem rd_main_call3_v5 (V : Valuation τ sig (Elt F)) : after ops V (Proc.devRef .tc main_call3_v5) = (Host.divf : (⟨S768x768x1, .f32⟩ : BufTy).Contents (Elt F) → (⟨S768x768x1, .f32⟩ : BufTy).Contents (Elt F) → (⟨S768x768x1, .f32⟩ : BufTy).Contents (Elt F)) (after ops V (Proc.devRef .tc main_call3_v4)) (after ops V (Proc.devRef .tc main_call3_v3)) :=
  Cert.Lib.ReadFinal.binary writes 117 rfl (by decide) (by decide) (by decide) V
theorem rd_main_v87 (V : Valuation τ sig (Elt F)) : after ops V (Proc.devRef .tc main_v87) = (mulf : (⟨S768x768x1, .f32⟩ : BufTy).Contents (Elt F) → (⟨S768x768x1, .f32⟩ : BufTy).Contents (Elt F) → (⟨S768x768x1, .f32⟩ : BufTy).Contents (Elt F)) (after ops V (Proc.devRef .tc main_v86)) (after ops V (Proc.devRef .tc main_call3_v5)) :=
  Cert.Lib.ReadFinal.binary writes 118 rfl (by decide) (by decide) (by decide) V
theorem rd_main_v88 (V : Valuation τ sig (Elt F)) : after ops V (Proc.devRef .tc main_v88) = (broadcastInDim S768x768x3 ![0, 1, 2] bcast_S768x768x1_S768x768x3_0_1_2 : (⟨S768x768x1, .f32⟩ : BufTy).Contents (Elt F) → (⟨S768x768x3, .f32⟩ : BufTy).Contents (Elt F)) (after ops V (Proc.devRef .tc main_v87)) :=
  Cert.Lib.ReadFinal.unary writes 119 rfl (by decide) (by decide) V
theorem rd_main_v89 (V : Valuation τ sig (Elt F)) : after ops V (Proc.devRef .tc main_v89) = (mulf : (⟨S768x768x3, .f32⟩ : BufTy).Contents (Elt F) → (⟨S768x768x3, .f32⟩ : BufTy).Contents (Elt F) → (⟨S768x768x3, .f32⟩ : BufTy).Contents (Elt F)) (after ops V (Proc.devRef .tc main_v88)) (after ops V (Proc.devRef .tc main_v18)) :=
  Cert.Lib.ReadFinal.binary writes 120 rfl (by decide) (by decide) (by decide) V
theorem rd_main_cst_9 (V : Valuation τ sig (Elt F)) : after ops V (Proc.devRef .tc main_cst_9) = (constant S_ .f32 0x00000000#32) :=
  Cert.Lib.ReadFinal.nullary writes 121 rfl (by decide) V
theorem rd_main_v90 (V : Valuation τ sig (Elt F)) : after ops V (Proc.devRef .tc main_v90) = ((fun x v => Host.reduceAdd x v reducesTo_S768x768x3_S768x3_d1 h_S_) : (⟨S768x768x3, .f32⟩ : BufTy).Contents (Elt F) → (⟨S_, .f32⟩ : BufTy).Contents (Elt F) → (⟨S768x3, .f32⟩ : BufTy).Contents (Elt F)) (after ops V (Proc.devRef .tc main_v89)) (after ops V (Proc.devRef .tc main_cst_9)) :=
  Cert.Lib.ReadFinal.binary writes 122 rfl (by decide) (by decide) (by decide) V
theorem rd_main_cst_10 (V : Valuation τ sig (Elt F)) : after ops V (Proc.devRef .tc main_cst_10) = (constant S_ .f32 0x44400000#32) :=
  Cert.Lib.ReadFinal.nullary writes 123 rfl (by decide) V
theorem rd_main_v91 (V : Valuation τ sig (Elt F)) : after ops V (Proc.devRef .tc main_v91) = (broadcastInDim S768x3 ![] bcast_S_S768x3 : (⟨S_, .f32⟩ : BufTy).Contents (Elt F) → (⟨S768x3, .f32⟩ : BufTy).Contents (Elt F)) (after ops V (Proc.devRef .tc main_cst_10)) :=
  Cert.Lib.ReadFinal.unary writes 124 rfl (by decide) (by decide) V
theorem rd_main_v92 (V : Valuation τ sig (Elt F)) : after ops V (Proc.devRef .tc main_v92) = (Host.divf : (⟨S768x3, .f32⟩ : BufTy).Contents (Elt F) → (⟨S768x3, .f32⟩ : BufTy).Contents (Elt F) → (⟨S768x3, .f32⟩ : BufTy).Contents (Elt F)) (after ops V (Proc.devRef .tc main_v90)) (after ops V (Proc.devRef .tc main_v91)) :=
  Cert.Lib.ReadFinal.binary writes 125 rfl (by decide) (by decide) (by decide) V
theorem rd_main_v93 (V : Valuation τ sig (Elt F)) : after ops V (Proc.devRef .tc main_v93) = (addf : (⟨S768x3, .f32⟩ : BufTy).Contents (Elt F) → (⟨S768x3, .f32⟩ : BufTy).Contents (Elt F) → (⟨S768x3, .f32⟩ : BufTy).Contents (Elt F)) (after ops V (Proc.devRef .tc main_v13)) (after ops V (Proc.devRef .tc main_v92)) :=
  Cert.Lib.ReadFinal.binary writes 126 rfl (by decide) (by decide) (by decide) V
theorem rd_main_v94 (V : Valuation τ sig (Elt F)) : after ops V (Proc.devRef .tc main_v94) = (addf : (⟨S768x128, .f32⟩ : BufTy).Contents (Elt F) → (⟨S768x128, .f32⟩ : BufTy).Contents (Elt F) → (⟨S768x128, .f32⟩ : BufTy).Contents (Elt F)) (after ops V (Proc.devRef .tc main_v6)) (after ops V (Proc.devRef .tc main_v63)) :=
  Cert.Lib.ReadFinal.binary writes 127 rfl (by decide) (by decide) (by decide) V
theorem rd_main_v95 (V : Valuation τ sig (Elt F)) : after ops V (Proc.devRef .tc main_v95) = (broadcastInDim S768x1x3 ![0, 2] bcast_S768x3_S768x1x3_0_2 : (⟨S768x3, .f32⟩ : BufTy).Contents (Elt F) → (⟨S768x1x3, .f32⟩ : BufTy).Contents (Elt F)) (after ops V (Proc.devRef .tc main_v93)) :=
  Cert.Lib.ReadFinal.unary writes 128 rfl (by decide) (by decide) V
theorem rd_main_v96 (V : Valuation τ sig (Elt F)) : after ops V (Proc.devRef .tc main_v96) = (broadcastInDim S1x768x3 ![1, 2] bcast_S768x3_S1x768x3_1_2 : (⟨S768x3, .f32⟩ : BufTy).Contents (Elt F) → (⟨S1x768x3, .f32⟩ : BufTy).Contents (Elt F)) (after ops V (Proc.devRef .tc main_v93)) :=
  Cert.Lib.ReadFinal.unary writes 129 rfl (by decide) (by decide) V
theorem rd_main_v97 (V : Valuation τ sig (Elt F)) : after ops V (Proc.devRef .tc main_v97) = (broadcastInDim S768x768x3 ![0, 1, 2] bcast_S768x1x3_S768x768x3_0_1_2 : (⟨S768x1x3, .f32⟩ : BufTy).Contents (Elt F) → (⟨S768x768x3, .f32⟩ : BufTy).Contents (Elt F)) (after ops V (Proc.devRef .tc main_v95)) :=
  Cert.Lib.ReadFinal.unary writes 130 rfl (by decide) (by decide) V
theorem rd_main_v98 (V : Valuation τ sig (Elt F)) : after ops V (Proc.devRef .tc main_v98) = (broadcastInDim S768x768x3 ![0, 1, 2] bcast_S1x768x3_S768x768x3_0_1_2 : (⟨S1x768x3, .f32⟩ : BufTy).Contents (Elt F) → (⟨S768x768x3, .f32⟩ : BufTy).Contents (Elt F)) (after ops V (Proc.devRef .tc main_v96)) :=
  Cert.Lib.ReadFinal.unary writes 131 rfl (by decide) (by decide) V
theorem rd_main_v99 (V : Valuation τ sig (Elt F)) : after ops V (Proc.devRef .tc main_v99) = (subf : (⟨S768x768x3, .f32⟩ : BufTy).Contents (Elt F) → (⟨S768x768x3, .f32⟩ : BufTy).Contents (Elt F) → (⟨S768x768x3, .f32⟩ : BufTy).Contents (Elt F)) (after ops V (Proc.devRef .tc main_v97)) (after ops V (Proc.devRef .tc main_v98)) :=
  Cert.Lib.ReadFinal.binary writes 132 rfl (by decide) (by decide) (by decide) V
theorem rd_main_v100 (V : Valuation τ sig (Elt F)) : after ops V (Proc.devRef .tc main_v100) = (mulf : (⟨S768x768x3, .f32⟩ : BufTy).Contents (Elt F) → (⟨S768x768x3, .f32⟩ : BufTy).Contents (Elt F) → (⟨S768x768x3, .f32⟩ : BufTy).Contents (Elt F)) (after ops V (Proc.devRef .tc main_v99)) (after ops V (Proc.devRef .tc main_v99)) :=
  Cert.Lib.ReadFinal.binary writes 133 rfl (by decide) (by decide) (by decide) V
theorem rd_main_cst_11 (V : Valuation τ sig (Elt F)) : after ops V (Proc.devRef .tc main_cst_11) = (constant S_ .f32 0x00000000#32) :=
  Cert.Lib.ReadFinal.nullary writes 134 rfl (by decide) V
theorem rd_main_v101 (V : Valuation τ sig (Elt F)) : after ops V (Proc.devRef .tc main_v101) = ((fun x v => Host.reduceAdd x v reducesTo_S768x768x3_S768x768_d2 h_S_) : (⟨S768x768x3, .f32⟩ : BufTy).Contents (Elt F) → (⟨S_, .f32⟩ : BufTy).Contents (Elt F) → (⟨S768x768, .f32⟩ : BufTy).Contents (Elt F)) (after ops V (Proc.devRef .tc main_v100)) (after ops V (Proc.devRef .tc main_cst_11)) :=
  Cert.Lib.ReadFinal.binary writes 135 rfl (by decide) (by decide) (by decide) V
theorem rd_main_cst_12 (V : Valuation τ sig (Elt F)) : after ops V (Proc.devRef .tc main_cst_12) = (constant S_ .f32 0x00000000#32) :=
  Cert.Lib.ReadFinal.nullary writes 136 rfl (by decide) V
theorem rd_main_v102 (V : Valuation τ sig (Elt F)) : after ops V (Proc.devRef .tc main_v102) = (broadcastInDim S768x768 ![] bcast_S_S768x768 : (⟨S_, .f32⟩ : BufTy).Contents (Elt F) → (⟨S768x768, .f32⟩ : BufTy).Contents (Elt F)) (after ops V (Proc.devRef .tc main_cst_12)) :=
  Cert.Lib.ReadFinal.unary writes 137 rfl (by decide) (by decide) V
theorem rd_main_v103 (V : Valuation τ sig (Elt F)) : after ops V (Proc.devRef .tc main_v103) = (cmpf .ogt : (⟨S768x768, .f32⟩ : BufTy).Contents (Elt F) → (⟨S768x768, .f32⟩ : BufTy).Contents (Elt F) → (⟨S768x768, .i1⟩ : BufTy).Contents (Elt F)) (after ops V (Proc.devRef .tc main_v101)) (after ops V (Proc.devRef .tc main_v102)) :=
  Cert.Lib.ReadFinal.binary writes 138 rfl (by decide) (by decide) (by decide) V
theorem rd_main_cst_13 (V : Valuation τ sig (Elt F)) : after ops V (Proc.devRef .tc main_cst_13) = (constant S_ .f32 0x3F800000#32) :=
  Cert.Lib.ReadFinal.nullary writes 139 rfl (by decide) V
theorem rd_main_call4_v0 (V : Valuation τ sig (Elt F)) : after ops V (Proc.devRef .tc main_call4_v0) = (id : (⟨S_, .f32⟩ : BufTy).Contents (Elt F) → (⟨S_, .f32⟩ : BufTy).Contents (Elt F)) (after ops V (Proc.devRef .tc main_cst_13)) :=
  Cert.Lib.ReadFinal.unary writes 140 rfl (by decide) (by decide) V
theorem rd_main_call4_v1 (V : Valuation τ sig (Elt F)) : after ops V (Proc.devRef .tc main_call4_v1) = ((broadcastInDim S768x768 ![] bcast_S_S768x768) : (⟨S_, .f32⟩ : BufTy).Contents (Elt F) → (⟨S768x768, .f32⟩ : BufTy).Contents (Elt F)) (after ops V (Proc.devRef .tc main_call4_v0)) :=
  Cert.Lib.ReadFinal.unary writes 141 rfl (by decide) (by decide) V
theorem rd_main_v104 (V : Valuation τ sig (Elt F)) : after ops V (Proc.devRef .tc main_v104) = (select : (⟨S768x768, .i1⟩ : BufTy).Contents (Elt F) → (⟨S768x768, .f32⟩ : BufTy).Contents (Elt F) → (⟨S768x768, .f32⟩ : BufTy).Contents (Elt F) → (⟨S768x768, .f32⟩ : BufTy).Contents (Elt F)) (after ops V (Proc.devRef .tc main_v103)) (after ops V (Proc.devRef .tc main_v101)) (after ops V (Proc.devRef .tc main_call4_v1)) :=
  Cert.Lib.ReadFinal.ternary writes 142 rfl (by decide) (by decide) (by decide) (by decide) V
theorem rd_main_v105 (V : Valuation τ sig (Elt F)) : after ops V (Proc.devRef .tc main_v105) = (Host.sqrt : (⟨S768x768, .f32⟩ : BufTy).Contents (Elt F) → (⟨S768x768, .f32⟩ : BufTy).Contents (Elt F)) (after ops V (Proc.devRef .tc main_v104)) :=
  Cert.Lib.ReadFinal.unary writes 143 rfl (by decide) (by decide) V
theorem rd_main_cst_14 (V : Valuation τ sig (Elt F)) : after ops V (Proc.devRef .tc main_cst_14) = (constant S_ .f32 0x00000000#32) :=
  Cert.Lib.ReadFinal.nullary writes 144 rfl (by decide) V
theorem rd_main_v106 (V : Valuation τ sig (Elt F)) : after ops V (Proc.devRef .tc main_v106) = (broadcastInDim S768x768 ![] bcast_S_S768x768 : (⟨S_, .f32⟩ : BufTy).Contents (Elt F) → (⟨S768x768, .f32⟩ : BufTy).Contents (Elt F)) (after ops V (Proc.devRef .tc main_cst_14)) :=
  Cert.Lib.ReadFinal.unary writes 145 rfl (by decide) (by decide) V
theorem rd_main_v107 (V : Valuation τ sig (Elt F)) : after ops V (Proc.devRef .tc main_v107) = (cmpf .ogt : (⟨S768x768, .f32⟩ : BufTy).Contents (Elt F) → (⟨S768x768, .f32⟩ : BufTy).Contents (Elt F) → (⟨S768x768, .i1⟩ : BufTy).Contents (Elt F)) (after ops V (Proc.devRef .tc main_v101)) (after ops V (Proc.devRef .tc main_v106)) :=
  Cert.Lib.ReadFinal.binary writes 146 rfl (by decide) (by decide) (by decide) V
theorem rd_main_cst_15 (V : Valuation τ sig (Elt F)) : after ops V (Proc.devRef .tc main_cst_15) = (constant S_ .f32 0x00000000#32) :=
  Cert.Lib.ReadFinal.nullary writes 147 rfl (by decide) V
theorem rd_main_call5_v0 (V : Valuation τ sig (Elt F)) : after ops V (Proc.devRef .tc main_call5_v0) = (id : (⟨S_, .f32⟩ : BufTy).Contents (Elt F) → (⟨S_, .f32⟩ : BufTy).Contents (Elt F)) (after ops V (Proc.devRef .tc main_cst_15)) :=
  Cert.Lib.ReadFinal.unary writes 148 rfl (by decide) (by decide) V
theorem rd_main_call5_v1 (V : Valuation τ sig (Elt F)) : after ops V (Proc.devRef .tc main_call5_v1) = ((broadcastInDim S768x768 ![] bcast_S_S768x768) : (⟨S_, .f32⟩ : BufTy).Contents (Elt F) → (⟨S768x768, .f32⟩ : BufTy).Contents (Elt F)) (after ops V (Proc.devRef .tc main_call5_v0)) :=
  Cert.Lib.ReadFinal.unary writes 149 rfl (by decide) (by decide) V
theorem rd_main_v108 (V : Valuation τ sig (Elt F)) : after ops V (Proc.devRef .tc main_v108) = (select : (⟨S768x768, .i1⟩ : BufTy).Contents (Elt F) → (⟨S768x768, .f32⟩ : BufTy).Contents (Elt F) → (⟨S768x768, .f32⟩ : BufTy).Contents (Elt F) → (⟨S768x768, .f32⟩ : BufTy).Contents (Elt F)) (after ops V (Proc.devRef .tc main_v107)) (after ops V (Proc.devRef .tc main_v105)) (after ops V (Proc.devRef .tc main_call5_v1)) :=
  Cert.Lib.ReadFinal.ternary writes 150 rfl (by decide) (by decide) (by decide) (by decide) V
theorem rd_main_v109 (V : Valuation τ sig (Elt F)) : after ops V (Proc.devRef .tc main_v109) = ((extractStridedSlice S1x257x128 ![1, 0, 0] · slices_S3x257x128_S1x257x128_1_0_0) : (⟨S3x257x128, .f32⟩ : BufTy).Contents (Elt F) → (⟨S1x257x128, .f32⟩ : BufTy).Contents (Elt F)) (after ops V (Proc.devRef .tc main_arg2)) :=
  Cert.Lib.ReadFinal.unary writes 151 rfl (by decide) (by decide) V
theorem rd_main_v110 (V : Valuation τ sig (Elt F)) : after ops V (Proc.devRef .tc main_v110) = fun i => shapeCast _ (after ops V (Proc.devRef .tc main_v109)) shapeCasts_S1x257x128_S257x128 i :=
  Cert.Lib.ReadFinal.reshape writes 152 rfl (by decide) (by decide) V
theorem rd_main_v111 (V : Valuation τ sig (Elt F)) : after ops V (Proc.devRef .tc main_v111) = ((extractStridedSlice S128x128 ![0, 0] · slices_S257x128_S128x128_0_0) : (⟨S257x128, .f32⟩ : BufTy).Contents (Elt F) → (⟨S128x128, .f32⟩ : BufTy).Contents (Elt F)) (after ops V (Proc.devRef .tc main_v110)) :=
  Cert.Lib.ReadFinal.unary writes 153 rfl (by decide) (by decide) V
theorem rd_main_v112 (V : Valuation τ sig (Elt F)) : after ops V (Proc.devRef .tc main_v112) = ((fun l r => Host.dotGeneral dot_S768x128_S128x128_S768x128_1_0_0_1_n_n none l r) : (⟨S768x128, .f32⟩ : BufTy).Contents (Elt F) → (⟨S128x128, .f32⟩ : BufTy).Contents (Elt F) → (⟨S768x128, .f32⟩ : BufTy).Contents (Elt F)) (after ops V (Proc.devRef .tc main_v94)) (after ops V (Proc.devRef .tc main_v111)) :=
  Cert.Lib.ReadFinal.binary writes 154 rfl (by decide) (by decide) (by decide) V
theorem rd_main_v113 (V : Valuation τ sig (Elt F)) : after ops V (Proc.devRef .tc main_v113) = (broadcastInDim S768x1x128 ![0, 2] bcast_S768x128_S768x1x128_0_2 : (⟨S768x128, .f32⟩ : BufTy).Contents (Elt F) → (⟨S768x1x128, .f32⟩ : BufTy).Contents (Elt F)) (after ops V (Proc.devRef .tc main_v112)) :=
  Cert.Lib.ReadFinal.unary writes 155 rfl (by decide) (by decide) V
theorem rd_main_v114 (V : Valuation τ sig (Elt F)) : after ops V (Proc.devRef .tc main_v114) = ((extractStridedSlice S128x128 ![128, 0] · slices_S257x128_S128x128_128_0) : (⟨S257x128, .f32⟩ : BufTy).Contents (Elt F) → (⟨S128x128, .f32⟩ : BufTy).Contents (Elt F)) (after ops V (Proc.devRef .tc main_v110)) :=
  Cert.Lib.ReadFinal.unary writes 156 rfl (by decide) (by decide) V
theorem rd_main_v115 (V : Valuation τ sig (Elt F)) : after ops V (Proc.devRef .tc main_v115) = ((fun l r => Host.dotGeneral dot_S768x128_S128x128_S768x128_1_0_0_1_n_n none l r) : (⟨S768x128, .f32⟩ : BufTy).Contents (Elt F) → (⟨S128x128, .f32⟩ : BufTy).Contents (Elt F) → (⟨S768x128, .f32⟩ : BufTy).Contents (Elt F)) (after ops V (Proc.devRef .tc main_v94)) (after ops V (Proc.devRef .tc main_v114)) :=
  Cert.Lib.ReadFinal.binary writes 157 rfl (by decide) (by decide) (by decide) V
theorem rd_main_v116 (V : Valuation τ sig (Elt F)) : after ops V (Proc.devRef .tc main_v116) = (broadcastInDim S1x768x128 ![1, 2] bcast_S768x128_S1x768x128_1_2 : (⟨S768x128, .f32⟩ : BufTy).Contents (Elt F) → (⟨S1x768x128, .f32⟩ : BufTy).Contents (Elt F)) (after ops V (Proc.devRef .tc main_v115)) :=
  Cert.Lib.ReadFinal.unary writes 158 rfl (by decide) (by decide) V
theorem rd_main_v117 (V : Valuation τ sig (Elt F)) : after ops V (Proc.devRef .tc main_v117) = (broadcastInDim S768x768x128 ![0, 1, 2] bcast_S768x1x128_S768x768x128_0_1_2 : (⟨S768x1x128, .f32⟩ : BufTy).Contents (Elt F) → (⟨S768x768x128, .f32⟩ : BufTy).Contents (Elt F)) (after ops V (Proc.devRef .tc main_v113)) :=
  Cert.Lib.ReadFinal.unary writes 159 rfl (by decide) (by decide) V
theorem rd_main_v118 (V : Valuation τ sig (Elt F)) : after ops V (Proc.devRef .tc main_v118) = (broadcastInDim S768x768x128 ![0, 1, 2] bcast_S1x768x128_S768x768x128_0_1_2 : (⟨S1x768x128, .f32⟩ : BufTy).Contents (Elt F) → (⟨S768x768x128, .f32⟩ : BufTy).Contents (Elt F)) (after ops V (Proc.devRef .tc main_v116)) :=
  Cert.Lib.ReadFinal.unary writes 160 rfl (by decide) (by decide) V
theorem rd_main_v119 (V : Valuation τ sig (Elt F)) : after ops V (Proc.devRef .tc main_v119) = (addf : (⟨S768x768x128, .f32⟩ : BufTy).Contents (Elt F) → (⟨S768x768x128, .f32⟩ : BufTy).Contents (Elt F) → (⟨S768x768x128, .f32⟩ : BufTy).Contents (Elt F)) (after ops V (Proc.devRef .tc main_v117)) (after ops V (Proc.devRef .tc main_v118)) :=
  Cert.Lib.ReadFinal.binary writes 161 rfl (by decide) (by decide) (by decide) V
theorem rd_main_v120 (V : Valuation τ sig (Elt F)) : after ops V (Proc.devRef .tc main_v120) = (broadcastInDim S768x768x1 ![0, 1] bcast_S768x768_S768x768x1_0_1 : (⟨S768x768, .f32⟩ : BufTy).Contents (Elt F) → (⟨S768x768x1, .f32⟩ : BufTy).Contents (Elt F)) (after ops V (Proc.devRef .tc main_v108)) :=
  Cert.Lib.ReadFinal.unary writes 162 rfl (by decide) (by decide) V
theorem rd_main_v121 (V : Valuation τ sig (Elt F)) : after ops V (Proc.devRef .tc main_v121) = ((extractStridedSlice S1x128 ![256, 0] · slices_S257x128_S1x128_256_0) : (⟨S257x128, .f32⟩ : BufTy).Contents (Elt F) → (⟨S1x128, .f32⟩ : BufTy).Contents (Elt F)) (after ops V (Proc.devRef .tc main_v110)) :=
  Cert.Lib.ReadFinal.unary writes 163 rfl (by decide) (by decide) V
theorem rd_main_v122 (V : Valuation τ sig (Elt F)) : after ops V (Proc.devRef .tc main_v122) = fun i => shapeCast _ (after ops V (Proc.devRef .tc main_v121)) shapeCasts_S1x128_S128 i :=
  Cert.Lib.ReadFinal.reshape writes 164 rfl (by decide) (by decide) V
theorem rd_main_v123 (V : Valuation τ sig (Elt F)) : after ops V (Proc.devRef .tc main_v123) = (broadcastInDim S1x1x128 ![2] bcast_S128_S1x1x128_2 : (⟨S128, .f32⟩ : BufTy).Contents (Elt F) → (⟨S1x1x128, .f32⟩ : BufTy).Contents (Elt F)) (after ops V (Proc.devRef .tc main_v122)) :=
  Cert.Lib.ReadFinal.unary writes 165 rfl (by decide) (by decide) V
theorem rd_main_v124 (V : Valuation τ sig (Elt F)) : after ops V (Proc.devRef .tc main_v124) = (broadcastInDim S768x768x128 ![0, 1, 2] bcast_S768x768x1_S768x768x128_0_1_2 : (⟨S768x768x1, .f32⟩ : BufTy).Contents (Elt F) → (⟨S768x768x128, .f32⟩ : BufTy).Contents (Elt F)) (after ops V (Proc.devRef .tc main_v120)) :=
  Cert.Lib.ReadFinal.unary writes 166 rfl (by decide) (by decide) V
theorem rd_main_v125 (V : Valuation τ sig (Elt F)) : after ops V (Proc.devRef .tc main_v125) = (broadcastInDim S768x768x128 ![0, 1, 2] bcast_S1x1x128_S768x768x128_0_1_2 : (⟨S1x1x128, .f32⟩ : BufTy).Contents (Elt F) → (⟨S768x768x128, .f32⟩ : BufTy).Contents (Elt F)) (after ops V (Proc.devRef .tc main_v123)) :=
  Cert.Lib.ReadFinal.unary writes 167 rfl (by decide) (by decide) V
theorem rd_main_v126 (V : Valuation τ sig (Elt F)) : after ops V (Proc.devRef .tc main_v126) = (mulf : (⟨S768x768x128, .f32⟩ : BufTy).Contents (Elt F) → (⟨S768x768x128, .f32⟩ : BufTy).Contents (Elt F) → (⟨S768x768x128, .f32⟩ : BufTy).Contents (Elt F)) (after ops V (Proc.devRef .tc main_v124)) (after ops V (Proc.devRef .tc main_v125)) :=
  Cert.Lib.ReadFinal.binary writes 168 rfl (by decide) (by decide) (by decide) V
theorem rd_main_v127 (V : Valuation τ sig (Elt F)) : after ops V (Proc.devRef .tc main_v127) = (addf : (⟨S768x768x128, .f32⟩ : BufTy).Contents (Elt F) → (⟨S768x768x128, .f32⟩ : BufTy).Contents (Elt F) → (⟨S768x768x128, .f32⟩ : BufTy).Contents (Elt F)) (after ops V (Proc.devRef .tc main_v119)) (after ops V (Proc.devRef .tc main_v126)) :=
  Cert.Lib.ReadFinal.binary writes 169 rfl (by decide) (by decide) (by decide) V
theorem rd_main_v128 (V : Valuation τ sig (Elt F)) : after ops V (Proc.devRef .tc main_v128) = ((extractStridedSlice S1x128 ![1, 0] · slices_S3x128_S1x128_1_0) : (⟨S3x128, .f32⟩ : BufTy).Contents (Elt F) → (⟨S1x128, .f32⟩ : BufTy).Contents (Elt F)) (after ops V (Proc.devRef .tc main_arg3)) :=
  Cert.Lib.ReadFinal.unary writes 170 rfl (by decide) (by decide) V
theorem rd_main_v129 (V : Valuation τ sig (Elt F)) : after ops V (Proc.devRef .tc main_v129) = fun i => shapeCast _ (after ops V (Proc.devRef .tc main_v128)) shapeCasts_S1x128_S128 i :=
  Cert.Lib.ReadFinal.reshape writes 171 rfl (by decide) (by decide) V
theorem rd_main_v130 (V : Valuation τ sig (Elt F)) : after ops V (Proc.devRef .tc main_v130) = (broadcastInDim S1x1x128 ![2] bcast_S128_S1x1x128_2 : (⟨S128, .f32⟩ : BufTy).Contents (Elt F) → (⟨S1x1x128, .f32⟩ : BufTy).Contents (Elt F)) (after ops V (Proc.devRef .tc main_v129)) :=
  Cert.Lib.ReadFinal.unary writes 172 rfl (by decide) (by decide) V
theorem rd_main_v131 (V : Valuation τ sig (Elt F)) : after ops V (Proc.devRef .tc main_v131) = (broadcastInDim S768x768x128 ![0, 1, 2] bcast_S1x1x128_S768x768x128_0_1_2 : (⟨S1x1x128, .f32⟩ : BufTy).Contents (Elt F) → (⟨S768x768x128, .f32⟩ : BufTy).Contents (Elt F)) (after ops V (Proc.devRef .tc main_v130)) :=
  Cert.Lib.ReadFinal.unary writes 173 rfl (by decide) (by decide) V
theorem rd_main_v132 (V : Valuation τ sig (Elt F)) : after ops V (Proc.devRef .tc main_v132) = (addf : (⟨S768x768x128, .f32⟩ : BufTy).Contents (Elt F) → (⟨S768x768x128, .f32⟩ : BufTy).Contents (Elt F) → (⟨S768x768x128, .f32⟩ : BufTy).Contents (Elt F)) (after ops V (Proc.devRef .tc main_v127)) (after ops V (Proc.devRef .tc main_v131)) :=
  Cert.Lib.ReadFinal.binary writes 174 rfl (by decide) (by decide) (by decide) V
theorem rd_main_call6_v0 (V : Valuation τ sig (Elt F)) : after ops V (Proc.devRef .tc main_call6_v0) = (Host.negf : (⟨S768x768x128, .f32⟩ : BufTy).Contents (Elt F) → (⟨S768x768x128, .f32⟩ : BufTy).Contents (Elt F)) (after ops V (Proc.devRef .tc main_v132)) :=
  Cert.Lib.ReadFinal.unary writes 175 rfl (by decide) (by decide) V
theorem rd_main_call6_v1 (V : Valuation τ sig (Elt F)) : after ops V (Proc.devRef .tc main_call6_v1) = (Host.exp : (⟨S768x768x128, .f32⟩ : BufTy).Contents (Elt F) → (⟨S768x768x128, .f32⟩ : BufTy).Contents (Elt F)) (after ops V (Proc.devRef .tc main_call6_v0)) :=
  Cert.Lib.ReadFinal.unary writes 176 rfl (by decide) (by decide) V
theorem rd_main_call6_cst (V : Valuation τ sig (Elt F)) : after ops V (Proc.devRef .tc main_call6_cst) = ((constant S_ .f32 0x3F800000#32) : (⟨S_, .f32⟩ : BufTy).Contents (Elt F)) :=
  Cert.Lib.ReadFinal.nullary writes 177 rfl (by decide) V
theorem rd_main_call6_v2 (V : Valuation τ sig (Elt F)) : after ops V (Proc.devRef .tc main_call6_v2) = ((broadcastInDim S768x768x128 ![] bcast_S_S768x768x128) : (⟨S_, .f32⟩ : BufTy).Contents (Elt F) → (⟨S768x768x128, .f32⟩ : BufTy).Contents (Elt F)) (after ops V (Proc.devRef .tc main_call6_cst)) :=
  Cert.Lib.ReadFinal.unary writes 178 rfl (by decide) (by decide) V
theorem rd_main_call6_v3 (V : Valuation τ sig (Elt F)) : after ops V (Proc.devRef .tc main_call6_v3) = (addf : (⟨S768x768x128, .f32⟩ : BufTy).Contents (Elt F) → (⟨S768x768x128, .f32⟩ : BufTy).Contents (Elt F) → (⟨S768x768x128, .f32⟩ : BufTy).Contents (Elt F)) (after ops V (Proc.devRef .tc main_call6_v2)) (after ops V (Proc.devRef .tc main_call6_v1)) :=
  Cert.Lib.ReadFinal.binary writes 179 rfl (by decide) (by decide) (by decide) V
theorem rd_main_call6_cst_0 (V : Valuation τ sig (Elt F)) : after ops V (Proc.devRef .tc main_call6_cst_0) = ((constant S_ .f32 0x3F800000#32) : (⟨S_, .f32⟩ : BufTy).Contents (Elt F)) :=
  Cert.Lib.ReadFinal.nullary writes 180 rfl (by decide) V
theorem rd_main_call6_v4 (V : Valuation τ sig (Elt F)) : after ops V (Proc.devRef .tc main_call6_v4) = ((broadcastInDim S768x768x128 ![] bcast_S_S768x768x128) : (⟨S_, .f32⟩ : BufTy).Contents (Elt F) → (⟨S768x768x128, .f32⟩ : BufTy).Contents (Elt F)) (after ops V (Proc.devRef .tc main_call6_cst_0)) :=
  Cert.Lib.ReadFinal.unary writes 181 rfl (by decide) (by decide) V
theorem rd_main_call6_v5 (V : Valuation τ sig (Elt F)) : after ops V (Proc.devRef .tc main_call6_v5) = (Host.divf : (⟨S768x768x128, .f32⟩ : BufTy).Contents (Elt F) → (⟨S768x768x128, .f32⟩ : BufTy).Contents (Elt F) → (⟨S768x768x128, .f32⟩ : BufTy).Contents (Elt F)) (after ops V (Proc.devRef .tc main_call6_v4)) (after ops V (Proc.devRef .tc main_call6_v3)) :=
  Cert.Lib.ReadFinal.binary writes 182 rfl (by decide) (by decide) (by decide) V
theorem rd_main_v133 (V : Valuation τ sig (Elt F)) : after ops V (Proc.devRef .tc main_v133) = (mulf : (⟨S768x768x128, .f32⟩ : BufTy).Contents (Elt F) → (⟨S768x768x128, .f32⟩ : BufTy).Contents (Elt F) → (⟨S768x768x128, .f32⟩ : BufTy).Contents (Elt F)) (after ops V (Proc.devRef .tc main_v132)) (after ops V (Proc.devRef .tc main_call6_v5)) :=
  Cert.Lib.ReadFinal.binary writes 183 rfl (by decide) (by decide) (by decide) V
theorem rd_main_cst_16 (V : Valuation τ sig (Elt F)) : after ops V (Proc.devRef .tc main_cst_16) = (constant S_ .f32 0x00000000#32) :=
  Cert.Lib.ReadFinal.nullary writes 184 rfl (by decide) V
theorem rd_main_v134 (V : Valuation τ sig (Elt F)) : after ops V (Proc.devRef .tc main_v134) = ((fun x v => Host.reduceAdd x v reducesTo_S768x768x128_S768x128_d1 h_S_) : (⟨S768x768x128, .f32⟩ : BufTy).Contents (Elt F) → (⟨S_, .f32⟩ : BufTy).Contents (Elt F) → (⟨S768x128, .f32⟩ : BufTy).Contents (Elt F)) (after ops V (Proc.devRef .tc main_v133)) (after ops V (Proc.devRef .tc main_cst_16)) :=
  Cert.Lib.ReadFinal.binary writes 185 rfl (by decide) (by decide) (by decide) V
theorem rd_main_cst_17 (V : Valuation τ sig (Elt F)) : after ops V (Proc.devRef .tc main_cst_17) = (constant S_ .f32 0x44400000#32) :=
  Cert.Lib.ReadFinal.nullary writes 186 rfl (by decide) V
theorem rd_main_v135 (V : Valuation τ sig (Elt F)) : after ops V (Proc.devRef .tc main_v135) = (broadcastInDim S768x128 ![] bcast_S_S768x128 : (⟨S_, .f32⟩ : BufTy).Contents (Elt F) → (⟨S768x128, .f32⟩ : BufTy).Contents (Elt F)) (after ops V (Proc.devRef .tc main_cst_17)) :=
  Cert.Lib.ReadFinal.unary writes 187 rfl (by decide) (by decide) V
theorem rd_main_v136 (V : Valuation τ sig (Elt F)) : after ops V (Proc.devRef .tc main_v136) = (Host.divf : (⟨S768x128, .f32⟩ : BufTy).Contents (Elt F) → (⟨S768x128, .f32⟩ : BufTy).Contents (Elt F) → (⟨S768x128, .f32⟩ : BufTy).Contents (Elt F)) (after ops V (Proc.devRef .tc main_v134)) (after ops V (Proc.devRef .tc main_v135)) :=
  Cert.Lib.ReadFinal.binary writes 188 rfl (by decide) (by decide) (by decide) V
theorem rd_main_v137 (V : Valuation τ sig (Elt F)) : after ops V (Proc.devRef .tc main_v137) = ((extractStridedSlice S1x128x128 ![1, 0, 0] · slices_S3x128x128_S1x128x128_1_0_0) : (⟨S3x128x128, .f32⟩ : BufTy).Contents (Elt F) → (⟨S1x128x128, .f32⟩ : BufTy).Contents (Elt F)) (after ops V (Proc.devRef .tc main_arg4)) :=
  Cert.Lib.ReadFinal.unary writes 189 rfl (by decide) (by decide) V
theorem rd_main_v138 (V : Valuation τ sig (Elt F)) : after ops V (Proc.devRef .tc main_v138) = fun i => shapeCast _ (after ops V (Proc.devRef .tc main_v137)) shapeCasts_S1x128x128_S128x128 i :=
  Cert.Lib.ReadFinal.reshape writes 190 rfl (by decide) (by decide) V
theorem rd_main_v139 (V : Valuation τ sig (Elt F)) : after ops V (Proc.devRef .tc main_v139) = ((fun l r => Host.dotGeneral dot_S768x128_S128x128_S768x128_1_0_0_1_n_n none l r) : (⟨S768x128, .f32⟩ : BufTy).Contents (Elt F) → (⟨S128x128, .f32⟩ : BufTy).Contents (Elt F) → (⟨S768x128, .f32⟩ : BufTy).Contents (Elt F)) (after ops V (Proc.devRef .tc main_v136)) (after ops V (Proc.devRef .tc main_v138)) :=
  Cert.Lib.ReadFinal.binary writes 191 rfl (by decide) (by decide) (by decide) V
theorem rd_main_v140 (V : Valuation τ sig (Elt F)) : after ops V (Proc.devRef .tc main_v140) = ((extractStridedSlice S1x128 ![1, 0] · slices_S3x128_S1x128_1_0) : (⟨S3x128, .f32⟩ : BufTy).Contents (Elt F) → (⟨S1x128, .f32⟩ : BufTy).Contents (Elt F)) (after ops V (Proc.devRef .tc main_arg5)) :=
  Cert.Lib.ReadFinal.unary writes 192 rfl (by decide) (by decide) V
theorem rd_main_v141 (V : Valuation τ sig (Elt F)) : after ops V (Proc.devRef .tc main_v141) = fun i => shapeCast _ (after ops V (Proc.devRef .tc main_v140)) shapeCasts_S1x128_S128 i :=
  Cert.Lib.ReadFinal.reshape writes 193 rfl (by decide) (by decide) V
theorem rd_main_v142 (V : Valuation τ sig (Elt F)) : after ops V (Proc.devRef .tc main_v142) = (broadcastInDim S1x128 ![1] bcast_S128_S1x128_1 : (⟨S128, .f32⟩ : BufTy).Contents (Elt F) → (⟨S1x128, .f32⟩ : BufTy).Contents (Elt F)) (after ops V (Proc.devRef .tc main_v141)) :=
  Cert.Lib.ReadFinal.unary writes 194 rfl (by decide) (by decide) V
theorem rd_main_v143 (V : Valuation τ sig (Elt F)) : after ops V (Proc.devRef .tc main_v143) = (broadcastInDim S768x128 ![0, 1] bcast_S1x128_S768x128_0_1 : (⟨S1x128, .f32⟩ : BufTy).Contents (Elt F) → (⟨S768x128, .f32⟩ : BufTy).Contents (Elt F)) (after ops V (Proc.devRef .tc main_v142)) :=
  Cert.Lib.ReadFinal.unary writes 195 rfl (by decide) (by decide) V
theorem rd_main_v144 (V : Valuation τ sig (Elt F)) : after ops V (Proc.devRef .tc main_v144) = (addf : (⟨S768x128, .f32⟩ : BufTy).Contents (Elt F) → (⟨S768x128, .f32⟩ : BufTy).Contents (Elt F) → (⟨S768x128, .f32⟩ : BufTy).Contents (Elt F)) (after ops V (Proc.devRef .tc main_v139)) (after ops V (Proc.devRef .tc main_v143)) :=
  Cert.Lib.ReadFinal.binary writes 196 rfl (by decide) (by decide) (by decide) V
theorem rd_main_v145 (V : Valuation τ sig (Elt F)) : after ops V (Proc.devRef .tc main_v145) = ((extractStridedSlice S1x257x1 ![1, 0, 0] · slices_S3x257x1_S1x257x1_1_0_0) : (⟨S3x257x1, .f32⟩ : BufTy).Contents (Elt F) → (⟨S1x257x1, .f32⟩ : BufTy).Contents (Elt F)) (after ops V (Proc.devRef .tc main_arg6)) :=
  Cert.Lib.ReadFinal.unary writes 197 rfl (by decide) (by decide) V
theorem rd_main_v146 (V : Valuation τ sig (Elt F)) : after ops V (Proc.devRef .tc main_v146) = fun i => shapeCast _ (after ops V (Proc.devRef .tc main_v145)) shapeCasts_S1x257x1_S257x1 i :=
  Cert.Lib.ReadFinal.reshape writes 198 rfl (by decide) (by decide) V
theorem rd_main_v147 (V : Valuation τ sig (Elt F)) : after ops V (Proc.devRef .tc main_v147) = ((extractStridedSlice S128x1 ![0, 0] · slices_S257x1_S128x1_0_0) : (⟨S257x1, .f32⟩ : BufTy).Contents (Elt F) → (⟨S128x1, .f32⟩ : BufTy).Contents (Elt F)) (after ops V (Proc.devRef .tc main_v146)) :=
  Cert.Lib.ReadFinal.unary writes 199 rfl (by decide) (by decide) V
theorem rd_main_v148 (V : Valuation τ sig (Elt F)) : after ops V (Proc.devRef .tc main_v148) = ((fun l r => Host.dotGeneral dot_S768x128_S128x1_S768x1_1_0_0_1_n_n none l r) : (⟨S768x128, .f32⟩ : BufTy).Contents (Elt F) → (⟨S128x1, .f32⟩ : BufTy).Contents (Elt F) → (⟨S768x1, .f32⟩ : BufTy).Contents (Elt F)) (after ops V (Proc.devRef .tc main_v94)) (after ops V (Proc.devRef .tc main_v147)) :=
  Cert.Lib.ReadFinal.binary writes 200 rfl (by decide) (by decide) (by decide) V
theorem rd_main_v149 (V : Valuation τ sig (Elt F)) : after ops V (Proc.devRef .tc main_v149) = (broadcastInDim S768x1x1 ![0, 2] bcast_S768x1_S768x1x1_0_2 : (⟨S768x1, .f32⟩ : BufTy).Contents (Elt F) → (⟨S768x1x1, .f32⟩ : BufTy).Contents (Elt F)) (after ops V (Proc.devRef .tc main_v148)) :=
  Cert.Lib.ReadFinal.unary writes 201 rfl (by decide) (by decide) V
theorem rd_main_v150 (V : Valuation τ sig (Elt F)) : after ops V (Proc.devRef .tc main_v150) = ((extractStridedSlice S128x1 ![128, 0] · slices_S257x1_S128x1_128_0) : (⟨S257x1, .f32⟩ : BufTy).Contents (Elt F) → (⟨S128x1, .f32⟩ : BufTy).Contents (Elt F)) (after ops V (Proc.devRef .tc main_v146)) :=
  Cert.Lib.ReadFinal.unary writes 202 rfl (by decide) (by decide) V
theorem rd_main_v151 (V : Valuation τ sig (Elt F)) : after ops V (Proc.devRef .tc main_v151) = ((fun l r => Host.dotGeneral dot_S768x128_S128x1_S768x1_1_0_0_1_n_n none l r) : (⟨S768x128, .f32⟩ : BufTy).Contents (Elt F) → (⟨S128x1, .f32⟩ : BufTy).Contents (Elt F) → (⟨S768x1, .f32⟩ : BufTy).Contents (Elt F)) (after ops V (Proc.devRef .tc main_v94)) (after ops V (Proc.devRef .tc main_v150)) :=
  Cert.Lib.ReadFinal.binary writes 203 rfl (by decide) (by decide) (by decide) V
theorem rd_main_v152 (V : Valuation τ sig (Elt F)) : after ops V (Proc.devRef .tc main_v152) = (broadcastInDim S1x768x1 ![1, 2] bcast_S768x1_S1x768x1_1_2 : (⟨S768x1, .f32⟩ : BufTy).Contents (Elt F) → (⟨S1x768x1, .f32⟩ : BufTy).Contents (Elt F)) (after ops V (Proc.devRef .tc main_v151)) :=
  Cert.Lib.ReadFinal.unary writes 204 rfl (by decide) (by decide) V
theorem rd_main_v153 (V : Valuation τ sig (Elt F)) : after ops V (Proc.devRef .tc main_v153) = (broadcastInDim S768x768x1 ![0, 1, 2] bcast_S768x1x1_S768x768x1_0_1_2 : (⟨S768x1x1, .f32⟩ : BufTy).Contents (Elt F) → (⟨S768x768x1, .f32⟩ : BufTy).Contents (Elt F)) (after ops V (Proc.devRef .tc main_v149)) :=
  Cert.Lib.ReadFinal.unary writes 205 rfl (by decide) (by decide) V
theorem rd_main_v154 (V : Valuation τ sig (Elt F)) : after ops V (Proc.devRef .tc main_v154) = (broadcastInDim S768x768x1 ![0, 1, 2] bcast_S1x768x1_S768x768x1_0_1_2 : (⟨S1x768x1, .f32⟩ : BufTy).Contents (Elt F) → (⟨S768x768x1, .f32⟩ : BufTy).Contents (Elt F)) (after ops V (Proc.devRef .tc main_v152)) :=
  Cert.Lib.ReadFinal.unary writes 206 rfl (by decide) (by decide) V
theorem rd_main_v155 (V : Valuation τ sig (Elt F)) : after ops V (Proc.devRef .tc main_v155) = (addf : (⟨S768x768x1, .f32⟩ : BufTy).Contents (Elt F) → (⟨S768x768x1, .f32⟩ : BufTy).Contents (Elt F) → (⟨S768x768x1, .f32⟩ : BufTy).Contents (Elt F)) (after ops V (Proc.devRef .tc main_v153)) (after ops V (Proc.devRef .tc main_v154)) :=
  Cert.Lib.ReadFinal.binary writes 207 rfl (by decide) (by decide) (by decide) V
theorem rd_main_v156 (V : Valuation τ sig (Elt F)) : after ops V (Proc.devRef .tc main_v156) = (broadcastInDim S768x768x1 ![0, 1] bcast_S768x768_S768x768x1_0_1 : (⟨S768x768, .f32⟩ : BufTy).Contents (Elt F) → (⟨S768x768x1, .f32⟩ : BufTy).Contents (Elt F)) (after ops V (Proc.devRef .tc main_v108)) :=
  Cert.Lib.ReadFinal.unary writes 208 rfl (by decide) (by decide) V
theorem rd_main_v157 (V : Valuation τ sig (Elt F)) : after ops V (Proc.devRef .tc main_v157) = ((extractStridedSlice S1x1 ![256, 0] · slices_S257x1_S1x1_256_0) : (⟨S257x1, .f32⟩ : BufTy).Contents (Elt F) → (⟨S1x1, .f32⟩ : BufTy).Contents (Elt F)) (after ops V (Proc.devRef .tc main_v146)) :=
  Cert.Lib.ReadFinal.unary writes 209 rfl (by decide) (by decide) V
theorem rd_main_v158 (V : Valuation τ sig (Elt F)) : after ops V (Proc.devRef .tc main_v158) = fun i => shapeCast _ (after ops V (Proc.devRef .tc main_v157)) shapeCasts_S1x1_S1 i :=
  Cert.Lib.ReadFinal.reshape writes 210 rfl (by decide) (by decide) V
theorem rd_main_v159 (V : Valuation τ sig (Elt F)) : after ops V (Proc.devRef .tc main_v159) = (broadcastInDim S1x1x1 ![2] bcast_S1_S1x1x1_2 : (⟨S1, .f32⟩ : BufTy).Contents (Elt F) → (⟨S1x1x1, .f32⟩ : BufTy).Contents (Elt F)) (after ops V (Proc.devRef .tc main_v158)) :=
  Cert.Lib.ReadFinal.unary writes 211 rfl (by decide) (by decide) V
theorem rd_main_v160 (V : Valuation τ sig (Elt F)) : after ops V (Proc.devRef .tc main_v160) = (broadcastInDim S768x768x1 ![0, 1, 2] bcast_S1x1x1_S768x768x1_0_1_2 : (⟨S1x1x1, .f32⟩ : BufTy).Contents (Elt F) → (⟨S768x768x1, .f32⟩ : BufTy).Contents (Elt F)) (after ops V (Proc.devRef .tc main_v159)) :=
  Cert.Lib.ReadFinal.unary writes 212 rfl (by decide) (by decide) V
theorem rd_main_v161 (V : Valuation τ sig (Elt F)) : after ops V (Proc.devRef .tc main_v161) = (mulf : (⟨S768x768x1, .f32⟩ : BufTy).Contents (Elt F) → (⟨S768x768x1, .f32⟩ : BufTy).Contents (Elt F) → (⟨S768x768x1, .f32⟩ : BufTy).Contents (Elt F)) (after ops V (Proc.devRef .tc main_v156)) (after ops V (Proc.devRef .tc main_v160)) :=
  Cert.Lib.ReadFinal.binary writes 213 rfl (by decide) (by decide) (by decide) V
theorem rd_main_v162 (V : Valuation τ sig (Elt F)) : after ops V (Proc.devRef .tc main_v162) = (addf : (⟨S768x768x1, .f32⟩ : BufTy).Contents (Elt F) → (⟨S768x768x1, .f32⟩ : BufTy).Contents (Elt F) → (⟨S768x768x1, .f32⟩ : BufTy).Contents (Elt F)) (after ops V (Proc.devRef .tc main_v155)) (after ops V (Proc.devRef .tc main_v161)) :=
  Cert.Lib.ReadFinal.binary writes 214 rfl (by decide) (by decide) (by decide) V
theorem rd_main_v163 (V : Valuation τ sig (Elt F)) : after ops V (Proc.devRef .tc main_v163) = ((extractStridedSlice S1x1 ![1, 0] · slices_S3x1_S1x1_1_0) : (⟨S3x1, .f32⟩ : BufTy).Contents (Elt F) → (⟨S1x1, .f32⟩ : BufTy).Contents (Elt F)) (after ops V (Proc.devRef .tc main_arg7)) :=
  Cert.Lib.ReadFinal.unary writes 215 rfl (by decide) (by decide) V
theorem rd_main_v164 (V : Valuation τ sig (Elt F)) : after ops V (Proc.devRef .tc main_v164) = fun i => shapeCast _ (after ops V (Proc.devRef .tc main_v163)) shapeCasts_S1x1_S1 i :=
  Cert.Lib.ReadFinal.reshape writes 216 rfl (by decide) (by decide) V
theorem rd_main_v165 (V : Valuation τ sig (Elt F)) : after ops V (Proc.devRef .tc main_v165) = (broadcastInDim S1x1x1 ![2] bcast_S1_S1x1x1_2 : (⟨S1, .f32⟩ : BufTy).Contents (Elt F) → (⟨S1x1x1, .f32⟩ : BufTy).Contents (Elt F)) (after ops V (Proc.devRef .tc main_v164)) :=
  Cert.Lib.ReadFinal.unary writes 217 rfl (by decide) (by decide) V
theorem rd_main_v166 (V : Valuation τ sig (Elt F)) : after ops V (Proc.devRef .tc main_v166) = (broadcastInDim S768x768x1 ![0, 1, 2] bcast_S1x1x1_S768x768x1_0_1_2 : (⟨S1x1x1, .f32⟩ : BufTy).Contents (Elt F) → (⟨S768x768x1, .f32⟩ : BufTy).Contents (Elt F)) (after ops V (Proc.devRef .tc main_v165)) :=
  Cert.Lib.ReadFinal.unary writes 218 rfl (by decide) (by decide) V
theorem rd_main_v167 (V : Valuation τ sig (Elt F)) : after ops V (Proc.devRef .tc main_v167) = (addf : (⟨S768x768x1, .f32⟩ : BufTy).Contents (Elt F) → (⟨S768x768x1, .f32⟩ : BufTy).Contents (Elt F) → (⟨S768x768x1, .f32⟩ : BufTy).Contents (Elt F)) (after ops V (Proc.devRef .tc main_v162)) (after ops V (Proc.devRef .tc main_v166)) :=
  Cert.Lib.ReadFinal.binary writes 219 rfl (by decide) (by decide) (by decide) V
theorem rd_main_call7_v0 (V : Valuation τ sig (Elt F)) : after ops V (Proc.devRef .tc main_call7_v0) = (Host.negf : (⟨S768x768x1, .f32⟩ : BufTy).Contents (Elt F) → (⟨S768x768x1, .f32⟩ : BufTy).Contents (Elt F)) (after ops V (Proc.devRef .tc main_v167)) :=
  Cert.Lib.ReadFinal.unary writes 220 rfl (by decide) (by decide) V
theorem rd_main_call7_v1 (V : Valuation τ sig (Elt F)) : after ops V (Proc.devRef .tc main_call7_v1) = (Host.exp : (⟨S768x768x1, .f32⟩ : BufTy).Contents (Elt F) → (⟨S768x768x1, .f32⟩ : BufTy).Contents (Elt F)) (after ops V (Proc.devRef .tc main_call7_v0)) :=
  Cert.Lib.ReadFinal.unary writes 221 rfl (by decide) (by decide) V
theorem rd_main_call7_cst (V : Valuation τ sig (Elt F)) : after ops V (Proc.devRef .tc main_call7_cst) = ((constant S_ .f32 0x3F800000#32) : (⟨S_, .f32⟩ : BufTy).Contents (Elt F)) :=
  Cert.Lib.ReadFinal.nullary writes 222 rfl (by decide) V
theorem rd_main_call7_v2 (V : Valuation τ sig (Elt F)) : after ops V (Proc.devRef .tc main_call7_v2) = ((broadcastInDim S768x768x1 ![] bcast_S_S768x768x1) : (⟨S_, .f32⟩ : BufTy).Contents (Elt F) → (⟨S768x768x1, .f32⟩ : BufTy).Contents (Elt F)) (after ops V (Proc.devRef .tc main_call7_cst)) :=
  Cert.Lib.ReadFinal.unary writes 223 rfl (by decide) (by decide) V
theorem rd_main_call7_v3 (V : Valuation τ sig (Elt F)) : after ops V (Proc.devRef .tc main_call7_v3) = (addf : (⟨S768x768x1, .f32⟩ : BufTy).Contents (Elt F) → (⟨S768x768x1, .f32⟩ : BufTy).Contents (Elt F) → (⟨S768x768x1, .f32⟩ : BufTy).Contents (Elt F)) (after ops V (Proc.devRef .tc main_call7_v2)) (after ops V (Proc.devRef .tc main_call7_v1)) :=
  Cert.Lib.ReadFinal.binary writes 224 rfl (by decide) (by decide) (by decide) V
theorem rd_main_call7_cst_0 (V : Valuation τ sig (Elt F)) : after ops V (Proc.devRef .tc main_call7_cst_0) = ((constant S_ .f32 0x3F800000#32) : (⟨S_, .f32⟩ : BufTy).Contents (Elt F)) :=
  Cert.Lib.ReadFinal.nullary writes 225 rfl (by decide) V
theorem rd_main_call7_v4 (V : Valuation τ sig (Elt F)) : after ops V (Proc.devRef .tc main_call7_v4) = ((broadcastInDim S768x768x1 ![] bcast_S_S768x768x1) : (⟨S_, .f32⟩ : BufTy).Contents (Elt F) → (⟨S768x768x1, .f32⟩ : BufTy).Contents (Elt F)) (after ops V (Proc.devRef .tc main_call7_cst_0)) :=
  Cert.Lib.ReadFinal.unary writes 226 rfl (by decide) (by decide) V
theorem rd_main_call7_v5 (V : Valuation τ sig (Elt F)) : after ops V (Proc.devRef .tc main_call7_v5) = (Host.divf : (⟨S768x768x1, .f32⟩ : BufTy).Contents (Elt F) → (⟨S768x768x1, .f32⟩ : BufTy).Contents (Elt F) → (⟨S768x768x1, .f32⟩ : BufTy).Contents (Elt F)) (after ops V (Proc.devRef .tc main_call7_v4)) (after ops V (Proc.devRef .tc main_call7_v3)) :=
  Cert.Lib.ReadFinal.binary writes 227 rfl (by decide) (by decide) (by decide) V
theorem rd_main_v168 (V : Valuation τ sig (Elt F)) : after ops V (Proc.devRef .tc main_v168) = (mulf : (⟨S768x768x1, .f32⟩ : BufTy).Contents (Elt F) → (⟨S768x768x1, .f32⟩ : BufTy).Contents (Elt F) → (⟨S768x768x1, .f32⟩ : BufTy).Contents (Elt F)) (after ops V (Proc.devRef .tc main_v167)) (after ops V (Proc.devRef .tc main_call7_v5)) :=
  Cert.Lib.ReadFinal.binary writes 228 rfl (by decide) (by decide) (by decide) V
theorem rd_main_v169 (V : Valuation τ sig (Elt F)) : after ops V (Proc.devRef .tc main_v169) = (broadcastInDim S768x768x3 ![0, 1, 2] bcast_S768x768x1_S768x768x3_0_1_2 : (⟨S768x768x1, .f32⟩ : BufTy).Contents (Elt F) → (⟨S768x768x3, .f32⟩ : BufTy).Contents (Elt F)) (after ops V (Proc.devRef .tc main_v168)) :=
  Cert.Lib.ReadFinal.unary writes 229 rfl (by decide) (by decide) V
theorem rd_main_v170 (V : Valuation τ sig (Elt F)) : after ops V (Proc.devRef .tc main_v170) = (mulf : (⟨S768x768x3, .f32⟩ : BufTy).Contents (Elt F) → (⟨S768x768x3, .f32⟩ : BufTy).Contents (Elt F) → (⟨S768x768x3, .f32⟩ : BufTy).Contents (Elt F)) (after ops V (Proc.devRef .tc main_v169)) (after ops V (Proc.devRef .tc main_v99)) :=
  Cert.Lib.ReadFinal.binary writes 230 rfl (by decide) (by decide) (by decide) V
theorem rd_main_cst_18 (V : Valuation τ sig (Elt F)) : after ops V (Proc.devRef .tc main_cst_18) = (constant S_ .f32 0x00000000#32) :=
  Cert.Lib.ReadFinal.nullary writes 231 rfl (by decide) V
theorem rd_main_v171 (V : Valuation τ sig (Elt F)) : after ops V (Proc.devRef .tc main_v171) = ((fun x v => Host.reduceAdd x v reducesTo_S768x768x3_S768x3_d1 h_S_) : (⟨S768x768x3, .f32⟩ : BufTy).Contents (Elt F) → (⟨S_, .f32⟩ : BufTy).Contents (Elt F) → (⟨S768x3, .f32⟩ : BufTy).Contents (Elt F)) (after ops V (Proc.devRef .tc main_v170)) (after ops V (Proc.devRef .tc main_cst_18)) :=
  Cert.Lib.ReadFinal.binary writes 232 rfl (by decide) (by decide) (by decide) V
theorem rd_main_cst_19 (V : Valuation τ sig (Elt F)) : after ops V (Proc.devRef .tc main_cst_19) = (constant S_ .f32 0x44400000#32) :=
  Cert.Lib.ReadFinal.nullary writes 233 rfl (by decide) V
theorem rd_main_v172 (V : Valuation τ sig (Elt F)) : after ops V (Proc.devRef .tc main_v172) = (broadcastInDim S768x3 ![] bcast_S_S768x3 : (⟨S_, .f32⟩ : BufTy).Contents (Elt F) → (⟨S768x3, .f32⟩ : BufTy).Contents (Elt F)) (after ops V (Proc.devRef .tc main_cst_19)) :=
  Cert.Lib.ReadFinal.unary writes 234 rfl (by decide) (by decide) V
theorem rd_main_v173 (V : Valuation τ sig (Elt F)) : after ops V (Proc.devRef .tc main_v173) = (Host.divf : (⟨S768x3, .f32⟩ : BufTy).Contents (Elt F) → (⟨S768x3, .f32⟩ : BufTy).Contents (Elt F) → (⟨S768x3, .f32⟩ : BufTy).Contents (Elt F)) (after ops V (Proc.devRef .tc main_v171)) (after ops V (Proc.devRef .tc main_v172)) :=
  Cert.Lib.ReadFinal.binary writes 235 rfl (by decide) (by decide) (by decide) V
theorem rd_main_v174 (V : Valuation τ sig (Elt F)) : after ops V (Proc.devRef .tc main_v174) = (addf : (⟨S768x3, .f32⟩ : BufTy).Contents (Elt F) → (⟨S768x3, .f32⟩ : BufTy).Contents (Elt F) → (⟨S768x3, .f32⟩ : BufTy).Contents (Elt F)) (after ops V (Proc.devRef .tc main_v93)) (after ops V (Proc.devRef .tc main_v173)) :=
  Cert.Lib.ReadFinal.binary writes 236 rfl (by decide) (by decide) (by decide) V
theorem rd_main_v175 (V : Valuation τ sig (Elt F)) : after ops V (Proc.devRef .tc main_v175) = (addf : (⟨S768x128, .f32⟩ : BufTy).Contents (Elt F) → (⟨S768x128, .f32⟩ : BufTy).Contents (Elt F) → (⟨S768x128, .f32⟩ : BufTy).Contents (Elt F)) (after ops V (Proc.devRef .tc main_v94)) (after ops V (Proc.devRef .tc main_v144)) :=
  Cert.Lib.ReadFinal.binary writes 237 rfl (by decide) (by decide) (by decide) V
theorem rd_main_v176 (V : Valuation τ sig (Elt F)) : after ops V (Proc.devRef .tc main_v176) = (broadcastInDim S768x1x3 ![0, 2] bcast_S768x3_S768x1x3_0_2 : (⟨S768x3, .f32⟩ : BufTy).Contents (Elt F) → (⟨S768x1x3, .f32⟩ : BufTy).Contents (Elt F)) (after ops V (Proc.devRef .tc main_v174)) :=
  Cert.Lib.ReadFinal.unary writes 238 rfl (by decide) (by decide) V
theorem rd_main_v177 (V : Valuation τ sig (Elt F)) : after ops V (Proc.devRef .tc main_v177) = (broadcastInDim S1x768x3 ![1, 2] bcast_S768x3_S1x768x3_1_2 : (⟨S768x3, .f32⟩ : BufTy).Contents (Elt F) → (⟨S1x768x3, .f32⟩ : BufTy).Contents (Elt F)) (after ops V (Proc.devRef .tc main_v174)) :=
  Cert.Lib.ReadFinal.unary writes 239 rfl (by decide) (by decide) V
theorem rd_main_v178 (V : Valuation τ sig (Elt F)) : after ops V (Proc.devRef .tc main_v178) = (broadcastInDim S768x768x3 ![0, 1, 2] bcast_S768x1x3_S768x768x3_0_1_2 : (⟨S768x1x3, .f32⟩ : BufTy).Contents (Elt F) → (⟨S768x768x3, .f32⟩ : BufTy).Contents (Elt F)) (after ops V (Proc.devRef .tc main_v176)) :=
  Cert.Lib.ReadFinal.unary writes 240 rfl (by decide) (by decide) V
theorem rd_main_v179 (V : Valuation τ sig (Elt F)) : after ops V (Proc.devRef .tc main_v179) = (broadcastInDim S768x768x3 ![0, 1, 2] bcast_S1x768x3_S768x768x3_0_1_2 : (⟨S1x768x3, .f32⟩ : BufTy).Contents (Elt F) → (⟨S768x768x3, .f32⟩ : BufTy).Contents (Elt F)) (after ops V (Proc.devRef .tc main_v177)) :=
  Cert.Lib.ReadFinal.unary writes 241 rfl (by decide) (by decide) V
theorem rd_main_v180 (V : Valuation τ sig (Elt F)) : after ops V (Proc.devRef .tc main_v180) = (subf : (⟨S768x768x3, .f32⟩ : BufTy).Contents (Elt F) → (⟨S768x768x3, .f32⟩ : BufTy).Contents (Elt F) → (⟨S768x768x3, .f32⟩ : BufTy).Contents (Elt F)) (after ops V (Proc.devRef .tc main_v178)) (after ops V (Proc.devRef .tc main_v179)) :=
  Cert.Lib.ReadFinal.binary writes 242 rfl (by decide) (by decide) (by decide) V
theorem rd_main_v181 (V : Valuation τ sig (Elt F)) : after ops V (Proc.devRef .tc main_v181) = (mulf : (⟨S768x768x3, .f32⟩ : BufTy).Contents (Elt F) → (⟨S768x768x3, .f32⟩ : BufTy).Contents (Elt F) → (⟨S768x768x3, .f32⟩ : BufTy).Contents (Elt F)) (after ops V (Proc.devRef .tc main_v180)) (after ops V (Proc.devRef .tc main_v180)) :=
  Cert.Lib.ReadFinal.binary writes 243 rfl (by decide) (by decide) (by decide) V
theorem rd_main_cst_20 (V : Valuation τ sig (Elt F)) : after ops V (Proc.devRef .tc main_cst_20) = (constant S_ .f32 0x00000000#32) :=
  Cert.Lib.ReadFinal.nullary writes 244 rfl (by decide) V
theorem rd_main_v182 (V : Valuation τ sig (Elt F)) : after ops V (Proc.devRef .tc main_v182) = ((fun x v => Host.reduceAdd x v reducesTo_S768x768x3_S768x768_d2 h_S_) : (⟨S768x768x3, .f32⟩ : BufTy).Contents (Elt F) → (⟨S_, .f32⟩ : BufTy).Contents (Elt F) → (⟨S768x768, .f32⟩ : BufTy).Contents (Elt F)) (after ops V (Proc.devRef .tc main_v181)) (after ops V (Proc.devRef .tc main_cst_20)) :=
  Cert.Lib.ReadFinal.binary writes 245 rfl (by decide) (by decide) (by decide) V
theorem rd_main_cst_21 (V : Valuation τ sig (Elt F)) : after ops V (Proc.devRef .tc main_cst_21) = (constant S_ .f32 0x00000000#32) :=
  Cert.Lib.ReadFinal.nullary writes 246 rfl (by decide) V
theorem rd_main_v183 (V : Valuation τ sig (Elt F)) : after ops V (Proc.devRef .tc main_v183) = (broadcastInDim S768x768 ![] bcast_S_S768x768 : (⟨S_, .f32⟩ : BufTy).Contents (Elt F) → (⟨S768x768, .f32⟩ : BufTy).Contents (Elt F)) (after ops V (Proc.devRef .tc main_cst_21)) :=
  Cert.Lib.ReadFinal.unary writes 247 rfl (by decide) (by decide) V
theorem rd_main_v184 (V : Valuation τ sig (Elt F)) : after ops V (Proc.devRef .tc main_v184) = (cmpf .ogt : (⟨S768x768, .f32⟩ : BufTy).Contents (Elt F) → (⟨S768x768, .f32⟩ : BufTy).Contents (Elt F) → (⟨S768x768, .i1⟩ : BufTy).Contents (Elt F)) (after ops V (Proc.devRef .tc main_v182)) (after ops V (Proc.devRef .tc main_v183)) :=
  Cert.Lib.ReadFinal.binary writes 248 rfl (by decide) (by decide) (by decide) V
theorem rd_main_cst_22 (V : Valuation τ sig (Elt F)) : after ops V (Proc.devRef .tc main_cst_22) = (constant S_ .f32 0x3F800000#32) :=
  Cert.Lib.ReadFinal.nullary writes 249 rfl (by decide) V
theorem rd_main_call8_v0 (V : Valuation τ sig (Elt F)) : after ops V (Proc.devRef .tc main_call8_v0) = (id : (⟨S_, .f32⟩ : BufTy).Contents (Elt F) → (⟨S_, .f32⟩ : BufTy).Contents (Elt F)) (after ops V (Proc.devRef .tc main_cst_22)) :=
  Cert.Lib.ReadFinal.unary writes 250 rfl (by decide) (by decide) V
theorem rd_main_call8_v1 (V : Valuation τ sig (Elt F)) : after ops V (Proc.devRef .tc main_call8_v1) = ((broadcastInDim S768x768 ![] bcast_S_S768x768) : (⟨S_, .f32⟩ : BufTy).Contents (Elt F) → (⟨S768x768, .f32⟩ : BufTy).Contents (Elt F)) (after ops V (Proc.devRef .tc main_call8_v0)) :=
  Cert.Lib.ReadFinal.unary writes 251 rfl (by decide) (by decide) V
theorem rd_main_v185 (V : Valuation τ sig (Elt F)) : after ops V (Proc.devRef .tc main_v185) = (select : (⟨S768x768, .i1⟩ : BufTy).Contents (Elt F) → (⟨S768x768, .f32⟩ : BufTy).Contents (Elt F) → (⟨S768x768, .f32⟩ : BufTy).Contents (Elt F) → (⟨S768x768, .f32⟩ : BufTy).Contents (Elt F)) (after ops V (Proc.devRef .tc main_v184)) (after ops V (Proc.devRef .tc main_v182)) (after ops V (Proc.devRef .tc main_call8_v1)) :=
  Cert.Lib.ReadFinal.ternary writes 252 rfl (by decide) (by decide) (by decide) (by decide) V
theorem rd_main_v186 (V : Valuation τ sig (Elt F)) : after ops V (Proc.devRef .tc main_v186) = (Host.sqrt : (⟨S768x768, .f32⟩ : BufTy).Contents (Elt F) → (⟨S768x768, .f32⟩ : BufTy).Contents (Elt F)) (after ops V (Proc.devRef .tc main_v185)) :=
  Cert.Lib.ReadFinal.unary writes 253 rfl (by decide) (by decide) V
theorem rd_main_cst_23 (V : Valuation τ sig (Elt F)) : after ops V (Proc.devRef .tc main_cst_23) = (constant S_ .f32 0x00000000#32) :=
  Cert.Lib.ReadFinal.nullary writes 254 rfl (by decide) V
theorem rd_main_v187 (V : Valuation τ sig (Elt F)) : after ops V (Proc.devRef .tc main_v187) = (broadcastInDim S768x768 ![] bcast_S_S768x768 : (⟨S_, .f32⟩ : BufTy).Contents (Elt F) → (⟨S768x768, .f32⟩ : BufTy).Contents (Elt F)) (after ops V (Proc.devRef .tc main_cst_23)) :=
  Cert.Lib.ReadFinal.unary writes 255 rfl (by decide) (by decide) V
theorem rd_main_v188 (V : Valuation τ sig (Elt F)) : after ops V (Proc.devRef .tc main_v188) = (cmpf .ogt : (⟨S768x768, .f32⟩ : BufTy).Contents (Elt F) → (⟨S768x768, .f32⟩ : BufTy).Contents (Elt F) → (⟨S768x768, .i1⟩ : BufTy).Contents (Elt F)) (after ops V (Proc.devRef .tc main_v182)) (after ops V (Proc.devRef .tc main_v187)) :=
  Cert.Lib.ReadFinal.binary writes 256 rfl (by decide) (by decide) (by decide) V
theorem rd_main_cst_24 (V : Valuation τ sig (Elt F)) : after ops V (Proc.devRef .tc main_cst_24) = (constant S_ .f32 0x00000000#32) :=
  Cert.Lib.ReadFinal.nullary writes 257 rfl (by decide) V
theorem rd_main_call9_v0 (V : Valuation τ sig (Elt F)) : after ops V (Proc.devRef .tc main_call9_v0) = (id : (⟨S_, .f32⟩ : BufTy).Contents (Elt F) → (⟨S_, .f32⟩ : BufTy).Contents (Elt F)) (after ops V (Proc.devRef .tc main_cst_24)) :=
  Cert.Lib.ReadFinal.unary writes 258 rfl (by decide) (by decide) V
theorem rd_main_call9_v1 (V : Valuation τ sig (Elt F)) : after ops V (Proc.devRef .tc main_call9_v1) = ((broadcastInDim S768x768 ![] bcast_S_S768x768) : (⟨S_, .f32⟩ : BufTy).Contents (Elt F) → (⟨S768x768, .f32⟩ : BufTy).Contents (Elt F)) (after ops V (Proc.devRef .tc main_call9_v0)) :=
  Cert.Lib.ReadFinal.unary writes 259 rfl (by decide) (by decide) V
theorem rd_main_v189 (V : Valuation τ sig (Elt F)) : after ops V (Proc.devRef .tc main_v189) = (select : (⟨S768x768, .i1⟩ : BufTy).Contents (Elt F) → (⟨S768x768, .f32⟩ : BufTy).Contents (Elt F) → (⟨S768x768, .f32⟩ : BufTy).Contents (Elt F) → (⟨S768x768, .f32⟩ : BufTy).Contents (Elt F)) (after ops V (Proc.devRef .tc main_v188)) (after ops V (Proc.devRef .tc main_v186)) (after ops V (Proc.devRef .tc main_call9_v1)) :=
  Cert.Lib.ReadFinal.ternary writes 260 rfl (by decide) (by decide) (by decide) (by decide) V
theorem rd_main_v190 (V : Valuation τ sig (Elt F)) : after ops V (Proc.devRef .tc main_v190) = ((extractStridedSlice S1x257x128 ![2, 0, 0] · slices_S3x257x128_S1x257x128_2_0_0) : (⟨S3x257x128, .f32⟩ : BufTy).Contents (Elt F) → (⟨S1x257x128, .f32⟩ : BufTy).Contents (Elt F)) (after ops V (Proc.devRef .tc main_arg2)) :=
  Cert.Lib.ReadFinal.unary writes 261 rfl (by decide) (by decide) V
theorem rd_main_v191 (V : Valuation τ sig (Elt F)) : after ops V (Proc.devRef .tc main_v191) = fun i => shapeCast _ (after ops V (Proc.devRef .tc main_v190)) shapeCasts_S1x257x128_S257x128 i :=
  Cert.Lib.ReadFinal.reshape writes 262 rfl (by decide) (by decide) V
theorem rd_main_v192 (V : Valuation τ sig (Elt F)) : after ops V (Proc.devRef .tc main_v192) = ((extractStridedSlice S128x128 ![0, 0] · slices_S257x128_S128x128_0_0) : (⟨S257x128, .f32⟩ : BufTy).Contents (Elt F) → (⟨S128x128, .f32⟩ : BufTy).Contents (Elt F)) (after ops V (Proc.devRef .tc main_v191)) :=
  Cert.Lib.ReadFinal.unary writes 263 rfl (by decide) (by decide) V
theorem rd_main_v193 (V : Valuation τ sig (Elt F)) : after ops V (Proc.devRef .tc main_v193) = ((fun l r => Host.dotGeneral dot_S768x128_S128x128_S768x128_1_0_0_1_n_n none l r) : (⟨S768x128, .f32⟩ : BufTy).Contents (Elt F) → (⟨S128x128, .f32⟩ : BufTy).Contents (Elt F) → (⟨S768x128, .f32⟩ : BufTy).Contents (Elt F)) (after ops V (Proc.devRef .tc main_v175)) (after ops V (Proc.devRef .tc main_v192)) :=
  Cert.Lib.ReadFinal.binary writes 264 rfl (by decide) (by decide) (by decide) V
theorem rd_main_v194 (V : Valuation τ sig (Elt F)) : after ops V (Proc.devRef .tc main_v194) = (broadcastInDim S768x1x128 ![0, 2] bcast_S768x128_S768x1x128_0_2 : (⟨S768x128, .f32⟩ : BufTy).Contents (Elt F) → (⟨S768x1x128, .f32⟩ : BufTy).Contents (Elt F)) (after ops V (Proc.devRef .tc main_v193)) :=
  Cert.Lib.ReadFinal.unary writes 265 rfl (by decide) (by decide) V
theorem rd_main_v195 (V : Valuation τ sig (Elt F)) : after ops V (Proc.devRef .tc main_v195) = ((extractStridedSlice S128x128 ![128, 0] · slices_S257x128_S128x128_128_0) : (⟨S257x128, .f32⟩ : BufTy).Contents (Elt F) → (⟨S128x128, .f32⟩ : BufTy).Contents (Elt F)) (after ops V (Proc.devRef .tc main_v191)) :=
  Cert.Lib.ReadFinal.unary writes 266 rfl (by decide) (by decide) V
theorem rd_main_v196 (V : Valuation τ sig (Elt F)) : after ops V (Proc.devRef .tc main_v196) = ((fun l r => Host.dotGeneral dot_S768x128_S128x128_S768x128_1_0_0_1_n_n none l r) : (⟨S768x128, .f32⟩ : BufTy).Contents (Elt F) → (⟨S128x128, .f32⟩ : BufTy).Contents (Elt F) → (⟨S768x128, .f32⟩ : BufTy).Contents (Elt F)) (after ops V (Proc.devRef .tc main_v175)) (after ops V (Proc.devRef .tc main_v195)) :=
  Cert.Lib.ReadFinal.binary writes 267 rfl (by decide) (by decide) (by decide) V
theorem rd_main_v197 (V : Valuation τ sig (Elt F)) : after ops V (Proc.devRef .tc main_v197) = (broadcastInDim S1x768x128 ![1, 2] bcast_S768x128_S1x768x128_1_2 : (⟨S768x128, .f32⟩ : BufTy).Contents (Elt F) → (⟨S1x768x128, .f32⟩ : BufTy).Contents (Elt F)) (after ops V (Proc.devRef .tc main_v196)) :=
  Cert.Lib.ReadFinal.unary writes 268 rfl (by decide) (by decide) V
theorem rd_main_v198 (V : Valuation τ sig (Elt F)) : after ops V (Proc.devRef .tc main_v198) = (broadcastInDim S768x768x128 ![0, 1, 2] bcast_S768x1x128_S768x768x128_0_1_2 : (⟨S768x1x128, .f32⟩ : BufTy).Contents (Elt F) → (⟨S768x768x128, .f32⟩ : BufTy).Contents (Elt F)) (after ops V (Proc.devRef .tc main_v194)) :=
  Cert.Lib.ReadFinal.unary writes 269 rfl (by decide) (by decide) V
theorem rd_main_v199 (V : Valuation τ sig (Elt F)) : after ops V (Proc.devRef .tc main_v199) = (broadcastInDim S768x768x128 ![0, 1, 2] bcast_S1x768x128_S768x768x128_0_1_2 : (⟨S1x768x128, .f32⟩ : BufTy).Contents (Elt F) → (⟨S768x768x128, .f32⟩ : BufTy).Contents (Elt F)) (after ops V (Proc.devRef .tc main_v197)) :=
  Cert.Lib.ReadFinal.unary writes 270 rfl (by decide) (by decide) V
theorem rd_main_v200 (V : Valuation τ sig (Elt F)) : after ops V (Proc.devRef .tc main_v200) = (addf : (⟨S768x768x128, .f32⟩ : BufTy).Contents (Elt F) → (⟨S768x768x128, .f32⟩ : BufTy).Contents (Elt F) → (⟨S768x768x128, .f32⟩ : BufTy).Contents (Elt F)) (after ops V (Proc.devRef .tc main_v198)) (after ops V (Proc.devRef .tc main_v199)) :=
  Cert.Lib.ReadFinal.binary writes 271 rfl (by decide) (by decide) (by decide) V
theorem rd_main_v201 (V : Valuation τ sig (Elt F)) : after ops V (Proc.devRef .tc main_v201) = (broadcastInDim S768x768x1 ![0, 1] bcast_S768x768_S768x768x1_0_1 : (⟨S768x768, .f32⟩ : BufTy).Contents (Elt F) → (⟨S768x768x1, .f32⟩ : BufTy).Contents (Elt F)) (after ops V (Proc.devRef .tc main_v189)) :=
  Cert.Lib.ReadFinal.unary writes 272 rfl (by decide) (by decide) V
theorem rd_main_v202 (V : Valuation τ sig (Elt F)) : after ops V (Proc.devRef .tc main_v202) = ((extractStridedSlice S1x128 ![256, 0] · slices_S257x128_S1x128_256_0) : (⟨S257x128, .f32⟩ : BufTy).Contents (Elt F) → (⟨S1x128, .f32⟩ : BufTy).Contents (Elt F)) (after ops V (Proc.devRef .tc main_v191)) :=
  Cert.Lib.ReadFinal.unary writes 273 rfl (by decide) (by decide) V
theorem rd_main_v203 (V : Valuation τ sig (Elt F)) : after ops V (Proc.devRef .tc main_v203) = fun i => shapeCast _ (after ops V (Proc.devRef .tc main_v202)) shapeCasts_S1x128_S128 i :=
  Cert.Lib.ReadFinal.reshape writes 274 rfl (by decide) (by decide) V
theorem rd_main_v204 (V : Valuation τ sig (Elt F)) : after ops V (Proc.devRef .tc main_v204) = (broadcastInDim S1x1x128 ![2] bcast_S128_S1x1x128_2 : (⟨S128, .f32⟩ : BufTy).Contents (Elt F) → (⟨S1x1x128, .f32⟩ : BufTy).Contents (Elt F)) (after ops V (Proc.devRef .tc main_v203)) :=
  Cert.Lib.ReadFinal.unary writes 275 rfl (by decide) (by decide) V
theorem rd_main_v205 (V : Valuation τ sig (Elt F)) : after ops V (Proc.devRef .tc main_v205) = (broadcastInDim S768x768x128 ![0, 1, 2] bcast_S768x768x1_S768x768x128_0_1_2 : (⟨S768x768x1, .f32⟩ : BufTy).Contents (Elt F) → (⟨S768x768x128, .f32⟩ : BufTy).Contents (Elt F)) (after ops V (Proc.devRef .tc main_v201)) :=
  Cert.Lib.ReadFinal.unary writes 276 rfl (by decide) (by decide) V
theorem rd_main_v206 (V : Valuation τ sig (Elt F)) : after ops V (Proc.devRef .tc main_v206) = (broadcastInDim S768x768x128 ![0, 1, 2] bcast_S1x1x128_S768x768x128_0_1_2 : (⟨S1x1x128, .f32⟩ : BufTy).Contents (Elt F) → (⟨S768x768x128, .f32⟩ : BufTy).Contents (Elt F)) (after ops V (Proc.devRef .tc main_v204)) :=
  Cert.Lib.ReadFinal.unary writes 277 rfl (by decide) (by decide) V
theorem rd_main_v207 (V : Valuation τ sig (Elt F)) : after ops V (Proc.devRef .tc main_v207) = (mulf : (⟨S768x768x128, .f32⟩ : BufTy).Contents (Elt F) → (⟨S768x768x128, .f32⟩ : BufTy).Contents (Elt F) → (⟨S768x768x128, .f32⟩ : BufTy).Contents (Elt F)) (after ops V (Proc.devRef .tc main_v205)) (after ops V (Proc.devRef .tc main_v206)) :=
  Cert.Lib.ReadFinal.binary writes 278 rfl (by decide) (by decide) (by decide) V
theorem rd_main_v208 (V : Valuation τ sig (Elt F)) : after ops V (Proc.devRef .tc main_v208) = (addf : (⟨S768x768x128, .f32⟩ : BufTy).Contents (Elt F) → (⟨S768x768x128, .f32⟩ : BufTy).Contents (Elt F) → (⟨S768x768x128, .f32⟩ : BufTy).Contents (Elt F)) (after ops V (Proc.devRef .tc main_v200)) (after ops V (Proc.devRef .tc main_v207)) :=
  Cert.Lib.ReadFinal.binary writes 279 rfl (by decide) (by decide) (by decide) V
theorem rd_main_v209 (V : Valuation τ sig (Elt F)) : after ops V (Proc.devRef .tc main_v209) = ((extractStridedSlice S1x128 ![2, 0] · slices_S3x128_S1x128_2_0) : (⟨S3x128, .f32⟩ : BufTy).Contents (Elt F) → (⟨S1x128, .f32⟩ : BufTy).Contents (Elt F)) (after ops V (Proc.devRef .tc main_arg3)) :=
  Cert.Lib.ReadFinal.unary writes 280 rfl (by decide) (by decide) V
theorem rd_main_v210 (V : Valuation τ sig (Elt F)) : after ops V (Proc.devRef .tc main_v210) = fun i => shapeCast _ (after ops V (Proc.devRef .tc main_v209)) shapeCasts_S1x128_S128 i :=
  Cert.Lib.ReadFinal.reshape writes 281 rfl (by decide) (by decide) V
theorem rd_main_v211 (V : Valuation τ sig (Elt F)) : after ops V (Proc.devRef .tc main_v211) = (broadcastInDim S1x1x128 ![2] bcast_S128_S1x1x128_2 : (⟨S128, .f32⟩ : BufTy).Contents (Elt F) → (⟨S1x1x128, .f32⟩ : BufTy).Contents (Elt F)) (after ops V (Proc.devRef .tc main_v210)) :=
  Cert.Lib.ReadFinal.unary writes 282 rfl (by decide) (by decide) V
theorem rd_main_v212 (V : Valuation τ sig (Elt F)) : after ops V (Proc.devRef .tc main_v212) = (broadcastInDim S768x768x128 ![0, 1, 2] bcast_S1x1x128_S768x768x128_0_1_2 : (⟨S1x1x128, .f32⟩ : BufTy).Contents (Elt F) → (⟨S768x768x128, .f32⟩ : BufTy).Contents (Elt F)) (after ops V (Proc.devRef .tc main_v211)) :=
  Cert.Lib.ReadFinal.unary writes 283 rfl (by decide) (by decide) V
theorem rd_main_v213 (V : Valuation τ sig (Elt F)) : after ops V (Proc.devRef .tc main_v213) = (addf : (⟨S768x768x128, .f32⟩ : BufTy).Contents (Elt F) → (⟨S768x768x128, .f32⟩ : BufTy).Contents (Elt F) → (⟨S768x768x128, .f32⟩ : BufTy).Contents (Elt F)) (after ops V (Proc.devRef .tc main_v208)) (after ops V (Proc.devRef .tc main_v212)) :=
  Cert.Lib.ReadFinal.binary writes 284 rfl (by decide) (by decide) (by decide) V
theorem rd_main_call10_v0 (V : Valuation τ sig (Elt F)) : after ops V (Proc.devRef .tc main_call10_v0) = (Host.negf : (⟨S768x768x128, .f32⟩ : BufTy).Contents (Elt F) → (⟨S768x768x128, .f32⟩ : BufTy).Contents (Elt F)) (after ops V (Proc.devRef .tc main_v213)) :=
  Cert.Lib.ReadFinal.unary writes 285 rfl (by decide) (by decide) V
theorem rd_main_call10_v1 (V : Valuation τ sig (Elt F)) : after ops V (Proc.devRef .tc main_call10_v1) = (Host.exp : (⟨S768x768x128, .f32⟩ : BufTy).Contents (Elt F) → (⟨S768x768x128, .f32⟩ : BufTy).Contents (Elt F)) (after ops V (Proc.devRef .tc main_call10_v0)) :=
  Cert.Lib.ReadFinal.unary writes 286 rfl (by decide) (by decide) V
theorem rd_main_call10_cst (V : Valuation τ sig (Elt F)) : after ops V (Proc.devRef .tc main_call10_cst) = ((constant S_ .f32 0x3F800000#32) : (⟨S_, .f32⟩ : BufTy).Contents (Elt F)) :=
  Cert.Lib.ReadFinal.nullary writes 287 rfl (by decide) V
theorem rd_main_call10_v2 (V : Valuation τ sig (Elt F)) : after ops V (Proc.devRef .tc main_call10_v2) = ((broadcastInDim S768x768x128 ![] bcast_S_S768x768x128) : (⟨S_, .f32⟩ : BufTy).Contents (Elt F) → (⟨S768x768x128, .f32⟩ : BufTy).Contents (Elt F)) (after ops V (Proc.devRef .tc main_call10_cst)) :=
  Cert.Lib.ReadFinal.unary writes 288 rfl (by decide) (by decide) V
theorem rd_main_call10_v3 (V : Valuation τ sig (Elt F)) : after ops V (Proc.devRef .tc main_call10_v3) = (addf : (⟨S768x768x128, .f32⟩ : BufTy).Contents (Elt F) → (⟨S768x768x128, .f32⟩ : BufTy).Contents (Elt F) → (⟨S768x768x128, .f32⟩ : BufTy).Contents (Elt F)) (after ops V (Proc.devRef .tc main_call10_v2)) (after ops V (Proc.devRef .tc main_call10_v1)) :=
  Cert.Lib.ReadFinal.binary writes 289 rfl (by decide) (by decide) (by decide) V
theorem rd_main_call10_cst_0 (V : Valuation τ sig (Elt F)) : after ops V (Proc.devRef .tc main_call10_cst_0) = ((constant S_ .f32 0x3F800000#32) : (⟨S_, .f32⟩ : BufTy).Contents (Elt F)) :=
  Cert.Lib.ReadFinal.nullary writes 290 rfl (by decide) V
theorem rd_main_call10_v4 (V : Valuation τ sig (Elt F)) : after ops V (Proc.devRef .tc main_call10_v4) = ((broadcastInDim S768x768x128 ![] bcast_S_S768x768x128) : (⟨S_, .f32⟩ : BufTy).Contents (Elt F) → (⟨S768x768x128, .f32⟩ : BufTy).Contents (Elt F)) (after ops V (Proc.devRef .tc main_call10_cst_0)) :=
  Cert.Lib.ReadFinal.unary writes 291 rfl (by decide) (by decide) V
theorem rd_main_call10_v5 (V : Valuation τ sig (Elt F)) : after ops V (Proc.devRef .tc main_call10_v5) = (Host.divf : (⟨S768x768x128, .f32⟩ : BufTy).Contents (Elt F) → (⟨S768x768x128, .f32⟩ : BufTy).Contents (Elt F) → (⟨S768x768x128, .f32⟩ : BufTy).Contents (Elt F)) (after ops V (Proc.devRef .tc main_call10_v4)) (after ops V (Proc.devRef .tc main_call10_v3)) :=
  Cert.Lib.ReadFinal.binary writes 292 rfl (by decide) (by decide) (by decide) V
theorem rd_main_v214 (V : Valuation τ sig (Elt F)) : after ops V (Proc.devRef .tc main_v214) = (mulf : (⟨S768x768x128, .f32⟩ : BufTy).Contents (Elt F) → (⟨S768x768x128, .f32⟩ : BufTy).Contents (Elt F) → (⟨S768x768x128, .f32⟩ : BufTy).Contents (Elt F)) (after ops V (Proc.devRef .tc main_v213)) (after ops V (Proc.devRef .tc main_call10_v5)) :=
  Cert.Lib.ReadFinal.binary writes 293 rfl (by decide) (by decide) (by decide) V
theorem rd_main_cst_25 (V : Valuation τ sig (Elt F)) : after ops V (Proc.devRef .tc main_cst_25) = (constant S_ .f32 0x00000000#32) :=
  Cert.Lib.ReadFinal.nullary writes 294 rfl (by decide) V
theorem rd_main_v215 (V : Valuation τ sig (Elt F)) : after ops V (Proc.devRef .tc main_v215) = ((fun x v => Host.reduceAdd x v reducesTo_S768x768x128_S768x128_d1 h_S_) : (⟨S768x768x128, .f32⟩ : BufTy).Contents (Elt F) → (⟨S_, .f32⟩ : BufTy).Contents (Elt F) → (⟨S768x128, .f32⟩ : BufTy).Contents (Elt F)) (after ops V (Proc.devRef .tc main_v214)) (after ops V (Proc.devRef .tc main_cst_25)) :=
  Cert.Lib.ReadFinal.binary writes 295 rfl (by decide) (by decide) (by decide) V
theorem rd_main_cst_26 (V : Valuation τ sig (Elt F)) : after ops V (Proc.devRef .tc main_cst_26) = (constant S_ .f32 0x44400000#32) :=
  Cert.Lib.ReadFinal.nullary writes 296 rfl (by decide) V
theorem rd_main_v216 (V : Valuation τ sig (Elt F)) : after ops V (Proc.devRef .tc main_v216) = (broadcastInDim S768x128 ![] bcast_S_S768x128 : (⟨S_, .f32⟩ : BufTy).Contents (Elt F) → (⟨S768x128, .f32⟩ : BufTy).Contents (Elt F)) (after ops V (Proc.devRef .tc main_cst_26)) :=
  Cert.Lib.ReadFinal.unary writes 297 rfl (by decide) (by decide) V
theorem rd_main_v217 (V : Valuation τ sig (Elt F)) : after ops V (Proc.devRef .tc main_v217) = (Host.divf : (⟨S768x128, .f32⟩ : BufTy).Contents (Elt F) → (⟨S768x128, .f32⟩ : BufTy).Contents (Elt F) → (⟨S768x128, .f32⟩ : BufTy).Contents (Elt F)) (after ops V (Proc.devRef .tc main_v215)) (after ops V (Proc.devRef .tc main_v216)) :=
  Cert.Lib.ReadFinal.binary writes 298 rfl (by decide) (by decide) (by decide) V
theorem rd_main_v218 (V : Valuation τ sig (Elt F)) : after ops V (Proc.devRef .tc main_v218) = ((extractStridedSlice S1x128x128 ![2, 0, 0] · slices_S3x128x128_S1x128x128_2_0_0) : (⟨S3x128x128, .f32⟩ : BufTy).Contents (Elt F) → (⟨S1x128x128, .f32⟩ : BufTy).Contents (Elt F)) (after ops V (Proc.devRef .tc main_arg4)) :=
  Cert.Lib.ReadFinal.unary writes 299 rfl (by decide) (by decide) V
theorem rd_main_v219 (V : Valuation τ sig (Elt F)) : after ops V (Proc.devRef .tc main_v219) = fun i => shapeCast _ (after ops V (Proc.devRef .tc main_v218)) shapeCasts_S1x128x128_S128x128 i :=
  Cert.Lib.ReadFinal.reshape writes 300 rfl (by decide) (by decide) V
theorem rd_main_v220 (V : Valuation τ sig (Elt F)) : after ops V (Proc.devRef .tc main_v220) = ((fun l r => Host.dotGeneral dot_S768x128_S128x128_S768x128_1_0_0_1_n_n none l r) : (⟨S768x128, .f32⟩ : BufTy).Contents (Elt F) → (⟨S128x128, .f32⟩ : BufTy).Contents (Elt F) → (⟨S768x128, .f32⟩ : BufTy).Contents (Elt F)) (after ops V (Proc.devRef .tc main_v217)) (after ops V (Proc.devRef .tc main_v219)) :=
  Cert.Lib.ReadFinal.binary writes 301 rfl (by decide) (by decide) (by decide) V
theorem rd_main_v221 (V : Valuation τ sig (Elt F)) : after ops V (Proc.devRef .tc main_v221) = ((extractStridedSlice S1x128 ![2, 0] · slices_S3x128_S1x128_2_0) : (⟨S3x128, .f32⟩ : BufTy).Contents (Elt F) → (⟨S1x128, .f32⟩ : BufTy).Contents (Elt F)) (after ops V (Proc.devRef .tc main_arg5)) :=
  Cert.Lib.ReadFinal.unary writes 302 rfl (by decide) (by decide) V
theorem rd_main_v222 (V : Valuation τ sig (Elt F)) : after ops V (Proc.devRef .tc main_v222) = fun i => shapeCast _ (after ops V (Proc.devRef .tc main_v221)) shapeCasts_S1x128_S128 i :=
  Cert.Lib.ReadFinal.reshape writes 303 rfl (by decide) (by decide) V
theorem rd_main_v223 (V : Valuation τ sig (Elt F)) : after ops V (Proc.devRef .tc main_v223) = (broadcastInDim S1x128 ![1] bcast_S128_S1x128_1 : (⟨S128, .f32⟩ : BufTy).Contents (Elt F) → (⟨S1x128, .f32⟩ : BufTy).Contents (Elt F)) (after ops V (Proc.devRef .tc main_v222)) :=
  Cert.Lib.ReadFinal.unary writes 304 rfl (by decide) (by decide) V
theorem rd_main_v224 (V : Valuation τ sig (Elt F)) : after ops V (Proc.devRef .tc main_v224) = (broadcastInDim S768x128 ![0, 1] bcast_S1x128_S768x128_0_1 : (⟨S1x128, .f32⟩ : BufTy).Contents (Elt F) → (⟨S768x128, .f32⟩ : BufTy).Contents (Elt F)) (after ops V (Proc.devRef .tc main_v223)) :=
  Cert.Lib.ReadFinal.unary writes 305 rfl (by decide) (by decide) V
theorem rd_main_v225 (V : Valuation τ sig (Elt F)) : after ops V (Proc.devRef .tc main_v225) = (addf : (⟨S768x128, .f32⟩ : BufTy).Contents (Elt F) → (⟨S768x128, .f32⟩ : BufTy).Contents (Elt F) → (⟨S768x128, .f32⟩ : BufTy).Contents (Elt F)) (after ops V (Proc.devRef .tc main_v220)) (after ops V (Proc.devRef .tc main_v224)) :=
  Cert.Lib.ReadFinal.binary writes 306 rfl (by decide) (by decide) (by decide) V
theorem rd_main_v226 (V : Valuation τ sig (Elt F)) : after ops V (Proc.devRef .tc main_v226) = ((extractStridedSlice S1x257x1 ![2, 0, 0] · slices_S3x257x1_S1x257x1_2_0_0) : (⟨S3x257x1, .f32⟩ : BufTy).Contents (Elt F) → (⟨S1x257x1, .f32⟩ : BufTy).Contents (Elt F)) (after ops V (Proc.devRef .tc main_arg6)) :=
  Cert.Lib.ReadFinal.unary writes 307 rfl (by decide) (by decide) V
theorem rd_main_v227 (V : Valuation τ sig (Elt F)) : after ops V (Proc.devRef .tc main_v227) = fun i => shapeCast _ (after ops V (Proc.devRef .tc main_v226)) shapeCasts_S1x257x1_S257x1 i :=
  Cert.Lib.ReadFinal.reshape writes 308 rfl (by decide) (by decide) V
theorem rd_main_v228 (V : Valuation τ sig (Elt F)) : after ops V (Proc.devRef .tc main_v228) = ((extractStridedSlice S128x1 ![0, 0] · slices_S257x1_S128x1_0_0) : (⟨S257x1, .f32⟩ : BufTy).Contents (Elt F) → (⟨S128x1, .f32⟩ : BufTy).Contents (Elt F)) (after ops V (Proc.devRef .tc main_v227)) :=
  Cert.Lib.ReadFinal.unary writes 309 rfl (by decide) (by decide) V
theorem rd_main_v229 (V : Valuation τ sig (Elt F)) : after ops V (Proc.devRef .tc main_v229) = ((fun l r => Host.dotGeneral dot_S768x128_S128x1_S768x1_1_0_0_1_n_n none l r) : (⟨S768x128, .f32⟩ : BufTy).Contents (Elt F) → (⟨S128x1, .f32⟩ : BufTy).Contents (Elt F) → (⟨S768x1, .f32⟩ : BufTy).Contents (Elt F)) (after ops V (Proc.devRef .tc main_v175)) (after ops V (Proc.devRef .tc main_v228)) :=
  Cert.Lib.ReadFinal.binary writes 310 rfl (by decide) (by decide) (by decide) V
theorem rd_main_v230 (V : Valuation τ sig (Elt F)) : after ops V (Proc.devRef .tc main_v230) = (broadcastInDim S768x1x1 ![0, 2] bcast_S768x1_S768x1x1_0_2 : (⟨S768x1, .f32⟩ : BufTy).Contents (Elt F) → (⟨S768x1x1, .f32⟩ : BufTy).Contents (Elt F)) (after ops V (Proc.devRef .tc main_v229)) :=
  Cert.Lib.ReadFinal.unary writes 311 rfl (by decide) (by decide) V
theorem rd_main_v231 (V : Valuation τ sig (Elt F)) : after ops V (Proc.devRef .tc main_v231) = ((extractStridedSlice S128x1 ![128, 0] · slices_S257x1_S128x1_128_0) : (⟨S257x1, .f32⟩ : BufTy).Contents (Elt F) → (⟨S128x1, .f32⟩ : BufTy).Contents (Elt F)) (after ops V (Proc.devRef .tc main_v227)) :=
  Cert.Lib.ReadFinal.unary writes 312 rfl (by decide) (by decide) V
theorem rd_main_v232 (V : Valuation τ sig (Elt F)) : after ops V (Proc.devRef .tc main_v232) = ((fun l r => Host.dotGeneral dot_S768x128_S128x1_S768x1_1_0_0_1_n_n none l r) : (⟨S768x128, .f32⟩ : BufTy).Contents (Elt F) → (⟨S128x1, .f32⟩ : BufTy).Contents (Elt F) → (⟨S768x1, .f32⟩ : BufTy).Contents (Elt F)) (after ops V (Proc.devRef .tc main_v175)) (after ops V (Proc.devRef .tc main_v231)) :=
  Cert.Lib.ReadFinal.binary writes 313 rfl (by decide) (by decide) (by decide) V
theorem rd_main_v233 (V : Valuation τ sig (Elt F)) : after ops V (Proc.devRef .tc main_v233) = (broadcastInDim S1x768x1 ![1, 2] bcast_S768x1_S1x768x1_1_2 : (⟨S768x1, .f32⟩ : BufTy).Contents (Elt F) → (⟨S1x768x1, .f32⟩ : BufTy).Contents (Elt F)) (after ops V (Proc.devRef .tc main_v232)) :=
  Cert.Lib.ReadFinal.unary writes 314 rfl (by decide) (by decide) V
theorem rd_main_v234 (V : Valuation τ sig (Elt F)) : after ops V (Proc.devRef .tc main_v234) = (broadcastInDim S768x768x1 ![0, 1, 2] bcast_S768x1x1_S768x768x1_0_1_2 : (⟨S768x1x1, .f32⟩ : BufTy).Contents (Elt F) → (⟨S768x768x1, .f32⟩ : BufTy).Contents (Elt F)) (after ops V (Proc.devRef .tc main_v230)) :=
  Cert.Lib.ReadFinal.unary writes 315 rfl (by decide) (by decide) V
theorem rd_main_v235 (V : Valuation τ sig (Elt F)) : after ops V (Proc.devRef .tc main_v235) = (broadcastInDim S768x768x1 ![0, 1, 2] bcast_S1x768x1_S768x768x1_0_1_2 : (⟨S1x768x1, .f32⟩ : BufTy).Contents (Elt F) → (⟨S768x768x1, .f32⟩ : BufTy).Contents (Elt F)) (after ops V (Proc.devRef .tc main_v233)) :=
  Cert.Lib.ReadFinal.unary writes 316 rfl (by decide) (by decide) V
theorem rd_main_v236 (V : Valuation τ sig (Elt F)) : after ops V (Proc.devRef .tc main_v236) = (addf : (⟨S768x768x1, .f32⟩ : BufTy).Contents (Elt F) → (⟨S768x768x1, .f32⟩ : BufTy).Contents (Elt F) → (⟨S768x768x1, .f32⟩ : BufTy).Contents (Elt F)) (after ops V (Proc.devRef .tc main_v234)) (after ops V (Proc.devRef .tc main_v235)) :=
  Cert.Lib.ReadFinal.binary writes 317 rfl (by decide) (by decide) (by decide) V
theorem rd_main_v237 (V : Valuation τ sig (Elt F)) : after ops V (Proc.devRef .tc main_v237) = (broadcastInDim S768x768x1 ![0, 1] bcast_S768x768_S768x768x1_0_1 : (⟨S768x768, .f32⟩ : BufTy).Contents (Elt F) → (⟨S768x768x1, .f32⟩ : BufTy).Contents (Elt F)) (after ops V (Proc.devRef .tc main_v189)) :=
  Cert.Lib.ReadFinal.unary writes 318 rfl (by decide) (by decide) V
theorem rd_main_v238 (V : Valuation τ sig (Elt F)) : after ops V (Proc.devRef .tc main_v238) = ((extractStridedSlice S1x1 ![256, 0] · slices_S257x1_S1x1_256_0) : (⟨S257x1, .f32⟩ : BufTy).Contents (Elt F) → (⟨S1x1, .f32⟩ : BufTy).Contents (Elt F)) (after ops V (Proc.devRef .tc main_v227)) :=
  Cert.Lib.ReadFinal.unary writes 319 rfl (by decide) (by decide) V
theorem rd_main_v239 (V : Valuation τ sig (Elt F)) : after ops V (Proc.devRef .tc main_v239) = fun i => shapeCast _ (after ops V (Proc.devRef .tc main_v238)) shapeCasts_S1x1_S1 i :=
  Cert.Lib.ReadFinal.reshape writes 320 rfl (by decide) (by decide) V
theorem rd_main_v240 (V : Valuation τ sig (Elt F)) : after ops V (Proc.devRef .tc main_v240) = (broadcastInDim S1x1x1 ![2] bcast_S1_S1x1x1_2 : (⟨S1, .f32⟩ : BufTy).Contents (Elt F) → (⟨S1x1x1, .f32⟩ : BufTy).Contents (Elt F)) (after ops V (Proc.devRef .tc main_v239)) :=
  Cert.Lib.ReadFinal.unary writes 321 rfl (by decide) (by decide) V
theorem rd_main_v241 (V : Valuation τ sig (Elt F)) : after ops V (Proc.devRef .tc main_v241) = (broadcastInDim S768x768x1 ![0, 1, 2] bcast_S1x1x1_S768x768x1_0_1_2 : (⟨S1x1x1, .f32⟩ : BufTy).Contents (Elt F) → (⟨S768x768x1, .f32⟩ : BufTy).Contents (Elt F)) (after ops V (Proc.devRef .tc main_v240)) :=
  Cert.Lib.ReadFinal.unary writes 322 rfl (by decide) (by decide) V
theorem rd_main_v242 (V : Valuation τ sig (Elt F)) : after ops V (Proc.devRef .tc main_v242) = (mulf : (⟨S768x768x1, .f32⟩ : BufTy).Contents (Elt F) → (⟨S768x768x1, .f32⟩ : BufTy).Contents (Elt F) → (⟨S768x768x1, .f32⟩ : BufTy).Contents (Elt F)) (after ops V (Proc.devRef .tc main_v237)) (after ops V (Proc.devRef .tc main_v241)) :=
  Cert.Lib.ReadFinal.binary writes 323 rfl (by decide) (by decide) (by decide) V
theorem rd_main_v243 (V : Valuation τ sig (Elt F)) : after ops V (Proc.devRef .tc main_v243) = (addf : (⟨S768x768x1, .f32⟩ : BufTy).Contents (Elt F) → (⟨S768x768x1, .f32⟩ : BufTy).Contents (Elt F) → (⟨S768x768x1, .f32⟩ : BufTy).Contents (Elt F)) (after ops V (Proc.devRef .tc main_v236)) (after ops V (Proc.devRef .tc main_v242)) :=
  Cert.Lib.ReadFinal.binary writes 324 rfl (by decide) (by decide) (by decide) V
theorem rd_main_v244 (V : Valuation τ sig (Elt F)) : after ops V (Proc.devRef .tc main_v244) = ((extractStridedSlice S1x1 ![2, 0] · slices_S3x1_S1x1_2_0) : (⟨S3x1, .f32⟩ : BufTy).Contents (Elt F) → (⟨S1x1, .f32⟩ : BufTy).Contents (Elt F)) (after ops V (Proc.devRef .tc main_arg7)) :=
  Cert.Lib.ReadFinal.unary writes 325 rfl (by decide) (by decide) V
theorem rd_main_v245 (V : Valuation τ sig (Elt F)) : after ops V (Proc.devRef .tc main_v245) = fun i => shapeCast _ (after ops V (Proc.devRef .tc main_v244)) shapeCasts_S1x1_S1 i :=
  Cert.Lib.ReadFinal.reshape writes 326 rfl (by decide) (by decide) V
theorem rd_main_v246 (V : Valuation τ sig (Elt F)) : after ops V (Proc.devRef .tc main_v246) = (broadcastInDim S1x1x1 ![2] bcast_S1_S1x1x1_2 : (⟨S1, .f32⟩ : BufTy).Contents (Elt F) → (⟨S1x1x1, .f32⟩ : BufTy).Contents (Elt F)) (after ops V (Proc.devRef .tc main_v245)) :=
  Cert.Lib.ReadFinal.unary writes 327 rfl (by decide) (by decide) V
theorem rd_main_v247 (V : Valuation τ sig (Elt F)) : after ops V (Proc.devRef .tc main_v247) = (broadcastInDim S768x768x1 ![0, 1, 2] bcast_S1x1x1_S768x768x1_0_1_2 : (⟨S1x1x1, .f32⟩ : BufTy).Contents (Elt F) → (⟨S768x768x1, .f32⟩ : BufTy).Contents (Elt F)) (after ops V (Proc.devRef .tc main_v246)) :=
  Cert.Lib.ReadFinal.unary writes 328 rfl (by decide) (by decide) V
theorem rd_main_v248 (V : Valuation τ sig (Elt F)) : after ops V (Proc.devRef .tc main_v248) = (addf : (⟨S768x768x1, .f32⟩ : BufTy).Contents (Elt F) → (⟨S768x768x1, .f32⟩ : BufTy).Contents (Elt F) → (⟨S768x768x1, .f32⟩ : BufTy).Contents (Elt F)) (after ops V (Proc.devRef .tc main_v243)) (after ops V (Proc.devRef .tc main_v247)) :=
  Cert.Lib.ReadFinal.binary writes 329 rfl (by decide) (by decide) (by decide) V
theorem rd_main_call11_v0 (V : Valuation τ sig (Elt F)) : after ops V (Proc.devRef .tc main_call11_v0) = (Host.negf : (⟨S768x768x1, .f32⟩ : BufTy).Contents (Elt F) → (⟨S768x768x1, .f32⟩ : BufTy).Contents (Elt F)) (after ops V (Proc.devRef .tc main_v248)) :=
  Cert.Lib.ReadFinal.unary writes 330 rfl (by decide) (by decide) V
theorem rd_main_call11_v1 (V : Valuation τ sig (Elt F)) : after ops V (Proc.devRef .tc main_call11_v1) = (Host.exp : (⟨S768x768x1, .f32⟩ : BufTy).Contents (Elt F) → (⟨S768x768x1, .f32⟩ : BufTy).Contents (Elt F)) (after ops V (Proc.devRef .tc main_call11_v0)) :=
  Cert.Lib.ReadFinal.unary writes 331 rfl (by decide) (by decide) V
theorem rd_main_call11_cst (V : Valuation τ sig (Elt F)) : after ops V (Proc.devRef .tc main_call11_cst) = ((constant S_ .f32 0x3F800000#32) : (⟨S_, .f32⟩ : BufTy).Contents (Elt F)) :=
  Cert.Lib.ReadFinal.nullary writes 332 rfl (by decide) V
theorem rd_main_call11_v2 (V : Valuation τ sig (Elt F)) : after ops V (Proc.devRef .tc main_call11_v2) = ((broadcastInDim S768x768x1 ![] bcast_S_S768x768x1) : (⟨S_, .f32⟩ : BufTy).Contents (Elt F) → (⟨S768x768x1, .f32⟩ : BufTy).Contents (Elt F)) (after ops V (Proc.devRef .tc main_call11_cst)) :=
  Cert.Lib.ReadFinal.unary writes 333 rfl (by decide) (by decide) V
theorem rd_main_call11_v3 (V : Valuation τ sig (Elt F)) : after ops V (Proc.devRef .tc main_call11_v3) = (addf : (⟨S768x768x1, .f32⟩ : BufTy).Contents (Elt F) → (⟨S768x768x1, .f32⟩ : BufTy).Contents (Elt F) → (⟨S768x768x1, .f32⟩ : BufTy).Contents (Elt F)) (after ops V (Proc.devRef .tc main_call11_v2)) (after ops V (Proc.devRef .tc main_call11_v1)) :=
  Cert.Lib.ReadFinal.binary writes 334 rfl (by decide) (by decide) (by decide) V
theorem rd_main_call11_cst_0 (V : Valuation τ sig (Elt F)) : after ops V (Proc.devRef .tc main_call11_cst_0) = ((constant S_ .f32 0x3F800000#32) : (⟨S_, .f32⟩ : BufTy).Contents (Elt F)) :=
  Cert.Lib.ReadFinal.nullary writes 335 rfl (by decide) V
theorem rd_main_call11_v4 (V : Valuation τ sig (Elt F)) : after ops V (Proc.devRef .tc main_call11_v4) = ((broadcastInDim S768x768x1 ![] bcast_S_S768x768x1) : (⟨S_, .f32⟩ : BufTy).Contents (Elt F) → (⟨S768x768x1, .f32⟩ : BufTy).Contents (Elt F)) (after ops V (Proc.devRef .tc main_call11_cst_0)) :=
  Cert.Lib.ReadFinal.unary writes 336 rfl (by decide) (by decide) V
theorem rd_main_call11_v5 (V : Valuation τ sig (Elt F)) : after ops V (Proc.devRef .tc main_call11_v5) = (Host.divf : (⟨S768x768x1, .f32⟩ : BufTy).Contents (Elt F) → (⟨S768x768x1, .f32⟩ : BufTy).Contents (Elt F) → (⟨S768x768x1, .f32⟩ : BufTy).Contents (Elt F)) (after ops V (Proc.devRef .tc main_call11_v4)) (after ops V (Proc.devRef .tc main_call11_v3)) :=
  Cert.Lib.ReadFinal.binary writes 337 rfl (by decide) (by decide) (by decide) V
theorem rd_main_v249 (V : Valuation τ sig (Elt F)) : after ops V (Proc.devRef .tc main_v249) = (mulf : (⟨S768x768x1, .f32⟩ : BufTy).Contents (Elt F) → (⟨S768x768x1, .f32⟩ : BufTy).Contents (Elt F) → (⟨S768x768x1, .f32⟩ : BufTy).Contents (Elt F)) (after ops V (Proc.devRef .tc main_v248)) (after ops V (Proc.devRef .tc main_call11_v5)) :=
  Cert.Lib.ReadFinal.binary writes 338 rfl (by decide) (by decide) (by decide) V
theorem rd_main_v250 (V : Valuation τ sig (Elt F)) : after ops V (Proc.devRef .tc main_v250) = (broadcastInDim S768x768x3 ![0, 1, 2] bcast_S768x768x1_S768x768x3_0_1_2 : (⟨S768x768x1, .f32⟩ : BufTy).Contents (Elt F) → (⟨S768x768x3, .f32⟩ : BufTy).Contents (Elt F)) (after ops V (Proc.devRef .tc main_v249)) :=
  Cert.Lib.ReadFinal.unary writes 339 rfl (by decide) (by decide) V
theorem rd_main_v251 (V : Valuation τ sig (Elt F)) : after ops V (Proc.devRef .tc main_v251) = (mulf : (⟨S768x768x3, .f32⟩ : BufTy).Contents (Elt F) → (⟨S768x768x3, .f32⟩ : BufTy).Contents (Elt F) → (⟨S768x768x3, .f32⟩ : BufTy).Contents (Elt F)) (after ops V (Proc.devRef .tc main_v250)) (after ops V (Proc.devRef .tc main_v180)) :=
  Cert.Lib.ReadFinal.binary writes 340 rfl (by decide) (by decide) (by decide) V
theorem rd_main_cst_27 (V : Valuation τ sig (Elt F)) : after ops V (Proc.devRef .tc main_cst_27) = (constant S_ .f32 0x00000000#32) :=
  Cert.Lib.ReadFinal.nullary writes 341 rfl (by decide) V
theorem rd_main_v252 (V : Valuation τ sig (Elt F)) : after ops V (Proc.devRef .tc main_v252) = ((fun x v => Host.reduceAdd x v reducesTo_S768x768x3_S768x3_d1 h_S_) : (⟨S768x768x3, .f32⟩ : BufTy).Contents (Elt F) → (⟨S_, .f32⟩ : BufTy).Contents (Elt F) → (⟨S768x3, .f32⟩ : BufTy).Contents (Elt F)) (after ops V (Proc.devRef .tc main_v251)) (after ops V (Proc.devRef .tc main_cst_27)) :=
  Cert.Lib.ReadFinal.binary writes 342 rfl (by decide) (by decide) (by decide) V
theorem rd_main_cst_28 (V : Valuation τ sig (Elt F)) : after ops V (Proc.devRef .tc main_cst_28) = (constant S_ .f32 0x44400000#32) :=
  Cert.Lib.ReadFinal.nullary writes 343 rfl (by decide) V
theorem rd_main_v253 (V : Valuation τ sig (Elt F)) : after ops V (Proc.devRef .tc main_v253) = (broadcastInDim S768x3 ![] bcast_S_S768x3 : (⟨S_, .f32⟩ : BufTy).Contents (Elt F) → (⟨S768x3, .f32⟩ : BufTy).Contents (Elt F)) (after ops V (Proc.devRef .tc main_cst_28)) :=
  Cert.Lib.ReadFinal.unary writes 344 rfl (by decide) (by decide) V
theorem rd_main_v254 (V : Valuation τ sig (Elt F)) : after ops V (Proc.devRef .tc main_v254) = (Host.divf : (⟨S768x3, .f32⟩ : BufTy).Contents (Elt F) → (⟨S768x3, .f32⟩ : BufTy).Contents (Elt F) → (⟨S768x3, .f32⟩ : BufTy).Contents (Elt F)) (after ops V (Proc.devRef .tc main_v252)) (after ops V (Proc.devRef .tc main_v253)) :=
  Cert.Lib.ReadFinal.binary writes 345 rfl (by decide) (by decide) (by decide) V
theorem rd_main_v255 (V : Valuation τ sig (Elt F)) : after ops V (Proc.devRef .tc main_v255) = (addf : (⟨S768x3, .f32⟩ : BufTy).Contents (Elt F) → (⟨S768x3, .f32⟩ : BufTy).Contents (Elt F) → (⟨S768x3, .f32⟩ : BufTy).Contents (Elt F)) (after ops V (Proc.devRef .tc main_v174)) (after ops V (Proc.devRef .tc main_v254)) :=
  Cert.Lib.ReadFinal.binary writes 346 rfl (by decide) (by decide) (by decide) V
theorem rd_main_v256 (V : Valuation τ sig (Elt F)) : after ops V (Proc.devRef .tc main_v256) = (addf : (⟨S768x128, .f32⟩ : BufTy).Contents (Elt F) → (⟨S768x128, .f32⟩ : BufTy).Contents (Elt F) → (⟨S768x128, .f32⟩ : BufTy).Contents (Elt F)) (after ops V (Proc.devRef .tc main_v175)) (after ops V (Proc.devRef .tc main_v225)) :=
  Cert.Lib.ReadFinal.binary writes 347 rfl (by decide) (by decide) (by decide) V
end Reads

variable (V : Valuation τ sig (Elt Ideal))

/-! The weight arguments are never written: their final contents are the launch contents. -/
theorem main_arg2_eq : (@id (FVec Ideal S3x257x128 .f32) (after (ops (F := Ideal)) V (Proc.devRef .tc main_arg2))) = (@id (FVec Ideal S3x257x128 .f32) (V (Proc.devRef .tc main_arg2))) :=
  keep V main_arg2 (by decide) (by decide) (by decide) (by decide) (by decide) (by decide)

theorem main_arg3_eq : (@id (FVec Ideal S3x128 .f32) (after (ops (F := Ideal)) V (Proc.devRef .tc main_arg3))) = (@id (FVec Ideal S3x128 .f32) (V (Proc.devRef .tc main_arg3))) :=
  keep V main_arg3 (by decide) (by decide) (by decide) (by decide) (by decide) (by decide)

theorem main_arg4_eq : (@id (FVec Ideal S3x128x128 .f32) (after (ops (F := Ideal)) V (Proc.devRef .tc main_arg4))) = (@id (FVec Ideal S3x128x128 .f32) (V (Proc.devRef .tc main_arg4))) :=
  keep V main_arg4 (by decide) (by decide) (by decide) (by decide) (by decide) (by decide)

theorem main_arg5_eq : (@id (FVec Ideal S3x128 .f32) (after (ops (F := Ideal)) V (Proc.devRef .tc main_arg5))) = (@id (FVec Ideal S3x128 .f32) (V (Proc.devRef .tc main_arg5))) :=
  keep V main_arg5 (by decide) (by decide) (by decide) (by decide) (by decide) (by decide)

theorem main_arg6_eq : (@id (FVec Ideal S3x257x1 .f32) (after (ops (F := Ideal)) V (Proc.devRef .tc main_arg6))) = (@id (FVec Ideal S3x257x1 .f32) (V (Proc.devRef .tc main_arg6))) :=
  keep V main_arg6 (by decide) (by decide) (by decide) (by decide) (by decide) (by decide)

theorem main_arg7_eq : (@id (FVec Ideal S3x1 .f32) (after (ops (F := Ideal)) V (Proc.devRef .tc main_arg7))) = (@id (FVec Ideal S3x1 .f32) (V (Proc.devRef .tc main_arg7))) :=
  keep V main_arg7 (by decide) (by decide) (by decide) (by decide) (by decide) (by decide)

namespace L1

theorem at_r2 (i j : Fin 768) (k : Fin 3) : (@id (FVec Ideal S768x768x3 .f32) (after (ops (F := Ideal)) V (Proc.devRef .tc main_v16))) (ix3 i j k) = (@id (FVec Ideal S768x3 .f32) (after (ops (F := Ideal)) V (Proc.devRef .tc main_v13))) (ix2 i k) :=
  ((congrFun (rd_main_v16 (F := Ideal) V) _).trans (broadcastInDim_apply _ _ _ _ (ix3 i (0 : Fin 1) k) (fun a => match a with | ⟨0, _⟩ => rfl | ⟨1, _⟩ => rfl | ⟨2, _⟩ => rfl))).trans
    ((congrFun (rd_main_v14 (F := Ideal) V) _).trans (broadcastInDim_apply _ _ _ _ (ix2 i k) (fun a => match a with | ⟨0, _⟩ => rfl | ⟨1, _⟩ => rfl)))

theorem at_r3 (i j : Fin 768) (k : Fin 3) : (@id (FVec Ideal S768x768x3 .f32) (after (ops (F := Ideal)) V (Proc.devRef .tc main_v17))) (ix3 i j k) = (@id (FVec Ideal S768x3 .f32) (after (ops (F := Ideal)) V (Proc.devRef .tc main_v13))) (ix2 j k) :=
  ((congrFun (rd_main_v17 (F := Ideal) V) _).trans (broadcastInDim_apply _ _ _ _ (ix3 (0 : Fin 1) j k) (fun a => match a with | ⟨0, _⟩ => rfl | ⟨1, _⟩ => rfl | ⟨2, _⟩ => rfl))).trans
    ((congrFun (rd_main_v15 (F := Ideal) V) _).trans (broadcastInDim_apply _ _ _ _ (ix2 j k) (fun a => match a with | ⟨0, _⟩ => rfl | ⟨1, _⟩ => rfl)))

/-- The coordinate differences. -/
theorem at_r4 (i j : Fin 768) (k : Fin 3) : (@id (FVec Ideal S768x768x3 .f32) (after (ops (F := Ideal)) V (Proc.devRef .tc main_v18))) (ix3 i j k) = (@id (FVec Ideal S768x3 .f32) (after (ops (F := Ideal)) V (Proc.devRef .tc main_v13))) (ix2 i k) - (@id (FVec Ideal S768x3 .f32) (after (ops (F := Ideal)) V (Proc.devRef .tc main_v13))) (ix2 j k) := by
  rw [show (@id (FVec Ideal S768x768x3 .f32) (after (ops (F := Ideal)) V (Proc.devRef .tc main_v18))) (ix3 i j k) = (@id (FVec Ideal S768x768x3 .f32) (after (ops (F := Ideal)) V (Proc.devRef .tc main_v16))) (ix3 i j k) - (@id (FVec Ideal S768x768x3 .f32) (after (ops (F := Ideal)) V (Proc.devRef .tc main_v17))) (ix3 i j k) from congrFun (rd_main_v18 (F := Ideal) V) _, at_r2, at_r3]

/-- The squared distances: the sum from zero of the squared differences over the three coordinates. -/
theorem at_r7 (i j : Fin 768) : (@id (FVec Ideal S768x768 .f32) (after (ops (F := Ideal)) V (Proc.devRef .tc main_v20))) (ix2 i j) = ∑ k : Fin 3, ((@id (FVec Ideal S768x3 .f32) (after (ops (F := Ideal)) V (Proc.devRef .tc main_v13))) (ix2 i k) - (@id (FVec Ideal S768x3 .f32) (after (ops (F := Ideal)) V (Proc.devRef .tc main_v13))) (ix2 j k)) * ((@id (FVec Ideal S768x3 .f32) (after (ops (F := Ideal)) V (Proc.devRef .tc main_v13))) (ix2 i k) - (@id (FVec Ideal S768x3 .f32) (after (ops (F := Ideal)) V (Proc.devRef .tc main_v13))) (ix2 j k)) := by
  have hr : Shape.Reduces S768x768x3 [2] S768x768 := by decide
  have e : (@id (FVec Ideal S768x768 .f32) (after (ops (F := Ideal)) V (Proc.devRef .tc main_v20))) (ix2 i j)
      = Ideal.hostReduceAdd reducesTo_S768x768x3_S768x768_d2 (@id (FVec Ideal S768x768x3 .f32) (after (ops (F := Ideal)) V (Proc.devRef .tc main_v19))) ((@id (FVec Ideal S_ .f32) (after (ops (F := Ideal)) V (Proc.devRef .tc main_cst))) (Shape.Idx.first h_S_)) (ix2 i j) := congrFun (rd_main_v20 (F := Ideal) V) _
  rw [e, Ideal.hostReduceAdd_single _ hr, show (@id (FVec Ideal S_ .f32) (after (ops (F := Ideal)) V (Proc.devRef .tc main_cst))) (Shape.Idx.first h_S_) = 0 from (congrFun (rd_main_cst (F := Ideal) V) _).trans Ideal.ofBits_zero_f32, zero_add]
  show ∑ k : Fin 3, (@id (FVec Ideal S768x768x3 .f32) (after (ops (F := Ideal)) V (Proc.devRef .tc main_v19))) (hr.lift (ix2 i j) k) = _
  refine Finset.sum_congr rfl fun k _ => ?_
  rw [show hr.lift (ix2 i j) k = ix3 i j k from funext fun a => Fin.ext (match a with | ⟨0, _⟩ => rfl | ⟨1, _⟩ => rfl | ⟨2, _⟩ => rfl)]
  rw [show (@id (FVec Ideal S768x768x3 .f32) (after (ops (F := Ideal)) V (Proc.devRef .tc main_v19))) (ix3 i j k) = (@id (FVec Ideal S768x768x3 .f32) (after (ops (F := Ideal)) V (Proc.devRef .tc main_v18))) (ix3 i j k) * (@id (FVec Ideal S768x768x3 .f32) (after (ops (F := Ideal)) V (Proc.devRef .tc main_v18))) (ix3 i j k) from congrFun (rd_main_v19 (F := Ideal) V) _, at_r4]

theorem at_r9 (idx : S768x768.Idx) : (@id (FVec Ideal S768x768 .f32) (after (ops (F := Ideal)) V (Proc.devRef .tc main_v21))) idx = 0 :=
  ((congrFun (rd_main_v21 (F := Ideal) V) _).trans (broadcastInDim_scalar_apply _ _ _)).trans ((congrFun (rd_main_cst_3 (F := Ideal) V) _).trans Ideal.ofBits_zero_f32)

theorem at_r13 (idx : S768x768.Idx) : (@id (FVec Ideal S768x768 .f32) (after (ops (F := Ideal)) V (Proc.devRef .tc main_call0_v1))) idx = 1 :=
  ((congrFun (rd_main_call0_v1 (F := Ideal) V) _).trans (broadcastInDim_scalar_apply _ _ _)).trans ((congrFun (rd_main_call0_v0 (F := Ideal) V) _).trans ((congrFun (rd_main_cst_4 (F := Ideal) V) _).trans Ideal.ofBits_one_f32))

theorem at_r17 (idx : S768x768.Idx) : (@id (FVec Ideal S768x768 .f32) (after (ops (F := Ideal)) V (Proc.devRef .tc main_v25))) idx = 0 :=
  ((congrFun (rd_main_v25 (F := Ideal) V) _).trans (broadcastInDim_scalar_apply _ _ _)).trans ((congrFun (rd_main_cst_5 (F := Ideal) V) _).trans Ideal.ofBits_zero_f32)

theorem at_r21 (idx : S768x768.Idx) : (@id (FVec Ideal S768x768 .f32) (after (ops (F := Ideal)) V (Proc.devRef .tc main_call1_v1))) idx = 0 :=
  ((congrFun (rd_main_call1_v1 (F := Ideal) V) _).trans (broadcastInDim_scalar_apply _ _ _)).trans ((congrFun (rd_main_call1_v0 (F := Ideal) V) _).trans ((congrFun (rd_main_cst_6 (F := Ideal) V) _).trans Ideal.ofBits_zero_f32))

theorem sq_eq (i j : Fin 768) : (@id (FVec Ideal S768x768 .f32) (after (ops (F := Ideal)) V (Proc.devRef .tc main_v20))) (ix2 i j) = Cert.Spec.sq (fun i k => (@id (FVec Ideal S768x3 .f32) (after (ops (F := Ideal)) V (Proc.devRef .tc main_v13))) (ix2 i k)) i j := at_r7 V i j

/-- The distance: the square root of the squared distance where that is positive (taken of one elsewhere), and zero elsewhere. -/
theorem at_r22 (i j : Fin 768) : (@id (FVec Ideal S768x768 .f32) (after (ops (F := Ideal)) V (Proc.devRef .tc main_v27))) (ix2 i j) = Cert.Spec.dist (fun i k => (@id (FVec Ideal S768x3 .f32) (after (ops (F := Ideal)) V (Proc.devRef .tc main_v13))) (ix2 i k)) i j := by
  rw [show (@id (FVec Ideal S768x768 .f32) (after (ops (F := Ideal)) V (Proc.devRef .tc main_v27))) (ix2 i j) = Scalar.select ((@id (IVec S768x768 1) (after (ops (F := Ideal)) V (Proc.devRef .tc main_v26))) (ix2 i j)) ((@id (FVec Ideal S768x768 .f32) (after (ops (F := Ideal)) V (Proc.devRef .tc main_v24))) (ix2 i j)) ((@id (FVec Ideal S768x768 .f32) (after (ops (F := Ideal)) V (Proc.devRef .tc main_call1_v1))) (ix2 i j)) from congrFun (rd_main_v27 (F := Ideal) V) _, at_r21,
    show (@id (IVec S768x768 1) (after (ops (F := Ideal)) V (Proc.devRef .tc main_v26))) (ix2 i j) = Ideal.cmp .ogt ((@id (FVec Ideal S768x768 .f32) (after (ops (F := Ideal)) V (Proc.devRef .tc main_v20))) (ix2 i j)) ((@id (FVec Ideal S768x768 .f32) (after (ops (F := Ideal)) V (Proc.devRef .tc main_v25))) (ix2 i j)) from congrFun (rd_main_v26 (F := Ideal) V) _, at_r17,
    show (@id (FVec Ideal S768x768 .f32) (after (ops (F := Ideal)) V (Proc.devRef .tc main_v24))) (ix2 i j) = Ideal.sqrt ((@id (FVec Ideal S768x768 .f32) (after (ops (F := Ideal)) V (Proc.devRef .tc main_v23))) (ix2 i j)) from congrFun (rd_main_v24 (F := Ideal) V) _,
    show (@id (FVec Ideal S768x768 .f32) (after (ops (F := Ideal)) V (Proc.devRef .tc main_v23))) (ix2 i j) = Scalar.select ((@id (IVec S768x768 1) (after (ops (F := Ideal)) V (Proc.devRef .tc main_v22))) (ix2 i j)) ((@id (FVec Ideal S768x768 .f32) (after (ops (F := Ideal)) V (Proc.devRef .tc main_v20))) (ix2 i j)) ((@id (FVec Ideal S768x768 .f32) (after (ops (F := Ideal)) V (Proc.devRef .tc main_call0_v1))) (ix2 i j)) from congrFun (rd_main_v23 (F := Ideal) V) _, at_r13,
    show (@id (IVec S768x768 1) (after (ops (F := Ideal)) V (Proc.devRef .tc main_v22))) (ix2 i j) = Ideal.cmp .ogt ((@id (FVec Ideal S768x768 .f32) (after (ops (F := Ideal)) V (Proc.devRef .tc main_v20))) (ix2 i j)) ((@id (FVec Ideal S768x768 .f32) (after (ops (F := Ideal)) V (Proc.devRef .tc main_v21))) (ix2 i j)) from congrFun (rd_main_v22 (F := Ideal) V) _, at_r9, sq_eq]
  rfl

/-- The layer's slab of the first weight array, as a matrix of 257 rows. -/
theorem at_r24 (r : Fin 257) (d : Fin 128) : (@id (FVec Ideal S257x128 .f32) (after (ops (F := Ideal)) V (Proc.devRef .tc main_v29))) (ix2 r d) = (@id (FVec Ideal S3x257x128 .f32) (after (ops (F := Ideal)) V (Proc.devRef .tc main_arg2))) (ix3 (0 : Fin 3) r d) :=
  ((congrFun (rd_main_v29 (F := Ideal) V) _).trans (shapeCast_1ab_ab_apply _ _ r d)).trans
    ((congrFun (rd_main_v28 (F := Ideal) V) _).trans (extractStridedSlice_apply _ _ _ _ (ix3 (0 : Fin 3) r d) (fun a => match a with | ⟨0, _⟩ => rfl | ⟨1, _⟩ => (Nat.zero_add _).symm | ⟨2, _⟩ => (Nat.zero_add _).symm)))

theorem at_r25 (k d : Fin 128) : (@id (FVec Ideal S128x128 .f32) (after (ops (F := Ideal)) V (Proc.devRef .tc main_v30))) (ix2 k d) = (@id (FVec Ideal S3x257x128 .f32) (after (ops (F := Ideal)) V (Proc.devRef .tc main_arg2))) (ix3 (0 : Fin 3) (⟨k.val, by omega⟩ : Fin 257) d) :=
  ((congrFun (rd_main_v30 (F := Ideal) V) _).trans (slice2_axis0_apply 0 _ _ k d (⟨k.val, by omega⟩ : Fin 257) (Nat.zero_add _).symm)).trans (at_r24 V _ d)

theorem at_r28 (k d : Fin 128) : (@id (FVec Ideal S128x128 .f32) (after (ops (F := Ideal)) V (Proc.devRef .tc main_v33))) (ix2 k d) = (@id (FVec Ideal S3x257x128 .f32) (after (ops (F := Ideal)) V (Proc.devRef .tc main_arg2))) (ix3 (0 : Fin 3) (⟨128 + k.val, by omega⟩ : Fin 257) d) :=
  ((congrFun (rd_main_v33 (F := Ideal) V) _).trans (slice2_axis0_apply 128 _ _ k d (⟨128 + k.val, by omega⟩ : Fin 257) rfl)).trans (at_r24 V _ d)

theorem at_r35 (d : Fin 128) : (@id (FVec Ideal S1x128 .f32) (after (ops (F := Ideal)) V (Proc.devRef .tc main_v40))) (ix2 (0 : Fin 1) d) = (@id (FVec Ideal S3x257x128 .f32) (after (ops (F := Ideal)) V (Proc.devRef .tc main_arg2))) (ix3 (0 : Fin 3) (⟨256, by omega⟩ : Fin 257) d) :=
  ((congrFun (rd_main_v40 (F := Ideal) V) _).trans (slice2_axis0_apply 256 _ _ (0 : Fin 1) d (⟨256, by omega⟩ : Fin 257) rfl)).trans (at_r24 V _ d)

/-- The distance's weight row, broadcast over every pair. -/
theorem at_r39 (i j : Fin 768) (d : Fin 128) : (@id (FVec Ideal S768x768x128 .f32) (after (ops (F := Ideal)) V (Proc.devRef .tc main_v44))) (ix3 i j d) = (@id (FVec Ideal S3x257x128 .f32) (after (ops (F := Ideal)) V (Proc.devRef .tc main_arg2))) (ix3 (0 : Fin 3) (⟨256, by omega⟩ : Fin 257) d) :=
  ((congrFun (rd_main_v44 (F := Ideal) V) _).trans (broadcastInDim_apply _ _ _ _ (ix3 (0 : Fin 1) (0 : Fin 1) d) (fun a => match a with | ⟨0, _⟩ => rfl | ⟨1, _⟩ => rfl | ⟨2, _⟩ => rfl))).trans
    (((congrFun (rd_main_v42 (F := Ideal) V) _).trans (broadcastInDim_apply _ _ _ _ (ix1 d) (fun a => match a with | ⟨0, _⟩ => rfl))).trans
      (((congrFun (rd_main_v41 (F := Ideal) V) _).trans (shapeCast_1a_a_apply _ _ d)).trans (at_r35 V d)))

/-- The receiving node's product: a plain sum over the contracted axis. -/
theorem at_r26 (i : Fin 768) (d : Fin 128) : (@id (FVec Ideal S768x128 .f32) (after (ops (F := Ideal)) V (Proc.devRef .tc main_v31))) (ix2 i d) = ∑ k : Fin 128, (@id (FVec Ideal S768x128 .f32) (after (ops (F := Ideal)) V (Proc.devRef .tc main_v6))) (ix2 i k) * (@id (FVec Ideal S3x257x128 .f32) (after (ops (F := Ideal)) V (Proc.devRef .tc main_arg2))) (ix3 (0 : Fin 3) (⟨k.val, by omega⟩ : Fin 257) d) := by
  rw [show (@id (FVec Ideal S768x128 .f32) (after (ops (F := Ideal)) V (Proc.devRef .tc main_v31))) (ix2 i d) = ∑ k : Fin 128, (@id (FVec Ideal S768x128 .f32) (after (ops (F := Ideal)) V (Proc.devRef .tc main_v6))) (ix2 i k) * (@id (FVec Ideal S128x128 .f32) (after (ops (F := Ideal)) V (Proc.devRef .tc main_v30))) (ix2 k d) from
    (congrFun (rd_main_v31 (F := Ideal) V) _).trans (Cert.Lib.dotGeneral_plain_apply _ _ _ _ i d)]
  exact Finset.sum_congr rfl fun k _ => by rw [at_r25]

/-- The sending node's product. -/
theorem at_r29 (i : Fin 768) (d : Fin 128) : (@id (FVec Ideal S768x128 .f32) (after (ops (F := Ideal)) V (Proc.devRef .tc main_v34))) (ix2 i d) = ∑ k : Fin 128, (@id (FVec Ideal S768x128 .f32) (after (ops (F := Ideal)) V (Proc.devRef .tc main_v6))) (ix2 i k) * (@id (FVec Ideal S3x257x128 .f32) (after (ops (F := Ideal)) V (Proc.devRef .tc main_arg2))) (ix3 (0 : Fin 3) (⟨128 + k.val, by omega⟩ : Fin 257) d) := by
  rw [show (@id (FVec Ideal S768x128 .f32) (after (ops (F := Ideal)) V (Proc.devRef .tc main_v34))) (ix2 i d) = ∑ k : Fin 128, (@id (FVec Ideal S768x128 .f32) (after (ops (F := Ideal)) V (Proc.devRef .tc main_v6))) (ix2 i k) * (@id (FVec Ideal S128x128 .f32) (after (ops (F := Ideal)) V (Proc.devRef .tc main_v33))) (ix2 k d) from
    (congrFun (rd_main_v34 (F := Ideal) V) _).trans (Cert.Lib.dotGeneral_plain_apply _ _ _ _ i d)]
  exact Finset.sum_congr rfl fun k _ => by rw [at_r28]

theorem at_r31 (i j : Fin 768) (d : Fin 128) : (@id (FVec Ideal S768x768x128 .f32) (after (ops (F := Ideal)) V (Proc.devRef .tc main_v36))) (ix3 i j d) = (@id (FVec Ideal S768x128 .f32) (after (ops (F := Ideal)) V (Proc.devRef .tc main_v31))) (ix2 i d) :=
  ((congrFun (rd_main_v36 (F := Ideal) V) _).trans (broadcastInDim_apply _ _ _ _ (ix3 i (0 : Fin 1) d) (fun a => match a with | ⟨0, _⟩ => rfl | ⟨1, _⟩ => rfl | ⟨2, _⟩ => rfl))).trans
    ((congrFun (rd_main_v32 (F := Ideal) V) _).trans (broadcastInDim_apply _ _ _ _ (ix2 i d) (fun a => match a with | ⟨0, _⟩ => rfl | ⟨1, _⟩ => rfl)))

theorem at_r32 (i j : Fin 768) (d : Fin 128) : (@id (FVec Ideal S768x768x128 .f32) (after (ops (F := Ideal)) V (Proc.devRef .tc main_v37))) (ix3 i j d) = (@id (FVec Ideal S768x128 .f32) (after (ops (F := Ideal)) V (Proc.devRef .tc main_v34))) (ix2 j d) :=
  ((congrFun (rd_main_v37 (F := Ideal) V) _).trans (broadcastInDim_apply _ _ _ _ (ix3 (0 : Fin 1) j d) (fun a => match a with | ⟨0, _⟩ => rfl | ⟨1, _⟩ => rfl | ⟨2, _⟩ => rfl))).trans
    ((congrFun (rd_main_v35 (F := Ideal) V) _).trans (broadcastInDim_apply _ _ _ _ (ix2 j d) (fun a => match a with | ⟨0, _⟩ => rfl | ⟨1, _⟩ => rfl)))

theorem at_r38 (i j : Fin 768) (d : Fin 128) : (@id (FVec Ideal S768x768x128 .f32) (after (ops (F := Ideal)) V (Proc.devRef .tc main_v43))) (ix3 i j d) = (@id (FVec Ideal S768x768 .f32) (after (ops (F := Ideal)) V (Proc.devRef .tc main_v27))) (ix2 i j) :=
  ((congrFun (rd_main_v43 (F := Ideal) V) _).trans (broadcastInDim_apply _ _ _ _ (ix3 i j (0 : Fin 1)) (fun a => match a with | ⟨0, _⟩ => rfl | ⟨1, _⟩ => rfl | ⟨2, _⟩ => rfl))).trans
    ((congrFun (rd_main_v39 (F := Ideal) V) _).trans (broadcastInDim_apply _ _ _ _ (ix2 i j) (fun a => match a with | ⟨0, _⟩ => rfl | ⟨1, _⟩ => rfl)))

/-- The first bias, broadcast over every pair. -/
theorem at_r45 (i j : Fin 768) (d : Fin 128) : (@id (FVec Ideal S768x768x128 .f32) (after (ops (F := Ideal)) V (Proc.devRef .tc main_v50))) (ix3 i j d) = (@id (FVec Ideal S3x128 .f32) (after (ops (F := Ideal)) V (Proc.devRef .tc main_arg3))) (ix2 (0 : Fin 3) d) :=
  ((congrFun (rd_main_v50 (F := Ideal) V) _).trans (broadcastInDim_apply _ _ _ _ (ix3 (0 : Fin 1) (0 : Fin 1) d) (fun a => match a with | ⟨0, _⟩ => rfl | ⟨1, _⟩ => rfl | ⟨2, _⟩ => rfl))).trans
    (((congrFun (rd_main_v49 (F := Ideal) V) _).trans (broadcastInDim_apply _ _ _ _ (ix1 d) (fun a => match a with | ⟨0, _⟩ => rfl))).trans
      (((congrFun (rd_main_v48 (F := Ideal) V) _).trans (shapeCast_1a_a_apply _ _ d)).trans
        ((congrFun (rd_main_v47 (F := Ideal) V) _).trans (slice2_axis0_apply 0 _ _ (0 : Fin 1) d (0 : Fin 3) rfl))))

/-- The edge pre-activation. -/
theorem at_r46 (i j : Fin 768) (d : Fin 128) :
    (@id (FVec Ideal S768x768x128 .f32) (after (ops (F := Ideal)) V (Proc.devRef .tc main_v51))) (ix3 i j d) = Cert.Spec.pre (fun i k => (@id (FVec Ideal S768x128 .f32) (after (ops (F := Ideal)) V (Proc.devRef .tc main_v6))) (ix2 i k)) (fun i k => (@id (FVec Ideal S768x3 .f32) (after (ops (F := Ideal)) V (Proc.devRef .tc main_v13))) (ix2 i k)) (fun (k : Fin 128) (d : Fin 128) => (@id (FVec Ideal S3x257x128 .f32) (after (ops (F := Ideal)) V (Proc.devRef .tc main_arg2))) (ix3 (0 : Fin 3) (⟨k.val, by omega⟩ : Fin 257) d)) (fun (k : Fin 128) (d : Fin 128) => (@id (FVec Ideal S3x257x128 .f32) (after (ops (F := Ideal)) V (Proc.devRef .tc main_arg2))) (ix3 (0 : Fin 3) (⟨128 + k.val, by omega⟩ : Fin 257) d)) (fun (d : Fin 128) => (@id (FVec Ideal S3x257x128 .f32) (after (ops (F := Ideal)) V (Proc.devRef .tc main_arg2))) (ix3 (0 : Fin 3) (⟨256, by omega⟩ : Fin 257) d)) (fun (d : Fin 128) => (@id (FVec Ideal S3x128 .f32) (after (ops (F := Ideal)) V (Proc.devRef .tc main_arg3))) (ix2 (0 : Fin 3) d)) i j d := by
  rw [show (@id (FVec Ideal S768x768x128 .f32) (after (ops (F := Ideal)) V (Proc.devRef .tc main_v51))) (ix3 i j d) = (@id (FVec Ideal S768x768x128 .f32) (after (ops (F := Ideal)) V (Proc.devRef .tc main_v46))) (ix3 i j d) + (@id (FVec Ideal S768x768x128 .f32) (after (ops (F := Ideal)) V (Proc.devRef .tc main_v50))) (ix3 i j d) from congrFun (rd_main_v51 (F := Ideal) V) _,
    show (@id (FVec Ideal S768x768x128 .f32) (after (ops (F := Ideal)) V (Proc.devRef .tc main_v46))) (ix3 i j d) = (@id (FVec Ideal S768x768x128 .f32) (after (ops (F := Ideal)) V (Proc.devRef .tc main_v38))) (ix3 i j d) + (@id (FVec Ideal S768x768x128 .f32) (after (ops (F := Ideal)) V (Proc.devRef .tc main_v45))) (ix3 i j d) from congrFun (rd_main_v46 (F := Ideal) V) _,
    show (@id (FVec Ideal S768x768x128 .f32) (after (ops (F := Ideal)) V (Proc.devRef .tc main_v38))) (ix3 i j d) = (@id (FVec Ideal S768x768x128 .f32) (after (ops (F := Ideal)) V (Proc.devRef .tc main_v36))) (ix3 i j d) + (@id (FVec Ideal S768x768x128 .f32) (after (ops (F := Ideal)) V (Proc.devRef .tc main_v37))) (ix3 i j d) from congrFun (rd_main_v38 (F := Ideal) V) _,
    show (@id (FVec Ideal S768x768x128 .f32) (after (ops (F := Ideal)) V (Proc.devRef .tc main_v45))) (ix3 i j d) = (@id (FVec Ideal S768x768x128 .f32) (after (ops (F := Ideal)) V (Proc.devRef .tc main_v43))) (ix3 i j d) * (@id (FVec Ideal S768x768x128 .f32) (after (ops (F := Ideal)) V (Proc.devRef .tc main_v44))) (ix3 i j d) from congrFun (rd_main_v45 (F := Ideal) V) _,
    at_r31, at_r32, at_r38, at_r39, at_r45, at_r26, at_r29, at_r22]
  rfl

theorem at_r50 (idx : S768x768x128.Idx) : (@id (FVec Ideal S768x768x128 .f32) (after (ops (F := Ideal)) V (Proc.devRef .tc main_call2_v2))) idx = 1 :=
  ((congrFun (rd_main_call2_v2 (F := Ideal) V) _).trans (broadcastInDim_scalar_apply _ _ _)).trans ((congrFun (rd_main_call2_cst (F := Ideal) V) _).trans Ideal.ofBits_one_f32)

theorem at_r53 (idx : S768x768x128.Idx) : (@id (FVec Ideal S768x768x128 .f32) (after (ops (F := Ideal)) V (Proc.devRef .tc main_call2_v4))) idx = 1 :=
  ((congrFun (rd_main_call2_v4 (F := Ideal) V) _).trans (broadcastInDim_scalar_apply _ _ _)).trans ((congrFun (rd_main_call2_cst_0 (F := Ideal) V) _).trans Ideal.ofBits_one_f32)

/-- The outlined `silu`: the argument times the reciprocal of one plus the exponential of its negation. -/
theorem at_r55 (idx : S768x768x128.Idx) : (@id (FVec Ideal S768x768x128 .f32) (after (ops (F := Ideal)) V (Proc.devRef .tc main_v52))) idx = Cert.Spec.silu ((@id (FVec Ideal S768x768x128 .f32) (after (ops (F := Ideal)) V (Proc.devRef .tc main_v51))) idx) := by
  rw [show (@id (FVec Ideal S768x768x128 .f32) (after (ops (F := Ideal)) V (Proc.devRef .tc main_v52))) idx = (@id (FVec Ideal S768x768x128 .f32) (after (ops (F := Ideal)) V (Proc.devRef .tc main_v51))) idx * (@id (FVec Ideal S768x768x128 .f32) (after (ops (F := Ideal)) V (Proc.devRef .tc main_call2_v5))) idx from congrFun (rd_main_v52 (F := Ideal) V) _,
    show (@id (FVec Ideal S768x768x128 .f32) (after (ops (F := Ideal)) V (Proc.devRef .tc main_call2_v5))) idx = Ideal.div ((@id (FVec Ideal S768x768x128 .f32) (after (ops (F := Ideal)) V (Proc.devRef .tc main_call2_v4))) idx) ((@id (FVec Ideal S768x768x128 .f32) (after (ops (F := Ideal)) V (Proc.devRef .tc main_call2_v3))) idx) from congrFun (rd_main_call2_v5 (F := Ideal) V) _, at_r53,
    show (@id (FVec Ideal S768x768x128 .f32) (after (ops (F := Ideal)) V (Proc.devRef .tc main_call2_v3))) idx = (@id (FVec Ideal S768x768x128 .f32) (after (ops (F := Ideal)) V (Proc.devRef .tc main_call2_v2))) idx + (@id (FVec Ideal S768x768x128 .f32) (after (ops (F := Ideal)) V (Proc.devRef .tc main_call2_v1))) idx from congrFun (rd_main_call2_v3 (F := Ideal) V) _, at_r50,
    show (@id (FVec Ideal S768x768x128 .f32) (after (ops (F := Ideal)) V (Proc.devRef .tc main_call2_v1))) idx = Ideal.exp ((@id (FVec Ideal S768x768x128 .f32) (after (ops (F := Ideal)) V (Proc.devRef .tc main_call2_v0))) idx) from congrFun (rd_main_call2_v1 (F := Ideal) V) _,
    show (@id (FVec Ideal S768x768x128 .f32) (after (ops (F := Ideal)) V (Proc.devRef .tc main_call2_v0))) idx = -((@id (FVec Ideal S768x768x128 .f32) (after (ops (F := Ideal)) V (Proc.devRef .tc main_v51))) idx) from congrFun (rd_main_call2_v0 (F := Ideal) V) _]
  rfl

/-- The sum over the sending nodes of the activated pre-activations. -/
theorem at_r57 (i : Fin 768) (d : Fin 128) : (@id (FVec Ideal S768x128 .f32) (after (ops (F := Ideal)) V (Proc.devRef .tc main_v53))) (ix2 i d) = ∑ j : Fin 768, Cert.Spec.silu (Cert.Spec.pre (fun i k => (@id (FVec Ideal S768x128 .f32) (after (ops (F := Ideal)) V (Proc.devRef .tc main_v6))) (ix2 i k)) (fun i k => (@id (FVec Ideal S768x3 .f32) (after (ops (F := Ideal)) V (Proc.devRef .tc main_v13))) (ix2 i k)) (fun (k : Fin 128) (d : Fin 128) => (@id (FVec Ideal S3x257x128 .f32) (after (ops (F := Ideal)) V (Proc.devRef .tc main_arg2))) (ix3 (0 : Fin 3) (⟨k.val, by omega⟩ : Fin 257) d)) (fun (k : Fin 128) (d : Fin 128) => (@id (FVec Ideal S3x257x128 .f32) (after (ops (F := Ideal)) V (Proc.devRef .tc main_arg2))) (ix3 (0 : Fin 3) (⟨128 + k.val, by omega⟩ : Fin 257) d)) (fun (d : Fin 128) => (@id (FVec Ideal S3x257x128 .f32) (after (ops (F := Ideal)) V (Proc.devRef .tc main_arg2))) (ix3 (0 : Fin 3) (⟨256, by omega⟩ : Fin 257) d)) (fun (d : Fin 128) => (@id (FVec Ideal S3x128 .f32) (after (ops (F := Ideal)) V (Proc.devRef .tc main_arg3))) (ix2 (0 : Fin 3) d)) i j d) := by
  have hr : Shape.Reduces S768x768x128 [1] S768x128 := by decide
  have e : (@id (FVec Ideal S768x128 .f32) (after (ops (F := Ideal)) V (Proc.devRef .tc main_v53))) (ix2 i d)
      = Ideal.hostReduceAdd reducesTo_S768x768x128_S768x128_d1 (@id (FVec Ideal S768x768x128 .f32) (after (ops (F := Ideal)) V (Proc.devRef .tc main_v52))) ((@id (FVec Ideal S_ .f32) (after (ops (F := Ideal)) V (Proc.devRef .tc main_cst_7))) (Shape.Idx.first h_S_)) (ix2 i d) := congrFun (rd_main_v53 (F := Ideal) V) _
  rw [e, Ideal.hostReduceAdd_single _ hr, show (@id (FVec Ideal S_ .f32) (after (ops (F := Ideal)) V (Proc.devRef .tc main_cst_7))) (Shape.Idx.first h_S_) = 0 from (congrFun (rd_main_cst_7 (F := Ideal) V) _).trans Ideal.ofBits_zero_f32, zero_add]
  show ∑ j : Fin 768, (@id (FVec Ideal S768x768x128 .f32) (after (ops (F := Ideal)) V (Proc.devRef .tc main_v52))) (hr.lift (ix2 i d) j) = _
  refine Finset.sum_congr rfl fun j _ => ?_
  rw [show hr.lift (ix2 i d) j = (ix3 i j d) from (funext fun a => Fin.ext (match a with | ⟨0, _⟩ => rfl | ⟨1, _⟩ => rfl | ⟨2, _⟩ => rfl))]
  rw [at_r55, at_r46]

theorem at_r59 (idx : S768x128.Idx) : (@id (FVec Ideal S768x128 .f32) (after (ops (F := Ideal)) V (Proc.devRef .tc main_v54))) idx = ((768 : ℝ) : EReal) :=
  ((congrFun (rd_main_v54 (F := Ideal) V) _).trans (broadcastInDim_scalar_apply _ _ _)).trans ((congrFun (rd_main_cst_8 (F := Ideal) V) _).trans ofBits_768)

/-- The mean: the quotient by 768 is the product with its reciprocal. -/
theorem at_r60 (i : Fin 768) (d : Fin 128) : (@id (FVec Ideal S768x128 .f32) (after (ops (F := Ideal)) V (Proc.devRef .tc main_v55))) (ix2 i d) = (∑ j : Fin 768, Cert.Spec.silu (Cert.Spec.pre (fun i k => (@id (FVec Ideal S768x128 .f32) (after (ops (F := Ideal)) V (Proc.devRef .tc main_v6))) (ix2 i k)) (fun i k => (@id (FVec Ideal S768x3 .f32) (after (ops (F := Ideal)) V (Proc.devRef .tc main_v13))) (ix2 i k)) (fun (k : Fin 128) (d : Fin 128) => (@id (FVec Ideal S3x257x128 .f32) (after (ops (F := Ideal)) V (Proc.devRef .tc main_arg2))) (ix3 (0 : Fin 3) (⟨k.val, by omega⟩ : Fin 257) d)) (fun (k : Fin 128) (d : Fin 128) => (@id (FVec Ideal S3x257x128 .f32) (after (ops (F := Ideal)) V (Proc.devRef .tc main_arg2))) (ix3 (0 : Fin 3) (⟨128 + k.val, by omega⟩ : Fin 257) d)) (fun (d : Fin 128) => (@id (FVec Ideal S3x257x128 .f32) (after (ops (F := Ideal)) V (Proc.devRef .tc main_arg2))) (ix3 (0 : Fin 3) (⟨256, by omega⟩ : Fin 257) d)) (fun (d : Fin 128) => (@id (FVec Ideal S3x128 .f32) (after (ops (F := Ideal)) V (Proc.devRef .tc main_arg3))) (ix2 (0 : Fin 3) d)) i j d)) * ((1 / 768 : ℝ) : EReal) := by
  rw [show (@id (FVec Ideal S768x128 .f32) (after (ops (F := Ideal)) V (Proc.devRef .tc main_v55))) (ix2 i d) = Ideal.div ((@id (FVec Ideal S768x128 .f32) (after (ops (F := Ideal)) V (Proc.devRef .tc main_v53))) (ix2 i d)) ((@id (FVec Ideal S768x128 .f32) (after (ops (F := Ideal)) V (Proc.devRef .tc main_v54))) (ix2 i d)) from congrFun (rd_main_v55 (F := Ideal) V) _, at_r59,
    Ideal.div_coe (by norm_num : (768 : ℝ) ≠ 0), at_r57]

theorem at_r62 (k d : Fin 128) : (@id (FVec Ideal S128x128 .f32) (after (ops (F := Ideal)) V (Proc.devRef .tc main_v57))) (ix2 k d) = (@id (FVec Ideal S3x128x128 .f32) (after (ops (F := Ideal)) V (Proc.devRef .tc main_arg4))) (ix3 (0 : Fin 3) k d) :=
  ((congrFun (rd_main_v57 (F := Ideal) V) _).trans (shapeCast_1ab_ab_apply _ _ k d)).trans
    ((congrFun (rd_main_v56 (F := Ideal) V) _).trans (extractStridedSlice_apply _ _ _ _ (ix3 (0 : Fin 3) k d) (fun a => match a with | ⟨0, _⟩ => rfl | ⟨1, _⟩ => (Nat.zero_add _).symm | ⟨2, _⟩ => (Nat.zero_add _).symm)))

theorem at_r63 (i : Fin 768) (d : Fin 128) : (@id (FVec Ideal S768x128 .f32) (after (ops (F := Ideal)) V (Proc.devRef .tc main_v58))) (ix2 i d)
    = ∑ k : Fin 128, ((∑ j : Fin 768, Cert.Spec.silu (Cert.Spec.pre (fun i k => (@id (FVec Ideal S768x128 .f32) (after (ops (F := Ideal)) V (Proc.devRef .tc main_v6))) (ix2 i k)) (fun i k => (@id (FVec Ideal S768x3 .f32) (after (ops (F := Ideal)) V (Proc.devRef .tc main_v13))) (ix2 i k)) (fun (k : Fin 128) (d : Fin 128) => (@id (FVec Ideal S3x257x128 .f32) (after (ops (F := Ideal)) V (Proc.devRef .tc main_arg2))) (ix3 (0 : Fin 3) (⟨k.val, by omega⟩ : Fin 257) d)) (fun (k : Fin 128) (d : Fin 128) => (@id (FVec Ideal S3x257x128 .f32) (after (ops (F := Ideal)) V (Proc.devRef .tc main_arg2))) (ix3 (0 : Fin 3) (⟨128 + k.val, by omega⟩ : Fin 257) d)) (fun (d : Fin 128) => (@id (FVec Ideal S3x257x128 .f32) (after (ops (F := Ideal)) V (Proc.devRef .tc main_arg2))) (ix3 (0 : Fin 3) (⟨256, by omega⟩ : Fin 257) d)) (fun (d : Fin 128) => (@id (FVec Ideal S3x128 .f32) (after (ops (F := Ideal)) V (Proc.devRef .tc main_arg3))) (ix2 (0 : Fin 3) d)) i j k)) * ((1 / 768 : ℝ) : EReal)) * (@id (FVec Ideal S3x128x128 .f32) (after (ops (F := Ideal)) V (Proc.devRef .tc main_arg4))) (ix3 (0 : Fin 3) k d) := by
  rw [show (@id (FVec Ideal S768x128 .f32) (after (ops (F := Ideal)) V (Proc.devRef .tc main_v58))) (ix2 i d) = ∑ k : Fin 128, (@id (FVec Ideal S768x128 .f32) (after (ops (F := Ideal)) V (Proc.devRef .tc main_v55))) (ix2 i k) * (@id (FVec Ideal S128x128 .f32) (after (ops (F := Ideal)) V (Proc.devRef .tc main_v57))) (ix2 k d) from
    (congrFun (rd_main_v58 (F := Ideal) V) _).trans (Cert.Lib.dotGeneral_plain_apply _ _ _ _ i d)]
  exact Finset.sum_congr rfl fun k _ => by rw [at_r60, at_r62]

theorem at_r67 (i : Fin 768) (d : Fin 128) : (@id (FVec Ideal S768x128 .f32) (after (ops (F := Ideal)) V (Proc.devRef .tc main_v62))) (ix2 i d) = (@id (FVec Ideal S3x128 .f32) (after (ops (F := Ideal)) V (Proc.devRef .tc main_arg5))) (ix2 (0 : Fin 3) d) :=
  ((congrFun (rd_main_v62 (F := Ideal) V) _).trans (broadcastInDim_apply _ _ _ _ (ix2 (0 : Fin 1) d) (fun a => match a with | ⟨0, _⟩ => rfl | ⟨1, _⟩ => rfl))).trans
    (((congrFun (rd_main_v61 (F := Ideal) V) _).trans (broadcastInDim_apply _ _ _ _ (ix1 d) (fun a => match a with | ⟨0, _⟩ => rfl))).trans
      (((congrFun (rd_main_v60 (F := Ideal) V) _).trans (shapeCast_1a_a_apply _ _ d)).trans
        ((congrFun (rd_main_v59 (F := Ideal) V) _).trans (slice2_axis0_apply 0 _ _ (0 : Fin 1) d (0 : Fin 3) rfl))))

/-- The layer's new features. -/
theorem at_r109 (i : Fin 768) (d : Fin 128) :
    (@id (FVec Ideal S768x128 .f32) (after (ops (F := Ideal)) V (Proc.devRef .tc main_v94))) (ix2 i d) = Cert.Spec.layerH (fun i k => (@id (FVec Ideal S768x128 .f32) (after (ops (F := Ideal)) V (Proc.devRef .tc main_v6))) (ix2 i k)) (fun i k => (@id (FVec Ideal S768x3 .f32) (after (ops (F := Ideal)) V (Proc.devRef .tc main_v13))) (ix2 i k)) (fun (k : Fin 128) (d : Fin 128) => (@id (FVec Ideal S3x257x128 .f32) (after (ops (F := Ideal)) V (Proc.devRef .tc main_arg2))) (ix3 (0 : Fin 3) (⟨k.val, by omega⟩ : Fin 257) d)) (fun (k : Fin 128) (d : Fin 128) => (@id (FVec Ideal S3x257x128 .f32) (after (ops (F := Ideal)) V (Proc.devRef .tc main_arg2))) (ix3 (0 : Fin 3) (⟨128 + k.val, by omega⟩ : Fin 257) d)) (fun (d : Fin 128) => (@id (FVec Ideal S3x257x128 .f32) (after (ops (F := Ideal)) V (Proc.devRef .tc main_arg2))) (ix3 (0 : Fin 3) (⟨256, by omega⟩ : Fin 257) d)) (fun (d : Fin 128) => (@id (FVec Ideal S3x128 .f32) (after (ops (F := Ideal)) V (Proc.devRef .tc main_arg3))) (ix2 (0 : Fin 3) d)) (fun (k : Fin 128) (d : Fin 128) => (@id (FVec Ideal S3x128x128 .f32) (after (ops (F := Ideal)) V (Proc.devRef .tc main_arg4))) (ix3 (0 : Fin 3) k d)) (fun (d : Fin 128) => (@id (FVec Ideal S3x128 .f32) (after (ops (F := Ideal)) V (Proc.devRef .tc main_arg5))) (ix2 (0 : Fin 3) d)) i d := by
  rw [show (@id (FVec Ideal S768x128 .f32) (after (ops (F := Ideal)) V (Proc.devRef .tc main_v94))) (ix2 i d) = (@id (FVec Ideal S768x128 .f32) (after (ops (F := Ideal)) V (Proc.devRef .tc main_v6))) (ix2 i d) + (@id (FVec Ideal S768x128 .f32) (after (ops (F := Ideal)) V (Proc.devRef .tc main_v63))) (ix2 i d) from congrFun (rd_main_v94 (F := Ideal) V) _,
    show (@id (FVec Ideal S768x128 .f32) (after (ops (F := Ideal)) V (Proc.devRef .tc main_v63))) (ix2 i d) = (@id (FVec Ideal S768x128 .f32) (after (ops (F := Ideal)) V (Proc.devRef .tc main_v58))) (ix2 i d) + (@id (FVec Ideal S768x128 .f32) (after (ops (F := Ideal)) V (Proc.devRef .tc main_v62))) (ix2 i d) from congrFun (rd_main_v63 (F := Ideal) V) _, at_r63, at_r67]
  rfl

theorem at_r70 (r : Fin 257) : (@id (FVec Ideal S257x1 .f32) (after (ops (F := Ideal)) V (Proc.devRef .tc main_v65))) (ix2 r (0 : Fin 1)) = (@id (FVec Ideal S3x257x1 .f32) (after (ops (F := Ideal)) V (Proc.devRef .tc main_arg6))) (ix3 (0 : Fin 3) r (0 : Fin 1)) :=
  ((congrFun (rd_main_v65 (F := Ideal) V) _).trans (shapeCast_1ab_ab_apply _ _ r (0 : Fin 1))).trans
    ((congrFun (rd_main_v64 (F := Ideal) V) _).trans (extractStridedSlice_apply _ _ _ _ (ix3 (0 : Fin 3) r (0 : Fin 1)) (fun a => match a with | ⟨0, _⟩ => rfl | ⟨1, _⟩ => (Nat.zero_add _).symm | ⟨2, _⟩ => (Nat.zero_add _).symm)))

theorem at_r71 (k : Fin 128) : (@id (FVec Ideal S128x1 .f32) (after (ops (F := Ideal)) V (Proc.devRef .tc main_v66))) (ix2 k (0 : Fin 1)) = (@id (FVec Ideal S3x257x1 .f32) (after (ops (F := Ideal)) V (Proc.devRef .tc main_arg6))) (ix3 (0 : Fin 3) (⟨k.val, by omega⟩ : Fin 257) (0 : Fin 1)) :=
  ((congrFun (rd_main_v66 (F := Ideal) V) _).trans (slice2_axis0_apply 0 _ _ k (0 : Fin 1) (⟨k.val, by omega⟩ : Fin 257) (Nat.zero_add _).symm)).trans (at_r70 V _)

theorem at_r74 (k : Fin 128) : (@id (FVec Ideal S128x1 .f32) (after (ops (F := Ideal)) V (Proc.devRef .tc main_v69))) (ix2 k (0 : Fin 1)) = (@id (FVec Ideal S3x257x1 .f32) (after (ops (F := Ideal)) V (Proc.devRef .tc main_arg6))) (ix3 (0 : Fin 3) (⟨128 + k.val, by omega⟩ : Fin 257) (0 : Fin 1)) :=
  ((congrFun (rd_main_v69 (F := Ideal) V) _).trans (slice2_axis0_apply 128 _ _ k (0 : Fin 1) (⟨128 + k.val, by omega⟩ : Fin 257) rfl)).trans (at_r70 V _)

theorem at_r81 : (@id (FVec Ideal S1x1 .f32) (after (ops (F := Ideal)) V (Proc.devRef .tc main_v76))) (ix2 (0 : Fin 1) (0 : Fin 1)) = (@id (FVec Ideal S3x257x1 .f32) (after (ops (F := Ideal)) V (Proc.devRef .tc main_arg6))) (ix3 (0 : Fin 3) (⟨256, by omega⟩ : Fin 257) (0 : Fin 1)) :=
  ((congrFun (rd_main_v76 (F := Ideal) V) _).trans (slice2_axis0_apply 256 _ _ (0 : Fin 1) (0 : Fin 1) (⟨256, by omega⟩ : Fin 257) rfl)).trans (at_r70 V _)

theorem at_r72 (i : Fin 768) : (@id (FVec Ideal S768x1 .f32) (after (ops (F := Ideal)) V (Proc.devRef .tc main_v67))) (ix2 i (0 : Fin 1)) = ∑ k : Fin 128, (@id (FVec Ideal S768x128 .f32) (after (ops (F := Ideal)) V (Proc.devRef .tc main_v6))) (ix2 i k) * (@id (FVec Ideal S3x257x1 .f32) (after (ops (F := Ideal)) V (Proc.devRef .tc main_arg6))) (ix3 (0 : Fin 3) (⟨k.val, by omega⟩ : Fin 257) (0 : Fin 1)) := by
  rw [show (@id (FVec Ideal S768x1 .f32) (after (ops (F := Ideal)) V (Proc.devRef .tc main_v67))) (ix2 i (0 : Fin 1)) = ∑ k : Fin 128, (@id (FVec Ideal S768x128 .f32) (after (ops (F := Ideal)) V (Proc.devRef .tc main_v6))) (ix2 i k) * (@id (FVec Ideal S128x1 .f32) (after (ops (F := Ideal)) V (Proc.devRef .tc main_v66))) (ix2 k (0 : Fin 1)) from
    (congrFun (rd_main_v67 (F := Ideal) V) _).trans (Cert.Lib.dotGeneral_plain_apply _ _ _ _ i (0 : Fin 1))]
  exact Finset.sum_congr rfl fun k _ => by rw [at_r71]

theorem at_r75 (i : Fin 768) : (@id (FVec Ideal S768x1 .f32) (after (ops (F := Ideal)) V (Proc.devRef .tc main_v70))) (ix2 i (0 : Fin 1)) = ∑ k : Fin 128, (@id (FVec Ideal S768x128 .f32) (after (ops (F := Ideal)) V (Proc.devRef .tc main_v6))) (ix2 i k) * (@id (FVec Ideal S3x257x1 .f32) (after (ops (F := Ideal)) V (Proc.devRef .tc main_arg6))) (ix3 (0 : Fin 3) (⟨128 + k.val, by omega⟩ : Fin 257) (0 : Fin 1)) := by
  rw [show (@id (FVec Ideal S768x1 .f32) (after (ops (F := Ideal)) V (Proc.devRef .tc main_v70))) (ix2 i (0 : Fin 1)) = ∑ k : Fin 128, (@id (FVec Ideal S768x128 .f32) (after (ops (F := Ideal)) V (Proc.devRef .tc main_v6))) (ix2 i k) * (@id (FVec Ideal S128x1 .f32) (after (ops (F := Ideal)) V (Proc.devRef .tc main_v69))) (ix2 k (0 : Fin 1)) from
    (congrFun (rd_main_v70 (F := Ideal) V) _).trans (Cert.Lib.dotGeneral_plain_apply _ _ _ _ i (0 : Fin 1))]
  exact Finset.sum_congr rfl fun k _ => by rw [at_r74]

theorem at_r77 (i j : Fin 768) : (@id (FVec Ideal S768x768x1 .f32) (after (ops (F := Ideal)) V (Proc.devRef .tc main_v72))) (ix3 i j (0 : Fin 1)) = (@id (FVec Ideal S768x1 .f32) (after (ops (F := Ideal)) V (Proc.devRef .tc main_v67))) (ix2 i (0 : Fin 1)) :=
  ((congrFun (rd_main_v72 (F := Ideal) V) _).trans (broadcastInDim_apply _ _ _ _ (ix3 i (0 : Fin 1) (0 : Fin 1)) (fun a => match a with | ⟨0, _⟩ => rfl | ⟨1, _⟩ => rfl | ⟨2, _⟩ => rfl))).trans
    ((congrFun (rd_main_v68 (F := Ideal) V) _).trans (broadcastInDim_apply _ _ _ _ (ix2 i (0 : Fin 1)) (fun a => match a with | ⟨0, _⟩ => rfl | ⟨1, _⟩ => rfl)))

theorem at_r78 (i j : Fin 768) : (@id (FVec Ideal S768x768x1 .f32) (after (ops (F := Ideal)) V (Proc.devRef .tc main_v73))) (ix3 i j (0 : Fin 1)) = (@id (FVec Ideal S768x1 .f32) (after (ops (F := Ideal)) V (Proc.devRef .tc main_v70))) (ix2 j (0 : Fin 1)) :=
  ((congrFun (rd_main_v73 (F := Ideal) V) _).trans (broadcastInDim_apply _ _ _ _ (ix3 (0 : Fin 1) j (0 : Fin 1)) (fun a => match a with | ⟨0, _⟩ => rfl | ⟨1, _⟩ => rfl | ⟨2, _⟩ => rfl))).trans
    ((congrFun (rd_main_v71 (F := Ideal) V) _).trans (broadcastInDim_apply _ _ _ _ (ix2 j (0 : Fin 1)) (fun a => match a with | ⟨0, _⟩ => rfl | ⟨1, _⟩ => rfl)))

theorem at_r80 (i j : Fin 768) : (@id (FVec Ideal S768x768x1 .f32) (after (ops (F := Ideal)) V (Proc.devRef .tc main_v75))) (ix3 i j (0 : Fin 1)) = (@id (FVec Ideal S768x768 .f32) (after (ops (F := Ideal)) V (Proc.devRef .tc main_v27))) (ix2 i j) :=
  (congrFun (rd_main_v75 (F := Ideal) V) _).trans (broadcastInDim_apply _ _ _ _ (ix2 i j) (fun a => match a with | ⟨0, _⟩ => rfl | ⟨1, _⟩ => rfl))

theorem at_r84 (i j : Fin 768) : (@id (FVec Ideal S768x768x1 .f32) (after (ops (F := Ideal)) V (Proc.devRef .tc main_v79))) (ix3 i j (0 : Fin 1)) = (@id (FVec Ideal S3x257x1 .f32) (after (ops (F := Ideal)) V (Proc.devRef .tc main_arg6))) (ix3 (0 : Fin 3) (⟨256, by omega⟩ : Fin 257) (0 : Fin 1)) :=
  ((congrFun (rd_main_v79 (F := Ideal) V) _).trans (broadcastInDim_apply _ _ _ _ (ix3 (0 : Fin 1) (0 : Fin 1) (0 : Fin 1)) (fun a => match a with | ⟨0, _⟩ => rfl | ⟨1, _⟩ => rfl | ⟨2, _⟩ => rfl))).trans
    (((congrFun (rd_main_v78 (F := Ideal) V) _).trans (broadcastInDim_apply _ _ _ _ (ix1 (0 : Fin 1)) (fun a => match a with | ⟨0, _⟩ => rfl))).trans
      (((congrFun (rd_main_v77 (F := Ideal) V) _).trans (shapeCast_1a_a_apply _ _ (0 : Fin 1))).trans (at_r81 V)))

theorem at_r90 (i j : Fin 768) : (@id (FVec Ideal S768x768x1 .f32) (after (ops (F := Ideal)) V (Proc.devRef .tc main_v85))) (ix3 i j (0 : Fin 1)) = (@id (FVec Ideal S3x1 .f32) (after (ops (F := Ideal)) V (Proc.devRef .tc main_arg7))) (ix2 (0 : Fin 3) (0 : Fin 1)) :=
  ((congrFun (rd_main_v85 (F := Ideal) V) _).trans (broadcastInDim_apply _ _ _ _ (ix3 (0 : Fin 1) (0 : Fin 1) (0 : Fin 1)) (fun a => match a with | ⟨0, _⟩ => rfl | ⟨1, _⟩ => rfl | ⟨2, _⟩ => rfl))).trans
    (((congrFun (rd_main_v84 (F := Ideal) V) _).trans (broadcastInDim_apply _ _ _ _ (ix1 (0 : Fin 1)) (fun a => match a with | ⟨0, _⟩ => rfl))).trans
      (((congrFun (rd_main_v83 (F := Ideal) V) _).trans (shapeCast_1a_a_apply _ _ (0 : Fin 1))).trans
        ((congrFun (rd_main_v82 (F := Ideal) V) _).trans (slice2_axis0_apply 0 _ _ (0 : Fin 1) (0 : Fin 1) (0 : Fin 3) rfl))))

/-- The coordinate weight's pre-activation. -/
theorem at_r91 (i j : Fin 768) : (@id (FVec Ideal S768x768x1 .f32) (after (ops (F := Ideal)) V (Proc.devRef .tc main_v86))) (ix3 i j (0 : Fin 1)) = Cert.Spec.wpre (fun i k => (@id (FVec Ideal S768x128 .f32) (after (ops (F := Ideal)) V (Proc.devRef .tc main_v6))) (ix2 i k)) (fun i k => (@id (FVec Ideal S768x3 .f32) (after (ops (F := Ideal)) V (Proc.devRef .tc main_v13))) (ix2 i k)) (fun (k : Fin 128) => (@id (FVec Ideal S3x257x1 .f32) (after (ops (F := Ideal)) V (Proc.devRef .tc main_arg6))) (ix3 (0 : Fin 3) (⟨k.val, by omega⟩ : Fin 257) (0 : Fin 1))) (fun (k : Fin 128) => (@id (FVec Ideal S3x257x1 .f32) (after (ops (F := Ideal)) V (Proc.devRef .tc main_arg6))) (ix3 (0 : Fin 3) (⟨128 + k.val, by omega⟩ : Fin 257) (0 : Fin 1))) ((@id (FVec Ideal S3x257x1 .f32) (after (ops (F := Ideal)) V (Proc.devRef .tc main_arg6))) (ix3 (0 : Fin 3) (⟨256, by omega⟩ : Fin 257) (0 : Fin 1))) ((@id (FVec Ideal S3x1 .f32) (after (ops (F := Ideal)) V (Proc.devRef .tc main_arg7))) (ix2 (0 : Fin 3) (0 : Fin 1))) i j := by
  rw [show (@id (FVec Ideal S768x768x1 .f32) (after (ops (F := Ideal)) V (Proc.devRef .tc main_v86))) (ix3 i j (0 : Fin 1)) = (@id (FVec Ideal S768x768x1 .f32) (after (ops (F := Ideal)) V (Proc.devRef .tc main_v81))) (ix3 i j (0 : Fin 1)) + (@id (FVec Ideal S768x768x1 .f32) (after (ops (F := Ideal)) V (Proc.devRef .tc main_v85))) (ix3 i j (0 : Fin 1)) from congrFun (rd_main_v86 (F := Ideal) V) _,
    show (@id (FVec Ideal S768x768x1 .f32) (after (ops (F := Ideal)) V (Proc.devRef .tc main_v81))) (ix3 i j (0 : Fin 1)) = (@id (FVec Ideal S768x768x1 .f32) (after (ops (F := Ideal)) V (Proc.devRef .tc main_v74))) (ix3 i j (0 : Fin 1)) + (@id (FVec Ideal S768x768x1 .f32) (after (ops (F := Ideal)) V (Proc.devRef .tc main_v80))) (ix3 i j (0 : Fin 1)) from congrFun (rd_main_v81 (F := Ideal) V) _,
    show (@id (FVec Ideal S768x768x1 .f32) (after (ops (F := Ideal)) V (Proc.devRef .tc main_v74))) (ix3 i j (0 : Fin 1)) = (@id (FVec Ideal S768x768x1 .f32) (after (ops (F := Ideal)) V (Proc.devRef .tc main_v72))) (ix3 i j (0 : Fin 1)) + (@id (FVec Ideal S768x768x1 .f32) (after (ops (F := Ideal)) V (Proc.devRef .tc main_v73))) (ix3 i j (0 : Fin 1)) from congrFun (rd_main_v74 (F := Ideal) V) _,
    show (@id (FVec Ideal S768x768x1 .f32) (after (ops (F := Ideal)) V (Proc.devRef .tc main_v80))) (ix3 i j (0 : Fin 1)) = (@id (FVec Ideal S768x768x1 .f32) (after (ops (F := Ideal)) V (Proc.devRef .tc main_v75))) (ix3 i j (0 : Fin 1)) * (@id (FVec Ideal S768x768x1 .f32) (after (ops (F := Ideal)) V (Proc.devRef .tc main_v79))) (ix3 i j (0 : Fin 1)) from congrFun (rd_main_v80 (F := Ideal) V) _,
    at_r77, at_r78, at_r80, at_r84, at_r90, at_r72, at_r75, at_r22]
  rfl

theorem at_r95 (idx : S768x768x1.Idx) : (@id (FVec Ideal S768x768x1 .f32) (after (ops (F := Ideal)) V (Proc.devRef .tc main_call3_v2))) idx = 1 :=
  ((congrFun (rd_main_call3_v2 (F := Ideal) V) _).trans (broadcastInDim_scalar_apply _ _ _)).trans ((congrFun (rd_main_call3_cst (F := Ideal) V) _).trans Ideal.ofBits_one_f32)

theorem at_r98 (idx : S768x768x1.Idx) : (@id (FVec Ideal S768x768x1 .f32) (after (ops (F := Ideal)) V (Proc.devRef .tc main_call3_v4))) idx = 1 :=
  ((congrFun (rd_main_call3_v4 (F := Ideal) V) _).trans (broadcastInDim_scalar_apply _ _ _)).trans ((congrFun (rd_main_call3_cst_0 (F := Ideal) V) _).trans Ideal.ofBits_one_f32)

/-- The outlined `silu`: the argument times the reciprocal of one plus the exponential of its negation. -/
theorem at_r100 (idx : S768x768x1.Idx) : (@id (FVec Ideal S768x768x1 .f32) (after (ops (F := Ideal)) V (Proc.devRef .tc main_v87))) idx = Cert.Spec.silu ((@id (FVec Ideal S768x768x1 .f32) (after (ops (F := Ideal)) V (Proc.devRef .tc main_v86))) idx) := by
  rw [show (@id (FVec Ideal S768x768x1 .f32) (after (ops (F := Ideal)) V (Proc.devRef .tc main_v87))) idx = (@id (FVec Ideal S768x768x1 .f32) (after (ops (F := Ideal)) V (Proc.devRef .tc main_v86))) idx * (@id (FVec Ideal S768x768x1 .f32) (after (ops (F := Ideal)) V (Proc.devRef .tc main_call3_v5))) idx from congrFun (rd_main_v87 (F := Ideal) V) _,
    show (@id (FVec Ideal S768x768x1 .f32) (after (ops (F := Ideal)) V (Proc.devRef .tc main_call3_v5))) idx = Ideal.div ((@id (FVec Ideal S768x768x1 .f32) (after (ops (F := Ideal)) V (Proc.devRef .tc main_call3_v4))) idx) ((@id (FVec Ideal S768x768x1 .f32) (after (ops (F := Ideal)) V (Proc.devRef .tc main_call3_v3))) idx) from congrFun (rd_main_call3_v5 (F := Ideal) V) _, at_r98,
    show (@id (FVec Ideal S768x768x1 .f32) (after (ops (F := Ideal)) V (Proc.devRef .tc main_call3_v3))) idx = (@id (FVec Ideal S768x768x1 .f32) (after (ops (F := Ideal)) V (Proc.devRef .tc main_call3_v2))) idx + (@id (FVec Ideal S768x768x1 .f32) (after (ops (F := Ideal)) V (Proc.devRef .tc main_call3_v1))) idx from congrFun (rd_main_call3_v3 (F := Ideal) V) _, at_r95,
    show (@id (FVec Ideal S768x768x1 .f32) (after (ops (F := Ideal)) V (Proc.devRef .tc main_call3_v1))) idx = Ideal.exp ((@id (FVec Ideal S768x768x1 .f32) (after (ops (F := Ideal)) V (Proc.devRef .tc main_call3_v0))) idx) from congrFun (rd_main_call3_v1 (F := Ideal) V) _,
    show (@id (FVec Ideal S768x768x1 .f32) (after (ops (F := Ideal)) V (Proc.devRef .tc main_call3_v0))) idx = -((@id (FVec Ideal S768x768x1 .f32) (after (ops (F := Ideal)) V (Proc.devRef .tc main_v86))) idx) from congrFun (rd_main_call3_v0 (F := Ideal) V) _]
  rfl

theorem at_r101 (i j : Fin 768) (k : Fin 3) : (@id (FVec Ideal S768x768x3 .f32) (after (ops (F := Ideal)) V (Proc.devRef .tc main_v88))) (ix3 i j k) = (@id (FVec Ideal S768x768x1 .f32) (after (ops (F := Ideal)) V (Proc.devRef .tc main_v87))) (ix3 i j (0 : Fin 1)) :=
  (congrFun (rd_main_v88 (F := Ideal) V) _).trans (broadcastInDim_apply _ _ _ _ (ix3 i j (0 : Fin 1)) (fun a => match a with | ⟨0, _⟩ => rfl | ⟨1, _⟩ => rfl | ⟨2, _⟩ => rfl))

/-- The sum over the sending nodes of the weighted coordinate differences. -/
theorem at_r104 (i : Fin 768) (k : Fin 3) : (@id (FVec Ideal S768x3 .f32) (after (ops (F := Ideal)) V (Proc.devRef .tc main_v90))) (ix2 i k) = ∑ j : Fin 768, Cert.Spec.silu (Cert.Spec.wpre (fun i k => (@id (FVec Ideal S768x128 .f32) (after (ops (F := Ideal)) V (Proc.devRef .tc main_v6))) (ix2 i k)) (fun i k => (@id (FVec Ideal S768x3 .f32) (after (ops (F := Ideal)) V (Proc.devRef .tc main_v13))) (ix2 i k)) (fun (k : Fin 128) => (@id (FVec Ideal S3x257x1 .f32) (after (ops (F := Ideal)) V (Proc.devRef .tc main_arg6))) (ix3 (0 : Fin 3) (⟨k.val, by omega⟩ : Fin 257) (0 : Fin 1))) (fun (k : Fin 128) => (@id (FVec Ideal S3x257x1 .f32) (after (ops (F := Ideal)) V (Proc.devRef .tc main_arg6))) (ix3 (0 : Fin 3) (⟨128 + k.val, by omega⟩ : Fin 257) (0 : Fin 1))) ((@id (FVec Ideal S3x257x1 .f32) (after (ops (F := Ideal)) V (Proc.devRef .tc main_arg6))) (ix3 (0 : Fin 3) (⟨256, by omega⟩ : Fin 257) (0 : Fin 1))) ((@id (FVec Ideal S3x1 .f32) (after (ops (F := Ideal)) V (Proc.devRef .tc main_arg7))) (ix2 (0 : Fin 3) (0 : Fin 1))) i j) * Cert.Spec.rel (fun i k => (@id (FVec Ideal S768x3 .f32) (after (ops (F := Ideal)) V (Proc.devRef .tc main_v13))) (ix2 i k)) i j k := by
  have hr : Shape.Reduces S768x768x3 [1] S768x3 := by decide
  have e : (@id (FVec Ideal S768x3 .f32) (after (ops (F := Ideal)) V (Proc.devRef .tc main_v90))) (ix2 i k)
      = Ideal.hostReduceAdd reducesTo_S768x768x3_S768x3_d1 (@id (FVec Ideal S768x768x3 .f32) (after (ops (F := Ideal)) V (Proc.devRef .tc main_v89))) ((@id (FVec Ideal S_ .f32) (after (ops (F := Ideal)) V (Proc.devRef .tc main_cst_9))) (Shape.Idx.first h_S_)) (ix2 i k) := congrFun (rd_main_v90 (F := Ideal) V) _
  rw [e, Ideal.hostReduceAdd_single _ hr, show (@id (FVec Ideal S_ .f32) (after (ops (F := Ideal)) V (Proc.devRef .tc main_cst_9))) (Shape.Idx.first h_S_) = 0 from (congrFun (rd_main_cst_9 (F := Ideal) V) _).trans Ideal.ofBits_zero_f32, zero_add]
  show ∑ j : Fin 768, (@id (FVec Ideal S768x768x3 .f32) (after (ops (F := Ideal)) V (Proc.devRef .tc main_v89))) (hr.lift (ix2 i k) j) = _
  refine Finset.sum_congr rfl fun j _ => ?_
  rw [show hr.lift (ix2 i k) j = (ix3 i j k) from (funext fun a => Fin.ext (match a with | ⟨0, _⟩ => rfl | ⟨1, _⟩ => rfl | ⟨2, _⟩ => rfl))]
  rw [show (@id (FVec Ideal S768x768x3 .f32) (after (ops (F := Ideal)) V (Proc.devRef .tc main_v89))) (ix3 i j k) = (@id (FVec Ideal S768x768x3 .f32) (after (ops (F := Ideal)) V (Proc.devRef .tc main_v88))) (ix3 i j k) * (@id (FVec Ideal S768x768x3 .f32) (after (ops (F := Ideal)) V (Proc.devRef .tc main_v18))) (ix3 i j k) from congrFun (rd_main_v89 (F := Ideal) V) _, at_r101, at_r100, at_r91, at_r4]
  rfl

theorem at_r106 (idx : S768x3.Idx) : (@id (FVec Ideal S768x3 .f32) (after (ops (F := Ideal)) V (Proc.devRef .tc main_v91))) idx = ((768 : ℝ) : EReal) :=
  ((congrFun (rd_main_v91 (F := Ideal) V) _).trans (broadcastInDim_scalar_apply _ _ _)).trans ((congrFun (rd_main_cst_10 (F := Ideal) V) _).trans ofBits_768)

/-- The layer's new coordinates. -/
theorem at_r108 (i : Fin 768) (k : Fin 3) :
    (@id (FVec Ideal S768x3 .f32) (after (ops (F := Ideal)) V (Proc.devRef .tc main_v93))) (ix2 i k) = Cert.Spec.layerC (fun i k => (@id (FVec Ideal S768x128 .f32) (after (ops (F := Ideal)) V (Proc.devRef .tc main_v6))) (ix2 i k)) (fun i k => (@id (FVec Ideal S768x3 .f32) (after (ops (F := Ideal)) V (Proc.devRef .tc main_v13))) (ix2 i k)) (fun (k : Fin 128) => (@id (FVec Ideal S3x257x1 .f32) (after (ops (F := Ideal)) V (Proc.devRef .tc main_arg6))) (ix3 (0 : Fin 3) (⟨k.val, by omega⟩ : Fin 257) (0 : Fin 1))) (fun (k : Fin 128) => (@id (FVec Ideal S3x257x1 .f32) (after (ops (F := Ideal)) V (Proc.devRef .tc main_arg6))) (ix3 (0 : Fin 3) (⟨128 + k.val, by omega⟩ : Fin 257) (0 : Fin 1))) ((@id (FVec Ideal S3x257x1 .f32) (after (ops (F := Ideal)) V (Proc.devRef .tc main_arg6))) (ix3 (0 : Fin 3) (⟨256, by omega⟩ : Fin 257) (0 : Fin 1))) ((@id (FVec Ideal S3x1 .f32) (after (ops (F := Ideal)) V (Proc.devRef .tc main_arg7))) (ix2 (0 : Fin 3) (0 : Fin 1))) i k := by
  rw [show (@id (FVec Ideal S768x3 .f32) (after (ops (F := Ideal)) V (Proc.devRef .tc main_v93))) (ix2 i k) = (@id (FVec Ideal S768x3 .f32) (after (ops (F := Ideal)) V (Proc.devRef .tc main_v13))) (ix2 i k) + (@id (FVec Ideal S768x3 .f32) (after (ops (F := Ideal)) V (Proc.devRef .tc main_v92))) (ix2 i k) from congrFun (rd_main_v93 (F := Ideal) V) _,
    show (@id (FVec Ideal S768x3 .f32) (after (ops (F := Ideal)) V (Proc.devRef .tc main_v92))) (ix2 i k) = Ideal.div ((@id (FVec Ideal S768x3 .f32) (after (ops (F := Ideal)) V (Proc.devRef .tc main_v90))) (ix2 i k)) ((@id (FVec Ideal S768x3 .f32) (after (ops (F := Ideal)) V (Proc.devRef .tc main_v91))) (ix2 i k)) from congrFun (rd_main_v92 (F := Ideal) V) _, at_r106,
    Ideal.div_coe (by norm_num : (768 : ℝ) ≠ 0), at_r104]
  rfl

end L1

namespace L2

theorem at_r2 (i j : Fin 768) (k : Fin 3) : (@id (FVec Ideal S768x768x3 .f32) (after (ops (F := Ideal)) V (Proc.devRef .tc main_v97))) (ix3 i j k) = (@id (FVec Ideal S768x3 .f32) (after (ops (F := Ideal)) V (Proc.devRef .tc main_v93))) (ix2 i k) :=
  ((congrFun (rd_main_v97 (F := Ideal) V) _).trans (broadcastInDim_apply _ _ _ _ (ix3 i (0 : Fin 1) k) (fun a => match a with | ⟨0, _⟩ => rfl | ⟨1, _⟩ => rfl | ⟨2, _⟩ => rfl))).trans
    ((congrFun (rd_main_v95 (F := Ideal) V) _).trans (broadcastInDim_apply _ _ _ _ (ix2 i k) (fun a => match a with | ⟨0, _⟩ => rfl | ⟨1, _⟩ => rfl)))

theorem at_r3 (i j : Fin 768) (k : Fin 3) : (@id (FVec Ideal S768x768x3 .f32) (after (ops (F := Ideal)) V (Proc.devRef .tc main_v98))) (ix3 i j k) = (@id (FVec Ideal S768x3 .f32) (after (ops (F := Ideal)) V (Proc.devRef .tc main_v93))) (ix2 j k) :=
  ((congrFun (rd_main_v98 (F := Ideal) V) _).trans (broadcastInDim_apply _ _ _ _ (ix3 (0 : Fin 1) j k) (fun a => match a with | ⟨0, _⟩ => rfl | ⟨1, _⟩ => rfl | ⟨2, _⟩ => rfl))).trans
    ((congrFun (rd_main_v96 (F := Ideal) V) _).trans (broadcastInDim_apply _ _ _ _ (ix2 j k) (fun a => match a with | ⟨0, _⟩ => rfl | ⟨1, _⟩ => rfl)))

/-- The coordinate differences. -/
theorem at_r4 (i j : Fin 768) (k : Fin 3) : (@id (FVec Ideal S768x768x3 .f32) (after (ops (F := Ideal)) V (Proc.devRef .tc main_v99))) (ix3 i j k) = (@id (FVec Ideal S768x3 .f32) (after (ops (F := Ideal)) V (Proc.devRef .tc main_v93))) (ix2 i k) - (@id (FVec Ideal S768x3 .f32) (after (ops (F := Ideal)) V (Proc.devRef .tc main_v93))) (ix2 j k) := by
  rw [show (@id (FVec Ideal S768x768x3 .f32) (after (ops (F := Ideal)) V (Proc.devRef .tc main_v99))) (ix3 i j k) = (@id (FVec Ideal S768x768x3 .f32) (after (ops (F := Ideal)) V (Proc.devRef .tc main_v97))) (ix3 i j k) - (@id (FVec Ideal S768x768x3 .f32) (after (ops (F := Ideal)) V (Proc.devRef .tc main_v98))) (ix3 i j k) from congrFun (rd_main_v99 (F := Ideal) V) _, at_r2, at_r3]

/-- The squared distances: the sum from zero of the squared differences over the three coordinates. -/
theorem at_r7 (i j : Fin 768) : (@id (FVec Ideal S768x768 .f32) (after (ops (F := Ideal)) V (Proc.devRef .tc main_v101))) (ix2 i j) = ∑ k : Fin 3, ((@id (FVec Ideal S768x3 .f32) (after (ops (F := Ideal)) V (Proc.devRef .tc main_v93))) (ix2 i k) - (@id (FVec Ideal S768x3 .f32) (after (ops (F := Ideal)) V (Proc.devRef .tc main_v93))) (ix2 j k)) * ((@id (FVec Ideal S768x3 .f32) (after (ops (F := Ideal)) V (Proc.devRef .tc main_v93))) (ix2 i k) - (@id (FVec Ideal S768x3 .f32) (after (ops (F := Ideal)) V (Proc.devRef .tc main_v93))) (ix2 j k)) := by
  have hr : Shape.Reduces S768x768x3 [2] S768x768 := by decide
  have e : (@id (FVec Ideal S768x768 .f32) (after (ops (F := Ideal)) V (Proc.devRef .tc main_v101))) (ix2 i j)
      = Ideal.hostReduceAdd reducesTo_S768x768x3_S768x768_d2 (@id (FVec Ideal S768x768x3 .f32) (after (ops (F := Ideal)) V (Proc.devRef .tc main_v100))) ((@id (FVec Ideal S_ .f32) (after (ops (F := Ideal)) V (Proc.devRef .tc main_cst_11))) (Shape.Idx.first h_S_)) (ix2 i j) := congrFun (rd_main_v101 (F := Ideal) V) _
  rw [e, Ideal.hostReduceAdd_single _ hr, show (@id (FVec Ideal S_ .f32) (after (ops (F := Ideal)) V (Proc.devRef .tc main_cst_11))) (Shape.Idx.first h_S_) = 0 from (congrFun (rd_main_cst_11 (F := Ideal) V) _).trans Ideal.ofBits_zero_f32, zero_add]
  show ∑ k : Fin 3, (@id (FVec Ideal S768x768x3 .f32) (after (ops (F := Ideal)) V (Proc.devRef .tc main_v100))) (hr.lift (ix2 i j) k) = _
  refine Finset.sum_congr rfl fun k _ => ?_
  rw [show hr.lift (ix2 i j) k = ix3 i j k from funext fun a => Fin.ext (match a with | ⟨0, _⟩ => rfl | ⟨1, _⟩ => rfl | ⟨2, _⟩ => rfl)]
  rw [show (@id (FVec Ideal S768x768x3 .f32) (after (ops (F := Ideal)) V (Proc.devRef .tc main_v100))) (ix3 i j k) = (@id (FVec Ideal S768x768x3 .f32) (after (ops (F := Ideal)) V (Proc.devRef .tc main_v99))) (ix3 i j k) * (@id (FVec Ideal S768x768x3 .f32) (after (ops (F := Ideal)) V (Proc.devRef .tc main_v99))) (ix3 i j k) from congrFun (rd_main_v100 (F := Ideal) V) _, at_r4]

theorem at_r9 (idx : S768x768.Idx) : (@id (FVec Ideal S768x768 .f32) (after (ops (F := Ideal)) V (Proc.devRef .tc main_v102))) idx = 0 :=
  ((congrFun (rd_main_v102 (F := Ideal) V) _).trans (broadcastInDim_scalar_apply _ _ _)).trans ((congrFun (rd_main_cst_12 (F := Ideal) V) _).trans Ideal.ofBits_zero_f32)

theorem at_r13 (idx : S768x768.Idx) : (@id (FVec Ideal S768x768 .f32) (after (ops (F := Ideal)) V (Proc.devRef .tc main_call4_v1))) idx = 1 :=
  ((congrFun (rd_main_call4_v1 (F := Ideal) V) _).trans (broadcastInDim_scalar_apply _ _ _)).trans ((congrFun (rd_main_call4_v0 (F := Ideal) V) _).trans ((congrFun (rd_main_cst_13 (F := Ideal) V) _).trans Ideal.ofBits_one_f32))

theorem at_r17 (idx : S768x768.Idx) : (@id (FVec Ideal S768x768 .f32) (after (ops (F := Ideal)) V (Proc.devRef .tc main_v106))) idx = 0 :=
  ((congrFun (rd_main_v106 (F := Ideal) V) _).trans (broadcastInDim_scalar_apply _ _ _)).trans ((congrFun (rd_main_cst_14 (F := Ideal) V) _).trans Ideal.ofBits_zero_f32)

theorem at_r21 (idx : S768x768.Idx) : (@id (FVec Ideal S768x768 .f32) (after (ops (F := Ideal)) V (Proc.devRef .tc main_call5_v1))) idx = 0 :=
  ((congrFun (rd_main_call5_v1 (F := Ideal) V) _).trans (broadcastInDim_scalar_apply _ _ _)).trans ((congrFun (rd_main_call5_v0 (F := Ideal) V) _).trans ((congrFun (rd_main_cst_15 (F := Ideal) V) _).trans Ideal.ofBits_zero_f32))

theorem sq_eq (i j : Fin 768) : (@id (FVec Ideal S768x768 .f32) (after (ops (F := Ideal)) V (Proc.devRef .tc main_v101))) (ix2 i j) = Cert.Spec.sq (fun i k => (@id (FVec Ideal S768x3 .f32) (after (ops (F := Ideal)) V (Proc.devRef .tc main_v93))) (ix2 i k)) i j := at_r7 V i j

/-- The distance: the square root of the squared distance where that is positive (taken of one elsewhere), and zero elsewhere. -/
theorem at_r22 (i j : Fin 768) : (@id (FVec Ideal S768x768 .f32) (after (ops (F := Ideal)) V (Proc.devRef .tc main_v108))) (ix2 i j) = Cert.Spec.dist (fun i k => (@id (FVec Ideal S768x3 .f32) (after (ops (F := Ideal)) V (Proc.devRef .tc main_v93))) (ix2 i k)) i j := by
  rw [show (@id (FVec Ideal S768x768 .f32) (after (ops (F := Ideal)) V (Proc.devRef .tc main_v108))) (ix2 i j) = Scalar.select ((@id (IVec S768x768 1) (after (ops (F := Ideal)) V (Proc.devRef .tc main_v107))) (ix2 i j)) ((@id (FVec Ideal S768x768 .f32) (after (ops (F := Ideal)) V (Proc.devRef .tc main_v105))) (ix2 i j)) ((@id (FVec Ideal S768x768 .f32) (after (ops (F := Ideal)) V (Proc.devRef .tc main_call5_v1))) (ix2 i j)) from congrFun (rd_main_v108 (F := Ideal) V) _, at_r21,
    show (@id (IVec S768x768 1) (after (ops (F := Ideal)) V (Proc.devRef .tc main_v107))) (ix2 i j) = Ideal.cmp .ogt ((@id (FVec Ideal S768x768 .f32) (after (ops (F := Ideal)) V (Proc.devRef .tc main_v101))) (ix2 i j)) ((@id (FVec Ideal S768x768 .f32) (after (ops (F := Ideal)) V (Proc.devRef .tc main_v106))) (ix2 i j)) from congrFun (rd_main_v107 (F := Ideal) V) _, at_r17,
    show (@id (FVec Ideal S768x768 .f32) (after (ops (F := Ideal)) V (Proc.devRef .tc main_v105))) (ix2 i j) = Ideal.sqrt ((@id (FVec Ideal S768x768 .f32) (after (ops (F := Ideal)) V (Proc.devRef .tc main_v104))) (ix2 i j)) from congrFun (rd_main_v105 (F := Ideal) V) _,
    show (@id (FVec Ideal S768x768 .f32) (after (ops (F := Ideal)) V (Proc.devRef .tc main_v104))) (ix2 i j) = Scalar.select ((@id (IVec S768x768 1) (after (ops (F := Ideal)) V (Proc.devRef .tc main_v103))) (ix2 i j)) ((@id (FVec Ideal S768x768 .f32) (after (ops (F := Ideal)) V (Proc.devRef .tc main_v101))) (ix2 i j)) ((@id (FVec Ideal S768x768 .f32) (after (ops (F := Ideal)) V (Proc.devRef .tc main_call4_v1))) (ix2 i j)) from congrFun (rd_main_v104 (F := Ideal) V) _, at_r13,
    show (@id (IVec S768x768 1) (after (ops (F := Ideal)) V (Proc.devRef .tc main_v103))) (ix2 i j) = Ideal.cmp .ogt ((@id (FVec Ideal S768x768 .f32) (after (ops (F := Ideal)) V (Proc.devRef .tc main_v101))) (ix2 i j)) ((@id (FVec Ideal S768x768 .f32) (after (ops (F := Ideal)) V (Proc.devRef .tc main_v102))) (ix2 i j)) from congrFun (rd_main_v103 (F := Ideal) V) _, at_r9, sq_eq]
  rfl

/-- The layer's slab of the first weight array, as a matrix of 257 rows. -/
theorem at_r24 (r : Fin 257) (d : Fin 128) : (@id (FVec Ideal S257x128 .f32) (after (ops (F := Ideal)) V (Proc.devRef .tc main_v110))) (ix2 r d) = (@id (FVec Ideal S3x257x128 .f32) (after (ops (F := Ideal)) V (Proc.devRef .tc main_arg2))) (ix3 (1 : Fin 3) r d) :=
  ((congrFun (rd_main_v110 (F := Ideal) V) _).trans (shapeCast_1ab_ab_apply _ _ r d)).trans
    ((congrFun (rd_main_v109 (F := Ideal) V) _).trans (extractStridedSlice_apply _ _ _ _ (ix3 (1 : Fin 3) r d) (fun a => match a with | ⟨0, _⟩ => rfl | ⟨1, _⟩ => (Nat.zero_add _).symm | ⟨2, _⟩ => (Nat.zero_add _).symm)))

theorem at_r25 (k d : Fin 128) : (@id (FVec Ideal S128x128 .f32) (after (ops (F := Ideal)) V (Proc.devRef .tc main_v111))) (ix2 k d) = (@id (FVec Ideal S3x257x128 .f32) (after (ops (F := Ideal)) V (Proc.devRef .tc main_arg2))) (ix3 (1 : Fin 3) (⟨k.val, by omega⟩ : Fin 257) d) :=
  ((congrFun (rd_main_v111 (F := Ideal) V) _).trans (slice2_axis0_apply 0 _ _ k d (⟨k.val, by omega⟩ : Fin 257) (Nat.zero_add _).symm)).trans (at_r24 V _ d)

theorem at_r28 (k d : Fin 128) : (@id (FVec Ideal S128x128 .f32) (after (ops (F := Ideal)) V (Proc.devRef .tc main_v114))) (ix2 k d) = (@id (FVec Ideal S3x257x128 .f32) (after (ops (F := Ideal)) V (Proc.devRef .tc main_arg2))) (ix3 (1 : Fin 3) (⟨128 + k.val, by omega⟩ : Fin 257) d) :=
  ((congrFun (rd_main_v114 (F := Ideal) V) _).trans (slice2_axis0_apply 128 _ _ k d (⟨128 + k.val, by omega⟩ : Fin 257) rfl)).trans (at_r24 V _ d)

theorem at_r35 (d : Fin 128) : (@id (FVec Ideal S1x128 .f32) (after (ops (F := Ideal)) V (Proc.devRef .tc main_v121))) (ix2 (0 : Fin 1) d) = (@id (FVec Ideal S3x257x128 .f32) (after (ops (F := Ideal)) V (Proc.devRef .tc main_arg2))) (ix3 (1 : Fin 3) (⟨256, by omega⟩ : Fin 257) d) :=
  ((congrFun (rd_main_v121 (F := Ideal) V) _).trans (slice2_axis0_apply 256 _ _ (0 : Fin 1) d (⟨256, by omega⟩ : Fin 257) rfl)).trans (at_r24 V _ d)

/-- The distance's weight row, broadcast over every pair. -/
theorem at_r39 (i j : Fin 768) (d : Fin 128) : (@id (FVec Ideal S768x768x128 .f32) (after (ops (F := Ideal)) V (Proc.devRef .tc main_v125))) (ix3 i j d) = (@id (FVec Ideal S3x257x128 .f32) (after (ops (F := Ideal)) V (Proc.devRef .tc main_arg2))) (ix3 (1 : Fin 3) (⟨256, by omega⟩ : Fin 257) d) :=
  ((congrFun (rd_main_v125 (F := Ideal) V) _).trans (broadcastInDim_apply _ _ _ _ (ix3 (0 : Fin 1) (0 : Fin 1) d) (fun a => match a with | ⟨0, _⟩ => rfl | ⟨1, _⟩ => rfl | ⟨2, _⟩ => rfl))).trans
    (((congrFun (rd_main_v123 (F := Ideal) V) _).trans (broadcastInDim_apply _ _ _ _ (ix1 d) (fun a => match a with | ⟨0, _⟩ => rfl))).trans
      (((congrFun (rd_main_v122 (F := Ideal) V) _).trans (shapeCast_1a_a_apply _ _ d)).trans (at_r35 V d)))

/-- The receiving node's product: a plain sum over the contracted axis. -/
theorem at_r26 (i : Fin 768) (d : Fin 128) : (@id (FVec Ideal S768x128 .f32) (after (ops (F := Ideal)) V (Proc.devRef .tc main_v112))) (ix2 i d) = ∑ k : Fin 128, (@id (FVec Ideal S768x128 .f32) (after (ops (F := Ideal)) V (Proc.devRef .tc main_v94))) (ix2 i k) * (@id (FVec Ideal S3x257x128 .f32) (after (ops (F := Ideal)) V (Proc.devRef .tc main_arg2))) (ix3 (1 : Fin 3) (⟨k.val, by omega⟩ : Fin 257) d) := by
  rw [show (@id (FVec Ideal S768x128 .f32) (after (ops (F := Ideal)) V (Proc.devRef .tc main_v112))) (ix2 i d) = ∑ k : Fin 128, (@id (FVec Ideal S768x128 .f32) (after (ops (F := Ideal)) V (Proc.devRef .tc main_v94))) (ix2 i k) * (@id (FVec Ideal S128x128 .f32) (after (ops (F := Ideal)) V (Proc.devRef .tc main_v111))) (ix2 k d) from
    (congrFun (rd_main_v112 (F := Ideal) V) _).trans (Cert.Lib.dotGeneral_plain_apply _ _ _ _ i d)]
  exact Finset.sum_congr rfl fun k _ => by rw [at_r25]

/-- The sending node's product. -/
theorem at_r29 (i : Fin 768) (d : Fin 128) : (@id (FVec Ideal S768x128 .f32) (after (ops (F := Ideal)) V (Proc.devRef .tc main_v115))) (ix2 i d) = ∑ k : Fin 128, (@id (FVec Ideal S768x128 .f32) (after (ops (F := Ideal)) V (Proc.devRef .tc main_v94))) (ix2 i k) * (@id (FVec Ideal S3x257x128 .f32) (after (ops (F := Ideal)) V (Proc.devRef .tc main_arg2))) (ix3 (1 : Fin 3) (⟨128 + k.val, by omega⟩ : Fin 257) d) := by
  rw [show (@id (FVec Ideal S768x128 .f32) (after (ops (F := Ideal)) V (Proc.devRef .tc main_v115))) (ix2 i d) = ∑ k : Fin 128, (@id (FVec Ideal S768x128 .f32) (after (ops (F := Ideal)) V (Proc.devRef .tc main_v94))) (ix2 i k) * (@id (FVec Ideal S128x128 .f32) (after (ops (F := Ideal)) V (Proc.devRef .tc main_v114))) (ix2 k d) from
    (congrFun (rd_main_v115 (F := Ideal) V) _).trans (Cert.Lib.dotGeneral_plain_apply _ _ _ _ i d)]
  exact Finset.sum_congr rfl fun k _ => by rw [at_r28]

theorem at_r31 (i j : Fin 768) (d : Fin 128) : (@id (FVec Ideal S768x768x128 .f32) (after (ops (F := Ideal)) V (Proc.devRef .tc main_v117))) (ix3 i j d) = (@id (FVec Ideal S768x128 .f32) (after (ops (F := Ideal)) V (Proc.devRef .tc main_v112))) (ix2 i d) :=
  ((congrFun (rd_main_v117 (F := Ideal) V) _).trans (broadcastInDim_apply _ _ _ _ (ix3 i (0 : Fin 1) d) (fun a => match a with | ⟨0, _⟩ => rfl | ⟨1, _⟩ => rfl | ⟨2, _⟩ => rfl))).trans
    ((congrFun (rd_main_v113 (F := Ideal) V) _).trans (broadcastInDim_apply _ _ _ _ (ix2 i d) (fun a => match a with | ⟨0, _⟩ => rfl | ⟨1, _⟩ => rfl)))

theorem at_r32 (i j : Fin 768) (d : Fin 128) : (@id (FVec Ideal S768x768x128 .f32) (after (ops (F := Ideal)) V (Proc.devRef .tc main_v118))) (ix3 i j d) = (@id (FVec Ideal S768x128 .f32) (after (ops (F := Ideal)) V (Proc.devRef .tc main_v115))) (ix2 j d) :=
  ((congrFun (rd_main_v118 (F := Ideal) V) _).trans (broadcastInDim_apply _ _ _ _ (ix3 (0 : Fin 1) j d) (fun a => match a with | ⟨0, _⟩ => rfl | ⟨1, _⟩ => rfl | ⟨2, _⟩ => rfl))).trans
    ((congrFun (rd_main_v116 (F := Ideal) V) _).trans (broadcastInDim_apply _ _ _ _ (ix2 j d) (fun a => match a with | ⟨0, _⟩ => rfl | ⟨1, _⟩ => rfl)))

theorem at_r38 (i j : Fin 768) (d : Fin 128) : (@id (FVec Ideal S768x768x128 .f32) (after (ops (F := Ideal)) V (Proc.devRef .tc main_v124))) (ix3 i j d) = (@id (FVec Ideal S768x768 .f32) (after (ops (F := Ideal)) V (Proc.devRef .tc main_v108))) (ix2 i j) :=
  ((congrFun (rd_main_v124 (F := Ideal) V) _).trans (broadcastInDim_apply _ _ _ _ (ix3 i j (0 : Fin 1)) (fun a => match a with | ⟨0, _⟩ => rfl | ⟨1, _⟩ => rfl | ⟨2, _⟩ => rfl))).trans
    ((congrFun (rd_main_v120 (F := Ideal) V) _).trans (broadcastInDim_apply _ _ _ _ (ix2 i j) (fun a => match a with | ⟨0, _⟩ => rfl | ⟨1, _⟩ => rfl)))

/-- The first bias, broadcast over every pair. -/
theorem at_r45 (i j : Fin 768) (d : Fin 128) : (@id (FVec Ideal S768x768x128 .f32) (after (ops (F := Ideal)) V (Proc.devRef .tc main_v131))) (ix3 i j d) = (@id (FVec Ideal S3x128 .f32) (after (ops (F := Ideal)) V (Proc.devRef .tc main_arg3))) (ix2 (1 : Fin 3) d) :=
  ((congrFun (rd_main_v131 (F := Ideal) V) _).trans (broadcastInDim_apply _ _ _ _ (ix3 (0 : Fin 1) (0 : Fin 1) d) (fun a => match a with | ⟨0, _⟩ => rfl | ⟨1, _⟩ => rfl | ⟨2, _⟩ => rfl))).trans
    (((congrFun (rd_main_v130 (F := Ideal) V) _).trans (broadcastInDim_apply _ _ _ _ (ix1 d) (fun a => match a with | ⟨0, _⟩ => rfl))).trans
      (((congrFun (rd_main_v129 (F := Ideal) V) _).trans (shapeCast_1a_a_apply _ _ d)).trans
        ((congrFun (rd_main_v128 (F := Ideal) V) _).trans (slice2_axis0_apply 1 _ _ (0 : Fin 1) d (1 : Fin 3) rfl))))

/-- The edge pre-activation. -/
theorem at_r46 (i j : Fin 768) (d : Fin 128) :
    (@id (FVec Ideal S768x768x128 .f32) (after (ops (F := Ideal)) V (Proc.devRef .tc main_v132))) (ix3 i j d) = Cert.Spec.pre (fun i k => (@id (FVec Ideal S768x128 .f32) (after (ops (F := Ideal)) V (Proc.devRef .tc main_v94))) (ix2 i k)) (fun i k => (@id (FVec Ideal S768x3 .f32) (after (ops (F := Ideal)) V (Proc.devRef .tc main_v93))) (ix2 i k)) (fun (k : Fin 128) (d : Fin 128) => (@id (FVec Ideal S3x257x128 .f32) (after (ops (F := Ideal)) V (Proc.devRef .tc main_arg2))) (ix3 (1 : Fin 3) (⟨k.val, by omega⟩ : Fin 257) d)) (fun (k : Fin 128) (d : Fin 128) => (@id (FVec Ideal S3x257x128 .f32) (after (ops (F := Ideal)) V (Proc.devRef .tc main_arg2))) (ix3 (1 : Fin 3) (⟨128 + k.val, by omega⟩ : Fin 257) d)) (fun (d : Fin 128) => (@id (FVec Ideal S3x257x128 .f32) (after (ops (F := Ideal)) V (Proc.devRef .tc main_arg2))) (ix3 (1 : Fin 3) (⟨256, by omega⟩ : Fin 257) d)) (fun (d : Fin 128) => (@id (FVec Ideal S3x128 .f32) (after (ops (F := Ideal)) V (Proc.devRef .tc main_arg3))) (ix2 (1 : Fin 3) d)) i j d := by
  rw [show (@id (FVec Ideal S768x768x128 .f32) (after (ops (F := Ideal)) V (Proc.devRef .tc main_v132))) (ix3 i j d) = (@id (FVec Ideal S768x768x128 .f32) (after (ops (F := Ideal)) V (Proc.devRef .tc main_v127))) (ix3 i j d) + (@id (FVec Ideal S768x768x128 .f32) (after (ops (F := Ideal)) V (Proc.devRef .tc main_v131))) (ix3 i j d) from congrFun (rd_main_v132 (F := Ideal) V) _,
    show (@id (FVec Ideal S768x768x128 .f32) (after (ops (F := Ideal)) V (Proc.devRef .tc main_v127))) (ix3 i j d) = (@id (FVec Ideal S768x768x128 .f32) (after (ops (F := Ideal)) V (Proc.devRef .tc main_v119))) (ix3 i j d) + (@id (FVec Ideal S768x768x128 .f32) (after (ops (F := Ideal)) V (Proc.devRef .tc main_v126))) (ix3 i j d) from congrFun (rd_main_v127 (F := Ideal) V) _,
    show (@id (FVec Ideal S768x768x128 .f32) (after (ops (F := Ideal)) V (Proc.devRef .tc main_v119))) (ix3 i j d) = (@id (FVec Ideal S768x768x128 .f32) (after (ops (F := Ideal)) V (Proc.devRef .tc main_v117))) (ix3 i j d) + (@id (FVec Ideal S768x768x128 .f32) (after (ops (F := Ideal)) V (Proc.devRef .tc main_v118))) (ix3 i j d) from congrFun (rd_main_v119 (F := Ideal) V) _,
    show (@id (FVec Ideal S768x768x128 .f32) (after (ops (F := Ideal)) V (Proc.devRef .tc main_v126))) (ix3 i j d) = (@id (FVec Ideal S768x768x128 .f32) (after (ops (F := Ideal)) V (Proc.devRef .tc main_v124))) (ix3 i j d) * (@id (FVec Ideal S768x768x128 .f32) (after (ops (F := Ideal)) V (Proc.devRef .tc main_v125))) (ix3 i j d) from congrFun (rd_main_v126 (F := Ideal) V) _,
    at_r31, at_r32, at_r38, at_r39, at_r45, at_r26, at_r29, at_r22]
  rfl

theorem at_r50 (idx : S768x768x128.Idx) : (@id (FVec Ideal S768x768x128 .f32) (after (ops (F := Ideal)) V (Proc.devRef .tc main_call6_v2))) idx = 1 :=
  ((congrFun (rd_main_call6_v2 (F := Ideal) V) _).trans (broadcastInDim_scalar_apply _ _ _)).trans ((congrFun (rd_main_call6_cst (F := Ideal) V) _).trans Ideal.ofBits_one_f32)

theorem at_r53 (idx : S768x768x128.Idx) : (@id (FVec Ideal S768x768x128 .f32) (after (ops (F := Ideal)) V (Proc.devRef .tc main_call6_v4))) idx = 1 :=
  ((congrFun (rd_main_call6_v4 (F := Ideal) V) _).trans (broadcastInDim_scalar_apply _ _ _)).trans ((congrFun (rd_main_call6_cst_0 (F := Ideal) V) _).trans Ideal.ofBits_one_f32)

/-- The outlined `silu`: the argument times the reciprocal of one plus the exponential of its negation. -/
theorem at_r55 (idx : S768x768x128.Idx) : (@id (FVec Ideal S768x768x128 .f32) (after (ops (F := Ideal)) V (Proc.devRef .tc main_v133))) idx = Cert.Spec.silu ((@id (FVec Ideal S768x768x128 .f32) (after (ops (F := Ideal)) V (Proc.devRef .tc main_v132))) idx) := by
  rw [show (@id (FVec Ideal S768x768x128 .f32) (after (ops (F := Ideal)) V (Proc.devRef .tc main_v133))) idx = (@id (FVec Ideal S768x768x128 .f32) (after (ops (F := Ideal)) V (Proc.devRef .tc main_v132))) idx * (@id (FVec Ideal S768x768x128 .f32) (after (ops (F := Ideal)) V (Proc.devRef .tc main_call6_v5))) idx from congrFun (rd_main_v133 (F := Ideal) V) _,
    show (@id (FVec Ideal S768x768x128 .f32) (after (ops (F := Ideal)) V (Proc.devRef .tc main_call6_v5))) idx = Ideal.div ((@id (FVec Ideal S768x768x128 .f32) (after (ops (F := Ideal)) V (Proc.devRef .tc main_call6_v4))) idx) ((@id (FVec Ideal S768x768x128 .f32) (after (ops (F := Ideal)) V (Proc.devRef .tc main_call6_v3))) idx) from congrFun (rd_main_call6_v5 (F := Ideal) V) _, at_r53,
    show (@id (FVec Ideal S768x768x128 .f32) (after (ops (F := Ideal)) V (Proc.devRef .tc main_call6_v3))) idx = (@id (FVec Ideal S768x768x128 .f32) (after (ops (F := Ideal)) V (Proc.devRef .tc main_call6_v2))) idx + (@id (FVec Ideal S768x768x128 .f32) (after (ops (F := Ideal)) V (Proc.devRef .tc main_call6_v1))) idx from congrFun (rd_main_call6_v3 (F := Ideal) V) _, at_r50,
    show (@id (FVec Ideal S768x768x128 .f32) (after (ops (F := Ideal)) V (Proc.devRef .tc main_call6_v1))) idx = Ideal.exp ((@id (FVec Ideal S768x768x128 .f32) (after (ops (F := Ideal)) V (Proc.devRef .tc main_call6_v0))) idx) from congrFun (rd_main_call6_v1 (F := Ideal) V) _,
    show (@id (FVec Ideal S768x768x128 .f32) (after (ops (F := Ideal)) V (Proc.devRef .tc main_call6_v0))) idx = -((@id (FVec Ideal S768x768x128 .f32) (after (ops (F := Ideal)) V (Proc.devRef .tc main_v132))) idx) from congrFun (rd_main_call6_v0 (F := Ideal) V) _]
  rfl

/-- The sum over the sending nodes of the activated pre-activations. -/
theorem at_r57 (i : Fin 768) (d : Fin 128) : (@id (FVec Ideal S768x128 .f32) (after (ops (F := Ideal)) V (Proc.devRef .tc main_v134))) (ix2 i d) = ∑ j : Fin 768, Cert.Spec.silu (Cert.Spec.pre (fun i k => (@id (FVec Ideal S768x128 .f32) (after (ops (F := Ideal)) V (Proc.devRef .tc main_v94))) (ix2 i k)) (fun i k => (@id (FVec Ideal S768x3 .f32) (after (ops (F := Ideal)) V (Proc.devRef .tc main_v93))) (ix2 i k)) (fun (k : Fin 128) (d : Fin 128) => (@id (FVec Ideal S3x257x128 .f32) (after (ops (F := Ideal)) V (Proc.devRef .tc main_arg2))) (ix3 (1 : Fin 3) (⟨k.val, by omega⟩ : Fin 257) d)) (fun (k : Fin 128) (d : Fin 128) => (@id (FVec Ideal S3x257x128 .f32) (after (ops (F := Ideal)) V (Proc.devRef .tc main_arg2))) (ix3 (1 : Fin 3) (⟨128 + k.val, by omega⟩ : Fin 257) d)) (fun (d : Fin 128) => (@id (FVec Ideal S3x257x128 .f32) (after (ops (F := Ideal)) V (Proc.devRef .tc main_arg2))) (ix3 (1 : Fin 3) (⟨256, by omega⟩ : Fin 257) d)) (fun (d : Fin 128) => (@id (FVec Ideal S3x128 .f32) (after (ops (F := Ideal)) V (Proc.devRef .tc main_arg3))) (ix2 (1 : Fin 3) d)) i j d) := by
  have hr : Shape.Reduces S768x768x128 [1] S768x128 := by decide
  have e : (@id (FVec Ideal S768x128 .f32) (after (ops (F := Ideal)) V (Proc.devRef .tc main_v134))) (ix2 i d)
      = Ideal.hostReduceAdd reducesTo_S768x768x128_S768x128_d1 (@id (FVec Ideal S768x768x128 .f32) (after (ops (F := Ideal)) V (Proc.devRef .tc main_v133))) ((@id (FVec Ideal S_ .f32) (after (ops (F := Ideal)) V (Proc.devRef .tc main_cst_16))) (Shape.Idx.first h_S_)) (ix2 i d) := congrFun (rd_main_v134 (F := Ideal) V) _
  rw [e, Ideal.hostReduceAdd_single _ hr, show (@id (FVec Ideal S_ .f32) (after (ops (F := Ideal)) V (Proc.devRef .tc main_cst_16))) (Shape.Idx.first h_S_) = 0 from (congrFun (rd_main_cst_16 (F := Ideal) V) _).trans Ideal.ofBits_zero_f32, zero_add]
  show ∑ j : Fin 768, (@id (FVec Ideal S768x768x128 .f32) (after (ops (F := Ideal)) V (Proc.devRef .tc main_v133))) (hr.lift (ix2 i d) j) = _
  refine Finset.sum_congr rfl fun j _ => ?_
  rw [show hr.lift (ix2 i d) j = (ix3 i j d) from (funext fun a => Fin.ext (match a with | ⟨0, _⟩ => rfl | ⟨1, _⟩ => rfl | ⟨2, _⟩ => rfl))]
  rw [at_r55, at_r46]

theorem at_r59 (idx : S768x128.Idx) : (@id (FVec Ideal S768x128 .f32) (after (ops (F := Ideal)) V (Proc.devRef .tc main_v135))) idx = ((768 : ℝ) : EReal) :=
  ((congrFun (rd_main_v135 (F := Ideal) V) _).trans (broadcastInDim_scalar_apply _ _ _)).trans ((congrFun (rd_main_cst_17 (F := Ideal) V) _).trans ofBits_768)

/-- The mean: the quotient by 768 is the product with its reciprocal. -/
theorem at_r60 (i : Fin 768) (d : Fin 128) : (@id (FVec Ideal S768x128 .f32) (after (ops (F := Ideal)) V (Proc.devRef .tc main_v136))) (ix2 i d) = (∑ j : Fin 768, Cert.Spec.silu (Cert.Spec.pre (fun i k => (@id (FVec Ideal S768x128 .f32) (after (ops (F := Ideal)) V (Proc.devRef .tc main_v94))) (ix2 i k)) (fun i k => (@id (FVec Ideal S768x3 .f32) (after (ops (F := Ideal)) V (Proc.devRef .tc main_v93))) (ix2 i k)) (fun (k : Fin 128) (d : Fin 128) => (@id (FVec Ideal S3x257x128 .f32) (after (ops (F := Ideal)) V (Proc.devRef .tc main_arg2))) (ix3 (1 : Fin 3) (⟨k.val, by omega⟩ : Fin 257) d)) (fun (k : Fin 128) (d : Fin 128) => (@id (FVec Ideal S3x257x128 .f32) (after (ops (F := Ideal)) V (Proc.devRef .tc main_arg2))) (ix3 (1 : Fin 3) (⟨128 + k.val, by omega⟩ : Fin 257) d)) (fun (d : Fin 128) => (@id (FVec Ideal S3x257x128 .f32) (after (ops (F := Ideal)) V (Proc.devRef .tc main_arg2))) (ix3 (1 : Fin 3) (⟨256, by omega⟩ : Fin 257) d)) (fun (d : Fin 128) => (@id (FVec Ideal S3x128 .f32) (after (ops (F := Ideal)) V (Proc.devRef .tc main_arg3))) (ix2 (1 : Fin 3) d)) i j d)) * ((1 / 768 : ℝ) : EReal) := by
  rw [show (@id (FVec Ideal S768x128 .f32) (after (ops (F := Ideal)) V (Proc.devRef .tc main_v136))) (ix2 i d) = Ideal.div ((@id (FVec Ideal S768x128 .f32) (after (ops (F := Ideal)) V (Proc.devRef .tc main_v134))) (ix2 i d)) ((@id (FVec Ideal S768x128 .f32) (after (ops (F := Ideal)) V (Proc.devRef .tc main_v135))) (ix2 i d)) from congrFun (rd_main_v136 (F := Ideal) V) _, at_r59,
    Ideal.div_coe (by norm_num : (768 : ℝ) ≠ 0), at_r57]

theorem at_r62 (k d : Fin 128) : (@id (FVec Ideal S128x128 .f32) (after (ops (F := Ideal)) V (Proc.devRef .tc main_v138))) (ix2 k d) = (@id (FVec Ideal S3x128x128 .f32) (after (ops (F := Ideal)) V (Proc.devRef .tc main_arg4))) (ix3 (1 : Fin 3) k d) :=
  ((congrFun (rd_main_v138 (F := Ideal) V) _).trans (shapeCast_1ab_ab_apply _ _ k d)).trans
    ((congrFun (rd_main_v137 (F := Ideal) V) _).trans (extractStridedSlice_apply _ _ _ _ (ix3 (1 : Fin 3) k d) (fun a => match a with | ⟨0, _⟩ => rfl | ⟨1, _⟩ => (Nat.zero_add _).symm | ⟨2, _⟩ => (Nat.zero_add _).symm)))

theorem at_r63 (i : Fin 768) (d : Fin 128) : (@id (FVec Ideal S768x128 .f32) (after (ops (F := Ideal)) V (Proc.devRef .tc main_v139))) (ix2 i d)
    = ∑ k : Fin 128, ((∑ j : Fin 768, Cert.Spec.silu (Cert.Spec.pre (fun i k => (@id (FVec Ideal S768x128 .f32) (after (ops (F := Ideal)) V (Proc.devRef .tc main_v94))) (ix2 i k)) (fun i k => (@id (FVec Ideal S768x3 .f32) (after (ops (F := Ideal)) V (Proc.devRef .tc main_v93))) (ix2 i k)) (fun (k : Fin 128) (d : Fin 128) => (@id (FVec Ideal S3x257x128 .f32) (after (ops (F := Ideal)) V (Proc.devRef .tc main_arg2))) (ix3 (1 : Fin 3) (⟨k.val, by omega⟩ : Fin 257) d)) (fun (k : Fin 128) (d : Fin 128) => (@id (FVec Ideal S3x257x128 .f32) (after (ops (F := Ideal)) V (Proc.devRef .tc main_arg2))) (ix3 (1 : Fin 3) (⟨128 + k.val, by omega⟩ : Fin 257) d)) (fun (d : Fin 128) => (@id (FVec Ideal S3x257x128 .f32) (after (ops (F := Ideal)) V (Proc.devRef .tc main_arg2))) (ix3 (1 : Fin 3) (⟨256, by omega⟩ : Fin 257) d)) (fun (d : Fin 128) => (@id (FVec Ideal S3x128 .f32) (after (ops (F := Ideal)) V (Proc.devRef .tc main_arg3))) (ix2 (1 : Fin 3) d)) i j k)) * ((1 / 768 : ℝ) : EReal)) * (@id (FVec Ideal S3x128x128 .f32) (after (ops (F := Ideal)) V (Proc.devRef .tc main_arg4))) (ix3 (1 : Fin 3) k d) := by
  rw [show (@id (FVec Ideal S768x128 .f32) (after (ops (F := Ideal)) V (Proc.devRef .tc main_v139))) (ix2 i d) = ∑ k : Fin 128, (@id (FVec Ideal S768x128 .f32) (after (ops (F := Ideal)) V (Proc.devRef .tc main_v136))) (ix2 i k) * (@id (FVec Ideal S128x128 .f32) (after (ops (F := Ideal)) V (Proc.devRef .tc main_v138))) (ix2 k d) from
    (congrFun (rd_main_v139 (F := Ideal) V) _).trans (Cert.Lib.dotGeneral_plain_apply _ _ _ _ i d)]
  exact Finset.sum_congr rfl fun k _ => by rw [at_r60, at_r62]

theorem at_r67 (i : Fin 768) (d : Fin 128) : (@id (FVec Ideal S768x128 .f32) (after (ops (F := Ideal)) V (Proc.devRef .tc main_v143))) (ix2 i d) = (@id (FVec Ideal S3x128 .f32) (after (ops (F := Ideal)) V (Proc.devRef .tc main_arg5))) (ix2 (1 : Fin 3) d) :=
  ((congrFun (rd_main_v143 (F := Ideal) V) _).trans (broadcastInDim_apply _ _ _ _ (ix2 (0 : Fin 1) d) (fun a => match a with | ⟨0, _⟩ => rfl | ⟨1, _⟩ => rfl))).trans
    (((congrFun (rd_main_v142 (F := Ideal) V) _).trans (broadcastInDim_apply _ _ _ _ (ix1 d) (fun a => match a with | ⟨0, _⟩ => rfl))).trans
      (((congrFun (rd_main_v141 (F := Ideal) V) _).trans (shapeCast_1a_a_apply _ _ d)).trans
        ((congrFun (rd_main_v140 (F := Ideal) V) _).trans (slice2_axis0_apply 1 _ _ (0 : Fin 1) d (1 : Fin 3) rfl))))

/-- The layer's new features. -/
theorem at_r109 (i : Fin 768) (d : Fin 128) :
    (@id (FVec Ideal S768x128 .f32) (after (ops (F := Ideal)) V (Proc.devRef .tc main_v175))) (ix2 i d) = Cert.Spec.layerH (fun i k => (@id (FVec Ideal S768x128 .f32) (after (ops (F := Ideal)) V (Proc.devRef .tc main_v94))) (ix2 i k)) (fun i k => (@id (FVec Ideal S768x3 .f32) (after (ops (F := Ideal)) V (Proc.devRef .tc main_v93))) (ix2 i k)) (fun (k : Fin 128) (d : Fin 128) => (@id (FVec Ideal S3x257x128 .f32) (after (ops (F := Ideal)) V (Proc.devRef .tc main_arg2))) (ix3 (1 : Fin 3) (⟨k.val, by omega⟩ : Fin 257) d)) (fun (k : Fin 128) (d : Fin 128) => (@id (FVec Ideal S3x257x128 .f32) (after (ops (F := Ideal)) V (Proc.devRef .tc main_arg2))) (ix3 (1 : Fin 3) (⟨128 + k.val, by omega⟩ : Fin 257) d)) (fun (d : Fin 128) => (@id (FVec Ideal S3x257x128 .f32) (after (ops (F := Ideal)) V (Proc.devRef .tc main_arg2))) (ix3 (1 : Fin 3) (⟨256, by omega⟩ : Fin 257) d)) (fun (d : Fin 128) => (@id (FVec Ideal S3x128 .f32) (after (ops (F := Ideal)) V (Proc.devRef .tc main_arg3))) (ix2 (1 : Fin 3) d)) (fun (k : Fin 128) (d : Fin 128) => (@id (FVec Ideal S3x128x128 .f32) (after (ops (F := Ideal)) V (Proc.devRef .tc main_arg4))) (ix3 (1 : Fin 3) k d)) (fun (d : Fin 128) => (@id (FVec Ideal S3x128 .f32) (after (ops (F := Ideal)) V (Proc.devRef .tc main_arg5))) (ix2 (1 : Fin 3) d)) i d := by
  rw [show (@id (FVec Ideal S768x128 .f32) (after (ops (F := Ideal)) V (Proc.devRef .tc main_v175))) (ix2 i d) = (@id (FVec Ideal S768x128 .f32) (after (ops (F := Ideal)) V (Proc.devRef .tc main_v94))) (ix2 i d) + (@id (FVec Ideal S768x128 .f32) (after (ops (F := Ideal)) V (Proc.devRef .tc main_v144))) (ix2 i d) from congrFun (rd_main_v175 (F := Ideal) V) _,
    show (@id (FVec Ideal S768x128 .f32) (after (ops (F := Ideal)) V (Proc.devRef .tc main_v144))) (ix2 i d) = (@id (FVec Ideal S768x128 .f32) (after (ops (F := Ideal)) V (Proc.devRef .tc main_v139))) (ix2 i d) + (@id (FVec Ideal S768x128 .f32) (after (ops (F := Ideal)) V (Proc.devRef .tc main_v143))) (ix2 i d) from congrFun (rd_main_v144 (F := Ideal) V) _, at_r63, at_r67]
  rfl

theorem at_r70 (r : Fin 257) : (@id (FVec Ideal S257x1 .f32) (after (ops (F := Ideal)) V (Proc.devRef .tc main_v146))) (ix2 r (0 : Fin 1)) = (@id (FVec Ideal S3x257x1 .f32) (after (ops (F := Ideal)) V (Proc.devRef .tc main_arg6))) (ix3 (1 : Fin 3) r (0 : Fin 1)) :=
  ((congrFun (rd_main_v146 (F := Ideal) V) _).trans (shapeCast_1ab_ab_apply _ _ r (0 : Fin 1))).trans
    ((congrFun (rd_main_v145 (F := Ideal) V) _).trans (extractStridedSlice_apply _ _ _ _ (ix3 (1 : Fin 3) r (0 : Fin 1)) (fun a => match a with | ⟨0, _⟩ => rfl | ⟨1, _⟩ => (Nat.zero_add _).symm | ⟨2, _⟩ => (Nat.zero_add _).symm)))

theorem at_r71 (k : Fin 128) : (@id (FVec Ideal S128x1 .f32) (after (ops (F := Ideal)) V (Proc.devRef .tc main_v147))) (ix2 k (0 : Fin 1)) = (@id (FVec Ideal S3x257x1 .f32) (after (ops (F := Ideal)) V (Proc.devRef .tc main_arg6))) (ix3 (1 : Fin 3) (⟨k.val, by omega⟩ : Fin 257) (0 : Fin 1)) :=
  ((congrFun (rd_main_v147 (F := Ideal) V) _).trans (slice2_axis0_apply 0 _ _ k (0 : Fin 1) (⟨k.val, by omega⟩ : Fin 257) (Nat.zero_add _).symm)).trans (at_r70 V _)

theorem at_r74 (k : Fin 128) : (@id (FVec Ideal S128x1 .f32) (after (ops (F := Ideal)) V (Proc.devRef .tc main_v150))) (ix2 k (0 : Fin 1)) = (@id (FVec Ideal S3x257x1 .f32) (after (ops (F := Ideal)) V (Proc.devRef .tc main_arg6))) (ix3 (1 : Fin 3) (⟨128 + k.val, by omega⟩ : Fin 257) (0 : Fin 1)) :=
  ((congrFun (rd_main_v150 (F := Ideal) V) _).trans (slice2_axis0_apply 128 _ _ k (0 : Fin 1) (⟨128 + k.val, by omega⟩ : Fin 257) rfl)).trans (at_r70 V _)

theorem at_r81 : (@id (FVec Ideal S1x1 .f32) (after (ops (F := Ideal)) V (Proc.devRef .tc main_v157))) (ix2 (0 : Fin 1) (0 : Fin 1)) = (@id (FVec Ideal S3x257x1 .f32) (after (ops (F := Ideal)) V (Proc.devRef .tc main_arg6))) (ix3 (1 : Fin 3) (⟨256, by omega⟩ : Fin 257) (0 : Fin 1)) :=
  ((congrFun (rd_main_v157 (F := Ideal) V) _).trans (slice2_axis0_apply 256 _ _ (0 : Fin 1) (0 : Fin 1) (⟨256, by omega⟩ : Fin 257) rfl)).trans (at_r70 V _)

theorem at_r72 (i : Fin 768) : (@id (FVec Ideal S768x1 .f32) (after (ops (F := Ideal)) V (Proc.devRef .tc main_v148))) (ix2 i (0 : Fin 1)) = ∑ k : Fin 128, (@id (FVec Ideal S768x128 .f32) (after (ops (F := Ideal)) V (Proc.devRef .tc main_v94))) (ix2 i k) * (@id (FVec Ideal S3x257x1 .f32) (after (ops (F := Ideal)) V (Proc.devRef .tc main_arg6))) (ix3 (1 : Fin 3) (⟨k.val, by omega⟩ : Fin 257) (0 : Fin 1)) := by
  rw [show (@id (FVec Ideal S768x1 .f32) (after (ops (F := Ideal)) V (Proc.devRef .tc main_v148))) (ix2 i (0 : Fin 1)) = ∑ k : Fin 128, (@id (FVec Ideal S768x128 .f32) (after (ops (F := Ideal)) V (Proc.devRef .tc main_v94))) (ix2 i k) * (@id (FVec Ideal S128x1 .f32) (after (ops (F := Ideal)) V (Proc.devRef .tc main_v147))) (ix2 k (0 : Fin 1)) from
    (congrFun (rd_main_v148 (F := Ideal) V) _).trans (Cert.Lib.dotGeneral_plain_apply _ _ _ _ i (0 : Fin 1))]
  exact Finset.sum_congr rfl fun k _ => by rw [at_r71]

theorem at_r75 (i : Fin 768) : (@id (FVec Ideal S768x1 .f32) (after (ops (F := Ideal)) V (Proc.devRef .tc main_v151))) (ix2 i (0 : Fin 1)) = ∑ k : Fin 128, (@id (FVec Ideal S768x128 .f32) (after (ops (F := Ideal)) V (Proc.devRef .tc main_v94))) (ix2 i k) * (@id (FVec Ideal S3x257x1 .f32) (after (ops (F := Ideal)) V (Proc.devRef .tc main_arg6))) (ix3 (1 : Fin 3) (⟨128 + k.val, by omega⟩ : Fin 257) (0 : Fin 1)) := by
  rw [show (@id (FVec Ideal S768x1 .f32) (after (ops (F := Ideal)) V (Proc.devRef .tc main_v151))) (ix2 i (0 : Fin 1)) = ∑ k : Fin 128, (@id (FVec Ideal S768x128 .f32) (after (ops (F := Ideal)) V (Proc.devRef .tc main_v94))) (ix2 i k) * (@id (FVec Ideal S128x1 .f32) (after (ops (F := Ideal)) V (Proc.devRef .tc main_v150))) (ix2 k (0 : Fin 1)) from
    (congrFun (rd_main_v151 (F := Ideal) V) _).trans (Cert.Lib.dotGeneral_plain_apply _ _ _ _ i (0 : Fin 1))]
  exact Finset.sum_congr rfl fun k _ => by rw [at_r74]

theorem at_r77 (i j : Fin 768) : (@id (FVec Ideal S768x768x1 .f32) (after (ops (F := Ideal)) V (Proc.devRef .tc main_v153))) (ix3 i j (0 : Fin 1)) = (@id (FVec Ideal S768x1 .f32) (after (ops (F := Ideal)) V (Proc.devRef .tc main_v148))) (ix2 i (0 : Fin 1)) :=
  ((congrFun (rd_main_v153 (F := Ideal) V) _).trans (broadcastInDim_apply _ _ _ _ (ix3 i (0 : Fin 1) (0 : Fin 1)) (fun a => match a with | ⟨0, _⟩ => rfl | ⟨1, _⟩ => rfl | ⟨2, _⟩ => rfl))).trans
    ((congrFun (rd_main_v149 (F := Ideal) V) _).trans (broadcastInDim_apply _ _ _ _ (ix2 i (0 : Fin 1)) (fun a => match a with | ⟨0, _⟩ => rfl | ⟨1, _⟩ => rfl)))

theorem at_r78 (i j : Fin 768) : (@id (FVec Ideal S768x768x1 .f32) (after (ops (F := Ideal)) V (Proc.devRef .tc main_v154))) (ix3 i j (0 : Fin 1)) = (@id (FVec Ideal S768x1 .f32) (after (ops (F := Ideal)) V (Proc.devRef .tc main_v151))) (ix2 j (0 : Fin 1)) :=
  ((congrFun (rd_main_v154 (F := Ideal) V) _).trans (broadcastInDim_apply _ _ _ _ (ix3 (0 : Fin 1) j (0 : Fin 1)) (fun a => match a with | ⟨0, _⟩ => rfl | ⟨1, _⟩ => rfl | ⟨2, _⟩ => rfl))).trans
    ((congrFun (rd_main_v152 (F := Ideal) V) _).trans (broadcastInDim_apply _ _ _ _ (ix2 j (0 : Fin 1)) (fun a => match a with | ⟨0, _⟩ => rfl | ⟨1, _⟩ => rfl)))

theorem at_r80 (i j : Fin 768) : (@id (FVec Ideal S768x768x1 .f32) (after (ops (F := Ideal)) V (Proc.devRef .tc main_v156))) (ix3 i j (0 : Fin 1)) = (@id (FVec Ideal S768x768 .f32) (after (ops (F := Ideal)) V (Proc.devRef .tc main_v108))) (ix2 i j) :=
  (congrFun (rd_main_v156 (F := Ideal) V) _).trans (broadcastInDim_apply _ _ _ _ (ix2 i j) (fun a => match a with | ⟨0, _⟩ => rfl | ⟨1, _⟩ => rfl))

theorem at_r84 (i j : Fin 768) : (@id (FVec Ideal S768x768x1 .f32) (after (ops (F := Ideal)) V (Proc.devRef .tc main_v160))) (ix3 i j (0 : Fin 1)) = (@id (FVec Ideal S3x257x1 .f32) (after (ops (F := Ideal)) V (Proc.devRef .tc main_arg6))) (ix3 (1 : Fin 3) (⟨256, by omega⟩ : Fin 257) (0 : Fin 1)) :=
  ((congrFun (rd_main_v160 (F := Ideal) V) _).trans (broadcastInDim_apply _ _ _ _ (ix3 (0 : Fin 1) (0 : Fin 1) (0 : Fin 1)) (fun a => match a with | ⟨0, _⟩ => rfl | ⟨1, _⟩ => rfl | ⟨2, _⟩ => rfl))).trans
    (((congrFun (rd_main_v159 (F := Ideal) V) _).trans (broadcastInDim_apply _ _ _ _ (ix1 (0 : Fin 1)) (fun a => match a with | ⟨0, _⟩ => rfl))).trans
      (((congrFun (rd_main_v158 (F := Ideal) V) _).trans (shapeCast_1a_a_apply _ _ (0 : Fin 1))).trans (at_r81 V)))

theorem at_r90 (i j : Fin 768) : (@id (FVec Ideal S768x768x1 .f32) (after (ops (F := Ideal)) V (Proc.devRef .tc main_v166))) (ix3 i j (0 : Fin 1)) = (@id (FVec Ideal S3x1 .f32) (after (ops (F := Ideal)) V (Proc.devRef .tc main_arg7))) (ix2 (1 : Fin 3) (0 : Fin 1)) :=
  ((congrFun (rd_main_v166 (F := Ideal) V) _).trans (broadcastInDim_apply _ _ _ _ (ix3 (0 : Fin 1) (0 : Fin 1) (0 : Fin 1)) (fun a => match a with | ⟨0, _⟩ => rfl | ⟨1, _⟩ => rfl | ⟨2, _⟩ => rfl))).trans
    (((congrFun (rd_main_v165 (F := Ideal) V) _).trans (broadcastInDim_apply _ _ _ _ (ix1 (0 : Fin 1)) (fun a => match a with | ⟨0, _⟩ => rfl))).trans
      (((congrFun (rd_main_v164 (F := Ideal) V) _).trans (shapeCast_1a_a_apply _ _ (0 : Fin 1))).trans
        ((congrFun (rd_main_v163 (F := Ideal) V) _).trans (slice2_axis0_apply 1 _ _ (0 : Fin 1) (0 : Fin 1) (1 : Fin 3) rfl))))

/-- The coordinate weight's pre-activation. -/
theorem at_r91 (i j : Fin 768) : (@id (FVec Ideal S768x768x1 .f32) (after (ops (F := Ideal)) V (Proc.devRef .tc main_v167))) (ix3 i j (0 : Fin 1)) = Cert.Spec.wpre (fun i k => (@id (FVec Ideal S768x128 .f32) (after (ops (F := Ideal)) V (Proc.devRef .tc main_v94))) (ix2 i k)) (fun i k => (@id (FVec Ideal S768x3 .f32) (after (ops (F := Ideal)) V (Proc.devRef .tc main_v93))) (ix2 i k)) (fun (k : Fin 128) => (@id (FVec Ideal S3x257x1 .f32) (after (ops (F := Ideal)) V (Proc.devRef .tc main_arg6))) (ix3 (1 : Fin 3) (⟨k.val, by omega⟩ : Fin 257) (0 : Fin 1))) (fun (k : Fin 128) => (@id (FVec Ideal S3x257x1 .f32) (after (ops (F := Ideal)) V (Proc.devRef .tc main_arg6))) (ix3 (1 : Fin 3) (⟨128 + k.val, by omega⟩ : Fin 257) (0 : Fin 1))) ((@id (FVec Ideal S3x257x1 .f32) (after (ops (F := Ideal)) V (Proc.devRef .tc main_arg6))) (ix3 (1 : Fin 3) (⟨256, by omega⟩ : Fin 257) (0 : Fin 1))) ((@id (FVec Ideal S3x1 .f32) (after (ops (F := Ideal)) V (Proc.devRef .tc main_arg7))) (ix2 (1 : Fin 3) (0 : Fin 1))) i j := by
  rw [show (@id (FVec Ideal S768x768x1 .f32) (after (ops (F := Ideal)) V (Proc.devRef .tc main_v167))) (ix3 i j (0 : Fin 1)) = (@id (FVec Ideal S768x768x1 .f32) (after (ops (F := Ideal)) V (Proc.devRef .tc main_v162))) (ix3 i j (0 : Fin 1)) + (@id (FVec Ideal S768x768x1 .f32) (after (ops (F := Ideal)) V (Proc.devRef .tc main_v166))) (ix3 i j (0 : Fin 1)) from congrFun (rd_main_v167 (F := Ideal) V) _,
    show (@id (FVec Ideal S768x768x1 .f32) (after (ops (F := Ideal)) V (Proc.devRef .tc main_v162))) (ix3 i j (0 : Fin 1)) = (@id (FVec Ideal S768x768x1 .f32) (after (ops (F := Ideal)) V (Proc.devRef .tc main_v155))) (ix3 i j (0 : Fin 1)) + (@id (FVec Ideal S768x768x1 .f32) (after (ops (F := Ideal)) V (Proc.devRef .tc main_v161))) (ix3 i j (0 : Fin 1)) from congrFun (rd_main_v162 (F := Ideal) V) _,
    show (@id (FVec Ideal S768x768x1 .f32) (after (ops (F := Ideal)) V (Proc.devRef .tc main_v155))) (ix3 i j (0 : Fin 1)) = (@id (FVec Ideal S768x768x1 .f32) (after (ops (F := Ideal)) V (Proc.devRef .tc main_v153))) (ix3 i j (0 : Fin 1)) + (@id (FVec Ideal S768x768x1 .f32) (after (ops (F := Ideal)) V (Proc.devRef .tc main_v154))) (ix3 i j (0 : Fin 1)) from congrFun (rd_main_v155 (F := Ideal) V) _,
    show (@id (FVec Ideal S768x768x1 .f32) (after (ops (F := Ideal)) V (Proc.devRef .tc main_v161))) (ix3 i j (0 : Fin 1)) = (@id (FVec Ideal S768x768x1 .f32) (after (ops (F := Ideal)) V (Proc.devRef .tc main_v156))) (ix3 i j (0 : Fin 1)) * (@id (FVec Ideal S768x768x1 .f32) (after (ops (F := Ideal)) V (Proc.devRef .tc main_v160))) (ix3 i j (0 : Fin 1)) from congrFun (rd_main_v161 (F := Ideal) V) _,
    at_r77, at_r78, at_r80, at_r84, at_r90, at_r72, at_r75, at_r22]
  rfl

theorem at_r95 (idx : S768x768x1.Idx) : (@id (FVec Ideal S768x768x1 .f32) (after (ops (F := Ideal)) V (Proc.devRef .tc main_call7_v2))) idx = 1 :=
  ((congrFun (rd_main_call7_v2 (F := Ideal) V) _).trans (broadcastInDim_scalar_apply _ _ _)).trans ((congrFun (rd_main_call7_cst (F := Ideal) V) _).trans Ideal.ofBits_one_f32)

theorem at_r98 (idx : S768x768x1.Idx) : (@id (FVec Ideal S768x768x1 .f32) (after (ops (F := Ideal)) V (Proc.devRef .tc main_call7_v4))) idx = 1 :=
  ((congrFun (rd_main_call7_v4 (F := Ideal) V) _).trans (broadcastInDim_scalar_apply _ _ _)).trans ((congrFun (rd_main_call7_cst_0 (F := Ideal) V) _).trans Ideal.ofBits_one_f32)

/-- The outlined `silu`: the argument times the reciprocal of one plus the exponential of its negation. -/
theorem at_r100 (idx : S768x768x1.Idx) : (@id (FVec Ideal S768x768x1 .f32) (after (ops (F := Ideal)) V (Proc.devRef .tc main_v168))) idx = Cert.Spec.silu ((@id (FVec Ideal S768x768x1 .f32) (after (ops (F := Ideal)) V (Proc.devRef .tc main_v167))) idx) := by
  rw [show (@id (FVec Ideal S768x768x1 .f32) (after (ops (F := Ideal)) V (Proc.devRef .tc main_v168))) idx = (@id (FVec Ideal S768x768x1 .f32) (after (ops (F := Ideal)) V (Proc.devRef .tc main_v167))) idx * (@id (FVec Ideal S768x768x1 .f32) (after (ops (F := Ideal)) V (Proc.devRef .tc main_call7_v5))) idx from congrFun (rd_main_v168 (F := Ideal) V) _,
    show (@id (FVec Ideal S768x768x1 .f32) (after (ops (F := Ideal)) V (Proc.devRef .tc main_call7_v5))) idx = Ideal.div ((@id (FVec Ideal S768x768x1 .f32) (after (ops (F := Ideal)) V (Proc.devRef .tc main_call7_v4))) idx) ((@id (FVec Ideal S768x768x1 .f32) (after (ops (F := Ideal)) V (Proc.devRef .tc main_call7_v3))) idx) from congrFun (rd_main_call7_v5 (F := Ideal) V) _, at_r98,
    show (@id (FVec Ideal S768x768x1 .f32) (after (ops (F := Ideal)) V (Proc.devRef .tc main_call7_v3))) idx = (@id (FVec Ideal S768x768x1 .f32) (after (ops (F := Ideal)) V (Proc.devRef .tc main_call7_v2))) idx + (@id (FVec Ideal S768x768x1 .f32) (after (ops (F := Ideal)) V (Proc.devRef .tc main_call7_v1))) idx from congrFun (rd_main_call7_v3 (F := Ideal) V) _, at_r95,
    show (@id (FVec Ideal S768x768x1 .f32) (after (ops (F := Ideal)) V (Proc.devRef .tc main_call7_v1))) idx = Ideal.exp ((@id (FVec Ideal S768x768x1 .f32) (after (ops (F := Ideal)) V (Proc.devRef .tc main_call7_v0))) idx) from congrFun (rd_main_call7_v1 (F := Ideal) V) _,
    show (@id (FVec Ideal S768x768x1 .f32) (after (ops (F := Ideal)) V (Proc.devRef .tc main_call7_v0))) idx = -((@id (FVec Ideal S768x768x1 .f32) (after (ops (F := Ideal)) V (Proc.devRef .tc main_v167))) idx) from congrFun (rd_main_call7_v0 (F := Ideal) V) _]
  rfl

theorem at_r101 (i j : Fin 768) (k : Fin 3) : (@id (FVec Ideal S768x768x3 .f32) (after (ops (F := Ideal)) V (Proc.devRef .tc main_v169))) (ix3 i j k) = (@id (FVec Ideal S768x768x1 .f32) (after (ops (F := Ideal)) V (Proc.devRef .tc main_v168))) (ix3 i j (0 : Fin 1)) :=
  (congrFun (rd_main_v169 (F := Ideal) V) _).trans (broadcastInDim_apply _ _ _ _ (ix3 i j (0 : Fin 1)) (fun a => match a with | ⟨0, _⟩ => rfl | ⟨1, _⟩ => rfl | ⟨2, _⟩ => rfl))

/-- The sum over the sending nodes of the weighted coordinate differences. -/
theorem at_r104 (i : Fin 768) (k : Fin 3) : (@id (FVec Ideal S768x3 .f32) (after (ops (F := Ideal)) V (Proc.devRef .tc main_v171))) (ix2 i k) = ∑ j : Fin 768, Cert.Spec.silu (Cert.Spec.wpre (fun i k => (@id (FVec Ideal S768x128 .f32) (after (ops (F := Ideal)) V (Proc.devRef .tc main_v94))) (ix2 i k)) (fun i k => (@id (FVec Ideal S768x3 .f32) (after (ops (F := Ideal)) V (Proc.devRef .tc main_v93))) (ix2 i k)) (fun (k : Fin 128) => (@id (FVec Ideal S3x257x1 .f32) (after (ops (F := Ideal)) V (Proc.devRef .tc main_arg6))) (ix3 (1 : Fin 3) (⟨k.val, by omega⟩ : Fin 257) (0 : Fin 1))) (fun (k : Fin 128) => (@id (FVec Ideal S3x257x1 .f32) (after (ops (F := Ideal)) V (Proc.devRef .tc main_arg6))) (ix3 (1 : Fin 3) (⟨128 + k.val, by omega⟩ : Fin 257) (0 : Fin 1))) ((@id (FVec Ideal S3x257x1 .f32) (after (ops (F := Ideal)) V (Proc.devRef .tc main_arg6))) (ix3 (1 : Fin 3) (⟨256, by omega⟩ : Fin 257) (0 : Fin 1))) ((@id (FVec Ideal S3x1 .f32) (after (ops (F := Ideal)) V (Proc.devRef .tc main_arg7))) (ix2 (1 : Fin 3) (0 : Fin 1))) i j) * Cert.Spec.rel (fun i k => (@id (FVec Ideal S768x3 .f32) (after (ops (F := Ideal)) V (Proc.devRef .tc main_v93))) (ix2 i k)) i j k := by
  have hr : Shape.Reduces S768x768x3 [1] S768x3 := by decide
  have e : (@id (FVec Ideal S768x3 .f32) (after (ops (F := Ideal)) V (Proc.devRef .tc main_v171))) (ix2 i k)
      = Ideal.hostReduceAdd reducesTo_S768x768x3_S768x3_d1 (@id (FVec Ideal S768x768x3 .f32) (after (ops (F := Ideal)) V (Proc.devRef .tc main_v170))) ((@id (FVec Ideal S_ .f32) (after (ops (F := Ideal)) V (Proc.devRef .tc main_cst_18))) (Shape.Idx.first h_S_)) (ix2 i k) := congrFun (rd_main_v171 (F := Ideal) V) _
  rw [e, Ideal.hostReduceAdd_single _ hr, show (@id (FVec Ideal S_ .f32) (after (ops (F := Ideal)) V (Proc.devRef .tc main_cst_18))) (Shape.Idx.first h_S_) = 0 from (congrFun (rd_main_cst_18 (F := Ideal) V) _).trans Ideal.ofBits_zero_f32, zero_add]
  show ∑ j : Fin 768, (@id (FVec Ideal S768x768x3 .f32) (after (ops (F := Ideal)) V (Proc.devRef .tc main_v170))) (hr.lift (ix2 i k) j) = _
  refine Finset.sum_congr rfl fun j _ => ?_
  rw [show hr.lift (ix2 i k) j = (ix3 i j k) from (funext fun a => Fin.ext (match a with | ⟨0, _⟩ => rfl | ⟨1, _⟩ => rfl | ⟨2, _⟩ => rfl))]
  rw [show (@id (FVec Ideal S768x768x3 .f32) (after (ops (F := Ideal)) V (Proc.devRef .tc main_v170))) (ix3 i j k) = (@id (FVec Ideal S768x768x3 .f32) (after (ops (F := Ideal)) V (Proc.devRef .tc main_v169))) (ix3 i j k) * (@id (FVec Ideal S768x768x3 .f32) (after (ops (F := Ideal)) V (Proc.devRef .tc main_v99))) (ix3 i j k) from congrFun (rd_main_v170 (F := Ideal) V) _, at_r101, at_r100, at_r91, at_r4]
  rfl

theorem at_r106 (idx : S768x3.Idx) : (@id (FVec Ideal S768x3 .f32) (after (ops (F := Ideal)) V (Proc.devRef .tc main_v172))) idx = ((768 : ℝ) : EReal) :=
  ((congrFun (rd_main_v172 (F := Ideal) V) _).trans (broadcastInDim_scalar_apply _ _ _)).trans ((congrFun (rd_main_cst_19 (F := Ideal) V) _).trans ofBits_768)

/-- The layer's new coordinates. -/
theorem at_r108 (i : Fin 768) (k : Fin 3) :
    (@id (FVec Ideal S768x3 .f32) (after (ops (F := Ideal)) V (Proc.devRef .tc main_v174))) (ix2 i k) = Cert.Spec.layerC (fun i k => (@id (FVec Ideal S768x128 .f32) (after (ops (F := Ideal)) V (Proc.devRef .tc main_v94))) (ix2 i k)) (fun i k => (@id (FVec Ideal S768x3 .f32) (after (ops (F := Ideal)) V (Proc.devRef .tc main_v93))) (ix2 i k)) (fun (k : Fin 128) => (@id (FVec Ideal S3x257x1 .f32) (after (ops (F := Ideal)) V (Proc.devRef .tc main_arg6))) (ix3 (1 : Fin 3) (⟨k.val, by omega⟩ : Fin 257) (0 : Fin 1))) (fun (k : Fin 128) => (@id (FVec Ideal S3x257x1 .f32) (after (ops (F := Ideal)) V (Proc.devRef .tc main_arg6))) (ix3 (1 : Fin 3) (⟨128 + k.val, by omega⟩ : Fin 257) (0 : Fin 1))) ((@id (FVec Ideal S3x257x1 .f32) (after (ops (F := Ideal)) V (Proc.devRef .tc main_arg6))) (ix3 (1 : Fin 3) (⟨256, by omega⟩ : Fin 257) (0 : Fin 1))) ((@id (FVec Ideal S3x1 .f32) (after (ops (F := Ideal)) V (Proc.devRef .tc main_arg7))) (ix2 (1 : Fin 3) (0 : Fin 1))) i k := by
  rw [show (@id (FVec Ideal S768x3 .f32) (after (ops (F := Ideal)) V (Proc.devRef .tc main_v174))) (ix2 i k) = (@id (FVec Ideal S768x3 .f32) (after (ops (F := Ideal)) V (Proc.devRef .tc main_v93))) (ix2 i k) + (@id (FVec Ideal S768x3 .f32) (after (ops (F := Ideal)) V (Proc.devRef .tc main_v173))) (ix2 i k) from congrFun (rd_main_v174 (F := Ideal) V) _,
    show (@id (FVec Ideal S768x3 .f32) (after (ops (F := Ideal)) V (Proc.devRef .tc main_v173))) (ix2 i k) = Ideal.div ((@id (FVec Ideal S768x3 .f32) (after (ops (F := Ideal)) V (Proc.devRef .tc main_v171))) (ix2 i k)) ((@id (FVec Ideal S768x3 .f32) (after (ops (F := Ideal)) V (Proc.devRef .tc main_v172))) (ix2 i k)) from congrFun (rd_main_v173 (F := Ideal) V) _, at_r106,
    Ideal.div_coe (by norm_num : (768 : ℝ) ≠ 0), at_r104]
  rfl

end L2

namespace L3

theorem at_r2 (i j : Fin 768) (k : Fin 3) : (@id (FVec Ideal S768x768x3 .f32) (after (ops (F := Ideal)) V (Proc.devRef .tc main_v178))) (ix3 i j k) = (@id (FVec Ideal S768x3 .f32) (after (ops (F := Ideal)) V (Proc.devRef .tc main_v174))) (ix2 i k) :=
  ((congrFun (rd_main_v178 (F := Ideal) V) _).trans (broadcastInDim_apply _ _ _ _ (ix3 i (0 : Fin 1) k) (fun a => match a with | ⟨0, _⟩ => rfl | ⟨1, _⟩ => rfl | ⟨2, _⟩ => rfl))).trans
    ((congrFun (rd_main_v176 (F := Ideal) V) _).trans (broadcastInDim_apply _ _ _ _ (ix2 i k) (fun a => match a with | ⟨0, _⟩ => rfl | ⟨1, _⟩ => rfl)))

theorem at_r3 (i j : Fin 768) (k : Fin 3) : (@id (FVec Ideal S768x768x3 .f32) (after (ops (F := Ideal)) V (Proc.devRef .tc main_v179))) (ix3 i j k) = (@id (FVec Ideal S768x3 .f32) (after (ops (F := Ideal)) V (Proc.devRef .tc main_v174))) (ix2 j k) :=
  ((congrFun (rd_main_v179 (F := Ideal) V) _).trans (broadcastInDim_apply _ _ _ _ (ix3 (0 : Fin 1) j k) (fun a => match a with | ⟨0, _⟩ => rfl | ⟨1, _⟩ => rfl | ⟨2, _⟩ => rfl))).trans
    ((congrFun (rd_main_v177 (F := Ideal) V) _).trans (broadcastInDim_apply _ _ _ _ (ix2 j k) (fun a => match a with | ⟨0, _⟩ => rfl | ⟨1, _⟩ => rfl)))

/-- The coordinate differences. -/
theorem at_r4 (i j : Fin 768) (k : Fin 3) : (@id (FVec Ideal S768x768x3 .f32) (after (ops (F := Ideal)) V (Proc.devRef .tc main_v180))) (ix3 i j k) = (@id (FVec Ideal S768x3 .f32) (after (ops (F := Ideal)) V (Proc.devRef .tc main_v174))) (ix2 i k) - (@id (FVec Ideal S768x3 .f32) (after (ops (F := Ideal)) V (Proc.devRef .tc main_v174))) (ix2 j k) := by
  rw [show (@id (FVec Ideal S768x768x3 .f32) (after (ops (F := Ideal)) V (Proc.devRef .tc main_v180))) (ix3 i j k) = (@id (FVec Ideal S768x768x3 .f32) (after (ops (F := Ideal)) V (Proc.devRef .tc main_v178))) (ix3 i j k) - (@id (FVec Ideal S768x768x3 .f32) (after (ops (F := Ideal)) V (Proc.devRef .tc main_v179))) (ix3 i j k) from congrFun (rd_main_v180 (F := Ideal) V) _, at_r2, at_r3]

/-- The squared distances: the sum from zero of the squared differences over the three coordinates. -/
theorem at_r7 (i j : Fin 768) : (@id (FVec Ideal S768x768 .f32) (after (ops (F := Ideal)) V (Proc.devRef .tc main_v182))) (ix2 i j) = ∑ k : Fin 3, ((@id (FVec Ideal S768x3 .f32) (after (ops (F := Ideal)) V (Proc.devRef .tc main_v174))) (ix2 i k) - (@id (FVec Ideal S768x3 .f32) (after (ops (F := Ideal)) V (Proc.devRef .tc main_v174))) (ix2 j k)) * ((@id (FVec Ideal S768x3 .f32) (after (ops (F := Ideal)) V (Proc.devRef .tc main_v174))) (ix2 i k) - (@id (FVec Ideal S768x3 .f32) (after (ops (F := Ideal)) V (Proc.devRef .tc main_v174))) (ix2 j k)) := by
  have hr : Shape.Reduces S768x768x3 [2] S768x768 := by decide
  have e : (@id (FVec Ideal S768x768 .f32) (after (ops (F := Ideal)) V (Proc.devRef .tc main_v182))) (ix2 i j)
      = Ideal.hostReduceAdd reducesTo_S768x768x3_S768x768_d2 (@id (FVec Ideal S768x768x3 .f32) (after (ops (F := Ideal)) V (Proc.devRef .tc main_v181))) ((@id (FVec Ideal S_ .f32) (after (ops (F := Ideal)) V (Proc.devRef .tc main_cst_20))) (Shape.Idx.first h_S_)) (ix2 i j) := congrFun (rd_main_v182 (F := Ideal) V) _
  rw [e, Ideal.hostReduceAdd_single _ hr, show (@id (FVec Ideal S_ .f32) (after (ops (F := Ideal)) V (Proc.devRef .tc main_cst_20))) (Shape.Idx.first h_S_) = 0 from (congrFun (rd_main_cst_20 (F := Ideal) V) _).trans Ideal.ofBits_zero_f32, zero_add]
  show ∑ k : Fin 3, (@id (FVec Ideal S768x768x3 .f32) (after (ops (F := Ideal)) V (Proc.devRef .tc main_v181))) (hr.lift (ix2 i j) k) = _
  refine Finset.sum_congr rfl fun k _ => ?_
  rw [show hr.lift (ix2 i j) k = ix3 i j k from funext fun a => Fin.ext (match a with | ⟨0, _⟩ => rfl | ⟨1, _⟩ => rfl | ⟨2, _⟩ => rfl)]
  rw [show (@id (FVec Ideal S768x768x3 .f32) (after (ops (F := Ideal)) V (Proc.devRef .tc main_v181))) (ix3 i j k) = (@id (FVec Ideal S768x768x3 .f32) (after (ops (F := Ideal)) V (Proc.devRef .tc main_v180))) (ix3 i j k) * (@id (FVec Ideal S768x768x3 .f32) (after (ops (F := Ideal)) V (Proc.devRef .tc main_v180))) (ix3 i j k) from congrFun (rd_main_v181 (F := Ideal) V) _, at_r4]

theorem at_r9 (idx : S768x768.Idx) : (@id (FVec Ideal S768x768 .f32) (after (ops (F := Ideal)) V (Proc.devRef .tc main_v183))) idx = 0 :=
  ((congrFun (rd_main_v183 (F := Ideal) V) _).trans (broadcastInDim_scalar_apply _ _ _)).trans ((congrFun (rd_main_cst_21 (F := Ideal) V) _).trans Ideal.ofBits_zero_f32)

theorem at_r13 (idx : S768x768.Idx) : (@id (FVec Ideal S768x768 .f32) (after (ops (F := Ideal)) V (Proc.devRef .tc main_call8_v1))) idx = 1 :=
  ((congrFun (rd_main_call8_v1 (F := Ideal) V) _).trans (broadcastInDim_scalar_apply _ _ _)).trans ((congrFun (rd_main_call8_v0 (F := Ideal) V) _).trans ((congrFun (rd_main_cst_22 (F := Ideal) V) _).trans Ideal.ofBits_one_f32))

theorem at_r17 (idx : S768x768.Idx) : (@id (FVec Ideal S768x768 .f32) (after (ops (F := Ideal)) V (Proc.devRef .tc main_v187))) idx = 0 :=
  ((congrFun (rd_main_v187 (F := Ideal) V) _).trans (broadcastInDim_scalar_apply _ _ _)).trans ((congrFun (rd_main_cst_23 (F := Ideal) V) _).trans Ideal.ofBits_zero_f32)

theorem at_r21 (idx : S768x768.Idx) : (@id (FVec Ideal S768x768 .f32) (after (ops (F := Ideal)) V (Proc.devRef .tc main_call9_v1))) idx = 0 :=
  ((congrFun (rd_main_call9_v1 (F := Ideal) V) _).trans (broadcastInDim_scalar_apply _ _ _)).trans ((congrFun (rd_main_call9_v0 (F := Ideal) V) _).trans ((congrFun (rd_main_cst_24 (F := Ideal) V) _).trans Ideal.ofBits_zero_f32))

theorem sq_eq (i j : Fin 768) : (@id (FVec Ideal S768x768 .f32) (after (ops (F := Ideal)) V (Proc.devRef .tc main_v182))) (ix2 i j) = Cert.Spec.sq (fun i k => (@id (FVec Ideal S768x3 .f32) (after (ops (F := Ideal)) V (Proc.devRef .tc main_v174))) (ix2 i k)) i j := at_r7 V i j

/-- The distance: the square root of the squared distance where that is positive (taken of one elsewhere), and zero elsewhere. -/
theorem at_r22 (i j : Fin 768) : (@id (FVec Ideal S768x768 .f32) (after (ops (F := Ideal)) V (Proc.devRef .tc main_v189))) (ix2 i j) = Cert.Spec.dist (fun i k => (@id (FVec Ideal S768x3 .f32) (after (ops (F := Ideal)) V (Proc.devRef .tc main_v174))) (ix2 i k)) i j := by
  rw [show (@id (FVec Ideal S768x768 .f32) (after (ops (F := Ideal)) V (Proc.devRef .tc main_v189))) (ix2 i j) = Scalar.select ((@id (IVec S768x768 1) (after (ops (F := Ideal)) V (Proc.devRef .tc main_v188))) (ix2 i j)) ((@id (FVec Ideal S768x768 .f32) (after (ops (F := Ideal)) V (Proc.devRef .tc main_v186))) (ix2 i j)) ((@id (FVec Ideal S768x768 .f32) (after (ops (F := Ideal)) V (Proc.devRef .tc main_call9_v1))) (ix2 i j)) from congrFun (rd_main_v189 (F := Ideal) V) _, at_r21,
    show (@id (IVec S768x768 1) (after (ops (F := Ideal)) V (Proc.devRef .tc main_v188))) (ix2 i j) = Ideal.cmp .ogt ((@id (FVec Ideal S768x768 .f32) (after (ops (F := Ideal)) V (Proc.devRef .tc main_v182))) (ix2 i j)) ((@id (FVec Ideal S768x768 .f32) (after (ops (F := Ideal)) V (Proc.devRef .tc main_v187))) (ix2 i j)) from congrFun (rd_main_v188 (F := Ideal) V) _, at_r17,
    show (@id (FVec Ideal S768x768 .f32) (after (ops (F := Ideal)) V (Proc.devRef .tc main_v186))) (ix2 i j) = Ideal.sqrt ((@id (FVec Ideal S768x768 .f32) (after (ops (F := Ideal)) V (Proc.devRef .tc main_v185))) (ix2 i j)) from congrFun (rd_main_v186 (F := Ideal) V) _,
    show (@id (FVec Ideal S768x768 .f32) (after (ops (F := Ideal)) V (Proc.devRef .tc main_v185))) (ix2 i j) = Scalar.select ((@id (IVec S768x768 1) (after (ops (F := Ideal)) V (Proc.devRef .tc main_v184))) (ix2 i j)) ((@id (FVec Ideal S768x768 .f32) (after (ops (F := Ideal)) V (Proc.devRef .tc main_v182))) (ix2 i j)) ((@id (FVec Ideal S768x768 .f32) (after (ops (F := Ideal)) V (Proc.devRef .tc main_call8_v1))) (ix2 i j)) from congrFun (rd_main_v185 (F := Ideal) V) _, at_r13,
    show (@id (IVec S768x768 1) (after (ops (F := Ideal)) V (Proc.devRef .tc main_v184))) (ix2 i j) = Ideal.cmp .ogt ((@id (FVec Ideal S768x768 .f32) (after (ops (F := Ideal)) V (Proc.devRef .tc main_v182))) (ix2 i j)) ((@id (FVec Ideal S768x768 .f32) (after (ops (F := Ideal)) V (Proc.devRef .tc main_v183))) (ix2 i j)) from congrFun (rd_main_v184 (F := Ideal) V) _, at_r9, sq_eq]
  rfl

/-- The layer's slab of the first weight array, as a matrix of 257 rows. -/
theorem at_r24 (r : Fin 257) (d : Fin 128) : (@id (FVec Ideal S257x128 .f32) (after (ops (F := Ideal)) V (Proc.devRef .tc main_v191))) (ix2 r d) = (@id (FVec Ideal S3x257x128 .f32) (after (ops (F := Ideal)) V (Proc.devRef .tc main_arg2))) (ix3 (2 : Fin 3) r d) :=
  ((congrFun (rd_main_v191 (F := Ideal) V) _).trans (shapeCast_1ab_ab_apply _ _ r d)).trans
    ((congrFun (rd_main_v190 (F := Ideal) V) _).trans (extractStridedSlice_apply _ _ _ _ (ix3 (2 : Fin 3) r d) (fun a => match a with | ⟨0, _⟩ => rfl | ⟨1, _⟩ => (Nat.zero_add _).symm | ⟨2, _⟩ => (Nat.zero_add _).symm)))

theorem at_r25 (k d : Fin 128) : (@id (FVec Ideal S128x128 .f32) (after (ops (F := Ideal)) V (Proc.devRef .tc main_v192))) (ix2 k d) = (@id (FVec Ideal S3x257x128 .f32) (after (ops (F := Ideal)) V (Proc.devRef .tc main_arg2))) (ix3 (2 : Fin 3) (⟨k.val, by omega⟩ : Fin 257) d) :=
  ((congrFun (rd_main_v192 (F := Ideal) V) _).trans (slice2_axis0_apply 0 _ _ k d (⟨k.val, by omega⟩ : Fin 257) (Nat.zero_add _).symm)).trans (at_r24 V _ d)

theorem at_r28 (k d : Fin 128) : (@id (FVec Ideal S128x128 .f32) (after (ops (F := Ideal)) V (Proc.devRef .tc main_v195))) (ix2 k d) = (@id (FVec Ideal S3x257x128 .f32) (after (ops (F := Ideal)) V (Proc.devRef .tc main_arg2))) (ix3 (2 : Fin 3) (⟨128 + k.val, by omega⟩ : Fin 257) d) :=
  ((congrFun (rd_main_v195 (F := Ideal) V) _).trans (slice2_axis0_apply 128 _ _ k d (⟨128 + k.val, by omega⟩ : Fin 257) rfl)).trans (at_r24 V _ d)

theorem at_r35 (d : Fin 128) : (@id (FVec Ideal S1x128 .f32) (after (ops (F := Ideal)) V (Proc.devRef .tc main_v202))) (ix2 (0 : Fin 1) d) = (@id (FVec Ideal S3x257x128 .f32) (after (ops (F := Ideal)) V (Proc.devRef .tc main_arg2))) (ix3 (2 : Fin 3) (⟨256, by omega⟩ : Fin 257) d) :=
  ((congrFun (rd_main_v202 (F := Ideal) V) _).trans (slice2_axis0_apply 256 _ _ (0 : Fin 1) d (⟨256, by omega⟩ : Fin 257) rfl)).trans (at_r24 V _ d)

/-- The distance's weight row, broadcast over every pair. -/
theorem at_r39 (i j : Fin 768) (d : Fin 128) : (@id (FVec Ideal S768x768x128 .f32) (after (ops (F := Ideal)) V (Proc.devRef .tc main_v206))) (ix3 i j d) = (@id (FVec Ideal S3x257x128 .f32) (after (ops (F := Ideal)) V (Proc.devRef .tc main_arg2))) (ix3 (2 : Fin 3) (⟨256, by omega⟩ : Fin 257) d) :=
  ((congrFun (rd_main_v206 (F := Ideal) V) _).trans (broadcastInDim_apply _ _ _ _ (ix3 (0 : Fin 1) (0 : Fin 1) d) (fun a => match a with | ⟨0, _⟩ => rfl | ⟨1, _⟩ => rfl | ⟨2, _⟩ => rfl))).trans
    (((congrFun (rd_main_v204 (F := Ideal) V) _).trans (broadcastInDim_apply _ _ _ _ (ix1 d) (fun a => match a with | ⟨0, _⟩ => rfl))).trans
      (((congrFun (rd_main_v203 (F := Ideal) V) _).trans (shapeCast_1a_a_apply _ _ d)).trans (at_r35 V d)))

/-- The receiving node's product: a plain sum over the contracted axis. -/
theorem at_r26 (i : Fin 768) (d : Fin 128) : (@id (FVec Ideal S768x128 .f32) (after (ops (F := Ideal)) V (Proc.devRef .tc main_v193))) (ix2 i d) = ∑ k : Fin 128, (@id (FVec Ideal S768x128 .f32) (after (ops (F := Ideal)) V (Proc.devRef .tc main_v175))) (ix2 i k) * (@id (FVec Ideal S3x257x128 .f32) (after (ops (F := Ideal)) V (Proc.devRef .tc main_arg2))) (ix3 (2 : Fin 3) (⟨k.val, by omega⟩ : Fin 257) d) := by
  rw [show (@id (FVec Ideal S768x128 .f32) (after (ops (F := Ideal)) V (Proc.devRef .tc main_v193))) (ix2 i d) = ∑ k : Fin 128, (@id (FVec Ideal S768x128 .f32) (after (ops (F := Ideal)) V (Proc.devRef .tc main_v175))) (ix2 i k) * (@id (FVec Ideal S128x128 .f32) (after (ops (F := Ideal)) V (Proc.devRef .tc main_v192))) (ix2 k d) from
    (congrFun (rd_main_v193 (F := Ideal) V) _).trans (Cert.Lib.dotGeneral_plain_apply _ _ _ _ i d)]
  exact Finset.sum_congr rfl fun k _ => by rw [at_r25]

/-- The sending node's product. -/
theorem at_r29 (i : Fin 768) (d : Fin 128) : (@id (FVec Ideal S768x128 .f32) (after (ops (F := Ideal)) V (Proc.devRef .tc main_v196))) (ix2 i d) = ∑ k : Fin 128, (@id (FVec Ideal S768x128 .f32) (after (ops (F := Ideal)) V (Proc.devRef .tc main_v175))) (ix2 i k) * (@id (FVec Ideal S3x257x128 .f32) (after (ops (F := Ideal)) V (Proc.devRef .tc main_arg2))) (ix3 (2 : Fin 3) (⟨128 + k.val, by omega⟩ : Fin 257) d) := by
  rw [show (@id (FVec Ideal S768x128 .f32) (after (ops (F := Ideal)) V (Proc.devRef .tc main_v196))) (ix2 i d) = ∑ k : Fin 128, (@id (FVec Ideal S768x128 .f32) (after (ops (F := Ideal)) V (Proc.devRef .tc main_v175))) (ix2 i k) * (@id (FVec Ideal S128x128 .f32) (after (ops (F := Ideal)) V (Proc.devRef .tc main_v195))) (ix2 k d) from
    (congrFun (rd_main_v196 (F := Ideal) V) _).trans (Cert.Lib.dotGeneral_plain_apply _ _ _ _ i d)]
  exact Finset.sum_congr rfl fun k _ => by rw [at_r28]

theorem at_r31 (i j : Fin 768) (d : Fin 128) : (@id (FVec Ideal S768x768x128 .f32) (after (ops (F := Ideal)) V (Proc.devRef .tc main_v198))) (ix3 i j d) = (@id (FVec Ideal S768x128 .f32) (after (ops (F := Ideal)) V (Proc.devRef .tc main_v193))) (ix2 i d) :=
  ((congrFun (rd_main_v198 (F := Ideal) V) _).trans (broadcastInDim_apply _ _ _ _ (ix3 i (0 : Fin 1) d) (fun a => match a with | ⟨0, _⟩ => rfl | ⟨1, _⟩ => rfl | ⟨2, _⟩ => rfl))).trans
    ((congrFun (rd_main_v194 (F := Ideal) V) _).trans (broadcastInDim_apply _ _ _ _ (ix2 i d) (fun a => match a with | ⟨0, _⟩ => rfl | ⟨1, _⟩ => rfl)))

theorem at_r32 (i j : Fin 768) (d : Fin 128) : (@id (FVec Ideal S768x768x128 .f32) (after (ops (F := Ideal)) V (Proc.devRef .tc main_v199))) (ix3 i j d) = (@id (FVec Ideal S768x128 .f32) (after (ops (F := Ideal)) V (Proc.devRef .tc main_v196))) (ix2 j d) :=
  ((congrFun (rd_main_v199 (F := Ideal) V) _).trans (broadcastInDim_apply _ _ _ _ (ix3 (0 : Fin 1) j d) (fun a => match a with | ⟨0, _⟩ => rfl | ⟨1, _⟩ => rfl | ⟨2, _⟩ => rfl))).trans
    ((congrFun (rd_main_v197 (F := Ideal) V) _).trans (broadcastInDim_apply _ _ _ _ (ix2 j d) (fun a => match a with | ⟨0, _⟩ => rfl | ⟨1, _⟩ => rfl)))

theorem at_r38 (i j : Fin 768) (d : Fin 128) : (@id (FVec Ideal S768x768x128 .f32) (after (ops (F := Ideal)) V (Proc.devRef .tc main_v205))) (ix3 i j d) = (@id (FVec Ideal S768x768 .f32) (after (ops (F := Ideal)) V (Proc.devRef .tc main_v189))) (ix2 i j) :=
  ((congrFun (rd_main_v205 (F := Ideal) V) _).trans (broadcastInDim_apply _ _ _ _ (ix3 i j (0 : Fin 1)) (fun a => match a with | ⟨0, _⟩ => rfl | ⟨1, _⟩ => rfl | ⟨2, _⟩ => rfl))).trans
    ((congrFun (rd_main_v201 (F := Ideal) V) _).trans (broadcastInDim_apply _ _ _ _ (ix2 i j) (fun a => match a with | ⟨0, _⟩ => rfl | ⟨1, _⟩ => rfl)))

/-- The first bias, broadcast over every pair. -/
theorem at_r45 (i j : Fin 768) (d : Fin 128) : (@id (FVec Ideal S768x768x128 .f32) (after (ops (F := Ideal)) V (Proc.devRef .tc main_v212))) (ix3 i j d) = (@id (FVec Ideal S3x128 .f32) (after (ops (F := Ideal)) V (Proc.devRef .tc main_arg3))) (ix2 (2 : Fin 3) d) :=
  ((congrFun (rd_main_v212 (F := Ideal) V) _).trans (broadcastInDim_apply _ _ _ _ (ix3 (0 : Fin 1) (0 : Fin 1) d) (fun a => match a with | ⟨0, _⟩ => rfl | ⟨1, _⟩ => rfl | ⟨2, _⟩ => rfl))).trans
    (((congrFun (rd_main_v211 (F := Ideal) V) _).trans (broadcastInDim_apply _ _ _ _ (ix1 d) (fun a => match a with | ⟨0, _⟩ => rfl))).trans
      (((congrFun (rd_main_v210 (F := Ideal) V) _).trans (shapeCast_1a_a_apply _ _ d)).trans
        ((congrFun (rd_main_v209 (F := Ideal) V) _).trans (slice2_axis0_apply 2 _ _ (0 : Fin 1) d (2 : Fin 3) rfl))))

/-- The edge pre-activation. -/
theorem at_r46 (i j : Fin 768) (d : Fin 128) :
    (@id (FVec Ideal S768x768x128 .f32) (after (ops (F := Ideal)) V (Proc.devRef .tc main_v213))) (ix3 i j d) = Cert.Spec.pre (fun i k => (@id (FVec Ideal S768x128 .f32) (after (ops (F := Ideal)) V (Proc.devRef .tc main_v175))) (ix2 i k)) (fun i k => (@id (FVec Ideal S768x3 .f32) (after (ops (F := Ideal)) V (Proc.devRef .tc main_v174))) (ix2 i k)) (fun (k : Fin 128) (d : Fin 128) => (@id (FVec Ideal S3x257x128 .f32) (after (ops (F := Ideal)) V (Proc.devRef .tc main_arg2))) (ix3 (2 : Fin 3) (⟨k.val, by omega⟩ : Fin 257) d)) (fun (k : Fin 128) (d : Fin 128) => (@id (FVec Ideal S3x257x128 .f32) (after (ops (F := Ideal)) V (Proc.devRef .tc main_arg2))) (ix3 (2 : Fin 3) (⟨128 + k.val, by omega⟩ : Fin 257) d)) (fun (d : Fin 128) => (@id (FVec Ideal S3x257x128 .f32) (after (ops (F := Ideal)) V (Proc.devRef .tc main_arg2))) (ix3 (2 : Fin 3) (⟨256, by omega⟩ : Fin 257) d)) (fun (d : Fin 128) => (@id (FVec Ideal S3x128 .f32) (after (ops (F := Ideal)) V (Proc.devRef .tc main_arg3))) (ix2 (2 : Fin 3) d)) i j d := by
  rw [show (@id (FVec Ideal S768x768x128 .f32) (after (ops (F := Ideal)) V (Proc.devRef .tc main_v213))) (ix3 i j d) = (@id (FVec Ideal S768x768x128 .f32) (after (ops (F := Ideal)) V (Proc.devRef .tc main_v208))) (ix3 i j d) + (@id (FVec Ideal S768x768x128 .f32) (after (ops (F := Ideal)) V (Proc.devRef .tc main_v212))) (ix3 i j d) from congrFun (rd_main_v213 (F := Ideal) V) _,
    show (@id (FVec Ideal S768x768x128 .f32) (after (ops (F := Ideal)) V (Proc.devRef .tc main_v208))) (ix3 i j d) = (@id (FVec Ideal S768x768x128 .f32) (after (ops (F := Ideal)) V (Proc.devRef .tc main_v200))) (ix3 i j d) + (@id (FVec Ideal S768x768x128 .f32) (after (ops (F := Ideal)) V (Proc.devRef .tc main_v207))) (ix3 i j d) from congrFun (rd_main_v208 (F := Ideal) V) _,
    show (@id (FVec Ideal S768x768x128 .f32) (after (ops (F := Ideal)) V (Proc.devRef .tc main_v200))) (ix3 i j d) = (@id (FVec Ideal S768x768x128 .f32) (after (ops (F := Ideal)) V (Proc.devRef .tc main_v198))) (ix3 i j d) + (@id (FVec Ideal S768x768x128 .f32) (after (ops (F := Ideal)) V (Proc.devRef .tc main_v199))) (ix3 i j d) from congrFun (rd_main_v200 (F := Ideal) V) _,
    show (@id (FVec Ideal S768x768x128 .f32) (after (ops (F := Ideal)) V (Proc.devRef .tc main_v207))) (ix3 i j d) = (@id (FVec Ideal S768x768x128 .f32) (after (ops (F := Ideal)) V (Proc.devRef .tc main_v205))) (ix3 i j d) * (@id (FVec Ideal S768x768x128 .f32) (after (ops (F := Ideal)) V (Proc.devRef .tc main_v206))) (ix3 i j d) from congrFun (rd_main_v207 (F := Ideal) V) _,
    at_r31, at_r32, at_r38, at_r39, at_r45, at_r26, at_r29, at_r22]
  rfl

theorem at_r50 (idx : S768x768x128.Idx) : (@id (FVec Ideal S768x768x128 .f32) (after (ops (F := Ideal)) V (Proc.devRef .tc main_call10_v2))) idx = 1 :=
  ((congrFun (rd_main_call10_v2 (F := Ideal) V) _).trans (broadcastInDim_scalar_apply _ _ _)).trans ((congrFun (rd_main_call10_cst (F := Ideal) V) _).trans Ideal.ofBits_one_f32)

theorem at_r53 (idx : S768x768x128.Idx) : (@id (FVec Ideal S768x768x128 .f32) (after (ops (F := Ideal)) V (Proc.devRef .tc main_call10_v4))) idx = 1 :=
  ((congrFun (rd_main_call10_v4 (F := Ideal) V) _).trans (broadcastInDim_scalar_apply _ _ _)).trans ((congrFun (rd_main_call10_cst_0 (F := Ideal) V) _).trans Ideal.ofBits_one_f32)

/-- The outlined `silu`: the argument times the reciprocal of one plus the exponential of its negation. -/
theorem at_r55 (idx : S768x768x128.Idx) : (@id (FVec Ideal S768x768x128 .f32) (after (ops (F := Ideal)) V (Proc.devRef .tc main_v214))) idx = Cert.Spec.silu ((@id (FVec Ideal S768x768x128 .f32) (after (ops (F := Ideal)) V (Proc.devRef .tc main_v213))) idx) := by
  rw [show (@id (FVec Ideal S768x768x128 .f32) (after (ops (F := Ideal)) V (Proc.devRef .tc main_v214))) idx = (@id (FVec Ideal S768x768x128 .f32) (after (ops (F := Ideal)) V (Proc.devRef .tc main_v213))) idx * (@id (FVec Ideal S768x768x128 .f32) (after (ops (F := Ideal)) V (Proc.devRef .tc main_call10_v5))) idx from congrFun (rd_main_v214 (F := Ideal) V) _,
    show (@id (FVec Ideal S768x768x128 .f32) (after (ops (F := Ideal)) V (Proc.devRef .tc main_call10_v5))) idx = Ideal.div ((@id (FVec Ideal S768x768x128 .f32) (after (ops (F := Ideal)) V (Proc.devRef .tc main_call10_v4))) idx) ((@id (FVec Ideal S768x768x128 .f32) (after (ops (F := Ideal)) V (Proc.devRef .tc main_call10_v3))) idx) from congrFun (rd_main_call10_v5 (F := Ideal) V) _, at_r53,
    show (@id (FVec Ideal S768x768x128 .f32) (after (ops (F := Ideal)) V (Proc.devRef .tc main_call10_v3))) idx = (@id (FVec Ideal S768x768x128 .f32) (after (ops (F := Ideal)) V (Proc.devRef .tc main_call10_v2))) idx + (@id (FVec Ideal S768x768x128 .f32) (after (ops (F := Ideal)) V (Proc.devRef .tc main_call10_v1))) idx from congrFun (rd_main_call10_v3 (F := Ideal) V) _, at_r50,
    show (@id (FVec Ideal S768x768x128 .f32) (after (ops (F := Ideal)) V (Proc.devRef .tc main_call10_v1))) idx = Ideal.exp ((@id (FVec Ideal S768x768x128 .f32) (after (ops (F := Ideal)) V (Proc.devRef .tc main_call10_v0))) idx) from congrFun (rd_main_call10_v1 (F := Ideal) V) _,
    show (@id (FVec Ideal S768x768x128 .f32) (after (ops (F := Ideal)) V (Proc.devRef .tc main_call10_v0))) idx = -((@id (FVec Ideal S768x768x128 .f32) (after (ops (F := Ideal)) V (Proc.devRef .tc main_v213))) idx) from congrFun (rd_main_call10_v0 (F := Ideal) V) _]
  rfl

/-- The sum over the sending nodes of the activated pre-activations. -/
theorem at_r57 (i : Fin 768) (d : Fin 128) : (@id (FVec Ideal S768x128 .f32) (after (ops (F := Ideal)) V (Proc.devRef .tc main_v215))) (ix2 i d) = ∑ j : Fin 768, Cert.Spec.silu (Cert.Spec.pre (fun i k => (@id (FVec Ideal S768x128 .f32) (after (ops (F := Ideal)) V (Proc.devRef .tc main_v175))) (ix2 i k)) (fun i k => (@id (FVec Ideal S768x3 .f32) (after (ops (F := Ideal)) V (Proc.devRef .tc main_v174))) (ix2 i k)) (fun (k : Fin 128) (d : Fin 128) => (@id (FVec Ideal S3x257x128 .f32) (after (ops (F := Ideal)) V (Proc.devRef .tc main_arg2))) (ix3 (2 : Fin 3) (⟨k.val, by omega⟩ : Fin 257) d)) (fun (k : Fin 128) (d : Fin 128) => (@id (FVec Ideal S3x257x128 .f32) (after (ops (F := Ideal)) V (Proc.devRef .tc main_arg2))) (ix3 (2 : Fin 3) (⟨128 + k.val, by omega⟩ : Fin 257) d)) (fun (d : Fin 128) => (@id (FVec Ideal S3x257x128 .f32) (after (ops (F := Ideal)) V (Proc.devRef .tc main_arg2))) (ix3 (2 : Fin 3) (⟨256, by omega⟩ : Fin 257) d)) (fun (d : Fin 128) => (@id (FVec Ideal S3x128 .f32) (after (ops (F := Ideal)) V (Proc.devRef .tc main_arg3))) (ix2 (2 : Fin 3) d)) i j d) := by
  have hr : Shape.Reduces S768x768x128 [1] S768x128 := by decide
  have e : (@id (FVec Ideal S768x128 .f32) (after (ops (F := Ideal)) V (Proc.devRef .tc main_v215))) (ix2 i d)
      = Ideal.hostReduceAdd reducesTo_S768x768x128_S768x128_d1 (@id (FVec Ideal S768x768x128 .f32) (after (ops (F := Ideal)) V (Proc.devRef .tc main_v214))) ((@id (FVec Ideal S_ .f32) (after (ops (F := Ideal)) V (Proc.devRef .tc main_cst_25))) (Shape.Idx.first h_S_)) (ix2 i d) := congrFun (rd_main_v215 (F := Ideal) V) _
  rw [e, Ideal.hostReduceAdd_single _ hr, show (@id (FVec Ideal S_ .f32) (after (ops (F := Ideal)) V (Proc.devRef .tc main_cst_25))) (Shape.Idx.first h_S_) = 0 from (congrFun (rd_main_cst_25 (F := Ideal) V) _).trans Ideal.ofBits_zero_f32, zero_add]
  show ∑ j : Fin 768, (@id (FVec Ideal S768x768x128 .f32) (after (ops (F := Ideal)) V (Proc.devRef .tc main_v214))) (hr.lift (ix2 i d) j) = _
  refine Finset.sum_congr rfl fun j _ => ?_
  rw [show hr.lift (ix2 i d) j = (ix3 i j d) from (funext fun a => Fin.ext (match a with | ⟨0, _⟩ => rfl | ⟨1, _⟩ => rfl | ⟨2, _⟩ => rfl))]
  rw [at_r55, at_r46]

theorem at_r59 (idx : S768x128.Idx) : (@id (FVec Ideal S768x128 .f32) (after (ops (F := Ideal)) V (Proc.devRef .tc main_v216))) idx = ((768 : ℝ) : EReal) :=
  ((congrFun (rd_main_v216 (F := Ideal) V) _).trans (broadcastInDim_scalar_apply _ _ _)).trans ((congrFun (rd_main_cst_26 (F := Ideal) V) _).trans ofBits_768)

/-- The mean: the quotient by 768 is the product with its reciprocal. -/
theorem at_r60 (i : Fin 768) (d : Fin 128) : (@id (FVec Ideal S768x128 .f32) (after (ops (F := Ideal)) V (Proc.devRef .tc main_v217))) (ix2 i d) = (∑ j : Fin 768, Cert.Spec.silu (Cert.Spec.pre (fun i k => (@id (FVec Ideal S768x128 .f32) (after (ops (F := Ideal)) V (Proc.devRef .tc main_v175))) (ix2 i k)) (fun i k => (@id (FVec Ideal S768x3 .f32) (after (ops (F := Ideal)) V (Proc.devRef .tc main_v174))) (ix2 i k)) (fun (k : Fin 128) (d : Fin 128) => (@id (FVec Ideal S3x257x128 .f32) (after (ops (F := Ideal)) V (Proc.devRef .tc main_arg2))) (ix3 (2 : Fin 3) (⟨k.val, by omega⟩ : Fin 257) d)) (fun (k : Fin 128) (d : Fin 128) => (@id (FVec Ideal S3x257x128 .f32) (after (ops (F := Ideal)) V (Proc.devRef .tc main_arg2))) (ix3 (2 : Fin 3) (⟨128 + k.val, by omega⟩ : Fin 257) d)) (fun (d : Fin 128) => (@id (FVec Ideal S3x257x128 .f32) (after (ops (F := Ideal)) V (Proc.devRef .tc main_arg2))) (ix3 (2 : Fin 3) (⟨256, by omega⟩ : Fin 257) d)) (fun (d : Fin 128) => (@id (FVec Ideal S3x128 .f32) (after (ops (F := Ideal)) V (Proc.devRef .tc main_arg3))) (ix2 (2 : Fin 3) d)) i j d)) * ((1 / 768 : ℝ) : EReal) := by
  rw [show (@id (FVec Ideal S768x128 .f32) (after (ops (F := Ideal)) V (Proc.devRef .tc main_v217))) (ix2 i d) = Ideal.div ((@id (FVec Ideal S768x128 .f32) (after (ops (F := Ideal)) V (Proc.devRef .tc main_v215))) (ix2 i d)) ((@id (FVec Ideal S768x128 .f32) (after (ops (F := Ideal)) V (Proc.devRef .tc main_v216))) (ix2 i d)) from congrFun (rd_main_v217 (F := Ideal) V) _, at_r59,
    Ideal.div_coe (by norm_num : (768 : ℝ) ≠ 0), at_r57]

theorem at_r62 (k d : Fin 128) : (@id (FVec Ideal S128x128 .f32) (after (ops (F := Ideal)) V (Proc.devRef .tc main_v219))) (ix2 k d) = (@id (FVec Ideal S3x128x128 .f32) (after (ops (F := Ideal)) V (Proc.devRef .tc main_arg4))) (ix3 (2 : Fin 3) k d) :=
  ((congrFun (rd_main_v219 (F := Ideal) V) _).trans (shapeCast_1ab_ab_apply _ _ k d)).trans
    ((congrFun (rd_main_v218 (F := Ideal) V) _).trans (extractStridedSlice_apply _ _ _ _ (ix3 (2 : Fin 3) k d) (fun a => match a with | ⟨0, _⟩ => rfl | ⟨1, _⟩ => (Nat.zero_add _).symm | ⟨2, _⟩ => (Nat.zero_add _).symm)))

theorem at_r63 (i : Fin 768) (d : Fin 128) : (@id (FVec Ideal S768x128 .f32) (after (ops (F := Ideal)) V (Proc.devRef .tc main_v220))) (ix2 i d)
    = ∑ k : Fin 128, ((∑ j : Fin 768, Cert.Spec.silu (Cert.Spec.pre (fun i k => (@id (FVec Ideal S768x128 .f32) (after (ops (F := Ideal)) V (Proc.devRef .tc main_v175))) (ix2 i k)) (fun i k => (@id (FVec Ideal S768x3 .f32) (after (ops (F := Ideal)) V (Proc.devRef .tc main_v174))) (ix2 i k)) (fun (k : Fin 128) (d : Fin 128) => (@id (FVec Ideal S3x257x128 .f32) (after (ops (F := Ideal)) V (Proc.devRef .tc main_arg2))) (ix3 (2 : Fin 3) (⟨k.val, by omega⟩ : Fin 257) d)) (fun (k : Fin 128) (d : Fin 128) => (@id (FVec Ideal S3x257x128 .f32) (after (ops (F := Ideal)) V (Proc.devRef .tc main_arg2))) (ix3 (2 : Fin 3) (⟨128 + k.val, by omega⟩ : Fin 257) d)) (fun (d : Fin 128) => (@id (FVec Ideal S3x257x128 .f32) (after (ops (F := Ideal)) V (Proc.devRef .tc main_arg2))) (ix3 (2 : Fin 3) (⟨256, by omega⟩ : Fin 257) d)) (fun (d : Fin 128) => (@id (FVec Ideal S3x128 .f32) (after (ops (F := Ideal)) V (Proc.devRef .tc main_arg3))) (ix2 (2 : Fin 3) d)) i j k)) * ((1 / 768 : ℝ) : EReal)) * (@id (FVec Ideal S3x128x128 .f32) (after (ops (F := Ideal)) V (Proc.devRef .tc main_arg4))) (ix3 (2 : Fin 3) k d) := by
  rw [show (@id (FVec Ideal S768x128 .f32) (after (ops (F := Ideal)) V (Proc.devRef .tc main_v220))) (ix2 i d) = ∑ k : Fin 128, (@id (FVec Ideal S768x128 .f32) (after (ops (F := Ideal)) V (Proc.devRef .tc main_v217))) (ix2 i k) * (@id (FVec Ideal S128x128 .f32) (after (ops (F := Ideal)) V (Proc.devRef .tc main_v219))) (ix2 k d) from
    (congrFun (rd_main_v220 (F := Ideal) V) _).trans (Cert.Lib.dotGeneral_plain_apply _ _ _ _ i d)]
  exact Finset.sum_congr rfl fun k _ => by rw [at_r60, at_r62]

theorem at_r67 (i : Fin 768) (d : Fin 128) : (@id (FVec Ideal S768x128 .f32) (after (ops (F := Ideal)) V (Proc.devRef .tc main_v224))) (ix2 i d) = (@id (FVec Ideal S3x128 .f32) (after (ops (F := Ideal)) V (Proc.devRef .tc main_arg5))) (ix2 (2 : Fin 3) d) :=
  ((congrFun (rd_main_v224 (F := Ideal) V) _).trans (broadcastInDim_apply _ _ _ _ (ix2 (0 : Fin 1) d) (fun a => match a with | ⟨0, _⟩ => rfl | ⟨1, _⟩ => rfl))).trans
    (((congrFun (rd_main_v223 (F := Ideal) V) _).trans (broadcastInDim_apply _ _ _ _ (ix1 d) (fun a => match a with | ⟨0, _⟩ => rfl))).trans
      (((congrFun (rd_main_v222 (F := Ideal) V) _).trans (shapeCast_1a_a_apply _ _ d)).trans
        ((congrFun (rd_main_v221 (F := Ideal) V) _).trans (slice2_axis0_apply 2 _ _ (0 : Fin 1) d (2 : Fin 3) rfl))))

/-- The layer's new features. -/
theorem at_r109 (i : Fin 768) (d : Fin 128) :
    (@id (FVec Ideal S768x128 .f32) (after (ops (F := Ideal)) V (Proc.devRef .tc main_v256))) (ix2 i d) = Cert.Spec.layerH (fun i k => (@id (FVec Ideal S768x128 .f32) (after (ops (F := Ideal)) V (Proc.devRef .tc main_v175))) (ix2 i k)) (fun i k => (@id (FVec Ideal S768x3 .f32) (after (ops (F := Ideal)) V (Proc.devRef .tc main_v174))) (ix2 i k)) (fun (k : Fin 128) (d : Fin 128) => (@id (FVec Ideal S3x257x128 .f32) (after (ops (F := Ideal)) V (Proc.devRef .tc main_arg2))) (ix3 (2 : Fin 3) (⟨k.val, by omega⟩ : Fin 257) d)) (fun (k : Fin 128) (d : Fin 128) => (@id (FVec Ideal S3x257x128 .f32) (after (ops (F := Ideal)) V (Proc.devRef .tc main_arg2))) (ix3 (2 : Fin 3) (⟨128 + k.val, by omega⟩ : Fin 257) d)) (fun (d : Fin 128) => (@id (FVec Ideal S3x257x128 .f32) (after (ops (F := Ideal)) V (Proc.devRef .tc main_arg2))) (ix3 (2 : Fin 3) (⟨256, by omega⟩ : Fin 257) d)) (fun (d : Fin 128) => (@id (FVec Ideal S3x128 .f32) (after (ops (F := Ideal)) V (Proc.devRef .tc main_arg3))) (ix2 (2 : Fin 3) d)) (fun (k : Fin 128) (d : Fin 128) => (@id (FVec Ideal S3x128x128 .f32) (after (ops (F := Ideal)) V (Proc.devRef .tc main_arg4))) (ix3 (2 : Fin 3) k d)) (fun (d : Fin 128) => (@id (FVec Ideal S3x128 .f32) (after (ops (F := Ideal)) V (Proc.devRef .tc main_arg5))) (ix2 (2 : Fin 3) d)) i d := by
  rw [show (@id (FVec Ideal S768x128 .f32) (after (ops (F := Ideal)) V (Proc.devRef .tc main_v256))) (ix2 i d) = (@id (FVec Ideal S768x128 .f32) (after (ops (F := Ideal)) V (Proc.devRef .tc main_v175))) (ix2 i d) + (@id (FVec Ideal S768x128 .f32) (after (ops (F := Ideal)) V (Proc.devRef .tc main_v225))) (ix2 i d) from congrFun (rd_main_v256 (F := Ideal) V) _,
    show (@id (FVec Ideal S768x128 .f32) (after (ops (F := Ideal)) V (Proc.devRef .tc main_v225))) (ix2 i d) = (@id (FVec Ideal S768x128 .f32) (after (ops (F := Ideal)) V (Proc.devRef .tc main_v220))) (ix2 i d) + (@id (FVec Ideal S768x128 .f32) (after (ops (F := Ideal)) V (Proc.devRef .tc main_v224))) (ix2 i d) from congrFun (rd_main_v225 (F := Ideal) V) _, at_r63, at_r67]
  rfl

theorem at_r70 (r : Fin 257) : (@id (FVec Ideal S257x1 .f32) (after (ops (F := Ideal)) V (Proc.devRef .tc main_v227))) (ix2 r (0 : Fin 1)) = (@id (FVec Ideal S3x257x1 .f32) (after (ops (F := Ideal)) V (Proc.devRef .tc main_arg6))) (ix3 (2 : Fin 3) r (0 : Fin 1)) :=
  ((congrFun (rd_main_v227 (F := Ideal) V) _).trans (shapeCast_1ab_ab_apply _ _ r (0 : Fin 1))).trans
    ((congrFun (rd_main_v226 (F := Ideal) V) _).trans (extractStridedSlice_apply _ _ _ _ (ix3 (2 : Fin 3) r (0 : Fin 1)) (fun a => match a with | ⟨0, _⟩ => rfl | ⟨1, _⟩ => (Nat.zero_add _).symm | ⟨2, _⟩ => (Nat.zero_add _).symm)))

theorem at_r71 (k : Fin 128) : (@id (FVec Ideal S128x1 .f32) (after (ops (F := Ideal)) V (Proc.devRef .tc main_v228))) (ix2 k (0 : Fin 1)) = (@id (FVec Ideal S3x257x1 .f32) (after (ops (F := Ideal)) V (Proc.devRef .tc main_arg6))) (ix3 (2 : Fin 3) (⟨k.val, by omega⟩ : Fin 257) (0 : Fin 1)) :=
  ((congrFun (rd_main_v228 (F := Ideal) V) _).trans (slice2_axis0_apply 0 _ _ k (0 : Fin 1) (⟨k.val, by omega⟩ : Fin 257) (Nat.zero_add _).symm)).trans (at_r70 V _)

theorem at_r74 (k : Fin 128) : (@id (FVec Ideal S128x1 .f32) (after (ops (F := Ideal)) V (Proc.devRef .tc main_v231))) (ix2 k (0 : Fin 1)) = (@id (FVec Ideal S3x257x1 .f32) (after (ops (F := Ideal)) V (Proc.devRef .tc main_arg6))) (ix3 (2 : Fin 3) (⟨128 + k.val, by omega⟩ : Fin 257) (0 : Fin 1)) :=
  ((congrFun (rd_main_v231 (F := Ideal) V) _).trans (slice2_axis0_apply 128 _ _ k (0 : Fin 1) (⟨128 + k.val, by omega⟩ : Fin 257) rfl)).trans (at_r70 V _)

theorem at_r81 : (@id (FVec Ideal S1x1 .f32) (after (ops (F := Ideal)) V (Proc.devRef .tc main_v238))) (ix2 (0 : Fin 1) (0 : Fin 1)) = (@id (FVec Ideal S3x257x1 .f32) (after (ops (F := Ideal)) V (Proc.devRef .tc main_arg6))) (ix3 (2 : Fin 3) (⟨256, by omega⟩ : Fin 257) (0 : Fin 1)) :=
  ((congrFun (rd_main_v238 (F := Ideal) V) _).trans (slice2_axis0_apply 256 _ _ (0 : Fin 1) (0 : Fin 1) (⟨256, by omega⟩ : Fin 257) rfl)).trans (at_r70 V _)

theorem at_r72 (i : Fin 768) : (@id (FVec Ideal S768x1 .f32) (after (ops (F := Ideal)) V (Proc.devRef .tc main_v229))) (ix2 i (0 : Fin 1)) = ∑ k : Fin 128, (@id (FVec Ideal S768x128 .f32) (after (ops (F := Ideal)) V (Proc.devRef .tc main_v175))) (ix2 i k) * (@id (FVec Ideal S3x257x1 .f32) (after (ops (F := Ideal)) V (Proc.devRef .tc main_arg6))) (ix3 (2 : Fin 3) (⟨k.val, by omega⟩ : Fin 257) (0 : Fin 1)) := by
  rw [show (@id (FVec Ideal S768x1 .f32) (after (ops (F := Ideal)) V (Proc.devRef .tc main_v229))) (ix2 i (0 : Fin 1)) = ∑ k : Fin 128, (@id (FVec Ideal S768x128 .f32) (after (ops (F := Ideal)) V (Proc.devRef .tc main_v175))) (ix2 i k) * (@id (FVec Ideal S128x1 .f32) (after (ops (F := Ideal)) V (Proc.devRef .tc main_v228))) (ix2 k (0 : Fin 1)) from
    (congrFun (rd_main_v229 (F := Ideal) V) _).trans (Cert.Lib.dotGeneral_plain_apply _ _ _ _ i (0 : Fin 1))]
  exact Finset.sum_congr rfl fun k _ => by rw [at_r71]

theorem at_r75 (i : Fin 768) : (@id (FVec Ideal S768x1 .f32) (after (ops (F := Ideal)) V (Proc.devRef .tc main_v232))) (ix2 i (0 : Fin 1)) = ∑ k : Fin 128, (@id (FVec Ideal S768x128 .f32) (after (ops (F := Ideal)) V (Proc.devRef .tc main_v175))) (ix2 i k) * (@id (FVec Ideal S3x257x1 .f32) (after (ops (F := Ideal)) V (Proc.devRef .tc main_arg6))) (ix3 (2 : Fin 3) (⟨128 + k.val, by omega⟩ : Fin 257) (0 : Fin 1)) := by
  rw [show (@id (FVec Ideal S768x1 .f32) (after (ops (F := Ideal)) V (Proc.devRef .tc main_v232))) (ix2 i (0 : Fin 1)) = ∑ k : Fin 128, (@id (FVec Ideal S768x128 .f32) (after (ops (F := Ideal)) V (Proc.devRef .tc main_v175))) (ix2 i k) * (@id (FVec Ideal S128x1 .f32) (after (ops (F := Ideal)) V (Proc.devRef .tc main_v231))) (ix2 k (0 : Fin 1)) from
    (congrFun (rd_main_v232 (F := Ideal) V) _).trans (Cert.Lib.dotGeneral_plain_apply _ _ _ _ i (0 : Fin 1))]
  exact Finset.sum_congr rfl fun k _ => by rw [at_r74]

theorem at_r77 (i j : Fin 768) : (@id (FVec Ideal S768x768x1 .f32) (after (ops (F := Ideal)) V (Proc.devRef .tc main_v234))) (ix3 i j (0 : Fin 1)) = (@id (FVec Ideal S768x1 .f32) (after (ops (F := Ideal)) V (Proc.devRef .tc main_v229))) (ix2 i (0 : Fin 1)) :=
  ((congrFun (rd_main_v234 (F := Ideal) V) _).trans (broadcastInDim_apply _ _ _ _ (ix3 i (0 : Fin 1) (0 : Fin 1)) (fun a => match a with | ⟨0, _⟩ => rfl | ⟨1, _⟩ => rfl | ⟨2, _⟩ => rfl))).trans
    ((congrFun (rd_main_v230 (F := Ideal) V) _).trans (broadcastInDim_apply _ _ _ _ (ix2 i (0 : Fin 1)) (fun a => match a with | ⟨0, _⟩ => rfl | ⟨1, _⟩ => rfl)))

theorem at_r78 (i j : Fin 768) : (@id (FVec Ideal S768x768x1 .f32) (after (ops (F := Ideal)) V (Proc.devRef .tc main_v235))) (ix3 i j (0 : Fin 1)) = (@id (FVec Ideal S768x1 .f32) (after (ops (F := Ideal)) V (Proc.devRef .tc main_v232))) (ix2 j (0 : Fin 1)) :=
  ((congrFun (rd_main_v235 (F := Ideal) V) _).trans (broadcastInDim_apply _ _ _ _ (ix3 (0 : Fin 1) j (0 : Fin 1)) (fun a => match a with | ⟨0, _⟩ => rfl | ⟨1, _⟩ => rfl | ⟨2, _⟩ => rfl))).trans
    ((congrFun (rd_main_v233 (F := Ideal) V) _).trans (broadcastInDim_apply _ _ _ _ (ix2 j (0 : Fin 1)) (fun a => match a with | ⟨0, _⟩ => rfl | ⟨1, _⟩ => rfl)))

theorem at_r80 (i j : Fin 768) : (@id (FVec Ideal S768x768x1 .f32) (after (ops (F := Ideal)) V (Proc.devRef .tc main_v237))) (ix3 i j (0 : Fin 1)) = (@id (FVec Ideal S768x768 .f32) (after (ops (F := Ideal)) V (Proc.devRef .tc main_v189))) (ix2 i j) :=
  (congrFun (rd_main_v237 (F := Ideal) V) _).trans (broadcastInDim_apply _ _ _ _ (ix2 i j) (fun a => match a with | ⟨0, _⟩ => rfl | ⟨1, _⟩ => rfl))

theorem at_r84 (i j : Fin 768) : (@id (FVec Ideal S768x768x1 .f32) (after (ops (F := Ideal)) V (Proc.devRef .tc main_v241))) (ix3 i j (0 : Fin 1)) = (@id (FVec Ideal S3x257x1 .f32) (after (ops (F := Ideal)) V (Proc.devRef .tc main_arg6))) (ix3 (2 : Fin 3) (⟨256, by omega⟩ : Fin 257) (0 : Fin 1)) :=
  ((congrFun (rd_main_v241 (F := Ideal) V) _).trans (broadcastInDim_apply _ _ _ _ (ix3 (0 : Fin 1) (0 : Fin 1) (0 : Fin 1)) (fun a => match a with | ⟨0, _⟩ => rfl | ⟨1, _⟩ => rfl | ⟨2, _⟩ => rfl))).trans
    (((congrFun (rd_main_v240 (F := Ideal) V) _).trans (broadcastInDim_apply _ _ _ _ (ix1 (0 : Fin 1)) (fun a => match a with | ⟨0, _⟩ => rfl))).trans
      (((congrFun (rd_main_v239 (F := Ideal) V) _).trans (shapeCast_1a_a_apply _ _ (0 : Fin 1))).trans (at_r81 V)))

theorem at_r90 (i j : Fin 768) : (@id (FVec Ideal S768x768x1 .f32) (after (ops (F := Ideal)) V (Proc.devRef .tc main_v247))) (ix3 i j (0 : Fin 1)) = (@id (FVec Ideal S3x1 .f32) (after (ops (F := Ideal)) V (Proc.devRef .tc main_arg7))) (ix2 (2 : Fin 3) (0 : Fin 1)) :=
  ((congrFun (rd_main_v247 (F := Ideal) V) _).trans (broadcastInDim_apply _ _ _ _ (ix3 (0 : Fin 1) (0 : Fin 1) (0 : Fin 1)) (fun a => match a with | ⟨0, _⟩ => rfl | ⟨1, _⟩ => rfl | ⟨2, _⟩ => rfl))).trans
    (((congrFun (rd_main_v246 (F := Ideal) V) _).trans (broadcastInDim_apply _ _ _ _ (ix1 (0 : Fin 1)) (fun a => match a with | ⟨0, _⟩ => rfl))).trans
      (((congrFun (rd_main_v245 (F := Ideal) V) _).trans (shapeCast_1a_a_apply _ _ (0 : Fin 1))).trans
        ((congrFun (rd_main_v244 (F := Ideal) V) _).trans (slice2_axis0_apply 2 _ _ (0 : Fin 1) (0 : Fin 1) (2 : Fin 3) rfl))))

/-- The coordinate weight's pre-activation. -/
theorem at_r91 (i j : Fin 768) : (@id (FVec Ideal S768x768x1 .f32) (after (ops (F := Ideal)) V (Proc.devRef .tc main_v248))) (ix3 i j (0 : Fin 1)) = Cert.Spec.wpre (fun i k => (@id (FVec Ideal S768x128 .f32) (after (ops (F := Ideal)) V (Proc.devRef .tc main_v175))) (ix2 i k)) (fun i k => (@id (FVec Ideal S768x3 .f32) (after (ops (F := Ideal)) V (Proc.devRef .tc main_v174))) (ix2 i k)) (fun (k : Fin 128) => (@id (FVec Ideal S3x257x1 .f32) (after (ops (F := Ideal)) V (Proc.devRef .tc main_arg6))) (ix3 (2 : Fin 3) (⟨k.val, by omega⟩ : Fin 257) (0 : Fin 1))) (fun (k : Fin 128) => (@id (FVec Ideal S3x257x1 .f32) (after (ops (F := Ideal)) V (Proc.devRef .tc main_arg6))) (ix3 (2 : Fin 3) (⟨128 + k.val, by omega⟩ : Fin 257) (0 : Fin 1))) ((@id (FVec Ideal S3x257x1 .f32) (after (ops (F := Ideal)) V (Proc.devRef .tc main_arg6))) (ix3 (2 : Fin 3) (⟨256, by omega⟩ : Fin 257) (0 : Fin 1))) ((@id (FVec Ideal S3x1 .f32) (after (ops (F := Ideal)) V (Proc.devRef .tc main_arg7))) (ix2 (2 : Fin 3) (0 : Fin 1))) i j := by
  rw [show (@id (FVec Ideal S768x768x1 .f32) (after (ops (F := Ideal)) V (Proc.devRef .tc main_v248))) (ix3 i j (0 : Fin 1)) = (@id (FVec Ideal S768x768x1 .f32) (after (ops (F := Ideal)) V (Proc.devRef .tc main_v243))) (ix3 i j (0 : Fin 1)) + (@id (FVec Ideal S768x768x1 .f32) (after (ops (F := Ideal)) V (Proc.devRef .tc main_v247))) (ix3 i j (0 : Fin 1)) from congrFun (rd_main_v248 (F := Ideal) V) _,
    show (@id (FVec Ideal S768x768x1 .f32) (after (ops (F := Ideal)) V (Proc.devRef .tc main_v243))) (ix3 i j (0 : Fin 1)) = (@id (FVec Ideal S768x768x1 .f32) (after (ops (F := Ideal)) V (Proc.devRef .tc main_v236))) (ix3 i j (0 : Fin 1)) + (@id (FVec Ideal S768x768x1 .f32) (after (ops (F := Ideal)) V (Proc.devRef .tc main_v242))) (ix3 i j (0 : Fin 1)) from congrFun (rd_main_v243 (F := Ideal) V) _,
    show (@id (FVec Ideal S768x768x1 .f32) (after (ops (F := Ideal)) V (Proc.devRef .tc main_v236))) (ix3 i j (0 : Fin 1)) = (@id (FVec Ideal S768x768x1 .f32) (after (ops (F := Ideal)) V (Proc.devRef .tc main_v234))) (ix3 i j (0 : Fin 1)) + (@id (FVec Ideal S768x768x1 .f32) (after (ops (F := Ideal)) V (Proc.devRef .tc main_v235))) (ix3 i j (0 : Fin 1)) from congrFun (rd_main_v236 (F := Ideal) V) _,
    show (@id (FVec Ideal S768x768x1 .f32) (after (ops (F := Ideal)) V (Proc.devRef .tc main_v242))) (ix3 i j (0 : Fin 1)) = (@id (FVec Ideal S768x768x1 .f32) (after (ops (F := Ideal)) V (Proc.devRef .tc main_v237))) (ix3 i j (0 : Fin 1)) * (@id (FVec Ideal S768x768x1 .f32) (after (ops (F := Ideal)) V (Proc.devRef .tc main_v241))) (ix3 i j (0 : Fin 1)) from congrFun (rd_main_v242 (F := Ideal) V) _,
    at_r77, at_r78, at_r80, at_r84, at_r90, at_r72, at_r75, at_r22]
  rfl

theorem at_r95 (idx : S768x768x1.Idx) : (@id (FVec Ideal S768x768x1 .f32) (after (ops (F := Ideal)) V (Proc.devRef .tc main_call11_v2))) idx = 1 :=
  ((congrFun (rd_main_call11_v2 (F := Ideal) V) _).trans (broadcastInDim_scalar_apply _ _ _)).trans ((congrFun (rd_main_call11_cst (F := Ideal) V) _).trans Ideal.ofBits_one_f32)

theorem at_r98 (idx : S768x768x1.Idx) : (@id (FVec Ideal S768x768x1 .f32) (after (ops (F := Ideal)) V (Proc.devRef .tc main_call11_v4))) idx = 1 :=
  ((congrFun (rd_main_call11_v4 (F := Ideal) V) _).trans (broadcastInDim_scalar_apply _ _ _)).trans ((congrFun (rd_main_call11_cst_0 (F := Ideal) V) _).trans Ideal.ofBits_one_f32)

/-- The outlined `silu`: the argument times the reciprocal of one plus the exponential of its negation. -/
theorem at_r100 (idx : S768x768x1.Idx) : (@id (FVec Ideal S768x768x1 .f32) (after (ops (F := Ideal)) V (Proc.devRef .tc main_v249))) idx = Cert.Spec.silu ((@id (FVec Ideal S768x768x1 .f32) (after (ops (F := Ideal)) V (Proc.devRef .tc main_v248))) idx) := by
  rw [show (@id (FVec Ideal S768x768x1 .f32) (after (ops (F := Ideal)) V (Proc.devRef .tc main_v249))) idx = (@id (FVec Ideal S768x768x1 .f32) (after (ops (F := Ideal)) V (Proc.devRef .tc main_v248))) idx * (@id (FVec Ideal S768x768x1 .f32) (after (ops (F := Ideal)) V (Proc.devRef .tc main_call11_v5))) idx from congrFun (rd_main_v249 (F := Ideal) V) _,
    show (@id (FVec Ideal S768x768x1 .f32) (after (ops (F := Ideal)) V (Proc.devRef .tc main_call11_v5))) idx = Ideal.div ((@id (FVec Ideal S768x768x1 .f32) (after (ops (F := Ideal)) V (Proc.devRef .tc main_call11_v4))) idx) ((@id (FVec Ideal S768x768x1 .f32) (after (ops (F := Ideal)) V (Proc.devRef .tc main_call11_v3))) idx) from congrFun (rd_main_call11_v5 (F := Ideal) V) _, at_r98,
    show (@id (FVec Ideal S768x768x1 .f32) (after (ops (F := Ideal)) V (Proc.devRef .tc main_call11_v3))) idx = (@id (FVec Ideal S768x768x1 .f32) (after (ops (F := Ideal)) V (Proc.devRef .tc main_call11_v2))) idx + (@id (FVec Ideal S768x768x1 .f32) (after (ops (F := Ideal)) V (Proc.devRef .tc main_call11_v1))) idx from congrFun (rd_main_call11_v3 (F := Ideal) V) _, at_r95,
    show (@id (FVec Ideal S768x768x1 .f32) (after (ops (F := Ideal)) V (Proc.devRef .tc main_call11_v1))) idx = Ideal.exp ((@id (FVec Ideal S768x768x1 .f32) (after (ops (F := Ideal)) V (Proc.devRef .tc main_call11_v0))) idx) from congrFun (rd_main_call11_v1 (F := Ideal) V) _,
    show (@id (FVec Ideal S768x768x1 .f32) (after (ops (F := Ideal)) V (Proc.devRef .tc main_call11_v0))) idx = -((@id (FVec Ideal S768x768x1 .f32) (after (ops (F := Ideal)) V (Proc.devRef .tc main_v248))) idx) from congrFun (rd_main_call11_v0 (F := Ideal) V) _]
  rfl

theorem at_r101 (i j : Fin 768) (k : Fin 3) : (@id (FVec Ideal S768x768x3 .f32) (after (ops (F := Ideal)) V (Proc.devRef .tc main_v250))) (ix3 i j k) = (@id (FVec Ideal S768x768x1 .f32) (after (ops (F := Ideal)) V (Proc.devRef .tc main_v249))) (ix3 i j (0 : Fin 1)) :=
  (congrFun (rd_main_v250 (F := Ideal) V) _).trans (broadcastInDim_apply _ _ _ _ (ix3 i j (0 : Fin 1)) (fun a => match a with | ⟨0, _⟩ => rfl | ⟨1, _⟩ => rfl | ⟨2, _⟩ => rfl))

/-- The sum over the sending nodes of the weighted coordinate differences. -/
theorem at_r104 (i : Fin 768) (k : Fin 3) : (@id (FVec Ideal S768x3 .f32) (after (ops (F := Ideal)) V (Proc.devRef .tc main_v252))) (ix2 i k) = ∑ j : Fin 768, Cert.Spec.silu (Cert.Spec.wpre (fun i k => (@id (FVec Ideal S768x128 .f32) (after (ops (F := Ideal)) V (Proc.devRef .tc main_v175))) (ix2 i k)) (fun i k => (@id (FVec Ideal S768x3 .f32) (after (ops (F := Ideal)) V (Proc.devRef .tc main_v174))) (ix2 i k)) (fun (k : Fin 128) => (@id (FVec Ideal S3x257x1 .f32) (after (ops (F := Ideal)) V (Proc.devRef .tc main_arg6))) (ix3 (2 : Fin 3) (⟨k.val, by omega⟩ : Fin 257) (0 : Fin 1))) (fun (k : Fin 128) => (@id (FVec Ideal S3x257x1 .f32) (after (ops (F := Ideal)) V (Proc.devRef .tc main_arg6))) (ix3 (2 : Fin 3) (⟨128 + k.val, by omega⟩ : Fin 257) (0 : Fin 1))) ((@id (FVec Ideal S3x257x1 .f32) (after (ops (F := Ideal)) V (Proc.devRef .tc main_arg6))) (ix3 (2 : Fin 3) (⟨256, by omega⟩ : Fin 257) (0 : Fin 1))) ((@id (FVec Ideal S3x1 .f32) (after (ops (F := Ideal)) V (Proc.devRef .tc main_arg7))) (ix2 (2 : Fin 3) (0 : Fin 1))) i j) * Cert.Spec.rel (fun i k => (@id (FVec Ideal S768x3 .f32) (after (ops (F := Ideal)) V (Proc.devRef .tc main_v174))) (ix2 i k)) i j k := by
  have hr : Shape.Reduces S768x768x3 [1] S768x3 := by decide
  have e : (@id (FVec Ideal S768x3 .f32) (after (ops (F := Ideal)) V (Proc.devRef .tc main_v252))) (ix2 i k)
      = Ideal.hostReduceAdd reducesTo_S768x768x3_S768x3_d1 (@id (FVec Ideal S768x768x3 .f32) (after (ops (F := Ideal)) V (Proc.devRef .tc main_v251))) ((@id (FVec Ideal S_ .f32) (after (ops (F := Ideal)) V (Proc.devRef .tc main_cst_27))) (Shape.Idx.first h_S_)) (ix2 i k) := congrFun (rd_main_v252 (F := Ideal) V) _
  rw [e, Ideal.hostReduceAdd_single _ hr, show (@id (FVec Ideal S_ .f32) (after (ops (F := Ideal)) V (Proc.devRef .tc main_cst_27))) (Shape.Idx.first h_S_) = 0 from (congrFun (rd_main_cst_27 (F := Ideal) V) _).trans Ideal.ofBits_zero_f32, zero_add]
  show ∑ j : Fin 768, (@id (FVec Ideal S768x768x3 .f32) (after (ops (F := Ideal)) V (Proc.devRef .tc main_v251))) (hr.lift (ix2 i k) j) = _
  refine Finset.sum_congr rfl fun j _ => ?_
  rw [show hr.lift (ix2 i k) j = (ix3 i j k) from (funext fun a => Fin.ext (match a with | ⟨0, _⟩ => rfl | ⟨1, _⟩ => rfl | ⟨2, _⟩ => rfl))]
  rw [show (@id (FVec Ideal S768x768x3 .f32) (after (ops (F := Ideal)) V (Proc.devRef .tc main_v251))) (ix3 i j k) = (@id (FVec Ideal S768x768x3 .f32) (after (ops (F := Ideal)) V (Proc.devRef .tc main_v250))) (ix3 i j k) * (@id (FVec Ideal S768x768x3 .f32) (after (ops (F := Ideal)) V (Proc.devRef .tc main_v180))) (ix3 i j k) from congrFun (rd_main_v251 (F := Ideal) V) _, at_r101, at_r100, at_r91, at_r4]
  rfl

theorem at_r106 (idx : S768x3.Idx) : (@id (FVec Ideal S768x3 .f32) (after (ops (F := Ideal)) V (Proc.devRef .tc main_v253))) idx = ((768 : ℝ) : EReal) :=
  ((congrFun (rd_main_v253 (F := Ideal) V) _).trans (broadcastInDim_scalar_apply _ _ _)).trans ((congrFun (rd_main_cst_28 (F := Ideal) V) _).trans ofBits_768)

/-- The layer's new coordinates. -/
theorem at_r108 (i : Fin 768) (k : Fin 3) :
    (@id (FVec Ideal S768x3 .f32) (after (ops (F := Ideal)) V (Proc.devRef .tc main_v255))) (ix2 i k) = Cert.Spec.layerC (fun i k => (@id (FVec Ideal S768x128 .f32) (after (ops (F := Ideal)) V (Proc.devRef .tc main_v175))) (ix2 i k)) (fun i k => (@id (FVec Ideal S768x3 .f32) (after (ops (F := Ideal)) V (Proc.devRef .tc main_v174))) (ix2 i k)) (fun (k : Fin 128) => (@id (FVec Ideal S3x257x1 .f32) (after (ops (F := Ideal)) V (Proc.devRef .tc main_arg6))) (ix3 (2 : Fin 3) (⟨k.val, by omega⟩ : Fin 257) (0 : Fin 1))) (fun (k : Fin 128) => (@id (FVec Ideal S3x257x1 .f32) (after (ops (F := Ideal)) V (Proc.devRef .tc main_arg6))) (ix3 (2 : Fin 3) (⟨128 + k.val, by omega⟩ : Fin 257) (0 : Fin 1))) ((@id (FVec Ideal S3x257x1 .f32) (after (ops (F := Ideal)) V (Proc.devRef .tc main_arg6))) (ix3 (2 : Fin 3) (⟨256, by omega⟩ : Fin 257) (0 : Fin 1))) ((@id (FVec Ideal S3x1 .f32) (after (ops (F := Ideal)) V (Proc.devRef .tc main_arg7))) (ix2 (2 : Fin 3) (0 : Fin 1))) i k := by
  rw [show (@id (FVec Ideal S768x3 .f32) (after (ops (F := Ideal)) V (Proc.devRef .tc main_v255))) (ix2 i k) = (@id (FVec Ideal S768x3 .f32) (after (ops (F := Ideal)) V (Proc.devRef .tc main_v174))) (ix2 i k) + (@id (FVec Ideal S768x3 .f32) (after (ops (F := Ideal)) V (Proc.devRef .tc main_v254))) (ix2 i k) from congrFun (rd_main_v255 (F := Ideal) V) _,
    show (@id (FVec Ideal S768x3 .f32) (after (ops (F := Ideal)) V (Proc.devRef .tc main_v254))) (ix2 i k) = Ideal.div ((@id (FVec Ideal S768x3 .f32) (after (ops (F := Ideal)) V (Proc.devRef .tc main_v252))) (ix2 i k)) ((@id (FVec Ideal S768x3 .f32) (after (ops (F := Ideal)) V (Proc.devRef .tc main_v253))) (ix2 i k)) from congrFun (rd_main_v254 (F := Ideal) V) _, at_r106,
    Ideal.div_coe (by norm_num : (768 : ℝ) ≠ 0), at_r104]
  rfl

end L3

/-- Layer 1's new features at a node and a feature index are the specification's, of the layer's input features and
    coordinates and of the weights: the rows 0–127, 128–255 and 256 of slab 0 of the first weight array, and slab 0 of the
    first bias, the second weight array and the second bias. -/
theorem layer1_h (i : Fin 768) (d : Fin 128) :
    after (ops (F := Ideal)) V (Proc.devRef .tc main_v94) (ix2 i d)
      = Cert.Spec.layerH (fun i k => after (ops (F := Ideal)) V (Proc.devRef .tc main_v6) (ix2 i k)) (fun i k => after (ops (F := Ideal)) V (Proc.devRef .tc main_v13) (ix2 i k))
          (fun k d => V (Proc.devRef .tc main_arg2) (ix3 (0 : Fin 3) (⟨k.val, by omega⟩ : Fin 257) d))
          (fun k d => V (Proc.devRef .tc main_arg2) (ix3 (0 : Fin 3) (⟨128 + k.val, by omega⟩ : Fin 257) d))
          (fun d => V (Proc.devRef .tc main_arg2) (ix3 (0 : Fin 3) (⟨256, by omega⟩ : Fin 257) d))
          (fun d => V (Proc.devRef .tc main_arg3) (ix2 (0 : Fin 3) d))
          (fun k d => V (Proc.devRef .tc main_arg4) (ix3 (0 : Fin 3) k d))
          (fun d => V (Proc.devRef .tc main_arg5) (ix2 (0 : Fin 3) d)) i d := by
  have h := L1.at_r109 V i d
  rw [main_arg2_eq, main_arg3_eq, main_arg4_eq, main_arg5_eq] at h
  exact h

/-- Layer 1's new coordinates at a node and a coordinate index are the specification's, of the layer's input features and
    coordinates and of the weights: the rows 0–127, 128–255 and 256 of slab 0 of the coordinate weight array, and entry 0 of
    its bias. -/
theorem layer1_c (i : Fin 768) (k : Fin 3) :
    after (ops (F := Ideal)) V (Proc.devRef .tc main_v93) (ix2 i k)
      = Cert.Spec.layerC (fun i k => after (ops (F := Ideal)) V (Proc.devRef .tc main_v6) (ix2 i k)) (fun i k => after (ops (F := Ideal)) V (Proc.devRef .tc main_v13) (ix2 i k))
          (fun k => V (Proc.devRef .tc main_arg6) (ix3 (0 : Fin 3) (⟨k.val, by omega⟩ : Fin 257) (0 : Fin 1)))
          (fun k => V (Proc.devRef .tc main_arg6) (ix3 (0 : Fin 3) (⟨128 + k.val, by omega⟩ : Fin 257) (0 : Fin 1)))
          (V (Proc.devRef .tc main_arg6) (ix3 (0 : Fin 3) (⟨256, by omega⟩ : Fin 257) (0 : Fin 1)))
          (V (Proc.devRef .tc main_arg7) (ix2 (0 : Fin 3) (0 : Fin 1))) i k := by
  have h := L1.at_r108 V i k
  rw [main_arg6_eq, main_arg7_eq] at h
  exact h

/-- Layer 2's new features at a node and a feature index are the specification's, of the layer's input features and
    coordinates and of the weights: the rows 0–127, 128–255 and 256 of slab 1 of the first weight array, and slab 1 of the
    first bias, the second weight array and the second bias. -/
theorem layer2_h (i : Fin 768) (d : Fin 128) :
    after (ops (F := Ideal)) V (Proc.devRef .tc main_v175) (ix2 i d)
      = Cert.Spec.layerH (fun i k => after (ops (F := Ideal)) V (Proc.devRef .tc main_v94) (ix2 i k)) (fun i k => after (ops (F := Ideal)) V (Proc.devRef .tc main_v93) (ix2 i k))
          (fun k d => V (Proc.devRef .tc main_arg2) (ix3 (1 : Fin 3) (⟨k.val, by omega⟩ : Fin 257) d))
          (fun k d => V (Proc.devRef .tc main_arg2) (ix3 (1 : Fin 3) (⟨128 + k.val, by omega⟩ : Fin 257) d))
          (fun d => V (Proc.devRef .tc main_arg2) (ix3 (1 : Fin 3) (⟨256, by omega⟩ : Fin 257) d))
          (fun d => V (Proc.devRef .tc main_arg3) (ix2 (1 : Fin 3) d))
          (fun k d => V (Proc.devRef .tc main_arg4) (ix3 (1 : Fin 3) k d))
          (fun d => V (Proc.devRef .tc main_arg5) (ix2 (1 : Fin 3) d)) i d := by
  have h := L2.at_r109 V i d
  rw [main_arg2_eq, main_arg3_eq, main_arg4_eq, main_arg5_eq] at h
  exact h

/-- Layer 2's new coordinates at a node and a coordinate index are the specification's, of the layer's input features and
    coordinates and of the weights: the rows 0–127, 128–255 and 256 of slab 1 of the coordinate weight array, and entry 1 of
    its bias. -/
theorem layer2_c (i : Fin 768) (k : Fin 3) :
    after (ops (F := Ideal)) V (Proc.devRef .tc main_v174) (ix2 i k)
      = Cert.Spec.layerC (fun i k => after (ops (F := Ideal)) V (Proc.devRef .tc main_v94) (ix2 i k)) (fun i k => after (ops (F := Ideal)) V (Proc.devRef .tc main_v93) (ix2 i k))
          (fun k => V (Proc.devRef .tc main_arg6) (ix3 (1 : Fin 3) (⟨k.val, by omega⟩ : Fin 257) (0 : Fin 1)))
          (fun k => V (Proc.devRef .tc main_arg6) (ix3 (1 : Fin 3) (⟨128 + k.val, by omega⟩ : Fin 257) (0 : Fin 1)))
          (V (Proc.devRef .tc main_arg6) (ix3 (1 : Fin 3) (⟨256, by omega⟩ : Fin 257) (0 : Fin 1)))
          (V (Proc.devRef .tc main_arg7) (ix2 (1 : Fin 3) (0 : Fin 1))) i k := by
  have h := L2.at_r108 V i k
  rw [main_arg6_eq, main_arg7_eq] at h
  exact h

/-- Layer 3's new features at a node and a feature index are the specification's, of the layer's input features and
    coordinates and of the weights: the rows 0–127, 128–255 and 256 of slab 2 of the first weight array, and slab 2 of the
    first bias, the second weight array and the second bias. -/
theorem layer3_h (i : Fin 768) (d : Fin 128) :
    after (ops (F := Ideal)) V (Proc.devRef .tc main_v256) (ix2 i d)
      = Cert.Spec.layerH (fun i k => after (ops (F := Ideal)) V (Proc.devRef .tc main_v175) (ix2 i k)) (fun i k => after (ops (F := Ideal)) V (Proc.devRef .tc main_v174) (ix2 i k))
          (fun k d => V (Proc.devRef .tc main_arg2) (ix3 (2 : Fin 3) (⟨k.val, by omega⟩ : Fin 257) d))
          (fun k d => V (Proc.devRef .tc main_arg2) (ix3 (2 : Fin 3) (⟨128 + k.val, by omega⟩ : Fin 257) d))
          (fun d => V (Proc.devRef .tc main_arg2) (ix3 (2 : Fin 3) (⟨256, by omega⟩ : Fin 257) d))
          (fun d => V (Proc.devRef .tc main_arg3) (ix2 (2 : Fin 3) d))
          (fun k d => V (Proc.devRef .tc main_arg4) (ix3 (2 : Fin 3) k d))
          (fun d => V (Proc.devRef .tc main_arg5) (ix2 (2 : Fin 3) d)) i d := by
  have h := L3.at_r109 V i d
  rw [main_arg2_eq, main_arg3_eq, main_arg4_eq, main_arg5_eq] at h
  exact h

/-- Layer 3's new coordinates at a node and a coordinate index are the specification's, of the layer's input features and
    coordinates and of the weights: the rows 0–127, 128–255 and 256 of slab 2 of the coordinate weight array, and entry 2 of
    its bias. -/
theorem layer3_c (i : Fin 768) (k : Fin 3) :
    after (ops (F := Ideal)) V (Proc.devRef .tc main_v255) (ix2 i k)
      = Cert.Spec.layerC (fun i k => after (ops (F := Ideal)) V (Proc.devRef .tc main_v175) (ix2 i k)) (fun i k => after (ops (F := Ideal)) V (Proc.devRef .tc main_v174) (ix2 i k))
          (fun k => V (Proc.devRef .tc main_arg6) (ix3 (2 : Fin 3) (⟨k.val, by omega⟩ : Fin 257) (0 : Fin 1)))
          (fun k => V (Proc.devRef .tc main_arg6) (ix3 (2 : Fin 3) (⟨128 + k.val, by omega⟩ : Fin 257) (0 : Fin 1)))
          (V (Proc.devRef .tc main_arg6) (ix3 (2 : Fin 3) (⟨256, by omega⟩ : Fin 257) (0 : Fin 1)))
          (V (Proc.devRef .tc main_arg7) (ix2 (2 : Fin 3) (0 : Fin 1))) i k := by
  have h := L3.at_r108 V i k
  rw [main_arg6_eq, main_arg7_eq] at h
  exact h

end Cert.ReferenceIdeal.RefLayers

end
-- ==== Proof.GlueRef.lean ====
/-
  The reference program's line of operations read through the shared functions: the two gathers at its head, and its last
  stretch — from the segment sum of the last layer's features to the result — as `tail` of those features and the
  argument arrays. The last stretch is the last twelve operations of the fifth window and the whole sixth; it is cut
  into the same pieces as the functions.
-/
import proofs.«110946_j38972533244288_1_alg».proof.Proof.GlueDefs
import proofs.«110946_j38972533244288_1_alg».proof.Proof.RefRun
import Idealize.ShloMosaic.Lib.StableHlo.Run

set_option Elab.async false

noncomputable section

namespace Cert.Glue.Ref

open Idealize.ShloMosaic Idealize.ShloMosaic.TcCoe Idealize.SL.Sem Idealize.ShloMosaic.StableHlo
open Cert.ReferenceIdeal Cert.ReferenceIdeal.Gen Cert.ReferenceIdeal.RefRun Cert.Glue

/-- A valuation of the reference program's buffers at the ideal values. -/
abbrev RV : Type := Valuation τ sig (Elt Ideal)

/-! ## The gathers -/

set_option maxRecDepth 8192 in
theorem gatherH_eq (V : RV) :
    StableHlo.after (ops (F := Ideal)) V (Proc.devRef .tc main_v6)
      = gatherH (V (Proc.devRef .tc main_arg0)) (V (Proc.devRef .tc main_arg12)) := by
  rw [after_ops, keep5 _ main_v6 (by decide), keep4 _ main_v6 (by decide), keep3 _ main_v6 (by decide),
    keep2 _ main_v6 (by decide), keep1 _ main_v6 (by decide)]
  after_results_simp
  rfl

set_option maxRecDepth 8192 in
theorem gatherC_eq (V : RV) :
    StableHlo.after (ops (F := Ideal)) V (Proc.devRef .tc main_v13)
      = gatherC (V (Proc.devRef .tc main_arg1)) (V (Proc.devRef .tc main_arg12)) := by
  rw [after_ops, keep5 _ main_v13 (by decide), keep4 _ main_v13 (by decide), keep3 _ main_v13 (by decide),
    keep2 _ main_v13 (by decide), keep1 _ main_v13 (by decide)]
  after_results_simp
  rfl

/-! ## The last stretch, in five pieces -/

section Pieces
variable {F : FTy → Type} [FloatOps F]

/-- The fifth window's last twelve operations: the segment sum of the last features and the segments' counts. -/
abbrev t4 : List (HloOp τ sig (Elt F)) :=
  [ StableHlo.nullary main_cst_29 (constant S_ .f32 0x00000000#32),
    StableHlo.unary main_cst_29 main_v257 (broadcastInDim S2048x128 ![] bcast_S_S2048x128 : (⟨S_, .f32⟩ : BufTy).Contents (Elt F) → (⟨S2048x128, .f32⟩ : BufTy).Contents (Elt F)),
    StableHlo.unary main_arg13 main_v258 (broadcastInDim S768x1 ![0] bcast_S768_S768x1_0 : (⟨S768, .i32⟩ : BufTy).Contents (Elt F) → (⟨S768x1, .i32⟩ : BufTy).Contents (Elt F)),
    StableHlo.ternary main_v257 main_v258 main_v256 main_v259 ((fun x i u => Host.scatterAdd scatter_S2048x128_S768x1_S768x128_1_0_0_1 x i u) : (⟨S2048x128, .f32⟩ : BufTy).Contents (Elt F) → (⟨S768x1, .i32⟩ : BufTy).Contents (Elt F) → (⟨S768x128, .f32⟩ : BufTy).Contents (Elt F) → (⟨S2048x128, .f32⟩ : BufTy).Contents (Elt F)),
    StableHlo.nullary main_cst_30 (constant S_ .f32 0x3F800000#32),
    StableHlo.unary main_cst_30 main_v260 (broadcastInDim S768 ![] bcast_S_S768 : (⟨S_, .f32⟩ : BufTy).Contents (Elt F) → (⟨S768, .f32⟩ : BufTy).Contents (Elt F)),
    StableHlo.nullary main_cst_31 (constant S_ .f32 0x00000000#32),
    StableHlo.unary main_cst_31 main_v261 (broadcastInDim S2048 ![] bcast_S_S2048 : (⟨S_, .f32⟩ : BufTy).Contents (Elt F) → (⟨S2048, .f32⟩ : BufTy).Contents (Elt F)),
    StableHlo.unary main_arg13 main_v262 (broadcastInDim S768x1 ![0] bcast_S768_S768x1_0 : (⟨S768, .i32⟩ : BufTy).Contents (Elt F) → (⟨S768x1, .i32⟩ : BufTy).Contents (Elt F)),
    StableHlo.ternary main_v261 main_v262 main_v260 main_v263 ((fun x i u => Host.scatterAdd scatter_S2048_S768x1_S768_n_0_0_1 x i u) : (⟨S2048, .f32⟩ : BufTy).Contents (Elt F) → (⟨S768x1, .i32⟩ : BufTy).Contents (Elt F) → (⟨S768, .f32⟩ : BufTy).Contents (Elt F) → (⟨S2048, .f32⟩ : BufTy).Contents (Elt F)),
    StableHlo.unary main_v263 main_v264 (broadcastInDim S2048x1 ![0] bcast_S2048_S2048x1_0 : (⟨S2048, .f32⟩ : BufTy).Contents (Elt F) → (⟨S2048x1, .f32⟩ : BufTy).Contents (Elt F)),
    StableHlo.nullary main_cst_32 (constant S_ .f32 0x00000000#32) ]

/-- The sixth window's first thirteen: the mean per segment, zero for an empty one. -/
abbrev t5a : List (HloOp τ sig (Elt F)) :=
  [ StableHlo.unary main_cst_32 main_v265 (broadcastInDim S2048x1 ![] bcast_S_S2048x1 : (⟨S_, .f32⟩ : BufTy).Contents (Elt F) → (⟨S2048x1, .f32⟩ : BufTy).Contents (Elt F)),
    StableHlo.binary main_v264 main_v265 main_v266 (cmpf .ogt : (⟨S2048x1, .f32⟩ : BufTy).Contents (Elt F) → (⟨S2048x1, .f32⟩ : BufTy).Contents (Elt F) → (⟨S2048x1, .i1⟩ : BufTy).Contents (Elt F)),
    StableHlo.nullary main_cst_33 (constant S_ .f32 0x3F800000#32),
    StableHlo.unary main_cst_33 main_v267 (broadcastInDim S2048 ![] bcast_S_S2048 : (⟨S_, .f32⟩ : BufTy).Contents (Elt F) → (⟨S2048, .f32⟩ : BufTy).Contents (Elt F)),
    StableHlo.binary main_v263 main_v267 main_v268 (maximumf : (⟨S2048, .f32⟩ : BufTy).Contents (Elt F) → (⟨S2048, .f32⟩ : BufTy).Contents (Elt F) → (⟨S2048, .f32⟩ : BufTy).Contents (Elt F)),
    StableHlo.unary main_v268 main_v269 (broadcastInDim S2048x1 ![0] bcast_S2048_S2048x1_0 : (⟨S2048, .f32⟩ : BufTy).Contents (Elt F) → (⟨S2048x1, .f32⟩ : BufTy).Contents (Elt F)),
    StableHlo.unary main_v269 main_v270 (broadcastInDim S2048x128 ![0, 1] bcast_S2048x1_S2048x128_0_1 : (⟨S2048x1, .f32⟩ : BufTy).Contents (Elt F) → (⟨S2048x128, .f32⟩ : BufTy).Contents (Elt F)),
    StableHlo.binary main_v259 main_v270 main_v271 (Host.divf : (⟨S2048x128, .f32⟩ : BufTy).Contents (Elt F) → (⟨S2048x128, .f32⟩ : BufTy).Contents (Elt F) → (⟨S2048x128, .f32⟩ : BufTy).Contents (Elt F)),
    StableHlo.nullary main_cst_34 (constant S_ .f32 0x00000000#32),
    StableHlo.TRef.unary (.of main_cst_34 : StableHlo.TRef sig ⟨S_, .f32⟩) main_call12.v0 id,
    StableHlo.TRef.unary (.of main_v266 : StableHlo.TRef sig ⟨S2048x1, .i1⟩) main_call12.v1 (broadcastInDim S2048x128 ![0, 1] bcast_S2048x1_S2048x128_0_1),
    StableHlo.TRef.unary main_call12.v0 main_call12.v2 (broadcastInDim S2048x128 ![] bcast_S_S2048x128),
    StableHlo.TRef.ternary main_call12.v1 (.of main_v271 : StableHlo.TRef sig ⟨S2048x128, .f32⟩) main_call12.v2 main_call12.v3 select ]

/-- Its next seven: the concatenation and the columns' means. -/
abbrev t5b : List (HloOp τ sig (Elt F)) :=
  [ StableHlo.binary main_arg0 main_v272 main_v273 ((fun a b => concatenate S2048x256 1 [⟨S2048x128, a⟩, ⟨S2048x128, b⟩] concatenates_S2048x128_S2048x128_S2048x256_d1) : (⟨S2048x128, .f32⟩ : BufTy).Contents (Elt F) → (⟨S2048x128, .f32⟩ : BufTy).Contents (Elt F) → (⟨S2048x256, .f32⟩ : BufTy).Contents (Elt F)),
    StableHlo.nullary main_cst_35 (constant S_ .f32 0x00000000#32),
    StableHlo.binary main_v273 main_cst_35 main_v274 ((fun x v => Host.reduceAdd x v reducesTo_S2048x256_S256_d0 h_S_) : (⟨S2048x256, .f32⟩ : BufTy).Contents (Elt F) → (⟨S_, .f32⟩ : BufTy).Contents (Elt F) → (⟨S256, .f32⟩ : BufTy).Contents (Elt F)),
    StableHlo.nullary main_cst_36 (constant S_ .f32 0x45000000#32),
    StableHlo.unary main_cst_36 main_v275 (broadcastInDim S256 ![] bcast_S_S256 : (⟨S_, .f32⟩ : BufTy).Contents (Elt F) → (⟨S256, .f32⟩ : BufTy).Contents (Elt F)),
    StableHlo.binary main_v274 main_v275 main_v276 (Host.divf : (⟨S256, .f32⟩ : BufTy).Contents (Elt F) → (⟨S256, .f32⟩ : BufTy).Contents (Elt F) → (⟨S256, .f32⟩ : BufTy).Contents (Elt F)),
    StableHlo.nullary main_c_37 (constantI S_ 32 0#32) ]

/-- Its next twenty-two: the columns' variances. -/
abbrev t5c : List (HloOp τ sig (Elt F)) :=
  [ StableHlo.TRef.nullary main_call13.cst (constant S_ .f32 0x00000000#32),
    StableHlo.TRef.binary (.of main_v273 : StableHlo.TRef sig ⟨S2048x256, .f32⟩) main_call13.cst main_call13.v0 (fun x v => Host.reduceAdd x v reducesTo_S2048x256_S256_d0 h_S_),
    StableHlo.TRef.unary main_call13.v0 main_call13.v1 (broadcastInDim S1x256 ![1] bcast_S256_S1x256_1),
    StableHlo.TRef.nullary main_call13.cst_0 (constant S_ .f32 0x45000000#32),
    StableHlo.TRef.unary main_call13.cst_0 main_call13.v2 (broadcastInDim S1x256 ![] bcast_S_S1x256),
    StableHlo.TRef.binary main_call13.v1 main_call13.v2 main_call13.v3 Host.divf,
    StableHlo.TRef.unary main_call13.v3 main_call13.v4 (broadcastInDim S2048x256 ![0, 1] bcast_S1x256_S2048x256_0_1),
    StableHlo.TRef.binary (.of main_v273 : StableHlo.TRef sig ⟨S2048x256, .f32⟩) main_call13.v4 main_call13.v5 subf,
    StableHlo.TRef.binary main_call13.v5 main_call13.v5 main_call13.v6 mulf,
    StableHlo.TRef.unary (.of main_c_37 : StableHlo.TRef sig ⟨S_, .i32⟩) main_call13.v7 (sitofp .f32),
    StableHlo.TRef.nullary main_call13.cst_1 (constant S_ .f32 0x45000000#32),
    StableHlo.TRef.binary main_call13.cst_1 main_call13.v7 main_call13.v8 subf,
    StableHlo.TRef.nullary main_call13.cst_2 (constant S_ .f32 0x00000000#32),
    StableHlo.TRef.binary main_call13.v6 main_call13.cst_2 main_call13.v9 (fun x v => Host.reduceAdd x v reducesTo_S2048x256_S256_d0 h_S_),
    StableHlo.TRef.unary main_call13.v8 main_call13.v10 (broadcastInDim S256 ![] bcast_S_S256),
    StableHlo.TRef.binary main_call13.v9 main_call13.v10 main_call13.v11 Host.divf,
    StableHlo.TRef.nullary main_call13.cst_3 (constant S_ .f32 0x00000000#32),
    StableHlo.TRef.binary main_call13.v8 main_call13.cst_3 main_call13.v12 (cmpf .ogt),
    StableHlo.TRef.nullary main_call13.cst_4 (constant S_ .f32 0x7FC00000#32),
    StableHlo.TRef.unary main_call13.cst_4 main_call13.call0.v0 id,
    StableHlo.TRef.unary main_call13.call0.v0 main_call13.call0.v1 (broadcastInDim S256 ![] bcast_S_S256),
    StableHlo.TRef.ternary main_call13.v12 main_call13.v11 main_call13.call0.v1 main_call13.call0.v2 (fun p a b => select (broadcastInDim S256 ![] bcast_S_S256 p) a b) ]

/-- Its last twenty: normalisation, scale and shift, the last affine map. -/
abbrev t5d : List (HloOp τ sig (Elt F)) :=
  [ StableHlo.unary main_v276 main_v278 (broadcastInDim S1x256 ![1] bcast_S256_S1x256_1 : (⟨S256, .f32⟩ : BufTy).Contents (Elt F) → (⟨S1x256, .f32⟩ : BufTy).Contents (Elt F)),
    StableHlo.unary main_v278 main_v279 (broadcastInDim S2048x256 ![0, 1] bcast_S1x256_S2048x256_0_1 : (⟨S1x256, .f32⟩ : BufTy).Contents (Elt F) → (⟨S2048x256, .f32⟩ : BufTy).Contents (Elt F)),
    StableHlo.binary main_v273 main_v279 main_v280 (subf : (⟨S2048x256, .f32⟩ : BufTy).Contents (Elt F) → (⟨S2048x256, .f32⟩ : BufTy).Contents (Elt F) → (⟨S2048x256, .f32⟩ : BufTy).Contents (Elt F)),
    StableHlo.nullary main_cst_38 (constant S_ .f32 0x3727C5AC#32),
    StableHlo.unary main_cst_38 main_v281 (broadcastInDim S256 ![] bcast_S_S256 : (⟨S_, .f32⟩ : BufTy).Contents (Elt F) → (⟨S256, .f32⟩ : BufTy).Contents (Elt F)),
    StableHlo.binary main_v277 main_v281 main_v282 (addf : (⟨S256, .f32⟩ : BufTy).Contents (Elt F) → (⟨S256, .f32⟩ : BufTy).Contents (Elt F) → (⟨S256, .f32⟩ : BufTy).Contents (Elt F)),
    StableHlo.unary main_v282 main_v283 (Host.sqrt : (⟨S256, .f32⟩ : BufTy).Contents (Elt F) → (⟨S256, .f32⟩ : BufTy).Contents (Elt F)),
    StableHlo.unary main_v283 main_v284 (broadcastInDim S1x256 ![1] bcast_S256_S1x256_1 : (⟨S256, .f32⟩ : BufTy).Contents (Elt F) → (⟨S1x256, .f32⟩ : BufTy).Contents (Elt F)),
    StableHlo.unary main_v284 main_v285 (broadcastInDim S2048x256 ![0, 1] bcast_S1x256_S2048x256_0_1 : (⟨S1x256, .f32⟩ : BufTy).Contents (Elt F) → (⟨S2048x256, .f32⟩ : BufTy).Contents (Elt F)),
    StableHlo.binary main_v280 main_v285 main_v286 (Host.divf : (⟨S2048x256, .f32⟩ : BufTy).Contents (Elt F) → (⟨S2048x256, .f32⟩ : BufTy).Contents (Elt F) → (⟨S2048x256, .f32⟩ : BufTy).Contents (Elt F)),
    StableHlo.unary main_arg8 main_v287 (broadcastInDim S1x256 ![1] bcast_S256_S1x256_1 : (⟨S256, .f32⟩ : BufTy).Contents (Elt F) → (⟨S1x256, .f32⟩ : BufTy).Contents (Elt F)),
    StableHlo.unary main_v287 main_v288 (broadcastInDim S2048x256 ![0, 1] bcast_S1x256_S2048x256_0_1 : (⟨S1x256, .f32⟩ : BufTy).Contents (Elt F) → (⟨S2048x256, .f32⟩ : BufTy).Contents (Elt F)),
    StableHlo.binary main_v286 main_v288 main_v289 (mulf : (⟨S2048x256, .f32⟩ : BufTy).Contents (Elt F) → (⟨S2048x256, .f32⟩ : BufTy).Contents (Elt F) → (⟨S2048x256, .f32⟩ : BufTy).Contents (Elt F)),
    StableHlo.unary main_arg9 main_v290 (broadcastInDim S1x256 ![1] bcast_S256_S1x256_1 : (⟨S256, .f32⟩ : BufTy).Contents (Elt F) → (⟨S1x256, .f32⟩ : BufTy).Contents (Elt F)),
    StableHlo.unary main_v290 main_v291 (broadcastInDim S2048x256 ![0, 1] bcast_S1x256_S2048x256_0_1 : (⟨S1x256, .f32⟩ : BufTy).Contents (Elt F) → (⟨S2048x256, .f32⟩ : BufTy).Contents (Elt F)),
    StableHlo.binary main_v289 main_v291 main_v292 (addf : (⟨S2048x256, .f32⟩ : BufTy).Contents (Elt F) → (⟨S2048x256, .f32⟩ : BufTy).Contents (Elt F) → (⟨S2048x256, .f32⟩ : BufTy).Contents (Elt F)),
    StableHlo.binary main_v292 main_arg10 main_v293 ((fun l r => Host.dotGeneral dot_S2048x256_S256x128_S2048x128_1_0_0_1_n_n none l r) : (⟨S2048x256, .f32⟩ : BufTy).Contents (Elt F) → (⟨S256x128, .f32⟩ : BufTy).Contents (Elt F) → (⟨S2048x128, .f32⟩ : BufTy).Contents (Elt F)),
    StableHlo.unary main_arg11 main_v294 (broadcastInDim S1x128 ![1] bcast_S128_S1x128_1 : (⟨S128, .f32⟩ : BufTy).Contents (Elt F) → (⟨S1x128, .f32⟩ : BufTy).Contents (Elt F)),
    StableHlo.unary main_v294 main_v295 (broadcastInDim S2048x128 ![0, 1] bcast_S1x128_S2048x128_0_1 : (⟨S1x128, .f32⟩ : BufTy).Contents (Elt F) → (⟨S2048x128, .f32⟩ : BufTy).Contents (Elt F)),
    StableHlo.binary main_v293 main_v295 main_v296 (addf : (⟨S2048x128, .f32⟩ : BufTy).Contents (Elt F) → (⟨S2048x128, .f32⟩ : BufTy).Contents (Elt F) → (⟨S2048x128, .f32⟩ : BufTy).Contents (Elt F)) ]

end Pieces

set_option maxRecDepth 8192 in
theorem ops5_split : (ops5 : List (HloOp τ sig (Elt Ideal))) = t5a (F := Ideal) ++ (t5b ++ (t5c ++ t5d)) := rfl

set_option maxRecDepth 8192 in
theorem ops4_drop : List.drop 64 (ops4 : List (HloOp τ sig (Elt Ideal))) = t4 (F := Ideal) := rfl

theorem after_ops5 (U : RV) : after (ops5 (F := Ideal)) U = after (t5d (F := Ideal)) (after t5c (after t5b (after (t5a (F := Ideal)) U))) := by
  rw [ops5_split, after_concat, after_concat, after_concat]

theorem after_ops4 (U : RV) :
    after (ops4 (F := Ideal)) U = after (t4 (F := Ideal)) (after (List.take 64 (ops4 (F := Ideal))) U) := by
  have h : (ops4 : List (HloOp τ sig (Elt Ideal))) = List.take 64 ops4 ++ t4 := by
    rw [← ops4_drop, List.take_append_drop]
  exact (congrArg (fun l => after l U) h).trans (after_concat _ _ U)

/-! ### What the pieces write lies among what their windows write -/

theorem head4_writes :
    (List.take 64 (ops4 : List (HloOp τ sig (Elt Ideal)))).Forall fun op => op.writes ⊆ (W4.map (Proc.devRef (τ := τ) .tc)).toFinset :=
  List.forall_iff_forall_mem.mpr fun op h =>
    List.forall_iff_forall_mem.mp (ops4_writes (F := Ideal)) op (List.mem_of_mem_take h)

theorem t4_writes : (t4 (F := Ideal)).Forall fun op => op.writes ⊆ (W4.map (Proc.devRef (τ := τ) .tc)).toFinset :=
  List.forall_iff_forall_mem.mpr fun op h =>
    List.forall_iff_forall_mem.mp (ops4_writes (F := Ideal)) op (List.mem_of_mem_drop (ops4_drop.symm ▸ h))

theorem sub5_writes {l : List (HloOp τ sig (Elt Ideal))} (hl : ∀ op ∈ l, op ∈ (ops5 : List (HloOp τ sig (Elt Ideal)))) :
    l.Forall fun op => op.writes ⊆ (W5.map (Proc.devRef (τ := τ) .tc)).toFinset :=
  List.forall_iff_forall_mem.mpr fun op h => List.forall_iff_forall_mem.mp (ops5_writes (F := Ideal)) op (hl op h)

theorem mem5a : ∀ op ∈ t5a (F := Ideal), op ∈ (ops5 : List (HloOp τ sig (Elt Ideal))) := fun op h => by
  rw [ops5_split]; exact List.mem_append_left _ h
theorem mem5b : ∀ op ∈ t5b (F := Ideal), op ∈ (ops5 : List (HloOp τ sig (Elt Ideal))) := fun op h => by
  rw [ops5_split]; exact List.mem_append_right _ (List.mem_append_left _ h)
theorem mem5c : ∀ op ∈ t5c (F := Ideal), op ∈ (ops5 : List (HloOp τ sig (Elt Ideal))) := fun op h => by
  rw [ops5_split]; exact List.mem_append_right _ (List.mem_append_right _ (List.mem_append_left _ h))

theorem keepHead4 (U : RV) (r : Ref sig .tc) (h : r ∉ W4) :
    after (List.take 64 (ops4 (F := Ideal))) U (Proc.devRef .tc r) = U (Proc.devRef .tc r) := after_of_writes_sub _ U head4_writes h
theorem keepT4 (U : RV) (r : Ref sig .tc) (h : r ∉ W4) : after (t4 (F := Ideal)) U (Proc.devRef .tc r) = U (Proc.devRef .tc r) :=
  after_of_writes_sub _ U t4_writes h
theorem keepT5a (U : RV) (r : Ref sig .tc) (h : r ∉ W5) : after (t5a (F := Ideal)) U (Proc.devRef .tc r) = U (Proc.devRef .tc r) :=
  after_of_writes_sub _ U (sub5_writes mem5a) h
theorem keepT5b (U : RV) (r : Ref sig .tc) (h : r ∉ W5) : after (t5b (F := Ideal)) U (Proc.devRef .tc r) = U (Proc.devRef .tc r) :=
  after_of_writes_sub _ U (sub5_writes mem5b) h
theorem keepT5c (U : RV) (r : Ref sig .tc) (h : r ∉ W5) : after (t5c (F := Ideal)) U (Proc.devRef .tc r) = U (Proc.devRef .tc r) :=
  after_of_writes_sub _ U (sub5_writes mem5c) h

/-! ### Each piece's result -/

set_option maxRecDepth 8192 in
/-- The twelve operations after the last features do not write them. -/
theorem t4_v256 (B : RV) : after (t4 (F := Ideal)) B (Proc.devRef .tc main_v256) = B (Proc.devRef .tc main_v256) := by
  after_results_simp

set_option maxRecDepth 8192 in
theorem pooled_eq (B : RV) :
    after (t5a (F := Ideal)) (after (t4 (F := Ideal)) B) (Proc.devRef .tc main_v272) = pooled (B (Proc.devRef .tc main_v256)) (B (Proc.devRef .tc main_arg13)) := by
  after_results_simp
  rfl

set_option maxRecDepth 8192 in
theorem cat_eq (Y : RV) : after (t5b (F := Ideal)) Y (Proc.devRef .tc main_v273) = catF (Y (Proc.devRef .tc main_arg0)) (Y (Proc.devRef .tc main_v272)) := by
  after_results_simp
  rfl

set_option maxRecDepth 8192 in
theorem mean_eq (Y : RV) :
    after (t5b (F := Ideal)) Y (Proc.devRef .tc main_v276) = colMean (catF (Y (Proc.devRef .tc main_arg0)) (Y (Proc.devRef .tc main_v272))) := by
  after_results_simp
  rfl

set_option maxRecDepth 8192 in
theorem zero_eq (Y : RV) : after (t5b (F := Ideal)) Y (Proc.devRef .tc main_c_37) = constantI S_ 32 0#32 := by
  after_results_simp

set_option maxRecDepth 8192 in
theorem var_eq (Y : RV) :
    after (t5c (F := Ideal)) Y (Proc.devRef .tc main_v277) = colVarOf (Y (Proc.devRef .tc main_v273)) (Y (Proc.devRef .tc main_c_37)) := by
  after_results_simp
  rfl

set_option maxRecDepth 8192 in
theorem t5c_v273 (Y : RV) : after (t5c (F := Ideal)) Y (Proc.devRef .tc main_v273) = Y (Proc.devRef .tc main_v273) := by
  after_results_simp

set_option maxRecDepth 8192 in
theorem t5c_v276 (Y : RV) : after (t5c (F := Ideal)) Y (Proc.devRef .tc main_v276) = Y (Proc.devRef .tc main_v276) := by
  after_results_simp

set_option maxRecDepth 8192 in
theorem fin_eq (Y : RV) :
    after (t5d (F := Ideal)) Y (Proc.devRef .tc main_v296)
      = finF (Y (Proc.devRef .tc main_v273)) (Y (Proc.devRef .tc main_v276)) (Y (Proc.devRef .tc main_v277)) (Y (Proc.devRef .tc main_arg8))
          (Y (Proc.devRef .tc main_arg9)) (Y (Proc.devRef .tc main_arg10)) (Y (Proc.devRef .tc main_arg11)) := by
  after_results_simp
  rfl

/-! ## The result -/

/-- An argument array keeps its contents through the first four windows and the fifth up to the last features. -/
theorem keepArg (V : RV) (r : Ref sig .tc) (h0 : r ∉ W0) (h1 : r ∉ W1) (h2 : r ∉ W2) (h3 : r ∉ W3) (h4 : r ∉ W4) :
    after (List.take 64 (ops4 (F := Ideal))) (after ops3 (after ops2 (after ops1 (after ops0 V)))) (Proc.devRef .tc r) = V (Proc.devRef .tc r) := by
  rw [keepHead4 _ r h4, keep3 _ r h3, keep2 _ r h2, keep1 _ r h1, keep0 _ r h0]

/-- The last layer's features at the end of the line are what they were when the last stretch began. -/
theorem v256_eq (V : RV) :
    after (ops (F := Ideal)) V (Proc.devRef .tc main_v256)
      = after (List.take 64 (ops4 (F := Ideal))) (after ops3 (after ops2 (after ops1 (after ops0 V)))) (Proc.devRef .tc main_v256) := by
  rw [after_ops, keep5 _ main_v256 (by decide), after_ops4, t4_v256]

set_option maxRecDepth 8192 in
/-- The reference program's result is `tail` of the last layer's features and the argument arrays. -/
theorem tail_eq (V : RV) :
    after (ops (F := Ideal)) V (Proc.devRef .tc main_v296)
      = tail (after (ops (F := Ideal)) V (Proc.devRef .tc main_v256)) (V (Proc.devRef .tc main_arg0)) (V (Proc.devRef .tc main_arg13))
          (V (Proc.devRef .tc main_arg8)) (V (Proc.devRef .tc main_arg9)) (V (Proc.devRef .tc main_arg10))
          (V (Proc.devRef .tc main_arg11)) := by
  rw [v256_eq, after_ops, after_ops5, after_ops4, fin_eq, var_eq, t5c_v273, t5c_v276,
    keepT5c _ main_arg8 (by decide), keepT5c _ main_arg9 (by decide), keepT5c _ main_arg10 (by decide),
    keepT5c _ main_arg11 (by decide),
    cat_eq, mean_eq, zero_eq,
    keepT5b _ main_arg8 (by decide), keepT5b _ main_arg9 (by decide), keepT5b _ main_arg10 (by decide),
    keepT5b _ main_arg11 (by decide),
    pooled_eq,
    keepT5a _ main_arg0 (by decide), keepT5a _ main_arg8 (by decide), keepT5a _ main_arg9 (by decide),
    keepT5a _ main_arg10 (by decide), keepT5a _ main_arg11 (by decide),
    keepT4 _ main_arg0 (by decide), keepT4 _ main_arg8 (by decide), keepT4 _ main_arg9 (by decide),
    keepT4 _ main_arg10 (by decide), keepT4 _ main_arg11 (by decide),
    keepArg V main_arg0 (by decide) (by decide) (by decide) (by decide) (by decide),
    keepArg V main_arg13 (by decide) (by decide) (by decide) (by decide) (by decide),
    keepArg V main_arg8 (by decide) (by decide) (by decide) (by decide) (by decide),
    keepArg V main_arg9 (by decide) (by decide) (by decide) (by decide) (by decide),
    keepArg V main_arg10 (by decide) (by decide) (by decide) (by decide) (by decide),
    keepArg V main_arg11 (by decide) (by decide) (by decide) (by decide) (by decide)]
  rfl

end Cert.Glue.Ref

end
-- ==== Proof.RefNet.lean ====
/-
  The idealized reference program's result as the network function of its fourteen argument arrays: its two gathers, its
  three layers (each the specification's function of the layer before and of the slabs of the weight arguments), and the
  shared tail of the last features and the arguments.
-/
import proofs.«110946_j38972533244288_1_alg».proof.Proof.RefLayers
import proofs.«110946_j38972533244288_1_alg».proof.Proof.GlueRef
import proofs.«110946_j38972533244288_1_alg».proof.Proof.Net

set_option maxRecDepth 16384

noncomputable section

namespace Cert.ReferenceIdeal.RefNet

open Cert.ReferenceIdeal Cert.ReferenceIdeal.RefRun
open Idealize.ShloMosaic Idealize.ShloMosaic.TcCoe Idealize.SL.Sem Idealize.ShloMosaic.StableHlo Idealize.ShloMosaic.ValueIdx

/-! ## The layer's function respects equality of its arguments -/

theorem layerH_congr {h h' : Fin 768 → Fin 128 → EReal} {cc cc' : Fin 768 → Fin 3 → EReal}
    {w1a w1a' w1b w1b' : Fin 128 → Fin 128 → EReal} {w1c w1c' b1 b1' : Fin 128 → EReal}
    {w2 w2' : Fin 128 → Fin 128 → EReal} {b2 b2' : Fin 128 → EReal}
    (eh : h = h') (ec : cc = cc') (e1 : w1a = w1a') (e2 : w1b = w1b') (e3 : w1c = w1c') (e4 : b1 = b1') (e5 : w2 = w2') (e6 : b2 = b2') :
    Cert.Spec.layerH h cc w1a w1b w1c b1 w2 b2 = Cert.Spec.layerH h' cc' w1a' w1b' w1c' b1' w2' b2' := by
  subst eh ec e1 e2 e3 e4 e5 e6; rfl

theorem layerC_congr {h h' : Fin 768 → Fin 128 → EReal} {cc cc' : Fin 768 → Fin 3 → EReal}
    {wca wca' wcb wcb' : Fin 128 → EReal} {wcc wcc' bc bc' : EReal}
    (eh : h = h') (ec : cc = cc') (e1 : wca = wca') (e2 : wcb = wcb') (e3 : wcc = wcc') (e4 : bc = bc') :
    Cert.Spec.layerC h cc wca wcb wcc bc = Cert.Spec.layerC h' cc' wca' wcb' wcc' bc' := by
  subst eh ec e1 e2 e3 e4; rfl

variable (V : Valuation τ sig (Elt Ideal))

/-! ## The three layers, bottom up -/

/-- The reference's features after 1 layer are the network's. -/
theorem H1_at (i : Fin 768) (d : Fin 128) : after (ops (F := Ideal)) V (Proc.devRef .tc main_v94) (ix2 i d) = (Cert.Net.H1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg12))) i d := by
  have e_h : (fun i k => after (ops (F := Ideal)) V (Proc.devRef .tc main_v6) (ix2 i k)) = (Cert.Net.H0 (V (Proc.devRef .tc main_arg0)) (V (Proc.devRef .tc main_arg12))) := funext fun i => funext fun k => congrFun (Cert.Glue.Ref.gatherH_eq V) (ix2 i k)
  have e_c : (fun i k => after (ops (F := Ideal)) V (Proc.devRef .tc main_v13) (ix2 i k)) = (Cert.Net.C0 (V (Proc.devRef .tc main_arg1)) (V (Proc.devRef .tc main_arg12))) := funext fun i => funext fun k => congrFun (Cert.Glue.Ref.gatherC_eq V) (ix2 i k)
  refine (Cert.ReferenceIdeal.RefLayers.layer1_h V i d).trans ?_
  unfold Cert.Net.H1 Cert.Net.stepH
  exact congrFun (congrFun (layerH_congr e_h e_c rfl rfl rfl rfl rfl rfl) i) d

/-- and its coordinates. -/
theorem C1_at (i : Fin 768) (k : Fin 3) : after (ops (F := Ideal)) V (Proc.devRef .tc main_v93) (ix2 i k) = (Cert.Net.C1 (V (Proc.devRef .tc main_arg0)) (V (Proc.devRef .tc main_arg1)) (V (Proc.devRef .tc main_arg6)) (V (Proc.devRef .tc main_arg7)) (V (Proc.devRef .tc main_arg12))) i k := by
  have e_h : (fun i k => after (ops (F := Ideal)) V (Proc.devRef .tc main_v6) (ix2 i k)) = (Cert.Net.H0 (V (Proc.devRef .tc main_arg0)) (V (Proc.devRef .tc main_arg12))) := funext fun i => funext fun k => congrFun (Cert.Glue.Ref.gatherH_eq V) (ix2 i k)
  have e_c : (fun i k => after (ops (F := Ideal)) V (Proc.devRef .tc main_v13) (ix2 i k)) = (Cert.Net.C0 (V (Proc.devRef .tc main_arg1)) (V (Proc.devRef .tc main_arg12))) := funext fun i => funext fun k => congrFun (Cert.Glue.Ref.gatherC_eq V) (ix2 i k)
  refine (Cert.ReferenceIdeal.RefLayers.layer1_c V i k).trans ?_
  unfold Cert.Net.C1 Cert.Net.stepC
  exact congrFun (congrFun (layerC_congr e_h e_c rfl rfl rfl rfl) i) k

/-- The reference's features after 2 layers are the network's. -/
theorem H2_at (i : Fin 768) (d : Fin 128) : after (ops (F := Ideal)) V (Proc.devRef .tc main_v175) (ix2 i d) = (Cert.Net.H2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg12))) i d := by
  have e_h : (fun i k => after (ops (F := Ideal)) V (Proc.devRef .tc main_v94) (ix2 i k)) = (Cert.Net.H1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg12))) := funext fun i => funext fun k => H1_at V i k
  have e_c : (fun i k => after (ops (F := Ideal)) V (Proc.devRef .tc main_v93) (ix2 i k)) = (Cert.Net.C1 (V (Proc.devRef .tc main_arg0)) (V (Proc.devRef .tc main_arg1)) (V (Proc.devRef .tc main_arg6)) (V (Proc.devRef .tc main_arg7)) (V (Proc.devRef .tc main_arg12))) := funext fun i => funext fun k => C1_at V i k
  refine (Cert.ReferenceIdeal.RefLayers.layer2_h V i d).trans ?_
  unfold Cert.Net.H2 Cert.Net.stepH
  exact congrFun (congrFun (layerH_congr e_h e_c rfl rfl rfl rfl rfl rfl) i) d

/-- and its coordinates. -/
theorem C2_at (i : Fin 768) (k : Fin 3) : after (ops (F := Ideal)) V (Proc.devRef .tc main_v174) (ix2 i k) = (Cert.Net.C2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg12))) i k := by
  have e_h : (fun i k => after (ops (F := Ideal)) V (Proc.devRef .tc main_v94) (ix2 i k)) = (Cert.Net.H1 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg12))) := funext fun i => funext fun k => H1_at V i k
  have e_c : (fun i k => after (ops (F := Ideal)) V (Proc.devRef .tc main_v93) (ix2 i k)) = (Cert.Net.C1 (V (Proc.devRef .tc main_arg0)) (V (Proc.devRef .tc main_arg1)) (V (Proc.devRef .tc main_arg6)) (V (Proc.devRef .tc main_arg7)) (V (Proc.devRef .tc main_arg12))) := funext fun i => funext fun k => C1_at V i k
  refine (Cert.ReferenceIdeal.RefLayers.layer2_c V i k).trans ?_
  unfold Cert.Net.C2 Cert.Net.stepC
  exact congrFun (congrFun (layerC_congr e_h e_c rfl rfl rfl rfl) i) k

/-- The reference's features after 3 layers are the network's. -/
theorem H3_at (i : Fin 768) (d : Fin 128) : after (ops (F := Ideal)) V (Proc.devRef .tc main_v256) (ix2 i d) = (Cert.Net.H3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg12))) i d := by
  have e_h : (fun i k => after (ops (F := Ideal)) V (Proc.devRef .tc main_v175) (ix2 i k)) = (Cert.Net.H2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg12))) := funext fun i => funext fun k => H2_at V i k
  have e_c : (fun i k => after (ops (F := Ideal)) V (Proc.devRef .tc main_v174) (ix2 i k)) = (Cert.Net.C2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg12))) := funext fun i => funext fun k => C2_at V i k
  refine (Cert.ReferenceIdeal.RefLayers.layer3_h V i d).trans ?_
  unfold Cert.Net.H3 Cert.Net.stepH
  exact congrFun (congrFun (layerH_congr e_h e_c rfl rfl rfl rfl rfl rfl) i) d

/-! ## The result -/

/-- THE REFERENCE PROGRAM'S RESULT is the network function of its arguments. -/
theorem ref_value : (StableHlo.after (Cert.ReferenceIdeal.RefRun.ops (F := Ideal)) V (Proc.devRef .tc Cert.ReferenceIdeal.main_v296) : FVec Ideal Cert.KernelIdeal.S2048x128 .f32)
    = Cert.Net.out (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6)) (V (Proc.devRef .tc Cert.ReferenceIdeal.main_arg7)) (V (Proc.devRef .tc Cert.ReferenceIdeal.main_arg8)) (V (Proc.devRef .tc Cert.ReferenceIdeal.main_arg9)) (V (Proc.devRef .tc Cert.ReferenceIdeal.main_arg10)) (V (Proc.devRef .tc Cert.ReferenceIdeal.main_arg11)) (V (Proc.devRef .tc Cert.ReferenceIdeal.main_arg12)) (V (Proc.devRef .tc Cert.ReferenceIdeal.main_arg13)) := by
  have e3 : after (ops (F := Ideal)) V (Proc.devRef .tc main_v256) = Cert.Net.h3 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg12)) := funext fun j => by
    obtain ⟨i, d, rfl⟩ : ∃ (i : Fin 768) (d : Fin 128), j = ix2 i d := ⟨j 0, j 1, eq_ix2 j⟩
    exact H3_at V i d
  refine (Cert.Glue.Ref.tail_eq V).trans ?_
  unfold Cert.Net.out
  rw [e3]

end Cert.ReferenceIdeal.RefNet

end
-- ==== Proof.lean ====
/-
  Three message-passing layers over 768 gathered nodes — each a pipelined kernel over a 6 × 6 grid of 128-row tiles that
  accumulates, over the sending tile, the sums of silu-activated pair messages and of weighted coordinate differences,
  and at the last sending tile scales the sums by 1/768, applies the second linear map and adds the residual —
  against the plain all-pairs computation of the same layers, followed on both sides by the same pooling,
  normalisation and projection.
  The frames: the word-level and the idealized kernel programs run region by region (each layer's region entered by
  dealing its arrays to its windows — the node features and the coordinates are each staged through two windows, which
  hold their array at half a share each — and left by joining them again); the reference is a straight line of host
  operations. The idealization names one constant: the scale 1/768, which the reference divides by instead.
  The values: at the ideal instance each layer's region leaves, in its two output arrays, the specification's layer
  function of the arrays it was entered with (the six tile sums over the sending tiles are the sum over all 768
  sending nodes; x · (1/768) is x / 768 on every extended real; the logistic is 1 / (1 + e^(−x)) by definition), and
  the reference's operations compute the same function; no law used needs finiteness, so the precondition is never
  opened.
-/
import proofs.«110946_j38972533244288_1_alg».proof.Defs
import proofs.«110946_j38972533244288_1_alg».proof.Proof.Gen.Kernel
import proofs.«110946_j38972533244288_1_alg».proof.Proof.Gen.KernelIdeal
import proofs.«110946_j38972533244288_1_alg».proof.Proof.Gen.ReferenceIdeal
import proofs.«110946_j38972533244288_1_alg».proof.Proof.Gen.Pre_finite_inputs
import proofs.«110946_j38972533244288_1_alg».proof.Proof.BitsFrame
import proofs.«110946_j38972533244288_1_alg».proof.Proof.IdealRun
import proofs.«110946_j38972533244288_1_alg».proof.Proof.RefRun
import proofs.«110946_j38972533244288_1_alg».proof.Proof.Net
import proofs.«110946_j38972533244288_1_alg».proof.Proof.IdealNet
import proofs.«110946_j38972533244288_1_alg».proof.Proof.RefNet
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.Whole.frame (F := Bits) m ρ
theorem frame_ki : Cert.frame_KernelIdeal (hKernelIdeal := Cert.KernelIdeal.Gen.facts) (hPre_finite_inputs := Cert.Pre_finite_inputs.Gen.facts) :=
  fun m ρ _ => Cert.KernelIdeal.Gen.Whole.frame (F := Ideal) m ρ
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- The six uses of the scale (two per layer) name the same constant: 1/768. -/
theorem preserves : Cert.preserves_Kernel_KernelIdeal :=
  ⟨IdealRules.named_const.statement Cert.KernelIdeal.κ "inv_768" .f32 0x3AAAAAAB#32 ((1 / 768 : ℝ) : EReal) rfl,
   IdealRules.named_const.statement Cert.KernelIdeal.κ "inv_768" .f32 0x3AAAAAAB#32 ((1 / 768 : ℝ) : EReal) rfl,
   IdealRules.named_const.statement Cert.KernelIdeal.κ "inv_768" .f32 0x3AAAAAAB#32 ((1 / 768 : ℝ) : EReal) rfl,
   IdealRules.named_const.statement Cert.KernelIdeal.κ "inv_768" .f32 0x3AAAAAAB#32 ((1 / 768 : ℝ) : EReal) rfl,
   IdealRules.named_const.statement Cert.KernelIdeal.κ "inv_768" .f32 0x3AAAAAAB#32 ((1 / 768 : ℝ) : EReal) rfl,
   IdealRules.named_const.statement Cert.KernelIdeal.κ "inv_768" .f32 0x3AAAAAAB#32 ((1 / 768 : ℝ) : EReal) rfl⟩

/-- From memories agreeing on the arguments both programs end with the same result: each program's result is the one
    network function of its own arguments — the gathers, three layers of the specification with the arguments' slices as
    weights, the shared tail — (`hk` for the idealized kernel program, whose layers' regions accumulate tile by tile and
    scale by the named 1/768; `hr` for the reference, which sums over all 768 sending nodes and divides by 768), and the
    arguments agree. -/
theorem algebraic_of
    (hk : ∀ (m : (ℓ : Loc Cert.KernelIdeal.nD Cert.KernelIdeal.τ Cert.KernelIdeal.sig) → Buf (Elt Ideal) ℓ) (c : Dev Cert.KernelIdeal.nD),
      (Cert.KernelIdeal.Gen.Whole.result (F := Ideal) m c Cert.KernelIdeal.main_v107 : FVec Ideal Cert.KernelIdeal.S2048x128 .f32)
        = Cert.Net.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)))
    (hr : ∀ (V : Valuation Cert.ReferenceIdeal.τ Cert.ReferenceIdeal.sig (Elt Ideal)),
      (StableHlo.after (Cert.ReferenceIdeal.RefRun.ops (F := Ideal)) V (Proc.devRef .tc Cert.ReferenceIdeal.main_v296) : FVec Ideal Cert.KernelIdeal.S2048x128 .f32)
        = Cert.Net.out (V (Proc.devRef .tc Cert.ReferenceIdeal.main_arg0)) (V (Proc.devRef .tc Cert.ReferenceIdeal.main_arg1)) (V (Proc.devRef .tc Cert.ReferenceIdeal.main_arg2)) (V (Proc.devRef .tc Cert.ReferenceIdeal.main_arg3)) (V (Proc.devRef .tc Cert.ReferenceIdeal.main_arg4)) (V (Proc.devRef .tc Cert.ReferenceIdeal.main_arg5)) (V (Proc.devRef .tc Cert.ReferenceIdeal.main_arg6)) (V (Proc.devRef .tc Cert.ReferenceIdeal.main_arg7)) (V (Proc.devRef .tc Cert.ReferenceIdeal.main_arg8)) (V (Proc.devRef .tc Cert.ReferenceIdeal.main_arg9)) (V (Proc.devRef .tc Cert.ReferenceIdeal.main_arg10)) (V (Proc.devRef .tc Cert.ReferenceIdeal.main_arg11)) (V (Proc.devRef .tc Cert.ReferenceIdeal.main_arg12)) (V (Proc.devRef .tc Cert.ReferenceIdeal.main_arg13))) :
    Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Gen.Whole.result (F := Ideal) m c Cert.KernelIdeal.main_v107, Cert.KernelIdeal.Gen.Whole.run_value (F := Ideal) m ρ, ?_⟩
  refine (θ_run (Cert.ReferenceIdeal.defs (F := Ideal)) _ _).mono (fun r h c => ⟨(h c).1.trans ?_, (h c).2⟩) (Cert.ReferenceIdeal.RefRun.run (F := Ideal) m' ρ')
  obtain ⟨e0, e1, e2, e3, e4, e5, e6, e7, e8, e9, e10, e11, e12, e13⟩ := hagree c
  refine (hr (fun b => m' (c, b))).trans ((Eq.trans ?_ (hk m c).symm))
  show Cert.Net.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) = _
  rw [e0, e1, e2, e3, e4, e5, e6, e7, e8, e9, e10, e11, e12, e13]

theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) :=
  algebraic_of (fun m c => Cert.KernelIdeal.Gen.Whole.kernel_value m c) (fun V => Cert.ReferenceIdeal.RefNet.ref_value V)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
